-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S160000x64 : Shape := ⟨2, ![160000, 64]⟩
abbrev S640000x32 : Shape := ⟨2, ![640000, 32]⟩
abbrev S2560000x32 : Shape := ⟨2, ![2560000, 32]⟩
abbrev S9x128x64 : Shape := ⟨3, ![9, 128, 64]⟩
abbrev S9x64x32 : Shape := ⟨3, ![9, 64, 32]⟩
abbrev S9x32x32 : Shape := ⟨3, ![9, 32, 32]⟩
abbrev S64 : Shape := ⟨1, ![64]⟩
abbrev S32 : Shape := ⟨1, ![32]⟩
abbrev S9x40000 : Shape := ⟨2, ![9, 40000]⟩
abbrev S9x160000 : Shape := ⟨2, ![9, 160000]⟩
abbrev S9x640000 : Shape := ⟨2, ![9, 640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S160000x64 : S_.BroadcastsInDim S160000x64 (![] : Fin 0 → Fin S160000x64.rank)
  reducesTo_S160000x64_S_d0_1 : S160000x64.ReducesTo [0, 1] S_
  bcast_S_S640000x32 : S_.BroadcastsInDim S640000x32 (![] : Fin 0 → Fin S640000x32.rank)
  reducesTo_S640000x32_S_d0_1 : S640000x32.ReducesTo [0, 1] S_
  bcast_S_S2560000x32 : S_.BroadcastsInDim S2560000x32 (![] : Fin 0 → Fin S2560000x32.rank)
  reducesTo_S2560000x32_S_d0_1 : S2560000x32.ReducesTo [0, 1] S_
  bcast_S_S9x128x64 : S_.BroadcastsInDim S9x128x64 (![] : Fin 0 → Fin S9x128x64.rank)
  reducesTo_S9x128x64_S_d0_1_2 : S9x128x64.ReducesTo [0, 1, 2] S_
  bcast_S_S9x64x32 : S_.BroadcastsInDim S9x64x32 (![] : Fin 0 → Fin S9x64x32.rank)
  reducesTo_S9x64x32_S_d0_1_2 : S9x64x32.ReducesTo [0, 1, 2] S_
  bcast_S_S9x32x32 : S_.BroadcastsInDim S9x32x32 (![] : Fin 0 → Fin S9x32x32.rank)
  reducesTo_S9x32x32_S_d0_1_2 : S9x32x32.ReducesTo [0, 1, 2] S_
  bcast_S_S64 : S_.BroadcastsInDim S64 (![] : Fin 0 → Fin S64.rank)
  reducesTo_S64_S_d0 : S64.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_arg12 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  main_v63

def fn_part2 {F : FTy → Type} [FloatOps F] (main_arg7 : FVec F S64 .f32) (main_arg8 : FVec F S64 .f32) (main_arg9 : FVec F S32 .f32) (main_arg10 : FVec F S32 .f32) (main_arg11 : FVec F S32 .f32) (main_arg12 : FVec F S32 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S9x128x64 .f32) (main_arg5 : FVec F S9x64x32 .f32) (main_arg6 : FVec F S9x32x32 .f32) (main_arg7 : FVec F S64 .f32) (main_arg8 : FVec F S64 .f32) (main_arg9 : FVec F S32 .f32) (main_arg10 : FVec F S32 .f32) (main_arg11 : FVec F S32 .f32) (main_arg12 : FVec F S32 .f32) (main_v13 : IVec S_ 1) (main_v16 : IVec S2560000x32 1) : IVec S_ 1 :=
  let main_c_5 : IVec S_ 1 := constantI S_ 1 1#1
  let main_v17 : IVec S_ 1 := (fun x v => Host.reduce IntOp.andi x v reducesTo_S2560000x32_S_d0_1 h_S_) main_v16 main_c_5
  let main_v18 : IVec S_ 1 := andi main_v13 main_v17
  let main_v19 : FVec F S9x128x64 .f32 := Host.absf main_arg4
  let main_cst_6 : FVec F S_ .f32 := constant S_ .f32 0x7F800000#32
  let main_v20 : FVec F S9x128x64 .f32 := broadcastInDim S9x128x64 ![] bcast_S_S9x128x64 main_cst_6
  let main_v21 : IVec S9x128x64 1 := cmpf .olt main_v19 main_v20
  let main_c_7 : IVec S_ 1 := constantI S_ 1 1#1
  let main_v22 : IVec S_ 1 := (fun x v => Host.reduce IntOp.andi x v reducesTo_S9x128x64_S_d0_1_2 h_S_) main_v21 main_c_7
  let main_v23 : IVec S_ 1 := andi main_v18 main_v22
  let main_v24 : FVec F S9x64x32 .f32 := Host.absf main_arg5
  let main_cst_8 : FVec F S_ .f32 := constant S_ .f32 0x7F800000#32
  let main_v25 : FVec F S9x64x32 .f32 := broadcastInDim S9x64x32 ![] bcast_S_S9x64x32 main_cst_8
  let main_v26 : IVec S9x64x32 1 := cmpf .olt main_v24 main_v25
  let main_c_9 : IVec S_ 1 := constantI S_ 1 1#1
  let main_v27 : IVec S_ 1 := (fun x v => Host.reduce IntOp.andi x v reducesTo_S9x64x32_S_d0_1_2 h_S_) main_v26 main_c_9
  let main_v28 : IVec S_ 1 := andi main_v23 main_v27
  let main_v29 : FVec F S9x32x32 .f32 := Host.absf main_arg6
  let main_cst_10 : FVec F S_ .f32 := constant S_ .f32 0x7F800000#32
  let main_v30 : FVec F S9x32x32 .f32 := broadcastInDim S9x32x32 ![] bcast_S_S9x32x32 main_cst_10
  let main_v31 : IVec S9x32x32 1 := cmpf .olt main_v29 main_v30
  let main_c_11 : IVec S_ 1 := constantI S_ 1 1#1
  let main_v32 : IVec S_ 1 := (fun x v => Host.reduce IntOp.andi x v reducesTo_S9x32x32_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S40000x128 .f32) (main_arg1 : FVec F S160000x64 .f32) (main_arg2 : FVec F S640000x32 .f32) (main_arg3 : FVec F S2560000x32 .f32) (main_arg4 : FVec F S9x128x64 .f32) (main_arg5 : FVec F S9x64x32 .f32) (main_arg6 : FVec F S9x32x32 .f32) (main_arg7 : FVec F S64 .f32) (main_arg8 : FVec F S64 .f32) (main_arg9 : FVec F S32 .f32) (main_arg10 : FVec F S32 .f32) (main_arg11 : FVec F S32 .f32) (main_arg12 : FVec F S32 .f32) (main_arg13 : IVec S9x40000 32) (main_arg14 : IVec S9x40000 32) (main_arg15 : IVec S9x160000 32) (main_arg16 : IVec S9x160000 32) (main_arg17 : IVec S9x640000 32) (main_arg18 : IVec S9x640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S160000x64 .f32 := Host.absf main_arg1
  let main_cst_0 : FVec F S_ .f32 := constant S_ .f32 0x7F800000#32
  let main_v5 : FVec F S160000x64 .f32 := broadcastInDim S160000x64 ![] bcast_S_S160000x64 main_cst_0
  let main_v6 : IVec S160000x64 1 := cmpf .olt main_v4 main_v5
  let main_c_1 : IVec S_ 1 := constantI S_ 1 1#1
  let main_v7 : IVec S_ 1 := (fun x v => Host.reduce IntOp.andi x v reducesTo_S160000x64_S_d0_1 h_S_) main_v6 main_c_1
  let main_v8 : IVec S_ 1 := andi main_v3 main_v7
  let main_v9 : FVec F S640000x32 .f32 := Host.absf main_arg2
  let main_cst_2 : FVec F S_ .f32 := constant S_ .f32 0x7F800000#32
  let main_v10 : FVec F S640000x32 .f32 := broadcastInDim S640000x32 ![] bcast_S_S640000x32 main_cst_2
  let main_v11 : IVec S640000x32 1 := cmpf .olt main_v9 main_v10
  let main_c_3 : IVec S_ 1 := constantI S_ 1 1#1
  let main_v12 : IVec S_ 1 := (fun x v => Host.reduce IntOp.andi x v reducesTo_S640000x32_S_d0_1 h_S_) main_v11 main_c_3
  let main_v13 : IVec S_ 1 := andi main_v8 main_v12
  let main_v14 : FVec F S2560000x32 .f32 := Host.absf main_arg3
  let main_cst_4 : FVec F S_ .f32 := constant S_ .f32 0x7F800000#32
  let main_v15 : FVec F S2560000x32 .f32 := broadcastInDim S2560000x32 ![] bcast_S_S2560000x32 main_cst_4
  let main_v16 : IVec S2560000x32 1 := cmpf .olt main_v14 main_v15
  fn_part1 (F := F) main_arg4 main_arg5 main_arg6 main_arg7 main_arg8 main_arg9 main_arg10 main_arg11 main_arg12 main_v13 main_v16
-- ==== Kernel.lean ====
abbrev S40000x128 : Shape := ⟨2, ![40000, 128]⟩
abbrev S160000x64 : Shape := ⟨2, ![160000, 64]⟩
abbrev S640000x32 : Shape := ⟨2, ![640000, 32]⟩
abbrev S2560000x32 : Shape := ⟨2, ![2560000, 32]⟩
abbrev S9x128x64 : Shape := ⟨3, ![9, 128, 64]⟩
abbrev S9x64x32 : Shape := ⟨3, ![9, 64, 32]⟩
abbrev S9x32x32 : Shape := ⟨3, ![9, 32, 32]⟩
abbrev S64 : Shape := ⟨1, ![64]⟩
abbrev S32 : Shape := ⟨1, ![32]⟩
abbrev S9x40000 : Shape := ⟨2, ![9, 40000]⟩
abbrev S9x160000 : Shape := ⟨2, ![9, 160000]⟩
abbrev S9x640000 : Shape := ⟨2, ![9, 640000]⟩
abbrev S_ : Shape := ⟨0, ![]⟩
abbrev S9x40000x1 : Shape := ⟨3, ![9, 40000, 1]⟩
abbrev S9x40000x128 : Shape := ⟨3, ![9, 40000, 128]⟩
abbrev S9x40000x64 : Shape := ⟨3, ![9, 40000, 64]⟩
abbrev S9x2000x128 : Shape := ⟨3, ![9, 2000, 128]⟩
abbrev S9x2000x64 : Shape := ⟨3, ![9, 2000, 64]⟩
abbrev S1x2000x128 : Shape := ⟨3, ![1, 2000, 128]⟩
abbrev S2000x128 : Shape := ⟨2, ![2000, 128]⟩
abbrev S1x128x64 : Shape := ⟨3, ![1, 128, 64]⟩
abbrev S128x64 : Shape := ⟨2, ![128, 64]⟩
abbrev S2000x64 : Shape := ⟨2, ![2000, 64]⟩
abbrev S1x2000x64 : Shape := ⟨3, ![1, 2000, 64]⟩
abbrev S360000 : Shape := ⟨1, ![360000]⟩
abbrev S360000x64 : Shape := ⟨2, ![360000, 64]⟩
abbrev S360000x1 : Shape := ⟨2, ![360000, 1]⟩
abbrev S1x64 : Shape := ⟨2, ![1, 64]⟩
abbrev S8000x64 : Shape := ⟨2, ![8000, 64]⟩
abbrev S9x160000x1 : Shape := ⟨3, ![9, 160000, 1]⟩
abbrev S9x160000x64 : Shape := ⟨3, ![9, 160000, 64]⟩
abbrev S9x160000x32 : Shape := ⟨3, ![9, 160000, 32]⟩
abbrev S9x2000x32 : Shape := ⟨3, ![9, 2000, 32]⟩
abbrev S1x64x32 : Shape := ⟨3, ![1, 64, 32]⟩
abbrev S64x32 : Shape := ⟨2, ![64, 32]⟩
abbrev S2000x32 : Shape := ⟨2, ![2000, 32]⟩
abbrev S1x2000x32 : Shape := ⟨3, ![1, 2000, 32]⟩
abbrev S1440000 : Shape := ⟨1, ![1440000]⟩
abbrev S1440000x32 : Shape := ⟨2, ![1440000, 32]⟩
abbrev S1440000x1 : Shape := ⟨2, ![1440000, 1]⟩
abbrev S1x32 : Shape := ⟨2, ![1, 32]⟩
abbrev S8000x32 : Shape := ⟨2, ![8000, 32]⟩
abbrev S9x640000x1 : Shape := ⟨3, ![9, 640000, 1]⟩
abbrev S9x640000x32 : Shape := ⟨3, ![9, 640000, 32]⟩
abbrev S1x32x32 : Shape := ⟨3, ![1, 32, 32]⟩
abbrev S32x32 : Shape := ⟨2, ![32, 32]⟩
abbrev S5760000 : Shape := ⟨1, ![5760000]⟩
abbrev S5760000x32 : Shape := ⟨2, ![5760000, 32]⟩
abbrev S5760000x1 : Shape := ⟨2, ![5760000, 1]⟩

abbrev nBuf : Space → Nat
  | .hbm => 109
  | .vmem => 63
  | .smem => 0
  | _ => 0

abbrev bufTy : (tb : Table) → Fin (tcTables nBuf tb) → BufTy
  | .hbm, ⟨0, _⟩ => ⟨S40000x128, .f32⟩
  | .hbm, ⟨1, _⟩ => ⟨S160000x64, .f32⟩
  | .hbm, ⟨2, _⟩ => ⟨S640000x32, .f32⟩
  | .hbm, ⟨3, _⟩ => ⟨S2560000x32, .f32⟩
  | .hbm, ⟨4, _⟩ => ⟨S9x128x64, .f32⟩
  | .hbm, ⟨5, _⟩ => ⟨S9x64x32, .f32⟩
  | .hbm, ⟨6, _⟩ => ⟨S9x32x32, .f32⟩
  | .hbm, ⟨7, _⟩ => ⟨S64, .f32⟩
  | .hbm, ⟨8, _⟩ => ⟨S64, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S9x40000, .i32⟩
  | .hbm, ⟨14, _⟩ => ⟨S9x40000, .i32⟩
  | .hbm, ⟨15, _⟩ => ⟨S9x160000, .i32⟩
  | .hbm, ⟨16, _⟩ => ⟨S9x160000, .i32⟩
  | .hbm, ⟨17, _⟩ => ⟨S9x640000, .i32⟩
  | .hbm, ⟨18, _⟩ => ⟨S9x640000, .i32⟩
  | .hbm, ⟨19, _⟩ => ⟨S40000x128, .bf16⟩
  | .hbm, ⟨20, _⟩ => ⟨S9x128x64, .bf16⟩
  | .hbm, ⟨21, _⟩ => ⟨S_, .i32⟩
  | .hbm, ⟨22, _⟩ => ⟨S9x40000, .i32⟩
  | .hbm, ⟨23, _⟩ => ⟨S9x40000, .i1⟩
  | .hbm, ⟨24, _⟩ => ⟨S_, .i32⟩
  | .hbm, ⟨25, _⟩ => ⟨S9x40000, .i32⟩
  | .hbm, ⟨26, _⟩ => ⟨S9x40000, .i32⟩
  | .hbm, ⟨27, _⟩ => ⟨S9x40000, .i32⟩
  | .hbm, ⟨28, _⟩ => ⟨S9x40000x1, .i32⟩
  | .hbm, ⟨29, _⟩ => ⟨S9x40000x128, .bf16⟩
  | .hbm, ⟨30, _⟩ => ⟨S9x40000x64, .f32⟩
  | .hbm, ⟨31, _⟩ => ⟨S360000, .i32⟩
  | .hbm, ⟨32, _⟩ => ⟨S360000x64, .f32⟩
  | .hbm, ⟨33, _⟩ => ⟨S_, .f32⟩
  | .hbm, ⟨34, _⟩ => ⟨S160000x64, .f32⟩
  | .hbm, ⟨35, _⟩ => ⟨S_, .i32⟩
  | .hbm, ⟨36, _⟩ => ⟨S360000, .i32⟩
  | .hbm, ⟨37, _⟩ => ⟨S360000, .i1⟩
  | .hbm, ⟨38, _⟩ => ⟨S_, .i32⟩
  | .hbm, ⟨39, _⟩ => ⟨S360000, .i32⟩
  | .hbm, ⟨40, _⟩ => ⟨S360000, .i32⟩
  | .hbm, ⟨41, _⟩ => ⟨S360000, .i32⟩
  | .hbm, ⟨42, _⟩ => ⟨S360000x1, .i32⟩
  | .hbm, ⟨43, _⟩ => ⟨S160000x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S160000x64, .f32⟩
  | .hbm, ⟨49, _⟩ => ⟨S160000x64, .bf16⟩
  | .hbm, ⟨50, _⟩ => ⟨S9x64x32, .bf16⟩
  | .hbm, ⟨51, _⟩ => ⟨S_, .i32⟩
  | .hbm, ⟨52, _⟩ => ⟨S9x160000, .i32⟩
  | .hbm, ⟨53, _⟩ => ⟨S9x160000, .i1⟩
  | .hbm, ⟨54, _⟩ => ⟨S_, .i32⟩
  | .hbm, ⟨55, _⟩ => ⟨S9x160000, .i32⟩
  | .hbm, ⟨56, _⟩ => ⟨S9x160000, .i32⟩
  | .hbm, ⟨57, _⟩ => ⟨S9x160000, .i32⟩
  | .hbm, ⟨58, _⟩ => ⟨S9x160000x1, .i32⟩
  | .hbm, ⟨59, _⟩ => ⟨S9x160000x64, .bf16⟩
  | .hbm, ⟨60, _⟩ => ⟨S9x160000x32, .f32⟩
  | .hbm, ⟨61, _⟩ => ⟨S1440000, .i32⟩
  | .hbm, ⟨62, _⟩ => ⟨S1440000x32, .f32⟩
  | .hbm, ⟨63, _⟩ => ⟨S_, .f32⟩
  | .hbm, ⟨64, _⟩ => ⟨S640000x32, .f32⟩
  | .hbm, ⟨65, _⟩ => ⟨S_, .i32⟩
  | .hbm, ⟨66, _⟩ => ⟨S1440000, .i32⟩
  | .hbm, ⟨67, _⟩ => ⟨S1440000, .i1⟩
  | .hbm, ⟨68, _⟩ => ⟨S_, .i32⟩
  | .hbm, ⟨69, _⟩ => ⟨S1440000, .i32⟩
  | .hbm, ⟨70, _⟩ => ⟨S1440000, .i32⟩
  | .hbm, ⟨71, _⟩ => ⟨S1440000, .i32⟩
  | .hbm, ⟨72, _⟩ => ⟨S1440000x1, .i32⟩
  | .hbm, ⟨73, _⟩ => ⟨S640000x32, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S640000x32, .f32⟩
  | .hbm, ⟨79, _⟩ => ⟨S640000x32, .bf16⟩
  | .hbm, ⟨80, _⟩ => ⟨S9x32x32, .bf16⟩
  | .hbm, ⟨81, _⟩ => ⟨S_, .i32⟩
  | .hbm, ⟨82, _⟩ => ⟨S9x640000, .i32⟩
  | .hbm, ⟨83, _⟩ => ⟨S9x640000, .i1⟩
  | .hbm, ⟨84, _⟩ => ⟨S_, .i32⟩
  | .hbm, ⟨85, _⟩ => ⟨S9x640000, .i32⟩
  | .hbm, ⟨86, _⟩ => ⟨S9x640000, .i32⟩
  | .hbm, ⟨87, _⟩ => ⟨S9x640000, .i32⟩
  | .hbm, ⟨88, _⟩ => ⟨S9x640000x1, .i32⟩
  | .hbm, ⟨89, _⟩ => ⟨S9x640000x32, .bf16⟩
  | .hbm, ⟨90, _⟩ => ⟨S9x640000x32, .f32⟩
  | .hbm, ⟨91, _⟩ => ⟨S5760000, .i32⟩
  | .hbm, ⟨92, _⟩ => ⟨S5760000x32, .f32⟩
  | .hbm, ⟨93, _⟩ => ⟨S_, .f32⟩
  | .hbm, ⟨94, _⟩ => ⟨S2560000x32, .f32⟩
  | .hbm, ⟨95, _⟩ => ⟨S_, .i32⟩
  | .hbm, ⟨96, _⟩ => ⟨S5760000, .i32⟩
  | .hbm, ⟨97, _⟩ => ⟨S5760000, .i1⟩
  | .hbm, ⟨98, _⟩ => ⟨S_, .i32⟩
  | .hbm, ⟨99, _⟩ => ⟨S5760000, .i32⟩
  | .hbm, ⟨100, _⟩ => ⟨S5760000, .i32⟩
  | .hbm, ⟨101, _⟩ => ⟨S5760000, .i32⟩
  | .hbm, ⟨102, _⟩ => ⟨S5760000x1, .i32⟩
  | .hbm, ⟨103, _⟩ => ⟨S2560000x32, .f32⟩
  | .hbm, ⟨104, _⟩ => ⟨S1x32, .f32⟩
  | .hbm, ⟨105, _⟩ => ⟨S1x32, .f32⟩
  | .hbm, ⟨106, _⟩ => ⟨S1x32, .f32⟩
  | .hbm, ⟨107, _⟩ => ⟨S1x32, .f32⟩
  | .hbm, ⟨108, _⟩ => ⟨S2560000x32, .f32⟩
  | .local _ .vmem, ⟨0, _⟩ => ⟨S9x2000x128, .bf16⟩
  | .local _ .vmem, ⟨1, _⟩ => ⟨S9x2000x128, .bf16⟩
  | .local _ .vmem, ⟨2, _⟩ => ⟨S9x128x64, .bf16⟩
  | .local _ .vmem, ⟨3, _⟩ => ⟨S9x2000x64, .f32⟩
  | .local _ .vmem, ⟨4, _⟩ => ⟨S9x2000x64, .f32⟩
  | .local _ .vmem, ⟨5, _⟩ => ⟨S8000x64, .f32⟩
  | .local _ .vmem, ⟨6, _⟩ => ⟨S8000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S8000x64, .f32⟩
  | .local _ .vmem, ⟨12, _⟩ => ⟨S8000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S9x2000x64, .bf16⟩
  | .local _ .vmem, ⟨22, _⟩ => ⟨S9x2000x64, .bf16⟩
  | .local _ .vmem, ⟨23, _⟩ => ⟨S9x64x32, .bf16⟩
  | .local _ .vmem, ⟨24, _⟩ => ⟨S9x2000x32, .f32⟩
  | .local _ .vmem, ⟨25, _⟩ => ⟨S9x2000x32, .f32⟩
  | .local _ .vmem, ⟨26, _⟩ => ⟨S8000x32, .f32⟩
  | .local _ .vmem, ⟨27, _⟩ => ⟨S8000x32, .f32⟩
  | .local _ .vmem, ⟨28, _⟩ => ⟨S1x32, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S8000x32, .f32⟩
  | .local _ .vmem, ⟨33, _⟩ => ⟨S8000x32, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S8000x32, .f32⟩
  | .local _ .vmem, ⟨39, _⟩ => ⟨S8000x32, .f32⟩
  | .local _ .vmem, ⟨40, _⟩ => ⟨S8000x32, .f32⟩
  | .local _ .vmem, ⟨41, _⟩ => ⟨S8000x32, .f32⟩
  | .local _ .vmem, ⟨42, _⟩ => ⟨S9x2000x32, .bf16⟩
  | .local _ .vmem, ⟨43, _⟩ => ⟨S9x2000x32, .bf16⟩
  | .local _ .vmem, ⟨44, _⟩ => ⟨S9x32x32, .bf16⟩
  | .local _ .vmem, ⟨45, _⟩ => ⟨S9x2000x32, .f32⟩
  | .local _ .vmem, ⟨46, _⟩ => ⟨S9x2000x32, .f32⟩
  | .local _ .vmem, ⟨47, _⟩ => ⟨S8000x32, .f32⟩
  | .local _ .vmem, ⟨48, _⟩ => ⟨S8000x32, .f32⟩
  | .local _ .vmem, ⟨49, _⟩ => ⟨S1x32, .f32⟩
  | .local _ .vmem, ⟨50, _⟩ => ⟨S1x32, .f32⟩
  | .local _ .vmem, ⟨51, _⟩ => ⟨S1x32, .f32⟩
  | .local _ .vmem, ⟨52, _⟩ => ⟨S1x32, .f32⟩
  | .local _ .vmem, ⟨53, _⟩ => ⟨S8000x32, .f32⟩
  | .local _ .vmem, ⟨54, _⟩ => ⟨S8000x32, .f32⟩
  | .local _ .vmem, ⟨55, _⟩ => ⟨S1x32, .f32⟩
  | .local _ .vmem, ⟨56, _⟩ => ⟨S1x32, .f32⟩
  | .local _ .vmem, ⟨57, _⟩ => ⟨S1x32, .f32⟩
  | .local _ .vmem, ⟨58, _⟩ => ⟨S1x32, .f32⟩
  | .local _ .vmem, ⟨59, _⟩ => ⟨S8000x32, .f32⟩
  | .local _ .vmem, ⟨60, _⟩ => ⟨S8000x32, .f32⟩
  | .local _ .vmem, ⟨61, _⟩ => ⟨S8000x32, .f32⟩
  | .local _ .vmem, ⟨62, _⟩ => ⟨S8000x32, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_c_1 : Ref sig .tc := ⟨.hbm, 35, rfl⟩
abbrev main_v13 : Ref sig .tc := ⟨.hbm, 36, rfl⟩
abbrev main_v14 : Ref sig .tc := ⟨.hbm, 37, rfl⟩
abbrev main_c_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_3 : Ref sig .tc := ⟨.hbm, 51, rfl⟩
abbrev main_v26 : Ref sig .tc := ⟨.hbm, 52, rfl⟩
abbrev main_v27 : Ref sig .tc := ⟨.hbm, 53, rfl⟩
abbrev main_c_4 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_c_6 : Ref sig .tc := ⟨.hbm, 65, rfl⟩
abbrev main_v37 : Ref sig .tc := ⟨.hbm, 66, rfl⟩
abbrev main_v38 : Ref sig .tc := ⟨.hbm, 67, rfl⟩
abbrev main_c_7 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44_0 : Ref sig .tc := ⟨.hbm, 74, rfl⟩
abbrev main_v44_1 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_8 : Ref sig .tc := ⟨.hbm, 81, rfl⟩
abbrev main_v50 : Ref sig .tc := ⟨.hbm, 82, rfl⟩
abbrev main_v51 : Ref sig .tc := ⟨.hbm, 83, rfl⟩
abbrev main_c_9 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_c_11 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68_0 : Ref sig .tc := ⟨.hbm, 104, rfl⟩
abbrev main_v68_1 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_scratch0 : Ref sig .tc := ⟨.vmem, 30, rfl⟩
abbrev cc4_scratch1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg2_0 : Ref sig .tc := ⟨.vmem, 50, rfl⟩
abbrev cc7_scratch0 : Ref sig .tc := ⟨.vmem, 51, rfl⟩
abbrev cc7_scratch1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg3_0 : Ref sig .tc := ⟨.vmem, 57, rfl⟩
abbrev cc8_stg4_0 : Ref sig .tc := ⟨.vmem, 58, rfl⟩
abbrev cc8_stg5_0 : Ref sig .tc := ⟨.vmem, 59, rfl⟩
abbrev cc8_stg5_1 : Ref sig .tc := ⟨.vmem, 60, rfl⟩
abbrev cc8_stg6_0 : Ref sig .tc := ⟨.vmem, 61, rfl⟩
abbrev cc8_stg6_1 : Ref sig .tc := ⟨.vmem, 62, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc5_sem6_0 : DmaSem sig := 36
abbrev cc5_sem6_1 : DmaSem sig := 37
abbrev cc6_sem0_0 : DmaSem sig := 38
abbrev cc6_sem0_1 : DmaSem sig := 39
abbrev cc6_sem1_0 : DmaSem sig := 40
abbrev cc6_sem2_0 : DmaSem sig := 41
abbrev cc6_sem2_1 : DmaSem sig := 42
abbrev cc7_sem0_0 : DmaSem sig := 43
abbrev cc7_sem0_1 : DmaSem sig := 44
abbrev cc7_sem1_0 : DmaSem sig := 45
abbrev cc7_sem2_0 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem3_0 : DmaSem sig := 51
abbrev cc8_sem4_0 : DmaSem sig := 52
abbrev cc8_sem5_0 : DmaSem sig := 53
abbrev cc8_sem5_1 : DmaSem sig := 54
abbrev cc8_sem6_0 : DmaSem sig := 55
abbrev cc8_sem6_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S9x2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9x2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![80], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S9x2000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x64x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S9x2000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![80], ![false]⟩

def k4_cond2 (i : grid4.Coords) : BitVec 1 :=
  let arg0 : BitVec 32 := BitVec.ofNat 32 (i 0).val
  let c79_i32 : BitVec 32 := 79#32
  let v20 : BitVec 1 := Scalar.cmpi .eq arg0 c79_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![80], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8000x32 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![320], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S9x2000x32 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x32x32 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S9x2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![320], ![false]⟩

def k7_cond2 (i : grid7.Coords) : BitVec 1 :=
  let arg0 : BitVec 32 := BitVec.ofNat 32 (i 0).val
  let c319_i32 : BitVec 32 := 319#32
  let v20 : BitVec 1 := Scalar.cmpi .eq arg0 c319_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S8000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![320], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S8000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S8000x32 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  bitsLt_bf16_f32 : FTy.bits .bf16 < FTy.bits .f32
  bcast_S_S9x40000 : S_.BroadcastsInDim S9x40000 (![] : Fin 0 → Fin S9x40000.rank)
  bcast_S9x40000_S9x40000x1_0_1 : S9x40000.BroadcastsInDim S9x40000x1 (![0, 1] : Fin 2 → Fin S9x40000x1.rank)
  inb_S9x2000x128_S1x2000x128_0_0_0 : ∀ a, (![0, 0, 0] : Fin 3 → Nat) a + S1x2000x128.size a ≤ S9x2000x128.size a
  h_S1x2000x128 : 0 < S1x2000x128.numel
  shapeCasts_S1x2000x128_S2000x128 : S1x2000x128.ShapeCasts S2000x128
  inb_S9x128x64_S1x128x64_0_0_0 : ∀ a, (![0, 0, 0] : Fin 3 → Nat) a + S1x128x64.size a ≤ S9x128x64.size a
  h_S1x128x64 : 0 < S1x128x64.numel
  shapeCasts_S1x128x64_S128x64 : S1x128x64.ShapeCasts S128x64
  inb_S9x2000x64_S1x2000x64_0_0_0 : ∀ a, (![0, 0, 0] : Fin 3 → Nat) a + S1x2000x64.size a ≤ S9x2000x64.size a
  h_S1x2000x64 : 0 < S1x2000x64.numel
  shapeCasts_S1x2000x64_S2000x64 : S1x2000x64.ShapeCasts S2000x64
  shapeCasts_S2000x64_S1x2000x64 : S2000x64.ShapeCasts S1x2000x64
  inb_S9x2000x128_S1x2000x128_1_0_0 : ∀ a, (![1, 0, 0] : Fin 3 → Nat) a + S1x2000x128.size a ≤ S9x2000x128.size a
  inb_S9x128x64_S1x128x64_1_0_0 : ∀ a, (![1, 0, 0] : Fin 3 → Nat) a + S1x128x64.size a ≤ S9x128x64.size a
  inb_S9x2000x64_S1x2000x64_1_0_0 : ∀ a, (![1, 0, 0] : Fin 3 → Nat) a + S1x2000x64.size a ≤ S9x2000x64.size a
  inb_S9x2000x128_S1x2000x128_2_0_0 : ∀ a, (![2, 0, 0] : Fin 3 → Nat) a + S1x2000x128.size a ≤ S9x2000x128.size a
  inb_S9x128x64_S1x128x64_2_0_0 : ∀ a, (![2, 0, 0] : Fin 3 → Nat) a + S1x128x64.size a ≤ S9x128x64.size a
  inb_S9x2000x64_S1x2000x64_2_0_0 : ∀ a, (![2, 0, 0] : Fin 3 → Nat) a + S1x2000x64.size a ≤ S9x2000x64.size a
  inb_S9x2000x128_S1x2000x128_3_0_0 : ∀ a, (![3, 0, 0] : Fin 3 → Nat) a + S1x2000x128.size a ≤ S9x2000x128.size a
  inb_S9x128x64_S1x128x64_3_0_0 : ∀ a, (![3, 0, 0] : Fin 3 → Nat) a + S1x128x64.size a ≤ S9x128x64.size a
  inb_S9x2000x64_S1x2000x64_3_0_0 : ∀ a, (![3, 0, 0] : Fin 3 → Nat) a + S1x2000x64.size a ≤ S9x2000x64.size a
  inb_S9x2000x128_S1x2000x128_4_0_0 : ∀ a, (![4, 0, 0] : Fin 3 → Nat) a + S1x2000x128.size a ≤ S9x2000x128.size a
  inb_S9x128x64_S1x128x64_4_0_0 : ∀ a, (![4, 0, 0] : Fin 3 → Nat) a + S1x128x64.size a ≤ S9x128x64.size a
  inb_S9x2000x64_S1x2000x64_4_0_0 : ∀ a, (![4, 0, 0] : Fin 3 → Nat) a + S1x2000x64.size a ≤ S9x2000x64.size a
  inb_S9x2000x128_S1x2000x128_5_0_0 : ∀ a, (![5, 0, 0] : Fin 3 → Nat) a + S1x2000x128.size a ≤ S9x2000x128.size a
  inb_S9x128x64_S1x128x64_5_0_0 : ∀ a, (![5, 0, 0] : Fin 3 → Nat) a + S1x128x64.size a ≤ S9x128x64.size a
  inb_S9x2000x64_S1x2000x64_5_0_0 : ∀ a, (![5, 0, 0] : Fin 3 → Nat) a + S1x2000x64.size a ≤ S9x2000x64.size a
  inb_S9x2000x128_S1x2000x128_6_0_0 : ∀ a, (![6, 0, 0] : Fin 3 → Nat) a + S1x2000x128.size a ≤ S9x2000x128.size a
  inb_S9x128x64_S1x128x64_6_0_0 : ∀ a, (![6, 0, 0] : Fin 3 → Nat) a + S1x128x64.size a ≤ S9x128x64.size a
  inb_S9x2000x64_S1x2000x64_6_0_0 : ∀ a, (![6, 0, 0] : Fin 3 → Nat) a + S1x2000x64.size a ≤ S9x2000x64.size a
  inb_S9x2000x128_S1x2000x128_7_0_0 : ∀ a, (![7, 0, 0] : Fin 3 → Nat) a + S1x2000x128.size a ≤ S9x2000x128.size a
  inb_S9x128x64_S1x128x64_7_0_0 : ∀ a, (![7, 0, 0] : Fin 3 → Nat) a + S1x128x64.size a ≤ S9x128x64.size a
  inb_S9x2000x64_S1x2000x64_7_0_0 : ∀ a, (![7, 0, 0] : Fin 3 → Nat) a + S1x2000x64.size a ≤ S9x2000x64.size a
  inb_S9x2000x128_S1x2000x128_8_0_0 : ∀ a, (![8, 0, 0] : Fin 3 → Nat) a + S1x2000x128.size a ≤ S9x2000x128.size a
  inb_S9x128x64_S1x128x64_8_0_0 : ∀ a, (![8, 0, 0] : Fin 3 → Nat) a + S1x128x64.size a ≤ S9x128x64.size a
  inb_S9x2000x64_S1x2000x64_8_0_0 : ∀ a, (![8, 0, 0] : Fin 3 → Nat) a + S1x2000x64.size a ≤ S9x2000x64.size a
  shapeCasts_S9x40000_S360000 : S9x40000.ShapeCasts S360000
  shapeCasts_S9x40000x64_S360000x64 : S9x40000x64.ShapeCasts S360000x64
  bcast_S_S160000x64 : S_.BroadcastsInDim S160000x64 (![] : Fin 0 → Fin S160000x64.rank)
  bcast_S_S360000 : S_.BroadcastsInDim S360000 (![] : Fin 0 → Fin S360000.rank)
  bcast_S360000_S360000x1_0 : S360000.BroadcastsInDim S360000x1 (![0] : Fin 1 → Fin S360000x1.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  reduces_S8000x64_S64 : S8000x64.Reduces [0] S64
  shapeCasts_S64_S1x64 : S64.ShapeCasts S1x64
  broadcasts_S1x64_S8000x64 : S1x64.Broadcasts S8000x64
  bcast_S_S9x160000 : S_.BroadcastsInDim S9x160000 (![] : Fin 0 → Fin S9x160000.rank)
  bcast_S9x160000_S9x160000x1_0_1 : S9x160000.BroadcastsInDim S9x160000x1 (![0, 1] : Fin 2 → Fin S9x160000x1.rank)
  inb_S9x64x32_S1x64x32_0_0_0 : ∀ a, (![0, 0, 0] : Fin 3 → Nat) a + S1x64x32.size a ≤ S9x64x32.size a
  h_S1x64x32 : 0 < S1x64x32.numel
  shapeCasts_S1x64x32_S64x32 : S1x64x32.ShapeCasts S64x32
  inb_S9x2000x32_S1x2000x32_0_0_0 : ∀ a, (![0, 0, 0] : Fin 3 → Nat) a + S1x2000x32.size a ≤ S9x2000x32.size a
  h_S1x2000x32 : 0 < S1x2000x32.numel
  shapeCasts_S1x2000x32_S2000x32 : S1x2000x32.ShapeCasts S2000x32
  shapeCasts_S2000x32_S1x2000x32 : S2000x32.ShapeCasts S1x2000x32
  inb_S9x64x32_S1x64x32_1_0_0 : ∀ a, (![1, 0, 0] : Fin 3 → Nat) a + S1x64x32.size a ≤ S9x64x32.size a
  inb_S9x2000x32_S1x2000x32_1_0_0 : ∀ a, (![1, 0, 0] : Fin 3 → Nat) a + S1x2000x32.size a ≤ S9x2000x32.size a
  inb_S9x64x32_S1x64x32_2_0_0 : ∀ a, (![2, 0, 0] : Fin 3 → Nat) a + S1x64x32.size a ≤ S9x64x32.size a
  inb_S9x2000x32_S1x2000x32_2_0_0 : ∀ a, (![2, 0, 0] : Fin 3 → Nat) a + S1x2000x32.size a ≤ S9x2000x32.size a
  inb_S9x64x32_S1x64x32_3_0_0 : ∀ a, (![3, 0, 0] : Fin 3 → Nat) a + S1x64x32.size a ≤ S9x64x32.size a
  inb_S9x2000x32_S1x2000x32_3_0_0 : ∀ a, (![3, 0, 0] : Fin 3 → Nat) a + S1x2000x32.size a ≤ S9x2000x32.size a
  inb_S9x64x32_S1x64x32_4_0_0 : ∀ a, (![4, 0, 0] : Fin 3 → Nat) a + S1x64x32.size a ≤ S9x64x32.size a
  inb_S9x2000x32_S1x2000x32_4_0_0 : ∀ a, (![4, 0, 0] : Fin 3 → Nat) a + S1x2000x32.size a ≤ S9x2000x32.size a
  inb_S9x64x32_S1x64x32_5_0_0 : ∀ a, (![5, 0, 0] : Fin 3 → Nat) a + S1x64x32.size a ≤ S9x64x32.size a
  inb_S9x2000x32_S1x2000x32_5_0_0 : ∀ a, (![5, 0, 0] : Fin 3 → Nat) a + S1x2000x32.size a ≤ S9x2000x32.size a
  inb_S9x64x32_S1x64x32_6_0_0 : ∀ a, (![6, 0, 0] : Fin 3 → Nat) a + S1x64x32.size a ≤ S9x64x32.size a
  inb_S9x2000x32_S1x2000x32_6_0_0 : ∀ a, (![6, 0, 0] : Fin 3 → Nat) a + S1x2000x32.size a ≤ S9x2000x32.size a
  inb_S9x64x32_S1x64x32_7_0_0 : ∀ a, (![7, 0, 0] : Fin 3 → Nat) a + S1x64x32.size a ≤ S9x64x32.size a
  inb_S9x2000x32_S1x2000x32_7_0_0 : ∀ a, (![7, 0, 0] : Fin 3 → Nat) a + S1x2000x32.size a ≤ S9x2000x32.size a
  inb_S9x64x32_S1x64x32_8_0_0 : ∀ a, (![8, 0, 0] : Fin 3 → Nat) a + S1x64x32.size a ≤ S9x64x32.size a
  inb_S9x2000x32_S1x2000x32_8_0_0 : ∀ a, (![8, 0, 0] : Fin 3 → Nat) a + S1x2000x32.size a ≤ S9x2000x32.size a
  shapeCasts_S9x160000_S1440000 : S9x160000.ShapeCasts S1440000
  shapeCasts_S9x160000x32_S1440000x32 : S9x160000x32.ShapeCasts S1440000x32
  bcast_S_S640000x32 : S_.BroadcastsInDim S640000x32 (![] : Fin 0 → Fin S640000x32.rank)
  bcast_S_S1440000 : S_.BroadcastsInDim S1440000 (![] : Fin 0 → Fin S1440000.rank)
  bcast_S1440000_S1440000x1_0 : S1440000.BroadcastsInDim S1440000x1 (![0] : Fin 1 → Fin S1440000x1.rank)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  reduces_S8000x32_S32 : S8000x32.Reduces [0] S32
  shapeCasts_S32_S1x32 : S32.ShapeCasts S1x32
  broadcasts_S1x32_S8000x32 : S1x32.Broadcasts S8000x32
  bcast_S_S9x640000 : S_.BroadcastsInDim S9x640000 (![] : Fin 0 → Fin S9x640000.rank)
  bcast_S9x640000_S9x640000x1_0_1 : S9x640000.BroadcastsInDim S9x640000x1 (![0, 1] : Fin 2 → Fin S9x640000x1.rank)
  inb_S9x32x32_S1x32x32_0_0_0 : ∀ a, (![0, 0, 0] : Fin 3 → Nat) a + S1x32x32.size a ≤ S9x32x32.size a
  h_S1x32x32 : 0 < S1x32x32.numel
  shapeCasts_S1x32x32_S32x32 : S1x32x32.ShapeCasts S32x32
  inb_S9x32x32_S1x32x32_1_0_0 : ∀ a, (![1, 0, 0] : Fin 3 → Nat) a + S1x32x32.size a ≤ S9x32x32.size a
  inb_S9x32x32_S1x32x32_2_0_0 : ∀ a, (![2, 0, 0] : Fin 3 → Nat) a + S1x32x32.size a ≤ S9x32x32.size a
  inb_S9x32x32_S1x32x32_3_0_0 : ∀ a, (![3, 0, 0] : Fin 3 → Nat) a + S1x32x32.size a ≤ S9x32x32.size a
  inb_S9x32x32_S1x32x32_4_0_0 : ∀ a, (![4, 0, 0] : Fin 3 → Nat) a + S1x32x32.size a ≤ S9x32x32.size a
  inb_S9x32x32_S1x32x32_5_0_0 : ∀ a, (![5, 0, 0] : Fin 3 → Nat) a + S1x32x32.size a ≤ S9x32x32.size a
  inb_S9x32x32_S1x32x32_6_0_0 : ∀ a, (![6, 0, 0] : Fin 3 → Nat) a + S1x32x32.size a ≤ S9x32x32.size a
  inb_S9x32x32_S1x32x32_7_0_0 : ∀ a, (![7, 0, 0] : Fin 3 → Nat) a + S1x32x32.size a ≤ S9x32x32.size a
  inb_S9x32x32_S1x32x32_8_0_0 : ∀ a, (![8, 0, 0] : Fin 3 → Nat) a + S1x32x32.size a ≤ S9x32x32.size a
  shapeCasts_S9x640000_S5760000 : S9x640000.ShapeCasts S5760000
  shapeCasts_S9x640000x32_S5760000x32 : S9x640000x32.ShapeCasts S5760000x32
  bcast_S_S2560000x32 : S_.BroadcastsInDim S2560000x32 (![] : Fin 0 → Fin S2560000x32.rank)
  bcast_S_S5760000 : S_.BroadcastsInDim S5760000 (![] : Fin 0 → Fin S5760000.rank)
  bcast_S5760000_S5760000x1_0 : S5760000.BroadcastsInDim S5760000x1 (![0] : Fin 1 → Fin S5760000x1.rank)
  gather_S40000x128_S9x40000x1_S9x40000x128_2_0_n_n_0_2_1128_wf : GatherDims.WF S40000x128 S9x40000x1 S9x40000x128 [2] [0] [] [0] [] 2 ![1, 128]
  dot_S2000x128_S128x64_S2000x64_1_0_0_1_n_n_wf : DotDims.WF S2000x128 S128x64 S2000x64 [1] [0] [0] [1] [] []
  scatter_S160000x64_S360000x1_S360000x64_1_0_0_1_wf : ScatterDims.WF S160000x64 S360000x1 S360000x64 [1] [0] [0] 1
  gather_S160000x64_S9x160000x1_S9x160000x64_2_0_n_n_0_2_164_wf : GatherDims.WF S160000x64 S9x160000x1 S9x160000x64 [2] [0] [] [0] [] 2 ![1, 64]
  dot_S2000x64_S64x32_S2000x32_1_0_0_1_n_n_wf : DotDims.WF S2000x64 S64x32 S2000x32 [1] [0] [0] [1] [] []
  scatter_S640000x32_S1440000x1_S1440000x32_1_0_0_1_wf : ScatterDims.WF S640000x32 S1440000x1 S1440000x32 [1] [0] [0] 1
  gather_S640000x32_S9x640000x1_S9x640000x32_2_0_n_n_0_2_132_wf : GatherDims.WF S640000x32 S9x640000x1 S9x640000x32 [2] [0] [] [0] [] 2 ![1, 32]
  dot_S2000x32_S32x32_S2000x32_1_0_0_1_n_n_wf : DotDims.WF S2000x32 S32x32 S2000x32 [1] [0] [0] [1] [] []
  scatter_S2560000x32_S5760000x1_S5760000x32_1_0_0_1_wf : ScatterDims.WF S2560000x32 S5760000x1 S5760000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9x2000x128.size a ≤ S9x40000x128.size a
  hwx0_0 : ∀ i : grid0.Coords, EltTy.bits .bf16 = 32 ∨ (Rect.block (s := S9x40000x128) S9x2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x64.size a ≤ S9x128x64.size a
  hwx0_1 : ∀ i : grid0.Coords, EltTy.bits .bf16 = 32 ∨ (Rect.block (s := S9x128x64) S9x128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x2000x64.size a ≤ S9x40000x64.size a
  hwx0_2 : ∀ i : grid0.Coords, EltTy.bits .f32 = 32 ∨ (Rect.block (s := S9x40000x64) S9x2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S160000x64.size a
  hwx1_0 : ∀ i : grid1.Coords, EltTy.bits .f32 = 32 ∨ (Rect.block (s := S160000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S160000x64.size a
  hwx2_0 : ∀ i : grid2.Coords, EltTy.bits .f32 = 32 ∨ (Rect.block (s := S160000x64) S8000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x64.size a ≤ S160000x64.size a
  hwx2_5 : ∀ i : grid2.Coords, EltTy.bits .f32 = 32 ∨ (Rect.block (s := S160000x64) S8000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S160000x64.size a
  hwx2_6 : ∀ i : grid2.Coords, EltTy.bits .f32 = 32 ∨ (Rect.block (s := S160000x64) S8000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S9x2000x64.size a ≤ S9x160000x64.size a
  hwx3_0 : ∀ i : grid3.Coords, EltTy.bits .bf16 = 32 ∨ (Rect.block (s := S9x160000x64) S9x2000x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S9x64x32.size a ≤ S9x64x32.size a
  hwx3_1 : ∀ i : grid3.Coords, EltTy.bits .bf16 = 32 ∨ (Rect.block (s := S9x64x32) S9x64x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S9x2000x32.size a ≤ S9x160000x32.size a
  hwx3_2 : ∀ i : grid3.Coords, EltTy.bits .f32 = 32 ∨ (Rect.block (s := S9x160000x32) S9x2000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S640000x32.size a
  hwx4_0 : ∀ i : grid4.Coords, EltTy.bits .f32 = 32 ∨ (Rect.block (s := S640000x32) S8000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x32.size a ≤ S640000x32.size a
  hwx5_0 : ∀ i : grid5.Coords, EltTy.bits .f32 = 32 ∨ (Rect.block (s := S640000x32) S8000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8000x32.size a ≤ S640000x32.size a
  hwx5_5 : ∀ i : grid5.Coords, EltTy.bits .f32 = 32 ∨ (Rect.block (s := S640000x32) S8000x32.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8000x32.size a ≤ S640000x32.size a
  hwx5_6 : ∀ i : grid5.Coords, EltTy.bits .f32 = 32 ∨ (Rect.block (s := S640000x32) S8000x32.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S9x2000x32.size a ≤ S9x640000x32.size a
  hwx6_0 : ∀ i : grid6.Coords, EltTy.bits .bf16 = 32 ∨ (Rect.block (s := S9x640000x32) S9x2000x32.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S9x32x32.size a ≤ S9x32x32.size a
  hwx6_1 : ∀ i : grid6.Coords, EltTy.bits .bf16 = 32 ∨ (Rect.block (s := S9x32x32) S9x32x32.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S9x2000x32.size a ≤ S9x640000x32.size a
  hwx6_2 : ∀ i : grid6.Coords, EltTy.bits .f32 = 32 ∨ (Rect.block (s := S9x640000x32) S9x2000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x32.size a ≤ S2560000x32.size a
  hwx7_0 : ∀ i : grid7.Coords, EltTy.bits .f32 = 32 ∨ (Rect.block (s := S2560000x32) S8000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8000x32.size a ≤ S2560000x32.size a
  hwx8_0 : ∀ i : grid8.Coords, EltTy.bits .f32 = 32 ∨ (Rect.block (s := S2560000x32) S8000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x32.size a ≤ S1x32.size a
  hwx8_3 : ∀ i : grid8.Coords, EltTy.bits .f32 = 32 ∨ (Rect.block (s := S1x32) S1x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S8000x32.size a ≤ S2560000x32.size a
  hwx8_5 : ∀ i : grid8.Coords, EltTy.bits .f32 = 32 ∨ (Rect.block (s := S2560000x32) S8000x32.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S8000x32.size a ≤ S2560000x32.size a
  hwx8_6 : ∀ i : grid8.Coords, EltTy.bits .f32 = 32 ∨ (Rect.block (s := S2560000x32) S8000x32.size (cc8_transform_6 i) (hinb8_6 i)).WholeWords (EltTy.packing .f32)

variable [Facts₀]

def gather_S40000x128_S9x40000x1_S9x40000x128_2_0_n_n_0_2_1128 : GatherDims S40000x128 S9x40000x1 S9x40000x128 where
  offsetDims := [2]
  collapsedSliceDims := [0]
  operandBatchingDims := []
  startIndicesBatchingDims := []
  startIndexMap := [0]
  indexVectorDim := 2
  sliceSizes := ![1, 128]
  wf := gather_S40000x128_S9x40000x1_S9x40000x128_2_0_n_n_0_2_1128_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S160000x64_S360000x1_S360000x64_1_0_0_1 : ScatterDims S160000x64 S360000x1 S360000x64 where
  updateWindowDims := [1]
  insertedWindowDims := [0]
  scatterDimsToOperandDims := [0]
  indexVectorDim := 1
  wf := scatter_S160000x64_S360000x1_S360000x64_1_0_0_1_wf
def gather_S160000x64_S9x160000x1_S9x160000x64_2_0_n_n_0_2_164 : GatherDims S160000x64 S9x160000x1 S9x160000x64 where
  offsetDims := [2]
  collapsedSliceDims := [0]
  operandBatchingDims := []
  startIndicesBatchingDims := []
  startIndexMap := [0]
  indexVectorDim := 2
  sliceSizes := ![1, 64]
  wf := gather_S160000x64_S9x160000x1_S9x160000x64_2_0_n_n_0_2_164_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def scatter_S640000x32_S1440000x1_S1440000x32_1_0_0_1 : ScatterDims S640000x32 S1440000x1 S1440000x32 where
  updateWindowDims := [1]
  insertedWindowDims := [0]
  scatterDimsToOperandDims := [0]
  indexVectorDim := 1
  wf := scatter_S640000x32_S1440000x1_S1440000x32_1_0_0_1_wf
def gather_S640000x32_S9x640000x1_S9x640000x32_2_0_n_n_0_2_132 : GatherDims S640000x32 S9x640000x1 S9x640000x32 where
  offsetDims := [2]
  collapsedSliceDims := [0]
  operandBatchingDims := []
  startIndicesBatchingDims := []
  startIndexMap := [0]
  indexVectorDim := 2
  sliceSizes := ![1, 32]
  wf := gather_S640000x32_S9x640000x1_S9x640000x32_2_0_n_n_0_2_132_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def scatter_S2560000x32_S5760000x1_S5760000x32_1_0_0_1 : ScatterDims S2560000x32 S5760000x1 S5760000x32 where
  updateWindowDims := [1]
  insertedWindowDims := [0]
  scatterDimsToOperandDims := [0]
  indexVectorDim := 1
  wf := scatter_S2560000x32_S5760000x1_S5760000x32_1_0_0_1_wf

abbrev win0_0 : Pipeline.Window sig grid0 :=
  Pipeline.Window.ofSpec (Memref.whole main_v8) S9x2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S9x2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v19) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20_0) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20_1) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg1) S8000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v23) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v32) S9x2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S9x64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S9x2000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v43) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v44_0) S1x32.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44_1) S1x32.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v43) S8000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44_0) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44_1) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg2) S8000x32.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v47) S8000x32.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v56) S9x2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49) S9x32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v57) S9x2000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v67) S8000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v68_0) S1x32.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v68_1) S1x32.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v67) S8000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v68_0) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68_1) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v69) S1x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v70) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg3) S8000x32.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v71) S8000x32.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S40000x128 : Shape := ⟨2, ![40000, 128]⟩
abbrev S160000x64 : Shape := ⟨2, ![160000, 64]⟩
abbrev S640000x32 : Shape := ⟨2, ![640000, 32]⟩
abbrev S2560000x32 : Shape := ⟨2, ![2560000, 32]⟩
abbrev S9x128x64 : Shape := ⟨3, ![9, 128, 64]⟩
abbrev S9x64x32 : Shape := ⟨3, ![9, 64, 32]⟩
abbrev S9x32x32 : Shape := ⟨3, ![9, 32, 32]⟩
abbrev S64 : Shape := ⟨1, ![64]⟩
abbrev S32 : Shape := ⟨1, ![32]⟩
abbrev S9x40000 : Shape := ⟨2, ![9, 40000]⟩
abbrev S9x160000 : Shape := ⟨2, ![9, 160000]⟩
abbrev S9x640000 : Shape := ⟨2, ![9, 640000]⟩
abbrev S_ : Shape := ⟨0, ![]⟩
abbrev S9x40000x1 : Shape := ⟨3, ![9, 40000, 1]⟩
abbrev S9x40000x128 : Shape := ⟨3, ![9, 40000, 128]⟩
abbrev S9x40000x64 : Shape := ⟨3, ![9, 40000, 64]⟩
abbrev S360000 : Shape := ⟨1, ![360000]⟩
abbrev S360000x64 : Shape := ⟨2, ![360000, 64]⟩
abbrev S360000x1 : Shape := ⟨2, ![360000, 1]⟩
abbrev S1x64 : Shape := ⟨2, ![1, 64]⟩
abbrev S9x160000x1 : Shape := ⟨3, ![9, 160000, 1]⟩
abbrev S9x160000x64 : Shape := ⟨3, ![9, 160000, 64]⟩
abbrev S9x160000x32 : Shape := ⟨3, ![9, 160000, 32]⟩
abbrev S1440000 : Shape := ⟨1, ![1440000]⟩
abbrev S1440000x32 : Shape := ⟨2, ![1440000, 32]⟩
abbrev S1440000x1 : Shape := ⟨2, ![1440000, 1]⟩
abbrev S1x32 : Shape := ⟨2, ![1, 32]⟩
abbrev S9x640000x1 : Shape := ⟨3, ![9, 640000, 1]⟩
abbrev S9x640000x32 : Shape := ⟨3, ![9, 640000, 32]⟩
abbrev S5760000 : Shape := ⟨1, ![5760000]⟩
abbrev S5760000x32 : Shape := ⟨2, ![5760000, 32]⟩
abbrev S5760000x1 : Shape := ⟨2, ![5760000, 1]⟩

abbrev nBuf : Space → Nat
  | .hbm => 223
  | .vmem => 0
  | .smem => 0
  | _ => 0

abbrev hbmTy0_0 (i : Nat) : BufTy := match i % 128 with
  | 0 => ⟨S40000x128, .f32⟩
  | 1 => ⟨S160000x64, .f32⟩
  | 2 => ⟨S640000x32, .f32⟩
  | 3 => ⟨S2560000x32, .f32⟩
  | 4 => ⟨S9x128x64, .f32⟩
  | 5 => ⟨S9x64x32, .f32⟩
  | 6 => ⟨S9x32x32, .f32⟩
  | 7 => ⟨S64, .f32⟩
  | 8 => ⟨S64, .f32⟩
  | 9 => ⟨S32, .f32⟩
  | 10 => ⟨S32, .f32⟩
  | 11 => ⟨S32, .f32⟩
  | 12 => ⟨S32, .f32⟩
  | 13 => ⟨S9x40000, .i32⟩
  | 14 => ⟨S9x40000, .i32⟩
  | 15 => ⟨S9x160000, .i32⟩
  | 16 => ⟨S9x160000, .i32⟩
  | 17 => ⟨S9x640000, .i32⟩
  | 18 => ⟨S9x640000, .i32⟩
  | 19 => ⟨S_, .i32⟩
  | 20 => ⟨S9x40000, .i32⟩
  | 21 => ⟨S9x40000, .i1⟩
  | 22 => ⟨S_, .i32⟩
  | 23 => ⟨S9x40000, .i32⟩
  | 24 => ⟨S9x40000, .i32⟩
  | 25 => ⟨S9x40000, .i32⟩
  | 26 => ⟨S9x40000x1, .i32⟩
  | 27 => ⟨S9x40000x128, .f32⟩
  | 28 => ⟨S9x40000x64, .f32⟩
  | 29 => ⟨S_, .f32⟩
  | 30 => ⟨S160000x64, .f32⟩
  | 31 => ⟨S360000, .i32⟩
  | 32 => ⟨S360000x64, .f32⟩
  | 33 => ⟨S_, .i32⟩
  | 34 => ⟨S360000, .i32⟩
  | 35 => ⟨S360000, .i1⟩
  | 36 => ⟨S_, .i32⟩
  | 37 => ⟨S360000, .i32⟩
  | 38 => ⟨S360000, .i32⟩
  | 39 => ⟨S360000, .i32⟩
  | 40 => ⟨S360000x1, .i32⟩
  | 41 => ⟨S160000x64, .f32⟩
  | 42 => ⟨S_, .f32⟩
  | 43 => ⟨S64, .f32⟩
  | 44 => ⟨S_, .f32⟩
  | 45 => ⟨S64, .f32⟩
  | 46 => ⟨S64, .f32⟩
  | 47 => ⟨S_, .i32⟩
  | 48 => ⟨S_, .f32⟩
  | 49 => ⟨S64, .f32⟩
  | 50 => ⟨S1x64, .f32⟩
  | 51 => ⟨S_, .f32⟩
  | 52 => ⟨S1x64, .f32⟩
  | 53 => ⟨S1x64, .f32⟩
  | 54 => ⟨S160000x64, .f32⟩
  | 55 => ⟨S160000x64, .f32⟩
  | 56 => ⟨S160000x64, .f32⟩
  | 57 => ⟨S_, .f32⟩
  | 58 => ⟨S_, .f32⟩
  | 59 => ⟨S_, .f32⟩
  | 60 => ⟨S_, .f32⟩
  | 61 => ⟨S64, .f32⟩
  | 62 => ⟨S64, .f32⟩
  | 63 => ⟨S64, .f32⟩
  | 64 => ⟨S_, .f32⟩
  | 65 => ⟨S_, .i1⟩
  | 66 => ⟨S_, .f32⟩
  | 67 => ⟨S_, .f32⟩
  | 68 => ⟨S64, .f32⟩
  | 69 => ⟨S64, .f32⟩
  | 70 => ⟨S1x64, .f32⟩
  | 71 => ⟨S160000x64, .f32⟩
  | 72 => ⟨S160000x64, .f32⟩
  | 73 => ⟨S_, .f32⟩
  | 74 => ⟨S64, .f32⟩
  | 75 => ⟨S64, .f32⟩
  | 76 => ⟨S64, .f32⟩
  | 77 => ⟨S1x64, .f32⟩
  | 78 => ⟨S160000x64, .f32⟩
  | 79 => ⟨S160000x64, .f32⟩
  | 80 => ⟨S1x64, .f32⟩
  | 81 => ⟨S160000x64, .f32⟩
  | 82 => ⟨S160000x64, .f32⟩
  | 83 => ⟨S1x64, .f32⟩
  | 84 => ⟨S160000x64, .f32⟩
  | 85 => ⟨S160000x64, .f32⟩
  | 86 => ⟨S160000x64, .f32⟩
  | 87 => ⟨S_, .i32⟩
  | 88 => ⟨S9x160000, .i32⟩
  | 89 => ⟨S9x160000, .i1⟩
  | 90 => ⟨S_, .i32⟩
  | 91 => ⟨S9x160000, .i32⟩
  | 92 => ⟨S9x160000, .i32⟩
  | 93 => ⟨S9x160000, .i32⟩
  | 94 => ⟨S9x160000x1, .i32⟩
  | 95 => ⟨S9x160000x64, .f32⟩
  | 96 => ⟨S9x160000x32, .f32⟩
  | 97 => ⟨S_, .f32⟩
  | 98 => ⟨S640000x32, .f32⟩
  | 99 => ⟨S1440000, .i32⟩
  | 100 => ⟨S1440000x32, .f32⟩
  | 101 => ⟨S_, .i32⟩
  | 102 => ⟨S1440000, .i32⟩
  | 103 => ⟨S1440000, .i1⟩
  | 104 => ⟨S_, .i32⟩
  | 105 => ⟨S1440000, .i32⟩
  | 106 => ⟨S1440000, .i32⟩
  | 107 => ⟨S1440000, .i32⟩
  | 108 => ⟨S1440000x1, .i32⟩
  | 109 => ⟨S640000x32, .f32⟩
  | 110 => ⟨S_, .f32⟩
  | 111 => ⟨S32, .f32⟩
  | 112 => ⟨S_, .f32⟩
  | 113 => ⟨S32, .f32⟩
  | 114 => ⟨S32, .f32⟩
  | 115 => ⟨S_, .i32⟩
  | 116 => ⟨S_, .f32⟩
  | 117 => ⟨S32, .f32⟩
  | 118 => ⟨S1x32, .f32⟩
  | 119 => ⟨S_, .f32⟩
  | 120 => ⟨S1x32, .f32⟩
  | 121 => ⟨S1x32, .f32⟩
  | 122 => ⟨S640000x32, .f32⟩
  | 123 => ⟨S640000x32, .f32⟩
  | 124 => ⟨S640000x32, .f32⟩
  | 125 => ⟨S_, .f32⟩
  | 126 => ⟨S_, .f32⟩
  | 127 => ⟨S_, .f32⟩
  | _ => ⟨S40000x128, .f32⟩

abbrev hbmTy0_1 (i : Nat) : BufTy := match i % 128 with
  | 0 => ⟨S_, .f32⟩
  | 1 => ⟨S32, .f32⟩
  | 2 => ⟨S32, .f32⟩
  | 3 => ⟨S32, .f32⟩
  | 4 => ⟨S_, .f32⟩
  | 5 => ⟨S_, .i1⟩
  | 6 => ⟨S_, .f32⟩
  | 7 => ⟨S_, .f32⟩
  | 8 => ⟨S32, .f32⟩
  | 9 => ⟨S32, .f32⟩
  | 10 => ⟨S1x32, .f32⟩
  | 11 => ⟨S640000x32, .f32⟩
  | 12 => ⟨S640000x32, .f32⟩
  | 13 => ⟨S_, .f32⟩
  | 14 => ⟨S32, .f32⟩
  | 15 => ⟨S32, .f32⟩
  | 16 => ⟨S32, .f32⟩
  | 17 => ⟨S1x32, .f32⟩
  | 18 => ⟨S640000x32, .f32⟩
  | 19 => ⟨S640000x32, .f32⟩
  | 20 => ⟨S1x32, .f32⟩
  | 21 => ⟨S640000x32, .f32⟩
  | 22 => ⟨S640000x32, .f32⟩
  | 23 => ⟨S1x32, .f32⟩
  | 24 => ⟨S640000x32, .f32⟩
  | 25 => ⟨S640000x32, .f32⟩
  | 26 => ⟨S640000x32, .f32⟩
  | 27 => ⟨S_, .i32⟩
  | 28 => ⟨S9x640000, .i32⟩
  | 29 => ⟨S9x640000, .i1⟩
  | 30 => ⟨S_, .i32⟩
  | 31 => ⟨S9x640000, .i32⟩
  | 32 => ⟨S9x640000, .i32⟩
  | 33 => ⟨S9x640000, .i32⟩
  | 34 => ⟨S9x640000x1, .i32⟩
  | 35 => ⟨S9x640000x32, .f32⟩
  | 36 => ⟨S9x640000x32, .f32⟩
  | 37 => ⟨S_, .f32⟩
  | 38 => ⟨S2560000x32, .f32⟩
  | 39 => ⟨S5760000, .i32⟩
  | 40 => ⟨S5760000x32, .f32⟩
  | 41 => ⟨S_, .i32⟩
  | 42 => ⟨S5760000, .i32⟩
  | 43 => ⟨S5760000, .i1⟩
  | 44 => ⟨S_, .i32⟩
  | 45 => ⟨S5760000, .i32⟩
  | 46 => ⟨S5760000, .i32⟩
  | 47 => ⟨S5760000, .i32⟩
  | 48 => ⟨S5760000x1, .i32⟩
  | 49 => ⟨S2560000x32, .f32⟩
  | 50 => ⟨S_, .f32⟩
  | 51 => ⟨S32, .f32⟩
  | 52 => ⟨S_, .f32⟩
  | 53 => ⟨S32, .f32⟩
  | 54 => ⟨S32, .f32⟩
  | 55 => ⟨S_, .i32⟩
  | 56 => ⟨S_, .f32⟩
  | 57 => ⟨S32, .f32⟩
  | 58 => ⟨S1x32, .f32⟩
  | 59 => ⟨S_, .f32⟩
  | 60 => ⟨S1x32, .f32⟩
  | 61 => ⟨S1x32, .f32⟩
  | 62 => ⟨S2560000x32, .f32⟩
  | 63 => ⟨S2560000x32, .f32⟩
  | 64 => ⟨S2560000x32, .f32⟩
  | 65 => ⟨S_, .f32⟩
  | 66 => ⟨S_, .f32⟩
  | 67 => ⟨S_, .f32⟩
  | 68 => ⟨S_, .f32⟩
  | 69 => ⟨S32, .f32⟩
  | 70 => ⟨S32, .f32⟩
  | 71 => ⟨S32, .f32⟩
  | 72 => ⟨S_, .f32⟩
  | 73 => ⟨S_, .i1⟩
  | 74 => ⟨S_, .f32⟩
  | 75 => ⟨S_, .f32⟩
  | 76 => ⟨S32, .f32⟩
  | 77 => ⟨S32, .f32⟩
  | 78 => ⟨S1x32, .f32⟩
  | 79 => ⟨S2560000x32, .f32⟩
  | 80 => ⟨S2560000x32, .f32⟩
  | 81 => ⟨S_, .f32⟩
  | 82 => ⟨S32, .f32⟩
  | 83 => ⟨S32, .f32⟩
  | 84 => ⟨S32, .f32⟩
  | 85 => ⟨S1x32, .f32⟩
  | 86 => ⟨S2560000x32, .f32⟩
  | 87 => ⟨S2560000x32, .f32⟩
  | 88 => ⟨S1x32, .f32⟩
  | 89 => ⟨S2560000x32, .f32⟩
  | 90 => ⟨S2560000x32, .f32⟩
  | 91 => ⟨S1x32, .f32⟩
  | 92 => ⟨S2560000x32, .f32⟩
  | 93 => ⟨S2560000x32, .f32⟩
  | 94 => ⟨S2560000x32, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_6 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_7 : Ref sig .tc := ⟨.hbm, 87, rfl⟩
abbrev main_v38 : Ref sig .tc := ⟨.hbm, 88, rfl⟩
abbrev main_v39 : Ref sig .tc := ⟨.hbm, 89, rfl⟩
abbrev main_c_8 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_9 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_c_10 : Ref sig .tc := ⟨.hbm, 101, rfl⟩
abbrev main_v49 : Ref sig .tc := ⟨.hbm, 102, rfl⟩
abbrev main_v50 : Ref sig .tc := ⟨.hbm, 103, rfl⟩
abbrev main_c_11 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_12 : Ref sig .tc := ⟨.hbm, 110, rfl⟩
abbrev main_v56 : Ref sig .tc := ⟨.hbm, 111, rfl⟩
abbrev main_cst_13 : Ref sig .tc := ⟨.hbm, 112, rfl⟩
abbrev main_v57 : Ref sig .tc := ⟨.hbm, 113, rfl⟩
abbrev main_v58 : Ref sig .tc := ⟨.hbm, 114, rfl⟩
abbrev main_c_14 : Ref sig .tc := ⟨.hbm, 115, rfl⟩
abbrev main_call1_cst : Ref sig .tc := ⟨.hbm, 116, rfl⟩
abbrev main_call1_v0 : Ref sig .tc := ⟨.hbm, 117, rfl⟩
abbrev main_call1_v1 : Ref sig .tc := ⟨.hbm, 118, rfl⟩
abbrev main_call1_cst_0 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_v6 : Ref sig .tc := ⟨.hbm, 124, rfl⟩
abbrev main_call1_v7 : Ref sig .tc := ⟨.hbm, 125, rfl⟩
abbrev main_call1_cst_1 : Ref sig .tc := ⟨.hbm, 126, rfl⟩
abbrev main_call1_v8 : Ref sig .tc := ⟨.hbm, 127, rfl⟩
abbrev main_call1_cst_2 : Ref sig .tc := ⟨.hbm, 128, rfl⟩
abbrev main_call1_v9 : Ref sig .tc := ⟨.hbm, 129, rfl⟩
abbrev main_call1_v10 : Ref sig .tc := ⟨.hbm, 130, rfl⟩
abbrev main_call1_v11 : Ref sig .tc := ⟨.hbm, 131, rfl⟩
abbrev main_call1_cst_3 : Ref sig .tc := ⟨.hbm, 132, rfl⟩
abbrev main_call1_v12 : Ref sig .tc := ⟨.hbm, 133, rfl⟩
abbrev main_call1_cst_4 : Ref sig .tc := ⟨.hbm, 134, rfl⟩
abbrev main_call1_call0_v0 : Ref sig .tc := ⟨.hbm, 135, rfl⟩
abbrev main_call1_call0_v1 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_cst_15 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_c_16 : Ref sig .tc := ⟨.hbm, 155, rfl⟩
abbrev main_v76 : Ref sig .tc := ⟨.hbm, 156, rfl⟩
abbrev main_v77 : Ref sig .tc := ⟨.hbm, 157, rfl⟩
abbrev main_c_17 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_cst_18 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_c_19 : Ref sig .tc := ⟨.hbm, 169, rfl⟩
abbrev main_v87 : Ref sig .tc := ⟨.hbm, 170, rfl⟩
abbrev main_v88 : Ref sig .tc := ⟨.hbm, 171, rfl⟩
abbrev main_c_20 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_cst_21 : Ref sig .tc := ⟨.hbm, 178, rfl⟩
abbrev main_v94 : Ref sig .tc := ⟨.hbm, 179, rfl⟩
abbrev main_cst_22 : Ref sig .tc := ⟨.hbm, 180, rfl⟩
abbrev main_v95 : Ref sig .tc := ⟨.hbm, 181, rfl⟩
abbrev main_v96 : Ref sig .tc := ⟨.hbm, 182, rfl⟩
abbrev main_c_23 : Ref sig .tc := ⟨.hbm, 183, rfl⟩
abbrev main_call2_cst : Ref sig .tc := ⟨.hbm, 184, rfl⟩
abbrev main_call2_v0 : Ref sig .tc := ⟨.hbm, 185, rfl⟩
abbrev main_call2_v1 : Ref sig .tc := ⟨.hbm, 186, rfl⟩
abbrev main_call2_cst_0 : Ref sig .tc := ⟨.hbm, 187, rfl⟩
abbrev main_call2_v2 : Ref sig .tc := ⟨.hbm, 188, rfl⟩
abbrev main_call2_v3 : Ref sig .tc := ⟨.hbm, 189, rfl⟩
abbrev main_call2_v4 : Ref sig .tc := ⟨.hbm, 190, rfl⟩
abbrev main_call2_v5 : Ref sig .tc := ⟨.hbm, 191, rfl⟩
abbrev main_call2_v6 : Ref sig .tc := ⟨.hbm, 192, rfl⟩
abbrev main_call2_v7 : Ref sig .tc := ⟨.hbm, 193, rfl⟩
abbrev main_call2_cst_1 : Ref sig .tc := ⟨.hbm, 194, rfl⟩
abbrev main_call2_v8 : Ref sig .tc := ⟨.hbm, 195, rfl⟩
abbrev main_call2_cst_2 : Ref sig .tc := ⟨.hbm, 196, rfl⟩
abbrev main_call2_v9 : Ref sig .tc := ⟨.hbm, 197, rfl⟩
abbrev main_call2_v10 : Ref sig .tc := ⟨.hbm, 198, rfl⟩
abbrev main_call2_v11 : Ref sig .tc := ⟨.hbm, 199, rfl⟩
abbrev main_call2_cst_3 : Ref sig .tc := ⟨.hbm, 200, rfl⟩
abbrev main_call2_v12 : Ref sig .tc := ⟨.hbm, 201, rfl⟩
abbrev main_call2_cst_4 : Ref sig .tc := ⟨.hbm, 202, rfl⟩
abbrev main_call2_call0_v0 : Ref sig .tc := ⟨.hbm, 203, rfl⟩
abbrev main_call2_call0_v1 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_cst_24 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩

abbrev nD : Nat := 1
abbrev τ : Topo := Topo.v7x

variable {F : FTy → Type} [FloatOps F]

class Facts₀ : Prop where
  bcast_S_S9x40000 : S_.BroadcastsInDim S9x40000 (![] : Fin 0 → Fin S9x40000.rank)
  bcast_S9x40000_S9x40000x1_0_1 : S9x40000.BroadcastsInDim S9x40000x1 (![0, 1] : Fin 2 → Fin S9x40000x1.rank)
  bcast_S_S160000x64 : S_.BroadcastsInDim S160000x64 (![] : Fin 0 → Fin S160000x64.rank)
  shapeCasts_S9x40000_S360000 : S9x40000.ShapeCasts S360000
  shapeCasts_S9x40000x64_S360000x64 : S9x40000x64.ShapeCasts S360000x64
  bcast_S_S360000 : S_.BroadcastsInDim S360000 (![] : Fin 0 → Fin S360000.rank)
  bcast_S360000_S360000x1_0 : S360000.BroadcastsInDim S360000x1 (![0] : Fin 1 → Fin S360000x1.rank)
  reducesTo_S160000x64_S64_d0 : S160000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S160000x64_0_1 : S1x64.BroadcastsInDim S160000x64 (![0, 1] : Fin 2 → Fin S160000x64.rank)
  bcast_S_S9x160000 : S_.BroadcastsInDim S9x160000 (![] : Fin 0 → Fin S9x160000.rank)
  bcast_S9x160000_S9x160000x1_0_1 : S9x160000.BroadcastsInDim S9x160000x1 (![0, 1] : Fin 2 → Fin S9x160000x1.rank)
  bcast_S_S640000x32 : S_.BroadcastsInDim S640000x32 (![] : Fin 0 → Fin S640000x32.rank)
  shapeCasts_S9x160000_S1440000 : S9x160000.ShapeCasts S1440000
  shapeCasts_S9x160000x32_S1440000x32 : S9x160000x32.ShapeCasts S1440000x32
  bcast_S_S1440000 : S_.BroadcastsInDim S1440000 (![] : Fin 0 → Fin S1440000.rank)
  bcast_S1440000_S1440000x1_0 : S1440000.BroadcastsInDim S1440000x1 (![0] : Fin 1 → Fin S1440000x1.rank)
  reducesTo_S640000x32_S32_d0 : S640000x32.ReducesTo [0] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S640000x32_0_1 : S1x32.BroadcastsInDim S640000x32 (![0, 1] : Fin 2 → Fin S640000x32.rank)
  bcast_S_S9x640000 : S_.BroadcastsInDim S9x640000 (![] : Fin 0 → Fin S9x640000.rank)
  bcast_S9x640000_S9x640000x1_0_1 : S9x640000.BroadcastsInDim S9x640000x1 (![0, 1] : Fin 2 → Fin S9x640000x1.rank)
  bcast_S_S2560000x32 : S_.BroadcastsInDim S2560000x32 (![] : Fin 0 → Fin S2560000x32.rank)
  shapeCasts_S9x640000_S5760000 : S9x640000.ShapeCasts S5760000
  shapeCasts_S9x640000x32_S5760000x32 : S9x640000x32.ShapeCasts S5760000x32
  bcast_S_S5760000 : S_.BroadcastsInDim S5760000 (![] : Fin 0 → Fin S5760000.rank)
  bcast_S5760000_S5760000x1_0 : S5760000.BroadcastsInDim S5760000x1 (![0] : Fin 1 → Fin S5760000x1.rank)
  reducesTo_S2560000x32_S32_d0 : S2560000x32.ReducesTo [0] S32
  bcast_S1x32_S2560000x32_0_1 : S1x32.BroadcastsInDim S2560000x32 (![0, 1] : Fin 2 → Fin S2560000x32.rank)
  gather_S40000x128_S9x40000x1_S9x40000x128_2_0_n_n_0_2_1128_wf : GatherDims.WF S40000x128 S9x40000x1 S9x40000x128 [2] [0] [] [0] [] 2 ![1, 128]
  dot_S9x40000x128_S9x128x64_S9x40000x64_2_1_1_2_0_0_wf : DotDims.WF S9x40000x128 S9x128x64 S9x40000x64 [2] [1] [1] [2] [0] [0]
  scatter_S160000x64_S360000x1_S360000x64_1_0_0_1_wf : ScatterDims.WF S160000x64 S360000x1 S360000x64 [1] [0] [0] 1
  gather_S160000x64_S9x160000x1_S9x160000x64_2_0_n_n_0_2_164_wf : GatherDims.WF S160000x64 S9x160000x1 S9x160000x64 [2] [0] [] [0] [] 2 ![1, 64]
  dot_S9x160000x64_S9x64x32_S9x160000x32_2_1_1_2_0_0_wf : DotDims.WF S9x160000x64 S9x64x32 S9x160000x32 [2] [1] [1] [2] [0] [0]
  scatter_S640000x32_S1440000x1_S1440000x32_1_0_0_1_wf : ScatterDims.WF S640000x32 S1440000x1 S1440000x32 [1] [0] [0] 1
  gather_S640000x32_S9x640000x1_S9x640000x32_2_0_n_n_0_2_132_wf : GatherDims.WF S640000x32 S9x640000x1 S9x640000x32 [2] [0] [] [0] [] 2 ![1, 32]
  dot_S9x640000x32_S9x32x32_S9x640000x32_2_1_1_2_0_0_wf : DotDims.WF S9x640000x32 S9x32x32 S9x640000x32 [2] [1] [1] [2] [0] [0]
  scatter_S2560000x32_S5760000x1_S5760000x32_1_0_0_1_wf : ScatterDims.WF S2560000x32 S5760000x1 S5760000x32 [1] [0] [0] 1

variable [Facts₀]

def gather_S40000x128_S9x40000x1_S9x40000x128_2_0_n_n_0_2_1128 : GatherDims S40000x128 S9x40000x1 S9x40000x128 where
  offsetDims := [2]
  collapsedSliceDims := [0]
  operandBatchingDims := []
  startIndicesBatchingDims := []
  startIndexMap := [0]
  indexVectorDim := 2
  sliceSizes := ![1, 128]
  wf := gather_S40000x128_S9x40000x1_S9x40000x128_2_0_n_n_0_2_1128_wf
def dot_S9x40000x128_S9x128x64_S9x40000x64_2_1_1_2_0_0 : DotDims S9x40000x128 S9x128x64 S9x40000x64 where
  lhsContracting := [2]
  rhsContracting := [1]
  lhsNonContracting := [1]
  rhsNonContracting := [2]
  lhsBatch := [0]
  rhsBatch := [0]
  wf := dot_S9x40000x128_S9x128x64_S9x40000x64_2_1_1_2_0_0_wf
def scatter_S160000x64_S360000x1_S360000x64_1_0_0_1 : ScatterDims S160000x64 S360000x1 S360000x64 where
  updateWindowDims := [1]
  insertedWindowDims := [0]
  scatterDimsToOperandDims := [0]
  indexVectorDim := 1
  wf := scatter_S160000x64_S360000x1_S360000x64_1_0_0_1_wf
def gather_S160000x64_S9x160000x1_S9x160000x64_2_0_n_n_0_2_164 : GatherDims S160000x64 S9x160000x1 S9x160000x64 where
  offsetDims := [2]
  collapsedSliceDims := [0]
  operandBatchingDims := []
  startIndicesBatchingDims := []
  startIndexMap := [0]
  indexVectorDim := 2
  sliceSizes := ![1, 64]
  wf := gather_S160000x64_S9x160000x1_S9x160000x64_2_0_n_n_0_2_164_wf
def dot_S9x160000x64_S9x64x32_S9x160000x32_2_1_1_2_0_0 : DotDims S9x160000x64 S9x64x32 S9x160000x32 where
  lhsContracting := [2]
  rhsContracting := [1]
  lhsNonContracting := [1]
  rhsNonContracting := [2]
  lhsBatch := [0]
  rhsBatch := [0]
  wf := dot_S9x160000x64_S9x64x32_S9x160000x32_2_1_1_2_0_0_wf
def scatter_S640000x32_S1440000x1_S1440000x32_1_0_0_1 : ScatterDims S640000x32 S1440000x1 S1440000x32 where
  updateWindowDims := [1]
  insertedWindowDims := [0]
  scatterDimsToOperandDims := [0]
  indexVectorDim := 1
  wf := scatter_S640000x32_S1440000x1_S1440000x32_1_0_0_1_wf
def gather_S640000x32_S9x640000x1_S9x640000x32_2_0_n_n_0_2_132 : GatherDims S640000x32 S9x640000x1 S9x640000x32 where
  offsetDims := [2]
  collapsedSliceDims := [0]
  operandBatchingDims := []
  startIndicesBatchingDims := []
  startIndexMap := [0]
  indexVectorDim := 2
  sliceSizes := ![1, 32]
  wf := gather_S640000x32_S9x640000x1_S9x640000x32_2_0_n_n_0_2_132_wf
def dot_S9x640000x32_S9x32x32_S9x640000x32_2_1_1_2_0_0 : DotDims S9x640000x32 S9x32x32 S9x640000x32 where
  lhsContracting := [2]
  rhsContracting := [1]
  lhsNonContracting := [1]
  rhsNonContracting := [2]
  lhsBatch := [0]
  rhsBatch := [0]
  wf := dot_S9x640000x32_S9x32x32_S9x640000x32_2_1_1_2_0_0_wf
def scatter_S2560000x32_S5760000x1_S5760000x32_1_0_0_1 : ScatterDims S2560000x32 S5760000x1 S5760000x32 where
  updateWindowDims := [1]
  insertedWindowDims := [0]
  scatterDimsToOperandDims := [0]
  indexVectorDim := 1
  wf := scatter_S2560000x32_S5760000x1_S5760000x32_1_0_0_1_wf

class Facts : Prop extends Facts₀ where

variable [Facts]
-- ==== Proof.KRegion0.lean ====
/-
  Region 0 of the kernel program: the batched product contrib[k] = g[k] · W[k] for the nine offsets k, tiled over the
  point axis in blocks of 2000 rows. At a grid point the body reads slab k of the gathered block [9, 2000, 128] and slab k of the
  weights [9, 128, 64] and stores their matrix product into slab k of the output block [9, 2000, 64]; the nine slab stores tile the
  output block, so after the body the block is one function of the two input blocks (`out0_2`). Stated at an arbitrary
  float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered rows' staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The slabs the body reads and writes -/

abbrev ra0_0 : Rect S9x2000x128 := Rect.unit (s := S9x2000x128) ![0, 0, 0] S1x2000x128.size inb_S9x2000x128_S1x2000x128_0_0_0
abbrev rb0_0 : Rect S9x128x64 := Rect.unit (s := S9x128x64) ![0, 0, 0] S1x128x64.size inb_S9x128x64_S1x128x64_0_0_0
abbrev rc0_0 : Rect S9x2000x64 := Rect.unit (s := S9x2000x64) ![0, 0, 0] S1x2000x64.size inb_S9x2000x64_S1x2000x64_0_0_0
abbrev ra0_1 : Rect S9x2000x128 := Rect.unit (s := S9x2000x128) ![1, 0, 0] S1x2000x128.size inb_S9x2000x128_S1x2000x128_1_0_0
abbrev rb0_1 : Rect S9x128x64 := Rect.unit (s := S9x128x64) ![1, 0, 0] S1x128x64.size inb_S9x128x64_S1x128x64_1_0_0
abbrev rc0_1 : Rect S9x2000x64 := Rect.unit (s := S9x2000x64) ![1, 0, 0] S1x2000x64.size inb_S9x2000x64_S1x2000x64_1_0_0
abbrev ra0_2 : Rect S9x2000x128 := Rect.unit (s := S9x2000x128) ![2, 0, 0] S1x2000x128.size inb_S9x2000x128_S1x2000x128_2_0_0
abbrev rb0_2 : Rect S9x128x64 := Rect.unit (s := S9x128x64) ![2, 0, 0] S1x128x64.size inb_S9x128x64_S1x128x64_2_0_0
abbrev rc0_2 : Rect S9x2000x64 := Rect.unit (s := S9x2000x64) ![2, 0, 0] S1x2000x64.size inb_S9x2000x64_S1x2000x64_2_0_0
abbrev ra0_3 : Rect S9x2000x128 := Rect.unit (s := S9x2000x128) ![3, 0, 0] S1x2000x128.size inb_S9x2000x128_S1x2000x128_3_0_0
abbrev rb0_3 : Rect S9x128x64 := Rect.unit (s := S9x128x64) ![3, 0, 0] S1x128x64.size inb_S9x128x64_S1x128x64_3_0_0
abbrev rc0_3 : Rect S9x2000x64 := Rect.unit (s := S9x2000x64) ![3, 0, 0] S1x2000x64.size inb_S9x2000x64_S1x2000x64_3_0_0
abbrev ra0_4 : Rect S9x2000x128 := Rect.unit (s := S9x2000x128) ![4, 0, 0] S1x2000x128.size inb_S9x2000x128_S1x2000x128_4_0_0
abbrev rb0_4 : Rect S9x128x64 := Rect.unit (s := S9x128x64) ![4, 0, 0] S1x128x64.size inb_S9x128x64_S1x128x64_4_0_0
abbrev rc0_4 : Rect S9x2000x64 := Rect.unit (s := S9x2000x64) ![4, 0, 0] S1x2000x64.size inb_S9x2000x64_S1x2000x64_4_0_0
abbrev ra0_5 : Rect S9x2000x128 := Rect.unit (s := S9x2000x128) ![5, 0, 0] S1x2000x128.size inb_S9x2000x128_S1x2000x128_5_0_0
abbrev rb0_5 : Rect S9x128x64 := Rect.unit (s := S9x128x64) ![5, 0, 0] S1x128x64.size inb_S9x128x64_S1x128x64_5_0_0
abbrev rc0_5 : Rect S9x2000x64 := Rect.unit (s := S9x2000x64) ![5, 0, 0] S1x2000x64.size inb_S9x2000x64_S1x2000x64_5_0_0
abbrev ra0_6 : Rect S9x2000x128 := Rect.unit (s := S9x2000x128) ![6, 0, 0] S1x2000x128.size inb_S9x2000x128_S1x2000x128_6_0_0
abbrev rb0_6 : Rect S9x128x64 := Rect.unit (s := S9x128x64) ![6, 0, 0] S1x128x64.size inb_S9x128x64_S1x128x64_6_0_0
abbrev rc0_6 : Rect S9x2000x64 := Rect.unit (s := S9x2000x64) ![6, 0, 0] S1x2000x64.size inb_S9x2000x64_S1x2000x64_6_0_0
abbrev ra0_7 : Rect S9x2000x128 := Rect.unit (s := S9x2000x128) ![7, 0, 0] S1x2000x128.size inb_S9x2000x128_S1x2000x128_7_0_0
abbrev rb0_7 : Rect S9x128x64 := Rect.unit (s := S9x128x64) ![7, 0, 0] S1x128x64.size inb_S9x128x64_S1x128x64_7_0_0
abbrev rc0_7 : Rect S9x2000x64 := Rect.unit (s := S9x2000x64) ![7, 0, 0] S1x2000x64.size inb_S9x2000x64_S1x2000x64_7_0_0
abbrev ra0_8 : Rect S9x2000x128 := Rect.unit (s := S9x2000x128) ![8, 0, 0] S1x2000x128.size inb_S9x2000x128_S1x2000x128_8_0_0
abbrev rb0_8 : Rect S9x128x64 := Rect.unit (s := S9x128x64) ![8, 0, 0] S1x128x64.size inb_S9x128x64_S1x128x64_8_0_0
abbrev rc0_8 : Rect S9x2000x64 := Rect.unit (s := S9x2000x64) ![8, 0, 0] S1x2000x64.size inb_S9x2000x64_S1x2000x64_8_0_0

/-- The output block after the body: slab `k` holds the product of slab `k` of the gathered block with slab `k` of the
    weights (the stores listed last first). -/
def out0_2 (x0 : Vec F S9x2000x128 .bf16) (x1 : Vec F S9x128x64 .bf16) : Vec F S9x2000x64 .f32 :=
  View.canon [⟨rc0_8, k0_pay3 (View.ld x0 ra0_8) (View.ld x1 rb0_8)⟩,
    ⟨rc0_7, k0_pay2 (View.ld x0 ra0_7) (View.ld x1 rb0_7)⟩,
    ⟨rc0_6, k0_pay1 (k0_pay10 (View.ld x0 ra0_6)) (View.ld x1 rb0_6)⟩,
    ⟨rc0_5, k0_pay9 (View.ld x0 ra0_5) (View.ld x1 rb0_5)⟩,
    ⟨rc0_4, k0_pay8 (View.ld x0 ra0_4) (View.ld x1 rb0_4)⟩,
    ⟨rc0_3, k0_pay7 (View.ld x0 ra0_3) (View.ld x1 rb0_3)⟩,
    ⟨rc0_2, k0_pay6 (View.ld x0 ra0_2) (View.ld x1 rb0_2)⟩,
    ⟨rc0_1, k0_pay5 (View.ld x0 ra0_1) (View.ld x1 rb0_1)⟩,
    ⟨rc0_0, k0_pay4 (View.ld x0 ra0_0) (View.ld x1 rb0_0)⟩]

/-- The nine slabs tile the output block. -/
theorem cover0_2 (p0 p1 p2 p3 p4 p5 p6 p7 p8 : Vec F S1x2000x64 .f32) (y : S9x2000x64.Idx) :
    ∃ pc ∈ ([⟨rc0_8, p8⟩, ⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] : List (View.Piece (Elt F) S9x2000x64 .f32)), y ∈ pc.1.set :=
  View.cover_of_tiled [⟨rc0_8, p8⟩, ⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] S1x2000x64.size (by rfl) y

/-! ## The body's triple -/

set_option maxHeartbeats 4000000 in
/-- The body on whole staging buffers: the inputs are left as found, the output block ends at `out0_2` of the inputs. -/
theorem sound_kernel0 (c : Dev nD) (E : Set ℕ) (i : grid0.Coords) (arg1 : Memref sig .tc .vmem S9x2000x128 .bf16) (harg1 : arg1.IsWhole)
    (arg2 : Memref sig .tc .vmem S9x128x64 .bf16) (harg2 : arg2.IsWhole) (arg3 : Memref sig .tc .vmem S9x2000x64 .f32) (harg3 : arg3.IsWhole)
    (x0 : Vec F S9x2000x128 .bf16) (x1 : Vec F S9x128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm_kernel i arg1 harg1 arg2 harg2 arg3 harg3) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion2.lean ====
/-
  Region 2 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out2_6`). Stated at an
  arbitrary float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rn2_b : Rect S8000x64 := Rect.unit (s := S8000x64) ![0, 0] S8000x64.size inb_S8000x64_S8000x64_0_0
abbrev rn2_r : Rect S1x64 := Rect.unit (s := S1x64) ![0, 0] S1x64.size inb_S1x64_S1x64_0_0

/-- The output block after the body, from the six input blocks. -/
def out2_6 (x0 : Vec F S8000x64 .f32) (x1 x2 x3 x4 : Vec F S1x64 .f32) (x5 : Vec F S8000x64 .f32) : Vec F S8000x64 .f32 :=
  View.canon [⟨rn2_b, k2_pay1 (View.ld x1 rn2_r) (View.ld x2 rn2_r) (View.ld x3 rn2_r) (View.ld x4 rn2_r) (View.ld x0 rn2_b) (View.ld x5 rn2_b)⟩]

/-- The one store covers the output block. -/
theorem cover2_6 (p0 : Vec F S8000x64 .f32) (y : S8000x64.Idx) :
    ∃ pc ∈ ([⟨rn2_b, p0⟩] : List (View.Piece (Elt F) S8000x64 .f32)), y ∈ pc.1.set :=
  View.cover_of_tiled [⟨rn2_b, p0⟩] S8000x64.size (by rfl) y

/-! ## The body's triple -/

set_option maxHeartbeats 4000000 in
/-- The body on whole staging buffers: the inputs are left as found, the output block ends at `out2_6` of the inputs. -/
theorem sound_kernel2 (c : Dev nD) (E : Set ℕ) (i : grid2.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8000x64 .f32) (harg6 : arg6.IsWhole) (arg7 : Memref sig .tc .vmem S8000x64 .f32) (harg7 : arg7.IsWhole)
    (x0 : Vec F S8000x64 .f32) (x1 x2 x3 x4 : Vec F S1x64 .f32) (x5 : Vec F S8000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The proof data and the body obligation -/

/-- The proof data of the region on core `c`: the arrays as the region finds them; after the body every input's buffer
    holds its block and the output's buffer `out2_6` of the input blocks; nothing of the scoped rest is touched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion3.lean ====
/-
  Region 3 of the kernel program: the batched product contrib[k] = g[k] · W[k] for the nine offsets k, tiled over the
  point axis in blocks of 2000 rows. At a grid point the body reads slab k of the gathered block [9, 2000, 64] and slab k of the
  weights [9, 64, 32] and stores their matrix product into slab k of the output block [9, 2000, 32]; the nine slab stores tile the
  output block, so after the body the block is one function of the two input blocks (`out3_2`). Stated at an arbitrary
  float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The gathered rows' staging buffer holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight array at every point (fetched once, its index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The slabs the body reads and writes -/

abbrev ra3_0 : Rect S9x2000x64 := Rect.unit (s := S9x2000x64) ![0, 0, 0] S1x2000x64.size inb_S9x2000x64_S1x2000x64_0_0_0
abbrev rb3_0 : Rect S9x64x32 := Rect.unit (s := S9x64x32) ![0, 0, 0] S1x64x32.size inb_S9x64x32_S1x64x32_0_0_0
abbrev rc3_0 : Rect S9x2000x32 := Rect.unit (s := S9x2000x32) ![0, 0, 0] S1x2000x32.size inb_S9x2000x32_S1x2000x32_0_0_0
abbrev ra3_1 : Rect S9x2000x64 := Rect.unit (s := S9x2000x64) ![1, 0, 0] S1x2000x64.size inb_S9x2000x64_S1x2000x64_1_0_0
abbrev rb3_1 : Rect S9x64x32 := Rect.unit (s := S9x64x32) ![1, 0, 0] S1x64x32.size inb_S9x64x32_S1x64x32_1_0_0
abbrev rc3_1 : Rect S9x2000x32 := Rect.unit (s := S9x2000x32) ![1, 0, 0] S1x2000x32.size inb_S9x2000x32_S1x2000x32_1_0_0
abbrev ra3_2 : Rect S9x2000x64 := Rect.unit (s := S9x2000x64) ![2, 0, 0] S1x2000x64.size inb_S9x2000x64_S1x2000x64_2_0_0
abbrev rb3_2 : Rect S9x64x32 := Rect.unit (s := S9x64x32) ![2, 0, 0] S1x64x32.size inb_S9x64x32_S1x64x32_2_0_0
abbrev rc3_2 : Rect S9x2000x32 := Rect.unit (s := S9x2000x32) ![2, 0, 0] S1x2000x32.size inb_S9x2000x32_S1x2000x32_2_0_0
abbrev ra3_3 : Rect S9x2000x64 := Rect.unit (s := S9x2000x64) ![3, 0, 0] S1x2000x64.size inb_S9x2000x64_S1x2000x64_3_0_0
abbrev rb3_3 : Rect S9x64x32 := Rect.unit (s := S9x64x32) ![3, 0, 0] S1x64x32.size inb_S9x64x32_S1x64x32_3_0_0
abbrev rc3_3 : Rect S9x2000x32 := Rect.unit (s := S9x2000x32) ![3, 0, 0] S1x2000x32.size inb_S9x2000x32_S1x2000x32_3_0_0
abbrev ra3_4 : Rect S9x2000x64 := Rect.unit (s := S9x2000x64) ![4, 0, 0] S1x2000x64.size inb_S9x2000x64_S1x2000x64_4_0_0
abbrev rb3_4 : Rect S9x64x32 := Rect.unit (s := S9x64x32) ![4, 0, 0] S1x64x32.size inb_S9x64x32_S1x64x32_4_0_0
abbrev rc3_4 : Rect S9x2000x32 := Rect.unit (s := S9x2000x32) ![4, 0, 0] S1x2000x32.size inb_S9x2000x32_S1x2000x32_4_0_0
abbrev ra3_5 : Rect S9x2000x64 := Rect.unit (s := S9x2000x64) ![5, 0, 0] S1x2000x64.size inb_S9x2000x64_S1x2000x64_5_0_0
abbrev rb3_5 : Rect S9x64x32 := Rect.unit (s := S9x64x32) ![5, 0, 0] S1x64x32.size inb_S9x64x32_S1x64x32_5_0_0
abbrev rc3_5 : Rect S9x2000x32 := Rect.unit (s := S9x2000x32) ![5, 0, 0] S1x2000x32.size inb_S9x2000x32_S1x2000x32_5_0_0
abbrev ra3_6 : Rect S9x2000x64 := Rect.unit (s := S9x2000x64) ![6, 0, 0] S1x2000x64.size inb_S9x2000x64_S1x2000x64_6_0_0
abbrev rb3_6 : Rect S9x64x32 := Rect.unit (s := S9x64x32) ![6, 0, 0] S1x64x32.size inb_S9x64x32_S1x64x32_6_0_0
abbrev rc3_6 : Rect S9x2000x32 := Rect.unit (s := S9x2000x32) ![6, 0, 0] S1x2000x32.size inb_S9x2000x32_S1x2000x32_6_0_0
abbrev ra3_7 : Rect S9x2000x64 := Rect.unit (s := S9x2000x64) ![7, 0, 0] S1x2000x64.size inb_S9x2000x64_S1x2000x64_7_0_0
abbrev rb3_7 : Rect S9x64x32 := Rect.unit (s := S9x64x32) ![7, 0, 0] S1x64x32.size inb_S9x64x32_S1x64x32_7_0_0
abbrev rc3_7 : Rect S9x2000x32 := Rect.unit (s := S9x2000x32) ![7, 0, 0] S1x2000x32.size inb_S9x2000x32_S1x2000x32_7_0_0
abbrev ra3_8 : Rect S9x2000x64 := Rect.unit (s := S9x2000x64) ![8, 0, 0] S1x2000x64.size inb_S9x2000x64_S1x2000x64_8_0_0
abbrev rb3_8 : Rect S9x64x32 := Rect.unit (s := S9x64x32) ![8, 0, 0] S1x64x32.size inb_S9x64x32_S1x64x32_8_0_0
abbrev rc3_8 : Rect S9x2000x32 := Rect.unit (s := S9x2000x32) ![8, 0, 0] S1x2000x32.size inb_S9x2000x32_S1x2000x32_8_0_0

/-- The output block after the body: slab `k` holds the product of slab `k` of the gathered block with slab `k` of the
    weights (the stores listed last first). -/
def out3_2 (x0 : Vec F S9x2000x64 .bf16) (x1 : Vec F S9x64x32 .bf16) : Vec F S9x2000x32 .f32 :=
  View.canon [⟨rc3_8, k3_pay3 (View.ld x0 ra3_8) (View.ld x1 rb3_8)⟩,
    ⟨rc3_7, k3_pay2 (View.ld x0 ra3_7) (View.ld x1 rb3_7)⟩,
    ⟨rc3_6, k3_pay1 (k3_pay10 (View.ld x0 ra3_6)) (View.ld x1 rb3_6)⟩,
    ⟨rc3_5, k3_pay9 (View.ld x0 ra3_5) (View.ld x1 rb3_5)⟩,
    ⟨rc3_4, k3_pay8 (View.ld x0 ra3_4) (View.ld x1 rb3_4)⟩,
    ⟨rc3_3, k3_pay7 (View.ld x0 ra3_3) (View.ld x1 rb3_3)⟩,
    ⟨rc3_2, k3_pay6 (View.ld x0 ra3_2) (View.ld x1 rb3_2)⟩,
    ⟨rc3_1, k3_pay5 (View.ld x0 ra3_1) (View.ld x1 rb3_1)⟩,
    ⟨rc3_0, k3_pay4 (View.ld x0 ra3_0) (View.ld x1 rb3_0)⟩]

/-- The nine slabs tile the output block. -/
theorem cover3_2 (p0 p1 p2 p3 p4 p5 p6 p7 p8 : Vec F S1x2000x32 .f32) (y : S9x2000x32.Idx) :
    ∃ pc ∈ ([⟨rc3_8, p8⟩, ⟨rc3_7, p7⟩, ⟨rc3_6, p6⟩, ⟨rc3_5, p5⟩, ⟨rc3_4, p4⟩, ⟨rc3_3, p3⟩, ⟨rc3_2, p2⟩, ⟨rc3_1, p1⟩, ⟨rc3_0, p0⟩] : List (View.Piece (Elt F) S9x2000x32 .f32)), y ∈ pc.1.set :=
  View.cover_of_tiled [⟨rc3_8, p8⟩, ⟨rc3_7, p7⟩, ⟨rc3_6, p6⟩, ⟨rc3_5, p5⟩, ⟨rc3_4, p4⟩, ⟨rc3_3, p3⟩, ⟨rc3_2, p2⟩, ⟨rc3_1, p1⟩, ⟨rc3_0, p0⟩] S1x2000x32.size (by rfl) y

/-! ## The body's triple -/

set_option maxHeartbeats 4000000 in
/-- The body on whole staging buffers: the inputs are left as found, the output block ends at `out3_2` of the inputs. -/
theorem sound_kernel3 (c : Dev nD) (E : Set ℕ) (i : grid3.Coords) (arg1 : Memref sig .tc .vmem S9x2000x64 .bf16) (harg1 : arg1.IsWhole)
    (arg2 : Memref sig .tc .vmem S9x64x32 .bf16) (harg2 : arg2.IsWhole) (arg3 : Memref sig .tc .vmem S9x2000x32 .f32) (harg3 : arg3.IsWhole)
    (x0 : Vec F S9x2000x64 .bf16) (x1 : Vec F S9x64x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__gemm_kernel i arg1 harg1 arg2 harg2 arg3 harg3) K := by
  simp only [cc3__gemm_kernel_eq_skeleton]; unfold cc3__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRegion5.lean ====
/-
  Region 5 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out5_6`). Stated at an
  arbitrary float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rn5_b : Rect S8000x32 := Rect.unit (s := S8000x32) ![0, 0] S8000x32.size inb_S8000x32_S8000x32_0_0
abbrev rn5_r : Rect S1x32 := Rect.unit (s := S1x32) ![0, 0] S1x32.size inb_S1x32_S1x32_0_0

/-- The output block after the body, from the six input blocks. -/
def out5_6 (x0 : Vec F S8000x32 .f32) (x1 x2 x3 x4 : Vec F S1x32 .f32) (x5 : Vec F S8000x32 .f32) : Vec F S8000x32 .f32 :=
  View.canon [⟨rn5_b, k5_pay1 (View.ld x1 rn5_r) (View.ld x2 rn5_r) (View.ld x3 rn5_r) (View.ld x4 rn5_r) (View.ld x0 rn5_b) (View.ld x5 rn5_b)⟩]

/-- The one store covers the output block. -/
theorem cover5_6 (p0 : Vec F S8000x32 .f32) (y : S8000x32.Idx) :
    ∃ pc ∈ ([⟨rn5_b, p0⟩] : List (View.Piece (Elt F) S8000x32 .f32)), y ∈ pc.1.set :=
  View.cover_of_tiled [⟨rn5_b, p0⟩] S8000x32.size (by rfl) y

/-! ## The body's triple -/

set_option maxHeartbeats 4000000 in
/-- The body on whole staging buffers: the inputs are left as found, the output block ends at `out5_6` of the inputs. -/
theorem sound_kernel5 (c : Dev nD) (E : Set ℕ) (i : grid5.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S8000x32 .f32) (harg6 : arg6.IsWhole) (arg7 : Memref sig .tc .vmem S8000x32 .f32) (harg7 : arg7.IsWhole)
    (x0 : Vec F S8000x32 .f32) (x1 x2 x3 x4 : Vec F S1x32 .f32) (x5 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The proof data and the body obligation -/

/-- The proof data of the region on core `c`: the arrays as the region finds them; after the body every input's buffer
    holds its block and the output's buffer `out5_6` of the input blocks; nothing of the scoped rest is touched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KRegion6.lean ====
/-
  Region 6 of the kernel program: the batched product contrib[k] = g[k] · W[k] for the nine offsets k, tiled over the
  point axis in blocks of 2000 rows. At a grid point the body reads slab k of the gathered block [9, 2000, 32] and slab k of the
  weights [9, 32, 32] and stores their matrix product into slab k of the output block [9, 2000, 32]; the nine slab stores tile the
  output block, so after the body the block is one function of the two input blocks (`out6_2`). Stated at an arbitrary
  float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The gathered rows' staging buffer holds the point's block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight array at every point (fetched once, its index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The slabs the body reads and writes -/

abbrev ra6_0 : Rect S9x2000x32 := Rect.unit (s := S9x2000x32) ![0, 0, 0] S1x2000x32.size inb_S9x2000x32_S1x2000x32_0_0_0
abbrev rb6_0 : Rect S9x32x32 := Rect.unit (s := S9x32x32) ![0, 0, 0] S1x32x32.size inb_S9x32x32_S1x32x32_0_0_0
abbrev rc6_0 : Rect S9x2000x32 := Rect.unit (s := S9x2000x32) ![0, 0, 0] S1x2000x32.size inb_S9x2000x32_S1x2000x32_0_0_0
abbrev ra6_1 : Rect S9x2000x32 := Rect.unit (s := S9x2000x32) ![1, 0, 0] S1x2000x32.size inb_S9x2000x32_S1x2000x32_1_0_0
abbrev rb6_1 : Rect S9x32x32 := Rect.unit (s := S9x32x32) ![1, 0, 0] S1x32x32.size inb_S9x32x32_S1x32x32_1_0_0
abbrev rc6_1 : Rect S9x2000x32 := Rect.unit (s := S9x2000x32) ![1, 0, 0] S1x2000x32.size inb_S9x2000x32_S1x2000x32_1_0_0
abbrev ra6_2 : Rect S9x2000x32 := Rect.unit (s := S9x2000x32) ![2, 0, 0] S1x2000x32.size inb_S9x2000x32_S1x2000x32_2_0_0
abbrev rb6_2 : Rect S9x32x32 := Rect.unit (s := S9x32x32) ![2, 0, 0] S1x32x32.size inb_S9x32x32_S1x32x32_2_0_0
abbrev rc6_2 : Rect S9x2000x32 := Rect.unit (s := S9x2000x32) ![2, 0, 0] S1x2000x32.size inb_S9x2000x32_S1x2000x32_2_0_0
abbrev ra6_3 : Rect S9x2000x32 := Rect.unit (s := S9x2000x32) ![3, 0, 0] S1x2000x32.size inb_S9x2000x32_S1x2000x32_3_0_0
abbrev rb6_3 : Rect S9x32x32 := Rect.unit (s := S9x32x32) ![3, 0, 0] S1x32x32.size inb_S9x32x32_S1x32x32_3_0_0
abbrev rc6_3 : Rect S9x2000x32 := Rect.unit (s := S9x2000x32) ![3, 0, 0] S1x2000x32.size inb_S9x2000x32_S1x2000x32_3_0_0
abbrev ra6_4 : Rect S9x2000x32 := Rect.unit (s := S9x2000x32) ![4, 0, 0] S1x2000x32.size inb_S9x2000x32_S1x2000x32_4_0_0
abbrev rb6_4 : Rect S9x32x32 := Rect.unit (s := S9x32x32) ![4, 0, 0] S1x32x32.size inb_S9x32x32_S1x32x32_4_0_0
abbrev rc6_4 : Rect S9x2000x32 := Rect.unit (s := S9x2000x32) ![4, 0, 0] S1x2000x32.size inb_S9x2000x32_S1x2000x32_4_0_0
abbrev ra6_5 : Rect S9x2000x32 := Rect.unit (s := S9x2000x32) ![5, 0, 0] S1x2000x32.size inb_S9x2000x32_S1x2000x32_5_0_0
abbrev rb6_5 : Rect S9x32x32 := Rect.unit (s := S9x32x32) ![5, 0, 0] S1x32x32.size inb_S9x32x32_S1x32x32_5_0_0
abbrev rc6_5 : Rect S9x2000x32 := Rect.unit (s := S9x2000x32) ![5, 0, 0] S1x2000x32.size inb_S9x2000x32_S1x2000x32_5_0_0
abbrev ra6_6 : Rect S9x2000x32 := Rect.unit (s := S9x2000x32) ![6, 0, 0] S1x2000x32.size inb_S9x2000x32_S1x2000x32_6_0_0
abbrev rb6_6 : Rect S9x32x32 := Rect.unit (s := S9x32x32) ![6, 0, 0] S1x32x32.size inb_S9x32x32_S1x32x32_6_0_0
abbrev rc6_6 : Rect S9x2000x32 := Rect.unit (s := S9x2000x32) ![6, 0, 0] S1x2000x32.size inb_S9x2000x32_S1x2000x32_6_0_0
abbrev ra6_7 : Rect S9x2000x32 := Rect.unit (s := S9x2000x32) ![7, 0, 0] S1x2000x32.size inb_S9x2000x32_S1x2000x32_7_0_0
abbrev rb6_7 : Rect S9x32x32 := Rect.unit (s := S9x32x32) ![7, 0, 0] S1x32x32.size inb_S9x32x32_S1x32x32_7_0_0
abbrev rc6_7 : Rect S9x2000x32 := Rect.unit (s := S9x2000x32) ![7, 0, 0] S1x2000x32.size inb_S9x2000x32_S1x2000x32_7_0_0
abbrev ra6_8 : Rect S9x2000x32 := Rect.unit (s := S9x2000x32) ![8, 0, 0] S1x2000x32.size inb_S9x2000x32_S1x2000x32_8_0_0
abbrev rb6_8 : Rect S9x32x32 := Rect.unit (s := S9x32x32) ![8, 0, 0] S1x32x32.size inb_S9x32x32_S1x32x32_8_0_0
abbrev rc6_8 : Rect S9x2000x32 := Rect.unit (s := S9x2000x32) ![8, 0, 0] S1x2000x32.size inb_S9x2000x32_S1x2000x32_8_0_0

/-- The output block after the body: slab `k` holds the product of slab `k` of the gathered block with slab `k` of the
    weights (the stores listed last first). -/
def out6_2 (x0 : Vec F S9x2000x32 .bf16) (x1 : Vec F S9x32x32 .bf16) : Vec F S9x2000x32 .f32 :=
  View.canon [⟨rc6_8, k6_pay3 (View.ld x0 ra6_8) (View.ld x1 rb6_8)⟩,
    ⟨rc6_7, k6_pay2 (View.ld x0 ra6_7) (View.ld x1 rb6_7)⟩,
    ⟨rc6_6, k6_pay1 (k6_pay10 (View.ld x0 ra6_6)) (View.ld x1 rb6_6)⟩,
    ⟨rc6_5, k6_pay9 (View.ld x0 ra6_5) (View.ld x1 rb6_5)⟩,
    ⟨rc6_4, k6_pay8 (View.ld x0 ra6_4) (View.ld x1 rb6_4)⟩,
    ⟨rc6_3, k6_pay7 (View.ld x0 ra6_3) (View.ld x1 rb6_3)⟩,
    ⟨rc6_2, k6_pay6 (View.ld x0 ra6_2) (View.ld x1 rb6_2)⟩,
    ⟨rc6_1, k6_pay5 (View.ld x0 ra6_1) (View.ld x1 rb6_1)⟩,
    ⟨rc6_0, k6_pay4 (View.ld x0 ra6_0) (View.ld x1 rb6_0)⟩]

/-- The nine slabs tile the output block. -/
theorem cover6_2 (p0 p1 p2 p3 p4 p5 p6 p7 p8 : Vec F S1x2000x32 .f32) (y : S9x2000x32.Idx) :
    ∃ pc ∈ ([⟨rc6_8, p8⟩, ⟨rc6_7, p7⟩, ⟨rc6_6, p6⟩, ⟨rc6_5, p5⟩, ⟨rc6_4, p4⟩, ⟨rc6_3, p3⟩, ⟨rc6_2, p2⟩, ⟨rc6_1, p1⟩, ⟨rc6_0, p0⟩] : List (View.Piece (Elt F) S9x2000x32 .f32)), y ∈ pc.1.set :=
  View.cover_of_tiled [⟨rc6_8, p8⟩, ⟨rc6_7, p7⟩, ⟨rc6_6, p6⟩, ⟨rc6_5, p5⟩, ⟨rc6_4, p4⟩, ⟨rc6_3, p3⟩, ⟨rc6_2, p2⟩, ⟨rc6_1, p1⟩, ⟨rc6_0, p0⟩] S1x2000x32.size (by rfl) y

/-! ## The body's triple -/

set_option maxHeartbeats 4000000 in
/-- The body on whole staging buffers: the inputs are left as found, the output block ends at `out6_2` of the inputs. -/
theorem sound_kernel6 (c : Dev nD) (E : Set ℕ) (i : grid6.Coords) (arg1 : Memref sig .tc .vmem S9x2000x32 .bf16) (harg1 : arg1.IsWhole)
    (arg2 : Memref sig .tc .vmem S9x32x32 .bf16) (harg2 : arg2.IsWhole) (arg3 : Memref sig .tc .vmem S9x2000x32 .f32) (harg3 : arg3.IsWhole)
    (x0 : Vec F S9x2000x32 .bf16) (x1 : Vec F S9x32x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__gemm_kernel i arg1 harg1 arg2 harg2 arg3 harg3) K := by
  simp only [cc6__gemm_kernel_eq_skeleton]; unfold cc6__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.KRegion8.lean ====
/-
  Region 8 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out8_6`). Stated at an
  arbitrary float instance and at arbitrary entry contents `V` of the core's buffers.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev rn8_b : Rect S8000x32 := Rect.unit (s := S8000x32) ![0, 0] S8000x32.size inb_S8000x32_S8000x32_0_0
abbrev rn8_r : Rect S1x32 := Rect.unit (s := S1x32) ![0, 0] S1x32.size inb_S1x32_S1x32_0_0

/-- The output block after the body, from the six input blocks. -/
def out8_6 (x0 : Vec F S8000x32 .f32) (x1 x2 x3 x4 : Vec F S1x32 .f32) (x5 : Vec F S8000x32 .f32) : Vec F S8000x32 .f32 :=
  View.canon [⟨rn8_b, k8_pay1 (View.ld x1 rn8_r) (View.ld x2 rn8_r) (View.ld x3 rn8_r) (View.ld x4 rn8_r) (View.ld x0 rn8_b) (View.ld x5 rn8_b)⟩]

/-- The one store covers the output block. -/
theorem cover8_6 (p0 : Vec F S8000x32 .f32) (y : S8000x32.Idx) :
    ∃ pc ∈ ([⟨rn8_b, p0⟩] : List (View.Piece (Elt F) S8000x32 .f32)), y ∈ pc.1.set :=
  View.cover_of_tiled [⟨rn8_b, p0⟩] S8000x32.size (by rfl) y

/-! ## The body's triple -/

set_option maxHeartbeats 4000000 in
/-- The body on whole staging buffers: the inputs are left as found, the output block ends at `out8_6` of the inputs. -/
theorem sound_kernel8 (c : Dev nD) (E : Set ℕ) (i : grid8.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S8000x32 .f32) (harg6 : arg6.IsWhole) (arg7 : Memref sig .tc .vmem S8000x32 .f32) (harg7 : arg7.IsWhole)
    (x0 : Vec F S8000x32 .f32) (x1 x2 x3 x4 : Vec F S1x32 .f32) (x5 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The proof data and the body obligation -/

/-- The proof data of the region on core `c`: the arrays as the region finds them; after the body every input's buffer
    holds its block and the output's buffer `out8_6` of the input blocks; nothing of the scoped rest is touched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KRegion1Runs.lean ====
/-
  Region 1 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- The second branch is taken at the last grid coordinate (the mean and variance rows are stored there). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is live at every point. -/
theorem liveAt1_0 : ∀ t : Fin cfg1.N, cfg1.idle 0 (grid1.coords t) = false := by decide +kernel
/-- Before the last point the two output windows are idle and are not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The two accumulators as memrefs, and the invariant of the class opened at them -/

/-- The accumulator of column sums and the accumulator of column sums of squares: whole scoped buffers. -/
abbrev scM1_0 : Memref sig .tc .vmem S1x64 .f32 := Memref.whole cc1_scratch0
abbrev scM1_1 : Memref sig .tc .vmem S1x64 .f32 := Memref.whole cc1_scratch1

/-- The class invariant with the two accumulators owned at some contents, beside the rest of the scoped buffers
    (untouched by this region) and the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

/-! ## The body's accesses: each buffer whole -/

abbrev rn1_b : Rect S8000x64 := Rect.unit (s := S8000x64) ![0, 0] S8000x64.size inb_S8000x64_S8000x64_0_0
abbrev rn1_r : Rect S1x64 := Rect.unit (s := S1x64) ![0, 0] S1x64.size inb_S1x64_S1x64_0_0

theorem hz1_b : (![0, 0] : Fin S8000x64.rank → ℕ) = fun _ => 0 := by funext a; fin_cases a <;> rfl
theorem hz1_r : (![0, 0] : Fin S1x64.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r1 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r1 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel1_A (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : cond1_0 i) (hc1 : ¬cond1_1 i)
    (x0 : Vec F S8000x64 .f32) (xi1 xi2 : Vec F S1x64 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

set_option maxHeartbeats 4000000 in
/-- The body at a middle point (neither branch taken): the accumulators, found at `xs` and `xq`, end at `xs` plus the column sums of
    the block and `xq` plus its column sums of squares; the input block and the two output rows are left as found. -/
theorem sound_kernel1_B (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : ¬cond1_0 i) (hc1 : ¬cond1_1 i)
    (x0 : Vec F S8000x64 .f32) (xi1 xi2 xs xq : Vec F S1x64 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs) ∗ owns (c : Thread nD τ) arg5 fullShare (k1_pay5 x0 xq)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

set_option maxHeartbeats 4000000 in
/-- The body at the last point (second branch taken, first not): the accumulators are advanced as at a middle point, and the two output
    rows, found at anything, end at the mean row and the variance row computed from the advanced accumulators. -/
theorem sound_kernel1_C (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : ¬cond1_0 i) (hc1 : cond1_1 i)
    (x0 : Vec F S8000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k1_pay6 (k1_pay4 x0 xs)) ∗ owns (c : Thread nD τ) arg3 fullShare (k1_pay7 (k1_pay4 x0 xs) (k1_pay5 x0 xq))
            ∗ owns (c : Thread nD τ) arg4 fullShare (k1_pay4 x0 xs) ∗ owns (c : Thread nD τ) arg5 fullShare (k1_pay5 x0 xq)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  isplitl [H2]
  · iexists _; isplitr
    swap; · iexact H2
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

end Cert.Kernel.Hand

end
-- ==== Proof.KRegion1.lean ====
/-
  Region 1 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.KRegion1Runs
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums -/

/-- The row of column sums after point `n`: the zero row plus the column sums of blocks `0 … n`, added block by block. -/
def sumAcc1 (c : Dev nD) : (n : ℕ) → n < cfg1.N → Vec F S1x64 .f32
  | 0, h => k1_pay4 (iblk1 V c 0 ⟨0, h⟩) k1_pay1
  | n + 1, h => k1_pay4 (iblk1 V c 0 ⟨n + 1, h⟩) (sumAcc1 c n (Nat.lt_of_succ_lt h))

/-- The row of column sums of squares after point `n`, in the same way. -/
def sqAcc1 (c : Dev nD) : (n : ℕ) → n < cfg1.N → Vec F S1x64 .f32
  | 0, h => k1_pay5 (iblk1 V c 0 ⟨0, h⟩) k1_pay2
  | n + 1, h => k1_pay5 (iblk1 V c 0 ⟨n + 1, h⟩) (sqAcc1 c n (Nat.lt_of_succ_lt h))

theorem sumAcc1_zero (c : Dev nD) (h : 0 < cfg1.N) : sumAcc1 V c 0 h = k1_pay4 (iblk1 V c 0 ⟨0, h⟩) k1_pay1 := rfl
theorem sumAcc1_succ (c : Dev nD) (n : ℕ) (h : n + 1 < cfg1.N) :
    sumAcc1 V c (n + 1) h = k1_pay4 (iblk1 V c 0 ⟨n + 1, h⟩) (sumAcc1 V c n (Nat.lt_of_succ_lt h)) := rfl
theorem sqAcc1_zero (c : Dev nD) (h : 0 < cfg1.N) : sqAcc1 V c 0 h = k1_pay5 (iblk1 V c 0 ⟨0, h⟩) k1_pay2 := rfl
theorem sqAcc1_succ (c : Dev nD) (n : ℕ) (h : n + 1 < cfg1.N) :
    sqAcc1 V c (n + 1) h = k1_pay5 (iblk1 V c 0 ⟨n + 1, h⟩) (sqAcc1 V c n (Nat.lt_of_succ_lt h)) := rfl

/-- At the first point the sums start from the zero row. -/
theorem sumAcc1_first (c : Dev nD) (t : Fin cfg1.N) (hz : t.val = 0) : sumAcc1 V c t.val t.isLt = k1_pay4 (iblk1 V c 0 t) k1_pay1 := by
  obtain ⟨n, hn⟩ := t
  cases n with
  | zero => rfl
  | succ n => exact absurd hz (Nat.succ_ne_zero _)
theorem sqAcc1_first (c : Dev nD) (t : Fin cfg1.N) (hz : t.val = 0) : sqAcc1 V c t.val t.isLt = k1_pay5 (iblk1 V c 0 t) k1_pay2 := by
  obtain ⟨n, hn⟩ := t
  cases n with
  | zero => rfl
  | succ n => exact absurd hz (Nat.succ_ne_zero _)
/-- At a later point they add the point's block to what the point before left. -/
theorem sumAcc1_pos (c : Dev nD) (t : Fin cfg1.N) (hz : t.val ≠ 0) :
    sumAcc1 V c t.val t.isLt = k1_pay4 (iblk1 V c 0 t) (sumAcc1 V c (t.val - 1) (Nat.lt_of_le_of_lt (Nat.sub_le _ _) t.isLt)) := by
  obtain ⟨n, hn⟩ := t
  cases n with
  | zero => exact absurd rfl hz
  | succ n => rfl
theorem sqAcc1_pos (c : Dev nD) (t : Fin cfg1.N) (hz : t.val ≠ 0) :
    sqAcc1 V c t.val t.isLt = k1_pay5 (iblk1 V c 0 t) (sqAcc1 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the class invariant (both accumulators at anything);
    afterwards the two accumulators at the running sums the point before left, the untouched rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (sumAcc1 V c n hn) ∗ owns (c : Thread nD τ) scM1_1 fullShare (sqAcc1 V c n hn))
      ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sumAcc1 V c n hn) ∗ owns (c : Thread nD τ) scM1_1 fullShare (sqAcc1 V c n hn))
      ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sumAcc1 V c (n - 1) (by omega)) ∗ owns (c : Thread nD τ) scM1_1 fullShare (sqAcc1 V c (n - 1) (by omega)))
      ∗ rest1 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (sumAcc1 V c t.val t.isLt)
    | ⟨2, _⟩ => k1_pay7 (sumAcc1 V c t.val t.isLt) (sqAcc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = k1_pay6 (sumAcc1 V c t.val t.isLt) := by dsimp only [dat1]
theorem after1_2 (c : Dev nD) (t : Fin cfg1.N) :
    (dat1 V c).after 2 t = k1_pay7 (sumAcc1 V c t.val t.isLt) (sqAcc1 V c t.val t.isLt) := by dsimp only [dat1]

/-- The mean row the last point stores. -/
theorem after1_1_last (c : Dev nD) (h : 19 < cfg1.N) : (dat1 V c).after 1 ⟨19, h⟩ = k1_pay6 (sumAcc1 V c 19 h) := after1_1 V c ⟨19, h⟩
/-- The variance row the last point stores. -/
theorem after1_2_last (c : Dev nD) (h : 19 < cfg1.N) :
    (dat1 V c).after 2 ⟨19, h⟩ = k1_pay7 (sumAcc1 V c 19 h) (sqAcc1 V c 19 h) := after1_2 V c ⟨19, h⟩

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  by_cases h1 : t.val % 20 = 19
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (st1_1 t) fullShare ((dat1 V c).after 1 t) from by
      unfold Dat.leavesExact; rw [liveAt1_1 t hc1], after1_1]
    rw [show (dat1 V c).leavesExact 2 t = owns (c : Thread nD τ) (st1_2 t) fullShare ((dat1 V c).after 2 t) from by
      unfold Dat.leavesExact; rw [liveAt1_2 t hc1], after1_2]
    rw [PhiS1_castSucc V c t, PhiS1_pos V c _ _ hz, sumAcc1_pos V c t hz, sqAcc1_pos V c t hz]
    iintro ⟨⟨⟨⟨HS0, HS1⟩, HR⟩, Hg⟩, Ho, ⟨%d0, H0⟩, ⟨%d1, H1⟩, ⟨%d2, H2⟩⟩
    iapply (sound_kernel1_C c Set.univ (grid1.coords t) _ _ _ _ _ _ _ _ _ _ hc0 hc1 (iblk1 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val % 20 = 0
    · have hc0 : cond1_0 (grid1.coords t) := (hcond1_0 t).mpr h0
      have hz : t.val = 0 := by omega
      rw [PhiS1_castSucc V c t, PhiS1_zero V c _ _ hz, PhiA1_eq, sumAcc1_first V c t hz, sqAcc1_first V c t hz]
      iintro ⟨⟨⟨⟨HS0, HS1⟩, HR⟩, Hg⟩, Ho, ⟨%d0, H0⟩, ⟨%d1, H1⟩, ⟨%d2, H2⟩⟩
      iapply (sound_kernel1_A c Set.univ (grid1.coords t) _ _ _ _ _ _ _ _ _ _ hc0 hc1 (iblk1 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond1_0 (grid1.coords t) := fun h => h0 ((hcond1_0 t).mp h)
      have hz : t.val ≠ 0 := fun h => h0 (by rw [h])
      rw [PhiS1_castSucc V c t, PhiS1_pos V c _ _ hz, sumAcc1_pos V c t hz, sqAcc1_pos V c t hz]
      iintro ⟨⟨⟨⟨HS0, HS1⟩, HR⟩, Hg⟩, Ho, ⟨%d0, H0⟩, ⟨%d1, H1⟩, ⟨%d2, H2⟩⟩
      iapply (sound_kernel1_B c Set.univ (grid1.coords t) _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the region is handed, the class invariant, is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.KRegion4Runs.lean ====
/-
  Region 4 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 80 = 0 :=
  (by decide +kernel : ∀ t : Fin grid4.N, cond4_0 (grid4.coords t) ↔ t.val % 80 = 0)

/-- The second branch is taken at the last grid coordinate (the mean and variance rows are stored there). -/
abbrev cond4_1 (i : grid4.Coords) : Prop := k4_cond2 i = 1#1
theorem hcond4_1 : ∀ t : Fin cfg4.N, cond4_1 (grid4.coords t) ↔ t.val % 80 = 79 :=
  (by decide +kernel : ∀ t : Fin grid4.N, cond4_1 (grid4.coords t) ↔ t.val % 80 = 79)

/-! ## Where the windows are idle -/

/-- The input window is live at every point. -/
theorem liveAt4_0 : ∀ t : Fin cfg4.N, cfg4.idle 0 (grid4.coords t) = false := by decide +kernel
/-- Before the last point the two output windows are idle and are not written back. -/
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- At the last point they are live. -/
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The two accumulators as memrefs, and the invariant of the class opened at them -/

/-- The accumulator of column sums and the accumulator of column sums of squares: whole scoped buffers. -/
abbrev scM4_0 : Memref sig .tc .vmem S1x32 .f32 := Memref.whole cc4_scratch0
abbrev scM4_1 : Memref sig .tc .vmem S1x32 .f32 := Memref.whole cc4_scratch1

/-- The class invariant with the two accumulators owned at some contents, beside the rest of the scoped buffers
    (untouched by this region) and the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body's accesses: each buffer whole -/

abbrev rn4_b : Rect S8000x32 := Rect.unit (s := S8000x32) ![0, 0] S8000x32.size inb_S8000x32_S8000x32_0_0
abbrev rn4_r : Rect S1x32 := Rect.unit (s := S1x32) ![0, 0] S1x32.size inb_S1x32_S1x32_0_0

theorem hz4_b : (![0, 0] : Fin S8000x32.rank → ℕ) = fun _ => 0 := by funext a; fin_cases a <;> rfl
theorem hz4_r : (![0, 0] : Fin S1x32.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r4 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r4 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel4_A (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : cond4_0 i) (hc1 : ¬cond4_1 i)
    (x0 : Vec F S8000x32 .f32) (xi1 xi2 : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

set_option maxHeartbeats 4000000 in
/-- The body at a middle point (neither branch taken): the accumulators, found at `xs` and `xq`, end at `xs` plus the column sums of
    the block and `xq` plus its column sums of squares; the input block and the two output rows are left as found. -/
theorem sound_kernel4_B (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond4_0 i) (hc1 : ¬cond4_1 i)
    (x0 : Vec F S8000x32 .f32) (xi1 xi2 xs xq : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 xs) ∗ owns (c : Thread nD τ) arg5 fullShare (k4_pay5 x0 xq)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

set_option maxHeartbeats 4000000 in
/-- The body at the last point (second branch taken, first not): the accumulators are advanced as at a middle point, and the two output
    rows, found at anything, end at the mean row and the variance row computed from the advanced accumulators. -/
theorem sound_kernel4_C (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond4_0 i) (hc1 : cond4_1 i)
    (x0 : Vec F S8000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k4_pay6 (k4_pay4 x0 xs)) ∗ owns (c : Thread nD τ) arg3 fullShare (k4_pay7 (k4_pay4 x0 xs) (k4_pay5 x0 xq))
            ∗ owns (c : Thread nD τ) arg4 fullShare (k4_pay4 x0 xs) ∗ owns (c : Thread nD τ) arg5 fullShare (k4_pay5 x0 xq)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  isplitl [H2]
  · iexists _; isplitr
    swap; · iexact H2
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

end Cert.Kernel.Hand

end
-- ==== Proof.KRegion4.lean ====
/-
  Region 4 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.KRegion4Runs
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums -/

/-- The row of column sums after point `n`: the zero row plus the column sums of blocks `0 … n`, added block by block. -/
def sumAcc4 (c : Dev nD) : (n : ℕ) → n < cfg4.N → Vec F S1x32 .f32
  | 0, h => k4_pay4 (iblk4 V c 0 ⟨0, h⟩) k4_pay1
  | n + 1, h => k4_pay4 (iblk4 V c 0 ⟨n + 1, h⟩) (sumAcc4 c n (Nat.lt_of_succ_lt h))

/-- The row of column sums of squares after point `n`, in the same way. -/
def sqAcc4 (c : Dev nD) : (n : ℕ) → n < cfg4.N → Vec F S1x32 .f32
  | 0, h => k4_pay5 (iblk4 V c 0 ⟨0, h⟩) k4_pay2
  | n + 1, h => k4_pay5 (iblk4 V c 0 ⟨n + 1, h⟩) (sqAcc4 c n (Nat.lt_of_succ_lt h))

theorem sumAcc4_zero (c : Dev nD) (h : 0 < cfg4.N) : sumAcc4 V c 0 h = k4_pay4 (iblk4 V c 0 ⟨0, h⟩) k4_pay1 := rfl
theorem sumAcc4_succ (c : Dev nD) (n : ℕ) (h : n + 1 < cfg4.N) :
    sumAcc4 V c (n + 1) h = k4_pay4 (iblk4 V c 0 ⟨n + 1, h⟩) (sumAcc4 V c n (Nat.lt_of_succ_lt h)) := rfl
theorem sqAcc4_zero (c : Dev nD) (h : 0 < cfg4.N) : sqAcc4 V c 0 h = k4_pay5 (iblk4 V c 0 ⟨0, h⟩) k4_pay2 := rfl
theorem sqAcc4_succ (c : Dev nD) (n : ℕ) (h : n + 1 < cfg4.N) :
    sqAcc4 V c (n + 1) h = k4_pay5 (iblk4 V c 0 ⟨n + 1, h⟩) (sqAcc4 V c n (Nat.lt_of_succ_lt h)) := rfl

/-- At the first point the sums start from the zero row. -/
theorem sumAcc4_first (c : Dev nD) (t : Fin cfg4.N) (hz : t.val = 0) : sumAcc4 V c t.val t.isLt = k4_pay4 (iblk4 V c 0 t) k4_pay1 := by
  obtain ⟨n, hn⟩ := t
  cases n with
  | zero => rfl
  | succ n => exact absurd hz (Nat.succ_ne_zero _)
theorem sqAcc4_first (c : Dev nD) (t : Fin cfg4.N) (hz : t.val = 0) : sqAcc4 V c t.val t.isLt = k4_pay5 (iblk4 V c 0 t) k4_pay2 := by
  obtain ⟨n, hn⟩ := t
  cases n with
  | zero => rfl
  | succ n => exact absurd hz (Nat.succ_ne_zero _)
/-- At a later point they add the point's block to what the point before left. -/
theorem sumAcc4_pos (c : Dev nD) (t : Fin cfg4.N) (hz : t.val ≠ 0) :
    sumAcc4 V c t.val t.isLt = k4_pay4 (iblk4 V c 0 t) (sumAcc4 V c (t.val - 1) (Nat.lt_of_le_of_lt (Nat.sub_le _ _) t.isLt)) := by
  obtain ⟨n, hn⟩ := t
  cases n with
  | zero => exact absurd rfl hz
  | succ n => rfl
theorem sqAcc4_pos (c : Dev nD) (t : Fin cfg4.N) (hz : t.val ≠ 0) :
    sqAcc4 V c t.val t.isLt = k4_pay5 (iblk4 V c 0 t) (sqAcc4 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region invariant before position `n`: before the first point the class invariant (both accumulators at anything);
    afterwards the two accumulators at the running sums the point before left, the untouched rest and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare (sumAcc4 V c n hn) ∗ owns (c : Thread nD τ) scM4_1 fullShare (sqAcc4 V c n hn))
      ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sumAcc4 V c n hn) ∗ owns (c : Thread nD τ) scM4_1 fullShare (sqAcc4 V c n hn))
      ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sumAcc4 V c (n - 1) (by omega)) ∗ owns (c : Thread nD τ) scM4_1 fullShare (sqAcc4 V c (n - 1) (by omega)))
      ∗ rest4 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (sumAcc4 V c t.val t.isLt)
    | ⟨2, _⟩ => k4_pay7 (sumAcc4 V c t.val t.isLt) (sqAcc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = k4_pay6 (sumAcc4 V c t.val t.isLt) := by dsimp only [dat4]
theorem after4_2 (c : Dev nD) (t : Fin cfg4.N) :
    (dat4 V c).after 2 t = k4_pay7 (sumAcc4 V c t.val t.isLt) (sqAcc4 V c t.val t.isLt) := by dsimp only [dat4]

/-- The mean row the last point stores. -/
theorem after4_1_last (c : Dev nD) (h : 79 < cfg4.N) : (dat4 V c).after 1 ⟨79, h⟩ = k4_pay6 (sumAcc4 V c 79 h) := after4_1 V c ⟨79, h⟩
/-- The variance row the last point stores. -/
theorem after4_2_last (c : Dev nD) (h : 79 < cfg4.N) :
    (dat4 V c).after 2 ⟨79, h⟩ = k4_pay7 (sumAcc4 V c 79 h) (sqAcc4 V c 79 h) := after4_2 V c ⟨79, h⟩

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 80 := lt_of_lt_of_eq t.isLt (show cfg4.N = 80 from N_4)
  rw [show (dat4 V c).leavesExact 0 t = owns (c : Thread nD τ) (st4_0 t) fullShare ((dat4 V c).after 0 t) from by
    unfold Dat.leavesExact; rw [liveAt4_0 t], after4_0]
  by_cases h1 : t.val % 80 = 79
  · have hc1 : cond4_1 (grid4.coords t) := (hcond4_1 t).mpr h1
    have hc0 : ¬cond4_0 (grid4.coords t) := fun h => by have := (hcond4_0 t).mp h; omega
    have hz : t.val ≠ 0 := by omega
    rw [show (dat4 V c).leavesExact 1 t = owns (c : Thread nD τ) (st4_1 t) fullShare ((dat4 V c).after 1 t) from by
      unfold Dat.leavesExact; rw [liveAt4_1 t hc1], after4_1]
    rw [show (dat4 V c).leavesExact 2 t = owns (c : Thread nD τ) (st4_2 t) fullShare ((dat4 V c).after 2 t) from by
      unfold Dat.leavesExact; rw [liveAt4_2 t hc1], after4_2]
    rw [PhiS4_castSucc V c t, PhiS4_pos V c _ _ hz, sumAcc4_pos V c t hz, sqAcc4_pos V c t hz]
    iintro ⟨⟨⟨⟨HS0, HS1⟩, HR⟩, Hg⟩, Ho, ⟨%d0, H0⟩, ⟨%d1, H1⟩, ⟨%d2, H2⟩⟩
    iapply (sound_kernel4_C c Set.univ (grid4.coords t) _ _ _ _ _ _ _ _ _ _ hc0 hc1 (iblk4 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond4_1 (grid4.coords t) := fun h => h1 ((hcond4_1 t).mp h)
    rw [Dat.leavesExact_idle (dat4 V c) 1 t (idleAt4_1 t hc1) (noFlush4_1 t hc1)]
    rw [Dat.leavesExact_idle (dat4 V c) 2 t (idleAt4_2 t hc1) (noFlush4_2 t hc1)]
    by_cases h0 : t.val % 80 = 0
    · have hc0 : cond4_0 (grid4.coords t) := (hcond4_0 t).mpr h0
      have hz : t.val = 0 := by omega
      rw [PhiS4_castSucc V c t, PhiS4_zero V c _ _ hz, PhiA4_eq, sumAcc4_first V c t hz, sqAcc4_first V c t hz]
      iintro ⟨⟨⟨⟨HS0, HS1⟩, HR⟩, Hg⟩, Ho, ⟨%d0, H0⟩, ⟨%d1, H1⟩, ⟨%d2, H2⟩⟩
      iapply (sound_kernel4_A c Set.univ (grid4.coords t) _ _ _ _ _ _ _ _ _ _ hc0 hc1 (iblk4 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond4_0 (grid4.coords t) := fun h => h0 ((hcond4_0 t).mp h)
      have hz : t.val ≠ 0 := fun h => h0 (by rw [h])
      rw [PhiS4_castSucc V c t, PhiS4_pos V c _ _ hz, sumAcc4_pos V c t hz, sqAcc4_pos V c t hz]
      iintro ⟨⟨⟨⟨HS0, HS1⟩, HR⟩, Hg⟩, Ho, ⟨%d0, H0⟩, ⟨%d1, H1⟩, ⟨%d2, H2⟩⟩
      iapply (sound_kernel4_B c Set.univ (grid4.coords t) _ _ _ _ _ _ _ _ _ _ hc0 hc1 (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation4 (c : Dev nD) : BodyObligation (dat4 (F := F) V c) (defs₀ (F := F)) Variants.none () Set.univ := fun t => by
  rw [bigSep_W4, bigSep_W4]
  exact sound_body4 V c t

/-- What the region is handed, the class invariant, is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: what the accumulators hold is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 80 := N_4; omega)

end Cert.Kernel.Hand

end
-- ==== Proof.KRegion7Runs.lean ====
/-
  Region 7 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 320 = 0 :=
  (by decide +kernel : ∀ t : Fin grid7.N, cond7_0 (grid7.coords t) ↔ t.val % 320 = 0)

/-- The second branch is taken at the last grid coordinate (the mean and variance rows are stored there). -/
abbrev cond7_1 (i : grid7.Coords) : Prop := k7_cond2 i = 1#1
theorem hcond7_1 : ∀ t : Fin cfg7.N, cond7_1 (grid7.coords t) ↔ t.val % 320 = 319 :=
  (by decide +kernel : ∀ t : Fin grid7.N, cond7_1 (grid7.coords t) ↔ t.val % 320 = 319)

/-! ## Where the windows are idle -/

/-- The input window is live at every point. -/
theorem liveAt7_0 : ∀ t : Fin cfg7.N, cfg7.idle 0 (grid7.coords t) = false := by decide +kernel
/-- Before the last point the two output windows are idle and are not written back. -/
theorem idleAt7_1 : ∀ t : Fin cfg7.N, ¬cond7_1 (grid7.coords t) → cfg7.idle 1 (grid7.coords t) = true := by decide +kernel
theorem noFlush7_1 : ∀ t : Fin cfg7.N, ¬cond7_1 (grid7.coords t) → (cfg7.win 1).flush t = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- At the last point they are live. -/
theorem liveAt7_1 : ∀ t : Fin cfg7.N, cond7_1 (grid7.coords t) → cfg7.idle 1 (grid7.coords t) = false := by decide +kernel
theorem liveAt7_2 : ∀ t : Fin cfg7.N, cond7_1 (grid7.coords t) → cfg7.idle 2 (grid7.coords t) = false := by decide +kernel

/-! ## The two accumulators as memrefs, and the invariant of the class opened at them -/

/-- The accumulator of column sums and the accumulator of column sums of squares: whole scoped buffers. -/
abbrev scM7_0 : Memref sig .tc .vmem S1x32 .f32 := Memref.whole cc7_scratch0
abbrev scM7_1 : Memref sig .tc .vmem S1x32 .f32 := Memref.whole cc7_scratch1

/-- The class invariant with the two accumulators owned at some contents, beside the rest of the scoped buffers
    (untouched by this region) and the generator register. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM7_0, scM7_1, owns_whole]; try rfl

/-! ## The body's accesses: each buffer whole -/

abbrev rn7_b : Rect S8000x32 := Rect.unit (s := S8000x32) ![0, 0] S8000x32.size inb_S8000x32_S8000x32_0_0
abbrev rn7_r : Rect S1x32 := Rect.unit (s := S1x32) ![0, 0] S1x32.size inb_S1x32_S1x32_0_0

theorem hz7_b : (![0, 0] : Fin S8000x32.rank → ℕ) = fun _ => 0 := by funext a; fin_cases a <;> rfl
theorem hz7_r : (![0, 0] : Fin S1x32.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r7 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r7 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel7_A (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : cond7_0 i) (hc1 : ¬cond7_1 i)
    (x0 : Vec F S8000x32 .f32) (xi1 xi2 : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 k7_pay1) ∗ owns (c : Thread nD τ) arg5 fullShare (k7_pay5 x0 k7_pay2)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

set_option maxHeartbeats 4000000 in
/-- The body at a middle point (neither branch taken): the accumulators, found at `xs` and `xq`, end at `xs` plus the column sums of
    the block and `xq` plus its column sums of squares; the input block and the two output rows are left as found. -/
theorem sound_kernel7_B (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond7_0 i) (hc1 : ¬cond7_1 i)
    (x0 : Vec F S8000x32 .f32) (xi1 xi2 xs xq : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 xs) ∗ owns (c : Thread nD τ) arg5 fullShare (k7_pay5 x0 xq)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

set_option maxHeartbeats 4000000 in
/-- The body at the last point (second branch taken, first not): the accumulators are advanced as at a middle point, and the two output
    rows, found at anything, end at the mean row and the variance row computed from the advanced accumulators. -/
theorem sound_kernel7_C (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond7_0 i) (hc1 : cond7_1 i)
    (x0 : Vec F S8000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k7_pay6 (k7_pay4 x0 xs)) ∗ owns (c : Thread nD τ) arg3 fullShare (k7_pay7 (k7_pay4 x0 xs) (k7_pay5 x0 xq))
            ∗ owns (c : Thread nD τ) arg4 fullShare (k7_pay4 x0 xs) ∗ owns (c : Thread nD τ) arg5 fullShare (k7_pay5 x0 xq)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  isplitl [H2]
  · iexists _; isplitr
    swap; · iexact H2
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

end Cert.Kernel.Hand

end
-- ==== Proof.KRegion7.lean ====
/-
  Region 7 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.KRegion7Runs
import proofs.«146613_j41781441855727_2_alg».proof.Proof.Gen.Kernel.Launch
import proofs.«146613_j41781441855727_2_alg».proof.Proof.Gen.Kernel.Skeleton
import proofs.«146613_j41781441855727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The running sums -/

/-- The row of column sums after point `n`: the zero row plus the column sums of blocks `0 … n`, added block by block. -/
def sumAcc7 (c : Dev nD) : (n : ℕ) → n < cfg7.N → Vec F S1x32 .f32
  | 0, h => k7_pay4 (iblk7 V c 0 ⟨0, h⟩) k7_pay1
  | n + 1, h => k7_pay4 (iblk7 V c 0 ⟨n + 1, h⟩) (sumAcc7 c n (Nat.lt_of_succ_lt h))

/-- The row of column sums of squares after point `n`, in the same way. -/
def sqAcc7 (c : Dev nD) : (n : ℕ) → n < cfg7.N → Vec F S1x32 .f32
  | 0, h => k7_pay5 (iblk7 V c 0 ⟨0, h⟩) k7_pay2
  | n + 1, h => k7_pay5 (iblk7 V c 0 ⟨n + 1, h⟩) (sqAcc7 c n (Nat.lt_of_succ_lt h))

theorem sumAcc7_zero (c : Dev nD) (h : 0 < cfg7.N) : sumAcc7 V c 0 h = k7_pay4 (iblk7 V c 0 ⟨0, h⟩) k7_pay1 := rfl
theorem sumAcc7_succ (c : Dev nD) (n : ℕ) (h : n + 1 < cfg7.N) :
    sumAcc7 V c (n + 1) h = k7_pay4 (iblk7 V c 0 ⟨n + 1, h⟩) (sumAcc7 V c n (Nat.lt_of_succ_lt h)) := rfl
theorem sqAcc7_zero (c : Dev nD) (h : 0 < cfg7.N) : sqAcc7 V c 0 h = k7_pay5 (iblk7 V c 0 ⟨0, h⟩) k7_pay2 := rfl
theorem sqAcc7_succ (c : Dev nD) (n : ℕ) (h : n + 1 < cfg7.N) :
    sqAcc7 V c (n + 1) h = k7_pay5 (iblk7 V c 0 ⟨n + 1, h⟩) (sqAcc7 V c n (Nat.lt_of_succ_lt h)) := rfl

/-- At the first point the sums start from the zero row. -/
theorem sumAcc7_first (c : Dev nD) (t : Fin cfg7.N) (hz : t.val = 0) : sumAcc7 V c t.val t.isLt = k7_pay4 (iblk7 V c 0 t) k7_pay1 := by
  obtain ⟨n, hn⟩ := t
  cases n with
  | zero => rfl
  | succ n => exact absurd hz (Nat.succ_ne_zero _)
theorem sqAcc7_first (c : Dev nD) (t : Fin cfg7.N) (hz : t.val = 0) : sqAcc7 V c t.val t.isLt = k7_pay5 (iblk7 V c 0 t) k7_pay2 := by
  obtain ⟨n, hn⟩ := t
  cases n with
  | zero => rfl
  | succ n => exact absurd hz (Nat.succ_ne_zero _)
/-- At a later point they add the point's block to what the point before left. -/
theorem sumAcc7_pos (c : Dev nD) (t : Fin cfg7.N) (hz : t.val ≠ 0) :
    sumAcc7 V c t.val t.isLt = k7_pay4 (iblk7 V c 0 t) (sumAcc7 V c (t.val - 1) (Nat.lt_of_le_of_lt (Nat.sub_le _ _) t.isLt)) := by
  obtain ⟨n, hn⟩ := t
  cases n with
  | zero => exact absurd rfl hz
  | succ n => rfl
theorem sqAcc7_pos (c : Dev nD) (t : Fin cfg7.N) (hz : t.val ≠ 0) :
    sqAcc7 V c t.val t.isLt = k7_pay5 (iblk7 V c 0 t) (sqAcc7 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region invariant before position `n`: before the first point the class invariant (both accumulators at anything);
    afterwards the two accumulators at the running sums the point before left, the untouched rest and the generator register. -/
def PhiS7 (c : Dev nD) : (n : ℕ) → n ≤ cfg7.N → sProp 𝕄
  | 0, _ => Pipeline.ΦA spec7 c
  | n + 1, hn => iprop(iprop(iprop(owns (c : Thread nD τ) scM7_0 fullShare (sumAcc7 V c n hn) ∗ owns (c : Thread nD τ) scM7_1 fullShare (sqAcc7 V c n hn))
      ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (sumAcc7 V c n hn) ∗ owns (c : Thread nD τ) scM7_1 fullShare (sqAcc7 V c n hn))
      ∗ rest7 (F := F) c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (sumAcc7 V c (n - 1) (by omega)) ∗ owns (c : Thread nD τ) scM7_1 fullShare (sqAcc7 V c (n - 1) (by omega)))
      ∗ rest7 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => k7_pay6 (sumAcc7 V c t.val t.isLt)
    | ⟨2, _⟩ => k7_pay7 (sumAcc7 V c t.val t.isLt) (sqAcc7 V c t.val t.isLt)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = k7_pay6 (sumAcc7 V c t.val t.isLt) := by dsimp only [dat7]
theorem after7_2 (c : Dev nD) (t : Fin cfg7.N) :
    (dat7 V c).after 2 t = k7_pay7 (sumAcc7 V c t.val t.isLt) (sqAcc7 V c t.val t.isLt) := by dsimp only [dat7]

/-- The mean row the last point stores. -/
theorem after7_1_last (c : Dev nD) (h : 319 < cfg7.N) : (dat7 V c).after 1 ⟨319, h⟩ = k7_pay6 (sumAcc7 V c 319 h) := after7_1 V c ⟨319, h⟩
/-- The variance row the last point stores. -/
theorem after7_2_last (c : Dev nD) (h : 319 < cfg7.N) :
    (dat7 V c).after 2 ⟨319, h⟩ = k7_pay7 (sumAcc7 V c 319 h) (sqAcc7 V c 319 h) := after7_2 V c ⟨319, h⟩

theorem before7_0 (c : Dev nD) (t : Fin cfg7.N) (d) : (dat7 V c).before 0 t d = iblk7 V c 0 t :=
  before7_0_of V (dat7 V c) (A_eq7 V c 0) (after7_0 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 320 := lt_of_lt_of_eq t.isLt (show cfg7.N = 320 from N_7)
  rw [show (dat7 V c).leavesExact 0 t = owns (c : Thread nD τ) (st7_0 t) fullShare ((dat7 V c).after 0 t) from by
    unfold Dat.leavesExact; rw [liveAt7_0 t], after7_0]
  by_cases h1 : t.val % 320 = 319
  · have hc1 : cond7_1 (grid7.coords t) := (hcond7_1 t).mpr h1
    have hc0 : ¬cond7_0 (grid7.coords t) := fun h => by have := (hcond7_0 t).mp h; omega
    have hz : t.val ≠ 0 := by omega
    rw [show (dat7 V c).leavesExact 1 t = owns (c : Thread nD τ) (st7_1 t) fullShare ((dat7 V c).after 1 t) from by
      unfold Dat.leavesExact; rw [liveAt7_1 t hc1], after7_1]
    rw [show (dat7 V c).leavesExact 2 t = owns (c : Thread nD τ) (st7_2 t) fullShare ((dat7 V c).after 2 t) from by
      unfold Dat.leavesExact; rw [liveAt7_2 t hc1], after7_2]
    rw [PhiS7_castSucc V c t, PhiS7_pos V c _ _ hz, sumAcc7_pos V c t hz, sqAcc7_pos V c t hz]
    iintro ⟨⟨⟨⟨HS0, HS1⟩, HR⟩, Hg⟩, Ho, ⟨%d0, H0⟩, ⟨%d1, H1⟩, ⟨%d2, H2⟩⟩
    iapply (sound_kernel7_C c Set.univ (grid7.coords t) _ _ _ _ _ _ _ _ _ _ hc0 hc1 (iblk7 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond7_1 (grid7.coords t) := fun h => h1 ((hcond7_1 t).mp h)
    rw [Dat.leavesExact_idle (dat7 V c) 1 t (idleAt7_1 t hc1) (noFlush7_1 t hc1)]
    rw [Dat.leavesExact_idle (dat7 V c) 2 t (idleAt7_2 t hc1) (noFlush7_2 t hc1)]
    by_cases h0 : t.val % 320 = 0
    · have hc0 : cond7_0 (grid7.coords t) := (hcond7_0 t).mpr h0
      have hz : t.val = 0 := by omega
      rw [PhiS7_castSucc V c t, PhiS7_zero V c _ _ hz, PhiA7_eq, sumAcc7_first V c t hz, sqAcc7_first V c t hz]
      iintro ⟨⟨⟨⟨HS0, HS1⟩, HR⟩, Hg⟩, Ho, ⟨%d0, H0⟩, ⟨%d1, H1⟩, ⟨%d2, H2⟩⟩
      iapply (sound_kernel7_A c Set.univ (grid7.coords t) _ _ _ _ _ _ _ _ _ _ hc0 hc1 (iblk7 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond7_0 (grid7.coords t) := fun h => h0 ((hcond7_0 t).mp h)
      have hz : t.val ≠ 0 := fun h => h0 (by rw [h])
      rw [PhiS7_castSucc V c t, PhiS7_pos V c _ _ hz, sumAcc7_pos V c t hz, sqAcc7_pos V c t hz]
      iintro ⟨⟨⟨⟨HS0, HS1⟩, HR⟩, Hg⟩, Ho, ⟨%d0, H0⟩, ⟨%d1, H1⟩, ⟨%d2, H2⟩⟩
      iapply (sound_kernel7_B c Set.univ (grid7.coords t) _ _ _ _ _ _ _ _ _ _ hc0 hc1 (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation7 (c : Dev nD) : BodyObligation (dat7 (F := F) V c) (defs₀ (F := F)) Variants.none () Set.univ := fun t => by
  rw [bigSep_W7, bigSep_W7]
  exact sound_body7 V c t

/-- What the region is handed, the class invariant, is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class invariant back: what the accumulators hold is forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 320 := N_7; omega)

end Cert.Kernel.Hand

end
-- ==== Proof.KKernelRun.lean ====
/-
  The run of the kernel program as a whole: its @main is nine host stretches alternating with nine kernel regions. The contents of
  the core's unscoped buffers at each boundary are a fold from the launch memory (`W0` … `W18`: a host stretch applies its
  operations, a region leaves its arrays at what its write-backs fold to and every other buffer as entered); each region is a
  segment entered from one boundary's contents and left at the next; the launch over the segments gives: every weakly fair
  execution terminates, and every unscoped buffer ends at the last boundary's contents `W18`.
-/
import proofs.«146613_j41781441855727_2_alg».proof.Proof.Gen.Kernel.Regions
import proofs.«146613_j41781441855727_2_alg».proof.Proof.KRegion0
import proofs.«146613_j41781441855727_2_alg».proof.Proof.KRegion2
import proofs.«146613_j41781441855727_2_alg».proof.Proof.KRegion3
import proofs.«146613_j41781441855727_2_alg».proof.Proof.KRegion5
import proofs.«146613_j41781441855727_2_alg».proof.Proof.KRegion6
import proofs.«146613_j41781441855727_2_alg».proof.Proof.KRegion8
import proofs.«146613_j41781441855727_2_alg».proof.Proof.KRegion1
import proofs.«146613_j41781441855727_2_alg».proof.Proof.KRegion4
import proofs.«146613_j41781441855727_2_alg».proof.Proof.KRegion7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After host stretch 0 (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After host stretch 1 (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After host stretch 2 (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After host stretch 3 (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After host stretch 4 (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After host stretch 5 (region 5's entry). -/
abbrev W11 : Dev nD → Valuation τ sig (Elt F) := fun c => StableHlo.after hostOps5 (W10 m c)
abbrev V11 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After host stretch 6 (region 6's entry). -/
abbrev W13 : Dev nD → Valuation τ sig (Elt F) := fun c => StableHlo.after hostOps6 (W12 m c)
abbrev V13 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)
/-- After host stretch 7 (region 7's entry). -/
abbrev W15 : Dev nD → Valuation τ sig (Elt F) := fun c => StableHlo.after hostOps7 (W14 m c)
abbrev V15 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (V15 m) c).arrAt w cfg7.N
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev V16 : (c : Dev nD) → (b : Ref sig .tc) → Buf (Elt F) ((c : Thread nD τ).loc b) := fun c b => W16 m c b
theorem hF7 (c : Dev nD) (w : Fin cfg7.W) : (dat7 (V15 m) c).arrAt w cfg7.N = V16 m c (Pipeline.arrRef spec7 w) :=
  (W16_arr m c w).symm
theorem hrest7 (c : Dev nD) : ∀ b, b ∉ Finset.univ.image (Pipeline.arrRef spec7) → V16 m c b = V15 m c b :=
  fun b hb => W16_of_ne m c b fun w e => hb (Finset.mem_image.mpr ⟨w, Finset.mem_univ _, e⟩)
/-- After host stretch 8 (region 8's entry). -/
abbrev W17 : Dev nD → Valuation τ sig (Elt F) := fun c => StableHlo.after hostOps8 (W16 m c)
abbrev V17 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (V17 m) c).arrAt w cfg8.N
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev V18 : (c : Dev nD) → (b : Ref sig .tc) → Buf (Elt F) ((c : Thread nD τ).loc b) := fun c b => W18 m c b
theorem hF8 (c : Dev nD) (w : Fin cfg8.W) : (dat8 (V17 m) c).arrAt w cfg8.N = V18 m c (Pipeline.arrRef spec8 w) :=
  (W18_arr m c w).symm
theorem hrest8 (c : Dev nD) : ∀ b, b ∉ Finset.univ.image (Pipeline.arrRef spec8) → V18 m c b = V17 m c b :=
  fun b hb => W18_of_ne m c b fun w e => hb (Finset.mem_image.mpr ⟨w, Finset.mem_univ _, e⟩)

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm 4).1
        ∗ Pipeline.scopedRest spec4 c) : sProp 𝕄) ⊢ Pipeline.ΦA spec4 c := by
      unfold Pipeline.ΦA
      iintro ⟨Hp, -, Hr⟩
      isplitl [Hr]; · iexact Hr
      iexact Hp
    exact h.trans (hin4 (V9 m) c)
  hout c := by
    rw [Pipeline.ownSems0_none]
    have h : (Pipeline.ΦA spec4 c : sProp 𝕄) ⊢ iprop((∃ r, prngReg c r) ∗ emp ∗ Pipeline.scopedRest spec4 c) := by
      unfold Pipeline.ΦA
      iintro ⟨Hr, Hp⟩
      isplitl [Hp]; · iexact Hp
      isplitr; · iempintro
      iexact Hr
    exact (hout4 (V9 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 7).pre c (fun _ => fullShare) (adm 7).1
        ∗ Pipeline.scopedRest spec7 c) : sProp 𝕄) ⊢ Pipeline.ΦA spec7 c := by
      unfold Pipeline.ΦA
      iintro ⟨Hp, -, Hr⟩
      isplitl [Hr]; · iexact Hr
      iexact Hp
    exact h.trans (hin7 (V15 m) c)
  hout c := by
    rw [Pipeline.ownSems0_none]
    have h : (Pipeline.ΦA spec7 c : sProp 𝕄) ⊢ iprop((∃ r, prngReg c r) ∗ emp ∗ Pipeline.scopedRest spec7 c) := by
      unfold Pipeline.ΦA
      iintro ⟨Hr, Hp⟩
      isplitl [Hp]; · iexact Hp
      isplitr; · iempintro
      iexact Hr
    exact (hout7 (V15 m) c).trans h
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V15 m c) (V16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V17 m c) (V18 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eighteen segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.Kernel.Hand

end
-- ==== Proof.KKernelFrame.lean ====
/-
  The argument arrays end as launched: no host stretch writes an argument and no region changes one (a region reads the
  residual through an input window, whose array the pipeline leaves as entered), so the last boundary's contents at an
  argument walk back through the fold to the launch memory. With the run this is the frame claim.
-/
import proofs.«146613_j41781441855727_2_alg».proof.Proof.KKernelRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem W18_main_arg0 (c : Dev nD) : W18 m c (Proc.devRef .tc main_arg0) = m ((c : Thread nD τ).loc main_arg0) :=
  calc W18 m c (Proc.devRef .tc main_arg0)
    _ = W17 m c (Proc.devRef .tc main_arg0) := W18_of_ne m c main_arg0 (by decide)
    _ = W16 m c (Proc.devRef .tc main_arg0) := StableHlo.after_of_writes_sub hostOps8 _ hostOps8_writes (by decide : main_arg0 ∉ hostOps8_W)
    _ = W15 m c (Proc.devRef .tc main_arg0) := W16_of_ne m c main_arg0 (by decide)
    _ = W14 m c (Proc.devRef .tc main_arg0) := StableHlo.after_of_writes_sub hostOps7 _ hostOps7_writes (by decide : main_arg0 ∉ hostOps7_W)
    _ = W13 m c (Proc.devRef .tc main_arg0) := W14_of_ne m c main_arg0 (by decide)
    _ = W12 m c (Proc.devRef .tc main_arg0) := StableHlo.after_of_writes_sub hostOps6 _ hostOps6_writes (by decide : main_arg0 ∉ hostOps6_W)
    _ = W11 m c (Proc.devRef .tc main_arg0) := W12_of_ne m c main_arg0 (by decide)
    _ = W10 m c (Proc.devRef .tc main_arg0) := StableHlo.after_of_writes_sub hostOps5 _ hostOps5_writes (by decide : main_arg0 ∉ hostOps5_W)
    _ = W9 m c (Proc.devRef .tc main_arg0) := W10_of_ne m c main_arg0 (by decide)
    _ = W8 m c (Proc.devRef .tc main_arg0) := StableHlo.after_of_writes_sub hostOps4 _ hostOps4_writes (by decide : main_arg0 ∉ hostOps4_W)
    _ = W7 m c (Proc.devRef .tc main_arg0) := W8_of_ne m c main_arg0 (by decide)
    _ = W6 m c (Proc.devRef .tc main_arg0) := StableHlo.after_of_writes_sub hostOps3 _ hostOps3_writes (by decide : main_arg0 ∉ hostOps3_W)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W18_main_arg1 (c : Dev nD) : W18 m c (Proc.devRef .tc main_arg1) = m ((c : Thread nD τ).loc main_arg1) :=
  calc W18 m c (Proc.devRef .tc main_arg1)
    _ = W17 m c (Proc.devRef .tc main_arg1) := W18_of_ne m c main_arg1 (by decide)
    _ = W16 m c (Proc.devRef .tc main_arg1) := StableHlo.after_of_writes_sub hostOps8 _ hostOps8_writes (by decide : main_arg1 ∉ hostOps8_W)
    _ = W15 m c (Proc.devRef .tc main_arg1) := W16_of_ne m c main_arg1 (by decide)
    _ = W14 m c (Proc.devRef .tc main_arg1) := StableHlo.after_of_writes_sub hostOps7 _ hostOps7_writes (by decide : main_arg1 ∉ hostOps7_W)
    _ = W13 m c (Proc.devRef .tc main_arg1) := W14_of_ne m c main_arg1 (by decide)
    _ = W12 m c (Proc.devRef .tc main_arg1) := StableHlo.after_of_writes_sub hostOps6 _ hostOps6_writes (by decide : main_arg1 ∉ hostOps6_W)
    _ = W11 m c (Proc.devRef .tc main_arg1) := W12_of_ne m c main_arg1 (by decide)
    _ = W10 m c (Proc.devRef .tc main_arg1) := StableHlo.after_of_writes_sub hostOps5 _ hostOps5_writes (by decide : main_arg1 ∉ hostOps5_W)
    _ = W9 m c (Proc.devRef .tc main_arg1) := W10_of_ne m c main_arg1 (by decide)
    _ = W8 m c (Proc.devRef .tc main_arg1) := StableHlo.after_of_writes_sub hostOps4 _ hostOps4_writes (by decide : main_arg1 ∉ hostOps4_W)
    _ = W7 m c (Proc.devRef .tc main_arg1) := W8_of_ne m c main_arg1 (by decide)
    _ = W6 m c (Proc.devRef .tc main_arg1) := StableHlo.after_of_writes_sub hostOps3 _ hostOps3_writes (by decide : main_arg1 ∉ hostOps3_W)
    _ = W5 m c (Proc.devRef .tc main_arg1) := (W6_arr m c 5).trans (((dat2 (V5 m) c).arrAt_in 5 rfl _).trans (A_eq2 (V5 m) c 5))
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W18_main_arg2 (c : Dev nD) : W18 m c (Proc.devRef .tc main_arg2) = m ((c : Thread nD τ).loc main_arg2) :=
  calc W18 m c (Proc.devRef .tc main_arg2)
    _ = W17 m c (Proc.devRef .tc main_arg2) := W18_of_ne m c main_arg2 (by decide)
    _ = W16 m c (Proc.devRef .tc main_arg2) := StableHlo.after_of_writes_sub hostOps8 _ hostOps8_writes (by decide : main_arg2 ∉ hostOps8_W)
    _ = W15 m c (Proc.devRef .tc main_arg2) := W16_of_ne m c main_arg2 (by decide)
    _ = W14 m c (Proc.devRef .tc main_arg2) := StableHlo.after_of_writes_sub hostOps7 _ hostOps7_writes (by decide : main_arg2 ∉ hostOps7_W)
    _ = W13 m c (Proc.devRef .tc main_arg2) := W14_of_ne m c main_arg2 (by decide)
    _ = W12 m c (Proc.devRef .tc main_arg2) := StableHlo.after_of_writes_sub hostOps6 _ hostOps6_writes (by decide : main_arg2 ∉ hostOps6_W)
    _ = W11 m c (Proc.devRef .tc main_arg2) := (W12_arr m c 5).trans (((dat5 (V11 m) c).arrAt_in 5 rfl _).trans (A_eq5 (V11 m) c 5))
    _ = W10 m c (Proc.devRef .tc main_arg2) := StableHlo.after_of_writes_sub hostOps5 _ hostOps5_writes (by decide : main_arg2 ∉ hostOps5_W)
    _ = W9 m c (Proc.devRef .tc main_arg2) := W10_of_ne m c main_arg2 (by decide)
    _ = W8 m c (Proc.devRef .tc main_arg2) := StableHlo.after_of_writes_sub hostOps4 _ hostOps4_writes (by decide : main_arg2 ∉ hostOps4_W)
    _ = W7 m c (Proc.devRef .tc main_arg2) := W8_of_ne m c main_arg2 (by decide)
    _ = W6 m c (Proc.devRef .tc main_arg2) := StableHlo.after_of_writes_sub hostOps3 _ hostOps3_writes (by decide : main_arg2 ∉ hostOps3_W)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W18_main_arg3 (c : Dev nD) : W18 m c (Proc.devRef .tc main_arg3) = m ((c : Thread nD τ).loc main_arg3) :=
  calc W18 m c (Proc.devRef .tc main_arg3)
    _ = W17 m c (Proc.devRef .tc main_arg3) := (W18_arr m c 5).trans (((dat8 (V17 m) c).arrAt_in 5 rfl _).trans (A_eq8 (V17 m) c 5))
    _ = W16 m c (Proc.devRef .tc main_arg3) := StableHlo.after_of_writes_sub hostOps8 _ hostOps8_writes (by decide : main_arg3 ∉ hostOps8_W)
    _ = W15 m c (Proc.devRef .tc main_arg3) := W16_of_ne m c main_arg3 (by decide)
    _ = W14 m c (Proc.devRef .tc main_arg3) := StableHlo.after_of_writes_sub hostOps7 _ hostOps7_writes (by decide : main_arg3 ∉ hostOps7_W)
    _ = W13 m c (Proc.devRef .tc main_arg3) := W14_of_ne m c main_arg3 (by decide)
    _ = W12 m c (Proc.devRef .tc main_arg3) := StableHlo.after_of_writes_sub hostOps6 _ hostOps6_writes (by decide : main_arg3 ∉ hostOps6_W)
    _ = W11 m c (Proc.devRef .tc main_arg3) := W12_of_ne m c main_arg3 (by decide)
    _ = W10 m c (Proc.devRef .tc main_arg3) := StableHlo.after_of_writes_sub hostOps5 _ hostOps5_writes (by decide : main_arg3 ∉ hostOps5_W)
    _ = W9 m c (Proc.devRef .tc main_arg3) := W10_of_ne m c main_arg3 (by decide)
    _ = W8 m c (Proc.devRef .tc main_arg3) := StableHlo.after_of_writes_sub hostOps4 _ hostOps4_writes (by decide : main_arg3 ∉ hostOps4_W)
    _ = W7 m c (Proc.devRef .tc main_arg3) := W8_of_ne m c main_arg3 (by decide)
    _ = W6 m c (Proc.devRef .tc main_arg3) := StableHlo.after_of_writes_sub hostOps3 _ hostOps3_writes (by decide : main_arg3 ∉ hostOps3_W)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

theorem W18_main_arg4 (c : Dev nD) : W18 m c (Proc.devRef .tc main_arg4) = m ((c : Thread nD τ).loc main_arg4) :=
  calc W18 m c (Proc.devRef .tc main_arg4)
    _ = W17 m c (Proc.devRef .tc main_arg4) := W18_of_ne m c main_arg4 (by decide)
    _ = W16 m c (Proc.devRef .tc main_arg4) := StableHlo.after_of_writes_sub hostOps8 _ hostOps8_writes (by decide : main_arg4 ∉ hostOps8_W)
    _ = W15 m c (Proc.devRef .tc main_arg4) := W16_of_ne m c main_arg4 (by decide)
    _ = W14 m c (Proc.devRef .tc main_arg4) := StableHlo.after_of_writes_sub hostOps7 _ hostOps7_writes (by decide : main_arg4 ∉ hostOps7_W)
    _ = W13 m c (Proc.devRef .tc main_arg4) := W14_of_ne m c main_arg4 (by decide)
    _ = W12 m c (Proc.devRef .tc main_arg4) := StableHlo.after_of_writes_sub hostOps6 _ hostOps6_writes (by decide : main_arg4 ∉ hostOps6_W)
    _ = W11 m c (Proc.devRef .tc main_arg4) := W12_of_ne m c main_arg4 (by decide)
    _ = W10 m c (Proc.devRef .tc main_arg4) := StableHlo.after_of_writes_sub hostOps5 _ hostOps5_writes (by decide : main_arg4 ∉ hostOps5_W)
    _ = W9 m c (Proc.devRef .tc main_arg4) := W10_of_ne m c main_arg4 (by decide)
    _ = W8 m c (Proc.devRef .tc main_arg4) := StableHlo.after_of_writes_sub hostOps4 _ hostOps4_writes (by decide : main_arg4 ∉ hostOps4_W)
    _ = W7 m c (Proc.devRef .tc main_arg4) := W8_of_ne m c main_arg4 (by decide)
    _ = W6 m c (Proc.devRef .tc main_arg4) := StableHlo.after_of_writes_sub hostOps3 _ hostOps3_writes (by decide : main_arg4 ∉ hostOps3_W)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl

theorem W18_main_arg5 (c : Dev nD) : W18 m c (Proc.devRef .tc main_arg5) = m ((c : Thread nD τ).loc main_arg5) :=
  calc W18 m c (Proc.devRef .tc main_arg5)
    _ = W17 m c (Proc.devRef .tc main_arg5) := W18_of_ne m c main_arg5 (by decide)
    _ = W16 m c (Proc.devRef .tc main_arg5) := StableHlo.after_of_writes_sub hostOps8 _ hostOps8_writes (by decide : main_arg5 ∉ hostOps8_W)
    _ = W15 m c (Proc.devRef .tc main_arg5) := W16_of_ne m c main_arg5 (by decide)
    _ = W14 m c (Proc.devRef .tc main_arg5) := StableHlo.after_of_writes_sub hostOps7 _ hostOps7_writes (by decide : main_arg5 ∉ hostOps7_W)
    _ = W13 m c (Proc.devRef .tc main_arg5) := W14_of_ne m c main_arg5 (by decide)
    _ = W12 m c (Proc.devRef .tc main_arg5) := StableHlo.after_of_writes_sub hostOps6 _ hostOps6_writes (by decide : main_arg5 ∉ hostOps6_W)
    _ = W11 m c (Proc.devRef .tc main_arg5) := W12_of_ne m c main_arg5 (by decide)
    _ = W10 m c (Proc.devRef .tc main_arg5) := StableHlo.after_of_writes_sub hostOps5 _ hostOps5_writes (by decide : main_arg5 ∉ hostOps5_W)
    _ = W9 m c (Proc.devRef .tc main_arg5) := W10_of_ne m c main_arg5 (by decide)
    _ = W8 m c (Proc.devRef .tc main_arg5) := StableHlo.after_of_writes_sub hostOps4 _ hostOps4_writes (by decide : main_arg5 ∉ hostOps4_W)
    _ = W7 m c (Proc.devRef .tc main_arg5) := W8_of_ne m c main_arg5 (by decide)
    _ = W6 m c (Proc.devRef .tc main_arg5) := StableHlo.after_of_writes_sub hostOps3 _ hostOps3_writes (by decide : main_arg5 ∉ hostOps3_W)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W18_main_arg6 (c : Dev nD) : W18 m c (Proc.devRef .tc main_arg6) = m ((c : Thread nD τ).loc main_arg6) :=
  calc W18 m c (Proc.devRef .tc main_arg6)
    _ = W17 m c (Proc.devRef .tc main_arg6) := W18_of_ne m c main_arg6 (by decide)
    _ = W16 m c (Proc.devRef .tc main_arg6) := StableHlo.after_of_writes_sub hostOps8 _ hostOps8_writes (by decide : main_arg6 ∉ hostOps8_W)
    _ = W15 m c (Proc.devRef .tc main_arg6) := W16_of_ne m c main_arg6 (by decide)
    _ = W14 m c (Proc.devRef .tc main_arg6) := StableHlo.after_of_writes_sub hostOps7 _ hostOps7_writes (by decide : main_arg6 ∉ hostOps7_W)
    _ = W13 m c (Proc.devRef .tc main_arg6) := W14_of_ne m c main_arg6 (by decide)
    _ = W12 m c (Proc.devRef .tc main_arg6) := StableHlo.after_of_writes_sub hostOps6 _ hostOps6_writes (by decide : main_arg6 ∉ hostOps6_W)
    _ = W11 m c (Proc.devRef .tc main_arg6) := W12_of_ne m c main_arg6 (by decide)
    _ = W10 m c (Proc.devRef .tc main_arg6) := StableHlo.after_of_writes_sub hostOps5 _ hostOps5_writes (by decide : main_arg6 ∉ hostOps5_W)
    _ = W9 m c (Proc.devRef .tc main_arg6) := W10_of_ne m c main_arg6 (by decide)
    _ = W8 m c (Proc.devRef .tc main_arg6) := StableHlo.after_of_writes_sub hostOps4 _ hostOps4_writes (by decide : main_arg6 ∉ hostOps4_W)
    _ = W7 m c (Proc.devRef .tc main_arg6) := W8_of_ne m c main_arg6 (by decide)
    _ = W6 m c (Proc.devRef .tc main_arg6) := StableHlo.after_of_writes_sub hostOps3 _ hostOps3_writes (by decide : main_arg6 ∉ hostOps3_W)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W18_main_arg7 (c : Dev nD) : W18 m c (Proc.devRef .tc main_arg7) = m ((c : Thread nD τ).loc main_arg7) :=
  calc W18 m c (Proc.devRef .tc main_arg7)
    _ = W17 m c (Proc.devRef .tc main_arg7) := W18_of_ne m c main_arg7 (by decide)
    _ = W16 m c (Proc.devRef .tc main_arg7) := StableHlo.after_of_writes_sub hostOps8 _ hostOps8_writes (by decide : main_arg7 ∉ hostOps8_W)
    _ = W15 m c (Proc.devRef .tc main_arg7) := W16_of_ne m c main_arg7 (by decide)
    _ = W14 m c (Proc.devRef .tc main_arg7) := StableHlo.after_of_writes_sub hostOps7 _ hostOps7_writes (by decide : main_arg7 ∉ hostOps7_W)
    _ = W13 m c (Proc.devRef .tc main_arg7) := W14_of_ne m c main_arg7 (by decide)
    _ = W12 m c (Proc.devRef .tc main_arg7) := StableHlo.after_of_writes_sub hostOps6 _ hostOps6_writes (by decide : main_arg7 ∉ hostOps6_W)
    _ = W11 m c (Proc.devRef .tc main_arg7) := W12_of_ne m c main_arg7 (by decide)
    _ = W10 m c (Proc.devRef .tc main_arg7) := StableHlo.after_of_writes_sub hostOps5 _ hostOps5_writes (by decide : main_arg7 ∉ hostOps5_W)
    _ = W9 m c (Proc.devRef .tc main_arg7) := W10_of_ne m c main_arg7 (by decide)
    _ = W8 m c (Proc.devRef .tc main_arg7) := StableHlo.after_of_writes_sub hostOps4 _ hostOps4_writes (by decide : main_arg7 ∉ hostOps4_W)
    _ = W7 m c (Proc.devRef .tc main_arg7) := W8_of_ne m c main_arg7 (by decide)
    _ = W6 m c (Proc.devRef .tc main_arg7) := StableHlo.after_of_writes_sub hostOps3 _ hostOps3_writes (by decide : main_arg7 ∉ hostOps3_W)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

theorem W18_main_arg8 (c : Dev nD) : W18 m c (Proc.devRef .tc main_arg8) = m ((c : Thread nD τ).loc main_arg8) :=
  calc W18 m c (Proc.devRef .tc main_arg8)
    _ = W17 m c (Proc.devRef .tc main_arg8) := W18_of_ne m c main_arg8 (by decide)
    _ = W16 m c (Proc.devRef .tc main_arg8) := StableHlo.after_of_writes_sub hostOps8 _ hostOps8_writes (by decide : main_arg8 ∉ hostOps8_W)
    _ = W15 m c (Proc.devRef .tc main_arg8) := W16_of_ne m c main_arg8 (by decide)
    _ = W14 m c (Proc.devRef .tc main_arg8) := StableHlo.after_of_writes_sub hostOps7 _ hostOps7_writes (by decide : main_arg8 ∉ hostOps7_W)
    _ = W13 m c (Proc.devRef .tc main_arg8) := W14_of_ne m c main_arg8 (by decide)
    _ = W12 m c (Proc.devRef .tc main_arg8) := StableHlo.after_of_writes_sub hostOps6 _ hostOps6_writes (by decide : main_arg8 ∉ hostOps6_W)
    _ = W11 m c (Proc.devRef .tc main_arg8) := W12_of_ne m c main_arg8 (by decide)
    _ = W10 m c (Proc.devRef .tc main_arg8) := StableHlo.after_of_writes_sub hostOps5 _ hostOps5_writes (by decide : main_arg8 ∉ hostOps5_W)
    _ = W9 m c (Proc.devRef .tc main_arg8) := W10_of_ne m c main_arg8 (by decide)
    _ = W8 m c (Proc.devRef .tc main_arg8) := StableHlo.after_of_writes_sub hostOps4 _ hostOps4_writes (by decide : main_arg8 ∉ hostOps4_W)
    _ = W7 m c (Proc.devRef .tc main_arg8) := W8_of_ne m c main_arg8 (by decide)
    _ = W6 m c (Proc.devRef .tc main_arg8) := StableHlo.after_of_writes_sub hostOps3 _ hostOps3_writes (by decide : main_arg8 ∉ hostOps3_W)
    _ = W5 m c (Proc.devRef .tc main_arg8) := W6_of_ne m c main_arg8 (by decide)
    _ = W4 m c (Proc.devRef .tc main_arg8) := StableHlo.after_of_writes_sub hostOps2 _ hostOps2_writes (by decide : main_arg8 ∉ hostOps2_W)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

theorem W18_main_arg9 (c : Dev nD) : W18 m c (Proc.devRef .tc main_arg9) = m ((c : Thread nD τ).loc main_arg9) :=
  calc W18 m c (Proc.devRef .tc main_arg9)
    _ = W17 m c (Proc.devRef .tc main_arg9) := W18_of_ne m c main_arg9 (by decide)
    _ = W16 m c (Proc.devRef .tc main_arg9) := StableHlo.after_of_writes_sub hostOps8 _ hostOps8_writes (by decide : main_arg9 ∉ hostOps8_W)
    _ = W15 m c (Proc.devRef .tc main_arg9) := W16_of_ne m c main_arg9 (by decide)
    _ = W14 m c (Proc.devRef .tc main_arg9) := StableHlo.after_of_writes_sub hostOps7 _ hostOps7_writes (by decide : main_arg9 ∉ hostOps7_W)
    _ = W13 m c (Proc.devRef .tc main_arg9) := W14_of_ne m c main_arg9 (by decide)
    _ = W12 m c (Proc.devRef .tc main_arg9) := StableHlo.after_of_writes_sub hostOps6 _ hostOps6_writes (by decide : main_arg9 ∉ hostOps6_W)
    _ = W11 m c (Proc.devRef .tc main_arg9) := W12_of_ne m c main_arg9 (by decide)
    _ = W10 m c (Proc.devRef .tc main_arg9) := StableHlo.after_of_writes_sub hostOps5 _ hostOps5_writes (by decide : main_arg9 ∉ hostOps5_W)
    _ = W9 m c (Proc.devRef .tc main_arg9) := W10_of_ne m c main_arg9 (by decide)
    _ = W8 m c (Proc.devRef .tc main_arg9) := StableHlo.after_of_writes_sub hostOps4 _ hostOps4_writes (by decide : main_arg9 ∉ hostOps4_W)
    _ = W7 m c (Proc.devRef .tc main_arg9) := W8_of_ne m c main_arg9 (by decide)
    _ = W6 m c (Proc.devRef .tc main_arg9) := StableHlo.after_of_writes_sub hostOps3 _ hostOps3_writes (by decide : main_arg9 ∉ hostOps3_W)
    _ = W5 m c (Proc.devRef .tc main_arg9) := W6_of_ne m c main_arg9 (by decide)
    _ = W4 m c (Proc.devRef .tc main_arg9) := StableHlo.after_of_writes_sub hostOps2 _ hostOps2_writes (by decide : main_arg9 ∉ hostOps2_W)
    _ = W3 m c (Proc.devRef .tc main_arg9) := W4_of_ne m c main_arg9 (by decide)
    _ = W2 m c (Proc.devRef .tc main_arg9) := StableHlo.after_of_writes_sub hostOps1 _ hostOps1_writes (by decide : main_arg9 ∉ hostOps1_W)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl

theorem W18_main_arg10 (c : Dev nD) : W18 m c (Proc.devRef .tc main_arg10) = m ((c : Thread nD τ).loc main_arg10) :=
  calc W18 m c (Proc.devRef .tc main_arg10)
    _ = W17 m c (Proc.devRef .tc main_arg10) := W18_of_ne m c main_arg10 (by decide)
    _ = W16 m c (Proc.devRef .tc main_arg10) := StableHlo.after_of_writes_sub hostOps8 _ hostOps8_writes (by decide : main_arg10 ∉ hostOps8_W)
    _ = W15 m c (Proc.devRef .tc main_arg10) := W16_of_ne m c main_arg10 (by decide)
    _ = W14 m c (Proc.devRef .tc main_arg10) := StableHlo.after_of_writes_sub hostOps7 _ hostOps7_writes (by decide : main_arg10 ∉ hostOps7_W)
    _ = W13 m c (Proc.devRef .tc main_arg10) := W14_of_ne m c main_arg10 (by decide)
    _ = W12 m c (Proc.devRef .tc main_arg10) := StableHlo.after_of_writes_sub hostOps6 _ hostOps6_writes (by decide : main_arg10 ∉ hostOps6_W)
    _ = W11 m c (Proc.devRef .tc main_arg10) := W12_of_ne m c main_arg10 (by decide)
    _ = W10 m c (Proc.devRef .tc main_arg10) := StableHlo.after_of_writes_sub hostOps5 _ hostOps5_writes (by decide : main_arg10 ∉ hostOps5_W)
    _ = W9 m c (Proc.devRef .tc main_arg10) := W10_of_ne m c main_arg10 (by decide)
    _ = W8 m c (Proc.devRef .tc main_arg10) := StableHlo.after_of_writes_sub hostOps4 _ hostOps4_writes (by decide : main_arg10 ∉ hostOps4_W)
    _ = W7 m c (Proc.devRef .tc main_arg10) := W8_of_ne m c main_arg10 (by decide)
    _ = W6 m c (Proc.devRef .tc main_arg10) := StableHlo.after_of_writes_sub hostOps3 _ hostOps3_writes (by decide : main_arg10 ∉ hostOps3_W)
    _ = W5 m c (Proc.devRef .tc main_arg10) := W6_of_ne m c main_arg10 (by decide)
    _ = W4 m c (Proc.devRef .tc main_arg10) := StableHlo.after_of_writes_sub hostOps2 _ hostOps2_writes (by decide : main_arg10 ∉ hostOps2_W)
    _ = W3 m c (Proc.devRef .tc main_arg10) := W4_of_ne m c main_arg10 (by decide)
    _ = W2 m c (Proc.devRef .tc main_arg10) := StableHlo.after_of_writes_sub hostOps1 _ hostOps1_writes (by decide : main_arg10 ∉ hostOps1_W)
    _ = W1 m c (Proc.devRef .tc main_arg10) := W2_of_ne m c main_arg10 (by decide)
    _ = W0 m c (Proc.devRef .tc main_arg10) := StableHlo.after_of_writes_sub hostOps0 _ hostOps0_writes (by decide : main_arg10 ∉ hostOps0_W)
    _ = m ((c : Thread nD τ).loc main_arg10) := rfl

theorem W18_main_arg11 (c : Dev nD) : W18 m c (Proc.devRef .tc main_arg11) = m ((c : Thread nD τ).loc main_arg11) :=
  calc W18 m c (Proc.devRef .tc main_arg11)
    _ = W17 m c (Proc.devRef .tc main_arg11) := W18_of_ne m c main_arg11 (by decide)
    _ = W16 m c (Proc.devRef .tc main_arg11) := StableHlo.after_of_writes_sub hostOps8 _ hostOps8_writes (by decide : main_arg11 ∉ hostOps8_W)
    _ = W15 m c (Proc.devRef .tc main_arg11) := W16_of_ne m c main_arg11 (by decide)
    _ = W14 m c (Proc.devRef .tc main_arg11) := StableHlo.after_of_writes_sub hostOps7 _ hostOps7_writes (by decide : main_arg11 ∉ hostOps7_W)
    _ = W13 m c (Proc.devRef .tc main_arg11) := W14_of_ne m c main_arg11 (by decide)
    _ = W12 m c (Proc.devRef .tc main_arg11) := StableHlo.after_of_writes_sub hostOps6 _ hostOps6_writes (by decide : main_arg11 ∉ hostOps6_W)
    _ = W11 m c (Proc.devRef .tc main_arg11) := W12_of_ne m c main_arg11 (by decide)
    _ = W10 m c (Proc.devRef .tc main_arg11) := StableHlo.after_of_writes_sub hostOps5 _ hostOps5_writes (by decide : main_arg11 ∉ hostOps5_W)
    _ = W9 m c (Proc.devRef .tc main_arg11) := W10_of_ne m c main_arg11 (by decide)
    _ = W8 m c (Proc.devRef .tc main_arg11) := StableHlo.after_of_writes_sub hostOps4 _ hostOps4_writes (by decide : main_arg11 ∉ hostOps4_W)
    _ = W7 m c (Proc.devRef .tc main_arg11) := W8_of_ne m c main_arg11 (by decide)
    _ = W6 m c (Proc.devRef .tc main_arg11) := StableHlo.after_of_writes_sub hostOps3 _ hostOps3_writes (by decide : main_arg11 ∉ hostOps3_W)
    _ = W5 m c (Proc.devRef .tc main_arg11) := W6_of_ne m c main_arg11 (by decide)
    _ = W4 m c (Proc.devRef .tc main_arg11) := StableHlo.after_of_writes_sub hostOps2 _ hostOps2_writes (by decide : main_arg11 ∉ hostOps2_W)
    _ = W3 m c (Proc.devRef .tc main_arg11) := W4_of_ne m c main_arg11 (by decide)
    _ = W2 m c (Proc.devRef .tc main_arg11) := StableHlo.after_of_writes_sub hostOps1 _ hostOps1_writes (by decide : main_arg11 ∉ hostOps1_W)
    _ = W1 m c (Proc.devRef .tc main_arg11) := W2_of_ne m c main_arg11 (by decide)
    _ = W0 m c (Proc.devRef .tc main_arg11) := StableHlo.after_of_writes_sub hostOps0 _ hostOps0_writes (by decide : main_arg11 ∉ hostOps0_W)
    _ = m ((c : Thread nD τ).loc main_arg11) := rfl

theorem W18_main_arg12 (c : Dev nD) : W18 m c (Proc.devRef .tc main_arg12) = m ((c : Thread nD τ).loc main_arg12) :=
  calc W18 m c (Proc.devRef .tc main_arg12)
    _ = W17 m c (Proc.devRef .tc main_arg12) := W18_of_ne m c main_arg12 (by decide)
    _ = W16 m c (Proc.devRef .tc main_arg12) := StableHlo.after_of_writes_sub hostOps8 _ hostOps8_writes (by decide : main_arg12 ∉ hostOps8_W)
    _ = W15 m c (Proc.devRef .tc main_arg12) := W16_of_ne m c main_arg12 (by decide)
    _ = W14 m c (Proc.devRef .tc main_arg12) := StableHlo.after_of_writes_sub hostOps7 _ hostOps7_writes (by decide : main_arg12 ∉ hostOps7_W)
    _ = W13 m c (Proc.devRef .tc main_arg12) := W14_of_ne m c main_arg12 (by decide)
    _ = W12 m c (Proc.devRef .tc main_arg12) := StableHlo.after_of_writes_sub hostOps6 _ hostOps6_writes (by decide : main_arg12 ∉ hostOps6_W)
    _ = W11 m c (Proc.devRef .tc main_arg12) := W12_of_ne m c main_arg12 (by decide)
    _ = W10 m c (Proc.devRef .tc main_arg12) := StableHlo.after_of_writes_sub hostOps5 _ hostOps5_writes (by decide : main_arg12 ∉ hostOps5_W)
    _ = W9 m c (Proc.devRef .tc main_arg12) := W10_of_ne m c main_arg12 (by decide)
    _ = W8 m c (Proc.devRef .tc main_arg12) := StableHlo.after_of_writes_sub hostOps4 _ hostOps4_writes (by decide : main_arg12 ∉ hostOps4_W)
    _ = W7 m c (Proc.devRef .tc main_arg12) := W8_of_ne m c main_arg12 (by decide)
    _ = W6 m c (Proc.devRef .tc main_arg12) := StableHlo.after_of_writes_sub hostOps3 _ hostOps3_writes (by decide : main_arg12 ∉ hostOps3_W)
    _ = W5 m c (Proc.devRef .tc main_arg12) := W6_of_ne m c main_arg12 (by decide)
    _ = W4 m c (Proc.devRef .tc main_arg12) := StableHlo.after_of_writes_sub hostOps2 _ hostOps2_writes (by decide : main_arg12 ∉ hostOps2_W)
    _ = W3 m c (Proc.devRef .tc main_arg12) := W4_of_ne m c main_arg12 (by decide)
    _ = W2 m c (Proc.devRef .tc main_arg12) := StableHlo.after_of_writes_sub hostOps1 _ hostOps1_writes (by decide : main_arg12 ∉ hostOps1_W)
    _ = W1 m c (Proc.devRef .tc main_arg12) := W2_of_ne m c main_arg12 (by decide)
    _ = W0 m c (Proc.devRef .tc main_arg12) := StableHlo.after_of_writes_sub hostOps0 _ hostOps0_writes (by decide : main_arg12 ∉ hostOps0_W)
    _ = m ((c : Thread nD τ).loc main_arg12) := rfl

theorem W18_main_arg13 (c : Dev nD) : W18 m c (Proc.devRef .tc main_arg13) = m ((c : Thread nD τ).loc main_arg13) :=
  calc W18 m c (Proc.devRef .tc main_arg13)
    _ = W17 m c (Proc.devRef .tc main_arg13) := W18_of_ne m c main_arg13 (by decide)
    _ = W16 m c (Proc.devRef .tc main_arg13) := StableHlo.after_of_writes_sub hostOps8 _ hostOps8_writes (by decide : main_arg13 ∉ hostOps8_W)
    _ = W15 m c (Proc.devRef .tc main_arg13) := W16_of_ne m c main_arg13 (by decide)
    _ = W14 m c (Proc.devRef .tc main_arg13) := StableHlo.after_of_writes_sub hostOps7 _ hostOps7_writes (by decide : main_arg13 ∉ hostOps7_W)
    _ = W13 m c (Proc.devRef .tc main_arg13) := W14_of_ne m c main_arg13 (by decide)
    _ = W12 m c (Proc.devRef .tc main_arg13) := StableHlo.after_of_writes_sub hostOps6 _ hostOps6_writes (by decide : main_arg13 ∉ hostOps6_W)
    _ = W11 m c (Proc.devRef .tc main_arg13) := W12_of_ne m c main_arg13 (by decide)
    _ = W10 m c (Proc.devRef .tc main_arg13) := StableHlo.after_of_writes_sub hostOps5 _ hostOps5_writes (by decide : main_arg13 ∉ hostOps5_W)
    _ = W9 m c (Proc.devRef .tc main_arg13) := W10_of_ne m c main_arg13 (by decide)
    _ = W8 m c (Proc.devRef .tc main_arg13) := StableHlo.after_of_writes_sub hostOps4 _ hostOps4_writes (by decide : main_arg13 ∉ hostOps4_W)
    _ = W7 m c (Proc.devRef .tc main_arg13) := W8_of_ne m c main_arg13 (by decide)
    _ = W6 m c (Proc.devRef .tc main_arg13) := StableHlo.after_of_writes_sub hostOps3 _ hostOps3_writes (by decide : main_arg13 ∉ hostOps3_W)
    _ = W5 m c (Proc.devRef .tc main_arg13) := W6_of_ne m c main_arg13 (by decide)
    _ = W4 m c (Proc.devRef .tc main_arg13) := StableHlo.after_of_writes_sub hostOps2 _ hostOps2_writes (by decide : main_arg13 ∉ hostOps2_W)
    _ = W3 m c (Proc.devRef .tc main_arg13) := W4_of_ne m c main_arg13 (by decide)
    _ = W2 m c (Proc.devRef .tc main_arg13) := StableHlo.after_of_writes_sub hostOps1 _ hostOps1_writes (by decide : main_arg13 ∉ hostOps1_W)
    _ = W1 m c (Proc.devRef .tc main_arg13) := W2_of_ne m c main_arg13 (by decide)
    _ = W0 m c (Proc.devRef .tc main_arg13) := StableHlo.after_of_writes_sub hostOps0 _ hostOps0_writes (by decide : main_arg13 ∉ hostOps0_W)
    _ = m ((c : Thread nD τ).loc main_arg13) := rfl

theorem W18_main_arg14 (c : Dev nD) : W18 m c (Proc.devRef .tc main_arg14) = m ((c : Thread nD τ).loc main_arg14) :=
  calc W18 m c (Proc.devRef .tc main_arg14)
    _ = W17 m c (Proc.devRef .tc main_arg14) := W18_of_ne m c main_arg14 (by decide)
    _ = W16 m c (Proc.devRef .tc main_arg14) := StableHlo.after_of_writes_sub hostOps8 _ hostOps8_writes (by decide : main_arg14 ∉ hostOps8_W)
    _ = W15 m c (Proc.devRef .tc main_arg14) := W16_of_ne m c main_arg14 (by decide)
    _ = W14 m c (Proc.devRef .tc main_arg14) := StableHlo.after_of_writes_sub hostOps7 _ hostOps7_writes (by decide : main_arg14 ∉ hostOps7_W)
    _ = W13 m c (Proc.devRef .tc main_arg14) := W14_of_ne m c main_arg14 (by decide)
    _ = W12 m c (Proc.devRef .tc main_arg14) := StableHlo.after_of_writes_sub hostOps6 _ hostOps6_writes (by decide : main_arg14 ∉ hostOps6_W)
    _ = W11 m c (Proc.devRef .tc main_arg14) := W12_of_ne m c main_arg14 (by decide)
    _ = W10 m c (Proc.devRef .tc main_arg14) := StableHlo.after_of_writes_sub hostOps5 _ hostOps5_writes (by decide : main_arg14 ∉ hostOps5_W)
    _ = W9 m c (Proc.devRef .tc main_arg14) := W10_of_ne m c main_arg14 (by decide)
    _ = W8 m c (Proc.devRef .tc main_arg14) := StableHlo.after_of_writes_sub hostOps4 _ hostOps4_writes (by decide : main_arg14 ∉ hostOps4_W)
    _ = W7 m c (Proc.devRef .tc main_arg14) := W8_of_ne m c main_arg14 (by decide)
    _ = W6 m c (Proc.devRef .tc main_arg14) := StableHlo.after_of_writes_sub hostOps3 _ hostOps3_writes (by decide : main_arg14 ∉ hostOps3_W)
    _ = W5 m c (Proc.devRef .tc main_arg14) := W6_of_ne m c main_arg14 (by decide)
    _ = W4 m c (Proc.devRef .tc main_arg14) := StableHlo.after_of_writes_sub hostOps2 _ hostOps2_writes (by decide : main_arg14 ∉ hostOps2_W)
    _ = W3 m c (Proc.devRef .tc main_arg14) := W4_of_ne m c main_arg14 (by decide)
    _ = W2 m c (Proc.devRef .tc main_arg14) := StableHlo.after_of_writes_sub hostOps1 _ hostOps1_writes (by decide : main_arg14 ∉ hostOps1_W)
    _ = W1 m c (Proc.devRef .tc main_arg14) := W2_of_ne m c main_arg14 (by decide)
    _ = W0 m c (Proc.devRef .tc main_arg14) := StableHlo.after_of_writes_sub hostOps0 _ hostOps0_writes (by decide : main_arg14 ∉ hostOps0_W)
    _ = m ((c : Thread nD τ).loc main_arg14) := rfl

theorem W18_main_arg15 (c : Dev nD) : W18 m c (Proc.devRef .tc main_arg15) = m ((c : Thread nD τ).loc main_arg15) :=
  calc W18 m c (Proc.devRef .tc main_arg15)
    _ = W17 m c (Proc.devRef .tc main_arg15) := W18_of_ne m c main_arg15 (by decide)
    _ = W16 m c (Proc.devRef .tc main_arg15) := StableHlo.after_of_writes_sub hostOps8 _ hostOps8_writes (by decide : main_arg15 ∉ hostOps8_W)
    _ = W15 m c (Proc.devRef .tc main_arg15) := W16_of_ne m c main_arg15 (by decide)
    _ = W14 m c (Proc.devRef .tc main_arg15) := StableHlo.after_of_writes_sub hostOps7 _ hostOps7_writes (by decide : main_arg15 ∉ hostOps7_W)
    _ = W13 m c (Proc.devRef .tc main_arg15) := W14_of_ne m c main_arg15 (by decide)
    _ = W12 m c (Proc.devRef .tc main_arg15) := StableHlo.after_of_writes_sub hostOps6 _ hostOps6_writes (by decide : main_arg15 ∉ hostOps6_W)
    _ = W11 m c (Proc.devRef .tc main_arg15) := W12_of_ne m c main_arg15 (by decide)
    _ = W10 m c (Proc.devRef .tc main_arg15) := StableHlo.after_of_writes_sub hostOps5 _ hostOps5_writes (by decide : main_arg15 ∉ hostOps5_W)
    _ = W9 m c (Proc.devRef .tc main_arg15) := W10_of_ne m c main_arg15 (by decide)
    _ = W8 m c (Proc.devRef .tc main_arg15) := StableHlo.after_of_writes_sub hostOps4 _ hostOps4_writes (by decide : main_arg15 ∉ hostOps4_W)
    _ = W7 m c (Proc.devRef .tc main_arg15) := W8_of_ne m c main_arg15 (by decide)
    _ = W6 m c (Proc.devRef .tc main_arg15) := StableHlo.after_of_writes_sub hostOps3 _ hostOps3_writes (by decide : main_arg15 ∉ hostOps3_W)
    _ = W5 m c (Proc.devRef .tc main_arg15) := W6_of_ne m c main_arg15 (by decide)
    _ = W4 m c (Proc.devRef .tc main_arg15) := StableHlo.after_of_writes_sub hostOps2 _ hostOps2_writes (by decide : main_arg15 ∉ hostOps2_W)
    _ = W3 m c (Proc.devRef .tc main_arg15) := W4_of_ne m c main_arg15 (by decide)
    _ = W2 m c (Proc.devRef .tc main_arg15) := StableHlo.after_of_writes_sub hostOps1 _ hostOps1_writes (by decide : main_arg15 ∉ hostOps1_W)
    _ = W1 m c (Proc.devRef .tc main_arg15) := W2_of_ne m c main_arg15 (by decide)
    _ = W0 m c (Proc.devRef .tc main_arg15) := StableHlo.after_of_writes_sub hostOps0 _ hostOps0_writes (by decide : main_arg15 ∉ hostOps0_W)
    _ = m ((c : Thread nD τ).loc main_arg15) := rfl

theorem W18_main_arg16 (c : Dev nD) : W18 m c (Proc.devRef .tc main_arg16) = m ((c : Thread nD τ).loc main_arg16) :=
  calc W18 m c (Proc.devRef .tc main_arg16)
    _ = W17 m c (Proc.devRef .tc main_arg16) := W18_of_ne m c main_arg16 (by decide)
    _ = W16 m c (Proc.devRef .tc main_arg16) := StableHlo.after_of_writes_sub hostOps8 _ hostOps8_writes (by decide : main_arg16 ∉ hostOps8_W)
    _ = W15 m c (Proc.devRef .tc main_arg16) := W16_of_ne m c main_arg16 (by decide)
    _ = W14 m c (Proc.devRef .tc main_arg16) := StableHlo.after_of_writes_sub hostOps7 _ hostOps7_writes (by decide : main_arg16 ∉ hostOps7_W)
    _ = W13 m c (Proc.devRef .tc main_arg16) := W14_of_ne m c main_arg16 (by decide)
    _ = W12 m c (Proc.devRef .tc main_arg16) := StableHlo.after_of_writes_sub hostOps6 _ hostOps6_writes (by decide : main_arg16 ∉ hostOps6_W)
    _ = W11 m c (Proc.devRef .tc main_arg16) := W12_of_ne m c main_arg16 (by decide)
    _ = W10 m c (Proc.devRef .tc main_arg16) := StableHlo.after_of_writes_sub hostOps5 _ hostOps5_writes (by decide : main_arg16 ∉ hostOps5_W)
    _ = W9 m c (Proc.devRef .tc main_arg16) := W10_of_ne m c main_arg16 (by decide)
    _ = W8 m c (Proc.devRef .tc main_arg16) := StableHlo.after_of_writes_sub hostOps4 _ hostOps4_writes (by decide : main_arg16 ∉ hostOps4_W)
    _ = W7 m c (Proc.devRef .tc main_arg16) := W8_of_ne m c main_arg16 (by decide)
    _ = W6 m c (Proc.devRef .tc main_arg16) := StableHlo.after_of_writes_sub hostOps3 _ hostOps3_writes (by decide : main_arg16 ∉ hostOps3_W)
    _ = W5 m c (Proc.devRef .tc main_arg16) := W6_of_ne m c main_arg16 (by decide)
    _ = W4 m c (Proc.devRef .tc main_arg16) := StableHlo.after_of_writes_sub hostOps2 _ hostOps2_writes (by decide : main_arg16 ∉ hostOps2_W)
    _ = W3 m c (Proc.devRef .tc main_arg16) := W4_of_ne m c main_arg16 (by decide)
    _ = W2 m c (Proc.devRef .tc main_arg16) := StableHlo.after_of_writes_sub hostOps1 _ hostOps1_writes (by decide : main_arg16 ∉ hostOps1_W)
    _ = W1 m c (Proc.devRef .tc main_arg16) := W2_of_ne m c main_arg16 (by decide)
    _ = W0 m c (Proc.devRef .tc main_arg16) := StableHlo.after_of_writes_sub hostOps0 _ hostOps0_writes (by decide : main_arg16 ∉ hostOps0_W)
    _ = m ((c : Thread nD τ).loc main_arg16) := rfl

theorem W18_main_arg17 (c : Dev nD) : W18 m c (Proc.devRef .tc main_arg17) = m ((c : Thread nD τ).loc main_arg17) :=
  calc W18 m c (Proc.devRef .tc main_arg17)
    _ = W17 m c (Proc.devRef .tc main_arg17) := W18_of_ne m c main_arg17 (by decide)
    _ = W16 m c (Proc.devRef .tc main_arg17) := StableHlo.after_of_writes_sub hostOps8 _ hostOps8_writes (by decide : main_arg17 ∉ hostOps8_W)
    _ = W15 m c (Proc.devRef .tc main_arg17) := W16_of_ne m c main_arg17 (by decide)
    _ = W14 m c (Proc.devRef .tc main_arg17) := StableHlo.after_of_writes_sub hostOps7 _ hostOps7_writes (by decide : main_arg17 ∉ hostOps7_W)
    _ = W13 m c (Proc.devRef .tc main_arg17) := W14_of_ne m c main_arg17 (by decide)
    _ = W12 m c (Proc.devRef .tc main_arg17) := StableHlo.after_of_writes_sub hostOps6 _ hostOps6_writes (by decide : main_arg17 ∉ hostOps6_W)
    _ = W11 m c (Proc.devRef .tc main_arg17) := W12_of_ne m c main_arg17 (by decide)
    _ = W10 m c (Proc.devRef .tc main_arg17) := StableHlo.after_of_writes_sub hostOps5 _ hostOps5_writes (by decide : main_arg17 ∉ hostOps5_W)
    _ = W9 m c (Proc.devRef .tc main_arg17) := W10_of_ne m c main_arg17 (by decide)
    _ = W8 m c (Proc.devRef .tc main_arg17) := StableHlo.after_of_writes_sub hostOps4 _ hostOps4_writes (by decide : main_arg17 ∉ hostOps4_W)
    _ = W7 m c (Proc.devRef .tc main_arg17) := W8_of_ne m c main_arg17 (by decide)
    _ = W6 m c (Proc.devRef .tc main_arg17) := StableHlo.after_of_writes_sub hostOps3 _ hostOps3_writes (by decide : main_arg17 ∉ hostOps3_W)
    _ = W5 m c (Proc.devRef .tc main_arg17) := W6_of_ne m c main_arg17 (by decide)
    _ = W4 m c (Proc.devRef .tc main_arg17) := StableHlo.after_of_writes_sub hostOps2 _ hostOps2_writes (by decide : main_arg17 ∉ hostOps2_W)
    _ = W3 m c (Proc.devRef .tc main_arg17) := W4_of_ne m c main_arg17 (by decide)
    _ = W2 m c (Proc.devRef .tc main_arg17) := StableHlo.after_of_writes_sub hostOps1 _ hostOps1_writes (by decide : main_arg17 ∉ hostOps1_W)
    _ = W1 m c (Proc.devRef .tc main_arg17) := W2_of_ne m c main_arg17 (by decide)
    _ = W0 m c (Proc.devRef .tc main_arg17) := StableHlo.after_of_writes_sub hostOps0 _ hostOps0_writes (by decide : main_arg17 ∉ hostOps0_W)
    _ = m ((c : Thread nD τ).loc main_arg17) := rfl

theorem W18_main_arg18 (c : Dev nD) : W18 m c (Proc.devRef .tc main_arg18) = m ((c : Thread nD τ).loc main_arg18) :=
  calc W18 m c (Proc.devRef .tc main_arg18)
    _ = W17 m c (Proc.devRef .tc main_arg18) := W18_of_ne m c main_arg18 (by decide)
    _ = W16 m c (Proc.devRef .tc main_arg18) := StableHlo.after_of_writes_sub hostOps8 _ hostOps8_writes (by decide : main_arg18 ∉ hostOps8_W)
    _ = W15 m c (Proc.devRef .tc main_arg18) := W16_of_ne m c main_arg18 (by decide)
    _ = W14 m c (Proc.devRef .tc main_arg18) := StableHlo.after_of_writes_sub hostOps7 _ hostOps7_writes (by decide : main_arg18 ∉ hostOps7_W)
    _ = W13 m c (Proc.devRef .tc main_arg18) := W14_of_ne m c main_arg18 (by decide)
    _ = W12 m c (Proc.devRef .tc main_arg18) := StableHlo.after_of_writes_sub hostOps6 _ hostOps6_writes (by decide : main_arg18 ∉ hostOps6_W)
    _ = W11 m c (Proc.devRef .tc main_arg18) := W12_of_ne m c main_arg18 (by decide)
    _ = W10 m c (Proc.devRef .tc main_arg18) := StableHlo.after_of_writes_sub hostOps5 _ hostOps5_writes (by decide : main_arg18 ∉ hostOps5_W)
    _ = W9 m c (Proc.devRef .tc main_arg18) := W10_of_ne m c main_arg18 (by decide)
    _ = W8 m c (Proc.devRef .tc main_arg18) := StableHlo.after_of_writes_sub hostOps4 _ hostOps4_writes (by decide : main_arg18 ∉ hostOps4_W)
    _ = W7 m c (Proc.devRef .tc main_arg18) := W8_of_ne m c main_arg18 (by decide)
    _ = W6 m c (Proc.devRef .tc main_arg18) := StableHlo.after_of_writes_sub hostOps3 _ hostOps3_writes (by decide : main_arg18 ∉ hostOps3_W)
    _ = W5 m c (Proc.devRef .tc main_arg18) := W6_of_ne m c main_arg18 (by decide)
    _ = W4 m c (Proc.devRef .tc main_arg18) := StableHlo.after_of_writes_sub hostOps2 _ hostOps2_writes (by decide : main_arg18 ∉ hostOps2_W)
    _ = W3 m c (Proc.devRef .tc main_arg18) := W4_of_ne m c main_arg18 (by decide)
    _ = W2 m c (Proc.devRef .tc main_arg18) := StableHlo.after_of_writes_sub hostOps1 _ hostOps1_writes (by decide : main_arg18 ∉ hostOps1_W)
    _ = W1 m c (Proc.devRef .tc main_arg18) := W2_of_ne m c main_arg18 (by decide)
    _ = W0 m c (Proc.devRef .tc main_arg18) := StableHlo.after_of_writes_sub hostOps0 _ hostOps0_writes (by decide : main_arg18 ∉ hostOps0_W)
    _ = m ((c : Thread nD τ).loc main_arg18) := rfl

/-- The frame claim's statement at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W18_main_arg0 m c),
     (h c _ (mem_uc main_arg1 (by decide))).trans (W18_main_arg1 m c),
     (h c _ (mem_uc main_arg2 (by decide))).trans (W18_main_arg2 m c),
     (h c _ (mem_uc main_arg3 (by decide))).trans (W18_main_arg3 m c),
     (h c _ (mem_uc main_arg4 (by decide))).trans (W18_main_arg4 m c),
     (h c _ (mem_uc main_arg5 (by decide))).trans (W18_main_arg5 m c),
     (h c _ (mem_uc main_arg6 (by decide))).trans (W18_main_arg6 m c),
     (h c _ (mem_uc main_arg7 (by decide))).trans (W18_main_arg7 m c),
     (h c _ (mem_uc main_arg8 (by decide))).trans (W18_main_arg8 m c),
     (h c _ (mem_uc main_arg9 (by decide))).trans (W18_main_arg9 m c),
     (h c _ (mem_uc main_arg10 (by decide))).trans (W18_main_arg10 m c),
     (h c _ (mem_uc main_arg11 (by decide))).trans (W18_main_arg11 m c),
     (h c _ (mem_uc main_arg12 (by decide))).trans (W18_main_arg12 m c),
     (h c _ (mem_uc main_arg13 (by decide))).trans (W18_main_arg13 m c),
     (h c _ (mem_uc main_arg14 (by decide))).trans (W18_main_arg14 m c),
     (h c _ (mem_uc main_arg15 (by decide))).trans (W18_main_arg15 m c),
     (h c _ (mem_uc main_arg16 (by decide))).trans (W18_main_arg16 m c),
     (h c _ (mem_uc main_arg17 (by decide))).trans (W18_main_arg17 m c),
     (h c _ (mem_uc main_arg18 (by decide))).trans (W18_main_arg18 m c)⟩)
    (run_main m ρ)

end Cert.Kernel.Hand

end
-- ==== Proof.Region0.lean ====
/-
  Region 0 of the kernel program: the batched product contrib[k] = g[k] · W[k] for the nine offsets k, tiled over the
  point axis in blocks of 2000 rows. At a grid point the body reads slab k of the gathered block [9, 2000, 128] and slab k of the
  weights [9, 128, 64] and stores their matrix product into slab k of the output block [9, 2000, 64]; the nine slab stores tile the
  output block, so after the body the block is one function of the two input blocks (`out0_2`). Stated at an arbitrary
  float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered rows' staging buffer holds the point's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight array at every point (fetched once, its index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The slabs the body reads and writes -/

abbrev ra0_0 : Rect S9x2000x128 := Rect.unit (s := S9x2000x128) ![0, 0, 0] S1x2000x128.size inb_S9x2000x128_S1x2000x128_0_0_0
abbrev rb0_0 : Rect S9x128x64 := Rect.unit (s := S9x128x64) ![0, 0, 0] S1x128x64.size inb_S9x128x64_S1x128x64_0_0_0
abbrev rc0_0 : Rect S9x2000x64 := Rect.unit (s := S9x2000x64) ![0, 0, 0] S1x2000x64.size inb_S9x2000x64_S1x2000x64_0_0_0
abbrev ra0_1 : Rect S9x2000x128 := Rect.unit (s := S9x2000x128) ![1, 0, 0] S1x2000x128.size inb_S9x2000x128_S1x2000x128_1_0_0
abbrev rb0_1 : Rect S9x128x64 := Rect.unit (s := S9x128x64) ![1, 0, 0] S1x128x64.size inb_S9x128x64_S1x128x64_1_0_0
abbrev rc0_1 : Rect S9x2000x64 := Rect.unit (s := S9x2000x64) ![1, 0, 0] S1x2000x64.size inb_S9x2000x64_S1x2000x64_1_0_0
abbrev ra0_2 : Rect S9x2000x128 := Rect.unit (s := S9x2000x128) ![2, 0, 0] S1x2000x128.size inb_S9x2000x128_S1x2000x128_2_0_0
abbrev rb0_2 : Rect S9x128x64 := Rect.unit (s := S9x128x64) ![2, 0, 0] S1x128x64.size inb_S9x128x64_S1x128x64_2_0_0
abbrev rc0_2 : Rect S9x2000x64 := Rect.unit (s := S9x2000x64) ![2, 0, 0] S1x2000x64.size inb_S9x2000x64_S1x2000x64_2_0_0
abbrev ra0_3 : Rect S9x2000x128 := Rect.unit (s := S9x2000x128) ![3, 0, 0] S1x2000x128.size inb_S9x2000x128_S1x2000x128_3_0_0
abbrev rb0_3 : Rect S9x128x64 := Rect.unit (s := S9x128x64) ![3, 0, 0] S1x128x64.size inb_S9x128x64_S1x128x64_3_0_0
abbrev rc0_3 : Rect S9x2000x64 := Rect.unit (s := S9x2000x64) ![3, 0, 0] S1x2000x64.size inb_S9x2000x64_S1x2000x64_3_0_0
abbrev ra0_4 : Rect S9x2000x128 := Rect.unit (s := S9x2000x128) ![4, 0, 0] S1x2000x128.size inb_S9x2000x128_S1x2000x128_4_0_0
abbrev rb0_4 : Rect S9x128x64 := Rect.unit (s := S9x128x64) ![4, 0, 0] S1x128x64.size inb_S9x128x64_S1x128x64_4_0_0
abbrev rc0_4 : Rect S9x2000x64 := Rect.unit (s := S9x2000x64) ![4, 0, 0] S1x2000x64.size inb_S9x2000x64_S1x2000x64_4_0_0
abbrev ra0_5 : Rect S9x2000x128 := Rect.unit (s := S9x2000x128) ![5, 0, 0] S1x2000x128.size inb_S9x2000x128_S1x2000x128_5_0_0
abbrev rb0_5 : Rect S9x128x64 := Rect.unit (s := S9x128x64) ![5, 0, 0] S1x128x64.size inb_S9x128x64_S1x128x64_5_0_0
abbrev rc0_5 : Rect S9x2000x64 := Rect.unit (s := S9x2000x64) ![5, 0, 0] S1x2000x64.size inb_S9x2000x64_S1x2000x64_5_0_0
abbrev ra0_6 : Rect S9x2000x128 := Rect.unit (s := S9x2000x128) ![6, 0, 0] S1x2000x128.size inb_S9x2000x128_S1x2000x128_6_0_0
abbrev rb0_6 : Rect S9x128x64 := Rect.unit (s := S9x128x64) ![6, 0, 0] S1x128x64.size inb_S9x128x64_S1x128x64_6_0_0
abbrev rc0_6 : Rect S9x2000x64 := Rect.unit (s := S9x2000x64) ![6, 0, 0] S1x2000x64.size inb_S9x2000x64_S1x2000x64_6_0_0
abbrev ra0_7 : Rect S9x2000x128 := Rect.unit (s := S9x2000x128) ![7, 0, 0] S1x2000x128.size inb_S9x2000x128_S1x2000x128_7_0_0
abbrev rb0_7 : Rect S9x128x64 := Rect.unit (s := S9x128x64) ![7, 0, 0] S1x128x64.size inb_S9x128x64_S1x128x64_7_0_0
abbrev rc0_7 : Rect S9x2000x64 := Rect.unit (s := S9x2000x64) ![7, 0, 0] S1x2000x64.size inb_S9x2000x64_S1x2000x64_7_0_0
abbrev ra0_8 : Rect S9x2000x128 := Rect.unit (s := S9x2000x128) ![8, 0, 0] S1x2000x128.size inb_S9x2000x128_S1x2000x128_8_0_0
abbrev rb0_8 : Rect S9x128x64 := Rect.unit (s := S9x128x64) ![8, 0, 0] S1x128x64.size inb_S9x128x64_S1x128x64_8_0_0
abbrev rc0_8 : Rect S9x2000x64 := Rect.unit (s := S9x2000x64) ![8, 0, 0] S1x2000x64.size inb_S9x2000x64_S1x2000x64_8_0_0

/-- The output block after the body: slab `k` holds the product of slab `k` of the gathered block with slab `k` of the
    weights (the stores listed last first). -/
def out0_2 (x0 : Vec F S9x2000x128 .bf16) (x1 : Vec F S9x128x64 .bf16) : Vec F S9x2000x64 .f32 :=
  View.canon [⟨rc0_8, k0_pay3 (View.ld x0 ra0_8) (View.ld x1 rb0_8)⟩,
    ⟨rc0_7, k0_pay2 (View.ld x0 ra0_7) (View.ld x1 rb0_7)⟩,
    ⟨rc0_6, k0_pay1 (k0_pay10 (View.ld x0 ra0_6)) (View.ld x1 rb0_6)⟩,
    ⟨rc0_5, k0_pay9 (View.ld x0 ra0_5) (View.ld x1 rb0_5)⟩,
    ⟨rc0_4, k0_pay8 (View.ld x0 ra0_4) (View.ld x1 rb0_4)⟩,
    ⟨rc0_3, k0_pay7 (View.ld x0 ra0_3) (View.ld x1 rb0_3)⟩,
    ⟨rc0_2, k0_pay6 (View.ld x0 ra0_2) (View.ld x1 rb0_2)⟩,
    ⟨rc0_1, k0_pay5 (View.ld x0 ra0_1) (View.ld x1 rb0_1)⟩,
    ⟨rc0_0, k0_pay4 (View.ld x0 ra0_0) (View.ld x1 rb0_0)⟩]

/-- The nine slabs tile the output block. -/
theorem cover0_2 (p0 p1 p2 p3 p4 p5 p6 p7 p8 : Vec F S1x2000x64 .f32) (y : S9x2000x64.Idx) :
    ∃ pc ∈ ([⟨rc0_8, p8⟩, ⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] : List (View.Piece (Elt F) S9x2000x64 .f32)), y ∈ pc.1.set :=
  View.cover_of_tiled [⟨rc0_8, p8⟩, ⟨rc0_7, p7⟩, ⟨rc0_6, p6⟩, ⟨rc0_5, p5⟩, ⟨rc0_4, p4⟩, ⟨rc0_3, p3⟩, ⟨rc0_2, p2⟩, ⟨rc0_1, p1⟩, ⟨rc0_0, p0⟩] S1x2000x64.size (by rfl) y

/-! ## The body's triple -/

set_option maxHeartbeats 4000000 in
/-- The body on whole staging buffers: the inputs are left as found, the output block ends at `out0_2` of the inputs. -/
theorem sound_kernel0 (c : Dev nD) (E : Set ℕ) (i : grid0.Coords) (arg1 : Memref sig .tc .vmem S9x2000x128 .bf16) (harg1 : arg1.IsWhole)
    (arg2 : Memref sig .tc .vmem S9x128x64 .bf16) (harg2 : arg2.IsWhole) (arg3 : Memref sig .tc .vmem S9x2000x64 .f32) (harg3 : arg3.IsWhole)
    (x0 : Vec F S9x2000x128 .bf16) (x1 : Vec F S9x128x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm_kernel i arg1 harg1 arg2 harg2 arg3 harg3) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region2.lean ====
/-
  Region 2 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out2_6`). Stated at an
  arbitrary float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rn2_b : Rect S8000x64 := Rect.unit (s := S8000x64) ![0, 0] S8000x64.size inb_S8000x64_S8000x64_0_0
abbrev rn2_r : Rect S1x64 := Rect.unit (s := S1x64) ![0, 0] S1x64.size inb_S1x64_S1x64_0_0

/-- The output block after the body, from the six input blocks. -/
def out2_6 (x0 : Vec F S8000x64 .f32) (x1 x2 x3 x4 : Vec F S1x64 .f32) (x5 : Vec F S8000x64 .f32) : Vec F S8000x64 .f32 :=
  View.canon [⟨rn2_b, k2_pay1 (View.ld x1 rn2_r) (View.ld x2 rn2_r) (View.ld x3 rn2_r) (View.ld x4 rn2_r) (View.ld x0 rn2_b) (View.ld x5 rn2_b)⟩]

/-- The one store covers the output block. -/
theorem cover2_6 (p0 : Vec F S8000x64 .f32) (y : S8000x64.Idx) :
    ∃ pc ∈ ([⟨rn2_b, p0⟩] : List (View.Piece (Elt F) S8000x64 .f32)), y ∈ pc.1.set :=
  View.cover_of_tiled [⟨rn2_b, p0⟩] S8000x64.size (by rfl) y

/-! ## The body's triple -/

set_option maxHeartbeats 4000000 in
/-- The body on whole staging buffers: the inputs are left as found, the output block ends at `out2_6` of the inputs. -/
theorem sound_kernel2 (c : Dev nD) (E : Set ℕ) (i : grid2.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (arg6 : Memref sig .tc .vmem S8000x64 .f32) (harg6 : arg6.IsWhole) (arg7 : Memref sig .tc .vmem S8000x64 .f32) (harg7 : arg7.IsWhole)
    (x0 : Vec F S8000x64 .f32) (x1 x2 x3 x4 : Vec F S1x64 .f32) (x5 : Vec F S8000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The proof data and the body obligation -/

/-- The proof data of the region on core `c`: the arrays as the region finds them; after the body every input's buffer
    holds its block and the output's buffer `out2_6` of the input blocks; nothing of the scoped rest is touched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region3.lean ====
/-
  Region 3 of the kernel program: the batched product contrib[k] = g[k] · W[k] for the nine offsets k, tiled over the
  point axis in blocks of 2000 rows. At a grid point the body reads slab k of the gathered block [9, 2000, 64] and slab k of the
  weights [9, 64, 32] and stores their matrix product into slab k of the output block [9, 2000, 32]; the nine slab stores tile the
  output block, so after the body the block is one function of the two input blocks (`out3_2`). Stated at an arbitrary
  float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The gathered rows' staging buffer holds the point's block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weights' staging buffer holds the whole weight array at every point (fetched once, its index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The slabs the body reads and writes -/

abbrev ra3_0 : Rect S9x2000x64 := Rect.unit (s := S9x2000x64) ![0, 0, 0] S1x2000x64.size inb_S9x2000x64_S1x2000x64_0_0_0
abbrev rb3_0 : Rect S9x64x32 := Rect.unit (s := S9x64x32) ![0, 0, 0] S1x64x32.size inb_S9x64x32_S1x64x32_0_0_0
abbrev rc3_0 : Rect S9x2000x32 := Rect.unit (s := S9x2000x32) ![0, 0, 0] S1x2000x32.size inb_S9x2000x32_S1x2000x32_0_0_0
abbrev ra3_1 : Rect S9x2000x64 := Rect.unit (s := S9x2000x64) ![1, 0, 0] S1x2000x64.size inb_S9x2000x64_S1x2000x64_1_0_0
abbrev rb3_1 : Rect S9x64x32 := Rect.unit (s := S9x64x32) ![1, 0, 0] S1x64x32.size inb_S9x64x32_S1x64x32_1_0_0
abbrev rc3_1 : Rect S9x2000x32 := Rect.unit (s := S9x2000x32) ![1, 0, 0] S1x2000x32.size inb_S9x2000x32_S1x2000x32_1_0_0
abbrev ra3_2 : Rect S9x2000x64 := Rect.unit (s := S9x2000x64) ![2, 0, 0] S1x2000x64.size inb_S9x2000x64_S1x2000x64_2_0_0
abbrev rb3_2 : Rect S9x64x32 := Rect.unit (s := S9x64x32) ![2, 0, 0] S1x64x32.size inb_S9x64x32_S1x64x32_2_0_0
abbrev rc3_2 : Rect S9x2000x32 := Rect.unit (s := S9x2000x32) ![2, 0, 0] S1x2000x32.size inb_S9x2000x32_S1x2000x32_2_0_0
abbrev ra3_3 : Rect S9x2000x64 := Rect.unit (s := S9x2000x64) ![3, 0, 0] S1x2000x64.size inb_S9x2000x64_S1x2000x64_3_0_0
abbrev rb3_3 : Rect S9x64x32 := Rect.unit (s := S9x64x32) ![3, 0, 0] S1x64x32.size inb_S9x64x32_S1x64x32_3_0_0
abbrev rc3_3 : Rect S9x2000x32 := Rect.unit (s := S9x2000x32) ![3, 0, 0] S1x2000x32.size inb_S9x2000x32_S1x2000x32_3_0_0
abbrev ra3_4 : Rect S9x2000x64 := Rect.unit (s := S9x2000x64) ![4, 0, 0] S1x2000x64.size inb_S9x2000x64_S1x2000x64_4_0_0
abbrev rb3_4 : Rect S9x64x32 := Rect.unit (s := S9x64x32) ![4, 0, 0] S1x64x32.size inb_S9x64x32_S1x64x32_4_0_0
abbrev rc3_4 : Rect S9x2000x32 := Rect.unit (s := S9x2000x32) ![4, 0, 0] S1x2000x32.size inb_S9x2000x32_S1x2000x32_4_0_0
abbrev ra3_5 : Rect S9x2000x64 := Rect.unit (s := S9x2000x64) ![5, 0, 0] S1x2000x64.size inb_S9x2000x64_S1x2000x64_5_0_0
abbrev rb3_5 : Rect S9x64x32 := Rect.unit (s := S9x64x32) ![5, 0, 0] S1x64x32.size inb_S9x64x32_S1x64x32_5_0_0
abbrev rc3_5 : Rect S9x2000x32 := Rect.unit (s := S9x2000x32) ![5, 0, 0] S1x2000x32.size inb_S9x2000x32_S1x2000x32_5_0_0
abbrev ra3_6 : Rect S9x2000x64 := Rect.unit (s := S9x2000x64) ![6, 0, 0] S1x2000x64.size inb_S9x2000x64_S1x2000x64_6_0_0
abbrev rb3_6 : Rect S9x64x32 := Rect.unit (s := S9x64x32) ![6, 0, 0] S1x64x32.size inb_S9x64x32_S1x64x32_6_0_0
abbrev rc3_6 : Rect S9x2000x32 := Rect.unit (s := S9x2000x32) ![6, 0, 0] S1x2000x32.size inb_S9x2000x32_S1x2000x32_6_0_0
abbrev ra3_7 : Rect S9x2000x64 := Rect.unit (s := S9x2000x64) ![7, 0, 0] S1x2000x64.size inb_S9x2000x64_S1x2000x64_7_0_0
abbrev rb3_7 : Rect S9x64x32 := Rect.unit (s := S9x64x32) ![7, 0, 0] S1x64x32.size inb_S9x64x32_S1x64x32_7_0_0
abbrev rc3_7 : Rect S9x2000x32 := Rect.unit (s := S9x2000x32) ![7, 0, 0] S1x2000x32.size inb_S9x2000x32_S1x2000x32_7_0_0
abbrev ra3_8 : Rect S9x2000x64 := Rect.unit (s := S9x2000x64) ![8, 0, 0] S1x2000x64.size inb_S9x2000x64_S1x2000x64_8_0_0
abbrev rb3_8 : Rect S9x64x32 := Rect.unit (s := S9x64x32) ![8, 0, 0] S1x64x32.size inb_S9x64x32_S1x64x32_8_0_0
abbrev rc3_8 : Rect S9x2000x32 := Rect.unit (s := S9x2000x32) ![8, 0, 0] S1x2000x32.size inb_S9x2000x32_S1x2000x32_8_0_0

/-- The output block after the body: slab `k` holds the product of slab `k` of the gathered block with slab `k` of the
    weights (the stores listed last first). -/
def out3_2 (x0 : Vec F S9x2000x64 .bf16) (x1 : Vec F S9x64x32 .bf16) : Vec F S9x2000x32 .f32 :=
  View.canon [⟨rc3_8, k3_pay3 (View.ld x0 ra3_8) (View.ld x1 rb3_8)⟩,
    ⟨rc3_7, k3_pay2 (View.ld x0 ra3_7) (View.ld x1 rb3_7)⟩,
    ⟨rc3_6, k3_pay1 (k3_pay10 (View.ld x0 ra3_6)) (View.ld x1 rb3_6)⟩,
    ⟨rc3_5, k3_pay9 (View.ld x0 ra3_5) (View.ld x1 rb3_5)⟩,
    ⟨rc3_4, k3_pay8 (View.ld x0 ra3_4) (View.ld x1 rb3_4)⟩,
    ⟨rc3_3, k3_pay7 (View.ld x0 ra3_3) (View.ld x1 rb3_3)⟩,
    ⟨rc3_2, k3_pay6 (View.ld x0 ra3_2) (View.ld x1 rb3_2)⟩,
    ⟨rc3_1, k3_pay5 (View.ld x0 ra3_1) (View.ld x1 rb3_1)⟩,
    ⟨rc3_0, k3_pay4 (View.ld x0 ra3_0) (View.ld x1 rb3_0)⟩]

/-- The nine slabs tile the output block. -/
theorem cover3_2 (p0 p1 p2 p3 p4 p5 p6 p7 p8 : Vec F S1x2000x32 .f32) (y : S9x2000x32.Idx) :
    ∃ pc ∈ ([⟨rc3_8, p8⟩, ⟨rc3_7, p7⟩, ⟨rc3_6, p6⟩, ⟨rc3_5, p5⟩, ⟨rc3_4, p4⟩, ⟨rc3_3, p3⟩, ⟨rc3_2, p2⟩, ⟨rc3_1, p1⟩, ⟨rc3_0, p0⟩] : List (View.Piece (Elt F) S9x2000x32 .f32)), y ∈ pc.1.set :=
  View.cover_of_tiled [⟨rc3_8, p8⟩, ⟨rc3_7, p7⟩, ⟨rc3_6, p6⟩, ⟨rc3_5, p5⟩, ⟨rc3_4, p4⟩, ⟨rc3_3, p3⟩, ⟨rc3_2, p2⟩, ⟨rc3_1, p1⟩, ⟨rc3_0, p0⟩] S1x2000x32.size (by rfl) y

/-! ## The body's triple -/

set_option maxHeartbeats 4000000 in
/-- The body on whole staging buffers: the inputs are left as found, the output block ends at `out3_2` of the inputs. -/
theorem sound_kernel3 (c : Dev nD) (E : Set ℕ) (i : grid3.Coords) (arg1 : Memref sig .tc .vmem S9x2000x64 .bf16) (harg1 : arg1.IsWhole)
    (arg2 : Memref sig .tc .vmem S9x64x32 .bf16) (harg2 : arg2.IsWhole) (arg3 : Memref sig .tc .vmem S9x2000x32 .f32) (harg3 : arg3.IsWhole)
    (x0 : Vec F S9x2000x64 .bf16) (x1 : Vec F S9x64x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__gemm_kernel i arg1 harg1 arg2 harg2 arg3 harg3) K := by
  simp only [cc3__gemm_kernel_eq_skeleton]; unfold cc3__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.Region5.lean ====
/-
  Region 5 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out5_6`). Stated at an
  arbitrary float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's staging buffer holds its block at every point, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2's staging buffer holds its block at every point, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3's staging buffer holds its block at every point, fetched there or not. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
/-- Input window 4's staging buffer holds its block at every point, fetched there or not. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
/-- Input window 5's staging buffer holds its block at every point, fetched there or not. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer whole -/

abbrev rn5_b : Rect S8000x32 := Rect.unit (s := S8000x32) ![0, 0] S8000x32.size inb_S8000x32_S8000x32_0_0
abbrev rn5_r : Rect S1x32 := Rect.unit (s := S1x32) ![0, 0] S1x32.size inb_S1x32_S1x32_0_0

/-- The output block after the body, from the six input blocks. -/
def out5_6 (x0 : Vec F S8000x32 .f32) (x1 x2 x3 x4 : Vec F S1x32 .f32) (x5 : Vec F S8000x32 .f32) : Vec F S8000x32 .f32 :=
  View.canon [⟨rn5_b, k5_pay1 (View.ld x1 rn5_r) (View.ld x2 rn5_r) (View.ld x3 rn5_r) (View.ld x4 rn5_r) (View.ld x0 rn5_b) (View.ld x5 rn5_b)⟩]

/-- The one store covers the output block. -/
theorem cover5_6 (p0 : Vec F S8000x32 .f32) (y : S8000x32.Idx) :
    ∃ pc ∈ ([⟨rn5_b, p0⟩] : List (View.Piece (Elt F) S8000x32 .f32)), y ∈ pc.1.set :=
  View.cover_of_tiled [⟨rn5_b, p0⟩] S8000x32.size (by rfl) y

/-! ## The body's triple -/

set_option maxHeartbeats 4000000 in
/-- The body on whole staging buffers: the inputs are left as found, the output block ends at `out5_6` of the inputs. -/
theorem sound_kernel5 (c : Dev nD) (E : Set ℕ) (i : grid5.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S8000x32 .f32) (harg6 : arg6.IsWhole) (arg7 : Memref sig .tc .vmem S8000x32 .f32) (harg7 : arg7.IsWhole)
    (x0 : Vec F S8000x32 .f32) (x1 x2 x3 x4 : Vec F S1x32 .f32) (x5 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The proof data and the body obligation -/

/-- The proof data of the region on core `c`: the arrays as the region finds them; after the body every input's buffer
    holds its block and the output's buffer `out5_6` of the input blocks; nothing of the scoped rest is touched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ _ _ _ _ _ _ _ _ _ _ _ _ _ _ _ (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.Region6.lean ====
/-
  Region 6 of the kernel program: the batched product contrib[k] = g[k] · W[k] for the nine offsets k, tiled over the
  point axis in blocks of 2000 rows. At a grid point the body reads slab k of the gathered block [9, 2000, 32] and slab k of the
  weights [9, 32, 32] and stores their matrix product into slab k of the output block [9, 2000, 32]; the nine slab stores tile the
  output block, so after the body the block is one function of the two input blocks (`out6_2`). Stated at an arbitrary
  float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The gathered rows' staging buffer holds the point's block at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight array at every point (fetched once, its index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The slabs the body reads and writes -/

abbrev ra6_0 : Rect S9x2000x32 := Rect.unit (s := S9x2000x32) ![0, 0, 0] S1x2000x32.size inb_S9x2000x32_S1x2000x32_0_0_0
abbrev rb6_0 : Rect S9x32x32 := Rect.unit (s := S9x32x32) ![0, 0, 0] S1x32x32.size inb_S9x32x32_S1x32x32_0_0_0
abbrev rc6_0 : Rect S9x2000x32 := Rect.unit (s := S9x2000x32) ![0, 0, 0] S1x2000x32.size inb_S9x2000x32_S1x2000x32_0_0_0
abbrev ra6_1 : Rect S9x2000x32 := Rect.unit (s := S9x2000x32) ![1, 0, 0] S1x2000x32.size inb_S9x2000x32_S1x2000x32_1_0_0
abbrev rb6_1 : Rect S9x32x32 := Rect.unit (s := S9x32x32) ![1, 0, 0] S1x32x32.size inb_S9x32x32_S1x32x32_1_0_0
abbrev rc6_1 : Rect S9x2000x32 := Rect.unit (s := S9x2000x32) ![1, 0, 0] S1x2000x32.size inb_S9x2000x32_S1x2000x32_1_0_0
abbrev ra6_2 : Rect S9x2000x32 := Rect.unit (s := S9x2000x32) ![2, 0, 0] S1x2000x32.size inb_S9x2000x32_S1x2000x32_2_0_0
abbrev rb6_2 : Rect S9x32x32 := Rect.unit (s := S9x32x32) ![2, 0, 0] S1x32x32.size inb_S9x32x32_S1x32x32_2_0_0
abbrev rc6_2 : Rect S9x2000x32 := Rect.unit (s := S9x2000x32) ![2, 0, 0] S1x2000x32.size inb_S9x2000x32_S1x2000x32_2_0_0
abbrev ra6_3 : Rect S9x2000x32 := Rect.unit (s := S9x2000x32) ![3, 0, 0] S1x2000x32.size inb_S9x2000x32_S1x2000x32_3_0_0
abbrev rb6_3 : Rect S9x32x32 := Rect.unit (s := S9x32x32) ![3, 0, 0] S1x32x32.size inb_S9x32x32_S1x32x32_3_0_0
abbrev rc6_3 : Rect S9x2000x32 := Rect.unit (s := S9x2000x32) ![3, 0, 0] S1x2000x32.size inb_S9x2000x32_S1x2000x32_3_0_0
abbrev ra6_4 : Rect S9x2000x32 := Rect.unit (s := S9x2000x32) ![4, 0, 0] S1x2000x32.size inb_S9x2000x32_S1x2000x32_4_0_0
abbrev rb6_4 : Rect S9x32x32 := Rect.unit (s := S9x32x32) ![4, 0, 0] S1x32x32.size inb_S9x32x32_S1x32x32_4_0_0
abbrev rc6_4 : Rect S9x2000x32 := Rect.unit (s := S9x2000x32) ![4, 0, 0] S1x2000x32.size inb_S9x2000x32_S1x2000x32_4_0_0
abbrev ra6_5 : Rect S9x2000x32 := Rect.unit (s := S9x2000x32) ![5, 0, 0] S1x2000x32.size inb_S9x2000x32_S1x2000x32_5_0_0
abbrev rb6_5 : Rect S9x32x32 := Rect.unit (s := S9x32x32) ![5, 0, 0] S1x32x32.size inb_S9x32x32_S1x32x32_5_0_0
abbrev rc6_5 : Rect S9x2000x32 := Rect.unit (s := S9x2000x32) ![5, 0, 0] S1x2000x32.size inb_S9x2000x32_S1x2000x32_5_0_0
abbrev ra6_6 : Rect S9x2000x32 := Rect.unit (s := S9x2000x32) ![6, 0, 0] S1x2000x32.size inb_S9x2000x32_S1x2000x32_6_0_0
abbrev rb6_6 : Rect S9x32x32 := Rect.unit (s := S9x32x32) ![6, 0, 0] S1x32x32.size inb_S9x32x32_S1x32x32_6_0_0
abbrev rc6_6 : Rect S9x2000x32 := Rect.unit (s := S9x2000x32) ![6, 0, 0] S1x2000x32.size inb_S9x2000x32_S1x2000x32_6_0_0
abbrev ra6_7 : Rect S9x2000x32 := Rect.unit (s := S9x2000x32) ![7, 0, 0] S1x2000x32.size inb_S9x2000x32_S1x2000x32_7_0_0
abbrev rb6_7 : Rect S9x32x32 := Rect.unit (s := S9x32x32) ![7, 0, 0] S1x32x32.size inb_S9x32x32_S1x32x32_7_0_0
abbrev rc6_7 : Rect S9x2000x32 := Rect.unit (s := S9x2000x32) ![7, 0, 0] S1x2000x32.size inb_S9x2000x32_S1x2000x32_7_0_0
abbrev ra6_8 : Rect S9x2000x32 := Rect.unit (s := S9x2000x32) ![8, 0, 0] S1x2000x32.size inb_S9x2000x32_S1x2000x32_8_0_0
abbrev rb6_8 : Rect S9x32x32 := Rect.unit (s := S9x32x32) ![8, 0, 0] S1x32x32.size inb_S9x32x32_S1x32x32_8_0_0
abbrev rc6_8 : Rect S9x2000x32 := Rect.unit (s := S9x2000x32) ![8, 0, 0] S1x2000x32.size inb_S9x2000x32_S1x2000x32_8_0_0

/-- The output block after the body: slab `k` holds the product of slab `k` of the gathered block with slab `k` of the
    weights (the stores listed last first). -/
def out6_2 (x0 : Vec F S9x2000x32 .bf16) (x1 : Vec F S9x32x32 .bf16) : Vec F S9x2000x32 .f32 :=
  View.canon [⟨rc6_8, k6_pay3 (View.ld x0 ra6_8) (View.ld x1 rb6_8)⟩,
    ⟨rc6_7, k6_pay2 (View.ld x0 ra6_7) (View.ld x1 rb6_7)⟩,
    ⟨rc6_6, k6_pay1 (k6_pay10 (View.ld x0 ra6_6)) (View.ld x1 rb6_6)⟩,
    ⟨rc6_5, k6_pay9 (View.ld x0 ra6_5) (View.ld x1 rb6_5)⟩,
    ⟨rc6_4, k6_pay8 (View.ld x0 ra6_4) (View.ld x1 rb6_4)⟩,
    ⟨rc6_3, k6_pay7 (View.ld x0 ra6_3) (View.ld x1 rb6_3)⟩,
    ⟨rc6_2, k6_pay6 (View.ld x0 ra6_2) (View.ld x1 rb6_2)⟩,
    ⟨rc6_1, k6_pay5 (View.ld x0 ra6_1) (View.ld x1 rb6_1)⟩,
    ⟨rc6_0, k6_pay4 (View.ld x0 ra6_0) (View.ld x1 rb6_0)⟩]

/-- The nine slabs tile the output block. -/
theorem cover6_2 (p0 p1 p2 p3 p4 p5 p6 p7 p8 : Vec F S1x2000x32 .f32) (y : S9x2000x32.Idx) :
    ∃ pc ∈ ([⟨rc6_8, p8⟩, ⟨rc6_7, p7⟩, ⟨rc6_6, p6⟩, ⟨rc6_5, p5⟩, ⟨rc6_4, p4⟩, ⟨rc6_3, p3⟩, ⟨rc6_2, p2⟩, ⟨rc6_1, p1⟩, ⟨rc6_0, p0⟩] : List (View.Piece (Elt F) S9x2000x32 .f32)), y ∈ pc.1.set :=
  View.cover_of_tiled [⟨rc6_8, p8⟩, ⟨rc6_7, p7⟩, ⟨rc6_6, p6⟩, ⟨rc6_5, p5⟩, ⟨rc6_4, p4⟩, ⟨rc6_3, p3⟩, ⟨rc6_2, p2⟩, ⟨rc6_1, p1⟩, ⟨rc6_0, p0⟩] S1x2000x32.size (by rfl) y

/-! ## The body's triple -/

set_option maxHeartbeats 4000000 in
/-- The body on whole staging buffers: the inputs are left as found, the output block ends at `out6_2` of the inputs. -/
theorem sound_kernel6 (c : Dev nD) (E : Set ℕ) (i : grid6.Coords) (arg1 : Memref sig .tc .vmem S9x2000x32 .bf16) (harg1 : arg1.IsWhole)
    (arg2 : Memref sig .tc .vmem S9x32x32 .bf16) (harg2 : arg2.IsWhole) (arg3 : Memref sig .tc .vmem S9x2000x32 .f32) (harg3 : arg3.IsWhole)
    (x0 : Vec F S9x2000x32 .bf16) (x1 : Vec F S9x32x32 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__gemm_kernel i arg1 harg1 arg2 harg2 arg3 harg3) K := by
  simp only [cc6__gemm_kernel_eq_skeleton]; unfold cc6__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _ _ _ _ _ _ _ _ _)

/-! ## The proof data and the body obligation -/

/-- The proof data of the region on core `c`: the arrays as the region finds them; after the body the inputs' buffers hold
    their blocks and the output's buffer the slab-wise products; nothing of the scoped rest is touched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.Region8.lean ====
/-
  Region 8 of the kernel program: normalise, scale, shift and add the residual, tiled over the rows in blocks of 8000.
  At a grid point the body reads the block of the scattered sums, the row of column means, the row of column variances, the
  scale and shift rows and the block of the residual, and stores (o - mean) * rsqrt(var + eps) * gamma + beta + skip into the
  output block in one store: after the body the block is one function of the six input blocks (`out8_6`). Stated at an
  arbitrary float instance and at arbitrary entry contents `V` of the core's buffers.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's staging buffer holds its block at every point, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's staging buffer holds its block at every point, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's staging buffer holds its block at every point, fetched there or not. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
/-- Input window 4's staging buffer holds its block at every point, fetched there or not. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
/-- Input window 5's staging buffer holds its block at every point, fetched there or not. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer whole -/

abbrev rn8_b : Rect S8000x32 := Rect.unit (s := S8000x32) ![0, 0] S8000x32.size inb_S8000x32_S8000x32_0_0
abbrev rn8_r : Rect S1x32 := Rect.unit (s := S1x32) ![0, 0] S1x32.size inb_S1x32_S1x32_0_0

/-- The output block after the body, from the six input blocks. -/
def out8_6 (x0 : Vec F S8000x32 .f32) (x1 x2 x3 x4 : Vec F S1x32 .f32) (x5 : Vec F S8000x32 .f32) : Vec F S8000x32 .f32 :=
  View.canon [⟨rn8_b, k8_pay1 (View.ld x1 rn8_r) (View.ld x2 rn8_r) (View.ld x3 rn8_r) (View.ld x4 rn8_r) (View.ld x0 rn8_b) (View.ld x5 rn8_b)⟩]

/-- The one store covers the output block. -/
theorem cover8_6 (p0 : Vec F S8000x32 .f32) (y : S8000x32.Idx) :
    ∃ pc ∈ ([⟨rn8_b, p0⟩] : List (View.Piece (Elt F) S8000x32 .f32)), y ∈ pc.1.set :=
  View.cover_of_tiled [⟨rn8_b, p0⟩] S8000x32.size (by rfl) y

/-! ## The body's triple -/

set_option maxHeartbeats 4000000 in
/-- The body on whole staging buffers: the inputs are left as found, the output block ends at `out8_6` of the inputs. -/
theorem sound_kernel8 (c : Dev nD) (E : Set ℕ) (i : grid8.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (arg6 : Memref sig .tc .vmem S8000x32 .f32) (harg6 : arg6.IsWhole) (arg7 : Memref sig .tc .vmem S8000x32 .f32) (harg7 : arg7.IsWhole)
    (x0 : Vec F S8000x32 .f32) (x1 x2 x3 x4 : Vec F S1x32 .f32) (x5 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out8_6 x0 x1 x2 x3 x4 x5)) -∗ K ⟨⟩))
      ⊢ wp frame (wpE (defs₀ (F := F)) Variants.none c none) E (cc8__norm_kernel i arg1 harg1 arg2 harg2 arg3 harg3 arg4 harg4 arg5 harg5 arg6 harg6 arg7 harg7) K := by
  simp only [cc8__norm_kernel_eq_skeleton]; unfold cc8__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The proof data and the body obligation -/

/-- The proof data of the region on core `c`: the arrays as the region finds them; after the body every input's buffer
    holds its block and the output's buffer `out8_6` of the input blocks; nothing of the scoped rest is touched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.Region1Runs.lean ====
/-
  Region 1 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 20 = 0 :=
  (by decide +kernel : ∀ t : Fin grid1.N, cond1_0 (grid1.coords t) ↔ t.val % 20 = 0)

/-- The second branch is taken at the last grid coordinate (the mean and variance rows are stored there). -/
abbrev cond1_1 (i : grid1.Coords) : Prop := k1_cond2 i = 1#1
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- The input window is live at every point. -/
theorem liveAt1_0 : ∀ t : Fin cfg1.N, cfg1.idle 0 (grid1.coords t) = false := by decide +kernel
/-- Before the last point the two output windows are idle and are not written back. -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The two accumulators as memrefs, and the invariant of the class opened at them -/

/-- The accumulator of column sums and the accumulator of column sums of squares: whole scoped buffers. -/
abbrev scM1_0 : Memref sig .tc .vmem S1x64 .f32 := Memref.whole cc1_scratch0
abbrev scM1_1 : Memref sig .tc .vmem S1x64 .f32 := Memref.whole cc1_scratch1

/-- The class invariant with the two accumulators owned at some contents, beside the rest of the scoped buffers
    (untouched by this region) and the generator register. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scM1_0, scM1_1, owns_whole]; try rfl

/-! ## The body's accesses: each buffer whole -/

abbrev rn1_b : Rect S8000x64 := Rect.unit (s := S8000x64) ![0, 0] S8000x64.size inb_S8000x64_S8000x64_0_0
abbrev rn1_r : Rect S1x64 := Rect.unit (s := S1x64) ![0, 0] S1x64.size inb_S1x64_S1x64_0_0

theorem hz1_b : (![0, 0] : Fin S8000x64.rank → ℕ) = fun _ => 0 := by funext a; fin_cases a <;> rfl
theorem hz1_r : (![0, 0] : Fin S1x64.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r1 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r1 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel1_A (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : cond1_0 i) (hc1 : ¬cond1_1 i)
    (x0 : Vec F S8000x64 .f32) (xi1 xi2 : Vec F S1x64 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

set_option maxHeartbeats 4000000 in
/-- The body at a middle point (neither branch taken): the accumulators, found at `xs` and `xq`, end at `xs` plus the column sums of
    the block and `xq` plus its column sums of squares; the input block and the two output rows are left as found. -/
theorem sound_kernel1_B (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : ¬cond1_0 i) (hc1 : ¬cond1_1 i)
    (x0 : Vec F S8000x64 .f32) (xi1 xi2 xs xq : Vec F S1x64 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs) ∗ owns (c : Thread nD τ) arg5 fullShare (k1_pay5 x0 xq)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

set_option maxHeartbeats 4000000 in
/-- The body at the last point (second branch taken, first not): the accumulators are advanced as at a middle point, and the two output
    rows, found at anything, end at the mean row and the variance row computed from the advanced accumulators. -/
theorem sound_kernel1_C (c : Dev nD) (E : Set ℕ) (i : grid1.Coords) (arg1 : Memref sig .tc .vmem S8000x64 .f32) (harg1 : arg1.IsWhole)
    (arg2 : Memref sig .tc .vmem S1x64 .f32) (harg2 : arg2.IsWhole) (arg3 : Memref sig .tc .vmem S1x64 .f32) (harg3 : arg3.IsWhole)
    (arg4 : Memref sig .tc .vmem S1x64 .f32) (harg4 : arg4.IsWhole) (arg5 : Memref sig .tc .vmem S1x64 .f32) (harg5 : arg5.IsWhole)
    (hc0 : ¬cond1_0 i) (hc1 : cond1_1 i)
    (x0 : Vec F S8000x64 .f32) (xs xq : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k1_pay6 (k1_pay4 x0 xs)) ∗ owns (c : Thread nD τ) arg3 fullShare (k1_pay7 (k1_pay4 x0 xs) (k1_pay5 x0 xq))
            ∗ owns (c : Thread nD τ) arg4 fullShare (k1_pay4 x0 xs) ∗ owns (c : Thread nD τ) arg5 fullShare (k1_pay5 x0 xq)) -∗ K ⟨⟩))
      ⊢ wp frame (wpE (defs₀ (F := F)) Variants.none c none) E (cc1__reduce_kernel i arg1 harg1 arg2 harg2 arg3 harg3 arg4 harg4 arg5 harg5) K := by
  simp only [cc1__reduce_kernel_eq_skeleton]; unfold cc1__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  isplitl [H2]
  · iexists _; isplitr
    swap; · iexact H2
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  isplitl [H4]
  · iexists _; isplitr
    swap; · iexact H4
    ipureintro
    sl_unfold_run_names
    simp only [read_store_whole_r1 (S := S1x64) _ _ hz1_r, readAt_whole_r1 (S := S8000x64) _ _ hz1_b, readAt_whole_r1 (S := S1x64) _ _ hz1_r, View.readCov_unit_zero (S := S1x64) _ hz1_r]
  iexists _; isplitr
  swap; · iexact H5
  ipureintro
  sl_unfold_run_names
  simp only [read_store_whole_r1 (S := S1x64) _ _ hz1_r, readAt_whole_r1 (S := S8000x64) _ _ hz1_b, readAt_whole_r1 (S := S1x64) _ _ hz1_r, View.readCov_unit_zero (S := S1x64) _ hz1_r]

end Cert.KernelIdeal.Hand

end
-- ==== Proof.Region1.lean ====
/-
  Region 1 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.Region1Runs
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The running sums -/

/-- The row of column sums after point `n`: the zero row plus the column sums of blocks `0 … n`, added block by block. -/
def sumAcc1 (c : Dev nD) : (n : ℕ) → n < cfg1.N → Vec F S1x64 .f32
  | 0, h => k1_pay4 (iblk1 V c 0 ⟨0, h⟩) k1_pay1
  | n + 1, h => k1_pay4 (iblk1 V c 0 ⟨n + 1, h⟩) (sumAcc1 c n (Nat.lt_of_succ_lt h))

/-- The row of column sums of squares after point `n`, in the same way. -/
def sqAcc1 (c : Dev nD) : (n : ℕ) → n < cfg1.N → Vec F S1x64 .f32
  | 0, h => k1_pay5 (iblk1 V c 0 ⟨0, h⟩) k1_pay2
  | n + 1, h => k1_pay5 (iblk1 V c 0 ⟨n + 1, h⟩) (sqAcc1 c n (Nat.lt_of_succ_lt h))

theorem sumAcc1_zero (c : Dev nD) (h : 0 < cfg1.N) : sumAcc1 V c 0 h = k1_pay4 (iblk1 V c 0 ⟨0, h⟩) k1_pay1 := rfl
theorem sumAcc1_succ (c : Dev nD) (n : ℕ) (h : n + 1 < cfg1.N) :
    sumAcc1 V c (n + 1) h = k1_pay4 (iblk1 V c 0 ⟨n + 1, h⟩) (sumAcc1 V c n (Nat.lt_of_succ_lt h)) := rfl
theorem sqAcc1_zero (c : Dev nD) (h : 0 < cfg1.N) : sqAcc1 V c 0 h = k1_pay5 (iblk1 V c 0 ⟨0, h⟩) k1_pay2 := rfl
theorem sqAcc1_succ (c : Dev nD) (n : ℕ) (h : n + 1 < cfg1.N) :
    sqAcc1 V c (n + 1) h = k1_pay5 (iblk1 V c 0 ⟨n + 1, h⟩) (sqAcc1 V c n (Nat.lt_of_succ_lt h)) := rfl

/-- At the first point the sums start from the zero row. -/
theorem sumAcc1_first (c : Dev nD) (t : Fin cfg1.N) (hz : t.val = 0) : sumAcc1 V c t.val t.isLt = k1_pay4 (iblk1 V c 0 t) k1_pay1 := by
  obtain ⟨n, hn⟩ := t
  cases n with
  | zero => rfl
  | succ n => exact absurd hz (Nat.succ_ne_zero _)
theorem sqAcc1_first (c : Dev nD) (t : Fin cfg1.N) (hz : t.val = 0) : sqAcc1 V c t.val t.isLt = k1_pay5 (iblk1 V c 0 t) k1_pay2 := by
  obtain ⟨n, hn⟩ := t
  cases n with
  | zero => rfl
  | succ n => exact absurd hz (Nat.succ_ne_zero _)
/-- At a later point they add the point's block to what the point before left. -/
theorem sumAcc1_pos (c : Dev nD) (t : Fin cfg1.N) (hz : t.val ≠ 0) :
    sumAcc1 V c t.val t.isLt = k1_pay4 (iblk1 V c 0 t) (sumAcc1 V c (t.val - 1) (Nat.lt_of_le_of_lt (Nat.sub_le _ _) t.isLt)) := by
  obtain ⟨n, hn⟩ := t
  cases n with
  | zero => exact absurd rfl hz
  | succ n => rfl
theorem sqAcc1_pos (c : Dev nD) (t : Fin cfg1.N) (hz : t.val ≠ 0) :
    sqAcc1 V c t.val t.isLt = k1_pay5 (iblk1 V c 0 t) (sqAcc1 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region invariant before position `n`: before the first point the class invariant (both accumulators at anything);
    afterwards the two accumulators at the running sums the point before left, the untouched rest and the generator register. -/
def PhiS1 (c : Dev nD) : (n : ℕ) → n ≤ cfg1.N → sProp 𝕄
  | 0, _ => Pipeline.ΦA spec1 c
  | n + 1, hn => iprop(iprop(iprop(owns (c : Thread nD τ) scM1_0 fullShare (sumAcc1 V c n hn) ∗ owns (c : Thread nD τ) scM1_1 fullShare (sqAcc1 V c n hn))
      ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (sumAcc1 V c n hn) ∗ owns (c : Thread nD τ) scM1_1 fullShare (sqAcc1 V c n hn))
      ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (sumAcc1 V c (n - 1) (by omega)) ∗ owns (c : Thread nD τ) scM1_1 fullShare (sqAcc1 V c (n - 1) (by omega)))
      ∗ rest1 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay6 (sumAcc1 V c t.val t.isLt)
    | ⟨2, _⟩ => k1_pay7 (sumAcc1 V c t.val t.isLt) (sqAcc1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = k1_pay6 (sumAcc1 V c t.val t.isLt) := by dsimp only [dat1]
theorem after1_2 (c : Dev nD) (t : Fin cfg1.N) :
    (dat1 V c).after 2 t = k1_pay7 (sumAcc1 V c t.val t.isLt) (sqAcc1 V c t.val t.isLt) := by dsimp only [dat1]

/-- The mean row the last point stores. -/
theorem after1_1_last (c : Dev nD) (h : 19 < cfg1.N) : (dat1 V c).after 1 ⟨19, h⟩ = k1_pay6 (sumAcc1 V c 19 h) := after1_1 V c ⟨19, h⟩
/-- The variance row the last point stores. -/
theorem after1_2_last (c : Dev nD) (h : 19 < cfg1.N) :
    (dat1 V c).after 2 ⟨19, h⟩ = k1_pay7 (sumAcc1 V c 19 h) (sqAcc1 V c 19 h) := after1_2 V c ⟨19, h⟩

theorem before1_0 (c : Dev nD) (t : Fin cfg1.N) (d) : (dat1 V c).before 0 t d = iblk1 V c 0 t :=
  before1_0_of V (dat1 V c) (A_eq1 V c 0) (after1_0 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  by_cases h1 : t.val % 20 = 19
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (st1_1 t) fullShare ((dat1 V c).after 1 t) from by
      unfold Dat.leavesExact; rw [liveAt1_1 t hc1], after1_1]
    rw [show (dat1 V c).leavesExact 2 t = owns (c : Thread nD τ) (st1_2 t) fullShare ((dat1 V c).after 2 t) from by
      unfold Dat.leavesExact; rw [liveAt1_2 t hc1], after1_2]
    rw [PhiS1_castSucc V c t, PhiS1_pos V c _ _ hz, sumAcc1_pos V c t hz, sqAcc1_pos V c t hz]
    iintro ⟨⟨⟨⟨HS0, HS1⟩, HR⟩, Hg⟩, Ho, ⟨%d0, H0⟩, ⟨%d1, H1⟩, ⟨%d2, H2⟩⟩
    iapply (sound_kernel1_C c Set.univ (grid1.coords t) _ _ _ _ _ _ _ _ _ _ hc0 hc1 (iblk1 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases h0 : t.val % 20 = 0
    · have hc0 : cond1_0 (grid1.coords t) := (hcond1_0 t).mpr h0
      have hz : t.val = 0 := by omega
      rw [PhiS1_castSucc V c t, PhiS1_zero V c _ _ hz, PhiA1_eq, sumAcc1_first V c t hz, sqAcc1_first V c t hz]
      iintro ⟨⟨⟨⟨HS0, HS1⟩, HR⟩, Hg⟩, Ho, ⟨%d0, H0⟩, ⟨%d1, H1⟩, ⟨%d2, H2⟩⟩
      iapply (sound_kernel1_A c Set.univ (grid1.coords t) _ _ _ _ _ _ _ _ _ _ hc0 hc1 (iblk1 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond1_0 (grid1.coords t) := fun h => h0 ((hcond1_0 t).mp h)
      have hz : t.val ≠ 0 := fun h => h0 (by rw [h])
      rw [PhiS1_castSucc V c t, PhiS1_pos V c _ _ hz, sumAcc1_pos V c t hz, sqAcc1_pos V c t hz]
      iintro ⟨⟨⟨⟨HS0, HS1⟩, HR⟩, Hg⟩, Ho, ⟨%d0, H0⟩, ⟨%d1, H1⟩, ⟨%d2, H2⟩⟩
      iapply (sound_kernel1_B c Set.univ (grid1.coords t) _ _ _ _ _ _ _ _ _ _ hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation1 (c : Dev nD) : BodyObligation (dat1 (F := F) V c) (defs₀ (F := F)) Variants.none () Set.univ := fun t => by
  rw [bigSep_W1, bigSep_W1]
  exact sound_body1 V c t

/-- What the region is handed, the class invariant, is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.Region4Runs.lean ====
/-
  Region 4 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 80 = 0 :=
  (by decide +kernel : ∀ t : Fin grid4.N, cond4_0 (grid4.coords t) ↔ t.val % 80 = 0)

/-- The second branch is taken at the last grid coordinate (the mean and variance rows are stored there). -/
abbrev cond4_1 (i : grid4.Coords) : Prop := k4_cond2 i = 1#1
theorem hcond4_1 : ∀ t : Fin cfg4.N, cond4_1 (grid4.coords t) ↔ t.val % 80 = 79 :=
  (by decide +kernel : ∀ t : Fin grid4.N, cond4_1 (grid4.coords t) ↔ t.val % 80 = 79)

/-! ## Where the windows are idle -/

/-- The input window is live at every point. -/
theorem liveAt4_0 : ∀ t : Fin cfg4.N, cfg4.idle 0 (grid4.coords t) = false := by decide +kernel
/-- Before the last point the two output windows are idle and are not written back. -/
theorem idleAt4_1 : ∀ t : Fin cfg4.N, ¬cond4_1 (grid4.coords t) → cfg4.idle 1 (grid4.coords t) = true := by decide +kernel
theorem noFlush4_1 : ∀ t : Fin cfg4.N, ¬cond4_1 (grid4.coords t) → (cfg4.win 1).flush t = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
/-- At the last point they are live. -/
theorem liveAt4_1 : ∀ t : Fin cfg4.N, cond4_1 (grid4.coords t) → cfg4.idle 1 (grid4.coords t) = false := by decide +kernel
theorem liveAt4_2 : ∀ t : Fin cfg4.N, cond4_1 (grid4.coords t) → cfg4.idle 2 (grid4.coords t) = false := by decide +kernel

/-! ## The two accumulators as memrefs, and the invariant of the class opened at them -/

/-- The accumulator of column sums and the accumulator of column sums of squares: whole scoped buffers. -/
abbrev scM4_0 : Memref sig .tc .vmem S1x32 .f32 := Memref.whole cc4_scratch0
abbrev scM4_1 : Memref sig .tc .vmem S1x32 .f32 := Memref.whole cc4_scratch1

/-- The class invariant with the two accumulators owned at some contents, beside the rest of the scoped buffers
    (untouched by this region) and the generator register. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-! ## The body's accesses: each buffer whole -/

abbrev rn4_b : Rect S8000x32 := Rect.unit (s := S8000x32) ![0, 0] S8000x32.size inb_S8000x32_S8000x32_0_0
abbrev rn4_r : Rect S1x32 := Rect.unit (s := S1x32) ![0, 0] S1x32.size inb_S1x32_S1x32_0_0

theorem hz4_b : (![0, 0] : Fin S8000x32.rank → ℕ) = fun _ => 0 := by funext a; fin_cases a <;> rfl
theorem hz4_r : (![0, 0] : Fin S1x32.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r4 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r4 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel4_A (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : cond4_0 i) (hc1 : ¬cond4_1 i)
    (x0 : Vec F S8000x32 .f32) (xi1 xi2 : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 k4_pay1) ∗ owns (c : Thread nD τ) arg5 fullShare (k4_pay5 x0 k4_pay2)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

set_option maxHeartbeats 4000000 in
/-- The body at a middle point (neither branch taken): the accumulators, found at `xs` and `xq`, end at `xs` plus the column sums of
    the block and `xq` plus its column sums of squares; the input block and the two output rows are left as found. -/
theorem sound_kernel4_B (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond4_0 i) (hc1 : ¬cond4_1 i)
    (x0 : Vec F S8000x32 .f32) (xi1 xi2 xs xq : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 xs) ∗ owns (c : Thread nD τ) arg5 fullShare (k4_pay5 x0 xq)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

set_option maxHeartbeats 4000000 in
/-- The body at the last point (second branch taken, first not): the accumulators are advanced as at a middle point, and the two output
    rows, found at anything, end at the mean row and the variance row computed from the advanced accumulators. -/
theorem sound_kernel4_C (c : Dev nD) (E : Set ℕ) (i : grid4.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond4_0 i) (hc1 : cond4_1 i)
    (x0 : Vec F S8000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k4_pay6 (k4_pay4 x0 xs)) ∗ owns (c : Thread nD τ) arg3 fullShare (k4_pay7 (k4_pay4 x0 xs) (k4_pay5 x0 xq))
            ∗ owns (c : Thread nD τ) arg4 fullShare (k4_pay4 x0 xs) ∗ owns (c : Thread nD τ) arg5 fullShare (k4_pay5 x0 xq)) -∗ K ⟨⟩))
      ⊢ wp frame (wpE (defs₀ (F := F)) Variants.none c none) E (cc4__reduce_kernel i arg1 harg1 arg2 harg2 arg3 harg3 arg4 harg4 arg5 harg5) K := by
  simp only [cc4__reduce_kernel_eq_skeleton]; unfold cc4__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  isplitl [H2]
  · iexists _; isplitr
    swap; · iexact H2
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  isplitl [H4]
  · iexists _; isplitr
    swap; · iexact H4
    ipureintro
    sl_unfold_run_names
    simp only [read_store_whole_r4 (S := S1x32) _ _ hz4_r, readAt_whole_r4 (S := S8000x32) _ _ hz4_b, readAt_whole_r4 (S := S1x32) _ _ hz4_r, View.readCov_unit_zero (S := S1x32) _ hz4_r]
  iexists _; isplitr
  swap; · iexact H5
  ipureintro
  sl_unfold_run_names
  simp only [read_store_whole_r4 (S := S1x32) _ _ hz4_r, readAt_whole_r4 (S := S8000x32) _ _ hz4_b, readAt_whole_r4 (S := S1x32) _ _ hz4_r, View.readCov_unit_zero (S := S1x32) _ hz4_r]

end Cert.KernelIdeal.Hand

end
-- ==== Proof.Region4.lean ====
/-
  Region 4 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.Region4Runs
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-! ## The running sums -/

/-- The row of column sums after point `n`: the zero row plus the column sums of blocks `0 … n`, added block by block. -/
def sumAcc4 (c : Dev nD) : (n : ℕ) → n < cfg4.N → Vec F S1x32 .f32
  | 0, h => k4_pay4 (iblk4 V c 0 ⟨0, h⟩) k4_pay1
  | n + 1, h => k4_pay4 (iblk4 V c 0 ⟨n + 1, h⟩) (sumAcc4 c n (Nat.lt_of_succ_lt h))

/-- The row of column sums of squares after point `n`, in the same way. -/
def sqAcc4 (c : Dev nD) : (n : ℕ) → n < cfg4.N → Vec F S1x32 .f32
  | 0, h => k4_pay5 (iblk4 V c 0 ⟨0, h⟩) k4_pay2
  | n + 1, h => k4_pay5 (iblk4 V c 0 ⟨n + 1, h⟩) (sqAcc4 c n (Nat.lt_of_succ_lt h))

theorem sumAcc4_zero (c : Dev nD) (h : 0 < cfg4.N) : sumAcc4 V c 0 h = k4_pay4 (iblk4 V c 0 ⟨0, h⟩) k4_pay1 := rfl
theorem sumAcc4_succ (c : Dev nD) (n : ℕ) (h : n + 1 < cfg4.N) :
    sumAcc4 V c (n + 1) h = k4_pay4 (iblk4 V c 0 ⟨n + 1, h⟩) (sumAcc4 V c n (Nat.lt_of_succ_lt h)) := rfl
theorem sqAcc4_zero (c : Dev nD) (h : 0 < cfg4.N) : sqAcc4 V c 0 h = k4_pay5 (iblk4 V c 0 ⟨0, h⟩) k4_pay2 := rfl
theorem sqAcc4_succ (c : Dev nD) (n : ℕ) (h : n + 1 < cfg4.N) :
    sqAcc4 V c (n + 1) h = k4_pay5 (iblk4 V c 0 ⟨n + 1, h⟩) (sqAcc4 V c n (Nat.lt_of_succ_lt h)) := rfl

/-- At the first point the sums start from the zero row. -/
theorem sumAcc4_first (c : Dev nD) (t : Fin cfg4.N) (hz : t.val = 0) : sumAcc4 V c t.val t.isLt = k4_pay4 (iblk4 V c 0 t) k4_pay1 := by
  obtain ⟨n, hn⟩ := t
  cases n with
  | zero => rfl
  | succ n => exact absurd hz (Nat.succ_ne_zero _)
theorem sqAcc4_first (c : Dev nD) (t : Fin cfg4.N) (hz : t.val = 0) : sqAcc4 V c t.val t.isLt = k4_pay5 (iblk4 V c 0 t) k4_pay2 := by
  obtain ⟨n, hn⟩ := t
  cases n with
  | zero => rfl
  | succ n => exact absurd hz (Nat.succ_ne_zero _)
/-- At a later point they add the point's block to what the point before left. -/
theorem sumAcc4_pos (c : Dev nD) (t : Fin cfg4.N) (hz : t.val ≠ 0) :
    sumAcc4 V c t.val t.isLt = k4_pay4 (iblk4 V c 0 t) (sumAcc4 V c (t.val - 1) (Nat.lt_of_le_of_lt (Nat.sub_le _ _) t.isLt)) := by
  obtain ⟨n, hn⟩ := t
  cases n with
  | zero => exact absurd rfl hz
  | succ n => rfl
theorem sqAcc4_pos (c : Dev nD) (t : Fin cfg4.N) (hz : t.val ≠ 0) :
    sqAcc4 V c t.val t.isLt = k4_pay5 (iblk4 V c 0 t) (sqAcc4 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest4 (c : Dev nD) : sProp 𝕄 :=
  Pipeline.scopedRestBut (Ix := Unit) (Name := ℕ) (U := UR sig nD τ) (Lvl := ℕ) (Val := Elt F) spec4 c [cc4_scratch0, cc4_scratch1]

/-- The region invariant before position `n`: before the first point the class invariant (both accumulators at anything);
    afterwards the two accumulators at the running sums the point before left, the untouched rest and the generator register. -/
def PhiS4 (c : Dev nD) : (n : ℕ) → n ≤ cfg4.N → sProp 𝕄
  | 0, _ => Pipeline.ΦA spec4 c
  | n + 1, hn => iprop(iprop(iprop(owns (c : Thread nD τ) scM4_0 fullShare (sumAcc4 V c n hn) ∗ owns (c : Thread nD τ) scM4_1 fullShare (sqAcc4 V c n hn))
      ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (sumAcc4 V c n hn) ∗ owns (c : Thread nD τ) scM4_1 fullShare (sqAcc4 V c n hn))
      ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (sumAcc4 V c (n - 1) (by omega)) ∗ owns (c : Thread nD τ) scM4_1 fullShare (sqAcc4 V c (n - 1) (by omega)))
      ∗ rest4 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => k4_pay6 (sumAcc4 V c t.val t.isLt)
    | ⟨2, _⟩ => k4_pay7 (sumAcc4 V c t.val t.isLt) (sqAcc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = k4_pay6 (sumAcc4 V c t.val t.isLt) := by dsimp only [dat4]
theorem after4_2 (c : Dev nD) (t : Fin cfg4.N) :
    (dat4 V c).after 2 t = k4_pay7 (sumAcc4 V c t.val t.isLt) (sqAcc4 V c t.val t.isLt) := by dsimp only [dat4]

/-- The mean row the last point stores. -/
theorem after4_1_last (c : Dev nD) (h : 79 < cfg4.N) : (dat4 V c).after 1 ⟨79, h⟩ = k4_pay6 (sumAcc4 V c 79 h) := after4_1 V c ⟨79, h⟩
/-- The variance row the last point stores. -/
theorem after4_2_last (c : Dev nD) (h : 79 < cfg4.N) :
    (dat4 V c).after 2 ⟨79, h⟩ = k4_pay7 (sumAcc4 V c 79 h) (sqAcc4 V c 79 h) := after4_2 V c ⟨79, h⟩

theorem before4_0 (c : Dev nD) (t : Fin cfg4.N) (d) : (dat4 V c).before 0 t d = iblk4 V c 0 t :=
  before4_0_of V (dat4 V c) (A_eq4 V c 0) (after4_0 V c) t d

/-! ## The body obligation -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = PhiS4 V c (t.val + 1) t.isLt from rfl, PhiS4_succ]
  have hN : t.val < 80 := lt_of_lt_of_eq t.isLt (show cfg4.N = 80 from N_4)
  rw [show (dat4 V c).leavesExact 0 t = owns (c : Thread nD τ) (st4_0 t) fullShare ((dat4 V c).after 0 t) from by
    unfold Dat.leavesExact; rw [liveAt4_0 t], after4_0]
  by_cases h1 : t.val % 80 = 79
  · have hc1 : cond4_1 (grid4.coords t) := (hcond4_1 t).mpr h1
    have hc0 : ¬cond4_0 (grid4.coords t) := fun h => by have := (hcond4_0 t).mp h; omega
    have hz : t.val ≠ 0 := by omega
    rw [show (dat4 V c).leavesExact 1 t = owns (c : Thread nD τ) (st4_1 t) fullShare ((dat4 V c).after 1 t) from by
      unfold Dat.leavesExact; rw [liveAt4_1 t hc1], after4_1]
    rw [show (dat4 V c).leavesExact 2 t = owns (c : Thread nD τ) (st4_2 t) fullShare ((dat4 V c).after 2 t) from by
      unfold Dat.leavesExact; rw [liveAt4_2 t hc1], after4_2]
    rw [PhiS4_castSucc V c t, PhiS4_pos V c _ _ hz, sumAcc4_pos V c t hz, sqAcc4_pos V c t hz]
    iintro ⟨⟨⟨⟨HS0, HS1⟩, HR⟩, Hg⟩, Ho, ⟨%d0, H0⟩, ⟨%d1, H1⟩, ⟨%d2, H2⟩⟩
    iapply (sound_kernel4_C c Set.univ (grid4.coords t) _ _ _ _ _ _ _ _ _ _ hc0 hc1 (iblk4 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond4_1 (grid4.coords t) := fun h => h1 ((hcond4_1 t).mp h)
    rw [Dat.leavesExact_idle (dat4 V c) 1 t (idleAt4_1 t hc1) (noFlush4_1 t hc1)]
    rw [Dat.leavesExact_idle (dat4 V c) 2 t (idleAt4_2 t hc1) (noFlush4_2 t hc1)]
    by_cases h0 : t.val % 80 = 0
    · have hc0 : cond4_0 (grid4.coords t) := (hcond4_0 t).mpr h0
      have hz : t.val = 0 := by omega
      rw [PhiS4_castSucc V c t, PhiS4_zero V c _ _ hz, PhiA4_eq, sumAcc4_first V c t hz, sqAcc4_first V c t hz]
      iintro ⟨⟨⟨⟨HS0, HS1⟩, HR⟩, Hg⟩, Ho, ⟨%d0, H0⟩, ⟨%d1, H1⟩, ⟨%d2, H2⟩⟩
      iapply (sound_kernel4_A c Set.univ (grid4.coords t) _ _ _ _ _ _ _ _ _ _ hc0 hc1 (iblk4 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond4_0 (grid4.coords t) := fun h => h0 ((hcond4_0 t).mp h)
      have hz : t.val ≠ 0 := fun h => h0 (by rw [h])
      rw [PhiS4_castSucc V c t, PhiS4_pos V c _ _ hz, sumAcc4_pos V c t hz, sqAcc4_pos V c t hz]
      iintro ⟨⟨⟨⟨HS0, HS1⟩, HR⟩, Hg⟩, Ho, ⟨%d0, H0⟩, ⟨%d1, H1⟩, ⟨%d2, H2⟩⟩
      iapply (sound_kernel4_B c Set.univ (grid4.coords t) _ _ _ _ _ _ _ _ _ _ hc0 hc1 (iblk4 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation4 (c : Dev nD) : BodyObligation (dat4 (F := F) V c) (defs₀ (F := F)) Variants.none () Set.univ := fun t => by
  rw [bigSep_W4, bigSep_W4]
  exact sound_body4 V c t

/-- What the region is handed, the class invariant, is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class invariant back: what the accumulators hold is forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 80 := N_4; omega)

end Cert.KernelIdeal.Hand

end
-- ==== Proof.Region7Runs.lean ====
/-
  Region 7 of the kernel program: the column statistics of the scattered sums, accumulated over the rows in blocks of 8000.
  The body keeps two rows, the running column sums and the running column sums of squares, in two buffers of its own that
  survive from one grid point to the next: at the first point it clears them, at every point it adds the block's column sums
  and column sums of squares, and at the last point it stores the mean row (sums divided by the row count) and the variance
  row (sums of squares divided by the row count, minus the square of the mean). This module holds what the three kinds of
  point share: the two branch conditions decided over the grid, where the output windows are idle, the class invariant opened
  at the two accumulators, and the body's triple at a first, a middle and the last point, on whole buffers, with the
  contents each buffer ends at stated as the printed payload functions of what it started at.
-/
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions of the body, over the grid -/

/-- The first branch is taken when the grid coordinate is zero (the accumulators are cleared there). -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 320 = 0 :=
  (by decide +kernel : ∀ t : Fin grid7.N, cond7_0 (grid7.coords t) ↔ t.val % 320 = 0)

/-- The second branch is taken at the last grid coordinate (the mean and variance rows are stored there). -/
abbrev cond7_1 (i : grid7.Coords) : Prop := k7_cond2 i = 1#1
theorem hcond7_1 : ∀ t : Fin cfg7.N, cond7_1 (grid7.coords t) ↔ t.val % 320 = 319 :=
  (by decide +kernel : ∀ t : Fin grid7.N, cond7_1 (grid7.coords t) ↔ t.val % 320 = 319)

/-! ## Where the windows are idle -/

/-- The input window is live at every point. -/
theorem liveAt7_0 : ∀ t : Fin cfg7.N, cfg7.idle 0 (grid7.coords t) = false := by decide +kernel
/-- Before the last point the two output windows are idle and are not written back. -/
theorem idleAt7_1 : ∀ t : Fin cfg7.N, ¬cond7_1 (grid7.coords t) → cfg7.idle 1 (grid7.coords t) = true := by decide +kernel
theorem noFlush7_1 : ∀ t : Fin cfg7.N, ¬cond7_1 (grid7.coords t) → (cfg7.win 1).flush t = false := by decide +kernel
theorem idleAt7_2 : ∀ t : Fin cfg7.N, ¬cond7_1 (grid7.coords t) → cfg7.idle 2 (grid7.coords t) = true := by decide +kernel
theorem noFlush7_2 : ∀ t : Fin cfg7.N, ¬cond7_1 (grid7.coords t) → (cfg7.win 2).flush t = false := by decide +kernel
/-- At the last point they are live. -/
theorem liveAt7_1 : ∀ t : Fin cfg7.N, cond7_1 (grid7.coords t) → cfg7.idle 1 (grid7.coords t) = false := by decide +kernel
theorem liveAt7_2 : ∀ t : Fin cfg7.N, cond7_1 (grid7.coords t) → cfg7.idle 2 (grid7.coords t) = false := by decide +kernel

/-! ## The two accumulators as memrefs, and the invariant of the class opened at them -/

/-- The accumulator of column sums and the accumulator of column sums of squares: whole scoped buffers. -/
abbrev scM7_0 : Memref sig .tc .vmem S1x32 .f32 := Memref.whole cc7_scratch0
abbrev scM7_1 : Memref sig .tc .vmem S1x32 .f32 := Memref.whole cc7_scratch1

/-- The class invariant with the two accumulators owned at some contents, beside the rest of the scoped buffers
    (untouched by this region) and the generator register. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [scM7_0, scM7_1, owns_whole]; try rfl

/-! ## The body's accesses: each buffer whole -/

abbrev rn7_b : Rect S8000x32 := Rect.unit (s := S8000x32) ![0, 0] S8000x32.size inb_S8000x32_S8000x32_0_0
abbrev rn7_r : Rect S1x32 := Rect.unit (s := S1x32) ![0, 0] S1x32.size inb_S1x32_S1x32_0_0

theorem hz7_b : (![0, 0] : Fin S8000x32.rank → ℕ) = fun _ => 0 := by funext a; fin_cases a <;> rfl
theorem hz7_r : (![0, 0] : Fin S1x32.rank → ℕ) = fun _ => 0 := by funext a; fin_cases a <;> rfl

section Whole
variable {Val : EltTy → Type} [∀ e, Nonempty (Val e)] {S : Shape} {e : EltTy} {sg : RefSig} {κ : Kind} {sp : Space}

/-- A load through the whole-shape rectangle at zero offsets reads the buffer's contents. -/
theorem readAt_whole_r7 (v : View sg κ sp S e) (f : v.ty.Contents Val) {off : Fin S.rank → ℕ} (h : off = fun _ => 0)
    (inb : ∀ a, off a + S.size a ≤ S.size a) : View.readAt Val v (Rect.unit off S.size inb).toLoadRect f = v.read Val f :=
  (View.readAt_eq_ld v f (Rect.unit off S.size inb)).trans (View.ld_unit_zero h inb _)

/-- After a store through it, last, the buffer reads as the stored contents, whatever was stored before. -/
theorem read_store_whole_r7 (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons.mpr (Or.inl rfl), View.mem_set_unit_zero h inb y⟩)).trans
    (View.canon_cons_unit_zero h inb w L)

end Whole

/-! ## The body's triple at the three kinds of point -/

set_option maxHeartbeats 4000000 in
/-- The body at the first point (first branch taken, second not): both accumulators, found at anything, are cleared and then
    hold the column sums and the column sums of squares of the block; the input block and the two output rows are left as found. -/
theorem sound_kernel7_A (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : cond7_0 i) (hc1 : ¬cond7_1 i)
    (x0 : Vec F S8000x32 .f32) (xi1 xi2 : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 k7_pay1) ∗ owns (c : Thread nD τ) arg5 fullShare (k7_pay5 x0 k7_pay2)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

set_option maxHeartbeats 4000000 in
/-- The body at a middle point (neither branch taken): the accumulators, found at `xs` and `xq`, end at `xs` plus the column sums of
    the block and `xq` plus its column sums of squares; the input block and the two output rows are left as found. -/
theorem sound_kernel7_B (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond7_0 i) (hc1 : ¬cond7_1 i)
    (x0 : Vec F S8000x32 .f32) (xi1 xi2 xs xq : Vec F S1x32 .f32) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs ∗ owns (c : Thread nD τ) arg5 fullShare xq
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 xs) ∗ owns (c : Thread nD τ) arg5 fullShare (k7_pay5 x0 xq)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

set_option maxHeartbeats 4000000 in
/-- The body at the last point (second branch taken, first not): the accumulators are advanced as at a middle point, and the two output
    rows, found at anything, end at the mean row and the variance row computed from the advanced accumulators. -/
theorem sound_kernel7_C (c : Dev nD) (E : Set ℕ) (i : grid7.Coords) (arg1 : Memref sig .tc .vmem S8000x32 .f32) (harg1 : arg1.IsWhole)
    (arg2 : Memref sig .tc .vmem S1x32 .f32) (harg2 : arg2.IsWhole) (arg3 : Memref sig .tc .vmem S1x32 .f32) (harg3 : arg3.IsWhole)
    (arg4 : Memref sig .tc .vmem S1x32 .f32) (harg4 : arg4.IsWhole) (arg5 : Memref sig .tc .vmem S1x32 .f32) (harg5 : arg5.IsWhole)
    (hc0 : ¬cond7_0 i) (hc1 : cond7_1 i)
    (x0 : Vec F S8000x32 .f32) (xs xq : Vec F S1x32 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs ∗ owns (c : Thread nD τ) arg5 fullShare xq
        ∗ (iprop(owns (c : Thread nD τ) arg1 fullShare x0 ∗ owns (c : Thread nD τ) arg2 fullShare (k7_pay6 (k7_pay4 x0 xs)) ∗ owns (c : Thread nD τ) arg3 fullShare (k7_pay7 (k7_pay4 x0 xs) (k7_pay5 x0 xq))
            ∗ owns (c : Thread nD τ) arg4 fullShare (k7_pay4 x0 xs) ∗ owns (c : Thread nD τ) arg5 fullShare (k7_pay5 x0 xq)) -∗ K ⟨⟩))
      ⊢ wp frame (wpE (defs₀ (F := F)) Variants.none c none) E (cc7__reduce_kernel i arg1 harg1 arg2 harg2 arg3 harg3 arg4 harg4 arg5 harg5) K := by
  simp only [cc7__reduce_kernel_eq_skeleton]; unfold cc7__reduce_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  isplitl [H2]
  · iexists _; isplitr
    swap; · iexact H2
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  isplitl [H4]
  · iexists _; isplitr
    swap; · iexact H4
    ipureintro
    sl_unfold_run_names
    simp only [read_store_whole_r7 (S := S1x32) _ _ hz7_r, readAt_whole_r7 (S := S8000x32) _ _ hz7_b, readAt_whole_r7 (S := S1x32) _ _ hz7_r, View.readCov_unit_zero (S := S1x32) _ hz7_r]
  iexists _; isplitr
  swap; · iexact H5
  ipureintro
  sl_unfold_run_names
  simp only [read_store_whole_r7 (S := S1x32) _ _ hz7_r, readAt_whole_r7 (S := S8000x32) _ _ hz7_b, readAt_whole_r7 (S := S1x32) _ _ hz7_r, View.readCov_unit_zero (S := S1x32) _ hz7_r]

end Cert.KernelIdeal.Hand

end
-- ==== Proof.Region7.lean ====
/-
  Region 7 of the kernel program, the column statistics: the proof data and the body obligation. The two accumulator rows
  are followed through the grid as the recursion the body performs: after point `n` they hold the zero row with the column
  sums (column sums of squares) of blocks `0 … n` added block by block. The invariant before a point carries the two
  accumulators at what the point before left; the mean and variance rows are functions of the final accumulators. Stated at
  an arbitrary float instance and at arbitrary entry contents `V` of the core's buffers.
-/
import proofs.«146613_j41781441855727_2_alg».proof.Proof.Region7Runs
import proofs.«146613_j41781441855727_2_alg».proof.Proof.Gen.KernelIdeal.Launch
import proofs.«146613_j41781441855727_2_alg».proof.Proof.Gen.KernelIdeal.Skeleton
import proofs.«146613_j41781441855727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-! ## The running sums -/

/-- The row of column sums after point `n`: the zero row plus the column sums of blocks `0 … n`, added block by block. -/
def sumAcc7 (c : Dev nD) : (n : ℕ) → n < cfg7.N → Vec F S1x32 .f32
  | 0, h => k7_pay4 (iblk7 V c 0 ⟨0, h⟩) k7_pay1
  | n + 1, h => k7_pay4 (iblk7 V c 0 ⟨n + 1, h⟩) (sumAcc7 c n (Nat.lt_of_succ_lt h))

/-- The row of column sums of squares after point `n`, in the same way. -/
def sqAcc7 (c : Dev nD) : (n : ℕ) → n < cfg7.N → Vec F S1x32 .f32
  | 0, h => k7_pay5 (iblk7 V c 0 ⟨0, h⟩) k7_pay2
  | n + 1, h => k7_pay5 (iblk7 V c 0 ⟨n + 1, h⟩) (sqAcc7 c n (Nat.lt_of_succ_lt h))

theorem sumAcc7_zero (c : Dev nD) (h : 0 < cfg7.N) : sumAcc7 V c 0 h = k7_pay4 (iblk7 V c 0 ⟨0, h⟩) k7_pay1 := rfl
theorem sumAcc7_succ (c : Dev nD) (n : ℕ) (h : n + 1 < cfg7.N) :
    sumAcc7 V c (n + 1) h = k7_pay4 (iblk7 V c 0 ⟨n + 1, h⟩) (sumAcc7 V c n (Nat.lt_of_succ_lt h)) := rfl
theorem sqAcc7_zero (c : Dev nD) (h : 0 < cfg7.N) : sqAcc7 V c 0 h = k7_pay5 (iblk7 V c 0 ⟨0, h⟩) k7_pay2 := rfl
theorem sqAcc7_succ (c : Dev nD) (n : ℕ) (h : n + 1 < cfg7.N) :
    sqAcc7 V c (n + 1) h = k7_pay5 (iblk7 V c 0 ⟨n + 1, h⟩) (sqAcc7 V c n (Nat.lt_of_succ_lt h)) := rfl

/-- At the first point the sums start from the zero row. -/
theorem sumAcc7_first (c : Dev nD) (t : Fin cfg7.N) (hz : t.val = 0) : sumAcc7 V c t.val t.isLt = k7_pay4 (iblk7 V c 0 t) k7_pay1 := by
  obtain ⟨n, hn⟩ := t
  cases n with
  | zero => rfl
  | succ n => exact absurd hz (Nat.succ_ne_zero _)
theorem sqAcc7_first (c : Dev nD) (t : Fin cfg7.N) (hz : t.val = 0) : sqAcc7 V c t.val t.isLt = k7_pay5 (iblk7 V c 0 t) k7_pay2 := by
  obtain ⟨n, hn⟩ := t
  cases n with
  | zero => rfl
  | succ n => exact absurd hz (Nat.succ_ne_zero _)
/-- At a later point they add the point's block to what the point before left. -/
theorem sumAcc7_pos (c : Dev nD) (t : Fin cfg7.N) (hz : t.val ≠ 0) :
    sumAcc7 V c t.val t.isLt = k7_pay4 (iblk7 V c 0 t) (sumAcc7 V c (t.val - 1) (Nat.lt_of_le_of_lt (Nat.sub_le _ _) t.isLt)) := by
  obtain ⟨n, hn⟩ := t
  cases n with
  | zero => exact absurd rfl hz
  | succ n => rfl
theorem sqAcc7_pos (c : Dev nD) (t : Fin cfg7.N) (hz : t.val ≠ 0) :
    sqAcc7 V c t.val t.isLt = k7_pay5 (iblk7 V c 0 t) (sqAcc7 V c (t.val - 1) (Nat.lt_of_le_of_lt (Nat.sub_le _ _) t.isLt)) := by
  obtain ⟨n, hn⟩ := t
  cases n with
  | zero => exact absurd rfl hz
  | succ n => rfl

/-! ## The invariant -/

/-- The rest of the core's scoped buffers, which the region does not touch. -/
abbrev rest7 (c : Dev nD) : sProp 𝕄 :=
  Pipeline.scopedRestBut (Ix := Unit) (Name := ℕ) (U := UR sig nD τ) (Lvl := ℕ) (Val := Elt F) spec7 c [cc7_scratch0, cc7_scratch1]

/-- The region invariant before position `n`: before the first point the class invariant (both accumulators at anything);
    afterwards the two accumulators at the running sums the point before left, the untouched rest and the generator register. -/
def PhiS7 (c : Dev nD) : (n : ℕ) → n ≤ cfg7.N → sProp 𝕄
  | 0, _ => Pipeline.ΦA spec7 c
  | n + 1, hn => iprop(iprop(iprop(owns (c : Thread nD τ) scM7_0 fullShare (sumAcc7 V c n hn) ∗ owns (c : Thread nD τ) scM7_1 fullShare (sqAcc7 V c n hn))
      ∗ rest7 (F := F) c) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (sumAcc7 V c n hn) ∗ owns (c : Thread nD τ) scM7_1 fullShare (sqAcc7 V c n hn))
      ∗ rest7 (F := F) c) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (sumAcc7 V c (n - 1) (by omega)) ∗ owns (c : Thread nD τ) scM7_1 fullShare (sqAcc7 V c (n - 1) (by omega)))
      ∗ rest7 (F := F) c) ∗ (∃ r, prngReg c r)) := by
  cases n with
  | zero => exact absurd rfl hz
  | succ n => rfl

/-! ## The proof data -/

/-- The proof data of the region on core `c`: the arrays as the region finds them; after the body the input's buffer holds its
    block, the mean's buffer the running column sums divided by the row count and the variance's buffer the running sums of
    squares divided by the row count minus the square of that mean (both consulted at the last point only, where they are
    stored and written back); the invariant carries the two accumulators; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => k7_pay6 (sumAcc7 V c t.val t.isLt)
    | ⟨2, _⟩ => k7_pay7 (sumAcc7 V c t.val t.isLt) (sqAcc7 V c t.val t.isLt)
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = k7_pay6 (sumAcc7 V c t.val t.isLt) := by dsimp only [dat7]
theorem after7_2 (c : Dev nD) (t : Fin cfg7.N) :
    (dat7 V c).after 2 t = k7_pay7 (sumAcc7 V c t.val t.isLt) (sqAcc7 V c t.val t.isLt) := by dsimp only [dat7]

/-- The mean row the last point stores. -/
theorem after7_1_last (c : Dev nD) (h : 319 < cfg7.N) : (dat7 V c).after 1 ⟨319, h⟩ = k7_pay6 (sumAcc7 V c 319 h) := after7_1 V c ⟨319, h⟩
/-- The variance row the last point stores. -/
theorem after7_2_last (c : Dev nD) (h : 319 < cfg7.N) :
    (dat7 V c).after 2 ⟨319, h⟩ = k7_pay7 (sumAcc7 V c 319 h) (sqAcc7 V c 319 h) := after7_2 V c ⟨319, h⟩

theorem before7_0 (c : Dev nD) (t : Fin cfg7.N) (d) : (dat7 V c).before 0 t d = iblk7 V c 0 t :=
  before7_0_of V (dat7 V c) (A_eq7 V c 0) (after7_0 V c) t d

/-! ## The body obligation -/

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point. The input's buffer holds its block. At the first point the invariant is the class invariant, which
    hands over both accumulators at anything; the body leaves them at the first running sums. At a later point the invariant
    hands them over at the running sums of the point before, and the body leaves them at this point's. Before the last point
    the two output windows are idle and not written back: their buffers go back as they came. At the last point they end at the
    mean row and the variance row of the final running sums. The untouched rest, the generator register and what the core owes
    pass through. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = PhiS7 V c (t.val + 1) t.isLt from rfl, PhiS7_succ]
  have hN : t.val < 320 := lt_of_lt_of_eq t.isLt (show cfg7.N = 320 from N_7)
  rw [show (dat7 V c).leavesExact 0 t = owns (c : Thread nD τ) (st7_0 t) fullShare ((dat7 V c).after 0 t) from by
    unfold Dat.leavesExact; rw [liveAt7_0 t], after7_0]
  by_cases h1 : t.val % 320 = 319
  · have hc1 : cond7_1 (grid7.coords t) := (hcond7_1 t).mpr h1
    have hc0 : ¬cond7_0 (grid7.coords t) := fun h => by have := (hcond7_0 t).mp h; omega
    have hz : t.val ≠ 0 := by omega
    rw [show (dat7 V c).leavesExact 1 t = owns (c : Thread nD τ) (st7_1 t) fullShare ((dat7 V c).after 1 t) from by
      unfold Dat.leavesExact; rw [liveAt7_1 t hc1], after7_1]
    rw [show (dat7 V c).leavesExact 2 t = owns (c : Thread nD τ) (st7_2 t) fullShare ((dat7 V c).after 2 t) from by
      unfold Dat.leavesExact; rw [liveAt7_2 t hc1], after7_2]
    rw [PhiS7_castSucc V c t, PhiS7_pos V c _ _ hz, sumAcc7_pos V c t hz, sqAcc7_pos V c t hz]
    iintro ⟨⟨⟨⟨HS0, HS1⟩, HR⟩, Hg⟩, Ho, ⟨%d0, H0⟩, ⟨%d1, H1⟩, ⟨%d2, H2⟩⟩
    iapply (sound_kernel7_C c Set.univ (grid7.coords t) _ _ _ _ _ _ _ _ _ _ hc0 hc1 (iblk7 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexact H2
  · have hc1 : ¬cond7_1 (grid7.coords t) := fun h => h1 ((hcond7_1 t).mp h)
    rw [Dat.leavesExact_idle (dat7 V c) 1 t (idleAt7_1 t hc1) (noFlush7_1 t hc1)]
    rw [Dat.leavesExact_idle (dat7 V c) 2 t (idleAt7_2 t hc1) (noFlush7_2 t hc1)]
    by_cases h0 : t.val % 320 = 0
    · have hc0 : cond7_0 (grid7.coords t) := (hcond7_0 t).mpr h0
      have hz : t.val = 0 := by omega
      rw [PhiS7_castSucc V c t, PhiS7_zero V c _ _ hz, PhiA7_eq, sumAcc7_first V c t hz, sqAcc7_first V c t hz]
      iintro ⟨⟨⟨⟨HS0, HS1⟩, HR⟩, Hg⟩, Ho, ⟨%d0, H0⟩, ⟨%d1, H1⟩, ⟨%d2, H2⟩⟩
      iapply (sound_kernel7_A c Set.univ (grid7.coords t) _ _ _ _ _ _ _ _ _ _ hc0 hc1 (iblk7 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2
    · have hc0 : ¬cond7_0 (grid7.coords t) := fun h => h0 ((hcond7_0 t).mp h)
      have hz : t.val ≠ 0 := fun h => h0 (by rw [h])
      rw [PhiS7_castSucc V c t, PhiS7_pos V c _ _ hz, sumAcc7_pos V c t hz, sqAcc7_pos V c t hz]
      iintro ⟨⟨⟨⟨HS0, HS1⟩, HR⟩, Hg⟩, Ho, ⟨%d0, H0⟩, ⟨%d1, H1⟩, ⟨%d2, H2⟩⟩
      iapply (sound_kernel7_B c Set.univ (grid7.coords t) _ _ _ _ _ _ _ _ _ _ hc0 hc1 (iblk7 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexists _; iexact H1
      iexists _; iexact H2

/-- The body obligation of the region, at every point. -/
theorem body_obligation7 (c : Dev nD) : BodyObligation (dat7 (F := F) V c) (defs₀ (F := F)) Variants.none () Set.univ := fun t => by
  rw [bigSep_W7, bigSep_W7]
  exact sound_body7 V c t

/-- What the region is handed, the class invariant, is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class invariant back: what the accumulators hold is forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout7 (c : Dev nD) : (dat7 V c).Φ (Fin.last cfg7.N) ⊢ Pipeline.ΦA spec7 c :=
  Phi_out7 V c _ (by rw [Fin.val_last]; have : cfg7.N = 320 := N_7; omega)

end Cert.KernelIdeal.Hand

end
-- ==== Proof.KernelRun.lean ====
/-
  The run of the kernel program as a whole: its @main is nine host stretches alternating with nine kernel regions. The contents of
  the core's unscoped buffers at each boundary are a fold from the launch memory (`W0` … `W18`: a host stretch applies its
  operations, a region leaves its arrays at what its write-backs fold to and every other buffer as entered); each region is a
  segment entered from one boundary's contents and left at the next; the launch over the segments gives: every weakly fair
  execution terminates, and every unscoped buffer ends at the last boundary's contents `W18`.
-/
import proofs.«146613_j41781441855727_2_alg».proof.Proof.Gen.KernelIdeal.Regions
import proofs.«146613_j41781441855727_2_alg».proof.Proof.Region0
import proofs.«146613_j41781441855727_2_alg».proof.Proof.Region2
import proofs.«146613_j41781441855727_2_alg».proof.Proof.Region3
import proofs.«146613_j41781441855727_2_alg».proof.Proof.Region5
import proofs.«146613_j41781441855727_2_alg».proof.Proof.Region6
import proofs.«146613_j41781441855727_2_alg».proof.Proof.Region8
import proofs.«146613_j41781441855727_2_alg».proof.Proof.Region1
import proofs.«146613_j41781441855727_2_alg».proof.Proof.Region4
import proofs.«146613_j41781441855727_2_alg».proof.Proof.Region7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)
/-- After host stretch 0 (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After host stretch 1 (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After host stretch 2 (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- After host stretch 3 (region 3's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- After host stretch 4 (region 4's entry). -/
abbrev W9 : Dev nD → Valuation τ sig (Elt F) := fun c => StableHlo.after hostOps4 (W8 m c)
abbrev V9 : (c : Dev nD) → (b : Ref sig .tc) → Buf (Elt F) ((c : Thread nD τ).loc b) := fun c b => W9 m c b
/-- At region 4's exit: its arrays at what the pipeline leaves, every other buffer as entered. -/
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
abbrev V10 : (c : Dev nD) → (b : Ref sig .tc) → Buf (Elt F) ((c : Thread nD τ).loc b) := fun c b => W10 m c b
theorem hF4 (c : Dev nD) (w : Fin cfg4.W) : (dat4 (V9 m) c).arrAt w cfg4.N = V10 m c (Pipeline.arrRef spec4 w) :=
  (W10_arr m c w).symm
theorem hrest4 (c : Dev nD) : ∀ b, b ∉ Finset.univ.image (Pipeline.arrRef spec4) → V10 m c b = V9 m c b :=
  fun b hb => W10_of_ne m c b fun w e => hb (Finset.mem_image.mpr ⟨w, Finset.mem_univ _, e⟩)
/-- After host stretch 5 (region 5's entry). -/
abbrev W11 : Dev nD → Valuation τ sig (Elt F) := fun c => StableHlo.after hostOps5 (W10 m c)
abbrev V11 : (c : Dev nD) → (b : Ref sig .tc) → Buf (Elt F) ((c : Thread nD τ).loc b) := fun c b => W11 m c b
/-- At region 5's exit: its arrays at what the pipeline leaves, every other buffer as entered. -/
def W12 (c : Dev nD) : Valuation τ sig (Elt F) :=
  Pipeline.withArrays spec5 c (W11 m c) fun w => (dat5 (V11 m) c).arrAt w cfg5.N
theorem W12_arr (c : Dev nD) (w : Fin cfg5.W) :
    W12 m c (Proc.devRef .tc (Pipeline.arrRef spec5 w)) = (dat5 (V11 m) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
abbrev V12 : (c : Dev nD) → (b : Ref sig .tc) → Buf (Elt F) ((c : Thread nD τ).loc b) := fun c b => W12 m c b
theorem hF5 (c : Dev nD) (w : Fin cfg5.W) : (dat5 (V11 m) c).arrAt w cfg5.N = V12 m c (Pipeline.arrRef spec5 w) :=
  (W12_arr m c w).symm
theorem hrest5 (c : Dev nD) : ∀ b, b ∉ Finset.univ.image (Pipeline.arrRef spec5) → V12 m c b = V11 m c b :=
  fun b hb => W12_of_ne m c b fun w e => hb (Finset.mem_image.mpr ⟨w, Finset.mem_univ _, e⟩)
/-- After host stretch 6 (region 6's entry). -/
abbrev W13 : Dev nD → Valuation τ sig (Elt F) := fun c => StableHlo.after hostOps6 (W12 m c)
abbrev V13 : (c : Dev nD) → (b : Ref sig .tc) → Buf (Elt F) ((c : Thread nD τ).loc b) := fun c b => W13 m c b
/-- At region 6's exit: its arrays at what the pipeline leaves, every other buffer as entered. -/
def W14 (c : Dev nD) : Valuation τ sig (Elt F) :=
  Pipeline.withArrays spec6 c (W13 m c) fun w => (dat6 (V13 m) c).arrAt w cfg6.N
theorem W14_arr (c : Dev nD) (w : Fin cfg6.W) :
    W14 m c (Proc.devRef .tc (Pipeline.arrRef spec6 w)) = (dat6 (V13 m) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
abbrev V14 : (c : Dev nD) → (b : Ref sig .tc) → Buf (Elt F) ((c : Thread nD τ).loc b) := fun c b => W14 m c b
theorem hF6 (c : Dev nD) (w : Fin cfg6.W) : (dat6 (V13 m) c).arrAt w cfg6.N = V14 m c (Pipeline.arrRef spec6 w) :=
  (W14_arr m c w).symm
theorem hrest6 (c : Dev nD) : ∀ b, b ∉ Finset.univ.image (Pipeline.arrRef spec6) → V14 m c b = V13 m c b :=
  fun b hb => W14_of_ne m c b fun w e => hb (Finset.mem_image.mpr ⟨w, Finset.mem_univ _, e⟩)
/-- After host stretch 7 (region 7's entry). -/
abbrev W15 : Dev nD → Valuation τ sig (Elt F) := fun c => StableHlo.after hostOps7 (W14 m c)
abbrev V15 : (c : Dev nD) → (b : Ref sig .tc) → Buf (Elt F) ((c : Thread nD τ).loc b) := fun c b => W15 m c b
/-- At region 7's exit: its arrays at what the pipeline leaves, every other buffer as entered. -/
def W16 (c : Dev nD) : Valuation τ sig (Elt F) :=
  Pipeline.withArrays spec7 c (W15 m c) fun w => (dat7 (V15 m) c).arrAt w cfg7.N
theorem W16_arr (c : Dev nD) (w : Fin cfg7.W) :
    W16 m c (Proc.devRef .tc (Pipeline.arrRef spec7 w)) = (dat7 (V15 m) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
abbrev V16 : (c : Dev nD) → (b : Ref sig .tc) → Buf (Elt F) ((c : Thread nD τ).loc b) := fun c b => W16 m c b
theorem hF7 (c : Dev nD) (w : Fin cfg7.W) : (dat7 (V15 m) c).arrAt w cfg7.N = V16 m c (Pipeline.arrRef spec7 w) :=
  (W16_arr m c w).symm
theorem hrest7 (c : Dev nD) : ∀ b, b ∉ Finset.univ.image (Pipeline.arrRef spec7) → V16 m c b = V15 m c b :=
  fun b hb => W16_of_ne m c b fun w e => hb (Finset.mem_image.mpr ⟨w, Finset.mem_univ _, e⟩)
/-- After host stretch 8 (region 8's entry). -/
abbrev W17 : Dev nD → Valuation τ sig (Elt F) := fun c => StableHlo.after hostOps8 (W16 m c)
abbrev V17 : (c : Dev nD) → (b : Ref sig .tc) → Buf (Elt F) ((c : Thread nD τ).loc b) := fun c b => W17 m c b
/-- At region 8's exit: its arrays at what the pipeline leaves, every other buffer as entered. -/
def W18 (c : Dev nD) : Valuation τ sig (Elt F) :=
  Pipeline.withArrays spec8 c (W17 m c) fun w => (dat8 (V17 m) c).arrAt w cfg8.N
theorem W18_arr (c : Dev nD) (w : Fin cfg8.W) :
    W18 m c (Proc.devRef .tc (Pipeline.arrRef spec8 w)) = (dat8 (V17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev V18 : (c : Dev nD) → (b : Ref sig .tc) → Buf (Elt F) ((c : Thread nD τ).loc b) := fun c b => W18 m c b
theorem hF8 (c : Dev nD) (w : Fin cfg8.W) : (dat8 (V17 m) c).arrAt w cfg8.N = V18 m c (Pipeline.arrRef spec8 w) :=
  (W18_arr m c w).symm
theorem hrest8 (c : Dev nD) : ∀ b, b ∉ Finset.univ.image (Pipeline.arrRef spec8) → V18 m c b = V17 m c b :=
  fun b hb => W18_of_ne m c b fun w e => hb (Finset.mem_image.mpr ⟨w, Finset.mem_univ _, e⟩)

/-! ## The proof data family and the thread state -/

/-- Every pipeline's proof data, each at its region's entry contents. -/
def pdats : (p : Fin 9) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
  | ⟨5, _⟩ => fun c => dat5 (V11 m) c
  | ⟨6, _⟩ => fun c => dat6 (V13 m) c
  | ⟨7, _⟩ => fun c => dat7 (V15 m) c
  | ⟨8, _⟩ => fun c => dat8 (V17 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (hin1 (V3 m) c)
  hout c := by
    rw [Pipeline.ownSems0_none]
    have h : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 4).pre c (fun _ => fullShare) (adm 4).1
        ∗ Pipeline.scopedRest spec4 c) : sProp 𝕄) ⊢ Pipeline.ΦA spec4 c := by
      unfold Pipeline.ΦA
      iintro ⟨Hp, -, Hr⟩
      isplitl [Hr]; · iexact Hr
      iexact Hp
    exact h.trans (hin4 (V9 m) c)
  hout c := by
    rw [Pipeline.ownSems0_none]
    have h : (Pipeline.ΦA spec4 c : sProp 𝕄) ⊢ iprop((∃ r, prngReg c r) ∗ emp ∗ Pipeline.scopedRest spec4 c) := by
      unfold Pipeline.ΦA
      iintro ⟨Hr, Hp⟩
      isplitl [Hp]; · iexact Hp
      isplitr; · iempintro
      iexact Hr
    exact (hout4 (V9 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (V10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (V11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (V11 m c) (V12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (V13 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (V13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (V13 m c) (V14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (V15 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (V15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 7).pre c (fun _ => fullShare) (adm 7).1
        ∗ Pipeline.scopedRest spec7 c) : sProp 𝕄) ⊢ Pipeline.ΦA spec7 c := by
      unfold Pipeline.ΦA
      iintro ⟨Hp, -, Hr⟩
      isplitl [Hr]; · iexact Hr
      iexact Hp
    exact h.trans (hin7 (V15 m) c)
  hout c := by
    rw [Pipeline.ownSems0_none]
    have h : (Pipeline.ΦA spec7 c : sProp 𝕄) ⊢ iprop((∃ r, prngReg c r) ∗ emp ∗ Pipeline.scopedRest spec7 c) := by
      unfold Pipeline.ΦA
      iintro ⟨Hr, Hp⟩
      isplitl [Hp]; · iexact Hp
      isplitr; · iempintro
      iexact Hr
    exact (hout7 (V15 m) c).trans h
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (V15 m c) (V16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (V17 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (V17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (V17 m c) (V18 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eighteen segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer of every core ends at the last boundary's contents. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h => h)

end Cert.KernelIdeal.Hand

end
-- ==== Proof.KernelFrame.lean ====
/-
  The argument arrays end as launched: no host stretch writes an argument and no region changes one (a region reads the
  residual through an input window, whose array the pipeline leaves as entered), so the last boundary's contents at an
  argument walk back through the fold to the launch memory. With the run this is the frame claim.
-/
import proofs.«146613_j41781441855727_2_alg».proof.Proof.KernelRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem W18_main_arg0 (c : Dev nD) : W18 m c (Proc.devRef .tc main_arg0) = m ((c : Thread nD τ).loc main_arg0) :=
  calc W18 m c (Proc.devRef .tc main_arg0)
    _ = W17 m c (Proc.devRef .tc main_arg0) := W18_of_ne m c main_arg0 (by decide)
    _ = W16 m c (Proc.devRef .tc main_arg0) := StableHlo.after_of_writes_sub hostOps8 _ hostOps8_writes (by decide : main_arg0 ∉ hostOps8_W)
    _ = W15 m c (Proc.devRef .tc main_arg0) := W16_of_ne m c main_arg0 (by decide)
    _ = W14 m c (Proc.devRef .tc main_arg0) := StableHlo.after_of_writes_sub hostOps7 _ hostOps7_writes (by decide : main_arg0 ∉ hostOps7_W)
    _ = W13 m c (Proc.devRef .tc main_arg0) := W14_of_ne m c main_arg0 (by decide)
    _ = W12 m c (Proc.devRef .tc main_arg0) := StableHlo.after_of_writes_sub hostOps6 _ hostOps6_writes (by decide : main_arg0 ∉ hostOps6_W)
    _ = W11 m c (Proc.devRef .tc main_arg0) := W12_of_ne m c main_arg0 (by decide)
    _ = W10 m c (Proc.devRef .tc main_arg0) := StableHlo.after_of_writes_sub hostOps5 _ hostOps5_writes (by decide : main_arg0 ∉ hostOps5_W)
    _ = W9 m c (Proc.devRef .tc main_arg0) := W10_of_ne m c main_arg0 (by decide)
    _ = W8 m c (Proc.devRef .tc main_arg0) := StableHlo.after_of_writes_sub hostOps4 _ hostOps4_writes (by decide : main_arg0 ∉ hostOps4_W)
    _ = W7 m c (Proc.devRef .tc main_arg0) := W8_of_ne m c main_arg0 (by decide)
    _ = W6 m c (Proc.devRef .tc main_arg0) := StableHlo.after_of_writes_sub hostOps3 _ hostOps3_writes (by decide : main_arg0 ∉ hostOps3_W)
    _ = W5 m c (Proc.devRef .tc main_arg0) := W6_of_ne m c main_arg0 (by decide)
    _ = W4 m c (Proc.devRef .tc main_arg0) := StableHlo.after_of_writes_sub hostOps2 _ hostOps2_writes (by decide : main_arg0 ∉ hostOps2_W)
    _ = W3 m c (Proc.devRef .tc main_arg0) := W4_of_ne m c main_arg0 (by decide)
    _ = W2 m c (Proc.devRef .tc main_arg0) := StableHlo.after_of_writes_sub hostOps1 _ hostOps1_writes (by decide : main_arg0 ∉ hostOps1_W)
    _ = W1 m c (Proc.devRef .tc main_arg0) := W2_of_ne m c main_arg0 (by decide)
    _ = W0 m c (Proc.devRef .tc main_arg0) := StableHlo.after_of_writes_sub hostOps0 _ hostOps0_writes (by decide : main_arg0 ∉ hostOps0_W)
    _ = m ((c : Thread nD τ).loc main_arg0) := rfl

theorem W18_main_arg1 (c : Dev nD) : W18 m c (Proc.devRef .tc main_arg1) = m ((c : Thread nD τ).loc main_arg1) :=
  calc W18 m c (Proc.devRef .tc main_arg1)
    _ = W17 m c (Proc.devRef .tc main_arg1) := W18_of_ne m c main_arg1 (by decide)
    _ = W16 m c (Proc.devRef .tc main_arg1) := StableHlo.after_of_writes_sub hostOps8 _ hostOps8_writes (by decide : main_arg1 ∉ hostOps8_W)
    _ = W15 m c (Proc.devRef .tc main_arg1) := W16_of_ne m c main_arg1 (by decide)
    _ = W14 m c (Proc.devRef .tc main_arg1) := StableHlo.after_of_writes_sub hostOps7 _ hostOps7_writes (by decide : main_arg1 ∉ hostOps7_W)
    _ = W13 m c (Proc.devRef .tc main_arg1) := W14_of_ne m c main_arg1 (by decide)
    _ = W12 m c (Proc.devRef .tc main_arg1) := StableHlo.after_of_writes_sub hostOps6 _ hostOps6_writes (by decide : main_arg1 ∉ hostOps6_W)
    _ = W11 m c (Proc.devRef .tc main_arg1) := W12_of_ne m c main_arg1 (by decide)
    _ = W10 m c (Proc.devRef .tc main_arg1) := StableHlo.after_of_writes_sub hostOps5 _ hostOps5_writes (by decide : main_arg1 ∉ hostOps5_W)
    _ = W9 m c (Proc.devRef .tc main_arg1) := W10_of_ne m c main_arg1 (by decide)
    _ = W8 m c (Proc.devRef .tc main_arg1) := StableHlo.after_of_writes_sub hostOps4 _ hostOps4_writes (by decide : main_arg1 ∉ hostOps4_W)
    _ = W7 m c (Proc.devRef .tc main_arg1) := W8_of_ne m c main_arg1 (by decide)
    _ = W6 m c (Proc.devRef .tc main_arg1) := StableHlo.after_of_writes_sub hostOps3 _ hostOps3_writes (by decide : main_arg1 ∉ hostOps3_W)
    _ = W5 m c (Proc.devRef .tc main_arg1) := (W6_arr m c 5).trans (((dat2 (V5 m) c).arrAt_in 5 rfl _).trans (A_eq2 (V5 m) c 5))
    _ = W4 m c (Proc.devRef .tc main_arg1) := StableHlo.after_of_writes_sub hostOps2 _ hostOps2_writes (by decide : main_arg1 ∉ hostOps2_W)
    _ = W3 m c (Proc.devRef .tc main_arg1) := W4_of_ne m c main_arg1 (by decide)
    _ = W2 m c (Proc.devRef .tc main_arg1) := StableHlo.after_of_writes_sub hostOps1 _ hostOps1_writes (by decide : main_arg1 ∉ hostOps1_W)
    _ = W1 m c (Proc.devRef .tc main_arg1) := W2_of_ne m c main_arg1 (by decide)
    _ = W0 m c (Proc.devRef .tc main_arg1) := StableHlo.after_of_writes_sub hostOps0 _ hostOps0_writes (by decide : main_arg1 ∉ hostOps0_W)
    _ = m ((c : Thread nD τ).loc main_arg1) := rfl

theorem W18_main_arg2 (c : Dev nD) : W18 m c (Proc.devRef .tc main_arg2) = m ((c : Thread nD τ).loc main_arg2) :=
  calc W18 m c (Proc.devRef .tc main_arg2)
    _ = W17 m c (Proc.devRef .tc main_arg2) := W18_of_ne m c main_arg2 (by decide)
    _ = W16 m c (Proc.devRef .tc main_arg2) := StableHlo.after_of_writes_sub hostOps8 _ hostOps8_writes (by decide : main_arg2 ∉ hostOps8_W)
    _ = W15 m c (Proc.devRef .tc main_arg2) := W16_of_ne m c main_arg2 (by decide)
    _ = W14 m c (Proc.devRef .tc main_arg2) := StableHlo.after_of_writes_sub hostOps7 _ hostOps7_writes (by decide : main_arg2 ∉ hostOps7_W)
    _ = W13 m c (Proc.devRef .tc main_arg2) := W14_of_ne m c main_arg2 (by decide)
    _ = W12 m c (Proc.devRef .tc main_arg2) := StableHlo.after_of_writes_sub hostOps6 _ hostOps6_writes (by decide : main_arg2 ∉ hostOps6_W)
    _ = W11 m c (Proc.devRef .tc main_arg2) := (W12_arr m c 5).trans (((dat5 (V11 m) c).arrAt_in 5 rfl _).trans (A_eq5 (V11 m) c 5))
    _ = W10 m c (Proc.devRef .tc main_arg2) := StableHlo.after_of_writes_sub hostOps5 _ hostOps5_writes (by decide : main_arg2 ∉ hostOps5_W)
    _ = W9 m c (Proc.devRef .tc main_arg2) := W10_of_ne m c main_arg2 (by decide)
    _ = W8 m c (Proc.devRef .tc main_arg2) := StableHlo.after_of_writes_sub hostOps4 _ hostOps4_writes (by decide : main_arg2 ∉ hostOps4_W)
    _ = W7 m c (Proc.devRef .tc main_arg2) := W8_of_ne m c main_arg2 (by decide)
    _ = W6 m c (Proc.devRef .tc main_arg2) := StableHlo.after_of_writes_sub hostOps3 _ hostOps3_writes (by decide : main_arg2 ∉ hostOps3_W)
    _ = W5 m c (Proc.devRef .tc main_arg2) := W6_of_ne m c main_arg2 (by decide)
    _ = W4 m c (Proc.devRef .tc main_arg2) := StableHlo.after_of_writes_sub hostOps2 _ hostOps2_writes (by decide : main_arg2 ∉ hostOps2_W)
    _ = W3 m c (Proc.devRef .tc main_arg2) := W4_of_ne m c main_arg2 (by decide)
    _ = W2 m c (Proc.devRef .tc main_arg2) := StableHlo.after_of_writes_sub hostOps1 _ hostOps1_writes (by decide : main_arg2 ∉ hostOps1_W)
    _ = W1 m c (Proc.devRef .tc main_arg2) := W2_of_ne m c main_arg2 (by decide)
    _ = W0 m c (Proc.devRef .tc main_arg2) := StableHlo.after_of_writes_sub hostOps0 _ hostOps0_writes (by decide : main_arg2 ∉ hostOps0_W)
    _ = m ((c : Thread nD τ).loc main_arg2) := rfl

theorem W18_main_arg3 (c : Dev nD) : W18 m c (Proc.devRef .tc main_arg3) = m ((c : Thread nD τ).loc main_arg3) :=
  calc W18 m c (Proc.devRef .tc main_arg3)
    _ = W17 m c (Proc.devRef .tc main_arg3) := (W18_arr m c 5).trans (((dat8 (V17 m) c).arrAt_in 5 rfl _).trans (A_eq8 (V17 m) c 5))
    _ = W16 m c (Proc.devRef .tc main_arg3) := StableHlo.after_of_writes_sub hostOps8 _ hostOps8_writes (by decide : main_arg3 ∉ hostOps8_W)
    _ = W15 m c (Proc.devRef .tc main_arg3) := W16_of_ne m c main_arg3 (by decide)
    _ = W14 m c (Proc.devRef .tc main_arg3) := StableHlo.after_of_writes_sub hostOps7 _ hostOps7_writes (by decide : main_arg3 ∉ hostOps7_W)
    _ = W13 m c (Proc.devRef .tc main_arg3) := W14_of_ne m c main_arg3 (by decide)
    _ = W12 m c (Proc.devRef .tc main_arg3) := StableHlo.after_of_writes_sub hostOps6 _ hostOps6_writes (by decide : main_arg3 ∉ hostOps6_W)
    _ = W11 m c (Proc.devRef .tc main_arg3) := W12_of_ne m c main_arg3 (by decide)
    _ = W10 m c (Proc.devRef .tc main_arg3) := StableHlo.after_of_writes_sub hostOps5 _ hostOps5_writes (by decide : main_arg3 ∉ hostOps5_W)
    _ = W9 m c (Proc.devRef .tc main_arg3) := W10_of_ne m c main_arg3 (by decide)
    _ = W8 m c (Proc.devRef .tc main_arg3) := StableHlo.after_of_writes_sub hostOps4 _ hostOps4_writes (by decide : main_arg3 ∉ hostOps4_W)
    _ = W7 m c (Proc.devRef .tc main_arg3) := W8_of_ne m c main_arg3 (by decide)
    _ = W6 m c (Proc.devRef .tc main_arg3) := StableHlo.after_of_writes_sub hostOps3 _ hostOps3_writes (by decide : main_arg3 ∉ hostOps3_W)
    _ = W5 m c (Proc.devRef .tc main_arg3) := W6_of_ne m c main_arg3 (by decide)
    _ = W4 m c (Proc.devRef .tc main_arg3) := StableHlo.after_of_writes_sub hostOps2 _ hostOps2_writes (by decide : main_arg3 ∉ hostOps2_W)
    _ = W3 m c (Proc.devRef .tc main_arg3) := W4_of_ne m c main_arg3 (by decide)
    _ = W2 m c (Proc.devRef .tc main_arg3) := StableHlo.after_of_writes_sub hostOps1 _ hostOps1_writes (by decide : main_arg3 ∉ hostOps1_W)
    _ = W1 m c (Proc.devRef .tc main_arg3) := W2_of_ne m c main_arg3 (by decide)
    _ = W0 m c (Proc.devRef .tc main_arg3) := StableHlo.after_of_writes_sub hostOps0 _ hostOps0_writes (by decide : main_arg3 ∉ hostOps0_W)
    _ = m ((c : Thread nD τ).loc main_arg3) := rfl

theorem W18_main_arg4 (c : Dev nD) : W18 m c (Proc.devRef .tc main_arg4) = m ((c : Thread nD τ).loc main_arg4) :=
  calc W18 m c (Proc.devRef .tc main_arg4)
    _ = W17 m c (Proc.devRef .tc main_arg4) := W18_of_ne m c main_arg4 (by decide)
    _ = W16 m c (Proc.devRef .tc main_arg4) := StableHlo.after_of_writes_sub hostOps8 _ hostOps8_writes (by decide : main_arg4 ∉ hostOps8_W)
    _ = W15 m c (Proc.devRef .tc main_arg4) := W16_of_ne m c main_arg4 (by decide)
    _ = W14 m c (Proc.devRef .tc main_arg4) := StableHlo.after_of_writes_sub hostOps7 _ hostOps7_writes (by decide : main_arg4 ∉ hostOps7_W)
    _ = W13 m c (Proc.devRef .tc main_arg4) := W14_of_ne m c main_arg4 (by decide)
    _ = W12 m c (Proc.devRef .tc main_arg4) := StableHlo.after_of_writes_sub hostOps6 _ hostOps6_writes (by decide : main_arg4 ∉ hostOps6_W)
    _ = W11 m c (Proc.devRef .tc main_arg4) := W12_of_ne m c main_arg4 (by decide)
    _ = W10 m c (Proc.devRef .tc main_arg4) := StableHlo.after_of_writes_sub hostOps5 _ hostOps5_writes (by decide : main_arg4 ∉ hostOps5_W)
    _ = W9 m c (Proc.devRef .tc main_arg4) := W10_of_ne m c main_arg4 (by decide)
    _ = W8 m c (Proc.devRef .tc main_arg4) := StableHlo.after_of_writes_sub hostOps4 _ hostOps4_writes (by decide : main_arg4 ∉ hostOps4_W)
    _ = W7 m c (Proc.devRef .tc main_arg4) := W8_of_ne m c main_arg4 (by decide)
    _ = W6 m c (Proc.devRef .tc main_arg4) := StableHlo.after_of_writes_sub hostOps3 _ hostOps3_writes (by decide : main_arg4 ∉ hostOps3_W)
    _ = W5 m c (Proc.devRef .tc main_arg4) := W6_of_ne m c main_arg4 (by decide)
    _ = W4 m c (Proc.devRef .tc main_arg4) := StableHlo.after_of_writes_sub hostOps2 _ hostOps2_writes (by decide : main_arg4 ∉ hostOps2_W)
    _ = W3 m c (Proc.devRef .tc main_arg4) := W4_of_ne m c main_arg4 (by decide)
    _ = W2 m c (Proc.devRef .tc main_arg4) := StableHlo.after_of_writes_sub hostOps1 _ hostOps1_writes (by decide : main_arg4 ∉ hostOps1_W)
    _ = W1 m c (Proc.devRef .tc main_arg4) := W2_of_ne m c main_arg4 (by decide)
    _ = W0 m c (Proc.devRef .tc main_arg4) := StableHlo.after_of_writes_sub hostOps0 _ hostOps0_writes (by decide : main_arg4 ∉ hostOps0_W)
    _ = m ((c : Thread nD τ).loc main_arg4) := rfl

theorem W18_main_arg5 (c : Dev nD) : W18 m c (Proc.devRef .tc main_arg5) = m ((c : Thread nD τ).loc main_arg5) :=
  calc W18 m c (Proc.devRef .tc main_arg5)
    _ = W17 m c (Proc.devRef .tc main_arg5) := W18_of_ne m c main_arg5 (by decide)
    _ = W16 m c (Proc.devRef .tc main_arg5) := StableHlo.after_of_writes_sub hostOps8 _ hostOps8_writes (by decide : main_arg5 ∉ hostOps8_W)
    _ = W15 m c (Proc.devRef .tc main_arg5) := W16_of_ne m c main_arg5 (by decide)
    _ = W14 m c (Proc.devRef .tc main_arg5) := StableHlo.after_of_writes_sub hostOps7 _ hostOps7_writes (by decide : main_arg5 ∉ hostOps7_W)
    _ = W13 m c (Proc.devRef .tc main_arg5) := W14_of_ne m c main_arg5 (by decide)
    _ = W12 m c (Proc.devRef .tc main_arg5) := StableHlo.after_of_writes_sub hostOps6 _ hostOps6_writes (by decide : main_arg5 ∉ hostOps6_W)
    _ = W11 m c (Proc.devRef .tc main_arg5) := W12_of_ne m c main_arg5 (by decide)
    _ = W10 m c (Proc.devRef .tc main_arg5) := StableHlo.after_of_writes_sub hostOps5 _ hostOps5_writes (by decide : main_arg5 ∉ hostOps5_W)
    _ = W9 m c (Proc.devRef .tc main_arg5) := W10_of_ne m c main_arg5 (by decide)
    _ = W8 m c (Proc.devRef .tc main_arg5) := StableHlo.after_of_writes_sub hostOps4 _ hostOps4_writes (by decide : main_arg5 ∉ hostOps4_W)
    _ = W7 m c (Proc.devRef .tc main_arg5) := W8_of_ne m c main_arg5 (by decide)
    _ = W6 m c (Proc.devRef .tc main_arg5) := StableHlo.after_of_writes_sub hostOps3 _ hostOps3_writes (by decide : main_arg5 ∉ hostOps3_W)
    _ = W5 m c (Proc.devRef .tc main_arg5) := W6_of_ne m c main_arg5 (by decide)
    _ = W4 m c (Proc.devRef .tc main_arg5) := StableHlo.after_of_writes_sub hostOps2 _ hostOps2_writes (by decide : main_arg5 ∉ hostOps2_W)
    _ = W3 m c (Proc.devRef .tc main_arg5) := W4_of_ne m c main_arg5 (by decide)
    _ = W2 m c (Proc.devRef .tc main_arg5) := StableHlo.after_of_writes_sub hostOps1 _ hostOps1_writes (by decide : main_arg5 ∉ hostOps1_W)
    _ = W1 m c (Proc.devRef .tc main_arg5) := W2_of_ne m c main_arg5 (by decide)
    _ = W0 m c (Proc.devRef .tc main_arg5) := StableHlo.after_of_writes_sub hostOps0 _ hostOps0_writes (by decide : main_arg5 ∉ hostOps0_W)
    _ = m ((c : Thread nD τ).loc main_arg5) := rfl

theorem W18_main_arg6 (c : Dev nD) : W18 m c (Proc.devRef .tc main_arg6) = m ((c : Thread nD τ).loc main_arg6) :=
  calc W18 m c (Proc.devRef .tc main_arg6)
    _ = W17 m c (Proc.devRef .tc main_arg6) := W18_of_ne m c main_arg6 (by decide)
    _ = W16 m c (Proc.devRef .tc main_arg6) := StableHlo.after_of_writes_sub hostOps8 _ hostOps8_writes (by decide : main_arg6 ∉ hostOps8_W)
    _ = W15 m c (Proc.devRef .tc main_arg6) := W16_of_ne m c main_arg6 (by decide)
    _ = W14 m c (Proc.devRef .tc main_arg6) := StableHlo.after_of_writes_sub hostOps7 _ hostOps7_writes (by decide : main_arg6 ∉ hostOps7_W)
    _ = W13 m c (Proc.devRef .tc main_arg6) := W14_of_ne m c main_arg6 (by decide)
    _ = W12 m c (Proc.devRef .tc main_arg6) := StableHlo.after_of_writes_sub hostOps6 _ hostOps6_writes (by decide : main_arg6 ∉ hostOps6_W)
    _ = W11 m c (Proc.devRef .tc main_arg6) := W12_of_ne m c main_arg6 (by decide)
    _ = W10 m c (Proc.devRef .tc main_arg6) := StableHlo.after_of_writes_sub hostOps5 _ hostOps5_writes (by decide : main_arg6 ∉ hostOps5_W)
    _ = W9 m c (Proc.devRef .tc main_arg6) := W10_of_ne m c main_arg6 (by decide)
    _ = W8 m c (Proc.devRef .tc main_arg6) := StableHlo.after_of_writes_sub hostOps4 _ hostOps4_writes (by decide : main_arg6 ∉ hostOps4_W)
    _ = W7 m c (Proc.devRef .tc main_arg6) := W8_of_ne m c main_arg6 (by decide)
    _ = W6 m c (Proc.devRef .tc main_arg6) := StableHlo.after_of_writes_sub hostOps3 _ hostOps3_writes (by decide : main_arg6 ∉ hostOps3_W)
    _ = W5 m c (Proc.devRef .tc main_arg6) := W6_of_ne m c main_arg6 (by decide)
    _ = W4 m c (Proc.devRef .tc main_arg6) := StableHlo.after_of_writes_sub hostOps2 _ hostOps2_writes (by decide : main_arg6 ∉ hostOps2_W)
    _ = W3 m c (Proc.devRef .tc main_arg6) := W4_of_ne m c main_arg6 (by decide)
    _ = W2 m c (Proc.devRef .tc main_arg6) := StableHlo.after_of_writes_sub hostOps1 _ hostOps1_writes (by decide : main_arg6 ∉ hostOps1_W)
    _ = W1 m c (Proc.devRef .tc main_arg6) := W2_of_ne m c main_arg6 (by decide)
    _ = W0 m c (Proc.devRef .tc main_arg6) := StableHlo.after_of_writes_sub hostOps0 _ hostOps0_writes (by decide : main_arg6 ∉ hostOps0_W)
    _ = m ((c : Thread nD τ).loc main_arg6) := rfl

theorem W18_main_arg7 (c : Dev nD) : W18 m c (Proc.devRef .tc main_arg7) = m ((c : Thread nD τ).loc main_arg7) :=
  calc W18 m c (Proc.devRef .tc main_arg7)
    _ = W17 m c (Proc.devRef .tc main_arg7) := W18_of_ne m c main_arg7 (by decide)
    _ = W16 m c (Proc.devRef .tc main_arg7) := StableHlo.after_of_writes_sub hostOps8 _ hostOps8_writes (by decide : main_arg7 ∉ hostOps8_W)
    _ = W15 m c (Proc.devRef .tc main_arg7) := W16_of_ne m c main_arg7 (by decide)
    _ = W14 m c (Proc.devRef .tc main_arg7) := StableHlo.after_of_writes_sub hostOps7 _ hostOps7_writes (by decide : main_arg7 ∉ hostOps7_W)
    _ = W13 m c (Proc.devRef .tc main_arg7) := W14_of_ne m c main_arg7 (by decide)
    _ = W12 m c (Proc.devRef .tc main_arg7) := StableHlo.after_of_writes_sub hostOps6 _ hostOps6_writes (by decide : main_arg7 ∉ hostOps6_W)
    _ = W11 m c (Proc.devRef .tc main_arg7) := W12_of_ne m c main_arg7 (by decide)
    _ = W10 m c (Proc.devRef .tc main_arg7) := StableHlo.after_of_writes_sub hostOps5 _ hostOps5_writes (by decide : main_arg7 ∉ hostOps5_W)
    _ = W9 m c (Proc.devRef .tc main_arg7) := W10_of_ne m c main_arg7 (by decide)
    _ = W8 m c (Proc.devRef .tc main_arg7) := StableHlo.after_of_writes_sub hostOps4 _ hostOps4_writes (by decide : main_arg7 ∉ hostOps4_W)
    _ = W7 m c (Proc.devRef .tc main_arg7) := W8_of_ne m c main_arg7 (by decide)
    _ = W6 m c (Proc.devRef .tc main_arg7) := StableHlo.after_of_writes_sub hostOps3 _ hostOps3_writes (by decide : main_arg7 ∉ hostOps3_W)
    _ = W5 m c (Proc.devRef .tc main_arg7) := W6_of_ne m c main_arg7 (by decide)
    _ = W4 m c (Proc.devRef .tc main_arg7) := StableHlo.after_of_writes_sub hostOps2 _ hostOps2_writes (by decide : main_arg7 ∉ hostOps2_W)
    _ = W3 m c (Proc.devRef .tc main_arg7) := W4_of_ne m c main_arg7 (by decide)
    _ = W2 m c (Proc.devRef .tc main_arg7) := StableHlo.after_of_writes_sub hostOps1 _ hostOps1_writes (by decide : main_arg7 ∉ hostOps1_W)
    _ = W1 m c (Proc.devRef .tc main_arg7) := W2_of_ne m c main_arg7 (by decide)
    _ = W0 m c (Proc.devRef .tc main_arg7) := StableHlo.after_of_writes_sub hostOps0 _ hostOps0_writes (by decide : main_arg7 ∉ hostOps0_W)
    _ = m ((c : Thread nD τ).loc main_arg7) := rfl

theorem W18_main_arg8 (c : Dev nD) : W18 m c (Proc.devRef .tc main_arg8) = m ((c : Thread nD τ).loc main_arg8) :=
  calc W18 m c (Proc.devRef .tc main_arg8)
    _ = W17 m c (Proc.devRef .tc main_arg8) := W18_of_ne m c main_arg8 (by decide)
    _ = W16 m c (Proc.devRef .tc main_arg8) := StableHlo.after_of_writes_sub hostOps8 _ hostOps8_writes (by decide : main_arg8 ∉ hostOps8_W)
    _ = W15 m c (Proc.devRef .tc main_arg8) := W16_of_ne m c main_arg8 (by decide)
    _ = W14 m c (Proc.devRef .tc main_arg8) := StableHlo.after_of_writes_sub hostOps7 _ hostOps7_writes (by decide : main_arg8 ∉ hostOps7_W)
    _ = W13 m c (Proc.devRef .tc main_arg8) := W14_of_ne m c main_arg8 (by decide)
    _ = W12 m c (Proc.devRef .tc main_arg8) := StableHlo.after_of_writes_sub hostOps6 _ hostOps6_writes (by decide : main_arg8 ∉ hostOps6_W)
    _ = W11 m c (Proc.devRef .tc main_arg8) := W12_of_ne m c main_arg8 (by decide)
    _ = W10 m c (Proc.devRef .tc main_arg8) := StableHlo.after_of_writes_sub hostOps5 _ hostOps5_writes (by decide : main_arg8 ∉ hostOps5_W)
    _ = W9 m c (Proc.devRef .tc main_arg8) := W10_of_ne m c main_arg8 (by decide)
    _ = W8 m c (Proc.devRef .tc main_arg8) := StableHlo.after_of_writes_sub hostOps4 _ hostOps4_writes (by decide : main_arg8 ∉ hostOps4_W)
    _ = W7 m c (Proc.devRef .tc main_arg8) := W8_of_ne m c main_arg8 (by decide)
    _ = W6 m c (Proc.devRef .tc main_arg8) := StableHlo.after_of_writes_sub hostOps3 _ hostOps3_writes (by decide : main_arg8 ∉ hostOps3_W)
    _ = W5 m c (Proc.devRef .tc main_arg8) := W6_of_ne m c main_arg8 (by decide)
    _ = W4 m c (Proc.devRef .tc main_arg8) := StableHlo.after_of_writes_sub hostOps2 _ hostOps2_writes (by decide : main_arg8 ∉ hostOps2_W)
    _ = W3 m c (Proc.devRef .tc main_arg8) := W4_of_ne m c main_arg8 (by decide)
    _ = W2 m c (Proc.devRef .tc main_arg8) := StableHlo.after_of_writes_sub hostOps1 _ hostOps1_writes (by decide : main_arg8 ∉ hostOps1_W)
    _ = W1 m c (Proc.devRef .tc main_arg8) := W2_of_ne m c main_arg8 (by decide)
    _ = W0 m c (Proc.devRef .tc main_arg8) := StableHlo.after_of_writes_sub hostOps0 _ hostOps0_writes (by decide : main_arg8 ∉ hostOps0_W)
    _ = m ((c : Thread nD τ).loc main_arg8) := rfl

theorem W18_main_arg9 (c : Dev nD) : W18 m c (Proc.devRef .tc main_arg9) = m ((c : Thread nD τ).loc main_arg9) :=
  calc W18 m c (Proc.devRef .tc main_arg9)
    _ = W17 m c (Proc.devRef .tc main_arg9) := W18_of_ne m c main_arg9 (by decide)
    _ = W16 m c (Proc.devRef .tc main_arg9) := StableHlo.after_of_writes_sub hostOps8 _ hostOps8_writes (by decide : main_arg9 ∉ hostOps8_W)
    _ = W15 m c (Proc.devRef .tc main_arg9) := W16_of_ne m c main_arg9 (by decide)
    _ = W14 m c (Proc.devRef .tc main_arg9) := StableHlo.after_of_writes_sub hostOps7 _ hostOps7_writes (by decide : main_arg9 ∉ hostOps7_W)
    _ = W13 m c (Proc.devRef .tc main_arg9) := W14_of_ne m c main_arg9 (by decide)
    _ = W12 m c (Proc.devRef .tc main_arg9) := StableHlo.after_of_writes_sub hostOps6 _ hostOps6_writes (by decide : main_arg9 ∉ hostOps6_W)
    _ = W11 m c (Proc.devRef .tc main_arg9) := W12_of_ne m c main_arg9 (by decide)
    _ = W10 m c (Proc.devRef .tc main_arg9) := StableHlo.after_of_writes_sub hostOps5 _ hostOps5_writes (by decide : main_arg9 ∉ hostOps5_W)
    _ = W9 m c (Proc.devRef .tc main_arg9) := W10_of_ne m c main_arg9 (by decide)
    _ = W8 m c (Proc.devRef .tc main_arg9) := StableHlo.after_of_writes_sub hostOps4 _ hostOps4_writes (by decide : main_arg9 ∉ hostOps4_W)
    _ = W7 m c (Proc.devRef .tc main_arg9) := W8_of_ne m c main_arg9 (by decide)
    _ = W6 m c (Proc.devRef .tc main_arg9) := StableHlo.after_of_writes_sub hostOps3 _ hostOps3_writes (by decide : main_arg9 ∉ hostOps3_W)
    _ = W5 m c (Proc.devRef .tc main_arg9) := W6_of_ne m c main_arg9 (by decide)
    _ = W4 m c (Proc.devRef .tc main_arg9) := StableHlo.after_of_writes_sub hostOps2 _ hostOps2_writes (by decide : main_arg9 ∉ hostOps2_W)
    _ = W3 m c (Proc.devRef .tc main_arg9) := W4_of_ne m c main_arg9 (by decide)
    _ = W2 m c (Proc.devRef .tc main_arg9) := StableHlo.after_of_writes_sub hostOps1 _ hostOps1_writes (by decide : main_arg9 ∉ hostOps1_W)
    _ = W1 m c (Proc.devRef .tc main_arg9) := W2_of_ne m c main_arg9 (by decide)
    _ = W0 m c (Proc.devRef .tc main_arg9) := StableHlo.after_of_writes_sub hostOps0 _ hostOps0_writes (by decide : main_arg9 ∉ hostOps0_W)
    _ = m ((c : Thread nD τ).loc main_arg9) := rfl

theorem W18_main_arg10 (c : Dev nD) : W18 m c (Proc.devRef .tc main_arg10) = m ((c : Thread nD τ).loc main_arg10) :=
  calc W18 m c (Proc.devRef .tc main_arg10)
    _ = W17 m c (Proc.devRef .tc main_arg10) := W18_of_ne m c main_arg10 (by decide)
    _ = W16 m c (Proc.devRef .tc main_arg10) := StableHlo.after_of_writes_sub hostOps8 _ hostOps8_writes (by decide : main_arg10 ∉ hostOps8_W)
    _ = W15 m c (Proc.devRef .tc main_arg10) := W16_of_ne m c main_arg10 (by decide)
    _ = W14 m c (Proc.devRef .tc main_arg10) := StableHlo.after_of_writes_sub hostOps7 _ hostOps7_writes (by decide : main_arg10 ∉ hostOps7_W)
    _ = W13 m c (Proc.devRef .tc main_arg10) := W14_of_ne m c main_arg10 (by decide)
    _ = W12 m c (Proc.devRef .tc main_arg10) := StableHlo.after_of_writes_sub hostOps6 _ hostOps6_writes (by decide : main_arg10 ∉ hostOps6_W)
    _ = W11 m c (Proc.devRef .tc main_arg10) := W12_of_ne m c main_arg10 (by decide)
    _ = W10 m c (Proc.devRef .tc main_arg10) := StableHlo.after_of_writes_sub hostOps5 _ hostOps5_writes (by decide : main_arg10 ∉ hostOps5_W)
    _ = W9 m c (Proc.devRef .tc main_arg10) := W10_of_ne m c main_arg10 (by decide)
    _ = W8 m c (Proc.devRef .tc main_arg10) := StableHlo.after_of_writes_sub hostOps4 _ hostOps4_writes (by decide : main_arg10 ∉ hostOps4_W)
    _ = W7 m c (Proc.devRef .tc main_arg10) := W8_of_ne m c main_arg10 (by decide)
    _ = W6 m c (Proc.devRef .tc main_arg10) := StableHlo.after_of_writes_sub hostOps3 _ hostOps3_writes (by decide : main_arg10 ∉ hostOps3_W)
    _ = W5 m c (Proc.devRef .tc main_arg10) := W6_of_ne m c main_arg10 (by decide)
    _ = W4 m c (Proc.devRef .tc main_arg10) := StableHlo.after_of_writes_sub hostOps2 _ hostOps2_writes (by decide : main_arg10 ∉ hostOps2_W)
    _ = W3 m c (Proc.devRef .tc main_arg10) := W4_of_ne m c main_arg10 (by decide)
    _ = W2 m c (Proc.devRef .tc main_arg10) := StableHlo.after_of_writes_sub hostOps1 _ hostOps1_writes (by decide : main_arg10 ∉ hostOps1_W)
    _ = W1 m c (Proc.devRef .tc main_arg10) := W2_of_ne m c main_arg10 (by decide)
    _ = W0 m c (Proc.devRef .tc main_arg10) := StableHlo.after_of_writes_sub hostOps0 _ hostOps0_writes (by decide : main_arg10 ∉ hostOps0_W)
    _ = m ((c : Thread nD τ).loc main_arg10) := rfl

theorem W18_main_arg11 (c : Dev nD) : W18 m c (Proc.devRef .tc main_arg11) = m ((c : Thread nD τ).loc main_arg11) :=
  calc W18 m c (Proc.devRef .tc main_arg11)
    _ = W17 m c (Proc.devRef .tc main_arg11) := W18_of_ne m c main_arg11 (by decide)
    _ = W16 m c (Proc.devRef .tc main_arg11) := StableHlo.after_of_writes_sub hostOps8 _ hostOps8_writes (by decide : main_arg11 ∉ hostOps8_W)
    _ = W15 m c (Proc.devRef .tc main_arg11) := W16_of_ne m c main_arg11 (by decide)
    _ = W14 m c (Proc.devRef .tc main_arg11) := StableHlo.after_of_writes_sub hostOps7 _ hostOps7_writes (by decide : main_arg11 ∉ hostOps7_W)
    _ = W13 m c (Proc.devRef .tc main_arg11) := W14_of_ne m c main_arg11 (by decide)
    _ = W12 m c (Proc.devRef .tc main_arg11) := StableHlo.after_of_writes_sub hostOps6 _ hostOps6_writes (by decide : main_arg11 ∉ hostOps6_W)
    _ = W11 m c (Proc.devRef .tc main_arg11) := W12_of_ne m c main_arg11 (by decide)
    _ = W10 m c (Proc.devRef .tc main_arg11) := StableHlo.after_of_writes_sub hostOps5 _ hostOps5_writes (by decide : main_arg11 ∉ hostOps5_W)
    _ = W9 m c (Proc.devRef .tc main_arg11) := W10_of_ne m c main_arg11 (by decide)
    _ = W8 m c (Proc.devRef .tc main_arg11) := StableHlo.after_of_writes_sub hostOps4 _ hostOps4_writes (by decide : main_arg11 ∉ hostOps4_W)
    _ = W7 m c (Proc.devRef .tc main_arg11) := W8_of_ne m c main_arg11 (by decide)
    _ = W6 m c (Proc.devRef .tc main_arg11) := StableHlo.after_of_writes_sub hostOps3 _ hostOps3_writes (by decide : main_arg11 ∉ hostOps3_W)
    _ = W5 m c (Proc.devRef .tc main_arg11) := W6_of_ne m c main_arg11 (by decide)
    _ = W4 m c (Proc.devRef .tc main_arg11) := StableHlo.after_of_writes_sub hostOps2 _ hostOps2_writes (by decide : main_arg11 ∉ hostOps2_W)
    _ = W3 m c (Proc.devRef .tc main_arg11) := W4_of_ne m c main_arg11 (by decide)
    _ = W2 m c (Proc.devRef .tc main_arg11) := StableHlo.after_of_writes_sub hostOps1 _ hostOps1_writes (by decide : main_arg11 ∉ hostOps1_W)
    _ = W1 m c (Proc.devRef .tc main_arg11) := W2_of_ne m c main_arg11 (by decide)
    _ = W0 m c (Proc.devRef .tc main_arg11) := StableHlo.after_of_writes_sub hostOps0 _ hostOps0_writes (by decide : main_arg11 ∉ hostOps0_W)
    _ = m ((c : Thread nD τ).loc main_arg11) := rfl

theorem W18_main_arg12 (c : Dev nD) : W18 m c (Proc.devRef .tc main_arg12) = m ((c : Thread nD τ).loc main_arg12) :=
  calc W18 m c (Proc.devRef .tc main_arg12)
    _ = W17 m c (Proc.devRef .tc main_arg12) := W18_of_ne m c main_arg12 (by decide)
    _ = W16 m c (Proc.devRef .tc main_arg12) := StableHlo.after_of_writes_sub hostOps8 _ hostOps8_writes (by decide : main_arg12 ∉ hostOps8_W)
    _ = W15 m c (Proc.devRef .tc main_arg12) := W16_of_ne m c main_arg12 (by decide)
    _ = W14 m c (Proc.devRef .tc main_arg12) := StableHlo.after_of_writes_sub hostOps7 _ hostOps7_writes (by decide : main_arg12 ∉ hostOps7_W)
    _ = W13 m c (Proc.devRef .tc main_arg12) := W14_of_ne m c main_arg12 (by decide)
    _ = W12 m c (Proc.devRef .tc main_arg12) := StableHlo.after_of_writes_sub hostOps6 _ hostOps6_writes (by decide : main_arg12 ∉ hostOps6_W)
    _ = W11 m c (Proc.devRef .tc main_arg12) := W12_of_ne m c main_arg12 (by decide)
    _ = W10 m c (Proc.devRef .tc main_arg12) := StableHlo.after_of_writes_sub hostOps5 _ hostOps5_writes (by decide : main_arg12 ∉ hostOps5_W)
    _ = W9 m c (Proc.devRef .tc main_arg12) := W10_of_ne m c main_arg12 (by decide)
    _ = W8 m c (Proc.devRef .tc main_arg12) := StableHlo.after_of_writes_sub hostOps4 _ hostOps4_writes (by decide : main_arg12 ∉ hostOps4_W)
    _ = W7 m c (Proc.devRef .tc main_arg12) := W8_of_ne m c main_arg12 (by decide)
    _ = W6 m c (Proc.devRef .tc main_arg12) := StableHlo.after_of_writes_sub hostOps3 _ hostOps3_writes (by decide : main_arg12 ∉ hostOps3_W)
    _ = W5 m c (Proc.devRef .tc main_arg12) := W6_of_ne m c main_arg12 (by decide)
    _ = W4 m c (Proc.devRef .tc main_arg12) := StableHlo.after_of_writes_sub hostOps2 _ hostOps2_writes (by decide : main_arg12 ∉ hostOps2_W)
    _ = W3 m c (Proc.devRef .tc main_arg12) := W4_of_ne m c main_arg12 (by decide)
    _ = W2 m c (Proc.devRef .tc main_arg12) := StableHlo.after_of_writes_sub hostOps1 _ hostOps1_writes (by decide : main_arg12 ∉ hostOps1_W)
    _ = W1 m c (Proc.devRef .tc main_arg12) := W2_of_ne m c main_arg12 (by decide)
    _ = W0 m c (Proc.devRef .tc main_arg12) := StableHlo.after_of_writes_sub hostOps0 _ hostOps0_writes (by decide : main_arg12 ∉ hostOps0_W)
    _ = m ((c : Thread nD τ).loc main_arg12) := rfl

theorem W18_main_arg13 (c : Dev nD) : W18 m c (Proc.devRef .tc main_arg13) = m ((c : Thread nD τ).loc main_arg13) :=
  calc W18 m c (Proc.devRef .tc main_arg13)
    _ = W17 m c (Proc.devRef .tc main_arg13) := W18_of_ne m c main_arg13 (by decide)
    _ = W16 m c (Proc.devRef .tc main_arg13) := StableHlo.after_of_writes_sub hostOps8 _ hostOps8_writes (by decide : main_arg13 ∉ hostOps8_W)
    _ = W15 m c (Proc.devRef .tc main_arg13) := W16_of_ne m c main_arg13 (by decide)
    _ = W14 m c (Proc.devRef .tc main_arg13) := StableHlo.after_of_writes_sub hostOps7 _ hostOps7_writes (by decide : main_arg13 ∉ hostOps7_W)
    _ = W13 m c (Proc.devRef .tc main_arg13) := W14_of_ne m c main_arg13 (by decide)
    _ = W12 m c (Proc.devRef .tc main_arg13) := StableHlo.after_of_writes_sub hostOps6 _ hostOps6_writes (by decide : main_arg13 ∉ hostOps6_W)
    _ = W11 m c (Proc.devRef .tc main_arg13) := W12_of_ne m c main_arg13 (by decide)
    _ = W10 m c (Proc.devRef .tc main_arg13) := StableHlo.after_of_writes_sub hostOps5 _ hostOps5_writes (by decide : main_arg13 ∉ hostOps5_W)
    _ = W9 m c (Proc.devRef .tc main_arg13) := W10_of_ne m c main_arg13 (by decide)
    _ = W8 m c (Proc.devRef .tc main_arg13) := StableHlo.after_of_writes_sub hostOps4 _ hostOps4_writes (by decide : main_arg13 ∉ hostOps4_W)
    _ = W7 m c (Proc.devRef .tc main_arg13) := W8_of_ne m c main_arg13 (by decide)
    _ = W6 m c (Proc.devRef .tc main_arg13) := StableHlo.after_of_writes_sub hostOps3 _ hostOps3_writes (by decide : main_arg13 ∉ hostOps3_W)
    _ = W5 m c (Proc.devRef .tc main_arg13) := W6_of_ne m c main_arg13 (by decide)
    _ = W4 m c (Proc.devRef .tc main_arg13) := StableHlo.after_of_writes_sub hostOps2 _ hostOps2_writes (by decide : main_arg13 ∉ hostOps2_W)
    _ = W3 m c (Proc.devRef .tc main_arg13) := W4_of_ne m c main_arg13 (by decide)
    _ = W2 m c (Proc.devRef .tc main_arg13) := StableHlo.after_of_writes_sub hostOps1 _ hostOps1_writes (by decide : main_arg13 ∉ hostOps1_W)
    _ = W1 m c (Proc.devRef .tc main_arg13) := W2_of_ne m c main_arg13 (by decide)
    _ = W0 m c (Proc.devRef .tc main_arg13) := StableHlo.after_of_writes_sub hostOps0 _ hostOps0_writes (by decide : main_arg13 ∉ hostOps0_W)
    _ = m ((c : Thread nD τ).loc main_arg13) := rfl

theorem W18_main_arg14 (c : Dev nD) : W18 m c (Proc.devRef .tc main_arg14) = m ((c : Thread nD τ).loc main_arg14) :=
  calc W18 m c (Proc.devRef .tc main_arg14)
    _ = W17 m c (Proc.devRef .tc main_arg14) := W18_of_ne m c main_arg14 (by decide)
    _ = W16 m c (Proc.devRef .tc main_arg14) := StableHlo.after_of_writes_sub hostOps8 _ hostOps8_writes (by decide : main_arg14 ∉ hostOps8_W)
    _ = W15 m c (Proc.devRef .tc main_arg14) := W16_of_ne m c main_arg14 (by decide)
    _ = W14 m c (Proc.devRef .tc main_arg14) := StableHlo.after_of_writes_sub hostOps7 _ hostOps7_writes (by decide : main_arg14 ∉ hostOps7_W)
    _ = W13 m c (Proc.devRef .tc main_arg14) := W14_of_ne m c main_arg14 (by decide)
    _ = W12 m c (Proc.devRef .tc main_arg14) := StableHlo.after_of_writes_sub hostOps6 _ hostOps6_writes (by decide : main_arg14 ∉ hostOps6_W)
    _ = W11 m c (Proc.devRef .tc main_arg14) := W12_of_ne m c main_arg14 (by decide)
    _ = W10 m c (Proc.devRef .tc main_arg14) := StableHlo.after_of_writes_sub hostOps5 _ hostOps5_writes (by decide : main_arg14 ∉ hostOps5_W)
    _ = W9 m c (Proc.devRef .tc main_arg14) := W10_of_ne m c main_arg14 (by decide)
    _ = W8 m c (Proc.devRef .tc main_arg14) := StableHlo.after_of_writes_sub hostOps4 _ hostOps4_writes (by decide : main_arg14 ∉ hostOps4_W)
    _ = W7 m c (Proc.devRef .tc main_arg14) := W8_of_ne m c main_arg14 (by decide)
    _ = W6 m c (Proc.devRef .tc main_arg14) := StableHlo.after_of_writes_sub hostOps3 _ hostOps3_writes (by decide : main_arg14 ∉ hostOps3_W)
    _ = W5 m c (Proc.devRef .tc main_arg14) := W6_of_ne m c main_arg14 (by decide)
    _ = W4 m c (Proc.devRef .tc main_arg14) := StableHlo.after_of_writes_sub hostOps2 _ hostOps2_writes (by decide : main_arg14 ∉ hostOps2_W)
    _ = W3 m c (Proc.devRef .tc main_arg14) := W4_of_ne m c main_arg14 (by decide)
    _ = W2 m c (Proc.devRef .tc main_arg14) := StableHlo.after_of_writes_sub hostOps1 _ hostOps1_writes (by decide : main_arg14 ∉ hostOps1_W)
    _ = W1 m c (Proc.devRef .tc main_arg14) := W2_of_ne m c main_arg14 (by decide)
    _ = W0 m c (Proc.devRef .tc main_arg14) := StableHlo.after_of_writes_sub hostOps0 _ hostOps0_writes (by decide : main_arg14 ∉ hostOps0_W)
    _ = m ((c : Thread nD τ).loc main_arg14) := rfl

theorem W18_main_arg15 (c : Dev nD) : W18 m c (Proc.devRef .tc main_arg15) = m ((c : Thread nD τ).loc main_arg15) :=
  calc W18 m c (Proc.devRef .tc main_arg15)
    _ = W17 m c (Proc.devRef .tc main_arg15) := W18_of_ne m c main_arg15 (by decide)
    _ = W16 m c (Proc.devRef .tc main_arg15) := StableHlo.after_of_writes_sub hostOps8 _ hostOps8_writes (by decide : main_arg15 ∉ hostOps8_W)
    _ = W15 m c (Proc.devRef .tc main_arg15) := W16_of_ne m c main_arg15 (by decide)
    _ = W14 m c (Proc.devRef .tc main_arg15) := StableHlo.after_of_writes_sub hostOps7 _ hostOps7_writes (by decide : main_arg15 ∉ hostOps7_W)
    _ = W13 m c (Proc.devRef .tc main_arg15) := W14_of_ne m c main_arg15 (by decide)
    _ = W12 m c (Proc.devRef .tc main_arg15) := StableHlo.after_of_writes_sub hostOps6 _ hostOps6_writes (by decide : main_arg15 ∉ hostOps6_W)
    _ = W11 m c (Proc.devRef .tc main_arg15) := W12_of_ne m c main_arg15 (by decide)
    _ = W10 m c (Proc.devRef .tc main_arg15) := StableHlo.after_of_writes_sub hostOps5 _ hostOps5_writes (by decide : main_arg15 ∉ hostOps5_W)
    _ = W9 m c (Proc.devRef .tc main_arg15) := W10_of_ne m c main_arg15 (by decide)
    _ = W8 m c (Proc.devRef .tc main_arg15) := StableHlo.after_of_writes_sub hostOps4 _ hostOps4_writes (by decide : main_arg15 ∉ hostOps4_W)
    _ = W7 m c (Proc.devRef .tc main_arg15) := W8_of_ne m c main_arg15 (by decide)
    _ = W6 m c (Proc.devRef .tc main_arg15) := StableHlo.after_of_writes_sub hostOps3 _ hostOps3_writes (by decide : main_arg15 ∉ hostOps3_W)
    _ = W5 m c (Proc.devRef .tc main_arg15) := W6_of_ne m c main_arg15 (by decide)
    _ = W4 m c (Proc.devRef .tc main_arg15) := StableHlo.after_of_writes_sub hostOps2 _ hostOps2_writes (by decide : main_arg15 ∉ hostOps2_W)
    _ = W3 m c (Proc.devRef .tc main_arg15) := W4_of_ne m c main_arg15 (by decide)
    _ = W2 m c (Proc.devRef .tc main_arg15) := StableHlo.after_of_writes_sub hostOps1 _ hostOps1_writes (by decide : main_arg15 ∉ hostOps1_W)
    _ = W1 m c (Proc.devRef .tc main_arg15) := W2_of_ne m c main_arg15 (by decide)
    _ = W0 m c (Proc.devRef .tc main_arg15) := StableHlo.after_of_writes_sub hostOps0 _ hostOps0_writes (by decide : main_arg15 ∉ hostOps0_W)
    _ = m ((c : Thread nD τ).loc main_arg15) := rfl

theorem W18_main_arg16 (c : Dev nD) : W18 m c (Proc.devRef .tc main_arg16) = m ((c : Thread nD τ).loc main_arg16) :=
  calc W18 m c (Proc.devRef .tc main_arg16)
    _ = W17 m c (Proc.devRef .tc main_arg16) := W18_of_ne m c main_arg16 (by decide)
    _ = W16 m c (Proc.devRef .tc main_arg16) := StableHlo.after_of_writes_sub hostOps8 _ hostOps8_writes (by decide : main_arg16 ∉ hostOps8_W)
    _ = W15 m c (Proc.devRef .tc main_arg16) := W16_of_ne m c main_arg16 (by decide)
    _ = W14 m c (Proc.devRef .tc main_arg16) := StableHlo.after_of_writes_sub hostOps7 _ hostOps7_writes (by decide : main_arg16 ∉ hostOps7_W)
    _ = W13 m c (Proc.devRef .tc main_arg16) := W14_of_ne m c main_arg16 (by decide)
    _ = W12 m c (Proc.devRef .tc main_arg16) := StableHlo.after_of_writes_sub hostOps6 _ hostOps6_writes (by decide : main_arg16 ∉ hostOps6_W)
    _ = W11 m c (Proc.devRef .tc main_arg16) := W12_of_ne m c main_arg16 (by decide)
    _ = W10 m c (Proc.devRef .tc main_arg16) := StableHlo.after_of_writes_sub hostOps5 _ hostOps5_writes (by decide : main_arg16 ∉ hostOps5_W)
    _ = W9 m c (Proc.devRef .tc main_arg16) := W10_of_ne m c main_arg16 (by decide)
    _ = W8 m c (Proc.devRef .tc main_arg16) := StableHlo.after_of_writes_sub hostOps4 _ hostOps4_writes (by decide : main_arg16 ∉ hostOps4_W)
    _ = W7 m c (Proc.devRef .tc main_arg16) := W8_of_ne m c main_arg16 (by decide)
    _ = W6 m c (Proc.devRef .tc main_arg16) := StableHlo.after_of_writes_sub hostOps3 _ hostOps3_writes (by decide : main_arg16 ∉ hostOps3_W)
    _ = W5 m c (Proc.devRef .tc main_arg16) := W6_of_ne m c main_arg16 (by decide)
    _ = W4 m c (Proc.devRef .tc main_arg16) := StableHlo.after_of_writes_sub hostOps2 _ hostOps2_writes (by decide : main_arg16 ∉ hostOps2_W)
    _ = W3 m c (Proc.devRef .tc main_arg16) := W4_of_ne m c main_arg16 (by decide)
    _ = W2 m c (Proc.devRef .tc main_arg16) := StableHlo.after_of_writes_sub hostOps1 _ hostOps1_writes (by decide : main_arg16 ∉ hostOps1_W)
    _ = W1 m c (Proc.devRef .tc main_arg16) := W2_of_ne m c main_arg16 (by decide)
    _ = W0 m c (Proc.devRef .tc main_arg16) := StableHlo.after_of_writes_sub hostOps0 _ hostOps0_writes (by decide : main_arg16 ∉ hostOps0_W)
    _ = m ((c : Thread nD τ).loc main_arg16) := rfl

theorem W18_main_arg17 (c : Dev nD) : W18 m c (Proc.devRef .tc main_arg17) = m ((c : Thread nD τ).loc main_arg17) :=
  calc W18 m c (Proc.devRef .tc main_arg17)
    _ = W17 m c (Proc.devRef .tc main_arg17) := W18_of_ne m c main_arg17 (by decide)
    _ = W16 m c (Proc.devRef .tc main_arg17) := StableHlo.after_of_writes_sub hostOps8 _ hostOps8_writes (by decide : main_arg17 ∉ hostOps8_W)
    _ = W15 m c (Proc.devRef .tc main_arg17) := W16_of_ne m c main_arg17 (by decide)
    _ = W14 m c (Proc.devRef .tc main_arg17) := StableHlo.after_of_writes_sub hostOps7 _ hostOps7_writes (by decide : main_arg17 ∉ hostOps7_W)
    _ = W13 m c (Proc.devRef .tc main_arg17) := W14_of_ne m c main_arg17 (by decide)
    _ = W12 m c (Proc.devRef .tc main_arg17) := StableHlo.after_of_writes_sub hostOps6 _ hostOps6_writes (by decide : main_arg17 ∉ hostOps6_W)
    _ = W11 m c (Proc.devRef .tc main_arg17) := W12_of_ne m c main_arg17 (by decide)
    _ = W10 m c (Proc.devRef .tc main_arg17) := StableHlo.after_of_writes_sub hostOps5 _ hostOps5_writes (by decide : main_arg17 ∉ hostOps5_W)
    _ = W9 m c (Proc.devRef .tc main_arg17) := W10_of_ne m c main_arg17 (by decide)
    _ = W8 m c (Proc.devRef .tc main_arg17) := StableHlo.after_of_writes_sub hostOps4 _ hostOps4_writes (by decide : main_arg17 ∉ hostOps4_W)
    _ = W7 m c (Proc.devRef .tc main_arg17) := W8_of_ne m c main_arg17 (by decide)
    _ = W6 m c (Proc.devRef .tc main_arg17) := StableHlo.after_of_writes_sub hostOps3 _ hostOps3_writes (by decide : main_arg17 ∉ hostOps3_W)
    _ = W5 m c (Proc.devRef .tc main_arg17) := W6_of_ne m c main_arg17 (by decide)
    _ = W4 m c (Proc.devRef .tc main_arg17) := StableHlo.after_of_writes_sub hostOps2 _ hostOps2_writes (by decide : main_arg17 ∉ hostOps2_W)
    _ = W3 m c (Proc.devRef .tc main_arg17) := W4_of_ne m c main_arg17 (by decide)
    _ = W2 m c (Proc.devRef .tc main_arg17) := StableHlo.after_of_writes_sub hostOps1 _ hostOps1_writes (by decide : main_arg17 ∉ hostOps1_W)
    _ = W1 m c (Proc.devRef .tc main_arg17) := W2_of_ne m c main_arg17 (by decide)
    _ = W0 m c (Proc.devRef .tc main_arg17) := StableHlo.after_of_writes_sub hostOps0 _ hostOps0_writes (by decide : main_arg17 ∉ hostOps0_W)
    _ = m ((c : Thread nD τ).loc main_arg17) := rfl

theorem W18_main_arg18 (c : Dev nD) : W18 m c (Proc.devRef .tc main_arg18) = m ((c : Thread nD τ).loc main_arg18) :=
  calc W18 m c (Proc.devRef .tc main_arg18)
    _ = W17 m c (Proc.devRef .tc main_arg18) := W18_of_ne m c main_arg18 (by decide)
    _ = W16 m c (Proc.devRef .tc main_arg18) := StableHlo.after_of_writes_sub hostOps8 _ hostOps8_writes (by decide : main_arg18 ∉ hostOps8_W)
    _ = W15 m c (Proc.devRef .tc main_arg18) := W16_of_ne m c main_arg18 (by decide)
    _ = W14 m c (Proc.devRef .tc main_arg18) := StableHlo.after_of_writes_sub hostOps7 _ hostOps7_writes (by decide : main_arg18 ∉ hostOps7_W)
    _ = W13 m c (Proc.devRef .tc main_arg18) := W14_of_ne m c main_arg18 (by decide)
    _ = W12 m c (Proc.devRef .tc main_arg18) := StableHlo.after_of_writes_sub hostOps6 _ hostOps6_writes (by decide : main_arg18 ∉ hostOps6_W)
    _ = W11 m c (Proc.devRef .tc main_arg18) := W12_of_ne m c main_arg18 (by decide)
    _ = W10 m c (Proc.devRef .tc main_arg18) := StableHlo.after_of_writes_sub hostOps5 _ hostOps5_writes (by decide : main_arg18 ∉ hostOps5_W)
    _ = W9 m c (Proc.devRef .tc main_arg18) := W10_of_ne m c main_arg18 (by decide)
    _ = W8 m c (Proc.devRef .tc main_arg18) := StableHlo.after_of_writes_sub hostOps4 _ hostOps4_writes (by decide : main_arg18 ∉ hostOps4_W)
    _ = W7 m c (Proc.devRef .tc main_arg18) := W8_of_ne m c main_arg18 (by decide)
    _ = W6 m c (Proc.devRef .tc main_arg18) := StableHlo.after_of_writes_sub hostOps3 _ hostOps3_writes (by decide : main_arg18 ∉ hostOps3_W)
    _ = W5 m c (Proc.devRef .tc main_arg18) := W6_of_ne m c main_arg18 (by decide)
    _ = W4 m c (Proc.devRef .tc main_arg18) := StableHlo.after_of_writes_sub hostOps2 _ hostOps2_writes (by decide : main_arg18 ∉ hostOps2_W)
    _ = W3 m c (Proc.devRef .tc main_arg18) := W4_of_ne m c main_arg18 (by decide)
    _ = W2 m c (Proc.devRef .tc main_arg18) := StableHlo.after_of_writes_sub hostOps1 _ hostOps1_writes (by decide : main_arg18 ∉ hostOps1_W)
    _ = W1 m c (Proc.devRef .tc main_arg18) := W2_of_ne m c main_arg18 (by decide)
    _ = W0 m c (Proc.devRef .tc main_arg18) := StableHlo.after_of_writes_sub hostOps0 _ hostOps0_writes (by decide : main_arg18 ∉ hostOps0_W)
    _ = m ((c : Thread nD τ).loc main_arg18) := rfl

/-- The frame claim's statement at any float instance. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_arg0 (by decide))).trans (W18_main_arg0 m c),
     (h c _ (mem_uc main_arg1 (by decide))).trans (W18_main_arg1 m c),
     (h c _ (mem_uc main_arg2 (by decide))).trans (W18_main_arg2 m c),
     (h c _ (mem_uc main_arg3 (by decide))).trans (W18_main_arg3 m c),
     (h c _ (mem_uc main_arg4 (by decide))).trans (W18_main_arg4 m c),
     (h c _ (mem_uc main_arg5 (by decide))).trans (W18_main_arg5 m c),
     (h c _ (mem_uc main_arg6 (by decide))).trans (W18_main_arg6 m c),
     (h c _ (mem_uc main_arg7 (by decide))).trans (W18_main_arg7 m c),
     (h c _ (mem_uc main_arg8 (by decide))).trans (W18_main_arg8 m c),
     (h c _ (mem_uc main_arg9 (by decide))).trans (W18_main_arg9 m c),
     (h c _ (mem_uc main_arg10 (by decide))).trans (W18_main_arg10 m c),
     (h c _ (mem_uc main_arg11 (by decide))).trans (W18_main_arg11 m c),
     (h c _ (mem_uc main_arg12 (by decide))).trans (W18_main_arg12 m c),
     (h c _ (mem_uc main_arg13 (by decide))).trans (W18_main_arg13 m c),
     (h c _ (mem_uc main_arg14 (by decide))).trans (W18_main_arg14 m c),
     (h c _ (mem_uc main_arg15 (by decide))).trans (W18_main_arg15 m c),
     (h c _ (mem_uc main_arg16 (by decide))).trans (W18_main_arg16 m c),
     (h c _ (mem_uc main_arg17 (by decide))).trans (W18_main_arg17 m c),
     (h c _ (mem_uc main_arg18 (by decide))).trans (W18_main_arg18 m c)⟩)
    (run_main m ρ)

end Cert.KernelIdeal.Hand

end
-- ==== Proof.KernelKeep.lean ====
/-
  Steps of the walk through the boundaries: a host stretch leaves every buffer it does not write as entered; a region
  leaves an input window's array as entered.
-/
import proofs.«146613_j41781441855727_2_alg».proof.Proof.KernelRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

theorem hostKeep0 (c : Dev nD) (r : Ref sig .tc) (h : r ∉ hostOps0_W) : W1 m c (Proc.devRef .tc r) = W0 m c (Proc.devRef .tc r) :=
  StableHlo.after_of_writes_sub hostOps0 _ hostOps0_writes h
theorem regIn0 (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
theorem hostKeep1 (c : Dev nD) (r : Ref sig .tc) (h : r ∉ hostOps1_W) : W3 m c (Proc.devRef .tc r) = W2 m c (Proc.devRef .tc r) :=
  StableHlo.after_of_writes_sub hostOps1 _ hostOps1_writes h
theorem regIn1 (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))
theorem hostKeep2 (c : Dev nD) (r : Ref sig .tc) (h : r ∉ hostOps2_W) : W5 m c (Proc.devRef .tc r) = W4 m c (Proc.devRef .tc r) :=
  StableHlo.after_of_writes_sub hostOps2 _ hostOps2_writes h
theorem regIn2 (c : Dev nD) (w : Fin cfg2.W) (hw : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hw _).trans (A_eq2 (V5 m) c w))
theorem hostKeep3 (c : Dev nD) (r : Ref sig .tc) (h : r ∉ hostOps3_W) : W7 m c (Proc.devRef .tc r) = W6 m c (Proc.devRef .tc r) :=
  StableHlo.after_of_writes_sub hostOps3 _ hostOps3_writes h
theorem regIn3 (c : Dev nD) (w : Fin cfg3.W) (hw : (cfg3.win w).isOut = false) :
    W8 m c (Proc.devRef .tc (Pipeline.arrRef spec3 w)) = W7 m c (Proc.devRef .tc (Pipeline.arrRef spec3 w)) :=
  (W8_arr m c w).trans (((dat3 (V7 m) c).arrAt_in w hw _).trans (A_eq3 (V7 m) c w))
theorem hostKeep4 (c : Dev nD) (r : Ref sig .tc) (h : r ∉ hostOps4_W) : W9 m c (Proc.devRef .tc r) = W8 m c (Proc.devRef .tc r) :=
  StableHlo.after_of_writes_sub hostOps4 _ hostOps4_writes h
theorem regIn4 (c : Dev nD) (w : Fin cfg4.W) (hw : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hw _).trans (A_eq4 (V9 m) c w))
theorem hostKeep5 (c : Dev nD) (r : Ref sig .tc) (h : r ∉ hostOps5_W) : W11 m c (Proc.devRef .tc r) = W10 m c (Proc.devRef .tc r) :=
  StableHlo.after_of_writes_sub hostOps5 _ hostOps5_writes h
theorem regIn5 (c : Dev nD) (w : Fin cfg5.W) (hw : (cfg5.win w).isOut = false) :
    W12 m c (Proc.devRef .tc (Pipeline.arrRef spec5 w)) = W11 m c (Proc.devRef .tc (Pipeline.arrRef spec5 w)) :=
  (W12_arr m c w).trans (((dat5 (V11 m) c).arrAt_in w hw _).trans (A_eq5 (V11 m) c w))
theorem hostKeep6 (c : Dev nD) (r : Ref sig .tc) (h : r ∉ hostOps6_W) : W13 m c (Proc.devRef .tc r) = W12 m c (Proc.devRef .tc r) :=
  StableHlo.after_of_writes_sub hostOps6 _ hostOps6_writes h
theorem regIn6 (c : Dev nD) (w : Fin cfg6.W) (hw : (cfg6.win w).isOut = false) :
    W14 m c (Proc.devRef .tc (Pipeline.arrRef spec6 w)) = W13 m c (Proc.devRef .tc (Pipeline.arrRef spec6 w)) :=
  (W14_arr m c w).trans (((dat6 (V13 m) c).arrAt_in w hw _).trans (A_eq6 (V13 m) c w))
theorem hostKeep7 (c : Dev nD) (r : Ref sig .tc) (h : r ∉ hostOps7_W) : W15 m c (Proc.devRef .tc r) = W14 m c (Proc.devRef .tc r) :=
  StableHlo.after_of_writes_sub hostOps7 _ hostOps7_writes h
theorem regIn7 (c : Dev nD) (w : Fin cfg7.W) (hw : (cfg7.win w).isOut = false) :
    W16 m c (Proc.devRef .tc (Pipeline.arrRef spec7 w)) = W15 m c (Proc.devRef .tc (Pipeline.arrRef spec7 w)) :=
  (W16_arr m c w).trans (((dat7 (V15 m) c).arrAt_in w hw _).trans (A_eq7 (V15 m) c w))
theorem hostKeep8 (c : Dev nD) (r : Ref sig .tc) (h : r ∉ hostOps8_W) : W17 m c (Proc.devRef .tc r) = W16 m c (Proc.devRef .tc r) :=
  StableHlo.after_of_writes_sub hostOps8 _ hostOps8_writes h
theorem regIn8 (c : Dev nD) (w : Fin cfg8.W) (hw : (cfg8.win w).isOut = false) :
    W18 m c (Proc.devRef .tc (Pipeline.arrRef spec8 w)) = W17 m c (Proc.devRef .tc (Pipeline.arrRef spec8 w)) :=
  (W18_arr m c w).trans (((dat8 (V17 m) c).arrAt_in w hw _).trans (A_eq8 (V17 m) c w))

end Cert.KernelIdeal.Hand

end
-- ==== Proof.RefDefs.lean ====
/-
  The reference program's three stages as pure terms of its arguments.

  Each stage gathers rows of its input by an index array, multiplies them by nine matrices (one per offset), adds every
  product row into the output row a second index array names, and normalises the sums column by column: less the column
  mean, times the reciprocal square root of the column variance plus a small constant, times `gamma`, plus `beta`, plus a
  residual. The sub-terms are named one by one, in the order the operations are written in the program; every operation
  and constant is left as the program writes it (nothing is evaluated or simplified). All definitions are generic in
  the float values `F`.
-/
import proofs.«146613_j41781441855727_2_alg».proof.ReferenceIdeal
import proofs.«146613_j41781441855727_2_alg».proof.Proof.Gen.ReferenceIdeal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-! ## Stage 3: rows of width 128 gathered, multiplied by nine matrices, summed into 160000 rows, normalised -/

/-- The row numbers to gather: an entry below zero counts from the end of the 40000 rows (`i + 40000`), the others are
    themselves; a trailing unit axis is added. -/
def gatherIdx3 (iin : IVec S9x40000 32) : IVec S9x40000x1 32 :=
  broadcastInDim S9x40000x1 ![0, 1] bcast_S9x40000_S9x40000x1_0_1
    (select (cmpi .slt iin (broadcastInDim S9x40000 ![] bcast_S_S9x40000 (constantI S_ 32 0#32)))
      (addi iin (broadcastInDim S9x40000 ![] bcast_S_S9x40000 (constantI S_ 32 40000#32))) iin)

/-- The gathered rows `x[iin]`, one row of `x` per entry of the index array. -/
def gathered3 (x : FVec F S40000x128 .f32) (iin : IVec S9x40000 32) : FVec F S9x40000x128 .f32 :=
  Host.gather gather_S40000x128_S9x40000x1_S9x40000x128_2_0_n_n_0_2_1128 x (gatherIdx3 iin)

/-- The contributions: for each of the nine offsets, the gathered rows times that offset's matrix. -/
def contrib3 (x : FVec F S40000x128 .f32) (W : FVec F S9x128x64 .f32) (iin : IVec S9x40000 32) : FVec F S9x40000x64 .f32 :=
  Host.dotGeneral dot_S9x40000x128_S9x128x64_S9x40000x64_2_1_1_2_0_0 none (gathered3 x iin) W

/-- The output row numbers in one line, row-major. -/
def flatIdx3 (iout : IVec S9x40000 32) : IVec S360000 32 :=
  fun i => shapeCast S360000 iout shapeCasts_S9x40000_S360000 i

/-- The rows to add into: an entry below zero counts from the end of the 160000 rows, the others are themselves; a trailing
    unit axis is added. -/
def scatterIdx3 (iout : IVec S9x40000 32) : IVec S360000x1 32 :=
  broadcastInDim S360000x1 ![0] bcast_S360000_S360000x1_0
    (select (cmpi .slt (flatIdx3 iout) (broadcastInDim S360000 ![] bcast_S_S360000 (constantI S_ 32 0#32)))
      (addi (flatIdx3 iout) (broadcastInDim S360000 ![] bcast_S_S360000 (constantI S_ 32 160000#32))) (flatIdx3 iout))

/-- The contributions as one list of rows, row-major. -/
def flatContrib3 (u : FVec F S9x40000x64 .f32) : FVec F S360000x64 .f32 :=
  fun i => shapeCast S360000x64 u shapeCasts_S9x40000x64_S360000x64 i

/-- The array of zeros the sums start from. -/
def zeros3 : FVec F S160000x64 .f32 :=
  broadcastInDim S160000x64 ![] bcast_S_S160000x64 (constant S_ .f32 0x00000000#32)

/-- The scattered sums: every contribution row added into the output row its index names. -/
def scattered3 (x : FVec F S40000x128 .f32) (W : FVec F S9x128x64 .f32) (iin iout : IVec S9x40000 32) : FVec F S160000x64 .f32 :=
  Host.scatterAdd scatter_S160000x64_S360000x1_S360000x64_1_0_0_1 zeros3 (scatterIdx3 iout) (flatContrib3 (contrib3 x W iin))

/-- The column means: each column's sum over the 160000 rows, divided by their number. -/
def mean3 (s : FVec F S160000x64 .f32) : FVec F S64 .f32 :=
  Host.divf (Host.reduceAdd s (constant S_ .f32 0x00000000#32) reducesTo_S160000x64_S64_d0 h_S_)
    (broadcastInDim S64 ![] bcast_S_S64 (constant S_ .f32 0x481C4000#32))

/-- Inside the variance: the column means again (computed with a kept unit axis), spread over the rows. -/
def varMean3 (s : FVec F S160000x64 .f32) : FVec F S160000x64 .f32 :=
  broadcastInDim S160000x64 ![0, 1] bcast_S1x64_S160000x64_0_1
    (Host.divf
      (broadcastInDim S1x64 ![1] bcast_S64_S1x64_1 (Host.reduceAdd s (constant S_ .f32 0x00000000#32) reducesTo_S160000x64_S64_d0 h_S_))
      (broadcastInDim S1x64 ![] bcast_S_S1x64 (constant S_ .f32 0x481C4000#32)))

/-- Inside the variance: the deviations from the column means. -/
def varDev3 (s : FVec F S160000x64 .f32) : FVec F S160000x64 .f32 :=
  subf s (varMean3 s)

/-- Inside the variance: the divisor, the number of rows less the correction (zero here, converted from an integer). -/
def varCount3 : FVec F S_ .f32 :=
  subf (constant S_ .f32 0x481C4000#32) (sitofp .f32 (constantI S_ 32 0#32))

/-- The column variances: the squared deviations summed over the rows and divided by the divisor where the divisor is
    positive, the not-a-number constant elsewhere. -/
def var3 (s : FVec F S160000x64 .f32) : FVec F S64 .f32 :=
  select (broadcastInDim S64 ![] bcast_S_S64 (cmpf .ogt (varCount3 (F := F)) (constant S_ .f32 0x00000000#32)))
    (Host.divf (Host.reduceAdd (mulf (varDev3 s) (varDev3 s)) (constant S_ .f32 0x00000000#32) reducesTo_S160000x64_S64_d0 h_S_)
      (broadcastInDim S64 ![] bcast_S_S64 (varCount3 (F := F))))
    (broadcastInDim S64 ![] bcast_S_S64 (id (constant S_ .f32 0x7FC00000#32)))

/-- A column vector spread over the rows. -/
def rowBcast3 (v : FVec F S64 .f32) : FVec F S160000x64 .f32 :=
  broadcastInDim S160000x64 ![0, 1] bcast_S1x64_S160000x64_0_1 (broadcastInDim S1x64 ![1] bcast_S64_S1x64_1 v)

/-- The tail: the sums less their column means, times the reciprocal square root of the column variances plus the small
    constant, times `gamma`, plus `beta`, plus the residual `skip`. -/
def tail3 (s : FVec F S160000x64 .f32) (gamma beta : FVec F S64 .f32) (skip : FVec F S160000x64 .f32) : FVec F S160000x64 .f32 :=
  addf
    (addf
      (mulf
        (mulf (subf s (rowBcast3 (mean3 s)))
          (rowBcast3 (Host.rsqrt (addf (var3 s) (broadcastInDim S64 ![] bcast_S_S64 (constant S_ .f32 0x3727C5AC#32))))))
        (rowBcast3 gamma))
      (rowBcast3 beta))
    skip

/-- Stage 3 as one term of its seven arguments. -/
def stage3 (x : FVec F S40000x128 .f32) (W : FVec F S9x128x64 .f32) (iin iout : IVec S9x40000 32) (gamma beta : FVec F S64 .f32)
    (skip : FVec F S160000x64 .f32) : FVec F S160000x64 .f32 :=
  tail3 (scattered3 x W iin iout) gamma beta skip

/-! ## Stage 2: rows of width 64 gathered, multiplied by nine matrices, summed into 640000 rows, normalised -/

/-- The row numbers to gather: an entry below zero counts from the end of the 160000 rows (`i + 160000`), the others are
    themselves; a trailing unit axis is added. -/
def gatherIdx2 (iin : IVec S9x160000 32) : IVec S9x160000x1 32 :=
  broadcastInDim S9x160000x1 ![0, 1] bcast_S9x160000_S9x160000x1_0_1
    (select (cmpi .slt iin (broadcastInDim S9x160000 ![] bcast_S_S9x160000 (constantI S_ 32 0#32)))
      (addi iin (broadcastInDim S9x160000 ![] bcast_S_S9x160000 (constantI S_ 32 160000#32))) iin)

/-- The gathered rows `x[iin]`, one row of `x` per entry of the index array. -/
def gathered2 (x : FVec F S160000x64 .f32) (iin : IVec S9x160000 32) : FVec F S9x160000x64 .f32 :=
  Host.gather gather_S160000x64_S9x160000x1_S9x160000x64_2_0_n_n_0_2_164 x (gatherIdx2 iin)

/-- The contributions: for each of the nine offsets, the gathered rows times that offset's matrix. -/
def contrib2 (x : FVec F S160000x64 .f32) (W : FVec F S9x64x32 .f32) (iin : IVec S9x160000 32) : FVec F S9x160000x32 .f32 :=
  Host.dotGeneral dot_S9x160000x64_S9x64x32_S9x160000x32_2_1_1_2_0_0 none (gathered2 x iin) W

/-- The output row numbers in one line, row-major. -/
def flatIdx2 (iout : IVec S9x160000 32) : IVec S1440000 32 :=
  fun i => shapeCast S1440000 iout shapeCasts_S9x160000_S1440000 i

/-- The rows to add into: an entry below zero counts from the end of the 640000 rows, the others are themselves; a trailing
    unit axis is added. -/
def scatterIdx2 (iout : IVec S9x160000 32) : IVec S1440000x1 32 :=
  broadcastInDim S1440000x1 ![0] bcast_S1440000_S1440000x1_0
    (select (cmpi .slt (flatIdx2 iout) (broadcastInDim S1440000 ![] bcast_S_S1440000 (constantI S_ 32 0#32)))
      (addi (flatIdx2 iout) (broadcastInDim S1440000 ![] bcast_S_S1440000 (constantI S_ 32 640000#32))) (flatIdx2 iout))

/-- The contributions as one list of rows, row-major. -/
def flatContrib2 (u : FVec F S9x160000x32 .f32) : FVec F S1440000x32 .f32 :=
  fun i => shapeCast S1440000x32 u shapeCasts_S9x160000x32_S1440000x32 i

/-- The array of zeros the sums start from. -/
def zeros2 : FVec F S640000x32 .f32 :=
  broadcastInDim S640000x32 ![] bcast_S_S640000x32 (constant S_ .f32 0x00000000#32)

/-- The scattered sums: every contribution row added into the output row its index names. -/
def scattered2 (x : FVec F S160000x64 .f32) (W : FVec F S9x64x32 .f32) (iin iout : IVec S9x160000 32) : FVec F S640000x32 .f32 :=
  Host.scatterAdd scatter_S640000x32_S1440000x1_S1440000x32_1_0_0_1 zeros2 (scatterIdx2 iout) (flatContrib2 (contrib2 x W iin))

/-- The column means: each column's sum over the 640000 rows, divided by their number. -/
def mean2 (s : FVec F S640000x32 .f32) : FVec F S32 .f32 :=
  Host.divf (Host.reduceAdd s (constant S_ .f32 0x00000000#32) reducesTo_S640000x32_S32_d0 h_S_)
    (broadcastInDim S32 ![] bcast_S_S32 (constant S_ .f32 0x491C4000#32))

/-- Inside the variance: the column means again (computed with a kept unit axis), spread over the rows. -/
def varMean2 (s : FVec F S640000x32 .f32) : FVec F S640000x32 .f32 :=
  broadcastInDim S640000x32 ![0, 1] bcast_S1x32_S640000x32_0_1
    (Host.divf
      (broadcastInDim S1x32 ![1] bcast_S32_S1x32_1 (Host.reduceAdd s (constant S_ .f32 0x00000000#32) reducesTo_S640000x32_S32_d0 h_S_))
      (broadcastInDim S1x32 ![] bcast_S_S1x32 (constant S_ .f32 0x491C4000#32)))

/-- Inside the variance: the deviations from the column means. -/
def varDev2 (s : FVec F S640000x32 .f32) : FVec F S640000x32 .f32 :=
  subf s (varMean2 s)

/-- Inside the variance: the divisor, the number of rows less the correction (zero here, converted from an integer). -/
def varCount2 : FVec F S_ .f32 :=
  subf (constant S_ .f32 0x491C4000#32) (sitofp .f32 (constantI S_ 32 0#32))

/-- The column variances: the squared deviations summed over the rows and divided by the divisor where the divisor is
    positive, the not-a-number constant elsewhere. -/
def var2 (s : FVec F S640000x32 .f32) : FVec F S32 .f32 :=
  select (broadcastInDim S32 ![] bcast_S_S32 (cmpf .ogt (varCount2 (F := F)) (constant S_ .f32 0x00000000#32)))
    (Host.divf (Host.reduceAdd (mulf (varDev2 s) (varDev2 s)) (constant S_ .f32 0x00000000#32) reducesTo_S640000x32_S32_d0 h_S_)
      (broadcastInDim S32 ![] bcast_S_S32 (varCount2 (F := F))))
    (broadcastInDim S32 ![] bcast_S_S32 (id (constant S_ .f32 0x7FC00000#32)))

/-- A column vector spread over the rows. -/
def rowBcast2 (v : FVec F S32 .f32) : FVec F S640000x32 .f32 :=
  broadcastInDim S640000x32 ![0, 1] bcast_S1x32_S640000x32_0_1 (broadcastInDim S1x32 ![1] bcast_S32_S1x32_1 v)

/-- The tail: the sums less their column means, times the reciprocal square root of the column variances plus the small
    constant, times `gamma`, plus `beta`, plus the residual `skip`. -/
def tail2 (s : FVec F S640000x32 .f32) (gamma beta : FVec F S32 .f32) (skip : FVec F S640000x32 .f32) : FVec F S640000x32 .f32 :=
  addf
    (addf
      (mulf
        (mulf (subf s (rowBcast2 (mean2 s)))
          (rowBcast2 (Host.rsqrt (addf (var2 s) (broadcastInDim S32 ![] bcast_S_S32 (constant S_ .f32 0x3727C5AC#32))))))
        (rowBcast2 gamma))
      (rowBcast2 beta))
    skip

/-- Stage 2 as one term of its seven arguments. -/
def stage2 (x : FVec F S160000x64 .f32) (W : FVec F S9x64x32 .f32) (iin iout : IVec S9x160000 32) (gamma beta : FVec F S32 .f32)
    (skip : FVec F S640000x32 .f32) : FVec F S640000x32 .f32 :=
  tail2 (scattered2 x W iin iout) gamma beta skip

/-! ## Stage 1: rows of width 32 gathered, multiplied by nine matrices, summed into 2560000 rows, normalised -/

/-- The row numbers to gather: an entry below zero counts from the end of the 640000 rows (`i + 640000`), the others are
    themselves; a trailing unit axis is added. -/
def gatherIdx1 (iin : IVec S9x640000 32) : IVec S9x640000x1 32 :=
  broadcastInDim S9x640000x1 ![0, 1] bcast_S9x640000_S9x640000x1_0_1
    (select (cmpi .slt iin (broadcastInDim S9x640000 ![] bcast_S_S9x640000 (constantI S_ 32 0#32)))
      (addi iin (broadcastInDim S9x640000 ![] bcast_S_S9x640000 (constantI S_ 32 640000#32))) iin)

/-- The gathered rows `x[iin]`, one row of `x` per entry of the index array. -/
def gathered1 (x : FVec F S640000x32 .f32) (iin : IVec S9x640000 32) : FVec F S9x640000x32 .f32 :=
  Host.gather gather_S640000x32_S9x640000x1_S9x640000x32_2_0_n_n_0_2_132 x (gatherIdx1 iin)

/-- The contributions: for each of the nine offsets, the gathered rows times that offset's matrix. -/
def contrib1 (x : FVec F S640000x32 .f32) (W : FVec F S9x32x32 .f32) (iin : IVec S9x640000 32) : FVec F S9x640000x32 .f32 :=
  Host.dotGeneral dot_S9x640000x32_S9x32x32_S9x640000x32_2_1_1_2_0_0 none (gathered1 x iin) W

/-- The output row numbers in one line, row-major. -/
def flatIdx1 (iout : IVec S9x640000 32) : IVec S5760000 32 :=
  fun i => shapeCast S5760000 iout shapeCasts_S9x640000_S5760000 i

/-- The rows to add into: an entry below zero counts from the end of the 2560000 rows, the others are themselves; a trailing
    unit axis is added. -/
def scatterIdx1 (iout : IVec S9x640000 32) : IVec S5760000x1 32 :=
  broadcastInDim S5760000x1 ![0] bcast_S5760000_S5760000x1_0
    (select (cmpi .slt (flatIdx1 iout) (broadcastInDim S5760000 ![] bcast_S_S5760000 (constantI S_ 32 0#32)))
      (addi (flatIdx1 iout) (broadcastInDim S5760000 ![] bcast_S_S5760000 (constantI S_ 32 2560000#32))) (flatIdx1 iout))

/-- The contributions as one list of rows, row-major. -/
def flatContrib1 (u : FVec F S9x640000x32 .f32) : FVec F S5760000x32 .f32 :=
  fun i => shapeCast S5760000x32 u shapeCasts_S9x640000x32_S5760000x32 i

/-- The array of zeros the sums start from. -/
def zeros1 : FVec F S2560000x32 .f32 :=
  broadcastInDim S2560000x32 ![] bcast_S_S2560000x32 (constant S_ .f32 0x00000000#32)

/-- The scattered sums: every contribution row added into the output row its index names. -/
def scattered1 (x : FVec F S640000x32 .f32) (W : FVec F S9x32x32 .f32) (iin iout : IVec S9x640000 32) : FVec F S2560000x32 .f32 :=
  Host.scatterAdd scatter_S2560000x32_S5760000x1_S5760000x32_1_0_0_1 zeros1 (scatterIdx1 iout) (flatContrib1 (contrib1 x W iin))

/-- The column means: each column's sum over the 2560000 rows, divided by their number. -/
def mean1 (s : FVec F S2560000x32 .f32) : FVec F S32 .f32 :=
  Host.divf (Host.reduceAdd s (constant S_ .f32 0x00000000#32) reducesTo_S2560000x32_S32_d0 h_S_)
    (broadcastInDim S32 ![] bcast_S_S32 (constant S_ .f32 0x4A1C4000#32))

/-- Inside the variance: the column means again (computed with a kept unit axis), spread over the rows. -/
def varMean1 (s : FVec F S2560000x32 .f32) : FVec F S2560000x32 .f32 :=
  broadcastInDim S2560000x32 ![0, 1] bcast_S1x32_S2560000x32_0_1
    (Host.divf
      (broadcastInDim S1x32 ![1] bcast_S32_S1x32_1 (Host.reduceAdd s (constant S_ .f32 0x00000000#32) reducesTo_S2560000x32_S32_d0 h_S_))
      (broadcastInDim S1x32 ![] bcast_S_S1x32 (constant S_ .f32 0x4A1C4000#32)))

/-- Inside the variance: the deviations from the column means. -/
def varDev1 (s : FVec F S2560000x32 .f32) : FVec F S2560000x32 .f32 :=
  subf s (varMean1 s)

/-- Inside the variance: the divisor, the number of rows less the correction (zero here, converted from an integer). -/
def varCount1 : FVec F S_ .f32 :=
  subf (constant S_ .f32 0x4A1C4000#32) (sitofp .f32 (constantI S_ 32 0#32))

/-- The column variances: the squared deviations summed over the rows and divided by the divisor where the divisor is
    positive, the not-a-number constant elsewhere. -/
def var1 (s : FVec F S2560000x32 .f32) : FVec F S32 .f32 :=
  select (broadcastInDim S32 ![] bcast_S_S32 (cmpf .ogt (varCount1 (F := F)) (constant S_ .f32 0x00000000#32)))
    (Host.divf (Host.reduceAdd (mulf (varDev1 s) (varDev1 s)) (constant S_ .f32 0x00000000#32) reducesTo_S2560000x32_S32_d0 h_S_)
      (broadcastInDim S32 ![] bcast_S_S32 (varCount1 (F := F))))
    (broadcastInDim S32 ![] bcast_S_S32 (id (constant S_ .f32 0x7FC00000#32)))

/-- A column vector spread over the rows. -/
def rowBcast1 (v : FVec F S32 .f32) : FVec F S2560000x32 .f32 :=
  broadcastInDim S2560000x32 ![0, 1] bcast_S1x32_S2560000x32_0_1 (broadcastInDim S1x32 ![1] bcast_S32_S1x32_1 v)

/-- The tail: the sums less their column means, times the reciprocal square root of the column variances plus the small
    constant, times `gamma`, plus `beta`, plus the residual `skip`. -/
def tail1 (s : FVec F S2560000x32 .f32) (gamma beta : FVec F S32 .f32) (skip : FVec F S2560000x32 .f32) : FVec F S2560000x32 .f32 :=
  addf
    (addf
      (mulf
        (mulf (subf s (rowBcast1 (mean1 s)))
          (rowBcast1 (Host.rsqrt (addf (var1 s) (broadcastInDim S32 ![] bcast_S_S32 (constant S_ .f32 0x3727C5AC#32))))))
        (rowBcast1 gamma))
      (rowBcast1 beta))
    skip

/-- Stage 1 as one term of its seven arguments. -/
def stage1 (x : FVec F S640000x32 .f32) (W : FVec F S9x32x32 .f32) (iin iout : IVec S9x640000 32) (gamma beta : FVec F S32 .f32)
    (skip : FVec F S2560000x32 .f32) : FVec F S2560000x32 .f32 :=
  tail1 (scattered1 x W iin iout) gamma beta skip

end Cert.ReferenceIdeal.RefRun

end
-- ==== Proof.KHost3.lean ====
/-
  Stage 3 of the kernel program, the host side: what the host stretches of the stage write, read off an arbitrary entry
  valuation — the gathered rows, the (format-changed) weights, the scattered sums, the reshaped scale and shift rows — are the
  reference's own terms of the same operands (a change of float format is the identity on the extended reals); and which
  buffers each boundary keeps from an earlier one.
-/
import proofs.«146613_j41781441855727_2_alg».proof.Proof.KernelKeep
import proofs.«146613_j41781441855727_2_alg».proof.Proof.RefDefs
import Idealize.ShloMosaic.Lib.StableHlo.Run
import Idealize.ShloMosaic.PureOps.Ideal
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL Idealize.SL.Sem
open Cert.ReferenceIdeal.RefRun

/-! ## The host stretches' results over an arbitrary entry valuation -/

theorem host0_g (Win : Valuation τ sig (Elt Ideal)) :
    (StableHlo.after (hostOps0 (F := Ideal)) Win (Proc.devRef .tc main_v8) : Cert.ReferenceIdeal.S9x40000x128.Idx → EReal)
      = gathered3 (F := Ideal) (Win (Proc.devRef .tc main_arg0)) (Win (Proc.devRef .tc main_arg13)) := by
  after_results_simp
  rfl

theorem host0_w (Win : Valuation τ sig (Elt Ideal)) :
    (StableHlo.after (hostOps0 (F := Ideal)) Win (Proc.devRef .tc main_v1) : Cert.ReferenceIdeal.S9x128x64.Idx → EReal)
      = (Win (Proc.devRef .tc main_arg4) : Cert.ReferenceIdeal.S9x128x64.Idx → EReal) := by
  after_results_simp
  rfl

set_option maxHeartbeats 1000000 in
theorem host1_scat (Win : Valuation τ sig (Elt Ideal)) :
    (StableHlo.after (hostOps1 (F := Ideal)) Win (Proc.devRef .tc main_v19) : Cert.ReferenceIdeal.S160000x64.Idx → EReal)
      = Host.scatterAdd (F := Ideal) Cert.ReferenceIdeal.scatter_S160000x64_S360000x1_S360000x64_1_0_0_1 (zeros3 (F := Ideal))
          (scatterIdx3 (Win (Proc.devRef .tc main_arg14))) (flatContrib3 (F := Ideal) (Win (Proc.devRef .tc main_v9))) := by
  after_results_simp
  rfl

theorem host2_gamma (Win : Valuation τ sig (Elt Ideal)) (i : Cert.ReferenceIdeal.S1x64.Idx) :
    (StableHlo.after (hostOps2 (F := Ideal)) Win (Proc.devRef .tc main_v21) : Cert.ReferenceIdeal.S1x64.Idx → EReal) i
      = shapeCast Cert.ReferenceIdeal.S1x64 (Win (Proc.devRef .tc main_arg7) : Cert.ReferenceIdeal.S64.Idx → EReal) Cert.KernelIdeal.Facts₀.shapeCasts_S64_S1x64 i := by
  after_results_simp
  rfl

theorem host2_beta (Win : Valuation τ sig (Elt Ideal)) (i : Cert.ReferenceIdeal.S1x64.Idx) :
    (StableHlo.after (hostOps2 (F := Ideal)) Win (Proc.devRef .tc main_v22) : Cert.ReferenceIdeal.S1x64.Idx → EReal) i
      = shapeCast Cert.ReferenceIdeal.S1x64 (Win (Proc.devRef .tc main_arg8) : Cert.ReferenceIdeal.S64.Idx → EReal) Cert.KernelIdeal.Facts₀.shapeCasts_S64_S1x64 i := by
  after_results_simp
  rfl

/-! ## What the stage's boundaries keep -/

variable (m : (ℓ : Loc nD τ sig) → Buf (Elt Ideal) ℓ) (c : Dev nD)

/-- The scatter indices reach the scatter as entered. -/
theorem keep3_iout : W2 m c (Proc.devRef .tc main_arg14) = W0 m c (Proc.devRef .tc main_arg14) :=
  (W2_of_ne m c main_arg14 (by decide)).trans (hostKeep0 m c main_arg14 (by decide))

/-- The scale, the shift and the residual reach the normalisation as entered. -/
theorem keep3_gamma : W4 m c (Proc.devRef .tc main_arg7) = W0 m c (Proc.devRef .tc main_arg7) :=
  (W4_of_ne m c main_arg7 (by decide)).trans ((hostKeep1 m c main_arg7 (by decide)).trans
    ((W2_of_ne m c main_arg7 (by decide)).trans (hostKeep0 m c main_arg7 (by decide))))
theorem keep3_beta : W4 m c (Proc.devRef .tc main_arg8) = W0 m c (Proc.devRef .tc main_arg8) :=
  (W4_of_ne m c main_arg8 (by decide)).trans ((hostKeep1 m c main_arg8 (by decide)).trans
    ((W2_of_ne m c main_arg8 (by decide)).trans (hostKeep0 m c main_arg8 (by decide))))
theorem keep3_skip : W5 m c (Proc.devRef .tc main_arg1) = W0 m c (Proc.devRef .tc main_arg1) :=
  (hostKeep2 m c main_arg1 (by decide)).trans ((W4_of_ne m c main_arg1 (by decide)).trans ((hostKeep1 m c main_arg1 (by decide)).trans
    ((W2_of_ne m c main_arg1 (by decide)).trans (hostKeep0 m c main_arg1 (by decide)))))
/-- The scattered sums reach the normalisation as the scatter left them: the statistics region reads them through an input
    window, the reshapes of the scale and shift do not write them. -/
theorem keep3_scat : W5 m c (Proc.devRef .tc main_v19) = W3 m c (Proc.devRef .tc main_v19) :=
  (hostKeep2 m c main_v19 (by decide)).trans (regIn1 m c 0 rfl)
theorem keep3_mean : W5 m c (Proc.devRef .tc main_v20_0) = W4 m c (Proc.devRef .tc main_v20_0) :=
  hostKeep2 m c main_v20_0 (by decide)
theorem keep3_var : W5 m c (Proc.devRef .tc main_v20_1) = W4 m c (Proc.devRef .tc main_v20_1) :=
  hostKeep2 m c main_v20_1 (by decide)

end Cert.KernelIdeal.HandValue

end
-- ==== Proof.LibDotRows.lean ====
/-
  A plain two-dimensional matrix product read at an index.

  For dimension numbers that contract the left operand's axis 1 with the right operand's axis 0 and have no batch
  axis — rows × contraction times contraction × columns — the contraction sum at the output index `(p, j)` is
  `∑ k, l (p, k) * r (k, j)`: the one-axis contraction index is its coordinate (`contrEquiv1`), the contracted
  coordinate of each operand index is that coordinate, and the other coordinate is the output's.
  `matmul_zero_rows` is this for a kernel's product into a zero accumulator, `dotGeneral_rows` for the host's
  `dot_general`: at the ideal instance both are that sum.
-/
import Idealize.ShloMosaic.Lib.ValueIdx
import Idealize.ShloMosaic.PureOps.Ideal.Laws

noncomputable section

namespace Cert.LibDotRows

open Idealize.ShloMosaic Idealize.ShloMosaic.ValueIdx

/-- The contraction sum of a plain product at `(p, j)` is `∑ k, l (p, k) * r (k, j)`. The hypotheses are the
    dimension numbers' facts: one contracted axis of extent `K` (`hr`, `hs`), which axes are contracted (`hlc`,
    `hrc`), and that the operands' remaining coordinates are the output's (`h00`, `h11`). -/
theorem sum_contr_rows {N K H : ℕ} (d : DotDims ⟨2, ![N, K]⟩ ⟨2, ![K, H]⟩ ⟨2, ![N, H]⟩)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : (⟨2, ![N, K]⟩ : Shape).Idx → EReal) (r : (⟨2, ![K, H]⟩ : Shape).Idx → EReal) (p : Fin N) (j : Fin H) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact h00 _ _
    | ⟨1, _⟩ => exact (d.lhsIdx_val_of_single hlc _ _).trans hk)
  have er : d.rhsIdx (ix2 p j) ((contrEquiv1 d K hr hs).symm k) = ix2 k j := funext fun a => Fin.ext (by
    match a with
    | ⟨0, _⟩ => exact (d.rhsIdx_val_of_single hrc _ _).trans hk
    | ⟨1, _⟩ => exact h11 _ _)
  rw [el, er]

/-- A kernel's plain product into the zero accumulator, at `(p, j)`, at the ideal instance. -/
theorem matmul_zero_rows {N K H : ℕ} {φ₁ φ₂ : FTy} (d : DotDims ⟨2, ![N, K]⟩ ⟨2, ![K, H]⟩ ⟨2, ![N, H]⟩)
    (prec : Option ContractPrecision)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.matmul d prec l r (constant ⟨2, ![N, H]⟩ .f32 0x00000000#32) (ix2 p j) = ∑ k : Fin K, l (ix2 p k) * r (ix2 k j) :=
  (Ideal.matmul_constant_zero_apply d prec l r (ix2 p j)).trans (sum_contr_rows d hr hs hlc hrc h00 h11 l r p j)

/-- The host's plain `dot_general` at `(p, j)`, at the ideal instance. -/
theorem dotGeneral_rows {N K H : ℕ} {φ₁ φ₂ : FTy} (d : DotDims ⟨2, ![N, K]⟩ ⟨2, ![K, H]⟩ ⟨2, ![N, H]⟩)
    (prec : Option ContractPrecision) (sched : HostSchedule)
    (hr : d.contr.rank = 1) (hs : d.contr.size ⟨0, by omega⟩ = K)
    (hlc : d.lhsContracting = [1]) (hrc : d.rhsContracting = [0])
    (h00 : ∀ (i : (⟨2, ![N, H]⟩ : Shape).Idx) (q : d.contr.Idx), (d.lhsIdx i q 0).val = (i 0).val)
    (h11 : ∀ (i : (⟨2, ![N, H]⟩ : Shape).Idx) (q : d.contr.Idx), (d.rhsIdx i q 1).val = (i 1).val)
    (l : FVec Ideal ⟨2, ![N, K]⟩ φ₁) (r : FVec Ideal ⟨2, ![K, H]⟩ φ₂) (p : Fin N) (j : Fin H) :
    FloatOps.dotGeneral d prec sched l r (ix2 p j) = ∑ k : Fin K, l (ix2 p k) * r (ix2 k j) :=
  (Ideal.dotGeneral_apply d prec sched l r (ix2 p j)).trans (sum_contr_rows d hr hs hlc hrc h00 h11 l r p j)

end Cert.LibDotRows

end
-- ==== Proof.Value0.lean ====
/-
  The value of region 0: the array the product region leaves in its output window, as one function of the two arrays it
  reads. Each grid point writes back, for every one of the nine offsets k, rows 2000 t … 2000 t + 1999 of g[k] · W[k]:
  the entry at (k, p, o) is the sum over i of g (k, p, i) * W (k, i, o). The nine slab stores of a point tile its block and
  the twenty row tiles cover the array. At the instance where floats are extended reals.
-/
import proofs.«146613_j41781441855727_2_alg».proof.Proof.Region0
import Idealize.ShloMosaic.Lib.ValueIdx
import Idealize.ShloMosaic.Lib.Pipeline.Value
import Idealize.ShloMosaic.Lib.ValueLayout
import Idealize.ShloMosaic.PureOps.Ideal.Laws
import proofs.«146613_j41781441855727_2_alg».proof.Proof.LibDotRows
set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The batched product: entry `(k, p, o)` is the sum over the contracted axis of `g (k, p, i) * w (k, i, o)`. -/
def prod0 (g : FVec Ideal S9x40000x128 .bf16) (w : FVec Ideal S9x128x64 .bf16) : FVec Ideal S9x40000x64 .f32 := fun j =>
  ∑ i : Fin 128, g (ix3 (j 0) (j 1) i) * w (ix3 (j 0) i (j 2))

/-- The same product on one block of 2000 rows. -/
def blockProd0 (x0 : FVec Ideal S9x2000x128 .bf16) (x1 : FVec Ideal S9x128x64 .bf16) : FVec Ideal S9x2000x64 .f32 := fun y =>
  ∑ i : Fin 128, x0 (ix3 (y 0) (y 1) i) * x1 (ix3 (y 0) i (y 2))

/-- One slab's value at `(u, p, o)`: the matrix product of the two slabs, into a zero accumulator, read at `(p, o)`. -/
theorem slab0_apply (a : FVec Ideal S1x2000x128 .bf16) (b : FVec Ideal S1x128x64 .bf16) (u : Fin 1) (p : Fin 2000) (o : Fin 64) :
    k0_pay4 (F := Ideal) a b (ix3 u p o) = ∑ i : Fin 128, a (ix3 (0 : Fin 1) p i) * b (ix3 (0 : Fin 1) i o) := by
  unfold k0_pay4
  refine (shapeCast_ab_1ab_apply _ _ u p o).trans ?_
  refine (Cert.LibDotRows.matmul_zero_rows dot_S2000x128_S128x64_S2000x64_1_0_0_1_n_n none rfl rfl rfl rfl
    (fun _ _ => rfl) (fun _ _ => rfl) _ _ p o).trans ?_
  refine Finset.sum_congr rfl fun i _ => ?_
  rw [shapeCast_1ab_ab_apply, shapeCast_1ab_ab_apply]

/-- The nine slab payloads are the same term. -/
theorem pay0_5 (a : FVec Ideal S1x2000x128 .bf16) (b : FVec Ideal S1x128x64 .bf16) : k0_pay5 (F := Ideal) a b = k0_pay4 a b := rfl
theorem pay0_6 (a : FVec Ideal S1x2000x128 .bf16) (b : FVec Ideal S1x128x64 .bf16) : k0_pay6 (F := Ideal) a b = k0_pay4 a b := rfl
theorem pay0_7 (a : FVec Ideal S1x2000x128 .bf16) (b : FVec Ideal S1x128x64 .bf16) : k0_pay7 (F := Ideal) a b = k0_pay4 a b := rfl
theorem pay0_8 (a : FVec Ideal S1x2000x128 .bf16) (b : FVec Ideal S1x128x64 .bf16) : k0_pay8 (F := Ideal) a b = k0_pay4 a b := rfl
theorem pay0_9 (a : FVec Ideal S1x2000x128 .bf16) (b : FVec Ideal S1x128x64 .bf16) : k0_pay9 (F := Ideal) a b = k0_pay4 a b := rfl
theorem pay0_1 (a : FVec Ideal S1x2000x128 .bf16) (b : FVec Ideal S1x128x64 .bf16) : k0_pay1 (F := Ideal) (k0_pay10 a) b = k0_pay4 a b := rfl
theorem pay0_2 (a : FVec Ideal S1x2000x128 .bf16) (b : FVec Ideal S1x128x64 .bf16) : k0_pay2 (F := Ideal) a b = k0_pay4 a b := rfl
theorem pay0_3 (a : FVec Ideal S1x2000x128 .bf16) (b : FVec Ideal S1x128x64 .bf16) : k0_pay3 (F := Ideal) a b = k0_pay4 a b := rfl

/-- Slab `k` of the block's product: the slab payload of slab `k` of the two blocks, at a slab index, is `blockProd0`
    where the slab's rectangle puts that index. -/
theorem slab0_piece (k : ℕ) (hk : k < 9) (x0 : FVec Ideal S9x2000x128 .bf16) (x1 : FVec Ideal S9x128x64 .bf16)
    (inbA : ∀ a, (![k, 0, 0] : Fin 3 → ℕ) a + S1x2000x128.size a ≤ S9x2000x128.size a)
    (inbB : ∀ a, (![k, 0, 0] : Fin 3 → ℕ) a + S1x128x64.size a ≤ S9x128x64.size a)
    (inbC : ∀ a, (![k, 0, 0] : Fin 3 → ℕ) a + S1x2000x64.size a ≤ S9x2000x64.size a)
    (x : S1x2000x64.Idx) :
    k0_pay4 (F := Ideal) (View.ld x0 (Rect.unit (s := S9x2000x128) ![k, 0, 0] S1x2000x128.size inbA))
        (View.ld x1 (Rect.unit (s := S9x128x64) ![k, 0, 0] S1x128x64.size inbB)) x
      = blockProd0 x0 x1 ((Rect.unit (s := S9x2000x64) ![k, 0, 0] S1x2000x64.size inbC).emb x) := by
  obtain ⟨u, p, o, rfl⟩ : ∃ (u : Fin 1) (p : Fin 2000) (o : Fin 64), x = ix3 u p o := ⟨x 0, x 1, x 2, eq_ix3 x⟩
  have hu : u.val = 0 := by omega
  refine (slab0_apply _ _ u p o).trans ?_
  unfold blockProd0
  refine Finset.sum_congr rfl fun i _ => ?_
  congr 1
  · refine congrArg x0 (funext fun a => Fin.ext ?_)
    match a with
    | ⟨0, _⟩ => show k + 1 * 0 = k + 1 * u.val; omega
    | ⟨1, _⟩ => show 0 + 1 * p.val = 0 + 1 * p.val; rfl
    | ⟨2, _⟩ => show 0 + 1 * i.val = i.val; omega
  · refine congrArg x1 (funext fun a => Fin.ext ?_)
    match a with
    | ⟨0, _⟩ => show k + 1 * 0 = k + 1 * u.val; omega
    | ⟨1, _⟩ => show 0 + 1 * i.val = i.val; omega
    | ⟨2, _⟩ => show 0 + 1 * o.val = 0 + 1 * o.val; rfl

/-- The block after the body is the block's product: the nine slab stores are the nine slabs of one function. -/
theorem out0_2_eq (x0 : FVec Ideal S9x2000x128 .bf16) (x1 : FVec Ideal S9x128x64 .bf16) :
    out0_2 (F := Ideal) x0 x1 = blockProd0 x0 x1 := by
  funext y
  unfold out0_2
  refine View.canon_apply_of_pieces (Val := Elt Ideal) (blockProd0 x0 x1) _ ?_ y (cover0_2 _ _ _ _ _ _ _ _ _ y)
  intro p hp
  simp only [List.mem_cons, List.not_mem_nil, or_false] at hp
  rcases hp with rfl | rfl | rfl | rfl | rfl | rfl | rfl | rfl | rfl
  · intro x; rw [pay0_3]; exact slab0_piece 8 (by omega) x0 x1 inb_S9x2000x128_S1x2000x128_8_0_0 inb_S9x128x64_S1x128x64_8_0_0 inb_S9x2000x64_S1x2000x64_8_0_0 x
  · intro x; rw [pay0_2]; exact slab0_piece 7 (by omega) x0 x1 inb_S9x2000x128_S1x2000x128_7_0_0 inb_S9x128x64_S1x128x64_7_0_0 inb_S9x2000x64_S1x2000x64_7_0_0 x
  · intro x; rw [pay0_1]; exact slab0_piece 6 (by omega) x0 x1 inb_S9x2000x128_S1x2000x128_6_0_0 inb_S9x128x64_S1x128x64_6_0_0 inb_S9x2000x64_S1x2000x64_6_0_0 x
  · intro x; rw [pay0_9]; exact slab0_piece 5 (by omega) x0 x1 inb_S9x2000x128_S1x2000x128_5_0_0 inb_S9x128x64_S1x128x64_5_0_0 inb_S9x2000x64_S1x2000x64_5_0_0 x
  · intro x; rw [pay0_8]; exact slab0_piece 4 (by omega) x0 x1 inb_S9x2000x128_S1x2000x128_4_0_0 inb_S9x128x64_S1x128x64_4_0_0 inb_S9x2000x64_S1x2000x64_4_0_0 x
  · intro x; rw [pay0_7]; exact slab0_piece 3 (by omega) x0 x1 inb_S9x2000x128_S1x2000x128_3_0_0 inb_S9x128x64_S1x128x64_3_0_0 inb_S9x2000x64_S1x2000x64_3_0_0 x
  · intro x; rw [pay0_6]; exact slab0_piece 2 (by omega) x0 x1 inb_S9x2000x128_S1x2000x128_2_0_0 inb_S9x128x64_S1x128x64_2_0_0 inb_S9x2000x64_S1x2000x64_2_0_0 x
  · intro x; rw [pay0_5]; exact slab0_piece 1 (by omega) x0 x1 inb_S9x2000x128_S1x2000x128_1_0_0 inb_S9x128x64_S1x128x64_1_0_0 inb_S9x2000x64_S1x2000x64_1_0_0 x
  · intro x; exact slab0_piece 0 (by omega) x0 x1 inb_S9x2000x128_S1x2000x128_0_0_0 inb_S9x128x64_S1x128x64_0_0_0 inb_S9x2000x64_S1x2000x64_0_0_0 x

variable (V : (c : Dev nD) → (b : Ref sig .tc) → Buf (Elt Ideal) ((c : Thread nD τ).loc b))

theorem hz0 : (![0, 0, 0] : Fin 3 → Nat) = fun _ => 0 := funext fun a => by fin_cases a <;> rfl

/-- The printed index maps over the grid: the gathered rows and the output sit at row block `t` of every offset, the
    weights at block 0. -/
theorem idx_facts0 : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- An entry of a row tile of the gathered rows is the array's entry `2000 t` rows further down, at the same offset. -/
theorem iblk0_0_apply (c : Dev nD) (t : Fin cfg0.N) (k : Fin 9) (p : Fin 2000) (q : Fin 128) (p' : Fin 40000)
    (hp : p'.val = t.val * 2000 + p.val) :
    (iblk0 V c 0 t : Vec Ideal S9x2000x128 .bf16) (ix3 k p q)
      = (V c (Pipeline.arrRef spec0 0) : S9x40000x128.Idx → Ideal .bf16) (ix3 k p' q) := by
  obtain ⟨e0, e1, e2, -⟩ := idx_facts0 t
  show (V c (Pipeline.arrRef spec0 0) : S9x40000x128.Idx → Ideal .bf16) (((cfg0.win 0).blk t).view.emb (ix3 k p q)) = _
  refine congrArg _ (funext fun a => Fin.ext ?_)
  match a with
  | ⟨0, _⟩ => show win0_0.index t (0 : Fin 3) * 9 + 1 * k.val = k.val; rw [e0]; omega
  | ⟨1, _⟩ => show win0_0.index t (1 : Fin 3) * 2000 + 1 * p.val = p'.val; rw [e1, hp]; omega
  | ⟨2, _⟩ => show win0_0.index t (2 : Fin 3) * 128 + 1 * q.val = q.val; rw [e2]; omega

/-- The weights' block is the whole weight array, at every point. -/
theorem iblk0_1_eq (c : Dev nD) (t : Fin cfg0.N) :
    (iblk0 V c 1 t : Vec Ideal S9x128x64 .bf16) = (V c (Pipeline.arrRef spec0 1) : S9x128x64.Idx → Ideal .bf16) := by
  obtain ⟨-, -, -, e0, e1, e2, -⟩ := idx_facts0 t
  funext y
  show (V c (Pipeline.arrRef spec0 1) : S9x128x64.Idx → Ideal .bf16) (((cfg0.win 1).blk t).view.emb y) = _
  refine congrArg _ (funext fun a => Fin.ext ?_)
  match a with
  | ⟨0, _⟩ => show win0_1.index t (0 : Fin 3) * 9 + 1 * (y 0).val = (y 0).val; rw [e0]; omega
  | ⟨1, _⟩ => show win0_1.index t (1 : Fin 3) * 128 + 1 * (y 1).val = (y 1).val; rw [e1]; omega
  | ⟨2, _⟩ => show win0_1.index t (2 : Fin 3) * 64 + 1 * (y 2).val = (y 2).val; rw [e2]; omega

/-- The arithmetic of one entry: the block's product at a block index is the arrays' product at the array index it sits at,
    when the gathered block's rows are the array's rows `2000 tv` further down and the weights' block is the weight array. -/
theorem prod0_point (g : FVec Ideal S9x40000x128 .bf16) (w : FVec Ideal S9x128x64 .bf16)
    (x0 : FVec Ideal S9x2000x128 .bf16) (x1 : FVec Ideal S9x128x64 .bf16) (tv : ℕ) (y : S9x2000x64.Idx) (i : S9x40000x64.Idx)
    (hx0 : ∀ (k : Fin 9) (p : Fin 2000) (q : Fin 128) (p' : Fin 40000), p'.val = tv * 2000 + p.val → x0 (ix3 k p q) = g (ix3 k p' q))
    (hx1 : x1 = w) (h0 : (i 0).val = (y 0).val) (h1 : (i 1).val = tv * 2000 + (y 1).val) (h2 : (i 2).val = (y 2).val) :
    blockProd0 x0 x1 y = prod0 g w i := by
  subst hx1
  unfold blockProd0 prod0
  have e0 : (i 0 : Fin 9) = y 0 := Fin.ext h0
  have e2 : (i 2 : Fin 64) = y 2 := Fin.ext h2
  refine Finset.sum_congr rfl fun q _ => ?_
  rw [hx0 (y 0) (y 1) q (i 1) h1, e0, e2]

set_option maxHeartbeats 1600000 in
/-- What point `t` writes back is block `t` of `prod0` of the two arrays as the region finds them. -/
theorem flushed0_eq (c : Dev nD) (t : Fin cfg0.N) :
    (dat0 (F := Ideal) V c).flushed 2 t = ((cfg0.win 2).blk t).view.read (Elt Ideal)
      (prod0 (V c (Pipeline.arrRef spec0 0)) (V c (Pipeline.arrRef spec0 1))) := by
  show (cfg0.win 2).cut (grid0.coords t) ((dat0 V c).after 2 t) = _
  rw [after0_2, out0_2_eq]
  obtain ⟨-, -, -, -, -, -, e0, e1, e2⟩ := idx_facts0 t
  funext j
  have h0 : ((((cfg0.win 2).blk t).view.emb j : S9x40000x64.Idx) 0).val = (((cfg0.win 2).xinj (grid0.coords t) j : S9x2000x64.Idx) 0).val := by
    show win0_2.index t (0 : Fin 3) * 9 + 1 * (j 0).val = (j 0).val
    rw [e0]; omega
  have h1 : ((((cfg0.win 2).blk t).view.emb j : S9x40000x64.Idx) 1).val = t.val * 2000 + (((cfg0.win 2).xinj (grid0.coords t) j : S9x2000x64.Idx) 1).val := by
    show win0_2.index t (1 : Fin 3) * 2000 + 1 * (j 1).val = t.val * 2000 + (j 1).val
    rw [e1]; omega
  have h2 : ((((cfg0.win 2).blk t).view.emb j : S9x40000x64.Idx) 2).val = (((cfg0.win 2).xinj (grid0.coords t) j : S9x2000x64.Idx) 2).val := by
    show win0_2.index t (2 : Fin 3) * 64 + 1 * (j 2).val = (j 2).val
    rw [e2]; omega
  exact prod0_point (V c (Pipeline.arrRef spec0 0)) (V c (Pipeline.arrRef spec0 1)) (iblk0 V c 0 t) (iblk0 V c 1 t) t.val
    ((cfg0.win 2).xinj (grid0.coords t) j) (((cfg0.win 2).blk t).view.emb j)
    (fun k p q p' hp => iblk0_0_apply V c t k p q p' hp) (iblk0_1_eq V c t) h0 h1 h2

/-- An index of the array is in point `t`'s block iff each coordinate is in the block's range on its axis. -/
theorem mem_blk0 (t : Fin cfg0.N) (i : S9x40000x64.Idx) :
    i ∈ ((cfg0.win 2).blk t).view.set ↔ ∀ a : Fin 3, win0_2.index t a * S9x2000x64.size a ≤ (i a).val ∧ (i a).val < win0_2.index t a * S9x2000x64.size a + S9x2000x64.size a := by
  show i ∈ ((View.whole main_v9).slice (win0_2.rect t)).set ↔ _
  rw [View.set_slice_whole, Rect.mem_set_unit]
  exact Iff.rfl

/-- Every index of the array is in the block of the point its row falls to: row `r` is in row tile `r / 2000`. -/
theorem cover0 (i : S9x40000x64.Idx) : ∃ t : Fin cfg0.N, (cfg0.win 2).flush t = true ∧ i ∈ ((cfg0.win 2).blk t).view.set := by
  have hN : cfg0.N = 20 := N_0
  have hi0 : (i 0).val < 9 := (i 0).isLt
  have hi1 : (i 1).val < 40000 := (i 1).isLt
  have hi2 : (i 2).val < 64 := (i 2).isLt
  have ht : (i 1).val / 2000 < cfg0.N := by rw [hN]; omega
  obtain ⟨-, -, -, -, -, -, e0, e1, e2⟩ := idx_facts0 ⟨(i 1).val / 2000, ht⟩
  refine ⟨⟨(i 1).val / 2000, ht⟩, flush0_2 _, ?_⟩
  rw [mem_blk0]
  intro a
  match a with
  | ⟨0, _⟩ =>
    show win0_2.index ⟨(i 1).val / 2000, ht⟩ (0 : Fin 3) * 9 ≤ (i 0).val ∧ (i 0).val < win0_2.index ⟨(i 1).val / 2000, ht⟩ (0 : Fin 3) * 9 + 9
    rw [e0]; omega
  | ⟨1, _⟩ =>
    show win0_2.index ⟨(i 1).val / 2000, ht⟩ (1 : Fin 3) * 2000 ≤ (i 1).val ∧ (i 1).val < win0_2.index ⟨(i 1).val / 2000, ht⟩ (1 : Fin 3) * 2000 + 2000
    rw [e1]; show (i 1).val / 2000 * 2000 ≤ (i 1).val ∧ (i 1).val < (i 1).val / 2000 * 2000 + 2000; omega
  | ⟨2, _⟩ =>
    show win0_2.index ⟨(i 1).val / 2000, ht⟩ (2 : Fin 3) * 64 ≤ (i 2).val ∧ (i 2).val < win0_2.index ⟨(i 1).val / 2000, ht⟩ (2 : Fin 3) * 64 + 64
    rw [e2]; omega

/-- The output array after the region is `prod0` of the two input arrays as the region finds them. -/
theorem value0 (c : Dev nD) : (dat0 (F := Ideal) V c).arrAt 2 cfg0.N
    = prod0 (V c (Pipeline.arrRef spec0 0)) (V c (Pipeline.arrRef spec0 1)) :=
  (dat0 (F := Ideal) V c).arrAt_eq_of_cover 2 _ (fun t _ => flushed0_eq V c t) cover0

end Cert.KernelIdeal.HandValue

end
-- ==== Proof.Value2.lean ====
/-
  The value of region 2: the array the normalise region leaves in its output window, as one function of the six arrays
  it reads. Each grid point writes back rows 8000 t … 8000 t + 7999 of
      (o - mean) * rsqrt(var + eps) * gamma + beta + skip,
  the mean, variance, scale and shift being rows broadcast down the columns; the twenty row tiles cover the array. At the
  instance where floats are extended reals.
-/
import proofs.«146613_j41781441855727_2_alg».proof.Proof.Region2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The normalised array: every entry of the sums minus its column's mean, times the reciprocal square root of the
    column's variance plus the stabiliser, times the column's scale, plus the column's shift, plus the residual. -/
def norm2 (o : FVec Ideal S160000x64 .f32) (mean var gamma beta : FVec Ideal S1x64 .f32) (skip : FVec Ideal S160000x64 .f32) :
    FVec Ideal S160000x64 .f32 := fun j =>
  ((o j - mean (ix2 (0 : Fin 1) (j 1))) * Ideal.rsqrt (var (ix2 (0 : Fin 1) (j 1)) + Ideal.ofBits .f32 0x3727C5AC#32)
      * gamma (ix2 (0 : Fin 1) (j 1)) + beta (ix2 (0 : Fin 1) (j 1))) + skip j

theorem hz2 : (![0, 0] : Fin 2 → Nat) = fun _ => 0 := funext fun a => by fin_cases a <;> rfl

/-- The body's value at row `p`, column `q` of a block: the same arithmetic on the block's entries and on column `q` of
    the four rows. -/
theorem pay2_apply (m v g b : FVec Ideal S1x64 .f32) (x s : FVec Ideal S8000x64 .f32) (p : Fin 8000) (q : Fin 64) :
    k2_pay1 (F := Ideal) m v g b x s (ix2 p q)
      = ((x (ix2 p q) - m (ix2 (0 : Fin 1) q)) * Ideal.rsqrt (v (ix2 (0 : Fin 1) q) + Ideal.ofBits .f32 0x3727C5AC#32)
          * g (ix2 (0 : Fin 1) q) + b (ix2 (0 : Fin 1) q)) + s (ix2 p q) := by
  unfold k2_pay1
  simp only [shapeCast_self]
  rw [addf_apply, addf_apply, mulf_apply, mulf_apply, subf_apply,
    broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

/-- The printed index maps over the grid: the three row-tiled windows sit at row block `t`, the four rows at block 0. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The arithmetic of one entry: a block entry of the body's value is the entry of `norm2` it sits at, when the two tiled
    blocks' entries are the arrays' entries there, the four rows are the arrays' rows and the columns agree. -/
theorem pay2_point (o skip : FVec Ideal S160000x64 .f32) (mean var gamma beta : FVec Ideal S1x64 .f32)
    (x s : FVec Ideal S8000x64 .f32) (m v g b : FVec Ideal S1x64 .f32) (y : S8000x64.Idx) (i : S160000x64.Idx)
    (hx : x y = o i) (hs : s y = skip i) (hm : m = mean) (hv : v = var) (hg : g = gamma) (hb : b = beta)
    (h1 : (i 1).val = (y 1).val) :
    k2_pay1 (F := Ideal) m v g b x s y = norm2 o mean var gamma beta skip i := by
  subst hm hv hg hb
  obtain ⟨p, q, rfl⟩ : ∃ (p : Fin 8000) (q : Fin 64), y = ix2 p q := ⟨y 0, y 1, eq_ix2 y⟩
  have hq : (i 1 : Fin 64) = q := Fin.ext h1
  rw [pay2_apply, hx, hs]
  unfold norm2
  rw [hq]

/-- An entry of a row tile of the sums is the array's entry `8000 t` rows further down. -/
theorem iblk2_0_apply (c : Dev nD) (t : Fin cfg2.N) (y : S8000x64.Idx) (i : S160000x64.Idx)
    (h0 : (i 0).val = t.val * 8000 + (y 0).val) (h1 : (i 1).val = (y 1).val) :
    (iblk2 V c 0 t : Vec Ideal S8000x64 .f32) y = (V c (Pipeline.arrRef spec2 0) : S160000x64.Idx → Ideal .f32) i := by
  obtain ⟨e0, e1, -⟩ := idx_facts2 t
  show (V c (Pipeline.arrRef spec2 0) : S160000x64.Idx → Ideal .f32) (((cfg2.win 0).blk t).view.emb y) = _
  refine congrArg _ (funext fun a => Fin.ext ?_)
  match a with
  | ⟨0, _⟩ => show win2_0.index t (0 : Fin 2) * 8000 + 1 * (y 0).val = (i 0).val; rw [e0, h0]; omega
  | ⟨1, _⟩ => show win2_0.index t (1 : Fin 2) * 64 + 1 * (y 1).val = (i 1).val; rw [e1, h1]; omega

/-- The same for the residual's row tile. -/
theorem iblk2_5_apply (c : Dev nD) (t : Fin cfg2.N) (y : S8000x64.Idx) (i : S160000x64.Idx)
    (h0 : (i 0).val = t.val * 8000 + (y 0).val) (h1 : (i 1).val = (y 1).val) :
    (iblk2 V c 5 t : Vec Ideal S8000x64 .f32) y = (V c (Pipeline.arrRef spec2 5) : S160000x64.Idx → Ideal .f32) i := by
  obtain ⟨-, -, -, -, -, -, -, -, -, -, e0, e1, -⟩ := idx_facts2 t
  show (V c (Pipeline.arrRef spec2 5) : S160000x64.Idx → Ideal .f32) (((cfg2.win 5).blk t).view.emb y) = _
  refine congrArg _ (funext fun a => Fin.ext ?_)
  match a with
  | ⟨0, _⟩ => show win2_5.index t (0 : Fin 2) * 8000 + 1 * (y 0).val = (i 0).val; rw [e0, h0]; omega
  | ⟨1, _⟩ => show win2_5.index t (1 : Fin 2) * 64 + 1 * (y 1).val = (i 1).val; rw [e1, h1]; omega

/-- The block of a one-row window is the whole row, at every point. -/
theorem iblk2_1_eq (c : Dev nD) (t : Fin cfg2.N) :
    (iblk2 V c 1 t : Vec Ideal S1x64 .f32) = (V c (Pipeline.arrRef spec2 1) : S1x64.Idx → Ideal .f32) := by
  obtain ⟨-, -, e0, e1, -⟩ := idx_facts2 t
  funext y
  show (V c (Pipeline.arrRef spec2 1) : S1x64.Idx → Ideal .f32) (((cfg2.win 1).blk t).view.emb y) = _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 64 + 1 * (y 1).val = (y 1).val; rw [e1]; omega
theorem iblk2_2_eq (c : Dev nD) (t : Fin cfg2.N) :
    (iblk2 V c 2 t : Vec Ideal S1x64 .f32) = (V c (Pipeline.arrRef spec2 2) : S1x64.Idx → Ideal .f32) := by
  obtain ⟨-, -, -, -, e0, e1, -⟩ := idx_facts2 t
  funext y
  show (V c (Pipeline.arrRef spec2 2) : S1x64.Idx → Ideal .f32) (((cfg2.win 2).blk t).view.emb y) = _
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega
theorem iblk2_3_eq (c : Dev nD) (t : Fin cfg2.N) :
    (iblk2 V c 3 t : Vec Ideal S1x64 .f32) = (V c (Pipeline.arrRef spec2 3) : S1x64.Idx → Ideal .f32) := by
  obtain ⟨-, -, -, -, -, -, e0, e1, -⟩ := idx_facts2 t
  funext y
  show (V c (Pipeline.arrRef spec2 3) : S1x64.Idx → Ideal .f32) (((cfg2.win 3).blk t).view.emb y) = _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega
theorem iblk2_4_eq (c : Dev nD) (t : Fin cfg2.N) :
    (iblk2 V c 4 t : Vec Ideal S1x64 .f32) = (V c (Pipeline.arrRef spec2 4) : S1x64.Idx → Ideal .f32) := by
  obtain ⟨-, -, -, -, -, -, -, -, e0, e1, -⟩ := idx_facts2 t
  funext y
  show (V c (Pipeline.arrRef spec2 4) : S1x64.Idx → Ideal .f32) (((cfg2.win 4).blk t).view.emb y) = _
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

set_option maxHeartbeats 1600000 in
/-- What point `t` writes back is block `t` of `norm2` of the arrays as the region finds them. -/
theorem flushed2_eq (c : Dev nD) (t : Fin cfg2.N) :
    (dat2 (F := Ideal) V c).flushed 6 t = ((cfg2.win 6).blk t).view.read (Elt Ideal)
      (norm2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz2]
  simp only [View.ld_unit_zero (S := S8000x64) hz2, View.ld_unit_zero (S := S1x64) hz2]
  obtain ⟨-, -, -, -, -, -, -, -, -, -, -, -, e0, e1⟩ := idx_facts2 t
  funext j
  have h0 : ((((cfg2.win 6).blk t).view.emb j : S160000x64.Idx) 0).val = t.val * 8000 + (((cfg2.win 6).xinj (grid2.coords t) j : S8000x64.Idx) 0).val := by
    show win2_6.index t (0 : Fin 2) * 8000 + 1 * (j 0).val = t.val * 8000 + (j 0).val
    rw [e0]; omega
  have h1 : ((((cfg2.win 6).blk t).view.emb j : S160000x64.Idx) 1).val = (((cfg2.win 6).xinj (grid2.coords t) j : S8000x64.Idx) 1).val := by
    show win2_6.index t (1 : Fin 2) * 64 + 1 * (j 1).val = (j 1).val
    rw [e1]; omega
  exact pay2_point (V c (Pipeline.arrRef spec2 0)) (V c (Pipeline.arrRef spec2 5)) (V c (Pipeline.arrRef spec2 1))
    (V c (Pipeline.arrRef spec2 2)) (V c (Pipeline.arrRef spec2 3)) (V c (Pipeline.arrRef spec2 4))
    (iblk2 V c 0 t) (iblk2 V c 5 t) (iblk2 V c 1 t) (iblk2 V c 2 t) (iblk2 V c 3 t) (iblk2 V c 4 t)
    ((cfg2.win 6).xinj (grid2.coords t) j) (((cfg2.win 6).blk t).view.emb j)
    (iblk2_0_apply V c t _ _ h0 h1) (iblk2_5_apply V c t _ _ h0 h1)
    (iblk2_1_eq V c t) (iblk2_2_eq V c t) (iblk2_3_eq V c t) (iblk2_4_eq V c t) h1

/-- An index of the array is in point `t`'s block iff each coordinate is in the block's range on its axis. -/
theorem mem_blk2 (t : Fin cfg2.N) (i : S160000x64.Idx) :
    i ∈ ((cfg2.win 6).blk t).view.set ↔ ∀ a : Fin 2, win2_6.index t a * S8000x64.size a ≤ (i a).val ∧ (i a).val < win2_6.index t a * S8000x64.size a + S8000x64.size a := by
  show i ∈ ((View.whole main_v23).slice (win2_6.rect t)).set ↔ _
  rw [View.set_slice_whole, Rect.mem_set_unit]
  exact Iff.rfl

/-- Every index of the array is in the block of the point its row falls to: row `r` is in row tile `r / 8000`. -/
theorem cover2 (i : S160000x64.Idx) : ∃ t : Fin cfg2.N, (cfg2.win 6).flush t = true ∧ i ∈ ((cfg2.win 6).blk t).view.set := by
  have hN : cfg2.N = 20 := N_2
  have hi0 : (i 0).val < 160000 := (i 0).isLt
  have hi1 : (i 1).val < 64 := (i 1).isLt
  have ht : (i 0).val / 8000 < cfg2.N := by rw [hN]; omega
  obtain ⟨-, -, -, -, -, -, -, -, -, -, -, -, e0, e1⟩ := idx_facts2 ⟨(i 0).val / 8000, ht⟩
  refine ⟨⟨(i 0).val / 8000, ht⟩, flush2_6 _, ?_⟩
  rw [mem_blk2]
  intro a
  match a with
  | ⟨0, _⟩ =>
    show win2_6.index ⟨(i 0).val / 8000, ht⟩ (0 : Fin 2) * 8000 ≤ (i 0).val ∧ (i 0).val < win2_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win2_6.index ⟨(i 0).val / 8000, ht⟩ (1 : Fin 2) * 64 ≤ (i 1).val ∧ (i 1).val < win2_6.index ⟨(i 0).val / 8000, ht⟩ (1 : Fin 2) * 64 + 64
    rw [e1]; omega

/-- The output array after the region is `norm2` of the six input arrays as the region finds them. -/
theorem value2 (c : Dev nD) : (dat2 (F := Ideal) V c).arrAt 6 cfg2.N
    = norm2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 _ (fun t _ => flushed2_eq V c t) cover2

end Cert.KernelIdeal.HandValue

end
-- ==== Proof.LibColumnSum.lean ====
/-
  Sums along axis 0 read at an index, for any extents, at the ideal values: the kernel's reduction along axis 0 of an
  `[a, b]` matrix is at column `q` the finite sum over the rows of the entries of that column, and the host's sum
  of a vector `[a]` into a scalar is the initial value plus the finite sum of the entries.
-/
import Idealize.ShloMosaic.Lib.ValueIdx
import Idealize.ShloMosaic.PureOps.Ideal.Laws

noncomputable section

namespace Cert.ColumnSum

open Idealize.ShloMosaic Idealize.ShloMosaic.ValueIdx

/-- The reduction along axis 0 of a matrix, at the ideal values, is the sum of the column's entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (funext fun c => Fin.ext (by
    match c with
    | ⟨0, _⟩ => rfl
    | ⟨1, _⟩ => rfl))

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of all the entries of a vector, at the ideal values, is the initial value plus the entries. -/
theorem hostVecSum_apply {a : ℕ} (x : FVec Ideal ⟨1, ![a]⟩ .f32) (init : (⟨0, ![]⟩ : Shape).Idx → Ideal .f32)
    (h' : (⟨1, ![a]⟩ : Shape).ReducesTo [0] ⟨0, ![]⟩) (hu : 0 < (⟨0, ![]⟩ : Shape).numel) (j : (⟨0, ![]⟩ : Shape).Idx) :
    Host.reduceAdd x init h' hu j = init ix0 + ∑ k : Fin a, x (ix1 k) := by
  unfold Host.reduceAdd
  rw [Ideal.hostReduceAdd_def]
  refine (Ideal.hostReduceAdd_total h' (fun b => b.elim0) x _ j).trans ?_
  have e : init (Shape.Idx.first hu) = init ix0 := congrArg init (funext fun c => c.elim0)
  rw [e, sum_idx1]

end Cert.ColumnSum

end
-- ==== Proof.LibTenBlocks.lean ====
/-
  Sums over 100000 consecutive naturals cut into ten blocks of 10000, and a running sum unrolled.

  A sum of g over 0 … a·b − 1 is the sum over the a blocks t of the sums of g (t·b + q) over q below b: block t is the
  b naturals from t·b on (by induction on a, splitting the range at a·b). At a = 10 and b = 10000, with the inner and
  the whole sum taken over the finite index types, this is the regrouping of 100000 rows into ten tiles of 10000.
  A sequence that starts at z plus the first term and at every later step adds the next term is, at step n, z plus the
  sum of the terms up to n.
-/
import Mathlib.Algebra.BigOperators.Fin

namespace Cert.TenBlocks

open Finset

/-- The sum over the first a·b naturals, block by block: block t holds t·b, …, t·b + b − 1. -/
theorem sum_range_mul {M : Type*} [AddCommMonoid M] (g : ℕ → M) (a b : ℕ) :
    ∑ t ∈ Finset.range a, ∑ q ∈ Finset.range b, g (t * b + q) = ∑ r ∈ Finset.range (a * b), g r := by
  induction a with
  | zero => simp
  | succ a ih => rw [Finset.sum_range_succ, ih, add_mul, one_mul, Finset.sum_range_add]

/-- Ten blocks of 10000 make up the 100000 indices. -/
theorem sum_range_blocks {M : Type*} [AddCommMonoid M] (g : ℕ → M) :
    ∑ t ∈ Finset.range 10, ∑ q : Fin 10000, g (t * 10000 + q.val) = ∑ r : Fin 100000, g r.val :=
  calc ∑ t ∈ Finset.range 10, ∑ q : Fin 10000, g (t * 10000 + q.val)
      = ∑ t ∈ Finset.range 10, ∑ q ∈ Finset.range 10000, g (t * 10000 + q) :=
        Finset.sum_congr rfl fun t _ => (Finset.sum_range fun q => g (t * 10000 + q)).symm
    _ = ∑ r ∈ Finset.range (10 * 10000), g r := sum_range_mul g 10 10000
    _ = ∑ r : Fin 100000, g r.val := Finset.sum_range g

/-- A running sum unrolled: started at z + T 0 and adding T (n + 1) at step n + 1, it is z plus the sum of T up to n. -/
theorem running_sum {M : Type*} [AddCommMonoid M] (N : ℕ) (S : (n : ℕ) → n < N → M) (T : ℕ → M) (z : M)
    (h0 : ∀ h, S 0 h = z + T 0) (hs : ∀ n (h : n + 1 < N), S (n + 1) h = S n (Nat.lt_of_succ_lt h) + T (n + 1)) :
    ∀ n (h : n < N), S n h = z + ∑ t ∈ Finset.range (n + 1), T t := by
  intro n
  induction n with
  | zero => intro h; rw [h0 h, Finset.sum_range_one]
  | succ n ih =>
    intro h
    rw [hs n h, ih (Nat.lt_of_succ_lt h), Finset.sum_range_succ T (n + 1), add_assoc]

end Cert.TenBlocks
-- ==== Proof.Region1Value.lean ====
/-
  Region 1 of the kernel program at the ideal values: what the mean's and the variance's arrays hold after the region, read
  at an index. The body's payloads at an index are the extended reals' operations: adding a block to an accumulator adds the
  finite sum down the block's column; the blocks of the input are consecutive runs of 8000 rows of its array, so after the
  last of the 20 points the accumulators hold the sums over all 160000 rows; each output window is written back at the
  last point only and its block is its whole array.
-/
import proofs.«146613_j41781441855727_2_alg».proof.Proof.Region1
import proofs.«146613_j41781441855727_2_alg».proof.Proof.LibColumnSum
import proofs.«146613_j41781441855727_2_alg».proof.Proof.LibTenBlocks
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's payloads read at an index, at the ideal values -/

/-- Row 0, column `j` of a one-row matrix, with the row coordinate dropped, is column `j`. -/
theorem tail_ix2_1 (j : Fin 64) : (fun a : Fin 1 => (ix2 (0 : Fin 1) j) a.succ) = ix1 j := by
  funext a; match a with | ⟨0, _⟩ => rfl

/-- The cleared accumulator is the zero row. -/
theorem pay1_apply1 (i : S1x64.Idx) : (k1_pay1 (F := Ideal)) i = 0 := by
  unfold k1_pay1
  simp only [shapeCast_self]
  exact Ideal.ofBits_zero_f32
theorem pay2_apply1 (i : S1x64.Idx) : (k1_pay2 (F := Ideal)) i = 0 := by
  unfold k1_pay2
  simp only [shapeCast_self]
  exact Ideal.ofBits_zero_f32

/-- Adding a block to the sums: column `j` gains the sum of the block's column `j`. -/
theorem pay4_apply1 (v3 : Vec Ideal S8000x64 .f32) (v5 : Vec Ideal S1x64 .f32) (j : Fin 64) :
    k1_pay4 v3 v5 (ix2 (0 : Fin 1) j) = v5 (ix2 (0 : Fin 1) j) + ∑ k : Fin 8000, v3 (ix2 k j) := by
  unfold k1_pay4 k1_pay3
  simp only [shapeCast_self]
  show v5 (ix2 (0 : Fin 1) j) + shapeCast S1x64 (multiReduction (F := Ideal) .add [0] S64 v3 0x00000000#32 reduces_S8000x64_S64 (.inl rfl) rfl) shapeCasts_S64_S1x64 (ix2 (0 : Fin 1) j) = _
  refine congrArg (v5 (ix2 (0 : Fin 1) j) + ·) ?_
  refine (shapeCast_addUnit_apply ![64] _ shapeCasts_S64_S1x64 (ix2 (0 : Fin 1) j)).trans ?_
  refine (congrArg _ (tail_ix2_1 j)).trans ?_
  exact Cert.ColumnSum.colSum_apply v3 reduces_S8000x64_S64 (.inl rfl) rfl j

/-- Adding a block to the sums of squares: column `j` gains the sum of the squares of the block's column `j`. -/
theorem pay5_apply1 (v3 : Vec Ideal S8000x64 .f32) (v12 : Vec Ideal S1x64 .f32) (j : Fin 64) :
    k1_pay5 v3 v12 (ix2 (0 : Fin 1) j) = v12 (ix2 (0 : Fin 1) j) + ∑ k : Fin 8000, v3 (ix2 k j) * v3 (ix2 k j) := by
  unfold k1_pay5 k1_pay3
  simp only [shapeCast_self]
  show v12 (ix2 (0 : Fin 1) j) + shapeCast S1x64 (multiReduction (F := Ideal) .add [0] S64 (mulf v3 v3) 0x00000000#32 reduces_S8000x64_S64 (.inl rfl) rfl) shapeCasts_S64_S1x64 (ix2 (0 : Fin 1) j) = _
  refine congrArg (v12 (ix2 (0 : Fin 1) j) + ·) ?_
  refine (shapeCast_addUnit_apply ![64] _ shapeCasts_S64_S1x64 (ix2 (0 : Fin 1) j)).trans ?_
  refine (congrArg _ (tail_ix2_1 j)).trans ?_
  exact Cert.ColumnSum.colSum_apply (mulf v3 v3) reduces_S8000x64_S64 (.inl rfl) rfl j

/-- The mean row: the sums divided by the row count. -/
theorem pay6_apply1 (v : Vec Ideal S1x64 .f32) (i : S1x64.Idx) :
    k1_pay6 v i = Ideal.div (v i) (Ideal.ofBits .f32 0x481C4000#32) := rfl

/-- The variance row: the sums of squares divided by the row count, minus the square of the mean. -/
theorem pay7_apply1 (v w : Vec Ideal S1x64 .f32) (i : S1x64.Idx) :
    k1_pay7 v w i = Ideal.div (w i) (Ideal.ofBits .f32 0x481C4000#32)
      - Ideal.div (v i) (Ideal.ofBits .f32 0x481C4000#32) * Ideal.div (v i) (Ideal.ofBits .f32 0x481C4000#32) := rfl

variable (V : (c : Dev nD) → (b : Ref sig .tc) → Buf (Elt Ideal) ((c : Thread nD τ).loc b))

/-- The input array as the region finds it, at its shape: 160000 rows of 64 columns. -/
abbrev inArr1 (c : Dev nD) : Vec Ideal S160000x64 .f32 := V c (Pipeline.arrRef spec1 0)

/-! ## The blocks of the input are consecutive rows of its array -/

/-- The input's index map, decided over the grid: block `t` starts at row block `t`, column block 0. -/
theorem idx_facts1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `r`, column `j` of block `t` is row `8000 t + r`, column `j` of the array. -/
theorem iblk1_apply (c : Dev nD) (t : Fin cfg1.N) (r : Fin 8000) (j : Fin 64) (hr : t.val * 8000 + r.val < 160000) :
    iblk1 V c 0 t (ix2 r j) = inArr1 V c (ix2 (⟨t.val * 8000 + r.val, hr⟩ : Fin 160000) j) := by
  obtain ⟨e0, e1⟩ := idx_facts1_0 t
  show V c main_v19 (((cfg1.win 0).blk t).view.emb (ix2 r j)) = V c main_v19 _
  refine congrArg (V c main_v19) ?_
  funext a; apply Fin.ext
  match a with
  | ⟨0, _⟩ => show win1_0.index t (0 : Fin 2) * 8000 + 1 * r.val = t.val * 8000 + r.val; omega
  | ⟨1, _⟩ => show win1_0.index t (1 : Fin 2) * 64 + 1 * j.val = j.val; omega

/-- Column `j` of the input array as a function of the row number (zero past the last row), under a function `φ` of the entry. -/
def col1 (c : Dev nD) (j : Fin 64) (φ : Ideal .f32 → Ideal .f32) (r : ℕ) : Ideal .f32 :=
  if h : r < 160000 then φ (inArr1 V c (ix2 (⟨r, h⟩ : Fin 160000) j)) else 0

theorem col1_blk (c : Dev nD) (j : Fin 64) (φ : Ideal .f32 → Ideal .f32) (t : Fin cfg1.N) (q : Fin 8000) :
    φ (iblk1 V c 0 t (ix2 q j)) = col1 V c j φ (t.val * 8000 + q.val) := by
  have hN : cfg1.N = 20 := N_1
  have hr : t.val * 8000 + q.val < 160000 := by have := t.isLt; have := q.isLt; omega
  unfold col1
  rw [dif_pos hr, iblk1_apply V c t q j hr]

/-! ## The 20 blocks of 8000 rows are the 160000 rows -/

/-- A running sum over the grid that starts at zero plus the first block's sum and adds the next block's sum at each
    later point is, after the last point, the sum over all rows. -/
theorem acc_total1 (S : (n : ℕ) → n < cfg1.N → Ideal .f32) (g : ℕ → Ideal .f32)
    (h0 : ∀ h, S 0 h = 0 + ∑ q : Fin 8000, g (0 * 8000 + q.val))
    (hs : ∀ n (h : n + 1 < cfg1.N), S (n + 1) h = S n (Nat.lt_of_succ_lt h) + ∑ q : Fin 8000, g ((n + 1) * 8000 + q.val))
    (h19 : 19 < cfg1.N) : S 19 h19 = ∑ r : Fin 160000, g r.val := by
  rw [Cert.TenBlocks.running_sum cfg1.N S (fun t => ∑ q : Fin 8000, g (t * 8000 + q.val)) 0 h0 hs 19 h19, zero_add]
  calc ∑ t ∈ Finset.range (19 + 1), ∑ q : Fin 8000, g (t * 8000 + q.val)
      = ∑ t ∈ Finset.range 20, ∑ q ∈ Finset.range 8000, g (t * 8000 + q) :=
        Finset.sum_congr rfl fun t _ => (Finset.sum_range fun q => g (t * 8000 + q)).symm
    _ = ∑ r ∈ Finset.range (20 * 8000), g r := Cert.TenBlocks.sum_range_mul g 20 8000
    _ = ∑ r : Fin 160000, g r.val := Finset.sum_range g

/-- After the last point the accumulator of sums holds, in column `j`, the sum of column `j` of the array. -/
theorem sumAcc1_total (c : Dev nD) (j : Fin 64) (h19 : 19 < cfg1.N) :
    sumAcc1 V c 19 h19 (ix2 (0 : Fin 1) j) = ∑ r : Fin 160000, inArr1 V c (ix2 r j) := by
  refine (acc_total1 (fun n h => sumAcc1 V c n h (ix2 (0 : Fin 1) j)) (col1 V c j id) ?_ ?_ h19).trans ?_
  · intro h
    show sumAcc1 V c 0 h (ix2 (0 : Fin 1) j) = _
    rw [sumAcc1_zero, pay4_apply1, pay1_apply1]
    exact congrArg (0 + ·) (Finset.sum_congr rfl fun q _ => col1_blk V c j id ⟨0, h⟩ q)
  · intro n h
    show sumAcc1 V c (n + 1) h (ix2 (0 : Fin 1) j) = sumAcc1 V c n _ (ix2 (0 : Fin 1) j) + _
    rw [sumAcc1_succ, pay4_apply1]
    exact congrArg (sumAcc1 V c n _ (ix2 (0 : Fin 1) j) + ·) (Finset.sum_congr rfl fun q _ => col1_blk V c j id ⟨n + 1, h⟩ q)
  · exact Finset.sum_congr rfl fun r _ => dif_pos r.isLt

/-- And the accumulator of sums of squares the sum of the squares of column `j`. -/
theorem sqAcc1_total (c : Dev nD) (j : Fin 64) (h19 : 19 < cfg1.N) :
    sqAcc1 V c 19 h19 (ix2 (0 : Fin 1) j)
      = ∑ r : Fin 160000, inArr1 V c (ix2 r j) * inArr1 V c (ix2 r j) := by
  refine (acc_total1 (fun n h => sqAcc1 V c n h (ix2 (0 : Fin 1) j)) (col1 V c j fun x => x * x) ?_ ?_ h19).trans ?_
  · intro h
    show sqAcc1 V c 0 h (ix2 (0 : Fin 1) j) = _
    rw [sqAcc1_zero, pay5_apply1, pay2_apply1]
    exact congrArg (0 + ·) (Finset.sum_congr rfl fun q _ => col1_blk V c j (fun x => x * x) ⟨0, h⟩ q)
  · intro n h
    show sqAcc1 V c (n + 1) h (ix2 (0 : Fin 1) j) = sqAcc1 V c n _ (ix2 (0 : Fin 1) j) + _
    rw [sqAcc1_succ, pay5_apply1]
    exact congrArg (sqAcc1 V c n _ (ix2 (0 : Fin 1) j) + ·) (Finset.sum_congr rfl fun q _ => col1_blk V c j (fun x => x * x) ⟨n + 1, h⟩ q)
  · exact Finset.sum_congr rfl fun r _ => dif_pos r.isLt

/-! ## The two output arrays after the region -/

/-- The last point. -/
abbrev t1_last : Fin cfg1.N := ⟨19, by rw [show cfg1.N = 20 from N_1]; decide⟩

theorem hz1_v : (![0, 0] : Fin 2 → ℕ) = fun _ => 0 := funext fun a => by fin_cases a <;> rfl

/-- The mean row and the variance row the last point stores, as contents of their arrays (each array is its one block). -/
abbrev meanRow1 (c : Dev nD) : Buf (Elt Ideal) ((c : Thread nD τ).loc main_v20_0) := k1_pay6 (sumAcc1 V c 19 t1_last.isLt)
abbrev varRow1 (c : Dev nD) : Buf (Elt Ideal) ((c : Thread nD τ).loc main_v20_1) :=
  k1_pay7 (sumAcc1 V c 19 t1_last.isLt) (sqAcc1 V c 19 t1_last.isLt)

/-- The one write-back of the mean's window, at the last point, writes the mean row: its block is the whole array. -/
theorem flushed1_1 (c : Dev nD) (t : Fin cfg1.N) (hf : (cfg1.win 1).flush t = true) :
    (dat1 V c).flushed 1 t = ((cfg1.win 1).blk t).view.read (Elt Ideal) (meanRow1 V c) := by
  have hN : cfg1.N = 20 := N_1
  have h19 : t.val = 19 := by have := (flush1_1 t).mp hf; have := t.isLt; omega
  obtain rfl : t = t1_last := Fin.ext h19
  show (cfg1.win 1).cut (grid1.coords t1_last) ((dat1 V c).after 1 t1_last) = _
  rw [after1_1]
  have hz' : (fun a => win1_1.index t1_last a * main_v20_0.ty.shape.size a) = fun _ => 0 := funext fun a => by fin_cases a <;> decide +kernel
  exact (Memref.read_access_unit_zero (Elt Ideal) main_v20_0 hz' (fun a => by rw [congrFun hz' a]; simp) (meanRow1 V c)).symm

theorem flushed1_2 (c : Dev nD) (t : Fin cfg1.N) (hf : (cfg1.win 2).flush t = true) :
    (dat1 V c).flushed 2 t = ((cfg1.win 2).blk t).view.read (Elt Ideal) (varRow1 V c) := by
  have hN : cfg1.N = 20 := N_1
  have h19 : t.val = 19 := by have := (flush1_2 t).mp hf; have := t.isLt; omega
  obtain rfl : t = t1_last := Fin.ext h19
  show (cfg1.win 2).cut (grid1.coords t1_last) ((dat1 V c).after 2 t1_last) = _
  rw [after1_2]
  have hz' : (fun a => win1_2.index t1_last a * main_v20_1.ty.shape.size a) = fun _ => 0 := funext fun a => by fin_cases a <;> decide +kernel
  exact (Memref.read_access_unit_zero (Elt Ideal) main_v20_1 hz' (fun a => by rw [congrFun hz' a]; simp) (varRow1 V c)).symm

/-- So the mean's array ends holding the mean row: the last point's block covers it. -/
theorem final1_1 (c : Dev nD) : (dat1 V c).arrAt 1 cfg1.N = meanRow1 V c :=
  (dat1 V c).arrAt_eq_of_cover 1 (meanRow1 V c) (flushed1_1 V c) fun i =>
    ⟨t1_last, (flush1_1 t1_last).mpr rfl, by
      show i ∈ ((View.whole main_v20_0).slice (win1_1.rect t1_last)).set
      rw [View.set_slice_whole, Rect.mem_set_unit]
      intro a
      have h0 : (i 0 : ℕ) < 1 := (i 0).isLt
      have h1 : (i 1 : ℕ) < 64 := (i 1).isLt
      match a with
      | ⟨0, _⟩ => show win1_1.index t1_last 0 * win1_1.size 0 ≤ (i 0 : ℕ) ∧ (i 0 : ℕ) < win1_1.index t1_last 0 * win1_1.size 0 + win1_1.xsize (grid1.coords t1_last) 0
                  rw [show win1_1.index t1_last 0 * win1_1.size 0 = 0 from by decide +kernel, show win1_1.xsize (grid1.coords t1_last) 0 = 1 from by decide +kernel]; omega
      | ⟨1, _⟩ => show win1_1.index t1_last 1 * win1_1.size 1 ≤ (i 1 : ℕ) ∧ (i 1 : ℕ) < win1_1.index t1_last 1 * win1_1.size 1 + win1_1.xsize (grid1.coords t1_last) 1
                  rw [show win1_1.index t1_last 1 * win1_1.size 1 = 0 from by decide +kernel, show win1_1.xsize (grid1.coords t1_last) 1 = 64 from by decide +kernel]; omega⟩

/-- And the variance's array the variance row. -/
theorem final1_2 (c : Dev nD) : (dat1 V c).arrAt 2 cfg1.N = varRow1 V c :=
  (dat1 V c).arrAt_eq_of_cover 2 (varRow1 V c) (flushed1_2 V c) fun i =>
    ⟨t1_last, (flush1_2 t1_last).mpr rfl, by
      show i ∈ ((View.whole main_v20_1).slice (win1_2.rect t1_last)).set
      rw [View.set_slice_whole, Rect.mem_set_unit]
      intro a
      have h0 : (i 0 : ℕ) < 1 := (i 0).isLt
      have h1 : (i 1 : ℕ) < 64 := (i 1).isLt
      match a with
      | ⟨0, _⟩ => show win1_2.index t1_last 0 * win1_2.size 0 ≤ (i 0 : ℕ) ∧ (i 0 : ℕ) < win1_2.index t1_last 0 * win1_2.size 0 + win1_2.xsize (grid1.coords t1_last) 0
                  rw [show win1_2.index t1_last 0 * win1_2.size 0 = 0 from by decide +kernel, show win1_2.xsize (grid1.coords t1_last) 0 = 1 from by decide +kernel]; omega
      | ⟨1, _⟩ => show win1_2.index t1_last 1 * win1_2.size 1 ≤ (i 1 : ℕ) ∧ (i 1 : ℕ) < win1_2.index t1_last 1 * win1_2.size 1 + win1_2.xsize (grid1.coords t1_last) 1
                  rw [show win1_2.index t1_last 1 * win1_2.size 1 = 0 from by decide +kernel, show win1_2.xsize (grid1.coords t1_last) 1 = 64 from by decide +kernel]; omega⟩

/-! ## The two arrays read at an index -/

/-- Column `j` of the mean's array: the sum of column `j` of the input array over its 160000 rows, divided by the row count. -/
theorem mean1_value (c : Dev nD) (j : Fin 64) :
    (dat1 (F := Ideal) V c).arrAt 1 cfg1.N (ValueIdx.ix2 (0 : Fin 1) j)
      = Ideal.div (∑ r : Fin 160000, inArr1 V c (ValueIdx.ix2 r j)) (Ideal.ofBits .f32 0x481C4000#32) := by
  rw [final1_1]
  show Ideal.div (sumAcc1 V c 19 t1_last.isLt (ix2 (0 : Fin 1) j)) (Ideal.ofBits .f32 0x481C4000#32) = _
  rw [sumAcc1_total]

/-- Column `j` of the variance's array: the sum of the squares of column `j` divided by the row count, minus the square of the mean. -/
theorem var1_value (c : Dev nD) (j : Fin 64) :
    (dat1 (F := Ideal) V c).arrAt 2 cfg1.N (ValueIdx.ix2 (0 : Fin 1) j)
      = Ideal.div (∑ r : Fin 160000, inArr1 V c (ValueIdx.ix2 r j) * inArr1 V c (ValueIdx.ix2 r j)) (Ideal.ofBits .f32 0x481C4000#32)
        - Ideal.div (∑ r : Fin 160000, inArr1 V c (ValueIdx.ix2 r j)) (Ideal.ofBits .f32 0x481C4000#32)
          * Ideal.div (∑ r : Fin 160000, inArr1 V c (ValueIdx.ix2 r j)) (Ideal.ofBits .f32 0x481C4000#32) := by
  rw [final1_2]
  show Ideal.div (sqAcc1 V c 19 t1_last.isLt (ix2 (0 : Fin 1) j)) (Ideal.ofBits .f32 0x481C4000#32)
    - Ideal.div (sumAcc1 V c 19 t1_last.isLt (ix2 (0 : Fin 1) j)) (Ideal.ofBits .f32 0x481C4000#32)
      * Ideal.div (sumAcc1 V c 19 t1_last.isLt (ix2 (0 : Fin 1) j)) (Ideal.ofBits .f32 0x481C4000#32) = _
  rw [sumAcc1_total, sqAcc1_total]

end Cert.KernelIdeal.HandValue

end
-- ==== Proof.RefConsts.lean ====
/-
  The float words the three stages use, as extended reals: zero, the three row counts 160000, 640000 and 2560000 (each a
  power of two times an integer below 2^24, so exactly a binary32 value), and the small positive constant added to the
  variances. Each is the IEEE reading of its word: sign, biased exponent and significand taken apart and put together.
-/
import Idealize.ShloMosaic.PureOps.Ideal
import Idealize.ShloMosaic.PureOps.Ideal.Laws

noncomputable section

namespace Cert.ReferenceIdeal.RefConsts

open Idealize.ShloMosaic

/-- The zero word is zero. -/
theorem ofBits_zero : Ideal.ofBits .f32 0x00000000#32 = 0 := Ideal.ofBits_zero_f32

/-- `0x481C4000`: exponent 17, significand 10240000 / 2^23, that is 160000. -/
theorem ofBits_n3 : Ideal.ofBits .f32 0x481C4000#32 = ((160000 : ℝ) : EReal) := by
  simp [Ideal.ofBits, Ideal.ieee]
  rw [← EReal.coe_mul, EReal.coe_eq_coe_iff]
  norm_num

/-- `0x491C4000`: exponent 19, the same significand, that is 640000. -/
theorem ofBits_n2 : Ideal.ofBits .f32 0x491C4000#32 = ((640000 : ℝ) : EReal) := by
  simp [Ideal.ofBits, Ideal.ieee]
  rw [← EReal.coe_mul, EReal.coe_eq_coe_iff]
  norm_num

/-- `0x4A1C4000`: exponent 21, the same significand, that is 2560000. -/
theorem ofBits_n1 : Ideal.ofBits .f32 0x4A1C4000#32 = ((2560000 : ℝ) : EReal) := by
  simp [Ideal.ofBits, Ideal.ieee]
  rw [← EReal.coe_mul, EReal.coe_eq_coe_iff]
  norm_num

/-- `0x3727C5AC`: a positive real (10995116 / 2^40, just below one hundred-thousandth). -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee]

end Cert.ReferenceIdeal.RefConsts

end
-- ==== Proof.RefReadsLib.lean ====
/-
  The host's quotient and reciprocal square root at an index, at the extended reals: entry by entry, the quotient and the
  reciprocal square root of the entries.
-/
import Idealize.ShloMosaic.PureOps.Ideal
import Idealize.ShloMosaic.PureOps.Ideal.Laws

noncomputable section

namespace Cert.ReferenceIdeal.RefRun

open Idealize.ShloMosaic
open scoped BigOperators

theorem hostDivf_apply {s : Shape} {φ : FTy} (a b : FVec Ideal s φ) (i : s.Idx) : Host.divf a b i = Ideal.div (a i) (b i) := rfl

theorem hostRsqrt_apply {s : Shape} {φ : FTy} (a : FVec Ideal s φ) (i : s.Idx) : Host.rsqrt a i = Ideal.rsqrt (a i) := rfl

end Cert.ReferenceIdeal.RefRun

end
-- ==== Proof.RefReads3.lean ====
/-
  Stage 3's pieces read at an index, at the extended reals: a contribution is a finite sum of products over the input
  channels; a column mean is the column's sum over the rows divided by the row count; the column variance is the sum of
  the squared deviations from that mean divided by the row count (the selection inside it is decided: its condition
  compares the row count with zero); the tail is a pointwise formula. Every broadcast reads its operand at the
  corresponding coordinates, every sum stays a symbolic sum over its literal range.
-/
import proofs.«146613_j41781441855727_2_alg».proof.Proof.RefDefs
import proofs.«146613_j41781441855727_2_alg».proof.Proof.RefConsts
import proofs.«146613_j41781441855727_2_alg».proof.Proof.RefReadsLib
import Idealize.ShloMosaic.Lib.ValueIdx
import Idealize.ShloMosaic.PureOps.Ideal.Laws

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx

/-! ## Stage 3 read at an index -/

/-- The product's dimension record (one batch axis, one contracted axis of extent 128). -/
abbrev D3 := dot_S9x40000x128_S9x128x64_S9x40000x64_2_1_1_2_0_0

theorem D3_rank : (D3).contr.rank = 1 := rfl
theorem D3_size : (D3).contr.size ⟨0, by rw [D3_rank]; omega⟩ = 128 := rfl

/-- The left operand's index for output `(k, p, o)` and contraction coordinate `q`: `(k, p, q)`. -/
theorem D3_lhs (k : Fin 9) (p : Fin 40000) (o : Fin 64) (q : D3.contr.Idx) :
    D3.lhsIdx (ix3 k p o) q = ix3 k p ((q ⟨0, by rw [D3_rank]; omega⟩).cast D3_size) := by
  funext a
  apply Fin.ext
  match a with
  | ⟨0, _⟩ => simp [DotDims.lhsIdx, D3, dot_S9x40000x128_S9x128x64_S9x40000x64_2_1_1_2_0_0]; rfl
  | ⟨1, _⟩ => simp [DotDims.lhsIdx, D3, dot_S9x40000x128_S9x128x64_S9x40000x64_2_1_1_2_0_0]; rfl
  | ⟨2, _⟩ => simp [DotDims.lhsIdx, D3, dot_S9x40000x128_S9x128x64_S9x40000x64_2_1_1_2_0_0]; rfl

/-- The right operand's index: `(k, q, o)`. -/
theorem D3_rhs (k : Fin 9) (p : Fin 40000) (o : Fin 64) (q : D3.contr.Idx) :
    D3.rhsIdx (ix3 k p o) q = ix3 k ((q ⟨0, by rw [D3_rank]; omega⟩).cast D3_size) o := by
  funext a
  apply Fin.ext
  match a with
  | ⟨0, _⟩ => simp [DotDims.rhsIdx, D3, dot_S9x40000x128_S9x128x64_S9x40000x64_2_1_1_2_0_0]; rfl
  | ⟨1, _⟩ => simp [DotDims.rhsIdx, D3, dot_S9x40000x128_S9x128x64_S9x40000x64_2_1_1_2_0_0]; rfl
  | ⟨2, _⟩ => simp [DotDims.rhsIdx, D3, dot_S9x40000x128_S9x128x64_S9x40000x64_2_1_1_2_0_0]; rfl

/-- A contribution is the sum over the 128 input channels of the gathered row's entry times the offset's matrix entry. -/
theorem contrib3_apply (x : FVec Ideal S40000x128 .f32) (W : FVec Ideal S9x128x64 .f32) (iin : IVec S9x40000 32)
    (k : Fin 9) (p : Fin 40000) (o : Fin 64) :
    contrib3 (F := Ideal) x W iin (ix3 k p o) = ∑ i : Fin 128, gathered3 (F := Ideal) x iin (ix3 k p i) * W (ix3 k i o) := by
  unfold contrib3 Host.dotGeneral
  rw [Ideal.dotGeneral_apply, ← Equiv.sum_comp (contrEquiv1 D3 128 D3_rank D3_size).symm]
  refine Finset.sum_congr rfl fun i _ => ?_
  have hi : Fin.cast D3_size ((contrEquiv1 D3 128 D3_rank D3_size).symm i ⟨0, by rw [D3_rank]; omega⟩) = i :=
    Fin.ext (contrEquiv1_symm_val D3 128 D3_rank D3_size i)
  rw [D3_lhs, D3_rhs, hi]

/-- The column reduction's shape fact in the form that names the inserted coordinate. -/
theorem R3 : S160000x64.Reduces [0] S64 := by decide

/-- The source index over column `j` with row coordinate `r`: `(r, j)`. -/
theorem R3_lift (j : Fin 64) (r : Fin 160000) : R3.lift (ix1 j) r = ix2 r j := by
  funext a
  apply Fin.ext
  match a with
  | ⟨0, _⟩ => rfl
  | ⟨1, _⟩ => rfl

/-- A column's sum from the zero word: the sum over the 160000 rows. -/
theorem colSum3_apply (s : FVec Ideal S160000x64 .f32) (j : Fin 64) :
    Host.reduceAdd (F := Ideal) s (constant S_ .f32 0x00000000#32) reducesTo_S160000x64_S64_d0 h_S_ (ix1 j)
      = ∑ r : Fin 160000, s (ix2 r j) := by
  unfold Host.reduceAdd
  rw [Ideal.hostReduceAdd_def, Ideal.hostReduceAdd_single reducesTo_S160000x64_S64_d0 R3]
  rw [show (constant (F := Ideal) S_ .f32 0x00000000#32 (Shape.Idx.first h_S_)) = 0 from Ideal.ofBits_zero_f32, zero_add]
  exact Finset.sum_congr rfl fun r _ => congrArg s (R3_lift j r)

/-! The broadcasts at an index. -/

theorem bcastRow3_apply {α : Type} (y : S1x64.Idx → α) (r : Fin 160000) (j : Fin 64) :
    broadcastInDim S160000x64 ![0, 1] bcast_S1x64_S160000x64_0_1 y (ix2 r j) = y (ix2 (0 : Fin 1) j) := by
  unfold broadcastInDim
  refine congrArg y ?_
  funext a
  apply Fin.ext
  match a with
  | ⟨0, _⟩ => rfl
  | ⟨1, _⟩ => rfl

theorem bcastKeep3_apply {α : Type} (v : S64.Idx → α) (z : Fin 1) (j : Fin 64) :
    broadcastInDim S1x64 ![1] bcast_S64_S1x64_1 v (ix2 z j) = v (ix1 j) := by
  unfold broadcastInDim
  refine congrArg v ?_
  funext a
  apply Fin.ext
  match a with
  | ⟨0, _⟩ => rfl

theorem bcastScalarKeep3_apply {α : Type} (c : S_.Idx → α) (i : S1x64.Idx) :
    broadcastInDim S1x64 ![] bcast_S_S1x64 c i = c ix0 :=
  congrArg c (funext fun a => a.elim0)

theorem bcastScalarCol3_apply {α : Type} (c : S_.Idx → α) (i : S64.Idx) :
    broadcastInDim S64 ![] bcast_S_S64 c i = c ix0 :=
  congrArg c (funext fun a => a.elim0)

/-- A column vector spread over the rows reads its column's entry. -/
theorem rowBcast3_apply (v : FVec Ideal S64 .f32) (r : Fin 160000) (j : Fin 64) :
    rowBcast3 (F := Ideal) v (ix2 r j) = v (ix1 j) := by
  unfold rowBcast3
  rw [bcastRow3_apply, bcastKeep3_apply]

/-- The column mean: the column's sum over the 160000 rows divided by the row count's word. -/
theorem mean3_apply (s : FVec Ideal S160000x64 .f32) (j : Fin 64) :
    mean3 (F := Ideal) s (ix1 j) = Ideal.div (∑ r : Fin 160000, s (ix2 r j)) (Ideal.ofBits .f32 0x481C4000#32) := by
  unfold mean3
  rw [hostDivf_apply, colSum3_apply, bcastScalarCol3_apply]
  rfl

/-- The mean computed inside the variance (with a kept unit axis) is the column mean. -/
theorem varMean3_apply (s : FVec Ideal S160000x64 .f32) (r : Fin 160000) (j : Fin 64) :
    varMean3 (F := Ideal) s (ix2 r j) = mean3 (F := Ideal) s (ix1 j) := by
  unfold varMean3
  rw [bcastRow3_apply, hostDivf_apply, bcastKeep3_apply, bcastScalarKeep3_apply, mean3_apply, colSum3_apply]
  rfl

/-- The divisor inside the variance is the row count: the correction is the integer zero. -/
theorem varCount3_apply : varCount3 (F := Ideal) ix0 = Ideal.ofBits .f32 0x481C4000#32 := by
  unfold varCount3
  rw [subf_apply, sitofp_apply]
  show Ideal.ofBits .f32 0x481C4000#32 - (((0#32 : BitVec 32).toInt : ℝ) : EReal) = _
  rw [BitVec.toInt_zero, Int.cast_zero, EReal.coe_zero, sub_zero]

/-- The column variance: the squared deviations from the column mean summed over the rows, divided by the row count (the
    selection's condition, row count greater than zero, holds). -/
theorem var3_apply (s : FVec Ideal S160000x64 .f32) (j : Fin 64) :
    var3 (F := Ideal) s (ix1 j)
      = Ideal.div (∑ r : Fin 160000, (s (ix2 r j) - mean3 (F := Ideal) s (ix1 j)) * (s (ix2 r j) - mean3 (F := Ideal) s (ix1 j)))
          (Ideal.ofBits .f32 0x481C4000#32) := by
  unfold var3
  rw [select_apply, bcastScalarCol3_apply, cmpf_apply, varCount3_apply]
  have hc : FloatOps.cmpf (F := Ideal) .ogt (Ideal.ofBits .f32 0x481C4000#32) (constant (F := Ideal) S_ .f32 0x00000000#32 ix0) = 1#1 := by
    show Ideal.cmp .ogt (Ideal.ofBits .f32 0x481C4000#32) (Ideal.ofBits .f32 0x00000000#32) = 1#1
    rw [Ideal.ofBits_zero_f32, RefConsts.ofBits_n3]
    simp [Ideal.cmp]
  rw [hc, select_one, hostDivf_apply, colSum3_apply, bcastScalarCol3_apply, varCount3_apply]
  have hsum : (∑ r : Fin 160000, mulf (varDev3 (F := Ideal) s) (varDev3 (F := Ideal) s) (ix2 r j))
      = ∑ r : Fin 160000, (s (ix2 r j) - mean3 (F := Ideal) s (ix1 j)) * (s (ix2 r j) - mean3 (F := Ideal) s (ix1 j)) :=
    Finset.sum_congr rfl fun r _ => by
      rw [mulf_apply]
      unfold varDev3
      rw [subf_apply, varMean3_apply]
  rw [hsum]

/-- The tail at an entry: the sum less its column's mean, times the reciprocal square root of the column's variance plus
    the small constant, times `gamma`, plus `beta`, plus the residual. -/
theorem tail3_apply (s : FVec Ideal S160000x64 .f32) (gamma beta : FVec Ideal S64 .f32) (skip : FVec Ideal S160000x64 .f32)
    (r : Fin 160000) (j : Fin 64) :
    tail3 (F := Ideal) s gamma beta skip (ix2 r j)
      = ((s (ix2 r j) - mean3 (F := Ideal) s (ix1 j))
            * Ideal.rsqrt (var3 (F := Ideal) s (ix1 j) + Ideal.ofBits .f32 0x3727C5AC#32)
            * gamma (ix1 j) + beta (ix1 j)) + skip (ix2 r j) := by
  unfold tail3
  rw [addf_apply, addf_apply, mulf_apply, mulf_apply, subf_apply, rowBcast3_apply, rowBcast3_apply, rowBcast3_apply,
    rowBcast3_apply, hostRsqrt_apply, addf_apply, bcastScalarCol3_apply]
  rfl

end Cert.ReferenceIdeal.RefRun

end
-- ==== Proof.BridgeReal.lean ====
/-
  Arrays of finite reals at the exact instance. A family of extended reals is REAL when every entry is the image of a real
  number. The operations the two programs share keep a real family real: reading through a gather picks entries, an
  accumulating scatter adds finitely many entries to an entry, a contraction sums finitely many products; sums, differences
  and products of reals are real. The point: on real data the laws of a field may be used (distributivity, cancelling a
  mean), which fail at the infinities.
-/
import Idealize.ShloMosaic.PureOps.Ideal
import Idealize.ShloMosaic.PureOps.Ideal.Laws
import Idealize.ShloMosaic.Lib.ValueIdx

noncomputable section

namespace Cert.Bridge

open Idealize.ShloMosaic

/-- Every entry is a real number. -/
def IsReal {ι : Type} (f : ι → EReal) : Prop := ∀ i, ∃ r : ℝ, f i = (r : EReal)

theorem isReal_iff_exists {ι : Type} (f : ι → EReal) : IsReal f ↔ ∃ g : ι → ℝ, f = fun i => (g i : EReal) := by
  constructor
  · intro h; choose g hg using h; exact ⟨g, funext hg⟩
  · rintro ⟨g, rfl⟩ i; exact ⟨g i, rfl⟩

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

theorem real_sub {a b : EReal} (ha : ∃ r : ℝ, a = r) (hb : ∃ r : ℝ, b = r) : ∃ r : ℝ, a - b = r := by
  obtain ⟨x, rfl⟩ := ha; obtain ⟨y, rfl⟩ := hb; exact ⟨x - y, (EReal.coe_sub x y).symm⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

/-- A finite sum of reals is a real. -/
theorem real_sum {κ : Type} (s : Finset κ) (f : κ → EReal) (h : ∀ k ∈ s, ∃ r : ℝ, f k = r) : ∃ r : ℝ, ∑ k ∈ s, f k = r := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-- Reading through a gather keeps a real array real: every result entry is an operand entry. -/
theorem isReal_gather {s si t : Shape} {w : Nat} (d : GatherDims s si t) (x : s.Idx → EReal) (idx : IVec si w) (hx : IsReal x) :
    IsReal (Host.gather d x idx) := fun j => hx _

/-- An accumulating scatter of a real array into a real array is real: each entry is an operand entry plus a finite sum
    of update entries. -/
theorem isReal_scatterAdd {s si u : Shape} {w : Nat} (d : ScatterDims s si u) (x : FVec Ideal s .f32) (idx : IVec si w)
    (upd : FVec Ideal u .f32) (hx : IsReal x) (hu : IsReal upd) : IsReal (Host.scatterAdd (F := Ideal) d x idx upd) := by
  intro i
  show ∃ r : ℝ, Ideal.hostScatterAdd d x idx upd i = r
  unfold Ideal.hostScatterAdd
  exact real_add (hx i) (real_sum _ _ fun j _ => hu j)

end Cert.Bridge

end
-- ==== Proof.LibBatchNorm.lean ====
/-
  Column normalisation ("batch norm") on the extended reals, for data that are finite reals.

  For a finite family of reals `x i`, `n` their number, `m = (∑ x)/n` their mean:
  * the mean of the squares minus the square of the mean is the mean of the squared deviations
    (`var_forms`):  (∑ x²)/n − m·m = (∑ (x − m)²)/n ;
  * scaling by `γ·r` and shifting by `β − m·(γ·r)` is centring, scaling by `r`, then by `γ`, then shifting by `β`
    (`affine_forms`):  x·(γ·r) + (β − m·(γ·r)) = (x − m)·r·γ + β .
  Both are identities of real numbers; they are stated on the extended reals with the quotient `Ideal.div` the
  idealised float division, because that is where two programs that compute a variance or a normalised value in the two
  ways have to be compared. They need every datum to be a real: at an infinity `∞ − ∞` is not `0`.
  Also here: a finite sum of reals, and of products of reals, is a real (`sum_coe`, `sum_mul_coe`), the idealised quotient by a nonzero real is the real
  quotient (`div_coe_coe`), and the idealised reciprocal square root of a positive real is a real (`rsqrt_coe_pos`).
-/
import Idealize.ShloMosaic.PureOps.Ideal

noncomputable section

namespace Idealize.ShloMosaic.LibBatchNorm

open Idealize.ShloMosaic

/-- A finite sum of reals, formed on the extended reals, is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals (a dot product), formed on the extended reals, is the real one. -/
theorem sum_mul_coe {ι : Type*} (s : Finset ι) (a b : ι → ℝ) :
    (∑ i ∈ s, ((a i : ℝ) : EReal) * ((b i : ℝ) : EReal)) = ((∑ i ∈ s, a i * b i : ℝ) : EReal) := by
  simp only [← EReal.coe_mul, sum_coe]

/-- The idealised quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-- The idealised reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- Over the reals: the mean of the squares minus the squared mean is the mean of the squared deviations. -/
theorem var_forms_real {ι : Type*} [Fintype ι] (x : ι → ℝ) {n : ℝ} (hn : n ≠ 0) (hcard : (Fintype.card ι : ℝ) = n) :
    (∑ i, x i * x i) / n - ((∑ i, x i) / n) * ((∑ i, x i) / n)
      = (∑ i, (x i - (∑ j, x j) / n) * (x i - (∑ j, x j) / n)) / n := by
  set S := ∑ j, x j with hS
  have h1 : ∑ i, (x i - S / n) * (x i - S / n) = ∑ i, x i * x i - 2 * (S / n) * S + n * ((S / n) * (S / n)) := by
    have : ∀ i, (x i - S / n) * (x i - S / n) = x i * x i - 2 * (S / n) * x i + (S / n) * (S / n) := fun i => by ring
    simp only [this, Finset.sum_add_distrib, Finset.sum_sub_distrib, ← Finset.mul_sum, Finset.sum_const, Finset.card_univ,
      nsmul_eq_mul, hcard, ← hS]
    ring
  rw [h1]; field_simp; ring

/-- On the extended reals, with the idealised quotient, for real data (`var_forms_real` carried over). -/
theorem var_forms {ι : Type*} [Fintype ι] (x : ι → ℝ) {n : ℝ} (hn : n ≠ 0) (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [← EReal.coe_mul, sum_coe, div_coe_coe _ hn, ← EReal.coe_sub]
  exact congrArg _ (var_forms_real x hn hcard)

/-- Scale-and-shift against centre-scale-shift, for reals read as extended reals. -/
theorem affine_forms (x m r g b : ℝ) :
    (x : EReal) * ((g : EReal) * (r : EReal)) + ((b : EReal) - (m : EReal) * ((g : EReal) * (r : EReal)))
      = ((x : EReal) - (m : EReal)) * (r : EReal) * (g : EReal) + (b : EReal) := by
  simp only [← EReal.coe_mul, ← EReal.coe_sub, ← EReal.coe_add]
  exact congrArg _ (by ring)

end Idealize.ShloMosaic.LibBatchNorm

end
-- ==== Proof.BridgeStats.lean ====
/-
  Column statistics on real data. For a column of N real entries, N the real count and the divisor: the mean of the squares
  minus the squared mean IS the mean of the squared deviations (the two programs compute the variance in these two ways), it
  is a nonnegative real, and the normalised, scaled, shifted entry plus a residual is again a real when the added epsilon is
  a positive real — so that the next stage starts from real data again.
-/
import proofs.«146613_j41781441855727_2_alg».proof.Proof.BridgeReal
import proofs.«146613_j41781441855727_2_alg».proof.Proof.LibBatchNorm

noncomputable section

namespace Cert.Bridge

open Idealize.ShloMosaic Idealize.ShloMosaic.LibBatchNorm

/-- On a real column the two forms of the variance agree, and the common value is a nonnegative real. -/
theorem var_forms_col {N : ℕ} (s : Fin N → EReal) (hs : ∀ r, ∃ x : ℝ, s r = (x : EReal)) (nlit : EReal) (n : ℝ) (hpos : 0 < n)
    (hn : nlit = (n : EReal)) (hcard : (N : ℝ) = n) :
    Ideal.div (∑ r, s r * s r) nlit - Ideal.div (∑ r, s r) nlit * Ideal.div (∑ r, s r) nlit
        = Ideal.div (∑ r, (s r - Ideal.div (∑ r', s r') nlit) * (s r - Ideal.div (∑ r', s r') nlit)) nlit
      ∧ ∃ v : ℝ, 0 ≤ v ∧ Ideal.div (∑ r, (s r - Ideal.div (∑ r', s r') nlit) * (s r - Ideal.div (∑ r', s r') nlit)) nlit = (v : EReal) := by
  choose x hx using hs
  have hsx : s = fun r => ((x r : ℝ) : EReal) := funext hx
  subst hsx; subst hn
  have hn0 : n ≠ 0 := ne_of_gt hpos
  have hc : (Fintype.card (Fin N) : ℝ) = n := by rw [Fintype.card_fin]; exact hcard
  refine ⟨var_forms x hn0 hc, ⟨(∑ i, (x i - (∑ j, x j) / n) * (x i - (∑ j, x j) / n)) / n, ?_, ?_⟩⟩
  · exact div_nonneg (Finset.sum_nonneg fun i _ => mul_self_nonneg _) hpos.le
  · simp only [← EReal.coe_mul, sum_coe, div_coe_coe _ hn0, ← EReal.coe_sub]

/-- The mean of a real column is a real. -/
theorem mean_real {N : ℕ} (s : Fin N → EReal) (hs : ∀ r, ∃ x : ℝ, s r = (x : EReal)) (nlit : EReal) (n : ℝ) (hn0 : n ≠ 0)
    (hn : nlit = (n : EReal)) : ∃ mu : ℝ, Ideal.div (∑ r, s r) nlit = (mu : EReal) := by
  choose x hx using hs
  have hsx : s = fun r => ((x r : ℝ) : EReal) := funext hx
  subst hsx; subst hn
  exact ⟨(∑ i, x i) / n, by simp only [sum_coe, div_coe_coe _ hn0]⟩

/-- Centre, scale by the reciprocal square root of a nonnegative variance plus a positive epsilon, scale, shift, add the
    residual: real from reals. -/
theorem norm_real {a mu v g b k eps : EReal} (ha : ∃ r : ℝ, a = r) (hmu : ∃ r : ℝ, mu = r) (hv : ∃ r : ℝ, 0 ≤ r ∧ v = r)
    (hg : ∃ r : ℝ, g = r) (hb : ∃ r : ℝ, b = r) (hk : ∃ r : ℝ, k = r) (heps : ∃ e : ℝ, 0 < e ∧ eps = e) :
    ∃ r : ℝ, ((a - mu) * Ideal.rsqrt (v + eps) * g + b) + k = r := by
  obtain ⟨v', hv0, rfl⟩ := hv
  obtain ⟨e, he, rfl⟩ := heps
  have hr : ∃ r : ℝ, Ideal.rsqrt ((v' : EReal) + (e : EReal)) = r :=
    ⟨_, by rw [← EReal.coe_add]; exact rsqrt_coe_pos (add_pos_of_nonneg_of_pos hv0 he)⟩
  exact real_add (real_add (real_mul (real_mul (real_sub ha hmu) hr) hg) hb) hk

end Cert.Bridge

end
-- ==== Proof.RefReal3.lean ====
/-
  Stage 3 on real data: the contributions, the scattered sums, the column means and the normalised result are arrays of real
  numbers when the inputs are; the column variance is a nonnegative real; and the mean of the squares less the squared mean
  — the other way of computing a variance — equals it there.
-/
import proofs.«146613_j41781441855727_2_alg».proof.Proof.RefReads3
import proofs.«146613_j41781441855727_2_alg».proof.Proof.BridgeReal
import proofs.«146613_j41781441855727_2_alg».proof.Proof.BridgeStats

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx Cert.Bridge

/-! ## Stage 3 keeps real data real -/

/-- The contributions of real rows and real matrices are real: finite sums of products of entries. -/
theorem isReal_contrib3 (x : FVec Ideal S40000x128 .f32) (W : FVec Ideal S9x128x64 .f32) (iin : IVec S9x40000 32)
    (hx : IsReal x) (hW : IsReal W) : IsReal (contrib3 (F := Ideal) x W iin) := by
  have hg : IsReal (gathered3 (F := Ideal) x iin) := isReal_gather _ x _ hx
  intro i
  obtain ⟨k, p, o, rfl⟩ : ∃ (k : Fin 9) (p : Fin 40000) (o : Fin 64), i = ix3 k p o := ⟨i 0, i 1, i 2, eq_ix3 i⟩
  rw [contrib3_apply]
  exact real_sum _ _ fun c _ => real_mul (hg _) (hW _)

/-- The array of zeros is real. -/
theorem isReal_zeros3 : IsReal (zeros3 (F := Ideal)) := fun i =>
  ⟨0, by
    show Ideal.ofBits .f32 0x00000000#32 = ((0 : ℝ) : EReal)
    rw [Ideal.ofBits_zero_f32, EReal.coe_zero]⟩

/-- The scattered sums of real contributions are real: each entry is zero plus a finite sum of contribution entries. -/
theorem isReal_scattered3 (x : FVec Ideal S40000x128 .f32) (W : FVec Ideal S9x128x64 .f32) (iin iout : IVec S9x40000 32)
    (hx : IsReal x) (hW : IsReal W) : IsReal (scattered3 (F := Ideal) x W iin iout) := by
  have hf : IsReal (flatContrib3 (F := Ideal) (contrib3 (F := Ideal) x W iin)) := fun i => isReal_contrib3 x W iin hx hW _
  exact isReal_scatterAdd _ _ _ _ isReal_zeros3 hf

/-- The column mean of a real array is a real. -/
theorem mean3_real (s : FVec Ideal S160000x64 .f32) (hs : IsReal s) (j : Fin 64) :
    ∃ r : ℝ, mean3 (F := Ideal) s (ix1 j) = (r : EReal) := by
  rw [mean3_apply]
  exact mean_real (fun r : Fin 160000 => s (ix2 r j)) (fun r => hs _) _ 160000 (by norm_num) RefConsts.ofBits_n3

/-- The column variance of a real array is a nonnegative real. -/
theorem var3_nonneg (s : FVec Ideal S160000x64 .f32) (hs : IsReal s) (j : Fin 64) :
    ∃ v : ℝ, 0 ≤ v ∧ var3 (F := Ideal) s (ix1 j) = (v : EReal) := by
  rw [var3_apply, mean3_apply]
  exact (var_forms_col (fun r : Fin 160000 => s (ix2 r j)) (fun r => hs _) _ 160000 (by norm_num) RefConsts.ofBits_n3 (by norm_num)).2

/-- On a real array the mean of the squares less the squared mean is the column variance. -/
theorem kvar3_eq (s : FVec Ideal S160000x64 .f32) (hs : IsReal s) (j : Fin 64) :
    Ideal.div (∑ r : Fin 160000, s (ix2 r j) * s (ix2 r j)) (Ideal.ofBits .f32 0x481C4000#32)
        - Ideal.div (∑ r : Fin 160000, s (ix2 r j)) (Ideal.ofBits .f32 0x481C4000#32)
          * Ideal.div (∑ r : Fin 160000, s (ix2 r j)) (Ideal.ofBits .f32 0x481C4000#32)
      = var3 (F := Ideal) s (ix1 j) := by
  rw [var3_apply, mean3_apply]
  exact (var_forms_col (fun r : Fin 160000 => s (ix2 r j)) (fun r => hs _) _ 160000 (by norm_num) RefConsts.ofBits_n3 (by norm_num)).1

/-- The tail of real data is real. -/
theorem isReal_tail3 (s : FVec Ideal S160000x64 .f32) (gamma beta : FVec Ideal S64 .f32) (skip : FVec Ideal S160000x64 .f32)
    (hs : IsReal s) (hg : IsReal gamma) (hb : IsReal beta) (hk : IsReal skip) : IsReal (tail3 (F := Ideal) s gamma beta skip) := by
  intro i
  obtain ⟨r, j, rfl⟩ : ∃ (r : Fin 160000) (j : Fin 64), i = ix2 r j := ⟨i 0, i 1, eq_ix2 i⟩
  rw [tail3_apply]
  exact norm_real (hs _) (mean3_real s hs j) (var3_nonneg s hs j) (hg _) (hb _) (hk _) RefConsts.ofBits_eps

/-- The stage keeps real data real. -/
theorem isReal_stage3 (x : FVec Ideal S40000x128 .f32) (W : FVec Ideal S9x128x64 .f32) (iin iout : IVec S9x40000 32)
    (gamma beta : FVec Ideal S64 .f32) (skip : FVec Ideal S160000x64 .f32)
    (hx : IsReal x) (hW : IsReal W) (hg : IsReal gamma) (hb : IsReal beta) (hk : IsReal skip) :
    IsReal (stage3 (F := Ideal) x W iin iout gamma beta skip) :=
  isReal_tail3 _ _ _ _ (isReal_scattered3 x W iin iout hx hW) hg hb hk

end Cert.ReferenceIdeal.RefRun

end
-- ==== Proof.KStage3.lean ====
/-
  Stage 3 of the kernel program against the reference's stage 3, at the exact instance. From the stage's operands as the
  stage's first boundary holds them: the kernel's slab-wise products are the reference's batched contraction (the same finite
  sums), so the scattered sums are the reference's; the statistics region's running column sums over the row tiles add up to
  the whole column sums, so its mean is the reference's, and its variance — mean of squares minus squared mean — is the
  reference's mean of squared deviations because the scattered sums are finite reals; the normalisation is then the
  reference's formula entry by entry.
-/
import proofs.«146613_j41781441855727_2_alg».proof.Proof.KHost3
import proofs.«146613_j41781441855727_2_alg».proof.Proof.Value0
import proofs.«146613_j41781441855727_2_alg».proof.Proof.Value2
import proofs.«146613_j41781441855727_2_alg».proof.Proof.Region1Value
import proofs.«146613_j41781441855727_2_alg».proof.Proof.RefReads3
import proofs.«146613_j41781441855727_2_alg».proof.Proof.RefReal3
import proofs.«146613_j41781441855727_2_alg».proof.Proof.BridgeStats
import Idealize.ShloMosaic.Lib.ValueLayout

set_option maxRecDepth 16384
set_option maxHeartbeats 4000000

noncomputable section

namespace Cert.KernelIdeal.HandValue

open Cert.KernelIdeal Cert.KernelIdeal.Gen Cert.KernelIdeal.Hand
open Idealize.ShloMosaic Idealize.ShloMosaic.TcCoe Idealize.SL Idealize.SL.Sem
open Idealize.ShloMosaic.ValueIdx
open Cert.ReferenceIdeal.RefRun Cert.Bridge

variable (m : (ℓ : Loc nD τ sig) → Buf (Elt Ideal) ℓ) (c : Dev nD)

/-- The stage's operands, as the stage's first boundary holds them. -/
abbrev st3_x : FVec Ideal Cert.ReferenceIdeal.S40000x128 .f32 := W0 m c (Proc.devRef .tc main_arg0)
abbrev st3_w : FVec Ideal Cert.ReferenceIdeal.S9x128x64 .f32 := W0 m c (Proc.devRef .tc main_arg4)
abbrev st3_iin : IVec Cert.ReferenceIdeal.S9x40000 32 := W0 m c (Proc.devRef .tc main_arg13)
abbrev st3_iout : IVec Cert.ReferenceIdeal.S9x40000 32 := W0 m c (Proc.devRef .tc main_arg14)
abbrev st3_gamma : FVec Ideal Cert.ReferenceIdeal.S64 .f32 := W0 m c (Proc.devRef .tc main_arg7)
abbrev st3_beta : FVec Ideal Cert.ReferenceIdeal.S64 .f32 := W0 m c (Proc.devRef .tc main_arg8)
abbrev st3_skip : FVec Ideal Cert.ReferenceIdeal.S160000x64 .f32 := W0 m c (Proc.devRef .tc main_arg1)
/-- The reference's scattered sums of those operands. -/
abbrev st3_s : FVec Ideal Cert.ReferenceIdeal.S160000x64 .f32 := scattered3 (F := Ideal) (st3_x m c) (st3_w m c) (st3_iin m c) (st3_iout m c)

/-- The GEMM region's two input arrays and the normalisation region's six, as the regions find them, at their shapes. -/
abbrev st3_a0 : Cert.ReferenceIdeal.S9x40000x128.Idx → EReal := Hand.V1 m c (Pipeline.arrRef spec0 0)
abbrev st3_a1 : Cert.ReferenceIdeal.S9x128x64.Idx → EReal := Hand.V1 m c (Pipeline.arrRef spec0 1)
abbrev st3_n0 : Cert.ReferenceIdeal.S160000x64.Idx → EReal := Hand.V5 m c (Pipeline.arrRef spec2 0)
abbrev st3_n1 : Cert.ReferenceIdeal.S1x64.Idx → EReal := Hand.V5 m c (Pipeline.arrRef spec2 1)
abbrev st3_n2 : Cert.ReferenceIdeal.S1x64.Idx → EReal := Hand.V5 m c (Pipeline.arrRef spec2 2)
abbrev st3_n3 : Cert.ReferenceIdeal.S1x64.Idx → EReal := Hand.V5 m c (Pipeline.arrRef spec2 3)
abbrev st3_n4 : Cert.ReferenceIdeal.S1x64.Idx → EReal := Hand.V5 m c (Pipeline.arrRef spec2 4)
abbrev st3_n5 : Cert.ReferenceIdeal.S160000x64.Idx → EReal := Hand.V5 m c (Pipeline.arrRef spec2 5)

/-- The GEMM region's output array is the reference's contraction. -/
theorem st3_contrib : (W2 m c (Proc.devRef .tc main_v9) : Cert.ReferenceIdeal.S9x40000x64.Idx → EReal)
    = contrib3 (F := Ideal) (st3_x m c) (st3_w m c) (st3_iin m c) := by
  have e : (W2 m c (Proc.devRef .tc main_v9) : Cert.ReferenceIdeal.S9x40000x64.Idx → EReal)
      = prod0 (st3_a0 m c) (st3_a1 m c) :=
    (W2_arr m c 2).trans (value0 (Hand.V1 m) c)
  have hg : st3_a0 m c
      = gathered3 (F := Ideal) (st3_x m c) (st3_iin m c) := host0_g (W0 m c)
  have hw : st3_a1 m c = st3_w m c := host0_w (W0 m c)
  rw [e]
  funext j
  obtain ⟨k, p, o, rfl⟩ : ∃ (k : Fin 9) (p : Fin 40000) (o : Fin 64), j = ix3 k p o := ⟨j 0, j 1, j 2, eq_ix3 j⟩
  rw [contrib3_apply]
  show ∑ i : Fin 128, st3_a0 m c (ix3 k p i)
      * st3_a1 m c (ix3 k i o) = _
  rw [hg, hw]

/-- The scattered sums are the reference's. -/
theorem st3_scat : (W3 m c (Proc.devRef .tc main_v19) : Cert.ReferenceIdeal.S160000x64.Idx → EReal) = st3_s m c := by
  refine (host1_scat (W2 m c)).trans ?_
  rw [keep3_iout m c, st3_contrib m c]
  rfl

/-- The statistics region's mean row is the reference's column mean. -/
theorem st3_mean (j : Fin 64) : (W4 m c (Proc.devRef .tc main_v20_0) : Cert.ReferenceIdeal.S1x64.Idx → EReal) (ix2 (0 : Fin 1) j)
    = mean3 (F := Ideal) (st3_s m c) (ix1 j) := by
  have e : (W4 m c (Proc.devRef .tc main_v20_0) : Cert.ReferenceIdeal.S1x64.Idx → EReal) = (dat1 (F := Ideal) (Hand.V3 m) c).arrAt 1 cfg1.N := W4_arr m c 1
  have hin : (inArr1 (Hand.V3 m) c : Cert.ReferenceIdeal.S160000x64.Idx → EReal) = st3_s m c := st3_scat m c
  rw [e, mean1_value (Hand.V3 m) c j, hin, mean3_apply]

/-- The scattered sums are finite reals when the gathered array and the weights are. -/
theorem st3_s_real (hx : IsReal (st3_x m c)) (hW : IsReal (st3_w m c)) : IsReal (st3_s m c) :=
  isReal_scattered3 _ _ _ _ hx hW

/-- The statistics region's variance row is the reference's column variance, the scattered sums being finite reals. -/
theorem st3_var (hx : IsReal (st3_x m c)) (hW : IsReal (st3_w m c)) (j : Fin 64) :
    (W4 m c (Proc.devRef .tc main_v20_1) : Cert.ReferenceIdeal.S1x64.Idx → EReal) (ix2 (0 : Fin 1) j) = var3 (F := Ideal) (st3_s m c) (ix1 j) := by
  have e : (W4 m c (Proc.devRef .tc main_v20_1) : Cert.ReferenceIdeal.S1x64.Idx → EReal) = (dat1 (F := Ideal) (Hand.V3 m) c).arrAt 2 cfg1.N := W4_arr m c 2
  have hin : (inArr1 (Hand.V3 m) c : Cert.ReferenceIdeal.S160000x64.Idx → EReal) = st3_s m c := st3_scat m c
  rw [e, var1_value (Hand.V3 m) c j, hin]
  exact kvar3_eq (st3_s m c) (st3_s_real m c hx hW) j

/-- The stage's output array is the reference's stage of the operands. -/
theorem st3_out (hx : IsReal (st3_x m c)) (hW : IsReal (st3_w m c)) :
    (W6 m c (Proc.devRef .tc main_v23) : Cert.ReferenceIdeal.S160000x64.Idx → EReal)
      = stage3 (F := Ideal) (st3_x m c) (st3_w m c) (st3_iin m c) (st3_iout m c) (st3_gamma m c) (st3_beta m c) (st3_skip m c) := by
  have e : (W6 m c (Proc.devRef .tc main_v23) : Cert.ReferenceIdeal.S160000x64.Idx → EReal)
      = norm2 (st3_n0 m c) (st3_n1 m c) (st3_n2 m c)
          (st3_n3 m c) (st3_n4 m c) (st3_n5 m c) :=
    (W6_arr m c 6).trans (value2 (Hand.V5 m) c)
  have h0 : st3_n0 m c = st3_s m c := (keep3_scat m c).trans (st3_scat m c)
  have h1 : ∀ j : Fin 64, st3_n1 m c (ix2 (0 : Fin 1) j) = mean3 (F := Ideal) (st3_s m c) (ix1 j) :=
    fun j => (congrFun (keep3_mean m c) _).trans (st3_mean m c j)
  have h2 : ∀ j : Fin 64, st3_n2 m c (ix2 (0 : Fin 1) j) = var3 (F := Ideal) (st3_s m c) (ix1 j) :=
    fun j => (congrFun (keep3_var m c) _).trans (st3_var m c hx hW j)
  have h3 : ∀ j : Fin 64, st3_n3 m c (ix2 (0 : Fin 1) j) = st3_gamma m c (ix1 j) := fun j => by
    refine (host2_gamma (W4 m c) (ix2 (0 : Fin 1) j)).trans ?_
    rw [keep3_gamma m c]
    exact shapeCast_a_1a_apply _ _ _ _
  have h4 : ∀ j : Fin 64, st3_n4 m c (ix2 (0 : Fin 1) j) = st3_beta m c (ix1 j) := fun j => by
    refine (host2_beta (W4 m c) (ix2 (0 : Fin 1) j)).trans ?_
    rw [keep3_beta m c]
    exact shapeCast_a_1a_apply _ _ _ _
  have h5 : st3_n5 m c = st3_skip m c := keep3_skip m c
  rw [e]
  funext i
  obtain ⟨r, j, rfl⟩ : ∃ (r : Fin 160000) (j : Fin 64), i = ix2 r j := ⟨i 0, i 1, eq_ix2 i⟩
  show ((st3_n0 m c (ix2 r j) - st3_n1 m c (ix2 (0 : Fin 1) j))
        * Ideal.rsqrt (st3_n2 m c (ix2 (0 : Fin 1) j) + Ideal.ofBits .f32 0x3727C5AC#32)
        * st3_n3 m c (ix2 (0 : Fin 1) j)
        + st3_n4 m c (ix2 (0 : Fin 1) j))
      + st3_n5 m c (ix2 r j) = _
  rw [h0, h1, h2, h3, h4, h5]
  exact (tail3_apply (st3_s m c) (st3_gamma m c) (st3_beta m c) (st3_skip m c) r j).symm

/-- The stage's output is again an array of finite reals. -/
theorem st3_out_real (hx : IsReal (st3_x m c)) (hW : IsReal (st3_w m c)) (hg : IsReal (st3_gamma m c)) (hb : IsReal (st3_beta m c))
    (hk : IsReal (st3_skip m c)) : IsReal (W6 m c (Proc.devRef .tc main_v23) : Cert.ReferenceIdeal.S160000x64.Idx → EReal) := by
  rw [st3_out m c hx hW]
  exact isReal_stage3 _ _ _ _ _ _ _ hx hW hg hb hk

end Cert.KernelIdeal.HandValue

end
-- ==== Proof.KHost2.lean ====
/-
  Stage 2 of the kernel program, the host side: what the host stretches of the stage write, read off an arbitrary entry
  valuation — the gathered rows, the (format-changed) weights, the scattered sums, the reshaped scale and shift rows — are the
  reference's own terms of the same operands (a change of float format is the identity on the extended reals); and which
  buffers each boundary keeps from an earlier one.
-/
import proofs.«146613_j41781441855727_2_alg».proof.Proof.KernelKeep
import proofs.«146613_j41781441855727_2_alg».proof.Proof.RefDefs
import Idealize.ShloMosaic.Lib.StableHlo.Run
import Idealize.ShloMosaic.PureOps.Ideal
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL Idealize.SL.Sem
open Cert.ReferenceIdeal.RefRun

/-! ## The host stretches' results over an arbitrary entry valuation -/

theorem host3_g (Win : Valuation τ sig (Elt Ideal)) :
    (StableHlo.after (hostOps3 (F := Ideal)) Win (Proc.devRef .tc main_v32) : Cert.ReferenceIdeal.S9x160000x64.Idx → EReal)
      = gathered2 (F := Ideal) (Win (Proc.devRef .tc main_v23)) (Win (Proc.devRef .tc main_arg15)) := by
  after_results_simp
  rfl

theorem host3_w (Win : Valuation τ sig (Elt Ideal)) :
    (StableHlo.after (hostOps3 (F := Ideal)) Win (Proc.devRef .tc main_v25) : Cert.ReferenceIdeal.S9x64x32.Idx → EReal)
      = (Win (Proc.devRef .tc main_arg5) : Cert.ReferenceIdeal.S9x64x32.Idx → EReal) := by
  after_results_simp
  rfl

set_option maxHeartbeats 1000000 in
theorem host4_scat (Win : Valuation τ sig (Elt Ideal)) :
    (StableHlo.after (hostOps4 (F := Ideal)) Win (Proc.devRef .tc main_v43) : Cert.ReferenceIdeal.S640000x32.Idx → EReal)
      = Host.scatterAdd (F := Ideal) Cert.ReferenceIdeal.scatter_S640000x32_S1440000x1_S1440000x32_1_0_0_1 (zeros2 (F := Ideal))
          (scatterIdx2 (Win (Proc.devRef .tc main_arg16))) (flatContrib2 (F := Ideal) (Win (Proc.devRef .tc main_v33))) := by
  after_results_simp
  rfl

theorem host5_gamma (Win : Valuation τ sig (Elt Ideal)) (i : Cert.ReferenceIdeal.S1x32.Idx) :
    (StableHlo.after (hostOps5 (F := Ideal)) Win (Proc.devRef .tc main_v45) : Cert.ReferenceIdeal.S1x32.Idx → EReal) i
      = shapeCast Cert.ReferenceIdeal.S1x32 (Win (Proc.devRef .tc main_arg9) : Cert.ReferenceIdeal.S32.Idx → EReal) Cert.KernelIdeal.Facts₀.shapeCasts_S32_S1x32 i := by
  after_results_simp
  rfl

theorem host5_beta (Win : Valuation τ sig (Elt Ideal)) (i : Cert.ReferenceIdeal.S1x32.Idx) :
    (StableHlo.after (hostOps5 (F := Ideal)) Win (Proc.devRef .tc main_v46) : Cert.ReferenceIdeal.S1x32.Idx → EReal) i
      = shapeCast Cert.ReferenceIdeal.S1x32 (Win (Proc.devRef .tc main_arg10) : Cert.ReferenceIdeal.S32.Idx → EReal) Cert.KernelIdeal.Facts₀.shapeCasts_S32_S1x32 i := by
  after_results_simp
  rfl

/-! ## What the stage's boundaries keep -/

variable (m : (ℓ : Loc nD τ sig) → Buf (Elt Ideal) ℓ) (c : Dev nD)

/-- The scatter indices reach the scatter as entered. -/
theorem keep2_iout : W8 m c (Proc.devRef .tc main_arg16) = W6 m c (Proc.devRef .tc main_arg16) :=
  (W8_of_ne m c main_arg16 (by decide)).trans (hostKeep3 m c main_arg16 (by decide))

/-- The scale, the shift and the residual reach the normalisation as entered. -/
theorem keep2_gamma : W10 m c (Proc.devRef .tc main_arg9) = W6 m c (Proc.devRef .tc main_arg9) :=
  (W10_of_ne m c main_arg9 (by decide)).trans ((hostKeep4 m c main_arg9 (by decide)).trans
    ((W8_of_ne m c main_arg9 (by decide)).trans (hostKeep3 m c main_arg9 (by decide))))
theorem keep2_beta : W10 m c (Proc.devRef .tc main_arg10) = W6 m c (Proc.devRef .tc main_arg10) :=
  (W10_of_ne m c main_arg10 (by decide)).trans ((hostKeep4 m c main_arg10 (by decide)).trans
    ((W8_of_ne m c main_arg10 (by decide)).trans (hostKeep3 m c main_arg10 (by decide))))
theorem keep2_skip : W11 m c (Proc.devRef .tc main_arg2) = W6 m c (Proc.devRef .tc main_arg2) :=
  (hostKeep5 m c main_arg2 (by decide)).trans ((W10_of_ne m c main_arg2 (by decide)).trans ((hostKeep4 m c main_arg2 (by decide)).trans
    ((W8_of_ne m c main_arg2 (by decide)).trans (hostKeep3 m c main_arg2 (by decide)))))
/-- The scattered sums reach the normalisation as the scatter left them: the statistics region reads them through an input
    window, the reshapes of the scale and shift do not write them. -/
theorem keep2_scat : W11 m c (Proc.devRef .tc main_v43) = W9 m c (Proc.devRef .tc main_v43) :=
  (hostKeep5 m c main_v43 (by decide)).trans (regIn4 m c 0 rfl)
theorem keep2_mean : W11 m c (Proc.devRef .tc main_v44_0) = W10 m c (Proc.devRef .tc main_v44_0) :=
  hostKeep5 m c main_v44_0 (by decide)
theorem keep2_var : W11 m c (Proc.devRef .tc main_v44_1) = W10 m c (Proc.devRef .tc main_v44_1) :=
  hostKeep5 m c main_v44_1 (by decide)

end Cert.KernelIdeal.HandValue

end
-- ==== Proof.Value3.lean ====
/-
  The value of region 3: the array the product region leaves in its output window, as one function of the two arrays it
  reads. Each grid point writes back, for every one of the nine offsets k, rows 2000 t … 2000 t + 1999 of g[k] · W[k]:
  the entry at (k, p, o) is the sum over i of g (k, p, i) * W (k, i, o). The nine slab stores of a point tile its block and
  the eighty row tiles cover the array. At the instance where floats are extended reals.
-/
import proofs.«146613_j41781441855727_2_alg».proof.Proof.Region3
import Idealize.ShloMosaic.Lib.ValueIdx
import Idealize.ShloMosaic.Lib.Pipeline.Value
import Idealize.ShloMosaic.Lib.ValueLayout
import Idealize.ShloMosaic.PureOps.Ideal.Laws
import proofs.«146613_j41781441855727_2_alg».proof.Proof.LibDotRows
set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The batched product: entry `(k, p, o)` is the sum over the contracted axis of `g (k, p, i) * w (k, i, o)`. -/
def prod3 (g : FVec Ideal S9x160000x64 .bf16) (w : FVec Ideal S9x64x32 .bf16) : FVec Ideal S9x160000x32 .f32 := fun j =>
  ∑ i : Fin 64, g (ix3 (j 0) (j 1) i) * w (ix3 (j 0) i (j 2))

/-- The same product on one block of 2000 rows. -/
def blockProd3 (x0 : FVec Ideal S9x2000x64 .bf16) (x1 : FVec Ideal S9x64x32 .bf16) : FVec Ideal S9x2000x32 .f32 := fun y =>
  ∑ i : Fin 64, x0 (ix3 (y 0) (y 1) i) * x1 (ix3 (y 0) i (y 2))

/-- One slab's value at `(u, p, o)`: the matrix product of the two slabs, into a zero accumulator, read at `(p, o)`. -/
theorem slab3_apply (a : FVec Ideal S1x2000x64 .bf16) (b : FVec Ideal S1x64x32 .bf16) (u : Fin 1) (p : Fin 2000) (o : Fin 32) :
    k3_pay4 (F := Ideal) a b (ix3 u p o) = ∑ i : Fin 64, a (ix3 (0 : Fin 1) p i) * b (ix3 (0 : Fin 1) i o) := by
  unfold k3_pay4
  refine (shapeCast_ab_1ab_apply _ _ u p o).trans ?_
  refine (Cert.LibDotRows.matmul_zero_rows dot_S2000x64_S64x32_S2000x32_1_0_0_1_n_n none rfl rfl rfl rfl
    (fun _ _ => rfl) (fun _ _ => rfl) _ _ p o).trans ?_
  refine Finset.sum_congr rfl fun i _ => ?_
  rw [shapeCast_1ab_ab_apply, shapeCast_1ab_ab_apply]

/-- The nine slab payloads are the same term. -/
theorem pay3_5 (a : FVec Ideal S1x2000x64 .bf16) (b : FVec Ideal S1x64x32 .bf16) : k3_pay5 (F := Ideal) a b = k3_pay4 a b := rfl
theorem pay3_6 (a : FVec Ideal S1x2000x64 .bf16) (b : FVec Ideal S1x64x32 .bf16) : k3_pay6 (F := Ideal) a b = k3_pay4 a b := rfl
theorem pay3_7 (a : FVec Ideal S1x2000x64 .bf16) (b : FVec Ideal S1x64x32 .bf16) : k3_pay7 (F := Ideal) a b = k3_pay4 a b := rfl
theorem pay3_8 (a : FVec Ideal S1x2000x64 .bf16) (b : FVec Ideal S1x64x32 .bf16) : k3_pay8 (F := Ideal) a b = k3_pay4 a b := rfl
theorem pay3_9 (a : FVec Ideal S1x2000x64 .bf16) (b : FVec Ideal S1x64x32 .bf16) : k3_pay9 (F := Ideal) a b = k3_pay4 a b := rfl
theorem pay3_1 (a : FVec Ideal S1x2000x64 .bf16) (b : FVec Ideal S1x64x32 .bf16) : k3_pay1 (F := Ideal) (k3_pay10 a) b = k3_pay4 a b := rfl
theorem pay3_2 (a : FVec Ideal S1x2000x64 .bf16) (b : FVec Ideal S1x64x32 .bf16) : k3_pay2 (F := Ideal) a b = k3_pay4 a b := rfl
theorem pay3_3 (a : FVec Ideal S1x2000x64 .bf16) (b : FVec Ideal S1x64x32 .bf16) : k3_pay3 (F := Ideal) a b = k3_pay4 a b := rfl

/-- Slab `k` of the block's product: the slab payload of slab `k` of the two blocks, at a slab index, is `blockProd3`
    where the slab's rectangle puts that index. -/
theorem slab3_piece (k : ℕ) (hk : k < 9) (x0 : FVec Ideal S9x2000x64 .bf16) (x1 : FVec Ideal S9x64x32 .bf16)
    (inbA : ∀ a, (![k, 0, 0] : Fin 3 → ℕ) a + S1x2000x64.size a ≤ S9x2000x64.size a)
    (inbB : ∀ a, (![k, 0, 0] : Fin 3 → ℕ) a + S1x64x32.size a ≤ S9x64x32.size a)
    (inbC : ∀ a, (![k, 0, 0] : Fin 3 → ℕ) a + S1x2000x32.size a ≤ S9x2000x32.size a)
    (x : S1x2000x32.Idx) :
    k3_pay4 (F := Ideal) (View.ld x0 (Rect.unit (s := S9x2000x64) ![k, 0, 0] S1x2000x64.size inbA))
        (View.ld x1 (Rect.unit (s := S9x64x32) ![k, 0, 0] S1x64x32.size inbB)) x
      = blockProd3 x0 x1 ((Rect.unit (s := S9x2000x32) ![k, 0, 0] S1x2000x32.size inbC).emb x) := by
  obtain ⟨u, p, o, rfl⟩ : ∃ (u : Fin 1) (p : Fin 2000) (o : Fin 32), x = ix3 u p o := ⟨x 0, x 1, x 2, eq_ix3 x⟩
  have hu : u.val = 0 := by omega
  refine (slab3_apply _ _ u p o).trans ?_
  unfold blockProd3
  refine Finset.sum_congr rfl fun i _ => ?_
  congr 1
  · refine congrArg x0 (funext fun a => Fin.ext ?_)
    match a with
    | ⟨0, _⟩ => show k + 1 * 0 = k + 1 * u.val; omega
    | ⟨1, _⟩ => show 0 + 1 * p.val = 0 + 1 * p.val; rfl
    | ⟨2, _⟩ => show 0 + 1 * i.val = i.val; omega
  · refine congrArg x1 (funext fun a => Fin.ext ?_)
    match a with
    | ⟨0, _⟩ => show k + 1 * 0 = k + 1 * u.val; omega
    | ⟨1, _⟩ => show 0 + 1 * i.val = i.val; omega
    | ⟨2, _⟩ => show 0 + 1 * o.val = 0 + 1 * o.val; rfl

/-- The block after the body is the block's product: the nine slab stores are the nine slabs of one function. -/
theorem out3_2_eq (x0 : FVec Ideal S9x2000x64 .bf16) (x1 : FVec Ideal S9x64x32 .bf16) :
    out3_2 (F := Ideal) x0 x1 = blockProd3 x0 x1 := by
  funext y
  unfold out3_2
  refine View.canon_apply_of_pieces (Val := Elt Ideal) (blockProd3 x0 x1) _ ?_ y (cover3_2 _ _ _ _ _ _ _ _ _ y)
  intro p hp
  simp only [List.mem_cons, List.not_mem_nil, or_false] at hp
  rcases hp with rfl | rfl | rfl | rfl | rfl | rfl | rfl | rfl | rfl
  · intro x; rw [pay3_3]; exact slab3_piece 8 (by omega) x0 x1 inb_S9x2000x64_S1x2000x64_8_0_0 inb_S9x64x32_S1x64x32_8_0_0 inb_S9x2000x32_S1x2000x32_8_0_0 x
  · intro x; rw [pay3_2]; exact slab3_piece 7 (by omega) x0 x1 inb_S9x2000x64_S1x2000x64_7_0_0 inb_S9x64x32_S1x64x32_7_0_0 inb_S9x2000x32_S1x2000x32_7_0_0 x
  · intro x; rw [pay3_1]; exact slab3_piece 6 (by omega) x0 x1 inb_S9x2000x64_S1x2000x64_6_0_0 inb_S9x64x32_S1x64x32_6_0_0 inb_S9x2000x32_S1x2000x32_6_0_0 x
  · intro x; rw [pay3_9]; exact slab3_piece 5 (by omega) x0 x1 inb_S9x2000x64_S1x2000x64_5_0_0 inb_S9x64x32_S1x64x32_5_0_0 inb_S9x2000x32_S1x2000x32_5_0_0 x
  · intro x; rw [pay3_8]; exact slab3_piece 4 (by omega) x0 x1 inb_S9x2000x64_S1x2000x64_4_0_0 inb_S9x64x32_S1x64x32_4_0_0 inb_S9x2000x32_S1x2000x32_4_0_0 x
  · intro x; rw [pay3_7]; exact slab3_piece 3 (by omega) x0 x1 inb_S9x2000x64_S1x2000x64_3_0_0 inb_S9x64x32_S1x64x32_3_0_0 inb_S9x2000x32_S1x2000x32_3_0_0 x
  · intro x; rw [pay3_6]; exact slab3_piece 2 (by omega) x0 x1 inb_S9x2000x64_S1x2000x64_2_0_0 inb_S9x64x32_S1x64x32_2_0_0 inb_S9x2000x32_S1x2000x32_2_0_0 x
  · intro x; rw [pay3_5]; exact slab3_piece 1 (by omega) x0 x1 inb_S9x2000x64_S1x2000x64_1_0_0 inb_S9x64x32_S1x64x32_1_0_0 inb_S9x2000x32_S1x2000x32_1_0_0 x
  · intro x; exact slab3_piece 0 (by omega) x0 x1 inb_S9x2000x64_S1x2000x64_0_0_0 inb_S9x64x32_S1x64x32_0_0_0 inb_S9x2000x32_S1x2000x32_0_0_0 x

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: the gathered rows and the output sit at row block `t` of every offset, the
    weights at block 0. -/
theorem idx_facts3 : ∀ t : Fin cfg3.N,
    win3_0.index t (0 : Fin 3) = 0 ∧ win3_0.index t (1 : Fin 3) = t.val ∧ win3_0.index t (2 : Fin 3) = 0
    ∧ win3_1.index t (0 : Fin 3) = 0 ∧ win3_1.index t (1 : Fin 3) = 0 ∧ win3_1.index t (2 : Fin 3) = 0
    ∧ win3_2.index t (0 : Fin 3) = 0 ∧ win3_2.index t (1 : Fin 3) = t.val ∧ win3_2.index t (2 : Fin 3) = 0 :=
  (by decide +kernel : ∀ t : Fin grid3.N, _)

/-- An entry of a row tile of the gathered rows is the array's entry `2000 t` rows further down, at the same offset. -/
theorem iblk3_0_apply (c : Dev nD) (t : Fin cfg3.N) (k : Fin 9) (p : Fin 2000) (q : Fin 64) (p' : Fin 160000)
    (hp : p'.val = t.val * 2000 + p.val) :
    (iblk3 V c 0 t : Vec Ideal S9x2000x64 .bf16) (ix3 k p q)
      = (V c (Pipeline.arrRef spec3 0) : S9x160000x64.Idx → Ideal .bf16) (ix3 k p' q) := by
  obtain ⟨e0, e1, e2, -⟩ := idx_facts3 t
  show (V c (Pipeline.arrRef spec3 0) : S9x160000x64.Idx → Ideal .bf16) (((cfg3.win 0).blk t).view.emb (ix3 k p q)) = _
  refine congrArg _ (funext fun a => Fin.ext ?_)
  match a with
  | ⟨0, _⟩ => show win3_0.index t (0 : Fin 3) * 9 + 1 * k.val = k.val; rw [e0]; omega
  | ⟨1, _⟩ => show win3_0.index t (1 : Fin 3) * 2000 + 1 * p.val = p'.val; rw [e1, hp]; omega
  | ⟨2, _⟩ => show win3_0.index t (2 : Fin 3) * 64 + 1 * q.val = q.val; rw [e2]; omega

/-- The weights' block is the whole weight array, at every point. -/
theorem iblk3_1_eq (c : Dev nD) (t : Fin cfg3.N) :
    (iblk3 V c 1 t : Vec Ideal S9x64x32 .bf16) = (V c (Pipeline.arrRef spec3 1) : S9x64x32.Idx → Ideal .bf16) := by
  obtain ⟨-, -, -, e0, e1, e2, -⟩ := idx_facts3 t
  funext y
  show (V c (Pipeline.arrRef spec3 1) : S9x64x32.Idx → Ideal .bf16) (((cfg3.win 1).blk t).view.emb y) = _
  refine congrArg _ (funext fun a => Fin.ext ?_)
  match a with
  | ⟨0, _⟩ => show win3_1.index t (0 : Fin 3) * 9 + 1 * (y 0).val = (y 0).val; rw [e0]; omega
  | ⟨1, _⟩ => show win3_1.index t (1 : Fin 3) * 64 + 1 * (y 1).val = (y 1).val; rw [e1]; omega
  | ⟨2, _⟩ => show win3_1.index t (2 : Fin 3) * 32 + 1 * (y 2).val = (y 2).val; rw [e2]; omega

/-- The arithmetic of one entry: the block's product at a block index is the arrays' product at the array index it sits at,
    when the gathered block's rows are the array's rows `2000 tv` further down and the weights' block is the weight array. -/
theorem prod3_point (g : FVec Ideal S9x160000x64 .bf16) (w : FVec Ideal S9x64x32 .bf16)
    (x0 : FVec Ideal S9x2000x64 .bf16) (x1 : FVec Ideal S9x64x32 .bf16) (tv : ℕ) (y : S9x2000x32.Idx) (i : S9x160000x32.Idx)
    (hx0 : ∀ (k : Fin 9) (p : Fin 2000) (q : Fin 64) (p' : Fin 160000), p'.val = tv * 2000 + p.val → x0 (ix3 k p q) = g (ix3 k p' q))
    (hx1 : x1 = w) (h0 : (i 0).val = (y 0).val) (h1 : (i 1).val = tv * 2000 + (y 1).val) (h2 : (i 2).val = (y 2).val) :
    blockProd3 x0 x1 y = prod3 g w i := by
  subst hx1
  unfold blockProd3 prod3
  have e0 : (i 0 : Fin 9) = y 0 := Fin.ext h0
  have e2 : (i 2 : Fin 32) = y 2 := Fin.ext h2
  refine Finset.sum_congr rfl fun q _ => ?_
  rw [hx0 (y 0) (y 1) q (i 1) h1, e0, e2]

set_option maxHeartbeats 1600000 in
/-- What point `t` writes back is block `t` of `prod3` of the two arrays as the region finds them. -/
theorem flushed3_eq (c : Dev nD) (t : Fin cfg3.N) :
    (dat3 (F := Ideal) V c).flushed 2 t = ((cfg3.win 2).blk t).view.read (Elt Ideal)
      (prod3 (V c (Pipeline.arrRef spec3 0)) (V c (Pipeline.arrRef spec3 1))) := by
  show (cfg3.win 2).cut (grid3.coords t) ((dat3 V c).after 2 t) = _
  rw [after3_2, out3_2_eq]
  obtain ⟨-, -, -, -, -, -, e0, e1, e2⟩ := idx_facts3 t
  funext j
  have h0 : ((((cfg3.win 2).blk t).view.emb j : S9x160000x32.Idx) 0).val = (((cfg3.win 2).xinj (grid3.coords t) j : S9x2000x32.Idx) 0).val := by
    show win3_2.index t (0 : Fin 3) * 9 + 1 * (j 0).val = (j 0).val
    rw [e0]; omega
  have h1 : ((((cfg3.win 2).blk t).view.emb j : S9x160000x32.Idx) 1).val = t.val * 2000 + (((cfg3.win 2).xinj (grid3.coords t) j : S9x2000x32.Idx) 1).val := by
    show win3_2.index t (1 : Fin 3) * 2000 + 1 * (j 1).val = t.val * 2000 + (j 1).val
    rw [e1]; omega
  have h2 : ((((cfg3.win 2).blk t).view.emb j : S9x160000x32.Idx) 2).val = (((cfg3.win 2).xinj (grid3.coords t) j : S9x2000x32.Idx) 2).val := by
    show win3_2.index t (2 : Fin 3) * 32 + 1 * (j 2).val = (j 2).val
    rw [e2]; omega
  exact prod3_point (V c (Pipeline.arrRef spec3 0)) (V c (Pipeline.arrRef spec3 1)) (iblk3 V c 0 t) (iblk3 V c 1 t) t.val
    ((cfg3.win 2).xinj (grid3.coords t) j) (((cfg3.win 2).blk t).view.emb j)
    (fun k p q p' hp => iblk3_0_apply V c t k p q p' hp) (iblk3_1_eq V c t) h0 h1 h2

/-- An index of the array is in point `t`'s block iff each coordinate is in the block's range on its axis. -/
theorem mem_blk3 (t : Fin cfg3.N) (i : S9x160000x32.Idx) :
    i ∈ ((cfg3.win 2).blk t).view.set ↔ ∀ a : Fin 3, win3_2.index t a * S9x2000x32.size a ≤ (i a).val ∧ (i a).val < win3_2.index t a * S9x2000x32.size a + S9x2000x32.size a := by
  show i ∈ ((View.whole main_v33).slice (win3_2.rect t)).set ↔ _
  rw [View.set_slice_whole, Rect.mem_set_unit]
  exact Iff.rfl

/-- Every index of the array is in the block of the point its row falls to: row `r` is in row tile `r / 2000`. -/
theorem cover3 (i : S9x160000x32.Idx) : ∃ t : Fin cfg3.N, (cfg3.win 2).flush t = true ∧ i ∈ ((cfg3.win 2).blk t).view.set := by
  have hN : cfg3.N = 80 := N_3
  have hi0 : (i 0).val < 9 := (i 0).isLt
  have hi1 : (i 1).val < 160000 := (i 1).isLt
  have hi2 : (i 2).val < 32 := (i 2).isLt
  have ht : (i 1).val / 2000 < cfg3.N := by rw [hN]; omega
  obtain ⟨-, -, -, -, -, -, e0, e1, e2⟩ := idx_facts3 ⟨(i 1).val / 2000, ht⟩
  refine ⟨⟨(i 1).val / 2000, ht⟩, flush3_2 _, ?_⟩
  rw [mem_blk3]
  intro a
  match a with
  | ⟨0, _⟩ =>
    show win3_2.index ⟨(i 1).val / 2000, ht⟩ (0 : Fin 3) * 9 ≤ (i 0).val ∧ (i 0).val < win3_2.index ⟨(i 1).val / 2000, ht⟩ (0 : Fin 3) * 9 + 9
    rw [e0]; omega
  | ⟨1, _⟩ =>
    show win3_2.index ⟨(i 1).val / 2000, ht⟩ (1 : Fin 3) * 2000 ≤ (i 1).val ∧ (i 1).val < win3_2.index ⟨(i 1).val / 2000, ht⟩ (1 : Fin 3) * 2000 + 2000
    rw [e1]; show (i 1).val / 2000 * 2000 ≤ (i 1).val ∧ (i 1).val < (i 1).val / 2000 * 2000 + 2000; omega
  | ⟨2, _⟩ =>
    show win3_2.index ⟨(i 1).val / 2000, ht⟩ (2 : Fin 3) * 32 ≤ (i 2).val ∧ (i 2).val < win3_2.index ⟨(i 1).val / 2000, ht⟩ (2 : Fin 3) * 32 + 32
    rw [e2]; omega

/-- The output array after the region is `prod3` of the two input arrays as the region finds them. -/
theorem value3 (c : Dev nD) : (dat3 (F := Ideal) V c).arrAt 2 cfg3.N
    = prod3 (V c (Pipeline.arrRef spec3 0)) (V c (Pipeline.arrRef spec3 1)) :=
  (dat3 (F := Ideal) V c).arrAt_eq_of_cover 2 _ (fun t _ => flushed3_eq V c t) cover3

end Cert.KernelIdeal.HandValue

end
-- ==== Proof.Value5.lean ====
/-
  The value of region 5: the array the normalise region leaves in its output window, as one function of the six arrays
  it reads. Each grid point writes back rows 8000 t … 8000 t + 7999 of
      (o - mean) * rsqrt(var + eps) * gamma + beta + skip,
  the mean, variance, scale and shift being rows broadcast down the columns; the eighty row tiles cover the array. At the
  instance where floats are extended reals.
-/
import proofs.«146613_j41781441855727_2_alg».proof.Proof.Region5
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The normalised array: every entry of the sums minus its column's mean, times the reciprocal square root of the
    column's variance plus the stabiliser, times the column's scale, plus the column's shift, plus the residual. -/
def norm5 (o : FVec Ideal S640000x32 .f32) (mean var gamma beta : FVec Ideal S1x32 .f32) (skip : FVec Ideal S640000x32 .f32) :
    FVec Ideal S640000x32 .f32 := fun j =>
  ((o j - mean (ix2 (0 : Fin 1) (j 1))) * Ideal.rsqrt (var (ix2 (0 : Fin 1) (j 1)) + Ideal.ofBits .f32 0x3727C5AC#32)
      * gamma (ix2 (0 : Fin 1) (j 1)) + beta (ix2 (0 : Fin 1) (j 1))) + skip j

theorem hz5 : (![0, 0] : Fin 2 → Nat) = fun _ => 0 := funext fun a => by fin_cases a <;> rfl

/-- The body's value at row `p`, column `q` of a block: the same arithmetic on the block's entries and on column `q` of
    the four rows. -/
theorem pay5_apply (m v g b : FVec Ideal S1x32 .f32) (x s : FVec Ideal S8000x32 .f32) (p : Fin 8000) (q : Fin 32) :
    k5_pay1 (F := Ideal) m v g b x s (ix2 p q)
      = ((x (ix2 p q) - m (ix2 (0 : Fin 1) q)) * Ideal.rsqrt (v (ix2 (0 : Fin 1) q) + Ideal.ofBits .f32 0x3727C5AC#32)
          * g (ix2 (0 : Fin 1) q) + b (ix2 (0 : Fin 1) q)) + s (ix2 p q) := by
  unfold k5_pay1
  simp only [shapeCast_self]
  rw [addf_apply, addf_apply, mulf_apply, mulf_apply, subf_apply,
    broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

/-- The printed index maps over the grid: the three row-tiled windows sit at row block `t`, the four rows at block 0. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- The arithmetic of one entry: a block entry of the body's value is the entry of `norm5` it sits at, when the two tiled
    blocks' entries are the arrays' entries there, the four rows are the arrays' rows and the columns agree. -/
theorem pay5_point (o skip : FVec Ideal S640000x32 .f32) (mean var gamma beta : FVec Ideal S1x32 .f32)
    (x s : FVec Ideal S8000x32 .f32) (m v g b : FVec Ideal S1x32 .f32) (y : S8000x32.Idx) (i : S640000x32.Idx)
    (hx : x y = o i) (hs : s y = skip i) (hm : m = mean) (hv : v = var) (hg : g = gamma) (hb : b = beta)
    (h1 : (i 1).val = (y 1).val) :
    k5_pay1 (F := Ideal) m v g b x s y = norm5 o mean var gamma beta skip i := by
  subst hm hv hg hb
  obtain ⟨p, q, rfl⟩ : ∃ (p : Fin 8000) (q : Fin 32), y = ix2 p q := ⟨y 0, y 1, eq_ix2 y⟩
  have hq : (i 1 : Fin 32) = q := Fin.ext h1
  rw [pay5_apply, hx, hs]
  unfold norm5
  rw [hq]

/-- An entry of a row tile of the sums is the array's entry `8000 t` rows further down. -/
theorem iblk5_0_apply (c : Dev nD) (t : Fin cfg5.N) (y : S8000x32.Idx) (i : S640000x32.Idx)
    (h0 : (i 0).val = t.val * 8000 + (y 0).val) (h1 : (i 1).val = (y 1).val) :
    (iblk5 V c 0 t : Vec Ideal S8000x32 .f32) y = (V c (Pipeline.arrRef spec5 0) : S640000x32.Idx → Ideal .f32) i := by
  obtain ⟨e0, e1, -⟩ := idx_facts5 t
  show (V c (Pipeline.arrRef spec5 0) : S640000x32.Idx → Ideal .f32) (((cfg5.win 0).blk t).view.emb y) = _
  refine congrArg _ (funext fun a => Fin.ext ?_)
  match a with
  | ⟨0, _⟩ => show win5_0.index t (0 : Fin 2) * 8000 + 1 * (y 0).val = (i 0).val; rw [e0, h0]; omega
  | ⟨1, _⟩ => show win5_0.index t (1 : Fin 2) * 32 + 1 * (y 1).val = (i 1).val; rw [e1, h1]; omega

/-- The same for the residual's row tile. -/
theorem iblk5_5_apply (c : Dev nD) (t : Fin cfg5.N) (y : S8000x32.Idx) (i : S640000x32.Idx)
    (h0 : (i 0).val = t.val * 8000 + (y 0).val) (h1 : (i 1).val = (y 1).val) :
    (iblk5 V c 5 t : Vec Ideal S8000x32 .f32) y = (V c (Pipeline.arrRef spec5 5) : S640000x32.Idx → Ideal .f32) i := by
  obtain ⟨-, -, -, -, -, -, -, -, -, -, e0, e1, -⟩ := idx_facts5 t
  show (V c (Pipeline.arrRef spec5 5) : S640000x32.Idx → Ideal .f32) (((cfg5.win 5).blk t).view.emb y) = _
  refine congrArg _ (funext fun a => Fin.ext ?_)
  match a with
  | ⟨0, _⟩ => show win5_5.index t (0 : Fin 2) * 8000 + 1 * (y 0).val = (i 0).val; rw [e0, h0]; omega
  | ⟨1, _⟩ => show win5_5.index t (1 : Fin 2) * 32 + 1 * (y 1).val = (i 1).val; rw [e1, h1]; omega

/-- The block of a one-row window is the whole row, at every point. -/
theorem iblk5_1_eq (c : Dev nD) (t : Fin cfg5.N) :
    (iblk5 V c 1 t : Vec Ideal S1x32 .f32) = (V c (Pipeline.arrRef spec5 1) : S1x32.Idx → Ideal .f32) := by
  obtain ⟨-, -, e0, e1, -⟩ := idx_facts5 t
  funext y
  show (V c (Pipeline.arrRef spec5 1) : S1x32.Idx → Ideal .f32) (((cfg5.win 1).blk t).view.emb y) = _
  refine congrArg _ (funext fun a => Fin.ext ?_)
  match a with
  | ⟨0, _⟩ => show win5_1.index t (0 : Fin 2) * 1 + 1 * (y 0).val = (y 0).val; rw [e0]; omega
  | ⟨1, _⟩ => show win5_1.index t (1 : Fin 2) * 32 + 1 * (y 1).val = (y 1).val; rw [e1]; omega
theorem iblk5_2_eq (c : Dev nD) (t : Fin cfg5.N) :
    (iblk5 V c 2 t : Vec Ideal S1x32 .f32) = (V c (Pipeline.arrRef spec5 2) : S1x32.Idx → Ideal .f32) := by
  obtain ⟨-, -, -, -, e0, e1, -⟩ := idx_facts5 t
  funext y
  show (V c (Pipeline.arrRef spec5 2) : S1x32.Idx → Ideal .f32) (((cfg5.win 2).blk t).view.emb y) = _
  refine congrArg _ (funext fun a => Fin.ext ?_)
  match a with
  | ⟨0, _⟩ => show win5_2.index t (0 : Fin 2) * 1 + 1 * (y 0).val = (y 0).val; rw [e0]; omega
  | ⟨1, _⟩ => show win5_2.index t (1 : Fin 2) * 32 + 1 * (y 1).val = (y 1).val; rw [e1]; omega
theorem iblk5_3_eq (c : Dev nD) (t : Fin cfg5.N) :
    (iblk5 V c 3 t : Vec Ideal S1x32 .f32) = (V c (Pipeline.arrRef spec5 3) : S1x32.Idx → Ideal .f32) := by
  obtain ⟨-, -, -, -, -, -, e0, e1, -⟩ := idx_facts5 t
  funext y
  show (V c (Pipeline.arrRef spec5 3) : S1x32.Idx → Ideal .f32) (((cfg5.win 3).blk t).view.emb y) = _
  refine congrArg _ (funext fun a => Fin.ext ?_)
  match a with
  | ⟨0, _⟩ => show win5_3.index t (0 : Fin 2) * 1 + 1 * (y 0).val = (y 0).val; rw [e0]; omega
  | ⟨1, _⟩ => show win5_3.index t (1 : Fin 2) * 32 + 1 * (y 1).val = (y 1).val; rw [e1]; omega
theorem iblk5_4_eq (c : Dev nD) (t : Fin cfg5.N) :
    (iblk5 V c 4 t : Vec Ideal S1x32 .f32) = (V c (Pipeline.arrRef spec5 4) : S1x32.Idx → Ideal .f32) := by
  obtain ⟨-, -, -, -, -, -, -, -, e0, e1, -⟩ := idx_facts5 t
  funext y
  show (V c (Pipeline.arrRef spec5 4) : S1x32.Idx → Ideal .f32) (((cfg5.win 4).blk t).view.emb y) = _
  refine congrArg _ (funext fun a => Fin.ext ?_)
  match a with
  | ⟨0, _⟩ => show win5_4.index t (0 : Fin 2) * 1 + 1 * (y 0).val = (y 0).val; rw [e0]; omega
  | ⟨1, _⟩ => show win5_4.index t (1 : Fin 2) * 32 + 1 * (y 1).val = (y 1).val; rw [e1]; omega

set_option maxHeartbeats 1600000 in
/-- What point `t` writes back is block `t` of `norm5` of the arrays as the region finds them. -/
theorem flushed5_eq (c : Dev nD) (t : Fin cfg5.N) :
    (dat5 (F := Ideal) V c).flushed 6 t = ((cfg5.win 6).blk t).view.read (Elt Ideal)
      (norm5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S8000x32) hz5, View.ld_unit_zero (S := S1x32) hz5]
  obtain ⟨-, -, -, -, -, -, -, -, -, -, -, -, e0, e1⟩ := idx_facts5 t
  funext j
  have h0 : ((((cfg5.win 6).blk t).view.emb j : S640000x32.Idx) 0).val = t.val * 8000 + (((cfg5.win 6).xinj (grid5.coords t) j : S8000x32.Idx) 0).val := by
    show win5_6.index t (0 : Fin 2) * 8000 + 1 * (j 0).val = t.val * 8000 + (j 0).val
    rw [e0]; omega
  have h1 : ((((cfg5.win 6).blk t).view.emb j : S640000x32.Idx) 1).val = (((cfg5.win 6).xinj (grid5.coords t) j : S8000x32.Idx) 1).val := by
    show win5_6.index t (1 : Fin 2) * 32 + 1 * (j 1).val = (j 1).val
    rw [e1]; omega
  exact pay5_point (V c (Pipeline.arrRef spec5 0)) (V c (Pipeline.arrRef spec5 5)) (V c (Pipeline.arrRef spec5 1))
    (V c (Pipeline.arrRef spec5 2)) (V c (Pipeline.arrRef spec5 3)) (V c (Pipeline.arrRef spec5 4))
    (iblk5 V c 0 t) (iblk5 V c 5 t) (iblk5 V c 1 t) (iblk5 V c 2 t) (iblk5 V c 3 t) (iblk5 V c 4 t)
    ((cfg5.win 6).xinj (grid5.coords t) j) (((cfg5.win 6).blk t).view.emb j)
    (iblk5_0_apply V c t _ _ h0 h1) (iblk5_5_apply V c t _ _ h0 h1)
    (iblk5_1_eq V c t) (iblk5_2_eq V c t) (iblk5_3_eq V c t) (iblk5_4_eq V c t) h1

/-- An index of the array is in point `t`'s block iff each coordinate is in the block's range on its axis. -/
theorem mem_blk5 (t : Fin cfg5.N) (i : S640000x32.Idx) :
    i ∈ ((cfg5.win 6).blk t).view.set ↔ ∀ a : Fin 2, win5_6.index t a * S8000x32.size a ≤ (i a).val ∧ (i a).val < win5_6.index t a * S8000x32.size a + S8000x32.size a := by
  show i ∈ ((View.whole main_v47).slice (win5_6.rect t)).set ↔ _
  rw [View.set_slice_whole, Rect.mem_set_unit]
  exact Iff.rfl

/-- Every index of the array is in the block of the point its row falls to: row `r` is in row tile `r / 8000`. -/
theorem cover5 (i : S640000x32.Idx) : ∃ t : Fin cfg5.N, (cfg5.win 6).flush t = true ∧ i ∈ ((cfg5.win 6).blk t).view.set := by
  have hN : cfg5.N = 80 := N_5
  have hi0 : (i 0).val < 640000 := (i 0).isLt
  have hi1 : (i 1).val < 32 := (i 1).isLt
  have ht : (i 0).val / 8000 < cfg5.N := by rw [hN]; omega
  obtain ⟨-, -, -, -, -, -, -, -, -, -, -, -, e0, e1⟩ := idx_facts5 ⟨(i 0).val / 8000, ht⟩
  refine ⟨⟨(i 0).val / 8000, ht⟩, flush5_6 _, ?_⟩
  rw [mem_blk5]
  intro a
  match a with
  | ⟨0, _⟩ =>
    show win5_6.index ⟨(i 0).val / 8000, ht⟩ (0 : Fin 2) * 8000 ≤ (i 0).val ∧ (i 0).val < win5_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win5_6.index ⟨(i 0).val / 8000, ht⟩ (1 : Fin 2) * 32 ≤ (i 1).val ∧ (i 1).val < win5_6.index ⟨(i 0).val / 8000, ht⟩ (1 : Fin 2) * 32 + 32
    rw [e1]; omega

/-- The output array after the region is `norm5` of the six input arrays as the region finds them. -/
theorem value5 (c : Dev nD) : (dat5 (F := Ideal) V c).arrAt 6 cfg5.N
    = norm5 (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5)) :=
  (dat5 (F := Ideal) V c).arrAt_eq_of_cover 6 _ (fun t _ => flushed5_eq V c t) cover5

end Cert.KernelIdeal.HandValue

end
-- ==== Proof.Region4Value.lean ====
/-
  Region 4 of the kernel program at the ideal values: what the mean's and the variance's arrays hold after the region, read
  at an index. The body's payloads at an index are the extended reals' operations: adding a block to an accumulator adds the
  finite sum down the block's column; the blocks of the input are consecutive runs of 8000 rows of its array, so after the
  last of the 80 points the accumulators hold the sums over all 640000 rows; each output window is written back at the
  last point only and its block is its whole array.
-/
import proofs.«146613_j41781441855727_2_alg».proof.Proof.Region4
import proofs.«146613_j41781441855727_2_alg».proof.Proof.LibColumnSum
import proofs.«146613_j41781441855727_2_alg».proof.Proof.LibTenBlocks
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's payloads read at an index, at the ideal values -/

/-- Row 0, column `j` of a one-row matrix, with the row coordinate dropped, is column `j`. -/
theorem tail_ix2_4 (j : Fin 32) : (fun a : Fin 1 => (ix2 (0 : Fin 1) j) a.succ) = ix1 j := by
  funext a; match a with | ⟨0, _⟩ => rfl

/-- The cleared accumulator is the zero row. -/
theorem pay1_apply4 (i : S1x32.Idx) : (k4_pay1 (F := Ideal)) i = 0 := by
  unfold k4_pay1
  simp only [shapeCast_self]
  exact Ideal.ofBits_zero_f32
theorem pay2_apply4 (i : S1x32.Idx) : (k4_pay2 (F := Ideal)) i = 0 := by
  unfold k4_pay2
  simp only [shapeCast_self]
  exact Ideal.ofBits_zero_f32

/-- Adding a block to the sums: column `j` gains the sum of the block's column `j`. -/
theorem pay4_apply4 (v3 : Vec Ideal S8000x32 .f32) (v5 : Vec Ideal S1x32 .f32) (j : Fin 32) :
    k4_pay4 v3 v5 (ix2 (0 : Fin 1) j) = v5 (ix2 (0 : Fin 1) j) + ∑ k : Fin 8000, v3 (ix2 k j) := by
  unfold k4_pay4 k4_pay3
  simp only [shapeCast_self]
  show v5 (ix2 (0 : Fin 1) j) + shapeCast S1x32 (multiReduction (F := Ideal) .add [0] S32 v3 0x00000000#32 reduces_S8000x32_S32 (.inl rfl) rfl) shapeCasts_S32_S1x32 (ix2 (0 : Fin 1) j) = _
  refine congrArg (v5 (ix2 (0 : Fin 1) j) + ·) ?_
  refine (shapeCast_addUnit_apply ![32] _ shapeCasts_S32_S1x32 (ix2 (0 : Fin 1) j)).trans ?_
  refine (congrArg _ (tail_ix2_4 j)).trans ?_
  exact Cert.ColumnSum.colSum_apply v3 reduces_S8000x32_S32 (.inl rfl) rfl j

/-- Adding a block to the sums of squares: column `j` gains the sum of the squares of the block's column `j`. -/
theorem pay5_apply4 (v3 : Vec Ideal S8000x32 .f32) (v12 : Vec Ideal S1x32 .f32) (j : Fin 32) :
    k4_pay5 v3 v12 (ix2 (0 : Fin 1) j) = v12 (ix2 (0 : Fin 1) j) + ∑ k : Fin 8000, v3 (ix2 k j) * v3 (ix2 k j) := by
  unfold k4_pay5 k4_pay3
  simp only [shapeCast_self]
  show v12 (ix2 (0 : Fin 1) j) + shapeCast S1x32 (multiReduction (F := Ideal) .add [0] S32 (mulf v3 v3) 0x00000000#32 reduces_S8000x32_S32 (.inl rfl) rfl) shapeCasts_S32_S1x32 (ix2 (0 : Fin 1) j) = _
  refine congrArg (v12 (ix2 (0 : Fin 1) j) + ·) ?_
  refine (shapeCast_addUnit_apply ![32] _ shapeCasts_S32_S1x32 (ix2 (0 : Fin 1) j)).trans ?_
  refine (congrArg _ (tail_ix2_4 j)).trans ?_
  exact Cert.ColumnSum.colSum_apply (mulf v3 v3) reduces_S8000x32_S32 (.inl rfl) rfl j

/-- The mean row: the sums divided by the row count. -/
theorem pay6_apply4 (v : Vec Ideal S1x32 .f32) (i : S1x32.Idx) :
    k4_pay6 v i = Ideal.div (v i) (Ideal.ofBits .f32 0x491C4000#32) := rfl

/-- The variance row: the sums of squares divided by the row count, minus the square of the mean. -/
theorem pay7_apply4 (v w : Vec Ideal S1x32 .f32) (i : S1x32.Idx) :
    k4_pay7 v w i = Ideal.div (w i) (Ideal.ofBits .f32 0x491C4000#32)
      - Ideal.div (v i) (Ideal.ofBits .f32 0x491C4000#32) * Ideal.div (v i) (Ideal.ofBits .f32 0x491C4000#32) := rfl

variable (V : (c : Dev nD) → (b : Ref sig .tc) → Buf (Elt Ideal) ((c : Thread nD τ).loc b))

/-- The input array as the region finds it, at its shape: 640000 rows of 32 columns. -/
abbrev inArr4 (c : Dev nD) : Vec Ideal S640000x32 .f32 := V c (Pipeline.arrRef spec4 0)

/-! ## The blocks of the input are consecutive rows of its array -/

/-- The input's index map, decided over the grid: block `t` starts at row block `t`, column block 0. -/
theorem idx_facts4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row `r`, column `j` of block `t` is row `8000 t + r`, column `j` of the array. -/
theorem iblk4_apply (c : Dev nD) (t : Fin cfg4.N) (r : Fin 8000) (j : Fin 32) (hr : t.val * 8000 + r.val < 640000) :
    iblk4 V c 0 t (ix2 r j) = inArr4 V c (ix2 (⟨t.val * 8000 + r.val, hr⟩ : Fin 640000) j) := by
  obtain ⟨e0, e1⟩ := idx_facts4_0 t
  show V c main_v43 (((cfg4.win 0).blk t).view.emb (ix2 r j)) = V c main_v43 _
  refine congrArg (V c main_v43) ?_
  funext a; apply Fin.ext
  match a with
  | ⟨0, _⟩ => show win4_0.index t (0 : Fin 2) * 8000 + 1 * r.val = t.val * 8000 + r.val; omega
  | ⟨1, _⟩ => show win4_0.index t (1 : Fin 2) * 32 + 1 * j.val = j.val; omega

/-- Column `j` of the input array as a function of the row number (zero past the last row), under a function `φ` of the entry. -/
def col4 (c : Dev nD) (j : Fin 32) (φ : Ideal .f32 → Ideal .f32) (r : ℕ) : Ideal .f32 :=
  if h : r < 640000 then φ (inArr4 V c (ix2 (⟨r, h⟩ : Fin 640000) j)) else 0

theorem col4_blk (c : Dev nD) (j : Fin 32) (φ : Ideal .f32 → Ideal .f32) (t : Fin cfg4.N) (q : Fin 8000) :
    φ (iblk4 V c 0 t (ix2 q j)) = col4 V c j φ (t.val * 8000 + q.val) := by
  have hN : cfg4.N = 80 := N_4
  have hr : t.val * 8000 + q.val < 640000 := by have := t.isLt; have := q.isLt; omega
  unfold col4
  rw [dif_pos hr, iblk4_apply V c t q j hr]

/-! ## The 80 blocks of 8000 rows are the 640000 rows -/

/-- A running sum over the grid that starts at zero plus the first block's sum and adds the next block's sum at each
    later point is, after the last point, the sum over all rows. -/
theorem acc_total4 (S : (n : ℕ) → n < cfg4.N → Ideal .f32) (g : ℕ → Ideal .f32)
    (h0 : ∀ h, S 0 h = 0 + ∑ q : Fin 8000, g (0 * 8000 + q.val))
    (hs : ∀ n (h : n + 1 < cfg4.N), S (n + 1) h = S n (Nat.lt_of_succ_lt h) + ∑ q : Fin 8000, g ((n + 1) * 8000 + q.val))
    (h19 : 79 < cfg4.N) : S 79 h19 = ∑ r : Fin 640000, g r.val := by
  rw [Cert.TenBlocks.running_sum cfg4.N S (fun t => ∑ q : Fin 8000, g (t * 8000 + q.val)) 0 h0 hs 79 h19, zero_add]
  calc ∑ t ∈ Finset.range (79 + 1), ∑ q : Fin 8000, g (t * 8000 + q.val)
      = ∑ t ∈ Finset.range 80, ∑ q ∈ Finset.range 8000, g (t * 8000 + q) :=
        Finset.sum_congr rfl fun t _ => (Finset.sum_range fun q => g (t * 8000 + q)).symm
    _ = ∑ r ∈ Finset.range (80 * 8000), g r := Cert.TenBlocks.sum_range_mul g 80 8000
    _ = ∑ r : Fin 640000, g r.val := Finset.sum_range g

/-- After the last point the accumulator of sums holds, in column `j`, the sum of column `j` of the array. -/
theorem sumAcc4_total (c : Dev nD) (j : Fin 32) (h19 : 79 < cfg4.N) :
    sumAcc4 V c 79 h19 (ix2 (0 : Fin 1) j) = ∑ r : Fin 640000, inArr4 V c (ix2 r j) := by
  refine (acc_total4 (fun n h => sumAcc4 V c n h (ix2 (0 : Fin 1) j)) (col4 V c j id) ?_ ?_ h19).trans ?_
  · intro h
    show sumAcc4 V c 0 h (ix2 (0 : Fin 1) j) = _
    rw [sumAcc4_zero, pay4_apply4, pay1_apply4]
    exact congrArg (0 + ·) (Finset.sum_congr rfl fun q _ => col4_blk V c j id ⟨0, h⟩ q)
  · intro n h
    show sumAcc4 V c (n + 1) h (ix2 (0 : Fin 1) j) = sumAcc4 V c n _ (ix2 (0 : Fin 1) j) + _
    rw [sumAcc4_succ, pay4_apply4]
    exact congrArg (sumAcc4 V c n _ (ix2 (0 : Fin 1) j) + ·) (Finset.sum_congr rfl fun q _ => col4_blk V c j id ⟨n + 1, h⟩ q)
  · exact Finset.sum_congr rfl fun r _ => dif_pos r.isLt

/-- And the accumulator of sums of squares the sum of the squares of column `j`. -/
theorem sqAcc4_total (c : Dev nD) (j : Fin 32) (h19 : 79 < cfg4.N) :
    sqAcc4 V c 79 h19 (ix2 (0 : Fin 1) j)
      = ∑ r : Fin 640000, inArr4 V c (ix2 r j) * inArr4 V c (ix2 r j) := by
  refine (acc_total4 (fun n h => sqAcc4 V c n h (ix2 (0 : Fin 1) j)) (col4 V c j fun x => x * x) ?_ ?_ h19).trans ?_
  · intro h
    show sqAcc4 V c 0 h (ix2 (0 : Fin 1) j) = _
    rw [sqAcc4_zero, pay5_apply4, pay2_apply4]
    exact congrArg (0 + ·) (Finset.sum_congr rfl fun q _ => col4_blk V c j (fun x => x * x) ⟨0, h⟩ q)
  · intro n h
    show sqAcc4 V c (n + 1) h (ix2 (0 : Fin 1) j) = sqAcc4 V c n _ (ix2 (0 : Fin 1) j) + _
    rw [sqAcc4_succ, pay5_apply4]
    exact congrArg (sqAcc4 V c n _ (ix2 (0 : Fin 1) j) + ·) (Finset.sum_congr rfl fun q _ => col4_blk V c j (fun x => x * x) ⟨n + 1, h⟩ q)
  · exact Finset.sum_congr rfl fun r _ => dif_pos r.isLt

/-! ## The two output arrays after the region -/

/-- The last point. -/
abbrev t4_last : Fin cfg4.N := ⟨79, by rw [show cfg4.N = 80 from N_4]; decide⟩

theorem hz4_v : (![0, 0] : Fin 2 → ℕ) = fun _ => 0 := funext fun a => by fin_cases a <;> rfl

/-- The mean row and the variance row the last point stores, as contents of their arrays (each array is its one block). -/
abbrev meanRow4 (c : Dev nD) : Buf (Elt Ideal) ((c : Thread nD τ).loc main_v44_0) := k4_pay6 (sumAcc4 V c 79 t4_last.isLt)
abbrev varRow4 (c : Dev nD) : Buf (Elt Ideal) ((c : Thread nD τ).loc main_v44_1) :=
  k4_pay7 (sumAcc4 V c 79 t4_last.isLt) (sqAcc4 V c 79 t4_last.isLt)

/-- The one write-back of the mean's window, at the last point, writes the mean row: its block is the whole array. -/
theorem flushed4_1 (c : Dev nD) (t : Fin cfg4.N) (hf : (cfg4.win 1).flush t = true) :
    (dat4 V c).flushed 1 t = ((cfg4.win 1).blk t).view.read (Elt Ideal) (meanRow4 V c) := by
  have hN : cfg4.N = 80 := N_4
  have h19 : t.val = 79 := by have := (flush4_1 t).mp hf; have := t.isLt; omega
  obtain rfl : t = t4_last := Fin.ext h19
  show (cfg4.win 1).cut (grid4.coords t4_last) ((dat4 V c).after 1 t4_last) = _
  rw [after4_1]
  have hz' : (fun a => win4_1.index t4_last a * main_v44_0.ty.shape.size a) = fun _ => 0 := funext fun a => by fin_cases a <;> decide +kernel
  exact (Memref.read_access_unit_zero (Elt Ideal) main_v44_0 hz' (fun a => by rw [congrFun hz' a]; simp) (meanRow4 V c)).symm

theorem flushed4_2 (c : Dev nD) (t : Fin cfg4.N) (hf : (cfg4.win 2).flush t = true) :
    (dat4 V c).flushed 2 t = ((cfg4.win 2).blk t).view.read (Elt Ideal) (varRow4 V c) := by
  have hN : cfg4.N = 80 := N_4
  have h19 : t.val = 79 := by have := (flush4_2 t).mp hf; have := t.isLt; omega
  obtain rfl : t = t4_last := Fin.ext h19
  show (cfg4.win 2).cut (grid4.coords t4_last) ((dat4 V c).after 2 t4_last) = _
  rw [after4_2]
  have hz' : (fun a => win4_2.index t4_last a * main_v44_1.ty.shape.size a) = fun _ => 0 := funext fun a => by fin_cases a <;> decide +kernel
  exact (Memref.read_access_unit_zero (Elt Ideal) main_v44_1 hz' (fun a => by rw [congrFun hz' a]; simp) (varRow4 V c)).symm

/-- So the mean's array ends holding the mean row: the last point's block covers it. -/
theorem final4_1 (c : Dev nD) : (dat4 V c).arrAt 1 cfg4.N = meanRow4 V c :=
  (dat4 V c).arrAt_eq_of_cover 1 (meanRow4 V c) (flushed4_1 V c) fun i =>
    ⟨t4_last, (flush4_1 t4_last).mpr rfl, by
      show i ∈ ((View.whole main_v44_0).slice (win4_1.rect t4_last)).set
      rw [View.set_slice_whole, Rect.mem_set_unit]
      intro a
      have h0 : (i 0 : ℕ) < 1 := (i 0).isLt
      have h1 : (i 1 : ℕ) < 32 := (i 1).isLt
      match a with
      | ⟨0, _⟩ => show win4_1.index t4_last 0 * win4_1.size 0 ≤ (i 0 : ℕ) ∧ (i 0 : ℕ) < win4_1.index t4_last 0 * win4_1.size 0 + win4_1.xsize (grid4.coords t4_last) 0
                  rw [show win4_1.index t4_last 0 * win4_1.size 0 = 0 from by decide +kernel, show win4_1.xsize (grid4.coords t4_last) 0 = 1 from by decide +kernel]; omega
      | ⟨1, _⟩ => show win4_1.index t4_last 1 * win4_1.size 1 ≤ (i 1 : ℕ) ∧ (i 1 : ℕ) < win4_1.index t4_last 1 * win4_1.size 1 + win4_1.xsize (grid4.coords t4_last) 1
                  rw [show win4_1.index t4_last 1 * win4_1.size 1 = 0 from by decide +kernel, show win4_1.xsize (grid4.coords t4_last) 1 = 32 from by decide +kernel]; omega⟩

/-- And the variance's array the variance row. -/
theorem final4_2 (c : Dev nD) : (dat4 V c).arrAt 2 cfg4.N = varRow4 V c :=
  (dat4 V c).arrAt_eq_of_cover 2 (varRow4 V c) (flushed4_2 V c) fun i =>
    ⟨t4_last, (flush4_2 t4_last).mpr rfl, by
      show i ∈ ((View.whole main_v44_1).slice (win4_2.rect t4_last)).set
      rw [View.set_slice_whole, Rect.mem_set_unit]
      intro a
      have h0 : (i 0 : ℕ) < 1 := (i 0).isLt
      have h1 : (i 1 : ℕ) < 32 := (i 1).isLt
      match a with
      | ⟨0, _⟩ => show win4_2.index t4_last 0 * win4_2.size 0 ≤ (i 0 : ℕ) ∧ (i 0 : ℕ) < win4_2.index t4_last 0 * win4_2.size 0 + win4_2.xsize (grid4.coords t4_last) 0
                  rw [show win4_2.index t4_last 0 * win4_2.size 0 = 0 from by decide +kernel, show win4_2.xsize (grid4.coords t4_last) 0 = 1 from by decide +kernel]; omega
      | ⟨1, _⟩ => show win4_2.index t4_last 1 * win4_2.size 1 ≤ (i 1 : ℕ) ∧ (i 1 : ℕ) < win4_2.index t4_last 1 * win4_2.size 1 + win4_2.xsize (grid4.coords t4_last) 1
                  rw [show win4_2.index t4_last 1 * win4_2.size 1 = 0 from by decide +kernel, show win4_2.xsize (grid4.coords t4_last) 1 = 32 from by decide +kernel]; omega⟩

/-! ## The two arrays read at an index -/

/-- Column `j` of the mean's array: the sum of column `j` of the input array over its 640000 rows, divided by the row count. -/
theorem mean4_value (c : Dev nD) (j : Fin 32) :
    (dat4 (F := Ideal) V c).arrAt 1 cfg4.N (ValueIdx.ix2 (0 : Fin 1) j)
      = Ideal.div (∑ r : Fin 640000, inArr4 V c (ValueIdx.ix2 r j)) (Ideal.ofBits .f32 0x491C4000#32) := by
  rw [final4_1]
  show Ideal.div (sumAcc4 V c 79 t4_last.isLt (ix2 (0 : Fin 1) j)) (Ideal.ofBits .f32 0x491C4000#32) = _
  rw [sumAcc4_total]

/-- Column `j` of the variance's array: the sum of the squares of column `j` divided by the row count, minus the square of the mean. -/
theorem var4_value (c : Dev nD) (j : Fin 32) :
    (dat4 (F := Ideal) V c).arrAt 2 cfg4.N (ValueIdx.ix2 (0 : Fin 1) j)
      = Ideal.div (∑ r : Fin 640000, inArr4 V c (ValueIdx.ix2 r j) * inArr4 V c (ValueIdx.ix2 r j)) (Ideal.ofBits .f32 0x491C4000#32)
        - Ideal.div (∑ r : Fin 640000, inArr4 V c (ValueIdx.ix2 r j)) (Ideal.ofBits .f32 0x491C4000#32)
          * Ideal.div (∑ r : Fin 640000, inArr4 V c (ValueIdx.ix2 r j)) (Ideal.ofBits .f32 0x491C4000#32) := by
  rw [final4_2]
  show Ideal.div (sqAcc4 V c 79 t4_last.isLt (ix2 (0 : Fin 1) j)) (Ideal.ofBits .f32 0x491C4000#32)
    - Ideal.div (sumAcc4 V c 79 t4_last.isLt (ix2 (0 : Fin 1) j)) (Ideal.ofBits .f32 0x491C4000#32)
      * Ideal.div (sumAcc4 V c 79 t4_last.isLt (ix2 (0 : Fin 1) j)) (Ideal.ofBits .f32 0x491C4000#32) = _
  rw [sumAcc4_total, sqAcc4_total]

end Cert.KernelIdeal.HandValue

end
-- ==== Proof.RefReads2.lean ====
/-
  Stage 2's pieces read at an index, at the extended reals: a contribution is a finite sum of products over the input
  channels; a column mean is the column's sum over the rows divided by the row count; the column variance is the sum of
  the squared deviations from that mean divided by the row count (the selection inside it is decided: its condition
  compares the row count with zero); the tail is a pointwise formula. Every broadcast reads its operand at the
  corresponding coordinates, every sum stays a symbolic sum over its literal range.
-/
import proofs.«146613_j41781441855727_2_alg».proof.Proof.RefDefs
import proofs.«146613_j41781441855727_2_alg».proof.Proof.RefConsts
import proofs.«146613_j41781441855727_2_alg».proof.Proof.RefReadsLib
import Idealize.ShloMosaic.Lib.ValueIdx
import Idealize.ShloMosaic.PureOps.Ideal.Laws

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx

/-! ## Stage 2 read at an index -/

/-- The product's dimension record (one batch axis, one contracted axis of extent 64). -/
abbrev D2 := dot_S9x160000x64_S9x64x32_S9x160000x32_2_1_1_2_0_0

theorem D2_rank : (D2).contr.rank = 1 := rfl
theorem D2_size : (D2).contr.size ⟨0, by rw [D2_rank]; omega⟩ = 64 := rfl

/-- The left operand's index for output `(k, p, o)` and contraction coordinate `q`: `(k, p, q)`. -/
theorem D2_lhs (k : Fin 9) (p : Fin 160000) (o : Fin 32) (q : D2.contr.Idx) :
    D2.lhsIdx (ix3 k p o) q = ix3 k p ((q ⟨0, by rw [D2_rank]; omega⟩).cast D2_size) := by
  funext a
  apply Fin.ext
  match a with
  | ⟨0, _⟩ => simp [DotDims.lhsIdx, D2, dot_S9x160000x64_S9x64x32_S9x160000x32_2_1_1_2_0_0]; rfl
  | ⟨1, _⟩ => simp [DotDims.lhsIdx, D2, dot_S9x160000x64_S9x64x32_S9x160000x32_2_1_1_2_0_0]; rfl
  | ⟨2, _⟩ => simp [DotDims.lhsIdx, D2, dot_S9x160000x64_S9x64x32_S9x160000x32_2_1_1_2_0_0]; rfl

/-- The right operand's index: `(k, q, o)`. -/
theorem D2_rhs (k : Fin 9) (p : Fin 160000) (o : Fin 32) (q : D2.contr.Idx) :
    D2.rhsIdx (ix3 k p o) q = ix3 k ((q ⟨0, by rw [D2_rank]; omega⟩).cast D2_size) o := by
  funext a
  apply Fin.ext
  match a with
  | ⟨0, _⟩ => simp [DotDims.rhsIdx, D2, dot_S9x160000x64_S9x64x32_S9x160000x32_2_1_1_2_0_0]; rfl
  | ⟨1, _⟩ => simp [DotDims.rhsIdx, D2, dot_S9x160000x64_S9x64x32_S9x160000x32_2_1_1_2_0_0]; rfl
  | ⟨2, _⟩ => simp [DotDims.rhsIdx, D2, dot_S9x160000x64_S9x64x32_S9x160000x32_2_1_1_2_0_0]; rfl

/-- A contribution is the sum over the 64 input channels of the gathered row's entry times the offset's matrix entry. -/
theorem contrib2_apply (x : FVec Ideal S160000x64 .f32) (W : FVec Ideal S9x64x32 .f32) (iin : IVec S9x160000 32)
    (k : Fin 9) (p : Fin 160000) (o : Fin 32) :
    contrib2 (F := Ideal) x W iin (ix3 k p o) = ∑ i : Fin 64, gathered2 (F := Ideal) x iin (ix3 k p i) * W (ix3 k i o) := by
  unfold contrib2 Host.dotGeneral
  rw [Ideal.dotGeneral_apply, ← Equiv.sum_comp (contrEquiv1 D2 64 D2_rank D2_size).symm]
  refine Finset.sum_congr rfl fun i _ => ?_
  have hi : Fin.cast D2_size ((contrEquiv1 D2 64 D2_rank D2_size).symm i ⟨0, by rw [D2_rank]; omega⟩) = i :=
    Fin.ext (contrEquiv1_symm_val D2 64 D2_rank D2_size i)
  rw [D2_lhs, D2_rhs, hi]

/-- The column reduction's shape fact in the form that names the inserted coordinate. -/
theorem R2 : S640000x32.Reduces [0] S32 := by decide

/-- The source index over column `j` with row coordinate `r`: `(r, j)`. -/
theorem R2_lift (j : Fin 32) (r : Fin 640000) : R2.lift (ix1 j) r = ix2 r j := by
  funext a
  apply Fin.ext
  match a with
  | ⟨0, _⟩ => rfl
  | ⟨1, _⟩ => rfl

/-- A column's sum from the zero word: the sum over the 640000 rows. -/
theorem colSum2_apply (s : FVec Ideal S640000x32 .f32) (j : Fin 32) :
    Host.reduceAdd (F := Ideal) s (constant S_ .f32 0x00000000#32) reducesTo_S640000x32_S32_d0 h_S_ (ix1 j)
      = ∑ r : Fin 640000, s (ix2 r j) := by
  unfold Host.reduceAdd
  rw [Ideal.hostReduceAdd_def, Ideal.hostReduceAdd_single reducesTo_S640000x32_S32_d0 R2]
  rw [show (constant (F := Ideal) S_ .f32 0x00000000#32 (Shape.Idx.first h_S_)) = 0 from Ideal.ofBits_zero_f32, zero_add]
  exact Finset.sum_congr rfl fun r _ => congrArg s (R2_lift j r)

/-! The broadcasts at an index. -/

theorem bcastRow2_apply {α : Type} (y : S1x32.Idx → α) (r : Fin 640000) (j : Fin 32) :
    broadcastInDim S640000x32 ![0, 1] bcast_S1x32_S640000x32_0_1 y (ix2 r j) = y (ix2 (0 : Fin 1) j) := by
  unfold broadcastInDim
  refine congrArg y ?_
  funext a
  apply Fin.ext
  match a with
  | ⟨0, _⟩ => rfl
  | ⟨1, _⟩ => rfl

theorem bcastKeep2_apply {α : Type} (v : S32.Idx → α) (z : Fin 1) (j : Fin 32) :
    broadcastInDim S1x32 ![1] bcast_S32_S1x32_1 v (ix2 z j) = v (ix1 j) := by
  unfold broadcastInDim
  refine congrArg v ?_
  funext a
  apply Fin.ext
  match a with
  | ⟨0, _⟩ => rfl

theorem bcastScalarKeep2_apply {α : Type} (c : S_.Idx → α) (i : S1x32.Idx) :
    broadcastInDim S1x32 ![] bcast_S_S1x32 c i = c ix0 :=
  congrArg c (funext fun a => a.elim0)

theorem bcastScalarCol2_apply {α : Type} (c : S_.Idx → α) (i : S32.Idx) :
    broadcastInDim S32 ![] bcast_S_S32 c i = c ix0 :=
  congrArg c (funext fun a => a.elim0)

/-- A column vector spread over the rows reads its column's entry. -/
theorem rowBcast2_apply (v : FVec Ideal S32 .f32) (r : Fin 640000) (j : Fin 32) :
    rowBcast2 (F := Ideal) v (ix2 r j) = v (ix1 j) := by
  unfold rowBcast2
  rw [bcastRow2_apply, bcastKeep2_apply]

/-- The column mean: the column's sum over the 640000 rows divided by the row count's word. -/
theorem mean2_apply (s : FVec Ideal S640000x32 .f32) (j : Fin 32) :
    mean2 (F := Ideal) s (ix1 j) = Ideal.div (∑ r : Fin 640000, s (ix2 r j)) (Ideal.ofBits .f32 0x491C4000#32) := by
  unfold mean2
  rw [hostDivf_apply, colSum2_apply, bcastScalarCol2_apply]
  rfl

/-- The mean computed inside the variance (with a kept unit axis) is the column mean. -/
theorem varMean2_apply (s : FVec Ideal S640000x32 .f32) (r : Fin 640000) (j : Fin 32) :
    varMean2 (F := Ideal) s (ix2 r j) = mean2 (F := Ideal) s (ix1 j) := by
  unfold varMean2
  rw [bcastRow2_apply, hostDivf_apply, bcastKeep2_apply, bcastScalarKeep2_apply, mean2_apply, colSum2_apply]
  rfl

/-- The divisor inside the variance is the row count: the correction is the integer zero. -/
theorem varCount2_apply : varCount2 (F := Ideal) ix0 = Ideal.ofBits .f32 0x491C4000#32 := by
  unfold varCount2
  rw [subf_apply, sitofp_apply]
  show Ideal.ofBits .f32 0x491C4000#32 - (((0#32 : BitVec 32).toInt : ℝ) : EReal) = _
  rw [BitVec.toInt_zero, Int.cast_zero, EReal.coe_zero, sub_zero]

/-- The column variance: the squared deviations from the column mean summed over the rows, divided by the row count (the
    selection's condition, row count greater than zero, holds). -/
theorem var2_apply (s : FVec Ideal S640000x32 .f32) (j : Fin 32) :
    var2 (F := Ideal) s (ix1 j)
      = Ideal.div (∑ r : Fin 640000, (s (ix2 r j) - mean2 (F := Ideal) s (ix1 j)) * (s (ix2 r j) - mean2 (F := Ideal) s (ix1 j)))
          (Ideal.ofBits .f32 0x491C4000#32) := by
  unfold var2
  rw [select_apply, bcastScalarCol2_apply, cmpf_apply, varCount2_apply]
  have hc : FloatOps.cmpf (F := Ideal) .ogt (Ideal.ofBits .f32 0x491C4000#32) (constant (F := Ideal) S_ .f32 0x00000000#32 ix0) = 1#1 := by
    show Ideal.cmp .ogt (Ideal.ofBits .f32 0x491C4000#32) (Ideal.ofBits .f32 0x00000000#32) = 1#1
    rw [Ideal.ofBits_zero_f32, RefConsts.ofBits_n2]
    simp [Ideal.cmp]
  rw [hc, select_one, hostDivf_apply, colSum2_apply, bcastScalarCol2_apply, varCount2_apply]
  have hsum : (∑ r : Fin 640000, mulf (varDev2 (F := Ideal) s) (varDev2 (F := Ideal) s) (ix2 r j))
      = ∑ r : Fin 640000, (s (ix2 r j) - mean2 (F := Ideal) s (ix1 j)) * (s (ix2 r j) - mean2 (F := Ideal) s (ix1 j)) :=
    Finset.sum_congr rfl fun r _ => by
      rw [mulf_apply]
      unfold varDev2
      rw [subf_apply, varMean2_apply]
  rw [hsum]

/-- The tail at an entry: the sum less its column's mean, times the reciprocal square root of the column's variance plus
    the small constant, times `gamma`, plus `beta`, plus the residual. -/
theorem tail2_apply (s : FVec Ideal S640000x32 .f32) (gamma beta : FVec Ideal S32 .f32) (skip : FVec Ideal S640000x32 .f32)
    (r : Fin 640000) (j : Fin 32) :
    tail2 (F := Ideal) s gamma beta skip (ix2 r j)
      = ((s (ix2 r j) - mean2 (F := Ideal) s (ix1 j))
            * Ideal.rsqrt (var2 (F := Ideal) s (ix1 j) + Ideal.ofBits .f32 0x3727C5AC#32)
            * gamma (ix1 j) + beta (ix1 j)) + skip (ix2 r j) := by
  unfold tail2
  rw [addf_apply, addf_apply, mulf_apply, mulf_apply, subf_apply, rowBcast2_apply, rowBcast2_apply, rowBcast2_apply,
    rowBcast2_apply, hostRsqrt_apply, addf_apply, bcastScalarCol2_apply]
  rfl

end Cert.ReferenceIdeal.RefRun

end
-- ==== Proof.RefReal2.lean ====
/-
  Stage 2 on real data: the contributions, the scattered sums, the column means and the normalised result are arrays of real
  numbers when the inputs are; the column variance is a nonnegative real; and the mean of the squares less the squared mean
  — the other way of computing a variance — equals it there.
-/
import proofs.«146613_j41781441855727_2_alg».proof.Proof.RefReads2
import proofs.«146613_j41781441855727_2_alg».proof.Proof.BridgeReal
import proofs.«146613_j41781441855727_2_alg».proof.Proof.BridgeStats

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx Cert.Bridge

/-! ## Stage 2 keeps real data real -/

/-- The contributions of real rows and real matrices are real: finite sums of products of entries. -/
theorem isReal_contrib2 (x : FVec Ideal S160000x64 .f32) (W : FVec Ideal S9x64x32 .f32) (iin : IVec S9x160000 32)
    (hx : IsReal x) (hW : IsReal W) : IsReal (contrib2 (F := Ideal) x W iin) := by
  have hg : IsReal (gathered2 (F := Ideal) x iin) := isReal_gather _ x _ hx
  intro i
  obtain ⟨k, p, o, rfl⟩ : ∃ (k : Fin 9) (p : Fin 160000) (o : Fin 32), i = ix3 k p o := ⟨i 0, i 1, i 2, eq_ix3 i⟩
  rw [contrib2_apply]
  exact real_sum _ _ fun c _ => real_mul (hg _) (hW _)

/-- The array of zeros is real. -/
theorem isReal_zeros2 : IsReal (zeros2 (F := Ideal)) := fun i =>
  ⟨0, by
    show Ideal.ofBits .f32 0x00000000#32 = ((0 : ℝ) : EReal)
    rw [Ideal.ofBits_zero_f32, EReal.coe_zero]⟩

/-- The scattered sums of real contributions are real: each entry is zero plus a finite sum of contribution entries. -/
theorem isReal_scattered2 (x : FVec Ideal S160000x64 .f32) (W : FVec Ideal S9x64x32 .f32) (iin iout : IVec S9x160000 32)
    (hx : IsReal x) (hW : IsReal W) : IsReal (scattered2 (F := Ideal) x W iin iout) := by
  have hf : IsReal (flatContrib2 (F := Ideal) (contrib2 (F := Ideal) x W iin)) := fun i => isReal_contrib2 x W iin hx hW _
  exact isReal_scatterAdd _ _ _ _ isReal_zeros2 hf

/-- The column mean of a real array is a real. -/
theorem mean2_real (s : FVec Ideal S640000x32 .f32) (hs : IsReal s) (j : Fin 32) :
    ∃ r : ℝ, mean2 (F := Ideal) s (ix1 j) = (r : EReal) := by
  rw [mean2_apply]
  exact mean_real (fun r : Fin 640000 => s (ix2 r j)) (fun r => hs _) _ 640000 (by norm_num) RefConsts.ofBits_n2

/-- The column variance of a real array is a nonnegative real. -/
theorem var2_nonneg (s : FVec Ideal S640000x32 .f32) (hs : IsReal s) (j : Fin 32) :
    ∃ v : ℝ, 0 ≤ v ∧ var2 (F := Ideal) s (ix1 j) = (v : EReal) := by
  rw [var2_apply, mean2_apply]
  exact (var_forms_col (fun r : Fin 640000 => s (ix2 r j)) (fun r => hs _) _ 640000 (by norm_num) RefConsts.ofBits_n2 (by norm_num)).2

/-- On a real array the mean of the squares less the squared mean is the column variance. -/
theorem kvar2_eq (s : FVec Ideal S640000x32 .f32) (hs : IsReal s) (j : Fin 32) :
    Ideal.div (∑ r : Fin 640000, s (ix2 r j) * s (ix2 r j)) (Ideal.ofBits .f32 0x491C4000#32)
        - Ideal.div (∑ r : Fin 640000, s (ix2 r j)) (Ideal.ofBits .f32 0x491C4000#32)
          * Ideal.div (∑ r : Fin 640000, s (ix2 r j)) (Ideal.ofBits .f32 0x491C4000#32)
      = var2 (F := Ideal) s (ix1 j) := by
  rw [var2_apply, mean2_apply]
  exact (var_forms_col (fun r : Fin 640000 => s (ix2 r j)) (fun r => hs _) _ 640000 (by norm_num) RefConsts.ofBits_n2 (by norm_num)).1

/-- The tail of real data is real. -/
theorem isReal_tail2 (s : FVec Ideal S640000x32 .f32) (gamma beta : FVec Ideal S32 .f32) (skip : FVec Ideal S640000x32 .f32)
    (hs : IsReal s) (hg : IsReal gamma) (hb : IsReal beta) (hk : IsReal skip) : IsReal (tail2 (F := Ideal) s gamma beta skip) := by
  intro i
  obtain ⟨r, j, rfl⟩ : ∃ (r : Fin 640000) (j : Fin 32), i = ix2 r j := ⟨i 0, i 1, eq_ix2 i⟩
  rw [tail2_apply]
  exact norm_real (hs _) (mean2_real s hs j) (var2_nonneg s hs j) (hg _) (hb _) (hk _) RefConsts.ofBits_eps

/-- The stage keeps real data real. -/
theorem isReal_stage2 (x : FVec Ideal S160000x64 .f32) (W : FVec Ideal S9x64x32 .f32) (iin iout : IVec S9x160000 32)
    (gamma beta : FVec Ideal S32 .f32) (skip : FVec Ideal S640000x32 .f32)
    (hx : IsReal x) (hW : IsReal W) (hg : IsReal gamma) (hb : IsReal beta) (hk : IsReal skip) :
    IsReal (stage2 (F := Ideal) x W iin iout gamma beta skip) :=
  isReal_tail2 _ _ _ _ (isReal_scattered2 x W iin iout hx hW) hg hb hk

end Cert.ReferenceIdeal.RefRun

end
-- ==== Proof.KStage2.lean ====
/-
  Stage 2 of the kernel program against the reference's stage 2, at the exact instance. From the stage's operands as the
  stage's first boundary holds them: the kernel's slab-wise products are the reference's batched contraction (the same finite
  sums), so the scattered sums are the reference's; the statistics region's running column sums over the row tiles add up to
  the whole column sums, so its mean is the reference's, and its variance — mean of squares minus squared mean — is the
  reference's mean of squared deviations because the scattered sums are finite reals; the normalisation is then the
  reference's formula entry by entry.
-/
import proofs.«146613_j41781441855727_2_alg».proof.Proof.KHost2
import proofs.«146613_j41781441855727_2_alg».proof.Proof.Value3
import proofs.«146613_j41781441855727_2_alg».proof.Proof.Value5
import proofs.«146613_j41781441855727_2_alg».proof.Proof.Region4Value
import proofs.«146613_j41781441855727_2_alg».proof.Proof.RefReads2
import proofs.«146613_j41781441855727_2_alg».proof.Proof.RefReal2
import proofs.«146613_j41781441855727_2_alg».proof.Proof.BridgeStats
import Idealize.ShloMosaic.Lib.ValueLayout

set_option maxRecDepth 16384
set_option maxHeartbeats 4000000

noncomputable section

namespace Cert.KernelIdeal.HandValue

open Cert.KernelIdeal Cert.KernelIdeal.Gen Cert.KernelIdeal.Hand
open Idealize.ShloMosaic Idealize.ShloMosaic.TcCoe Idealize.SL Idealize.SL.Sem
open Idealize.ShloMosaic.ValueIdx
open Cert.ReferenceIdeal.RefRun Cert.Bridge

variable (m : (ℓ : Loc nD τ sig) → Buf (Elt Ideal) ℓ) (c : Dev nD)

/-- The stage's operands, as the stage's first boundary holds them. -/
abbrev st2_x : FVec Ideal Cert.ReferenceIdeal.S160000x64 .f32 := W6 m c (Proc.devRef .tc main_v23)
abbrev st2_w : FVec Ideal Cert.ReferenceIdeal.S9x64x32 .f32 := W6 m c (Proc.devRef .tc main_arg5)
abbrev st2_iin : IVec Cert.ReferenceIdeal.S9x160000 32 := W6 m c (Proc.devRef .tc main_arg15)
abbrev st2_iout : IVec Cert.ReferenceIdeal.S9x160000 32 := W6 m c (Proc.devRef .tc main_arg16)
abbrev st2_gamma : FVec Ideal Cert.ReferenceIdeal.S32 .f32 := W6 m c (Proc.devRef .tc main_arg9)
abbrev st2_beta : FVec Ideal Cert.ReferenceIdeal.S32 .f32 := W6 m c (Proc.devRef .tc main_arg10)
abbrev st2_skip : FVec Ideal Cert.ReferenceIdeal.S640000x32 .f32 := W6 m c (Proc.devRef .tc main_arg2)
/-- The reference's scattered sums of those operands. -/
abbrev st2_s : FVec Ideal Cert.ReferenceIdeal.S640000x32 .f32 := scattered2 (F := Ideal) (st2_x m c) (st2_w m c) (st2_iin m c) (st2_iout m c)

/-- The GEMM region's two input arrays and the normalisation region's six, as the regions find them, at their shapes. -/
abbrev st2_a0 : Cert.ReferenceIdeal.S9x160000x64.Idx → EReal := Hand.V7 m c (Pipeline.arrRef spec3 0)
abbrev st2_a1 : Cert.ReferenceIdeal.S9x64x32.Idx → EReal := Hand.V7 m c (Pipeline.arrRef spec3 1)
abbrev st2_n0 : Cert.ReferenceIdeal.S640000x32.Idx → EReal := Hand.V11 m c (Pipeline.arrRef spec5 0)
abbrev st2_n1 : Cert.ReferenceIdeal.S1x32.Idx → EReal := Hand.V11 m c (Pipeline.arrRef spec5 1)
abbrev st2_n2 : Cert.ReferenceIdeal.S1x32.Idx → EReal := Hand.V11 m c (Pipeline.arrRef spec5 2)
abbrev st2_n3 : Cert.ReferenceIdeal.S1x32.Idx → EReal := Hand.V11 m c (Pipeline.arrRef spec5 3)
abbrev st2_n4 : Cert.ReferenceIdeal.S1x32.Idx → EReal := Hand.V11 m c (Pipeline.arrRef spec5 4)
abbrev st2_n5 : Cert.ReferenceIdeal.S640000x32.Idx → EReal := Hand.V11 m c (Pipeline.arrRef spec5 5)

/-- The GEMM region's output array is the reference's contraction. -/
theorem st2_contrib : (W8 m c (Proc.devRef .tc main_v33) : Cert.ReferenceIdeal.S9x160000x32.Idx → EReal)
    = contrib2 (F := Ideal) (st2_x m c) (st2_w m c) (st2_iin m c) := by
  have e : (W8 m c (Proc.devRef .tc main_v33) : Cert.ReferenceIdeal.S9x160000x32.Idx → EReal)
      = prod3 (st2_a0 m c) (st2_a1 m c) :=
    (W8_arr m c 2).trans (value3 (Hand.V7 m) c)
  have hg : st2_a0 m c
      = gathered2 (F := Ideal) (st2_x m c) (st2_iin m c) := host3_g (W6 m c)
  have hw : st2_a1 m c = st2_w m c := host3_w (W6 m c)
  rw [e]
  funext j
  obtain ⟨k, p, o, rfl⟩ : ∃ (k : Fin 9) (p : Fin 160000) (o : Fin 32), j = ix3 k p o := ⟨j 0, j 1, j 2, eq_ix3 j⟩
  rw [contrib2_apply]
  show ∑ i : Fin 64, st2_a0 m c (ix3 k p i)
      * st2_a1 m c (ix3 k i o) = _
  rw [hg, hw]

/-- The scattered sums are the reference's. -/
theorem st2_scat : (W9 m c (Proc.devRef .tc main_v43) : Cert.ReferenceIdeal.S640000x32.Idx → EReal) = st2_s m c := by
  refine (host4_scat (W8 m c)).trans ?_
  rw [keep2_iout m c, st2_contrib m c]
  rfl

/-- The statistics region's mean row is the reference's column mean. -/
theorem st2_mean (j : Fin 32) : (W10 m c (Proc.devRef .tc main_v44_0) : Cert.ReferenceIdeal.S1x32.Idx → EReal) (ix2 (0 : Fin 1) j)
    = mean2 (F := Ideal) (st2_s m c) (ix1 j) := by
  have e : (W10 m c (Proc.devRef .tc main_v44_0) : Cert.ReferenceIdeal.S1x32.Idx → EReal) = (dat4 (F := Ideal) (Hand.V9 m) c).arrAt 1 cfg4.N := W10_arr m c 1
  have hin : (inArr4 (Hand.V9 m) c : Cert.ReferenceIdeal.S640000x32.Idx → EReal) = st2_s m c := st2_scat m c
  rw [e, mean4_value (Hand.V9 m) c j, hin, mean2_apply]

/-- The scattered sums are finite reals when the gathered array and the weights are. -/
theorem st2_s_real (hx : IsReal (st2_x m c)) (hW : IsReal (st2_w m c)) : IsReal (st2_s m c) :=
  isReal_scattered2 _ _ _ _ hx hW

/-- The statistics region's variance row is the reference's column variance, the scattered sums being finite reals. -/
theorem st2_var (hx : IsReal (st2_x m c)) (hW : IsReal (st2_w m c)) (j : Fin 32) :
    (W10 m c (Proc.devRef .tc main_v44_1) : Cert.ReferenceIdeal.S1x32.Idx → EReal) (ix2 (0 : Fin 1) j) = var2 (F := Ideal) (st2_s m c) (ix1 j) := by
  have e : (W10 m c (Proc.devRef .tc main_v44_1) : Cert.ReferenceIdeal.S1x32.Idx → EReal) = (dat4 (F := Ideal) (Hand.V9 m) c).arrAt 2 cfg4.N := W10_arr m c 2
  have hin : (inArr4 (Hand.V9 m) c : Cert.ReferenceIdeal.S640000x32.Idx → EReal) = st2_s m c := st2_scat m c
  rw [e, var4_value (Hand.V9 m) c j, hin]
  exact kvar2_eq (st2_s m c) (st2_s_real m c hx hW) j

/-- The stage's output array is the reference's stage of the operands. -/
theorem st2_out (hx : IsReal (st2_x m c)) (hW : IsReal (st2_w m c)) :
    (W12 m c (Proc.devRef .tc main_v47) : Cert.ReferenceIdeal.S640000x32.Idx → EReal)
      = stage2 (F := Ideal) (st2_x m c) (st2_w m c) (st2_iin m c) (st2_iout m c) (st2_gamma m c) (st2_beta m c) (st2_skip m c) := by
  have e : (W12 m c (Proc.devRef .tc main_v47) : Cert.ReferenceIdeal.S640000x32.Idx → EReal)
      = norm5 (st2_n0 m c) (st2_n1 m c) (st2_n2 m c)
          (st2_n3 m c) (st2_n4 m c) (st2_n5 m c) :=
    (W12_arr m c 6).trans (value5 (Hand.V11 m) c)
  have h0 : st2_n0 m c = st2_s m c := (keep2_scat m c).trans (st2_scat m c)
  have h1 : ∀ j : Fin 32, st2_n1 m c (ix2 (0 : Fin 1) j) = mean2 (F := Ideal) (st2_s m c) (ix1 j) :=
    fun j => (congrFun (keep2_mean m c) _).trans (st2_mean m c j)
  have h2 : ∀ j : Fin 32, st2_n2 m c (ix2 (0 : Fin 1) j) = var2 (F := Ideal) (st2_s m c) (ix1 j) :=
    fun j => (congrFun (keep2_var m c) _).trans (st2_var m c hx hW j)
  have h3 : ∀ j : Fin 32, st2_n3 m c (ix2 (0 : Fin 1) j) = st2_gamma m c (ix1 j) := fun j => by
    refine (host5_gamma (W10 m c) (ix2 (0 : Fin 1) j)).trans ?_
    rw [keep2_gamma m c]
    exact shapeCast_a_1a_apply _ _ _ _
  have h4 : ∀ j : Fin 32, st2_n4 m c (ix2 (0 : Fin 1) j) = st2_beta m c (ix1 j) := fun j => by
    refine (host5_beta (W10 m c) (ix2 (0 : Fin 1) j)).trans ?_
    rw [keep2_beta m c]
    exact shapeCast_a_1a_apply _ _ _ _
  have h5 : st2_n5 m c = st2_skip m c := keep2_skip m c
  rw [e]
  funext i
  obtain ⟨r, j, rfl⟩ : ∃ (r : Fin 640000) (j : Fin 32), i = ix2 r j := ⟨i 0, i 1, eq_ix2 i⟩
  show ((st2_n0 m c (ix2 r j) - st2_n1 m c (ix2 (0 : Fin 1) j))
        * Ideal.rsqrt (st2_n2 m c (ix2 (0 : Fin 1) j) + Ideal.ofBits .f32 0x3727C5AC#32)
        * st2_n3 m c (ix2 (0 : Fin 1) j)
        + st2_n4 m c (ix2 (0 : Fin 1) j))
      + st2_n5 m c (ix2 r j) = _
  rw [h0, h1, h2, h3, h4, h5]
  exact (tail2_apply (st2_s m c) (st2_gamma m c) (st2_beta m c) (st2_skip m c) r j).symm

/-- The stage's output is again an array of finite reals. -/
theorem st2_out_real (hx : IsReal (st2_x m c)) (hW : IsReal (st2_w m c)) (hg : IsReal (st2_gamma m c)) (hb : IsReal (st2_beta m c))
    (hk : IsReal (st2_skip m c)) : IsReal (W12 m c (Proc.devRef .tc main_v47) : Cert.ReferenceIdeal.S640000x32.Idx → EReal) := by
  rw [st2_out m c hx hW]
  exact isReal_stage2 _ _ _ _ _ _ _ hx hW hg hb hk

end Cert.KernelIdeal.HandValue

end
-- ==== Proof.KHost1.lean ====
/-
  Stage 1 of the kernel program, the host side: what the host stretches of the stage write, read off an arbitrary entry
  valuation — the gathered rows, the (format-changed) weights, the scattered sums, the reshaped scale and shift rows — are the
  reference's own terms of the same operands (a change of float format is the identity on the extended reals); and which
  buffers each boundary keeps from an earlier one.
-/
import proofs.«146613_j41781441855727_2_alg».proof.Proof.KernelKeep
import proofs.«146613_j41781441855727_2_alg».proof.Proof.RefDefs
import Idealize.ShloMosaic.Lib.StableHlo.Run
import Idealize.ShloMosaic.PureOps.Ideal
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL Idealize.SL.Sem
open Cert.ReferenceIdeal.RefRun

/-! ## The host stretches' results over an arbitrary entry valuation -/

theorem host6_g (Win : Valuation τ sig (Elt Ideal)) :
    (StableHlo.after (hostOps6 (F := Ideal)) Win (Proc.devRef .tc main_v56) : Cert.ReferenceIdeal.S9x640000x32.Idx → EReal)
      = gathered1 (F := Ideal) (Win (Proc.devRef .tc main_v47)) (Win (Proc.devRef .tc main_arg17)) := by
  after_results_simp
  rfl

theorem host6_w (Win : Valuation τ sig (Elt Ideal)) :
    (StableHlo.after (hostOps6 (F := Ideal)) Win (Proc.devRef .tc main_v49) : Cert.ReferenceIdeal.S9x32x32.Idx → EReal)
      = (Win (Proc.devRef .tc main_arg6) : Cert.ReferenceIdeal.S9x32x32.Idx → EReal) := by
  after_results_simp
  rfl

set_option maxHeartbeats 1000000 in
theorem host7_scat (Win : Valuation τ sig (Elt Ideal)) :
    (StableHlo.after (hostOps7 (F := Ideal)) Win (Proc.devRef .tc main_v67) : Cert.ReferenceIdeal.S2560000x32.Idx → EReal)
      = Host.scatterAdd (F := Ideal) Cert.ReferenceIdeal.scatter_S2560000x32_S5760000x1_S5760000x32_1_0_0_1 (zeros1 (F := Ideal))
          (scatterIdx1 (Win (Proc.devRef .tc main_arg18))) (flatContrib1 (F := Ideal) (Win (Proc.devRef .tc main_v57))) := by
  after_results_simp
  rfl

theorem host8_gamma (Win : Valuation τ sig (Elt Ideal)) (i : Cert.ReferenceIdeal.S1x32.Idx) :
    (StableHlo.after (hostOps8 (F := Ideal)) Win (Proc.devRef .tc main_v69) : Cert.ReferenceIdeal.S1x32.Idx → EReal) i
      = shapeCast Cert.ReferenceIdeal.S1x32 (Win (Proc.devRef .tc main_arg11) : Cert.ReferenceIdeal.S32.Idx → EReal) Cert.KernelIdeal.Facts₀.shapeCasts_S32_S1x32 i := by
  after_results_simp
  rfl

theorem host8_beta (Win : Valuation τ sig (Elt Ideal)) (i : Cert.ReferenceIdeal.S1x32.Idx) :
    (StableHlo.after (hostOps8 (F := Ideal)) Win (Proc.devRef .tc main_v70) : Cert.ReferenceIdeal.S1x32.Idx → EReal) i
      = shapeCast Cert.ReferenceIdeal.S1x32 (Win (Proc.devRef .tc main_arg12) : Cert.ReferenceIdeal.S32.Idx → EReal) Cert.KernelIdeal.Facts₀.shapeCasts_S32_S1x32 i := by
  after_results_simp
  rfl

/-! ## What the stage's boundaries keep -/

variable (m : (ℓ : Loc nD τ sig) → Buf (Elt Ideal) ℓ) (c : Dev nD)

/-- The scatter indices reach the scatter as entered. -/
theorem keep1_iout : W14 m c (Proc.devRef .tc main_arg18) = W12 m c (Proc.devRef .tc main_arg18) :=
  (W14_of_ne m c main_arg18 (by decide)).trans (hostKeep6 m c main_arg18 (by decide))

/-- The scale, the shift and the residual reach the normalisation as entered. -/
theorem keep1_gamma : W16 m c (Proc.devRef .tc main_arg11) = W12 m c (Proc.devRef .tc main_arg11) :=
  (W16_of_ne m c main_arg11 (by decide)).trans ((hostKeep7 m c main_arg11 (by decide)).trans
    ((W14_of_ne m c main_arg11 (by decide)).trans (hostKeep6 m c main_arg11 (by decide))))
theorem keep1_beta : W16 m c (Proc.devRef .tc main_arg12) = W12 m c (Proc.devRef .tc main_arg12) :=
  (W16_of_ne m c main_arg12 (by decide)).trans ((hostKeep7 m c main_arg12 (by decide)).trans
    ((W14_of_ne m c main_arg12 (by decide)).trans (hostKeep6 m c main_arg12 (by decide))))
theorem keep1_skip : W17 m c (Proc.devRef .tc main_arg3) = W12 m c (Proc.devRef .tc main_arg3) :=
  (hostKeep8 m c main_arg3 (by decide)).trans ((W16_of_ne m c main_arg3 (by decide)).trans ((hostKeep7 m c main_arg3 (by decide)).trans
    ((W14_of_ne m c main_arg3 (by decide)).trans (hostKeep6 m c main_arg3 (by decide)))))
/-- The scattered sums reach the normalisation as the scatter left them: the statistics region reads them through an input
    window, the reshapes of the scale and shift do not write them. -/
theorem keep1_scat : W17 m c (Proc.devRef .tc main_v67) = W15 m c (Proc.devRef .tc main_v67) :=
  (hostKeep8 m c main_v67 (by decide)).trans (regIn7 m c 0 rfl)
theorem keep1_mean : W17 m c (Proc.devRef .tc main_v68_0) = W16 m c (Proc.devRef .tc main_v68_0) :=
  hostKeep8 m c main_v68_0 (by decide)
theorem keep1_var : W17 m c (Proc.devRef .tc main_v68_1) = W16 m c (Proc.devRef .tc main_v68_1) :=
  hostKeep8 m c main_v68_1 (by decide)

end Cert.KernelIdeal.HandValue

end
-- ==== Proof.Value6.lean ====
/-
  The value of region 6: the array the product region leaves in its output window, as one function of the two arrays it
  reads. Each grid point writes back, for every one of the nine offsets k, rows 2000 t … 2000 t + 1999 of g[k] · W[k]:
  the entry at (k, p, o) is the sum over i of g (k, p, i) * W (k, i, o). The nine slab stores of a point tile its block and
  the three hundred and twenty row tiles cover the array. At the instance where floats are extended reals.
-/
import proofs.«146613_j41781441855727_2_alg».proof.Proof.Region6
import Idealize.ShloMosaic.Lib.ValueIdx
import Idealize.ShloMosaic.Lib.Pipeline.Value
import Idealize.ShloMosaic.Lib.ValueLayout
import Idealize.ShloMosaic.PureOps.Ideal.Laws
import proofs.«146613_j41781441855727_2_alg».proof.Proof.LibDotRows
set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The batched product: entry `(k, p, o)` is the sum over the contracted axis of `g (k, p, i) * w (k, i, o)`. -/
def prod6 (g : FVec Ideal S9x640000x32 .bf16) (w : FVec Ideal S9x32x32 .bf16) : FVec Ideal S9x640000x32 .f32 := fun j =>
  ∑ i : Fin 32, g (ix3 (j 0) (j 1) i) * w (ix3 (j 0) i (j 2))

/-- The same product on one block of 2000 rows. -/
def blockProd6 (x0 : FVec Ideal S9x2000x32 .bf16) (x1 : FVec Ideal S9x32x32 .bf16) : FVec Ideal S9x2000x32 .f32 := fun y =>
  ∑ i : Fin 32, x0 (ix3 (y 0) (y 1) i) * x1 (ix3 (y 0) i (y 2))

/-- One slab's value at `(u, p, o)`: the matrix product of the two slabs, into a zero accumulator, read at `(p, o)`. -/
theorem slab6_apply (a : FVec Ideal S1x2000x32 .bf16) (b : FVec Ideal S1x32x32 .bf16) (u : Fin 1) (p : Fin 2000) (o : Fin 32) :
    k6_pay4 (F := Ideal) a b (ix3 u p o) = ∑ i : Fin 32, a (ix3 (0 : Fin 1) p i) * b (ix3 (0 : Fin 1) i o) := by
  unfold k6_pay4
  refine (shapeCast_ab_1ab_apply _ _ u p o).trans ?_
  refine (Cert.LibDotRows.matmul_zero_rows dot_S2000x32_S32x32_S2000x32_1_0_0_1_n_n none rfl rfl rfl rfl
    (fun _ _ => rfl) (fun _ _ => rfl) _ _ p o).trans ?_
  refine Finset.sum_congr rfl fun i _ => ?_
  rw [shapeCast_1ab_ab_apply, shapeCast_1ab_ab_apply]

/-- The nine slab payloads are the same term. -/
theorem pay6_5 (a : FVec Ideal S1x2000x32 .bf16) (b : FVec Ideal S1x32x32 .bf16) : k6_pay5 (F := Ideal) a b = k6_pay4 a b := rfl
theorem pay6_6 (a : FVec Ideal S1x2000x32 .bf16) (b : FVec Ideal S1x32x32 .bf16) : k6_pay6 (F := Ideal) a b = k6_pay4 a b := rfl
theorem pay6_7 (a : FVec Ideal S1x2000x32 .bf16) (b : FVec Ideal S1x32x32 .bf16) : k6_pay7 (F := Ideal) a b = k6_pay4 a b := rfl
theorem pay6_8 (a : FVec Ideal S1x2000x32 .bf16) (b : FVec Ideal S1x32x32 .bf16) : k6_pay8 (F := Ideal) a b = k6_pay4 a b := rfl
theorem pay6_9 (a : FVec Ideal S1x2000x32 .bf16) (b : FVec Ideal S1x32x32 .bf16) : k6_pay9 (F := Ideal) a b = k6_pay4 a b := rfl
theorem pay6_1 (a : FVec Ideal S1x2000x32 .bf16) (b : FVec Ideal S1x32x32 .bf16) : k6_pay1 (F := Ideal) (k6_pay10 a) b = k6_pay4 a b := rfl
theorem pay6_2 (a : FVec Ideal S1x2000x32 .bf16) (b : FVec Ideal S1x32x32 .bf16) : k6_pay2 (F := Ideal) a b = k6_pay4 a b := rfl
theorem pay6_3 (a : FVec Ideal S1x2000x32 .bf16) (b : FVec Ideal S1x32x32 .bf16) : k6_pay3 (F := Ideal) a b = k6_pay4 a b := rfl

/-- Slab `k` of the block's product: the slab payload of slab `k` of the two blocks, at a slab index, is `blockProd6`
    where the slab's rectangle puts that index. -/
theorem slab6_piece (k : ℕ) (hk : k < 9) (x0 : FVec Ideal S9x2000x32 .bf16) (x1 : FVec Ideal S9x32x32 .bf16)
    (inbA : ∀ a, (![k, 0, 0] : Fin 3 → ℕ) a + S1x2000x32.size a ≤ S9x2000x32.size a)
    (inbB : ∀ a, (![k, 0, 0] : Fin 3 → ℕ) a + S1x32x32.size a ≤ S9x32x32.size a)
    (inbC : ∀ a, (![k, 0, 0] : Fin 3 → ℕ) a + S1x2000x32.size a ≤ S9x2000x32.size a)
    (x : S1x2000x32.Idx) :
    k6_pay4 (F := Ideal) (View.ld x0 (Rect.unit (s := S9x2000x32) ![k, 0, 0] S1x2000x32.size inbA))
        (View.ld x1 (Rect.unit (s := S9x32x32) ![k, 0, 0] S1x32x32.size inbB)) x
      = blockProd6 x0 x1 ((Rect.unit (s := S9x2000x32) ![k, 0, 0] S1x2000x32.size inbC).emb x) := by
  obtain ⟨u, p, o, rfl⟩ : ∃ (u : Fin 1) (p : Fin 2000) (o : Fin 32), x = ix3 u p o := ⟨x 0, x 1, x 2, eq_ix3 x⟩
  have hu : u.val = 0 := by omega
  refine (slab6_apply _ _ u p o).trans ?_
  unfold blockProd6
  refine Finset.sum_congr rfl fun i _ => ?_
  congr 1
  · refine congrArg x0 (funext fun a => Fin.ext ?_)
    match a with
    | ⟨0, _⟩ => show k + 1 * 0 = k + 1 * u.val; omega
    | ⟨1, _⟩ => show 0 + 1 * p.val = 0 + 1 * p.val; rfl
    | ⟨2, _⟩ => show 0 + 1 * i.val = i.val; omega
  · refine congrArg x1 (funext fun a => Fin.ext ?_)
    match a with
    | ⟨0, _⟩ => show k + 1 * 0 = k + 1 * u.val; omega
    | ⟨1, _⟩ => show 0 + 1 * i.val = i.val; omega
    | ⟨2, _⟩ => show 0 + 1 * o.val = 0 + 1 * o.val; rfl

/-- The block after the body is the block's product: the nine slab stores are the nine slabs of one function. -/
theorem out6_2_eq (x0 : FVec Ideal S9x2000x32 .bf16) (x1 : FVec Ideal S9x32x32 .bf16) :
    out6_2 (F := Ideal) x0 x1 = blockProd6 x0 x1 := by
  funext y
  unfold out6_2
  refine View.canon_apply_of_pieces (Val := Elt Ideal) (blockProd6 x0 x1) _ ?_ y (cover6_2 _ _ _ _ _ _ _ _ _ y)
  intro p hp
  simp only [List.mem_cons, List.not_mem_nil, or_false] at hp
  rcases hp with rfl | rfl | rfl | rfl | rfl | rfl | rfl | rfl | rfl
  · intro x; rw [pay6_3]; exact slab6_piece 8 (by omega) x0 x1 inb_S9x2000x32_S1x2000x32_8_0_0 inb_S9x32x32_S1x32x32_8_0_0 inb_S9x2000x32_S1x2000x32_8_0_0 x
  · intro x; rw [pay6_2]; exact slab6_piece 7 (by omega) x0 x1 inb_S9x2000x32_S1x2000x32_7_0_0 inb_S9x32x32_S1x32x32_7_0_0 inb_S9x2000x32_S1x2000x32_7_0_0 x
  · intro x; rw [pay6_1]; exact slab6_piece 6 (by omega) x0 x1 inb_S9x2000x32_S1x2000x32_6_0_0 inb_S9x32x32_S1x32x32_6_0_0 inb_S9x2000x32_S1x2000x32_6_0_0 x
  · intro x; rw [pay6_9]; exact slab6_piece 5 (by omega) x0 x1 inb_S9x2000x32_S1x2000x32_5_0_0 inb_S9x32x32_S1x32x32_5_0_0 inb_S9x2000x32_S1x2000x32_5_0_0 x
  · intro x; rw [pay6_8]; exact slab6_piece 4 (by omega) x0 x1 inb_S9x2000x32_S1x2000x32_4_0_0 inb_S9x32x32_S1x32x32_4_0_0 inb_S9x2000x32_S1x2000x32_4_0_0 x
  · intro x; rw [pay6_7]; exact slab6_piece 3 (by omega) x0 x1 inb_S9x2000x32_S1x2000x32_3_0_0 inb_S9x32x32_S1x32x32_3_0_0 inb_S9x2000x32_S1x2000x32_3_0_0 x
  · intro x; rw [pay6_6]; exact slab6_piece 2 (by omega) x0 x1 inb_S9x2000x32_S1x2000x32_2_0_0 inb_S9x32x32_S1x32x32_2_0_0 inb_S9x2000x32_S1x2000x32_2_0_0 x
  · intro x; rw [pay6_5]; exact slab6_piece 1 (by omega) x0 x1 inb_S9x2000x32_S1x2000x32_1_0_0 inb_S9x32x32_S1x32x32_1_0_0 inb_S9x2000x32_S1x2000x32_1_0_0 x
  · intro x; exact slab6_piece 0 (by omega) x0 x1 inb_S9x2000x32_S1x2000x32_0_0_0 inb_S9x32x32_S1x32x32_0_0_0 inb_S9x2000x32_S1x2000x32_0_0_0 x

variable (V : (c : Dev nD) → (b : Ref sig .tc) → Buf (Elt Ideal) ((c : Thread nD τ).loc b))

theorem hz6 : (![0, 0, 0] : Fin 3 → Nat) = fun _ => 0 := funext fun a => by fin_cases a <;> rfl

/-- The printed index maps over the grid: the gathered rows and the output sit at row block `t` of every offset, the
    weights at block 0. -/
theorem idx_facts6 : ∀ t : Fin cfg6.N,
    win6_0.index t (0 : Fin 3) = 0 ∧ win6_0.index t (1 : Fin 3) = t.val ∧ win6_0.index t (2 : Fin 3) = 0
    ∧ win6_1.index t (0 : Fin 3) = 0 ∧ win6_1.index t (1 : Fin 3) = 0 ∧ win6_1.index t (2 : Fin 3) = 0
    ∧ win6_2.index t (0 : Fin 3) = 0 ∧ win6_2.index t (1 : Fin 3) = t.val ∧ win6_2.index t (2 : Fin 3) = 0 :=
  (by decide +kernel : ∀ t : Fin grid6.N, _)

/-- An entry of a row tile of the gathered rows is the array's entry `2000 t` rows further down, at the same offset. -/
theorem iblk6_0_apply (c : Dev nD) (t : Fin cfg6.N) (k : Fin 9) (p : Fin 2000) (q : Fin 32) (p' : Fin 640000)
    (hp : p'.val = t.val * 2000 + p.val) :
    (iblk6 V c 0 t : Vec Ideal S9x2000x32 .bf16) (ix3 k p q)
      = (V c (Pipeline.arrRef spec6 0) : S9x640000x32.Idx → Ideal .bf16) (ix3 k p' q) := by
  obtain ⟨e0, e1, e2, -⟩ := idx_facts6 t
  show (V c (Pipeline.arrRef spec6 0) : S9x640000x32.Idx → Ideal .bf16) (((cfg6.win 0).blk t).view.emb (ix3 k p q)) = _
  refine congrArg _ (funext fun a => Fin.ext ?_)
  match a with
  | ⟨0, _⟩ => show win6_0.index t (0 : Fin 3) * 9 + 1 * k.val = k.val; rw [e0]; omega
  | ⟨1, _⟩ => show win6_0.index t (1 : Fin 3) * 2000 + 1 * p.val = p'.val; rw [e1, hp]; omega
  | ⟨2, _⟩ => show win6_0.index t (2 : Fin 3) * 32 + 1 * q.val = q.val; rw [e2]; omega

/-- The weights' block is the whole weight array, at every point. -/
theorem iblk6_1_eq (c : Dev nD) (t : Fin cfg6.N) :
    (iblk6 V c 1 t : Vec Ideal S9x32x32 .bf16) = (V c (Pipeline.arrRef spec6 1) : S9x32x32.Idx → Ideal .bf16) := by
  obtain ⟨-, -, -, e0, e1, e2, -⟩ := idx_facts6 t
  funext y
  show (V c (Pipeline.arrRef spec6 1) : S9x32x32.Idx → Ideal .bf16) (((cfg6.win 1).blk t).view.emb y) = _
  refine congrArg _ (funext fun a => Fin.ext ?_)
  match a with
  | ⟨0, _⟩ => show win6_1.index t (0 : Fin 3) * 9 + 1 * (y 0).val = (y 0).val; rw [e0]; omega
  | ⟨1, _⟩ => show win6_1.index t (1 : Fin 3) * 32 + 1 * (y 1).val = (y 1).val; rw [e1]; omega
  | ⟨2, _⟩ => show win6_1.index t (2 : Fin 3) * 32 + 1 * (y 2).val = (y 2).val; rw [e2]; omega

/-- The arithmetic of one entry: the block's product at a block index is the arrays' product at the array index it sits at,
    when the gathered block's rows are the array's rows `2000 tv` further down and the weights' block is the weight array. -/
theorem prod6_point (g : FVec Ideal S9x640000x32 .bf16) (w : FVec Ideal S9x32x32 .bf16)
    (x0 : FVec Ideal S9x2000x32 .bf16) (x1 : FVec Ideal S9x32x32 .bf16) (tv : ℕ) (y : S9x2000x32.Idx) (i : S9x640000x32.Idx)
    (hx0 : ∀ (k : Fin 9) (p : Fin 2000) (q : Fin 32) (p' : Fin 640000), p'.val = tv * 2000 + p.val → x0 (ix3 k p q) = g (ix3 k p' q))
    (hx1 : x1 = w) (h0 : (i 0).val = (y 0).val) (h1 : (i 1).val = tv * 2000 + (y 1).val) (h2 : (i 2).val = (y 2).val) :
    blockProd6 x0 x1 y = prod6 g w i := by
  subst hx1
  unfold blockProd6 prod6
  have e0 : (i 0 : Fin 9) = y 0 := Fin.ext h0
  have e2 : (i 2 : Fin 32) = y 2 := Fin.ext h2
  refine Finset.sum_congr rfl fun q _ => ?_
  rw [hx0 (y 0) (y 1) q (i 1) h1, e0, e2]

set_option maxHeartbeats 1600000 in
/-- What point `t` writes back is block `t` of `prod6` of the two arrays as the region finds them. -/
theorem flushed6_eq (c : Dev nD) (t : Fin cfg6.N) :
    (dat6 (F := Ideal) V c).flushed 2 t = ((cfg6.win 2).blk t).view.read (Elt Ideal)
      (prod6 (V c (Pipeline.arrRef spec6 0)) (V c (Pipeline.arrRef spec6 1))) := by
  show (cfg6.win 2).cut (grid6.coords t) ((dat6 V c).after 2 t) = _
  rw [after6_2, out6_2_eq]
  obtain ⟨-, -, -, -, -, -, e0, e1, e2⟩ := idx_facts6 t
  funext j
  have h0 : ((((cfg6.win 2).blk t).view.emb j : S9x640000x32.Idx) 0).val = (((cfg6.win 2).xinj (grid6.coords t) j : S9x2000x32.Idx) 0).val := by
    show win6_2.index t (0 : Fin 3) * 9 + 1 * (j 0).val = (j 0).val
    rw [e0]; omega
  have h1 : ((((cfg6.win 2).blk t).view.emb j : S9x640000x32.Idx) 1).val = t.val * 2000 + (((cfg6.win 2).xinj (grid6.coords t) j : S9x2000x32.Idx) 1).val := by
    show win6_2.index t (1 : Fin 3) * 2000 + 1 * (j 1).val = t.val * 2000 + (j 1).val
    rw [e1]; omega
  have h2 : ((((cfg6.win 2).blk t).view.emb j : S9x640000x32.Idx) 2).val = (((cfg6.win 2).xinj (grid6.coords t) j : S9x2000x32.Idx) 2).val := by
    show win6_2.index t (2 : Fin 3) * 32 + 1 * (j 2).val = (j 2).val
    rw [e2]; omega
  exact prod6_point (V c (Pipeline.arrRef spec6 0)) (V c (Pipeline.arrRef spec6 1)) (iblk6 V c 0 t) (iblk6 V c 1 t) t.val
    ((cfg6.win 2).xinj (grid6.coords t) j) (((cfg6.win 2).blk t).view.emb j)
    (fun k p q p' hp => iblk6_0_apply V c t k p q p' hp) (iblk6_1_eq V c t) h0 h1 h2

/-- An index of the array is in point `t`'s block iff each coordinate is in the block's range on its axis. -/
theorem mem_blk6 (t : Fin cfg6.N) (i : S9x640000x32.Idx) :
    i ∈ ((cfg6.win 2).blk t).view.set ↔ ∀ a : Fin 3, win6_2.index t a * S9x2000x32.size a ≤ (i a).val ∧ (i a).val < win6_2.index t a * S9x2000x32.size a + S9x2000x32.size a := by
  show i ∈ ((View.whole main_v57).slice (win6_2.rect t)).set ↔ _
  rw [View.set_slice_whole, Rect.mem_set_unit]
  exact Iff.rfl

/-- Every index of the array is in the block of the point its row falls to: row `r` is in row tile `r / 2000`. -/
theorem cover6 (i : S9x640000x32.Idx) : ∃ t : Fin cfg6.N, (cfg6.win 2).flush t = true ∧ i ∈ ((cfg6.win 2).blk t).view.set := by
  have hN : cfg6.N = 320 := N_6
  have hi0 : (i 0).val < 9 := (i 0).isLt
  have hi1 : (i 1).val < 640000 := (i 1).isLt
  have hi2 : (i 2).val < 32 := (i 2).isLt
  have ht : (i 1).val / 2000 < cfg6.N := by rw [hN]; omega
  obtain ⟨-, -, -, -, -, -, e0, e1, e2⟩ := idx_facts6 ⟨(i 1).val / 2000, ht⟩
  refine ⟨⟨(i 1).val / 2000, ht⟩, flush6_2 _, ?_⟩
  rw [mem_blk6]
  intro a
  match a with
  | ⟨0, _⟩ =>
    show win6_2.index ⟨(i 1).val / 2000, ht⟩ (0 : Fin 3) * 9 ≤ (i 0).val ∧ (i 0).val < win6_2.index ⟨(i 1).val / 2000, ht⟩ (0 : Fin 3) * 9 + 9
    rw [e0]; omega
  | ⟨1, _⟩ =>
    show win6_2.index ⟨(i 1).val / 2000, ht⟩ (1 : Fin 3) * 2000 ≤ (i 1).val ∧ (i 1).val < win6_2.index ⟨(i 1).val / 2000, ht⟩ (1 : Fin 3) * 2000 + 2000
    rw [e1]; show (i 1).val / 2000 * 2000 ≤ (i 1).val ∧ (i 1).val < (i 1).val / 2000 * 2000 + 2000; omega
  | ⟨2, _⟩ =>
    show win6_2.index ⟨(i 1).val / 2000, ht⟩ (2 : Fin 3) * 32 ≤ (i 2).val ∧ (i 2).val < win6_2.index ⟨(i 1).val / 2000, ht⟩ (2 : Fin 3) * 32 + 32
    rw [e2]; omega

/-- The output array after the region is `prod6` of the two input arrays as the region finds them. -/
theorem value6 (c : Dev nD) : (dat6 (F := Ideal) V c).arrAt 2 cfg6.N
    = prod6 (V c (Pipeline.arrRef spec6 0)) (V c (Pipeline.arrRef spec6 1)) :=
  (dat6 (F := Ideal) V c).arrAt_eq_of_cover 2 _ (fun t _ => flushed6_eq V c t) cover6

end Cert.KernelIdeal.HandValue

end
-- ==== Proof.Value8.lean ====
/-
  The value of region 8: the array the normalise region leaves in its output window, as one function of the six arrays
  it reads. Each grid point writes back rows 8000 t … 8000 t + 7999 of
      (o - mean) * rsqrt(var + eps) * gamma + beta + skip,
  the mean, variance, scale and shift being rows broadcast down the columns; the three hundred and twenty row tiles cover the array. At the
  instance where floats are extended reals.
-/
import proofs.«146613_j41781441855727_2_alg».proof.Proof.Region8
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The normalised array: every entry of the sums minus its column's mean, times the reciprocal square root of the
    column's variance plus the stabiliser, times the column's scale, plus the column's shift, plus the residual. -/
def norm8 (o : FVec Ideal S2560000x32 .f32) (mean var gamma beta : FVec Ideal S1x32 .f32) (skip : FVec Ideal S2560000x32 .f32) :
    FVec Ideal S2560000x32 .f32 := fun j =>
  ((o j - mean (ix2 (0 : Fin 1) (j 1))) * Ideal.rsqrt (var (ix2 (0 : Fin 1) (j 1)) + Ideal.ofBits .f32 0x3727C5AC#32)
      * gamma (ix2 (0 : Fin 1) (j 1)) + beta (ix2 (0 : Fin 1) (j 1))) + skip j

theorem hz8 : (![0, 0] : Fin 2 → Nat) = fun _ => 0 := funext fun a => by fin_cases a <;> rfl

/-- The body's value at row `p`, column `q` of a block: the same arithmetic on the block's entries and on column `q` of
    the four rows. -/
theorem pay8_apply (m v g b : FVec Ideal S1x32 .f32) (x s : FVec Ideal S8000x32 .f32) (p : Fin 8000) (q : Fin 32) :
    k8_pay1 (F := Ideal) m v g b x s (ix2 p q)
      = ((x (ix2 p q) - m (ix2 (0 : Fin 1) q)) * Ideal.rsqrt (v (ix2 (0 : Fin 1) q) + Ideal.ofBits .f32 0x3727C5AC#32)
          * g (ix2 (0 : Fin 1) q) + b (ix2 (0 : Fin 1) q)) + s (ix2 p q) := by
  unfold k8_pay1
  simp only [shapeCast_self]
  rw [addf_apply, addf_apply, mulf_apply, mulf_apply, subf_apply,
    broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b))

/-- The printed index maps over the grid: the three row-tiled windows sit at row block `t`, the four rows at block 0. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- The arithmetic of one entry: a block entry of the body's value is the entry of `norm8` it sits at, when the two tiled
    blocks' entries are the arrays' entries there, the four rows are the arrays' rows and the columns agree. -/
theorem pay8_point (o skip : FVec Ideal S2560000x32 .f32) (mean var gamma beta : FVec Ideal S1x32 .f32)
    (x s : FVec Ideal S8000x32 .f32) (m v g b : FVec Ideal S1x32 .f32) (y : S8000x32.Idx) (i : S2560000x32.Idx)
    (hx : x y = o i) (hs : s y = skip i) (hm : m = mean) (hv : v = var) (hg : g = gamma) (hb : b = beta)
    (h1 : (i 1).val = (y 1).val) :
    k8_pay1 (F := Ideal) m v g b x s y = norm8 o mean var gamma beta skip i := by
  subst hm hv hg hb
  obtain ⟨p, q, rfl⟩ : ∃ (p : Fin 8000) (q : Fin 32), y = ix2 p q := ⟨y 0, y 1, eq_ix2 y⟩
  have hq : (i 1 : Fin 32) = q := Fin.ext h1
  rw [pay8_apply, hx, hs]
  unfold norm8
  rw [hq]

/-- An entry of a row tile of the sums is the array's entry `8000 t` rows further down. -/
theorem iblk8_0_apply (c : Dev nD) (t : Fin cfg8.N) (y : S8000x32.Idx) (i : S2560000x32.Idx)
    (h0 : (i 0).val = t.val * 8000 + (y 0).val) (h1 : (i 1).val = (y 1).val) :
    (iblk8 V c 0 t : Vec Ideal S8000x32 .f32) y = (V c (Pipeline.arrRef spec8 0) : S2560000x32.Idx → Ideal .f32) i := by
  obtain ⟨e0, e1, -⟩ := idx_facts8 t
  show (V c (Pipeline.arrRef spec8 0) : S2560000x32.Idx → Ideal .f32) (((cfg8.win 0).blk t).view.emb y) = _
  refine congrArg _ (funext fun a => Fin.ext ?_)
  match a with
  | ⟨0, _⟩ => show win8_0.index t (0 : Fin 2) * 8000 + 1 * (y 0).val = (i 0).val; rw [e0, h0]; omega
  | ⟨1, _⟩ => show win8_0.index t (1 : Fin 2) * 32 + 1 * (y 1).val = (i 1).val; rw [e1, h1]; omega

/-- The same for the residual's row tile. -/
theorem iblk8_5_apply (c : Dev nD) (t : Fin cfg8.N) (y : S8000x32.Idx) (i : S2560000x32.Idx)
    (h0 : (i 0).val = t.val * 8000 + (y 0).val) (h1 : (i 1).val = (y 1).val) :
    (iblk8 V c 5 t : Vec Ideal S8000x32 .f32) y = (V c (Pipeline.arrRef spec8 5) : S2560000x32.Idx → Ideal .f32) i := by
  obtain ⟨-, -, -, -, -, -, -, -, -, -, e0, e1, -⟩ := idx_facts8 t
  show (V c (Pipeline.arrRef spec8 5) : S2560000x32.Idx → Ideal .f32) (((cfg8.win 5).blk t).view.emb y) = _
  refine congrArg _ (funext fun a => Fin.ext ?_)
  match a with
  | ⟨0, _⟩ => show win8_5.index t (0 : Fin 2) * 8000 + 1 * (y 0).val = (i 0).val; rw [e0, h0]; omega
  | ⟨1, _⟩ => show win8_5.index t (1 : Fin 2) * 32 + 1 * (y 1).val = (i 1).val; rw [e1, h1]; omega

/-- The block of a one-row window is the whole row, at every point. -/
theorem iblk8_1_eq (c : Dev nD) (t : Fin cfg8.N) :
    (iblk8 V c 1 t : Vec Ideal S1x32 .f32) = (V c (Pipeline.arrRef spec8 1) : S1x32.Idx → Ideal .f32) := by
  obtain ⟨-, -, e0, e1, -⟩ := idx_facts8 t
  funext y
  show (V c (Pipeline.arrRef spec8 1) : S1x32.Idx → Ideal .f32) (((cfg8.win 1).blk t).view.emb y) = _
  refine congrArg _ (funext fun a => Fin.ext ?_)
  match a with
  | ⟨0, _⟩ => show win8_1.index t (0 : Fin 2) * 1 + 1 * (y 0).val = (y 0).val; rw [e0]; omega
  | ⟨1, _⟩ => show win8_1.index t (1 : Fin 2) * 32 + 1 * (y 1).val = (y 1).val; rw [e1]; omega
theorem iblk8_2_eq (c : Dev nD) (t : Fin cfg8.N) :
    (iblk8 V c 2 t : Vec Ideal S1x32 .f32) = (V c (Pipeline.arrRef spec8 2) : S1x32.Idx → Ideal .f32) := by
  obtain ⟨-, -, -, -, e0, e1, -⟩ := idx_facts8 t
  funext y
  show (V c (Pipeline.arrRef spec8 2) : S1x32.Idx → Ideal .f32) (((cfg8.win 2).blk t).view.emb y) = _
  refine congrArg _ (funext fun a => Fin.ext ?_)
  match a with
  | ⟨0, _⟩ => show win8_2.index t (0 : Fin 2) * 1 + 1 * (y 0).val = (y 0).val; rw [e0]; omega
  | ⟨1, _⟩ => show win8_2.index t (1 : Fin 2) * 32 + 1 * (y 1).val = (y 1).val; rw [e1]; omega
theorem iblk8_3_eq (c : Dev nD) (t : Fin cfg8.N) :
    (iblk8 V c 3 t : Vec Ideal S1x32 .f32) = (V c (Pipeline.arrRef spec8 3) : S1x32.Idx → Ideal .f32) := by
  obtain ⟨-, -, -, -, -, -, e0, e1, -⟩ := idx_facts8 t
  funext y
  show (V c (Pipeline.arrRef spec8 3) : S1x32.Idx → Ideal .f32) (((cfg8.win 3).blk t).view.emb y) = _
  refine congrArg _ (funext fun a => Fin.ext ?_)
  match a with
  | ⟨0, _⟩ => show win8_3.index t (0 : Fin 2) * 1 + 1 * (y 0).val = (y 0).val; rw [e0]; omega
  | ⟨1, _⟩ => show win8_3.index t (1 : Fin 2) * 32 + 1 * (y 1).val = (y 1).val; rw [e1]; omega
theorem iblk8_4_eq (c : Dev nD) (t : Fin cfg8.N) :
    (iblk8 V c 4 t : Vec Ideal S1x32 .f32) = (V c (Pipeline.arrRef spec8 4) : S1x32.Idx → Ideal .f32) := by
  obtain ⟨-, -, -, -, -, -, -, -, e0, e1, -⟩ := idx_facts8 t
  funext y
  show (V c (Pipeline.arrRef spec8 4) : S1x32.Idx → Ideal .f32) (((cfg8.win 4).blk t).view.emb y) = _
  refine congrArg _ (funext fun a => Fin.ext ?_)
  match a with
  | ⟨0, _⟩ => show win8_4.index t (0 : Fin 2) * 1 + 1 * (y 0).val = (y 0).val; rw [e0]; omega
  | ⟨1, _⟩ => show win8_4.index t (1 : Fin 2) * 32 + 1 * (y 1).val = (y 1).val; rw [e1]; omega

set_option maxHeartbeats 1600000 in
/-- What point `t` writes back is block `t` of `norm8` of the arrays as the region finds them. -/
theorem flushed8_eq (c : Dev nD) (t : Fin cfg8.N) :
    (dat8 (F := Ideal) V c).flushed 6 t = ((cfg8.win 6).blk t).view.read (Elt Ideal)
      (norm8 (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  unfold out8_6
  rw [View.canon_unit_zero hz8]
  simp only [View.ld_unit_zero (S := S8000x32) hz8, View.ld_unit_zero (S := S1x32) hz8]
  obtain ⟨-, -, -, -, -, -, -, -, -, -, -, -, e0, e1⟩ := idx_facts8 t
  funext j
  have h0 : ((((cfg8.win 6).blk t).view.emb j : S2560000x32.Idx) 0).val = t.val * 8000 + (((cfg8.win 6).xinj (grid8.coords t) j : S8000x32.Idx) 0).val := by
    show win8_6.index t (0 : Fin 2) * 8000 + 1 * (j 0).val = t.val * 8000 + (j 0).val
    rw [e0]; omega
  have h1 : ((((cfg8.win 6).blk t).view.emb j : S2560000x32.Idx) 1).val = (((cfg8.win 6).xinj (grid8.coords t) j : S8000x32.Idx) 1).val := by
    show win8_6.index t (1 : Fin 2) * 32 + 1 * (j 1).val = (j 1).val
    rw [e1]; omega
  exact pay8_point (V c (Pipeline.arrRef spec8 0)) (V c (Pipeline.arrRef spec8 5)) (V c (Pipeline.arrRef spec8 1))
    (V c (Pipeline.arrRef spec8 2)) (V c (Pipeline.arrRef spec8 3)) (V c (Pipeline.arrRef spec8 4))
    (iblk8 V c 0 t) (iblk8 V c 5 t) (iblk8 V c 1 t) (iblk8 V c 2 t) (iblk8 V c 3 t) (iblk8 V c 4 t)
    ((cfg8.win 6).xinj (grid8.coords t) j) (((cfg8.win 6).blk t).view.emb j)
    (iblk8_0_apply V c t _ _ h0 h1) (iblk8_5_apply V c t _ _ h0 h1)
    (iblk8_1_eq V c t) (iblk8_2_eq V c t) (iblk8_3_eq V c t) (iblk8_4_eq V c t) h1

/-- An index of the array is in point `t`'s block iff each coordinate is in the block's range on its axis. -/
theorem mem_blk8 (t : Fin cfg8.N) (i : S2560000x32.Idx) :
    i ∈ ((cfg8.win 6).blk t).view.set ↔ ∀ a : Fin 2, win8_6.index t a * S8000x32.size a ≤ (i a).val ∧ (i a).val < win8_6.index t a * S8000x32.size a + S8000x32.size a := by
  show i ∈ ((View.whole main_v71).slice (win8_6.rect t)).set ↔ _
  rw [View.set_slice_whole, Rect.mem_set_unit]
  exact Iff.rfl

/-- Every index of the array is in the block of the point its row falls to: row `r` is in row tile `r / 8000`. -/
theorem cover8 (i : S2560000x32.Idx) : ∃ t : Fin cfg8.N, (cfg8.win 6).flush t = true ∧ i ∈ ((cfg8.win 6).blk t).view.set := by
  have hN : cfg8.N = 320 := N_8
  have hi0 : (i 0).val < 2560000 := (i 0).isLt
  have hi1 : (i 1).val < 32 := (i 1).isLt
  have ht : (i 0).val / 8000 < cfg8.N := by rw [hN]; omega
  obtain ⟨-, -, -, -, -, -, -, -, -, -, -, -, e0, e1⟩ := idx_facts8 ⟨(i 0).val / 8000, ht⟩
  refine ⟨⟨(i 0).val / 8000, ht⟩, flush8_6 _, ?_⟩
  rw [mem_blk8]
  intro a
  match a with
  | ⟨0, _⟩ =>
    show win8_6.index ⟨(i 0).val / 8000, ht⟩ (0 : Fin 2) * 8000 ≤ (i 0).val ∧ (i 0).val < win8_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win8_6.index ⟨(i 0).val / 8000, ht⟩ (1 : Fin 2) * 32 ≤ (i 1).val ∧ (i 1).val < win8_6.index ⟨(i 0).val / 8000, ht⟩ (1 : Fin 2) * 32 + 32
    rw [e1]; omega

/-- The output array after the region is `norm8` of the six input arrays as the region finds them. -/
theorem value8 (c : Dev nD) : (dat8 (F := Ideal) V c).arrAt 6 cfg8.N
    = norm8 (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 (F := Ideal) V c).arrAt_eq_of_cover 6 _ (fun t _ => flushed8_eq V c t) cover8

end Cert.KernelIdeal.HandValue

end
-- ==== Proof.Region7Value.lean ====
/-
  Region 7 of the kernel program at the ideal values: what the mean's and the variance's arrays hold after the region, read
  at an index. The body's payloads at an index are the extended reals' operations: adding a block to an accumulator adds the
  finite sum down the block's column; the blocks of the input are consecutive runs of 8000 rows of its array, so after the
  last of the 320 points the accumulators hold the sums over all 2560000 rows; each output window is written back at the
  last point only and its block is its whole array.
-/
import proofs.«146613_j41781441855727_2_alg».proof.Proof.Region7
import proofs.«146613_j41781441855727_2_alg».proof.Proof.LibColumnSum
import proofs.«146613_j41781441855727_2_alg».proof.Proof.LibTenBlocks
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ## The body's payloads read at an index, at the ideal values -/

/-- Row 0, column `j` of a one-row matrix, with the row coordinate dropped, is column `j`. -/
theorem tail_ix2_7 (j : Fin 32) : (fun a : Fin 1 => (ix2 (0 : Fin 1) j) a.succ) = ix1 j := by
  funext a; match a with | ⟨0, _⟩ => rfl

/-- The cleared accumulator is the zero row. -/
theorem pay1_apply7 (i : S1x32.Idx) : (k7_pay1 (F := Ideal)) i = 0 := by
  unfold k7_pay1
  simp only [shapeCast_self]
  exact Ideal.ofBits_zero_f32
theorem pay2_apply7 (i : S1x32.Idx) : (k7_pay2 (F := Ideal)) i = 0 := by
  unfold k7_pay2
  simp only [shapeCast_self]
  exact Ideal.ofBits_zero_f32

/-- Adding a block to the sums: column `j` gains the sum of the block's column `j`. -/
theorem pay4_apply7 (v3 : Vec Ideal S8000x32 .f32) (v5 : Vec Ideal S1x32 .f32) (j : Fin 32) :
    k7_pay4 v3 v5 (ix2 (0 : Fin 1) j) = v5 (ix2 (0 : Fin 1) j) + ∑ k : Fin 8000, v3 (ix2 k j) := by
  unfold k7_pay4 k7_pay3
  simp only [shapeCast_self]
  show v5 (ix2 (0 : Fin 1) j) + shapeCast S1x32 (multiReduction (F := Ideal) .add [0] S32 v3 0x00000000#32 reduces_S8000x32_S32 (.inl rfl) rfl) shapeCasts_S32_S1x32 (ix2 (0 : Fin 1) j) = _
  refine congrArg (v5 (ix2 (0 : Fin 1) j) + ·) ?_
  refine (shapeCast_addUnit_apply ![32] _ shapeCasts_S32_S1x32 (ix2 (0 : Fin 1) j)).trans ?_
  refine (congrArg _ (tail_ix2_7 j)).trans ?_
  exact Cert.ColumnSum.colSum_apply v3 reduces_S8000x32_S32 (.inl rfl) rfl j

/-- Adding a block to the sums of squares: column `j` gains the sum of the squares of the block's column `j`. -/
theorem pay5_apply7 (v3 : Vec Ideal S8000x32 .f32) (v12 : Vec Ideal S1x32 .f32) (j : Fin 32) :
    k7_pay5 v3 v12 (ix2 (0 : Fin 1) j) = v12 (ix2 (0 : Fin 1) j) + ∑ k : Fin 8000, v3 (ix2 k j) * v3 (ix2 k j) := by
  unfold k7_pay5 k7_pay3
  simp only [shapeCast_self]
  show v12 (ix2 (0 : Fin 1) j) + shapeCast S1x32 (multiReduction (F := Ideal) .add [0] S32 (mulf v3 v3) 0x00000000#32 reduces_S8000x32_S32 (.inl rfl) rfl) shapeCasts_S32_S1x32 (ix2 (0 : Fin 1) j) = _
  refine congrArg (v12 (ix2 (0 : Fin 1) j) + ·) ?_
  refine (shapeCast_addUnit_apply ![32] _ shapeCasts_S32_S1x32 (ix2 (0 : Fin 1) j)).trans ?_
  refine (congrArg _ (tail_ix2_7 j)).trans ?_
  exact Cert.ColumnSum.colSum_apply (mulf v3 v3) reduces_S8000x32_S32 (.inl rfl) rfl j

/-- The mean row: the sums divided by the row count. -/
theorem pay6_apply7 (v : Vec Ideal S1x32 .f32) (i : S1x32.Idx) :
    k7_pay6 v i = Ideal.div (v i) (Ideal.ofBits .f32 0x4A1C4000#32) := rfl

/-- The variance row: the sums of squares divided by the row count, minus the square of the mean. -/
theorem pay7_apply7 (v w : Vec Ideal S1x32 .f32) (i : S1x32.Idx) :
    k7_pay7 v w i = Ideal.div (w i) (Ideal.ofBits .f32 0x4A1C4000#32)
      - Ideal.div (v i) (Ideal.ofBits .f32 0x4A1C4000#32) * Ideal.div (v i) (Ideal.ofBits .f32 0x4A1C4000#32) := rfl

variable (V : (c : Dev nD) → (b : Ref sig .tc) → Buf (Elt Ideal) ((c : Thread nD τ).loc b))

/-- The input array as the region finds it, at its shape: 2560000 rows of 32 columns. -/
abbrev inArr7 (c : Dev nD) : Vec Ideal S2560000x32 .f32 := V c (Pipeline.arrRef spec7 0)

/-! ## The blocks of the input are consecutive rows of its array -/

/-- The input's index map, decided over the grid: block `t` starts at row block `t`, column block 0. -/
theorem idx_facts7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

/-- Row `r`, column `j` of block `t` is row `8000 t + r`, column `j` of the array. -/
theorem iblk7_apply (c : Dev nD) (t : Fin cfg7.N) (r : Fin 8000) (j : Fin 32) (hr : t.val * 8000 + r.val < 2560000) :
    iblk7 V c 0 t (ix2 r j) = inArr7 V c (ix2 (⟨t.val * 8000 + r.val, hr⟩ : Fin 2560000) j) := by
  obtain ⟨e0, e1⟩ := idx_facts7_0 t
  show V c main_v67 (((cfg7.win 0).blk t).view.emb (ix2 r j)) = V c main_v67 _
  refine congrArg (V c main_v67) ?_
  funext a; apply Fin.ext
  match a with
  | ⟨0, _⟩ => show win7_0.index t (0 : Fin 2) * 8000 + 1 * r.val = t.val * 8000 + r.val; omega
  | ⟨1, _⟩ => show win7_0.index t (1 : Fin 2) * 32 + 1 * j.val = j.val; omega

/-- Column `j` of the input array as a function of the row number (zero past the last row), under a function `φ` of the entry. -/
def col7 (c : Dev nD) (j : Fin 32) (φ : Ideal .f32 → Ideal .f32) (r : ℕ) : Ideal .f32 :=
  if h : r < 2560000 then φ (inArr7 V c (ix2 (⟨r, h⟩ : Fin 2560000) j)) else 0

theorem col7_blk (c : Dev nD) (j : Fin 32) (φ : Ideal .f32 → Ideal .f32) (t : Fin cfg7.N) (q : Fin 8000) :
    φ (iblk7 V c 0 t (ix2 q j)) = col7 V c j φ (t.val * 8000 + q.val) := by
  have hN : cfg7.N = 320 := N_7
  have hr : t.val * 8000 + q.val < 2560000 := by have := t.isLt; have := q.isLt; omega
  unfold col7
  rw [dif_pos hr, iblk7_apply V c t q j hr]

/-! ## The 320 blocks of 8000 rows are the 2560000 rows -/

/-- A running sum over the grid that starts at zero plus the first block's sum and adds the next block's sum at each
    later point is, after the last point, the sum over all rows. -/
theorem acc_total7 (S : (n : ℕ) → n < cfg7.N → Ideal .f32) (g : ℕ → Ideal .f32)
    (h0 : ∀ h, S 0 h = 0 + ∑ q : Fin 8000, g (0 * 8000 + q.val))
    (hs : ∀ n (h : n + 1 < cfg7.N), S (n + 1) h = S n (Nat.lt_of_succ_lt h) + ∑ q : Fin 8000, g ((n + 1) * 8000 + q.val))
    (h19 : 319 < cfg7.N) : S 319 h19 = ∑ r : Fin 2560000, g r.val := by
  rw [Cert.TenBlocks.running_sum cfg7.N S (fun t => ∑ q : Fin 8000, g (t * 8000 + q.val)) 0 h0 hs 319 h19, zero_add]
  calc ∑ t ∈ Finset.range (319 + 1), ∑ q : Fin 8000, g (t * 8000 + q.val)
      = ∑ t ∈ Finset.range 320, ∑ q ∈ Finset.range 8000, g (t * 8000 + q) :=
        Finset.sum_congr rfl fun t _ => (Finset.sum_range fun q => g (t * 8000 + q)).symm
    _ = ∑ r ∈ Finset.range (320 * 8000), g r := Cert.TenBlocks.sum_range_mul g 320 8000
    _ = ∑ r : Fin 2560000, g r.val := Finset.sum_range g

/-- After the last point the accumulator of sums holds, in column `j`, the sum of column `j` of the array. -/
theorem sumAcc7_total (c : Dev nD) (j : Fin 32) (h19 : 319 < cfg7.N) :
    sumAcc7 V c 319 h19 (ix2 (0 : Fin 1) j) = ∑ r : Fin 2560000, inArr7 V c (ix2 r j) := by
  refine (acc_total7 (fun n h => sumAcc7 V c n h (ix2 (0 : Fin 1) j)) (col7 V c j id) ?_ ?_ h19).trans ?_
  · intro h
    show sumAcc7 V c 0 h (ix2 (0 : Fin 1) j) = _
    rw [sumAcc7_zero, pay4_apply7, pay1_apply7]
    exact congrArg (0 + ·) (Finset.sum_congr rfl fun q _ => col7_blk V c j id ⟨0, h⟩ q)
  · intro n h
    show sumAcc7 V c (n + 1) h (ix2 (0 : Fin 1) j) = sumAcc7 V c n _ (ix2 (0 : Fin 1) j) + _
    rw [sumAcc7_succ, pay4_apply7]
    exact congrArg (sumAcc7 V c n _ (ix2 (0 : Fin 1) j) + ·) (Finset.sum_congr rfl fun q _ => col7_blk V c j id ⟨n + 1, h⟩ q)
  · exact Finset.sum_congr rfl fun r _ => dif_pos r.isLt

/-- And the accumulator of sums of squares the sum of the squares of column `j`. -/
theorem sqAcc7_total (c : Dev nD) (j : Fin 32) (h19 : 319 < cfg7.N) :
    sqAcc7 V c 319 h19 (ix2 (0 : Fin 1) j)
      = ∑ r : Fin 2560000, inArr7 V c (ix2 r j) * inArr7 V c (ix2 r j) := by
  refine (acc_total7 (fun n h => sqAcc7 V c n h (ix2 (0 : Fin 1) j)) (col7 V c j fun x => x * x) ?_ ?_ h19).trans ?_
  · intro h
    show sqAcc7 V c 0 h (ix2 (0 : Fin 1) j) = _
    rw [sqAcc7_zero, pay5_apply7, pay2_apply7]
    exact congrArg (0 + ·) (Finset.sum_congr rfl fun q _ => col7_blk V c j (fun x => x * x) ⟨0, h⟩ q)
  · intro n h
    show sqAcc7 V c (n + 1) h (ix2 (0 : Fin 1) j) = sqAcc7 V c n _ (ix2 (0 : Fin 1) j) + _
    rw [sqAcc7_succ, pay5_apply7]
    exact congrArg (sqAcc7 V c n _ (ix2 (0 : Fin 1) j) + ·) (Finset.sum_congr rfl fun q _ => col7_blk V c j (fun x => x * x) ⟨n + 1, h⟩ q)
  · exact Finset.sum_congr rfl fun r _ => dif_pos r.isLt

/-! ## The two output arrays after the region -/

/-- The last point. -/
abbrev t7_last : Fin cfg7.N := ⟨319, by rw [show cfg7.N = 320 from N_7]; decide⟩

theorem hz7_v : (![0, 0] : Fin 2 → ℕ) = fun _ => 0 := funext fun a => by fin_cases a <;> rfl

/-- The mean row and the variance row the last point stores, as contents of their arrays (each array is its one block). -/
abbrev meanRow7 (c : Dev nD) : Buf (Elt Ideal) ((c : Thread nD τ).loc main_v68_0) := k7_pay6 (sumAcc7 V c 319 t7_last.isLt)
abbrev varRow7 (c : Dev nD) : Buf (Elt Ideal) ((c : Thread nD τ).loc main_v68_1) :=
  k7_pay7 (sumAcc7 V c 319 t7_last.isLt) (sqAcc7 V c 319 t7_last.isLt)

/-- The one write-back of the mean's window, at the last point, writes the mean row: its block is the whole array. -/
theorem flushed7_1 (c : Dev nD) (t : Fin cfg7.N) (hf : (cfg7.win 1).flush t = true) :
    (dat7 V c).flushed 1 t = ((cfg7.win 1).blk t).view.read (Elt Ideal) (meanRow7 V c) := by
  have hN : cfg7.N = 320 := N_7
  have h19 : t.val = 319 := by have := (flush7_1 t).mp hf; have := t.isLt; omega
  obtain rfl : t = t7_last := Fin.ext h19
  show (cfg7.win 1).cut (grid7.coords t7_last) ((dat7 V c).after 1 t7_last) = _
  rw [after7_1]
  have hz' : (fun a => win7_1.index t7_last a * main_v68_0.ty.shape.size a) = fun _ => 0 := funext fun a => by fin_cases a <;> decide +kernel
  exact (Memref.read_access_unit_zero (Elt Ideal) main_v68_0 hz' (fun a => by rw [congrFun hz' a]; simp) (meanRow7 V c)).symm

theorem flushed7_2 (c : Dev nD) (t : Fin cfg7.N) (hf : (cfg7.win 2).flush t = true) :
    (dat7 V c).flushed 2 t = ((cfg7.win 2).blk t).view.read (Elt Ideal) (varRow7 V c) := by
  have hN : cfg7.N = 320 := N_7
  have h19 : t.val = 319 := by have := (flush7_2 t).mp hf; have := t.isLt; omega
  obtain rfl : t = t7_last := Fin.ext h19
  show (cfg7.win 2).cut (grid7.coords t7_last) ((dat7 V c).after 2 t7_last) = _
  rw [after7_2]
  have hz' : (fun a => win7_2.index t7_last a * main_v68_1.ty.shape.size a) = fun _ => 0 := funext fun a => by fin_cases a <;> decide +kernel
  exact (Memref.read_access_unit_zero (Elt Ideal) main_v68_1 hz' (fun a => by rw [congrFun hz' a]; simp) (varRow7 V c)).symm

/-- So the mean's array ends holding the mean row: the last point's block covers it. -/
theorem final7_1 (c : Dev nD) : (dat7 V c).arrAt 1 cfg7.N = meanRow7 V c :=
  (dat7 V c).arrAt_eq_of_cover 1 (meanRow7 V c) (flushed7_1 V c) fun i =>
    ⟨t7_last, (flush7_1 t7_last).mpr rfl, by
      show i ∈ ((View.whole main_v68_0).slice (win7_1.rect t7_last)).set
      rw [View.set_slice_whole, Rect.mem_set_unit]
      intro a
      have h0 : (i 0 : ℕ) < 1 := (i 0).isLt
      have h1 : (i 1 : ℕ) < 32 := (i 1).isLt
      match a with
      | ⟨0, _⟩ => show win7_1.index t7_last 0 * win7_1.size 0 ≤ (i 0 : ℕ) ∧ (i 0 : ℕ) < win7_1.index t7_last 0 * win7_1.size 0 + win7_1.xsize (grid7.coords t7_last) 0
                  rw [show win7_1.index t7_last 0 * win7_1.size 0 = 0 from by decide +kernel, show win7_1.xsize (grid7.coords t7_last) 0 = 1 from by decide +kernel]; omega
      | ⟨1, _⟩ => show win7_1.index t7_last 1 * win7_1.size 1 ≤ (i 1 : ℕ) ∧ (i 1 : ℕ) < win7_1.index t7_last 1 * win7_1.size 1 + win7_1.xsize (grid7.coords t7_last) 1
                  rw [show win7_1.index t7_last 1 * win7_1.size 1 = 0 from by decide +kernel, show win7_1.xsize (grid7.coords t7_last) 1 = 32 from by decide +kernel]; omega⟩

/-- And the variance's array the variance row. -/
theorem final7_2 (c : Dev nD) : (dat7 V c).arrAt 2 cfg7.N = varRow7 V c :=
  (dat7 V c).arrAt_eq_of_cover 2 (varRow7 V c) (flushed7_2 V c) fun i =>
    ⟨t7_last, (flush7_2 t7_last).mpr rfl, by
      show i ∈ ((View.whole main_v68_1).slice (win7_2.rect t7_last)).set
      rw [View.set_slice_whole, Rect.mem_set_unit]
      intro a
      have h0 : (i 0 : ℕ) < 1 := (i 0).isLt
      have h1 : (i 1 : ℕ) < 32 := (i 1).isLt
      match a with
      | ⟨0, _⟩ => show win7_2.index t7_last 0 * win7_2.size 0 ≤ (i 0 : ℕ) ∧ (i 0 : ℕ) < win7_2.index t7_last 0 * win7_2.size 0 + win7_2.xsize (grid7.coords t7_last) 0
                  rw [show win7_2.index t7_last 0 * win7_2.size 0 = 0 from by decide +kernel, show win7_2.xsize (grid7.coords t7_last) 0 = 1 from by decide +kernel]; omega
      | ⟨1, _⟩ => show win7_2.index t7_last 1 * win7_2.size 1 ≤ (i 1 : ℕ) ∧ (i 1 : ℕ) < win7_2.index t7_last 1 * win7_2.size 1 + win7_2.xsize (grid7.coords t7_last) 1
                  rw [show win7_2.index t7_last 1 * win7_2.size 1 = 0 from by decide +kernel, show win7_2.xsize (grid7.coords t7_last) 1 = 32 from by decide +kernel]; omega⟩

/-! ## The two arrays read at an index -/

/-- Column `j` of the mean's array: the sum of column `j` of the input array over its 2560000 rows, divided by the row count. -/
theorem mean7_value (c : Dev nD) (j : Fin 32) :
    (dat7 (F := Ideal) V c).arrAt 1 cfg7.N (ValueIdx.ix2 (0 : Fin 1) j)
      = Ideal.div (∑ r : Fin 2560000, inArr7 V c (ValueIdx.ix2 r j)) (Ideal.ofBits .f32 0x4A1C4000#32) := by
  rw [final7_1]
  show Ideal.div (sumAcc7 V c 319 t7_last.isLt (ix2 (0 : Fin 1) j)) (Ideal.ofBits .f32 0x4A1C4000#32) = _
  rw [sumAcc7_total]

/-- Column `j` of the variance's array: the sum of the squares of column `j` divided by the row count, minus the square of the mean. -/
theorem var7_value (c : Dev nD) (j : Fin 32) :
    (dat7 (F := Ideal) V c).arrAt 2 cfg7.N (ValueIdx.ix2 (0 : Fin 1) j)
      = Ideal.div (∑ r : Fin 2560000, inArr7 V c (ValueIdx.ix2 r j) * inArr7 V c (ValueIdx.ix2 r j)) (Ideal.ofBits .f32 0x4A1C4000#32)
        - Ideal.div (∑ r : Fin 2560000, inArr7 V c (ValueIdx.ix2 r j)) (Ideal.ofBits .f32 0x4A1C4000#32)
          * Ideal.div (∑ r : Fin 2560000, inArr7 V c (ValueIdx.ix2 r j)) (Ideal.ofBits .f32 0x4A1C4000#32) := by
  rw [final7_2]
  show Ideal.div (sqAcc7 V c 319 t7_last.isLt (ix2 (0 : Fin 1) j)) (Ideal.ofBits .f32 0x4A1C4000#32)
    - Ideal.div (sumAcc7 V c 319 t7_last.isLt (ix2 (0 : Fin 1) j)) (Ideal.ofBits .f32 0x4A1C4000#32)
      * Ideal.div (sumAcc7 V c 319 t7_last.isLt (ix2 (0 : Fin 1) j)) (Ideal.ofBits .f32 0x4A1C4000#32) = _
  rw [sumAcc7_total, sqAcc7_total]

end Cert.KernelIdeal.HandValue

end
-- ==== Proof.RefReads1.lean ====
/-
  Stage 1's pieces read at an index, at the extended reals: a contribution is a finite sum of products over the input
  channels; a column mean is the column's sum over the rows divided by the row count; the column variance is the sum of
  the squared deviations from that mean divided by the row count (the selection inside it is decided: its condition
  compares the row count with zero); the tail is a pointwise formula. Every broadcast reads its operand at the
  corresponding coordinates, every sum stays a symbolic sum over its literal range.
-/
import proofs.«146613_j41781441855727_2_alg».proof.Proof.RefDefs
import proofs.«146613_j41781441855727_2_alg».proof.Proof.RefConsts
import proofs.«146613_j41781441855727_2_alg».proof.Proof.RefReadsLib
import Idealize.ShloMosaic.Lib.ValueIdx
import Idealize.ShloMosaic.PureOps.Ideal.Laws

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx

/-! ## Stage 1 read at an index -/

/-- The product's dimension record (one batch axis, one contracted axis of extent 32). -/
abbrev D1 := dot_S9x640000x32_S9x32x32_S9x640000x32_2_1_1_2_0_0

theorem D1_rank : (D1).contr.rank = 1 := rfl
theorem D1_size : (D1).contr.size ⟨0, by rw [D1_rank]; omega⟩ = 32 := rfl

/-- The left operand's index for output `(k, p, o)` and contraction coordinate `q`: `(k, p, q)`. -/
theorem D1_lhs (k : Fin 9) (p : Fin 640000) (o : Fin 32) (q : D1.contr.Idx) :
    D1.lhsIdx (ix3 k p o) q = ix3 k p ((q ⟨0, by rw [D1_rank]; omega⟩).cast D1_size) := by
  funext a
  apply Fin.ext
  match a with
  | ⟨0, _⟩ => simp [DotDims.lhsIdx, D1, dot_S9x640000x32_S9x32x32_S9x640000x32_2_1_1_2_0_0]; rfl
  | ⟨1, _⟩ => simp [DotDims.lhsIdx, D1, dot_S9x640000x32_S9x32x32_S9x640000x32_2_1_1_2_0_0]; rfl
  | ⟨2, _⟩ => simp [DotDims.lhsIdx, D1, dot_S9x640000x32_S9x32x32_S9x640000x32_2_1_1_2_0_0]; rfl

/-- The right operand's index: `(k, q, o)`. -/
theorem D1_rhs (k : Fin 9) (p : Fin 640000) (o : Fin 32) (q : D1.contr.Idx) :
    D1.rhsIdx (ix3 k p o) q = ix3 k ((q ⟨0, by rw [D1_rank]; omega⟩).cast D1_size) o := by
  funext a
  apply Fin.ext
  match a with
  | ⟨0, _⟩ => simp [DotDims.rhsIdx, D1, dot_S9x640000x32_S9x32x32_S9x640000x32_2_1_1_2_0_0]; rfl
  | ⟨1, _⟩ => simp [DotDims.rhsIdx, D1, dot_S9x640000x32_S9x32x32_S9x640000x32_2_1_1_2_0_0]; rfl
  | ⟨2, _⟩ => simp [DotDims.rhsIdx, D1, dot_S9x640000x32_S9x32x32_S9x640000x32_2_1_1_2_0_0]; rfl

/-- A contribution is the sum over the 32 input channels of the gathered row's entry times the offset's matrix entry. -/
theorem contrib1_apply (x : FVec Ideal S640000x32 .f32) (W : FVec Ideal S9x32x32 .f32) (iin : IVec S9x640000 32)
    (k : Fin 9) (p : Fin 640000) (o : Fin 32) :
    contrib1 (F := Ideal) x W iin (ix3 k p o) = ∑ i : Fin 32, gathered1 (F := Ideal) x iin (ix3 k p i) * W (ix3 k i o) := by
  unfold contrib1 Host.dotGeneral
  rw [Ideal.dotGeneral_apply, ← Equiv.sum_comp (contrEquiv1 D1 32 D1_rank D1_size).symm]
  refine Finset.sum_congr rfl fun i _ => ?_
  have hi : Fin.cast D1_size ((contrEquiv1 D1 32 D1_rank D1_size).symm i ⟨0, by rw [D1_rank]; omega⟩) = i :=
    Fin.ext (contrEquiv1_symm_val D1 32 D1_rank D1_size i)
  rw [D1_lhs, D1_rhs, hi]

/-- The column reduction's shape fact in the form that names the inserted coordinate. -/
theorem R1 : S2560000x32.Reduces [0] S32 := by decide

/-- The source index over column `j` with row coordinate `r`: `(r, j)`. -/
theorem R1_lift (j : Fin 32) (r : Fin 2560000) : R1.lift (ix1 j) r = ix2 r j := by
  funext a
  apply Fin.ext
  match a with
  | ⟨0, _⟩ => rfl
  | ⟨1, _⟩ => rfl

/-- A column's sum from the zero word: the sum over the 2560000 rows. -/
theorem colSum1_apply (s : FVec Ideal S2560000x32 .f32) (j : Fin 32) :
    Host.reduceAdd (F := Ideal) s (constant S_ .f32 0x00000000#32) reducesTo_S2560000x32_S32_d0 h_S_ (ix1 j)
      = ∑ r : Fin 2560000, s (ix2 r j) := by
  unfold Host.reduceAdd
  rw [Ideal.hostReduceAdd_def, Ideal.hostReduceAdd_single reducesTo_S2560000x32_S32_d0 R1]
  rw [show (constant (F := Ideal) S_ .f32 0x00000000#32 (Shape.Idx.first h_S_)) = 0 from Ideal.ofBits_zero_f32, zero_add]
  exact Finset.sum_congr rfl fun r _ => congrArg s (R1_lift j r)

/-! The broadcasts at an index. -/

theorem bcastRow1_apply {α : Type} (y : S1x32.Idx → α) (r : Fin 2560000) (j : Fin 32) :
    broadcastInDim S2560000x32 ![0, 1] bcast_S1x32_S2560000x32_0_1 y (ix2 r j) = y (ix2 (0 : Fin 1) j) := by
  unfold broadcastInDim
  refine congrArg y ?_
  funext a
  apply Fin.ext
  match a with
  | ⟨0, _⟩ => rfl
  | ⟨1, _⟩ => rfl

theorem bcastKeep1_apply {α : Type} (v : S32.Idx → α) (z : Fin 1) (j : Fin 32) :
    broadcastInDim S1x32 ![1] bcast_S32_S1x32_1 v (ix2 z j) = v (ix1 j) := by
  unfold broadcastInDim
  refine congrArg v ?_
  funext a
  apply Fin.ext
  match a with
  | ⟨0, _⟩ => rfl

theorem bcastScalarKeep1_apply {α : Type} (c : S_.Idx → α) (i : S1x32.Idx) :
    broadcastInDim S1x32 ![] bcast_S_S1x32 c i = c ix0 :=
  congrArg c (funext fun a => a.elim0)

theorem bcastScalarCol1_apply {α : Type} (c : S_.Idx → α) (i : S32.Idx) :
    broadcastInDim S32 ![] bcast_S_S32 c i = c ix0 :=
  congrArg c (funext fun a => a.elim0)

/-- A column vector spread over the rows reads its column's entry. -/
theorem rowBcast1_apply (v : FVec Ideal S32 .f32) (r : Fin 2560000) (j : Fin 32) :
    rowBcast1 (F := Ideal) v (ix2 r j) = v (ix1 j) := by
  unfold rowBcast1
  rw [bcastRow1_apply, bcastKeep1_apply]

/-- The column mean: the column's sum over the 2560000 rows divided by the row count's word. -/
theorem mean1_apply (s : FVec Ideal S2560000x32 .f32) (j : Fin 32) :
    mean1 (F := Ideal) s (ix1 j) = Ideal.div (∑ r : Fin 2560000, s (ix2 r j)) (Ideal.ofBits .f32 0x4A1C4000#32) := by
  unfold mean1
  rw [hostDivf_apply, colSum1_apply, bcastScalarCol1_apply]
  rfl

/-- The mean computed inside the variance (with a kept unit axis) is the column mean. -/
theorem varMean1_apply (s : FVec Ideal S2560000x32 .f32) (r : Fin 2560000) (j : Fin 32) :
    varMean1 (F := Ideal) s (ix2 r j) = mean1 (F := Ideal) s (ix1 j) := by
  unfold varMean1
  rw [bcastRow1_apply, hostDivf_apply, bcastKeep1_apply, bcastScalarKeep1_apply, mean1_apply, colSum1_apply]
  rfl

/-- The divisor inside the variance is the row count: the correction is the integer zero. -/
theorem varCount1_apply : varCount1 (F := Ideal) ix0 = Ideal.ofBits .f32 0x4A1C4000#32 := by
  unfold varCount1
  rw [subf_apply, sitofp_apply]
  show Ideal.ofBits .f32 0x4A1C4000#32 - (((0#32 : BitVec 32).toInt : ℝ) : EReal) = _
  rw [BitVec.toInt_zero, Int.cast_zero, EReal.coe_zero, sub_zero]

/-- The column variance: the squared deviations from the column mean summed over the rows, divided by the row count (the
    selection's condition, row count greater than zero, holds). -/
theorem var1_apply (s : FVec Ideal S2560000x32 .f32) (j : Fin 32) :
    var1 (F := Ideal) s (ix1 j)
      = Ideal.div (∑ r : Fin 2560000, (s (ix2 r j) - mean1 (F := Ideal) s (ix1 j)) * (s (ix2 r j) - mean1 (F := Ideal) s (ix1 j)))
          (Ideal.ofBits .f32 0x4A1C4000#32) := by
  unfold var1
  rw [select_apply, bcastScalarCol1_apply, cmpf_apply, varCount1_apply]
  have hc : FloatOps.cmpf (F := Ideal) .ogt (Ideal.ofBits .f32 0x4A1C4000#32) (constant (F := Ideal) S_ .f32 0x00000000#32 ix0) = 1#1 := by
    show Ideal.cmp .ogt (Ideal.ofBits .f32 0x4A1C4000#32) (Ideal.ofBits .f32 0x00000000#32) = 1#1
    rw [Ideal.ofBits_zero_f32, RefConsts.ofBits_n1]
    simp [Ideal.cmp]
  rw [hc, select_one, hostDivf_apply, colSum1_apply, bcastScalarCol1_apply, varCount1_apply]
  have hsum : (∑ r : Fin 2560000, mulf (varDev1 (F := Ideal) s) (varDev1 (F := Ideal) s) (ix2 r j))
      = ∑ r : Fin 2560000, (s (ix2 r j) - mean1 (F := Ideal) s (ix1 j)) * (s (ix2 r j) - mean1 (F := Ideal) s (ix1 j)) :=
    Finset.sum_congr rfl fun r _ => by
      rw [mulf_apply]
      unfold varDev1
      rw [subf_apply, varMean1_apply]
  rw [hsum]

/-- The tail at an entry: the sum less its column's mean, times the reciprocal square root of the column's variance plus
    the small constant, times `gamma`, plus `beta`, plus the residual. -/
theorem tail1_apply (s : FVec Ideal S2560000x32 .f32) (gamma beta : FVec Ideal S32 .f32) (skip : FVec Ideal S2560000x32 .f32)
    (r : Fin 2560000) (j : Fin 32) :
    tail1 (F := Ideal) s gamma beta skip (ix2 r j)
      = ((s (ix2 r j) - mean1 (F := Ideal) s (ix1 j))
            * Ideal.rsqrt (var1 (F := Ideal) s (ix1 j) + Ideal.ofBits .f32 0x3727C5AC#32)
            * gamma (ix1 j) + beta (ix1 j)) + skip (ix2 r j) := by
  unfold tail1
  rw [addf_apply, addf_apply, mulf_apply, mulf_apply, subf_apply, rowBcast1_apply, rowBcast1_apply, rowBcast1_apply,
    rowBcast1_apply, hostRsqrt_apply, addf_apply, bcastScalarCol1_apply]
  rfl

end Cert.ReferenceIdeal.RefRun

end
-- ==== Proof.RefReal1.lean ====
/-
  Stage 1 on real data: the contributions, the scattered sums, the column means and the normalised result are arrays of real
  numbers when the inputs are; the column variance is a nonnegative real; and the mean of the squares less the squared mean
  — the other way of computing a variance — equals it there.
-/
import proofs.«146613_j41781441855727_2_alg».proof.Proof.RefReads1
import proofs.«146613_j41781441855727_2_alg».proof.Proof.BridgeReal
import proofs.«146613_j41781441855727_2_alg».proof.Proof.BridgeStats

noncomputable section

namespace Cert.ReferenceIdeal.RefRun

open Cert.ReferenceIdeal Idealize.ShloMosaic Idealize.ShloMosaic.StableHlo
open Cert.ReferenceIdeal.Facts₀ Cert.ReferenceIdeal.Facts
open scoped BigOperators

open ValueIdx Cert.Bridge

/-! ## Stage 1 keeps real data real -/

/-- The contributions of real rows and real matrices are real: finite sums of products of entries. -/
theorem isReal_contrib1 (x : FVec Ideal S640000x32 .f32) (W : FVec Ideal S9x32x32 .f32) (iin : IVec S9x640000 32)
    (hx : IsReal x) (hW : IsReal W) : IsReal (contrib1 (F := Ideal) x W iin) := by
  have hg : IsReal (gathered1 (F := Ideal) x iin) := isReal_gather _ x _ hx
  intro i
  obtain ⟨k, p, o, rfl⟩ : ∃ (k : Fin 9) (p : Fin 640000) (o : Fin 32), i = ix3 k p o := ⟨i 0, i 1, i 2, eq_ix3 i⟩
  rw [contrib1_apply]
  exact real_sum _ _ fun c _ => real_mul (hg _) (hW _)

/-- The array of zeros is real. -/
theorem isReal_zeros1 : IsReal (zeros1 (F := Ideal)) := fun i =>
  ⟨0, by
    show Ideal.ofBits .f32 0x00000000#32 = ((0 : ℝ) : EReal)
    rw [Ideal.ofBits_zero_f32, EReal.coe_zero]⟩

/-- The scattered sums of real contributions are real: each entry is zero plus a finite sum of contribution entries. -/
theorem isReal_scattered1 (x : FVec Ideal S640000x32 .f32) (W : FVec Ideal S9x32x32 .f32) (iin iout : IVec S9x640000 32)
    (hx : IsReal x) (hW : IsReal W) : IsReal (scattered1 (F := Ideal) x W iin iout) := by
  have hf : IsReal (flatContrib1 (F := Ideal) (contrib1 (F := Ideal) x W iin)) := fun i => isReal_contrib1 x W iin hx hW _
  exact isReal_scatterAdd _ _ _ _ isReal_zeros1 hf

/-- The column mean of a real array is a real. -/
theorem mean1_real (s : FVec Ideal S2560000x32 .f32) (hs : IsReal s) (j : Fin 32) :
    ∃ r : ℝ, mean1 (F := Ideal) s (ix1 j) = (r : EReal) := by
  rw [mean1_apply]
  exact mean_real (fun r : Fin 2560000 => s (ix2 r j)) (fun r => hs _) _ 2560000 (by norm_num) RefConsts.ofBits_n1

/-- The column variance of a real array is a nonnegative real. -/
theorem var1_nonneg (s : FVec Ideal S2560000x32 .f32) (hs : IsReal s) (j : Fin 32) :
    ∃ v : ℝ, 0 ≤ v ∧ var1 (F := Ideal) s (ix1 j) = (v : EReal) := by
  rw [var1_apply, mean1_apply]
  exact (var_forms_col (fun r : Fin 2560000 => s (ix2 r j)) (fun r => hs _) _ 2560000 (by norm_num) RefConsts.ofBits_n1 (by norm_num)).2

/-- On a real array the mean of the squares less the squared mean is the column variance. -/
theorem kvar1_eq (s : FVec Ideal S2560000x32 .f32) (hs : IsReal s) (j : Fin 32) :
    Ideal.div (∑ r : Fin 2560000, s (ix2 r j) * s (ix2 r j)) (Ideal.ofBits .f32 0x4A1C4000#32)
        - Ideal.div (∑ r : Fin 2560000, s (ix2 r j)) (Ideal.ofBits .f32 0x4A1C4000#32)
          * Ideal.div (∑ r : Fin 2560000, s (ix2 r j)) (Ideal.ofBits .f32 0x4A1C4000#32)
      = var1 (F := Ideal) s (ix1 j) := by
  rw [var1_apply, mean1_apply]
  exact (var_forms_col (fun r : Fin 2560000 => s (ix2 r j)) (fun r => hs _) _ 2560000 (by norm_num) RefConsts.ofBits_n1 (by norm_num)).1

/-- The tail of real data is real. -/
theorem isReal_tail1 (s : FVec Ideal S2560000x32 .f32) (gamma beta : FVec Ideal S32 .f32) (skip : FVec Ideal S2560000x32 .f32)
    (hs : IsReal s) (hg : IsReal gamma) (hb : IsReal beta) (hk : IsReal skip) : IsReal (tail1 (F := Ideal) s gamma beta skip) := by
  intro i
  obtain ⟨r, j, rfl⟩ : ∃ (r : Fin 2560000) (j : Fin 32), i = ix2 r j := ⟨i 0, i 1, eq_ix2 i⟩
  rw [tail1_apply]
  exact norm_real (hs _) (mean1_real s hs j) (var1_nonneg s hs j) (hg _) (hb _) (hk _) RefConsts.ofBits_eps

/-- The stage keeps real data real. -/
theorem isReal_stage1 (x : FVec Ideal S640000x32 .f32) (W : FVec Ideal S9x32x32 .f32) (iin iout : IVec S9x640000 32)
    (gamma beta : FVec Ideal S32 .f32) (skip : FVec Ideal S2560000x32 .f32)
    (hx : IsReal x) (hW : IsReal W) (hg : IsReal gamma) (hb : IsReal beta) (hk : IsReal skip) :
    IsReal (stage1 (F := Ideal) x W iin iout gamma beta skip) :=
  isReal_tail1 _ _ _ _ (isReal_scattered1 x W iin iout hx hW) hg hb hk

end Cert.ReferenceIdeal.RefRun

end
-- ==== Proof.KStage1.lean ====
/-
  Stage 1 of the kernel program against the reference's stage 1, at the exact instance. From the stage's operands as the
  stage's first boundary holds them: the kernel's slab-wise products are the reference's batched contraction (the same finite
  sums), so the scattered sums are the reference's; the statistics region's running column sums over the row tiles add up to
  the whole column sums, so its mean is the reference's, and its variance — mean of squares minus squared mean — is the
  reference's mean of squared deviations because the scattered sums are finite reals; the normalisation is then the
  reference's formula entry by entry.
-/
import proofs.«146613_j41781441855727_2_alg».proof.Proof.KHost1
import proofs.«146613_j41781441855727_2_alg».proof.Proof.Value6
import proofs.«146613_j41781441855727_2_alg».proof.Proof.Value8
import proofs.«146613_j41781441855727_2_alg».proof.Proof.Region7Value
import proofs.«146613_j41781441855727_2_alg».proof.Proof.RefReads1
import proofs.«146613_j41781441855727_2_alg».proof.Proof.RefReal1
import proofs.«146613_j41781441855727_2_alg».proof.Proof.BridgeStats
import Idealize.ShloMosaic.Lib.ValueLayout

set_option maxRecDepth 16384
set_option maxHeartbeats 4000000

noncomputable section

namespace Cert.KernelIdeal.HandValue

open Cert.KernelIdeal Cert.KernelIdeal.Gen Cert.KernelIdeal.Hand
open Idealize.ShloMosaic Idealize.ShloMosaic.TcCoe Idealize.SL Idealize.SL.Sem
open Idealize.ShloMosaic.ValueIdx
open Cert.ReferenceIdeal.RefRun Cert.Bridge

variable (m : (ℓ : Loc nD τ sig) → Buf (Elt Ideal) ℓ) (c : Dev nD)

/-- The stage's operands, as the stage's first boundary holds them. -/
abbrev st1_x : FVec Ideal Cert.ReferenceIdeal.S640000x32 .f32 := W12 m c (Proc.devRef .tc main_v47)
abbrev st1_w : FVec Ideal Cert.ReferenceIdeal.S9x32x32 .f32 := W12 m c (Proc.devRef .tc main_arg6)
abbrev st1_iin : IVec Cert.ReferenceIdeal.S9x640000 32 := W12 m c (Proc.devRef .tc main_arg17)
abbrev st1_iout : IVec Cert.ReferenceIdeal.S9x640000 32 := W12 m c (Proc.devRef .tc main_arg18)
abbrev st1_gamma : FVec Ideal Cert.ReferenceIdeal.S32 .f32 := W12 m c (Proc.devRef .tc main_arg11)
abbrev st1_beta : FVec Ideal Cert.ReferenceIdeal.S32 .f32 := W12 m c (Proc.devRef .tc main_arg12)
abbrev st1_skip : FVec Ideal Cert.ReferenceIdeal.S2560000x32 .f32 := W12 m c (Proc.devRef .tc main_arg3)
/-- The reference's scattered sums of those operands. -/
abbrev st1_s : FVec Ideal Cert.ReferenceIdeal.S2560000x32 .f32 := scattered1 (F := Ideal) (st1_x m c) (st1_w m c) (st1_iin m c) (st1_iout m c)

/-- The GEMM region's two input arrays and the normalisation region's six, as the regions find them, at their shapes. -/
abbrev st1_a0 : Cert.ReferenceIdeal.S9x640000x32.Idx → EReal := Hand.V13 m c (Pipeline.arrRef spec6 0)
abbrev st1_a1 : Cert.ReferenceIdeal.S9x32x32.Idx → EReal := Hand.V13 m c (Pipeline.arrRef spec6 1)
abbrev st1_n0 : Cert.ReferenceIdeal.S2560000x32.Idx → EReal := Hand.V17 m c (Pipeline.arrRef spec8 0)
abbrev st1_n1 : Cert.ReferenceIdeal.S1x32.Idx → EReal := Hand.V17 m c (Pipeline.arrRef spec8 1)
abbrev st1_n2 : Cert.ReferenceIdeal.S1x32.Idx → EReal := Hand.V17 m c (Pipeline.arrRef spec8 2)
abbrev st1_n3 : Cert.ReferenceIdeal.S1x32.Idx → EReal := Hand.V17 m c (Pipeline.arrRef spec8 3)
abbrev st1_n4 : Cert.ReferenceIdeal.S1x32.Idx → EReal := Hand.V17 m c (Pipeline.arrRef spec8 4)
abbrev st1_n5 : Cert.ReferenceIdeal.S2560000x32.Idx → EReal := Hand.V17 m c (Pipeline.arrRef spec8 5)

/-- The GEMM region's output array is the reference's contraction. -/
theorem st1_contrib : (W14 m c (Proc.devRef .tc main_v57) : Cert.ReferenceIdeal.S9x640000x32.Idx → EReal)
    = contrib1 (F := Ideal) (st1_x m c) (st1_w m c) (st1_iin m c) := by
  have e : (W14 m c (Proc.devRef .tc main_v57) : Cert.ReferenceIdeal.S9x640000x32.Idx → EReal)
      = prod6 (st1_a0 m c) (st1_a1 m c) :=
    (W14_arr m c 2).trans (value6 (Hand.V13 m) c)
  have hg : st1_a0 m c
      = gathered1 (F := Ideal) (st1_x m c) (st1_iin m c) := host6_g (W12 m c)
  have hw : st1_a1 m c = st1_w m c := host6_w (W12 m c)
  rw [e]
  funext j
  obtain ⟨k, p, o, rfl⟩ : ∃ (k : Fin 9) (p : Fin 640000) (o : Fin 32), j = ix3 k p o := ⟨j 0, j 1, j 2, eq_ix3 j⟩
  rw [contrib1_apply]
  show ∑ i : Fin 32, st1_a0 m c (ix3 k p i)
      * st1_a1 m c (ix3 k i o) = _
  rw [hg, hw]

/-- The scattered sums are the reference's. -/
theorem st1_scat : (W15 m c (Proc.devRef .tc main_v67) : Cert.ReferenceIdeal.S2560000x32.Idx → EReal) = st1_s m c := by
  refine (host7_scat (W14 m c)).trans ?_
  rw [keep1_iout m c, st1_contrib m c]
  rfl

/-- The statistics region's mean row is the reference's column mean. -/
theorem st1_mean (j : Fin 32) : (W16 m c (Proc.devRef .tc main_v68_0) : Cert.ReferenceIdeal.S1x32.Idx → EReal) (ix2 (0 : Fin 1) j)
    = mean1 (F := Ideal) (st1_s m c) (ix1 j) := by
  have e : (W16 m c (Proc.devRef .tc main_v68_0) : Cert.ReferenceIdeal.S1x32.Idx → EReal) = (dat7 (F := Ideal) (Hand.V15 m) c).arrAt 1 cfg7.N := W16_arr m c 1
  have hin : (inArr7 (Hand.V15 m) c : Cert.ReferenceIdeal.S2560000x32.Idx → EReal) = st1_s m c := st1_scat m c
  rw [e, mean7_value (Hand.V15 m) c j, hin, mean1_apply]

/-- The scattered sums are finite reals when the gathered array and the weights are. -/
theorem st1_s_real (hx : IsReal (st1_x m c)) (hW : IsReal (st1_w m c)) : IsReal (st1_s m c) :=
  isReal_scattered1 _ _ _ _ hx hW

/-- The statistics region's variance row is the reference's column variance, the scattered sums being finite reals. -/
theorem st1_var (hx : IsReal (st1_x m c)) (hW : IsReal (st1_w m c)) (j : Fin 32) :
    (W16 m c (Proc.devRef .tc main_v68_1) : Cert.ReferenceIdeal.S1x32.Idx → EReal) (ix2 (0 : Fin 1) j) = var1 (F := Ideal) (st1_s m c) (ix1 j) := by
  have e : (W16 m c (Proc.devRef .tc main_v68_1) : Cert.ReferenceIdeal.S1x32.Idx → EReal) = (dat7 (F := Ideal) (Hand.V15 m) c).arrAt 2 cfg7.N := W16_arr m c 2
  have hin : (inArr7 (Hand.V15 m) c : Cert.ReferenceIdeal.S2560000x32.Idx → EReal) = st1_s m c := st1_scat m c
  rw [e, var7_value (Hand.V15 m) c j, hin]
  exact kvar1_eq (st1_s m c) (st1_s_real m c hx hW) j

/-- The stage's output array is the reference's stage of the operands. -/
theorem st1_out (hx : IsReal (st1_x m c)) (hW : IsReal (st1_w m c)) :
    (W18 m c (Proc.devRef .tc main_v71) : Cert.ReferenceIdeal.S2560000x32.Idx → EReal)
      = stage1 (F := Ideal) (st1_x m c) (st1_w m c) (st1_iin m c) (st1_iout m c) (st1_gamma m c) (st1_beta m c) (st1_skip m c) := by
  have e : (W18 m c (Proc.devRef .tc main_v71) : Cert.ReferenceIdeal.S2560000x32.Idx → EReal)
      = norm8 (st1_n0 m c) (st1_n1 m c) (st1_n2 m c)
          (st1_n3 m c) (st1_n4 m c) (st1_n5 m c) :=
    (W18_arr m c 6).trans (value8 (Hand.V17 m) c)
  have h0 : st1_n0 m c = st1_s m c := (keep1_scat m c).trans (st1_scat m c)
  have h1 : ∀ j : Fin 32, st1_n1 m c (ix2 (0 : Fin 1) j) = mean1 (F := Ideal) (st1_s m c) (ix1 j) :=
    fun j => (congrFun (keep1_mean m c) _).trans (st1_mean m c j)
  have h2 : ∀ j : Fin 32, st1_n2 m c (ix2 (0 : Fin 1) j) = var1 (F := Ideal) (st1_s m c) (ix1 j) :=
    fun j => (congrFun (keep1_var m c) _).trans (st1_var m c hx hW j)
  have h3 : ∀ j : Fin 32, st1_n3 m c (ix2 (0 : Fin 1) j) = st1_gamma m c (ix1 j) := fun j => by
    refine (host8_gamma (W16 m c) (ix2 (0 : Fin 1) j)).trans ?_
    rw [keep1_gamma m c]
    exact shapeCast_a_1a_apply _ _ _ _
  have h4 : ∀ j : Fin 32, st1_n4 m c (ix2 (0 : Fin 1) j) = st1_beta m c (ix1 j) := fun j => by
    refine (host8_beta (W16 m c) (ix2 (0 : Fin 1) j)).trans ?_
    rw [keep1_beta m c]
    exact shapeCast_a_1a_apply _ _ _ _
  have h5 : st1_n5 m c = st1_skip m c := keep1_skip m c
  rw [e]
  funext i
  obtain ⟨r, j, rfl⟩ : ∃ (r : Fin 2560000) (j : Fin 32), i = ix2 r j := ⟨i 0, i 1, eq_ix2 i⟩
  show ((st1_n0 m c (ix2 r j) - st1_n1 m c (ix2 (0 : Fin 1) j))
        * Ideal.rsqrt (st1_n2 m c (ix2 (0 : Fin 1) j) + Ideal.ofBits .f32 0x3727C5AC#32)
        * st1_n3 m c (ix2 (0 : Fin 1) j)
        + st1_n4 m c (ix2 (0 : Fin 1) j))
      + st1_n5 m c (ix2 r j) = _
  rw [h0, h1, h2, h3, h4, h5]
  exact (tail1_apply (st1_s m c) (st1_gamma m c) (st1_beta m c) (st1_skip m c) r j).symm

/-- The stage's output is again an array of finite reals. -/
theorem st1_out_real (hx : IsReal (st1_x m c)) (hW : IsReal (st1_w m c)) (hg : IsReal (st1_gamma m c)) (hb : IsReal (st1_beta m c))
    (hk : IsReal (st1_skip m c)) : IsReal (W18 m c (Proc.devRef .tc main_v71) : Cert.ReferenceIdeal.S2560000x32.Idx → EReal) := by
  rw [st1_out m c hx hW]
  exact isReal_stage1 _ _ _ _ _ _ _ hx hW hg hb hk

end Cert.KernelIdeal.HandValue

end
-- ==== Proof.KValue.lean ====
/-
  The kernel program's result at the exact instance: the three stages composed. Each stage's operands other than the
  previous stage's output are argument arrays, which reach the stage's first boundary as launched; the previous stage's
  output is an array of finite reals again, so the next stage's statistics agree with the reference's too.
-/
import proofs.«146613_j41781441855727_2_alg».proof.Proof.KStage3
import proofs.«146613_j41781441855727_2_alg».proof.Proof.KStage2
import proofs.«146613_j41781441855727_2_alg».proof.Proof.KStage1

set_option maxRecDepth 16384
set_option maxHeartbeats 4000000

noncomputable section

namespace Cert.KernelIdeal.HandValue

open Cert.KernelIdeal Cert.KernelIdeal.Gen Cert.KernelIdeal.Hand
open Idealize.ShloMosaic Idealize.ShloMosaic.TcCoe Idealize.SL Idealize.SL.Sem
open Cert.ReferenceIdeal.RefRun Cert.Bridge

variable (m : (ℓ : Loc nD τ sig) → Buf (Elt Ideal) ℓ) (c : Dev nD)

theorem W6_main_arg5 : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := hostKeep2 m c main_arg5 (by decide)
    _ = W3 m c (Proc.devRef .tc main_arg5) := W4_of_ne m c main_arg5 (by decide)
    _ = W2 m c (Proc.devRef .tc main_arg5) := hostKeep1 m c main_arg5 (by decide)
    _ = W1 m c (Proc.devRef .tc main_arg5) := W2_of_ne m c main_arg5 (by decide)
    _ = W0 m c (Proc.devRef .tc main_arg5) := hostKeep0 m c main_arg5 (by decide)
    _ = m ((c : Thread nD τ).loc main_arg5) := rfl

theorem W6_main_arg15 : W6 m c (Proc.devRef .tc main_arg15) = m ((c : Thread nD τ).loc main_arg15) :=
  calc W6 m c (Proc.devRef .tc main_arg15)
    _ = W5 m c (Proc.devRef .tc main_arg15) := W6_of_ne m c main_arg15 (by decide)
    _ = W4 m c (Proc.devRef .tc main_arg15) := hostKeep2 m c main_arg15 (by decide)
    _ = W3 m c (Proc.devRef .tc main_arg15) := W4_of_ne m c main_arg15 (by decide)
    _ = W2 m c (Proc.devRef .tc main_arg15) := hostKeep1 m c main_arg15 (by decide)
    _ = W1 m c (Proc.devRef .tc main_arg15) := W2_of_ne m c main_arg15 (by decide)
    _ = W0 m c (Proc.devRef .tc main_arg15) := hostKeep0 m c main_arg15 (by decide)
    _ = m ((c : Thread nD τ).loc main_arg15) := rfl

theorem W6_main_arg16 : W6 m c (Proc.devRef .tc main_arg16) = m ((c : Thread nD τ).loc main_arg16) :=
  calc W6 m c (Proc.devRef .tc main_arg16)
    _ = W5 m c (Proc.devRef .tc main_arg16) := W6_of_ne m c main_arg16 (by decide)
    _ = W4 m c (Proc.devRef .tc main_arg16) := hostKeep2 m c main_arg16 (by decide)
    _ = W3 m c (Proc.devRef .tc main_arg16) := W4_of_ne m c main_arg16 (by decide)
    _ = W2 m c (Proc.devRef .tc main_arg16) := hostKeep1 m c main_arg16 (by decide)
    _ = W1 m c (Proc.devRef .tc main_arg16) := W2_of_ne m c main_arg16 (by decide)
    _ = W0 m c (Proc.devRef .tc main_arg16) := hostKeep0 m c main_arg16 (by decide)
    _ = m ((c : Thread nD τ).loc main_arg16) := rfl

theorem W6_main_arg9 : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := hostKeep2 m c main_arg9 (by decide)
    _ = W3 m c (Proc.devRef .tc main_arg9) := W4_of_ne m c main_arg9 (by decide)
    _ = W2 m c (Proc.devRef .tc main_arg9) := hostKeep1 m c main_arg9 (by decide)
    _ = W1 m c (Proc.devRef .tc main_arg9) := W2_of_ne m c main_arg9 (by decide)
    _ = W0 m c (Proc.devRef .tc main_arg9) := hostKeep0 m c main_arg9 (by decide)
    _ = m ((c : Thread nD τ).loc main_arg9) := rfl

theorem W6_main_arg10 : W6 m c (Proc.devRef .tc main_arg10) = m ((c : Thread nD τ).loc main_arg10) :=
  calc W6 m c (Proc.devRef .tc main_arg10)
    _ = W5 m c (Proc.devRef .tc main_arg10) := W6_of_ne m c main_arg10 (by decide)
    _ = W4 m c (Proc.devRef .tc main_arg10) := hostKeep2 m c main_arg10 (by decide)
    _ = W3 m c (Proc.devRef .tc main_arg10) := W4_of_ne m c main_arg10 (by decide)
    _ = W2 m c (Proc.devRef .tc main_arg10) := hostKeep1 m c main_arg10 (by decide)
    _ = W1 m c (Proc.devRef .tc main_arg10) := W2_of_ne m c main_arg10 (by decide)
    _ = W0 m c (Proc.devRef .tc main_arg10) := hostKeep0 m c main_arg10 (by decide)
    _ = m ((c : Thread nD τ).loc main_arg10) := rfl

theorem W6_main_arg2 : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := hostKeep2 m c main_arg2 (by decide)
    _ = W3 m c (Proc.devRef .tc main_arg2) := W4_of_ne m c main_arg2 (by decide)
    _ = W2 m c (Proc.devRef .tc main_arg2) := hostKeep1 m c main_arg2 (by decide)
    _ = W1 m c (Proc.devRef .tc main_arg2) := W2_of_ne m c main_arg2 (by decide)
    _ = W0 m c (Proc.devRef .tc main_arg2) := hostKeep0 m c main_arg2 (by decide)
    _ = m ((c : Thread nD τ).loc main_arg2) := rfl

theorem W12_main_arg6 : W12 m c (Proc.devRef .tc main_arg6) = m ((c : Thread nD τ).loc main_arg6) :=
  calc W12 m c (Proc.devRef .tc main_arg6)
    _ = W11 m c (Proc.devRef .tc main_arg6) := W12_of_ne m c main_arg6 (by decide)
    _ = W10 m c (Proc.devRef .tc main_arg6) := hostKeep5 m c main_arg6 (by decide)
    _ = W9 m c (Proc.devRef .tc main_arg6) := W10_of_ne m c main_arg6 (by decide)
    _ = W8 m c (Proc.devRef .tc main_arg6) := hostKeep4 m c main_arg6 (by decide)
    _ = W7 m c (Proc.devRef .tc main_arg6) := W8_of_ne m c main_arg6 (by decide)
    _ = W6 m c (Proc.devRef .tc main_arg6) := hostKeep3 m c main_arg6 (by decide)
    _ = W5 m c (Proc.devRef .tc main_arg6) := W6_of_ne m c main_arg6 (by decide)
    _ = W4 m c (Proc.devRef .tc main_arg6) := hostKeep2 m c main_arg6 (by decide)
    _ = W3 m c (Proc.devRef .tc main_arg6) := W4_of_ne m c main_arg6 (by decide)
    _ = W2 m c (Proc.devRef .tc main_arg6) := hostKeep1 m c main_arg6 (by decide)
    _ = W1 m c (Proc.devRef .tc main_arg6) := W2_of_ne m c main_arg6 (by decide)
    _ = W0 m c (Proc.devRef .tc main_arg6) := hostKeep0 m c main_arg6 (by decide)
    _ = m ((c : Thread nD τ).loc main_arg6) := rfl

theorem W12_main_arg17 : W12 m c (Proc.devRef .tc main_arg17) = m ((c : Thread nD τ).loc main_arg17) :=
  calc W12 m c (Proc.devRef .tc main_arg17)
    _ = W11 m c (Proc.devRef .tc main_arg17) := W12_of_ne m c main_arg17 (by decide)
    _ = W10 m c (Proc.devRef .tc main_arg17) := hostKeep5 m c main_arg17 (by decide)
    _ = W9 m c (Proc.devRef .tc main_arg17) := W10_of_ne m c main_arg17 (by decide)
    _ = W8 m c (Proc.devRef .tc main_arg17) := hostKeep4 m c main_arg17 (by decide)
    _ = W7 m c (Proc.devRef .tc main_arg17) := W8_of_ne m c main_arg17 (by decide)
    _ = W6 m c (Proc.devRef .tc main_arg17) := hostKeep3 m c main_arg17 (by decide)
    _ = W5 m c (Proc.devRef .tc main_arg17) := W6_of_ne m c main_arg17 (by decide)
    _ = W4 m c (Proc.devRef .tc main_arg17) := hostKeep2 m c main_arg17 (by decide)
    _ = W3 m c (Proc.devRef .tc main_arg17) := W4_of_ne m c main_arg17 (by decide)
    _ = W2 m c (Proc.devRef .tc main_arg17) := hostKeep1 m c main_arg17 (by decide)
    _ = W1 m c (Proc.devRef .tc main_arg17) := W2_of_ne m c main_arg17 (by decide)
    _ = W0 m c (Proc.devRef .tc main_arg17) := hostKeep0 m c main_arg17 (by decide)
    _ = m ((c : Thread nD τ).loc main_arg17) := rfl

theorem W12_main_arg18 : W12 m c (Proc.devRef .tc main_arg18) = m ((c : Thread nD τ).loc main_arg18) :=
  calc W12 m c (Proc.devRef .tc main_arg18)
    _ = W11 m c (Proc.devRef .tc main_arg18) := W12_of_ne m c main_arg18 (by decide)
    _ = W10 m c (Proc.devRef .tc main_arg18) := hostKeep5 m c main_arg18 (by decide)
    _ = W9 m c (Proc.devRef .tc main_arg18) := W10_of_ne m c main_arg18 (by decide)
    _ = W8 m c (Proc.devRef .tc main_arg18) := hostKeep4 m c main_arg18 (by decide)
    _ = W7 m c (Proc.devRef .tc main_arg18) := W8_of_ne m c main_arg18 (by decide)
    _ = W6 m c (Proc.devRef .tc main_arg18) := hostKeep3 m c main_arg18 (by decide)
    _ = W5 m c (Proc.devRef .tc main_arg18) := W6_of_ne m c main_arg18 (by decide)
    _ = W4 m c (Proc.devRef .tc main_arg18) := hostKeep2 m c main_arg18 (by decide)
    _ = W3 m c (Proc.devRef .tc main_arg18) := W4_of_ne m c main_arg18 (by decide)
    _ = W2 m c (Proc.devRef .tc main_arg18) := hostKeep1 m c main_arg18 (by decide)
    _ = W1 m c (Proc.devRef .tc main_arg18) := W2_of_ne m c main_arg18 (by decide)
    _ = W0 m c (Proc.devRef .tc main_arg18) := hostKeep0 m c main_arg18 (by decide)
    _ = m ((c : Thread nD τ).loc main_arg18) := rfl

theorem W12_main_arg11 : W12 m c (Proc.devRef .tc main_arg11) = m ((c : Thread nD τ).loc main_arg11) :=
  calc W12 m c (Proc.devRef .tc main_arg11)
    _ = W11 m c (Proc.devRef .tc main_arg11) := W12_of_ne m c main_arg11 (by decide)
    _ = W10 m c (Proc.devRef .tc main_arg11) := hostKeep5 m c main_arg11 (by decide)
    _ = W9 m c (Proc.devRef .tc main_arg11) := W10_of_ne m c main_arg11 (by decide)
    _ = W8 m c (Proc.devRef .tc main_arg11) := hostKeep4 m c main_arg11 (by decide)
    _ = W7 m c (Proc.devRef .tc main_arg11) := W8_of_ne m c main_arg11 (by decide)
    _ = W6 m c (Proc.devRef .tc main_arg11) := hostKeep3 m c main_arg11 (by decide)
    _ = W5 m c (Proc.devRef .tc main_arg11) := W6_of_ne m c main_arg11 (by decide)
    _ = W4 m c (Proc.devRef .tc main_arg11) := hostKeep2 m c main_arg11 (by decide)
    _ = W3 m c (Proc.devRef .tc main_arg11) := W4_of_ne m c main_arg11 (by decide)
    _ = W2 m c (Proc.devRef .tc main_arg11) := hostKeep1 m c main_arg11 (by decide)
    _ = W1 m c (Proc.devRef .tc main_arg11) := W2_of_ne m c main_arg11 (by decide)
    _ = W0 m c (Proc.devRef .tc main_arg11) := hostKeep0 m c main_arg11 (by decide)
    _ = m ((c : Thread nD τ).loc main_arg11) := rfl

theorem W12_main_arg12 : W12 m c (Proc.devRef .tc main_arg12) = m ((c : Thread nD τ).loc main_arg12) :=
  calc W12 m c (Proc.devRef .tc main_arg12)
    _ = W11 m c (Proc.devRef .tc main_arg12) := W12_of_ne m c main_arg12 (by decide)
    _ = W10 m c (Proc.devRef .tc main_arg12) := hostKeep5 m c main_arg12 (by decide)
    _ = W9 m c (Proc.devRef .tc main_arg12) := W10_of_ne m c main_arg12 (by decide)
    _ = W8 m c (Proc.devRef .tc main_arg12) := hostKeep4 m c main_arg12 (by decide)
    _ = W7 m c (Proc.devRef .tc main_arg12) := W8_of_ne m c main_arg12 (by decide)
    _ = W6 m c (Proc.devRef .tc main_arg12) := hostKeep3 m c main_arg12 (by decide)
    _ = W5 m c (Proc.devRef .tc main_arg12) := W6_of_ne m c main_arg12 (by decide)
    _ = W4 m c (Proc.devRef .tc main_arg12) := hostKeep2 m c main_arg12 (by decide)
    _ = W3 m c (Proc.devRef .tc main_arg12) := W4_of_ne m c main_arg12 (by decide)
    _ = W2 m c (Proc.devRef .tc main_arg12) := hostKeep1 m c main_arg12 (by decide)
    _ = W1 m c (Proc.devRef .tc main_arg12) := W2_of_ne m c main_arg12 (by decide)
    _ = W0 m c (Proc.devRef .tc main_arg12) := hostKeep0 m c main_arg12 (by decide)
    _ = m ((c : Thread nD τ).loc main_arg12) := rfl

theorem W12_main_arg3 : W12 m c (Proc.devRef .tc main_arg3) = m ((c : Thread nD τ).loc main_arg3) :=
  calc W12 m c (Proc.devRef .tc main_arg3)
    _ = W11 m c (Proc.devRef .tc main_arg3) := W12_of_ne m c main_arg3 (by decide)
    _ = W10 m c (Proc.devRef .tc main_arg3) := hostKeep5 m c main_arg3 (by decide)
    _ = W9 m c (Proc.devRef .tc main_arg3) := W10_of_ne m c main_arg3 (by decide)
    _ = W8 m c (Proc.devRef .tc main_arg3) := hostKeep4 m c main_arg3 (by decide)
    _ = W7 m c (Proc.devRef .tc main_arg3) := W8_of_ne m c main_arg3 (by decide)
    _ = W6 m c (Proc.devRef .tc main_arg3) := hostKeep3 m c main_arg3 (by decide)
    _ = W5 m c (Proc.devRef .tc main_arg3) := W6_of_ne m c main_arg3 (by decide)
    _ = W4 m c (Proc.devRef .tc main_arg3) := hostKeep2 m c main_arg3 (by decide)
    _ = W3 m c (Proc.devRef .tc main_arg3) := W4_of_ne m c main_arg3 (by decide)
    _ = W2 m c (Proc.devRef .tc main_arg3) := hostKeep1 m c main_arg3 (by decide)
    _ = W1 m c (Proc.devRef .tc main_arg3) := W2_of_ne m c main_arg3 (by decide)
    _ = W0 m c (Proc.devRef .tc main_arg3) := hostKeep0 m c main_arg3 (by decide)
    _ = m ((c : Thread nD τ).loc main_arg3) := rfl

/-- The kernel program's result array is the reference's three stages of the argument arrays, when the float arguments
    are arrays of finite reals. -/
theorem kernel_value
    (h0 : IsReal (m ((c : Thread nD τ).loc main_arg0))) (h1 : IsReal (m ((c : Thread nD τ).loc main_arg1))) (h2 : IsReal (m ((c : Thread nD τ).loc main_arg2))) (h3 : IsReal (m ((c : Thread nD τ).loc main_arg3)))
    (h4 : IsReal (m ((c : Thread nD τ).loc main_arg4))) (h5 : IsReal (m ((c : Thread nD τ).loc main_arg5))) (h6 : IsReal (m ((c : Thread nD τ).loc main_arg6))) (h7 : IsReal (m ((c : Thread nD τ).loc main_arg7)))
    (h8 : IsReal (m ((c : Thread nD τ).loc main_arg8))) (h9 : IsReal (m ((c : Thread nD τ).loc main_arg9))) (h10 : IsReal (m ((c : Thread nD τ).loc main_arg10))) (h11 : IsReal (m ((c : Thread nD τ).loc main_arg11)))
    (h12 : IsReal (m ((c : Thread nD τ).loc main_arg12))) :
    (W18 m c (Proc.devRef .tc main_v71) : Cert.ReferenceIdeal.S2560000x32.Idx → EReal)
      = stage1 (F := Ideal) (stage2 (F := Ideal) (stage3 (F := Ideal) (m ((c : Thread nD τ).loc main_arg0)) (m ((c : Thread nD τ).loc main_arg4)) (m ((c : Thread nD τ).loc main_arg13)) (m ((c : Thread nD τ).loc main_arg14)) (m ((c : Thread nD τ).loc main_arg7)) (m ((c : Thread nD τ).loc main_arg8)) (m ((c : Thread nD τ).loc main_arg1)))
          (m ((c : Thread nD τ).loc main_arg5)) (m ((c : Thread nD τ).loc main_arg15)) (m ((c : Thread nD τ).loc main_arg16)) (m ((c : Thread nD τ).loc main_arg9)) (m ((c : Thread nD τ).loc main_arg10)) (m ((c : Thread nD τ).loc main_arg2)))
          (m ((c : Thread nD τ).loc main_arg6)) (m ((c : Thread nD τ).loc main_arg17)) (m ((c : Thread nD τ).loc main_arg18)) (m ((c : Thread nD τ).loc main_arg11)) (m ((c : Thread nD τ).loc main_arg12)) (m ((c : Thread nD τ).loc main_arg3)) := by
  -- stage 3: its operands are the launch contents
  have e3 := st3_out m c h0 h4
  have r3 := st3_out_real m c h0 h4 h7 h8 h1
  -- stage 2: the previous output, and argument arrays as launched
  have hx2 : IsReal (st2_x m c) := r3
  have hw2 : IsReal (st2_w m c) := by show IsReal (W6 m c (Proc.devRef .tc main_arg5) : Cert.ReferenceIdeal.S9x64x32.Idx → EReal); rw [W6_main_arg5 m c]; exact h5
  have hg2 : IsReal (st2_gamma m c) := by show IsReal (W6 m c (Proc.devRef .tc main_arg9) : Cert.ReferenceIdeal.S32.Idx → EReal); rw [W6_main_arg9 m c]; exact h9
  have hb2 : IsReal (st2_beta m c) := by show IsReal (W6 m c (Proc.devRef .tc main_arg10) : Cert.ReferenceIdeal.S32.Idx → EReal); rw [W6_main_arg10 m c]; exact h10
  have hk2 : IsReal (st2_skip m c) := by show IsReal (W6 m c (Proc.devRef .tc main_arg2) : Cert.ReferenceIdeal.S640000x32.Idx → EReal); rw [W6_main_arg2 m c]; exact h2
  have e2 := st2_out m c hx2 hw2
  have r2 := st2_out_real m c hx2 hw2 hg2 hb2 hk2
  -- stage 1
  have hx1 : IsReal (st1_x m c) := r2
  have hw1 : IsReal (st1_w m c) := by show IsReal (W12 m c (Proc.devRef .tc main_arg6) : Cert.ReferenceIdeal.S9x32x32.Idx → EReal); rw [W12_main_arg6 m c]; exact h6
  have e1 := st1_out m c hx1 hw1
  rw [e1]
  show stage1 (F := Ideal) (W12 m c (Proc.devRef .tc main_v47)) (W12 m c (Proc.devRef .tc main_arg6)) (W12 m c (Proc.devRef .tc main_arg17))
      (W12 m c (Proc.devRef .tc main_arg18)) (W12 m c (Proc.devRef .tc main_arg11)) (W12 m c (Proc.devRef .tc main_arg12)) (W12 m c (Proc.devRef .tc main_arg3)) = _
  rw [W12_main_arg6 m c, W12_main_arg17 m c, W12_main_arg18 m c, W12_main_arg11 m c, W12_main_arg12 m c, W12_main_arg3 m c, e2]
  show stage1 (F := Ideal) (stage2 (F := Ideal) (W6 m c (Proc.devRef .tc main_v23)) (W6 m c (Proc.devRef .tc main_arg5)) (W6 m c (Proc.devRef .tc main_arg15))
      (W6 m c (Proc.devRef .tc main_arg16)) (W6 m c (Proc.devRef .tc main_arg9)) (W6 m c (Proc.devRef .tc main_arg10)) (W6 m c (Proc.devRef .tc main_arg2))) _ _ _ _ _ _ = _
  rw [W6_main_arg5 m c, W6_main_arg15 m c, W6_main_arg16 m c, W6_main_arg9 m c, W6_main_arg10 m c, W6_main_arg2 m c, e3]

end Cert.KernelIdeal.HandValue

end
-- ==== Proof.RefParts.lean ====
/-
  The reference program's @main is a straight line of 204 operations.

  The program is written as three consecutive windows, the first two of which each call an outlined function (the column
  variance, which itself calls a selection), the third likewise. Unfolding each function's definition at its call and
  each record of buffers at its fields, and re-associating the sequencing, turns every window into the plain sequence of
  its operations; the three sequences in a row are the sequence of the concatenated list.
-/
import proofs.«146613_j41781441855727_2_alg».proof.ReferenceIdeal
import proofs.«146613_j41781441855727_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The first window's 81 operations, in order (its call of the variance function in place: 19 operations and the
    selection's 3). -/
def ops0 : List (HloOp τ sig (Elt F)) :=
  [ StableHlo.nullary main_c (constantI S_ 32 0#32),
    StableHlo.unary main_c main_v0 (broadcastInDim S9x40000 ![] bcast_S_S9x40000 : (⟨S_, .i32⟩ : BufTy).Contents (Elt F) → (⟨S9x40000, .i32⟩ : BufTy).Contents (Elt F)),
    StableHlo.binary main_arg13 main_v0 main_v1 (cmpi .slt : (⟨S9x40000, .i32⟩ : BufTy).Contents (Elt F) → (⟨S9x40000, .i32⟩ : BufTy).Contents (Elt F) → (⟨S9x40000, .i1⟩ : BufTy).Contents (Elt F)),
    StableHlo.nullary main_c_0 (constantI S_ 32 40000#32),
    StableHlo.unary main_c_0 main_v2 (broadcastInDim S9x40000 ![] bcast_S_S9x40000 : (⟨S_, .i32⟩ : BufTy).Contents (Elt F) → (⟨S9x40000, .i32⟩ : BufTy).Contents (Elt F)),
    StableHlo.binary main_arg13 main_v2 main_v3 (addi : (⟨S9x40000, .i32⟩ : BufTy).Contents (Elt F) → (⟨S9x40000, .i32⟩ : BufTy).Contents (Elt F) → (⟨S9x40000, .i32⟩ : BufTy).Contents (Elt F)),
    StableHlo.ternary main_v1 main_v3 main_arg13 main_v4 (select : (⟨S9x40000, .i1⟩ : BufTy).Contents (Elt F) → (⟨S9x40000, .i32⟩ : BufTy).Contents (Elt F) → (⟨S9x40000, .i32⟩ : BufTy).Contents (Elt F) → (⟨S9x40000, .i32⟩ : BufTy).Contents (Elt F)),
    StableHlo.unary main_v4 main_v5 (broadcastInDim S9x40000x1 ![0, 1] bcast_S9x40000_S9x40000x1_0_1 : (⟨S9x40000, .i32⟩ : BufTy).Contents (Elt F) → (⟨S9x40000x1, .i32⟩ : BufTy).Contents (Elt F)),
    StableHlo.binary main_arg0 main_v5 main_v6 ((fun x i => Host.gather gather_S40000x128_S9x40000x1_S9x40000x128_2_0_n_n_0_2_1128 x i) : (⟨S40000x128, .f32⟩ : BufTy).Contents (Elt F) → (⟨S9x40000x1, .i32⟩ : BufTy).Contents (Elt F) → (⟨S9x40000x128, .f32⟩ : BufTy).Contents (Elt F)),
    StableHlo.binary main_v6 main_arg4 main_v7 ((fun l r => Host.dotGeneral dot_S9x40000x128_S9x128x64_S9x40000x64_2_1_1_2_0_0 none l r) : (⟨S9x40000x128, .f32⟩ : BufTy).Contents (Elt F) → (⟨S9x128x64, .f32⟩ : BufTy).Contents (Elt F) → (⟨S9x40000x64, .f32⟩ : BufTy).Contents (Elt F)),
    StableHlo.nullary main_cst (constant S_ .f32 0x00000000#32),
    StableHlo.unary main_cst main_v8 (broadcastInDim S160000x64 ![] bcast_S_S160000x64 : (⟨S_, .f32⟩ : BufTy).Contents (Elt F) → (⟨S160000x64, .f32⟩ : BufTy).Contents (Elt F)),
    StableHlo.reshape main_arg14 main_v9 rfl shapeCasts_S9x40000_S360000,
    StableHlo.reshape main_v7 main_v10 rfl shapeCasts_S9x40000x64_S360000x64,
    StableHlo.nullary main_c_1 (constantI S_ 32 0#32),
    StableHlo.unary main_c_1 main_v11 (broadcastInDim S360000 ![] bcast_S_S360000 : (⟨S_, .i32⟩ : BufTy).Contents (Elt F) → (⟨S360000, .i32⟩ : BufTy).Contents (Elt F)),
    StableHlo.binary main_v9 main_v11 main_v12 (cmpi .slt : (⟨S360000, .i32⟩ : BufTy).Contents (Elt F) → (⟨S360000, .i32⟩ : BufTy).Contents (Elt F) → (⟨S360000, .i1⟩ : BufTy).Contents (Elt F)),
    StableHlo.nullary main_c_2 (constantI S_ 32 160000#32),
    StableHlo.unary main_c_2 main_v13 (broadcastInDim S360000 ![] bcast_S_S360000 : (⟨S_, .i32⟩ : BufTy).Contents (Elt F) → (⟨S360000, .i32⟩ : BufTy).Contents (Elt F)),
    StableHlo.binary main_v9 main_v13 main_v14 (addi : (⟨S360000, .i32⟩ : BufTy).Contents (Elt F) → (⟨S360000, .i32⟩ : BufTy).Contents (Elt F) → (⟨S360000, .i32⟩ : BufTy).Contents (Elt F)),
    StableHlo.ternary main_v12 main_v14 main_v9 main_v15 (select : (⟨S360000, .i1⟩ : BufTy).Contents (Elt F) → (⟨S360000, .i32⟩ : BufTy).Contents (Elt F) → (⟨S360000, .i32⟩ : BufTy).Contents (Elt F) → (⟨S360000, .i32⟩ : BufTy).Contents (Elt F)),
    StableHlo.unary main_v15 main_v16 (broadcastInDim S360000x1 ![0] bcast_S360000_S360000x1_0 : (⟨S360000, .i32⟩ : BufTy).Contents (Elt F) → (⟨S360000x1, .i32⟩ : BufTy).Contents (Elt F)),
    StableHlo.ternary main_v8 main_v16 main_v10 main_v17 ((fun x i u => Host.scatterAdd scatter_S160000x64_S360000x1_S360000x64_1_0_0_1 x i u) : (⟨S160000x64, .f32⟩ : BufTy).Contents (Elt F) → (⟨S360000x1, .i32⟩ : BufTy).Contents (Elt F) → (⟨S360000x64, .f32⟩ : BufTy).Contents (Elt F) → (⟨S160000x64, .f32⟩ : BufTy).Contents (Elt F)),
    StableHlo.nullary main_cst_3 (constant S_ .f32 0x00000000#32),
    StableHlo.binary main_v17 main_cst_3 main_v18 ((fun x v => Host.reduceAdd x v reducesTo_S160000x64_S64_d0 h_S_) : (⟨S160000x64, .f32⟩ : BufTy).Contents (Elt F) → (⟨S_, .f32⟩ : BufTy).Contents (Elt F) → (⟨S64, .f32⟩ : BufTy).Contents (Elt F)),
    StableHlo.nullary main_cst_4 (constant S_ .f32 0x481C4000#32),
    StableHlo.unary main_cst_4 main_v19 (broadcastInDim S64 ![] bcast_S_S64 : (⟨S_, .f32⟩ : BufTy).Contents (Elt F) → (⟨S64, .f32⟩ : BufTy).Contents (Elt F)),
    StableHlo.binary main_v18 main_v19 main_v20 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (TRef.of main_v17 : TRef sig ⟨S160000x64, .f32⟩) main_call0.cst main_call0.v0 (fun x v => Host.reduceAdd x v reducesTo_S160000x64_S64_d0 h_S_),
    StableHlo.TRef.unary main_call0.v0 main_call0.v1 (broadcastInDim S1x64 ![1] bcast_S64_S1x64_1),
    StableHlo.TRef.nullary main_call0.cst_0 (constant S_ .f32 0x481C4000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S160000x64 ![0, 1] bcast_S1x64_S160000x64_0_1),
    StableHlo.TRef.binary (TRef.of main_v17 : TRef sig ⟨S160000x64, .f32⟩) main_call0.v4 main_call0.v5 subf,
    StableHlo.TRef.binary main_call0.v5 main_call0.v5 main_call0.v6 mulf,
    StableHlo.TRef.unary (TRef.of main_c_5 : TRef sig ⟨S_, .i32⟩) main_call0.v7 (sitofp .f32),
    StableHlo.TRef.nullary main_call0.cst_1 (constant S_ .f32 0x481C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S160000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v20 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S160000x64 ![0, 1] bcast_S1x64_S160000x64_0_1 : (⟨S1x64, .f32⟩ : BufTy).Contents (Elt F) → (⟨S160000x64, .f32⟩ : BufTy).Contents (Elt F)),
    StableHlo.binary main_v17 main_v23 main_v24 (subf : (⟨S160000x64, .f32⟩ : BufTy).Contents (Elt F) → (⟨S160000x64, .f32⟩ : BufTy).Contents (Elt F) → (⟨S160000x64, .f32⟩ : BufTy).Contents (Elt F)),
    StableHlo.nullary main_cst_6 (constant S_ .f32 0x3727C5AC#32),
    StableHlo.unary main_cst_6 main_v25 (broadcastInDim S64 ![] bcast_S_S64 : (⟨S_, .f32⟩ : BufTy).Contents (Elt F) → (⟨S64, .f32⟩ : BufTy).Contents (Elt F)),
    StableHlo.binary main_v21 main_v25 main_v26 (addf : (⟨S64, .f32⟩ : BufTy).Contents (Elt F) → (⟨S64, .f32⟩ : BufTy).Contents (Elt F) → (⟨S64, .f32⟩ : BufTy).Contents (Elt F)),
    StableHlo.unary main_v26 main_v27 (Host.rsqrt : (⟨S64, .f32⟩ : BufTy).Contents (Elt F) → (⟨S64, .f32⟩ : BufTy).Contents (Elt F)),
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S160000x64 ![0, 1] bcast_S1x64_S160000x64_0_1 : (⟨S1x64, .f32⟩ : BufTy).Contents (Elt F) → (⟨S160000x64, .f32⟩ : BufTy).Contents (Elt F)),
    StableHlo.binary main_v24 main_v29 main_v30 (mulf : (⟨S160000x64, .f32⟩ : BufTy).Contents (Elt F) → (⟨S160000x64, .f32⟩ : BufTy).Contents (Elt F) → (⟨S160000x64, .f32⟩ : BufTy).Contents (Elt F)),
    StableHlo.unary main_arg7 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S160000x64 ![0, 1] bcast_S1x64_S160000x64_0_1 : (⟨S1x64, .f32⟩ : BufTy).Contents (Elt F) → (⟨S160000x64, .f32⟩ : BufTy).Contents (Elt F)),
    StableHlo.binary main_v30 main_v32 main_v33 (mulf : (⟨S160000x64, .f32⟩ : BufTy).Contents (Elt F) → (⟨S160000x64, .f32⟩ : BufTy).Contents (Elt F) → (⟨S160000x64, .f32⟩ : BufTy).Contents (Elt F)),
    StableHlo.unary main_arg8 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S160000x64 ![0, 1] bcast_S1x64_S160000x64_0_1 : (⟨S1x64, .f32⟩ : BufTy).Contents (Elt F) → (⟨S160000x64, .f32⟩ : BufTy).Contents (Elt F)),
    StableHlo.binary main_v33 main_v35 main_v36 (addf : (⟨S160000x64, .f32⟩ : BufTy).Contents (Elt F) → (⟨S160000x64, .f32⟩ : BufTy).Contents (Elt F) → (⟨S160000x64, .f32⟩ : BufTy).Contents (Elt F)),
    StableHlo.binary main_v36 main_arg1 main_v37 (addf : (⟨S160000x64, .f32⟩ : BufTy).Contents (Elt F) → (⟨S160000x64, .f32⟩ : BufTy).Contents (Elt F) → (⟨S160000x64, .f32⟩ : BufTy).Contents (Elt F)),
    StableHlo.nullary main_c_7 (constantI S_ 32 0#32),
    StableHlo.unary main_c_7 main_v38 (broadcastInDim S9x160000 ![] bcast_S_S9x160000 : (⟨S_, .i32⟩ : BufTy).Contents (Elt F) → (⟨S9x160000, .i32⟩ : BufTy).Contents (Elt F)),
    StableHlo.binary main_arg15 main_v38 main_v39 (cmpi .slt : (⟨S9x160000, .i32⟩ : BufTy).Contents (Elt F) → (⟨S9x160000, .i32⟩ : BufTy).Contents (Elt F) → (⟨S9x160000, .i1⟩ : BufTy).Contents (Elt F)),
    StableHlo.nullary main_c_8 (constantI S_ 32 160000#32),
    StableHlo.unary main_c_8 main_v40 (broadcastInDim S9x160000 ![] bcast_S_S9x160000 : (⟨S_, .i32⟩ : BufTy).Contents (Elt F) → (⟨S9x160000, .i32⟩ : BufTy).Contents (Elt F)),
    StableHlo.binary main_arg15 main_v40 main_v41 (addi : (⟨S9x160000, .i32⟩ : BufTy).Contents (Elt F) → (⟨S9x160000, .i32⟩ : BufTy).Contents (Elt F) → (⟨S9x160000, .i32⟩ : BufTy).Contents (Elt F)),
    StableHlo.ternary main_v39 main_v41 main_arg15 main_v42 (select : (⟨S9x160000, .i1⟩ : BufTy).Contents (Elt F) → (⟨S9x160000, .i32⟩ : BufTy).Contents (Elt F) → (⟨S9x160000, .i32⟩ : BufTy).Contents (Elt F) → (⟨S9x160000, .i32⟩ : BufTy).Contents (Elt F)),
    StableHlo.unary main_v42 main_v43 (broadcastInDim S9x160000x1 ![0, 1] bcast_S9x160000_S9x160000x1_0_1 : (⟨S9x160000, .i32⟩ : BufTy).Contents (Elt F) → (⟨S9x160000x1, .i32⟩ : BufTy).Contents (Elt F)),
    StableHlo.binary main_v37 main_v43 main_v44 ((fun x i => Host.gather gather_S160000x64_S9x160000x1_S9x160000x64_2_0_n_n_0_2_164 x i) : (⟨S160000x64, .f32⟩ : BufTy).Contents (Elt F) → (⟨S9x160000x1, .i32⟩ : BufTy).Contents (Elt F) → (⟨S9x160000x64, .f32⟩ : BufTy).Contents (Elt F)),
    StableHlo.binary main_v44 main_arg5 main_v45 ((fun l r => Host.dotGeneral dot_S9x160000x64_S9x64x32_S9x160000x32_2_1_1_2_0_0 none l r) : (⟨S9x160000x64, .f32⟩ : BufTy).Contents (Elt F) → (⟨S9x64x32, .f32⟩ : BufTy).Contents (Elt F) → (⟨S9x160000x32, .f32⟩ : BufTy).Contents (Elt F)),
    StableHlo.nullary main_cst_9 (constant S_ .f32 0x00000000#32),
    StableHlo.unary main_cst_9 main_v46 (broadcastInDim S640000x32 ![] bcast_S_S640000x32 : (⟨S_, .f32⟩ : BufTy).Contents (Elt F) → (⟨S640000x32, .f32⟩ : BufTy).Contents (Elt F)),
    StableHlo.reshape main_arg16 main_v47 rfl shapeCasts_S9x160000_S1440000 ]

/-- The second window's 81 operations, in order. -/
def ops1 : List (HloOp τ sig (Elt F)) :=
  [ StableHlo.reshape main_v45 main_v48 rfl shapeCasts_S9x160000x32_S1440000x32,
    StableHlo.nullary main_c_10 (constantI S_ 32 0#32),
    StableHlo.unary main_c_10 main_v49 (broadcastInDim S1440000 ![] bcast_S_S1440000 : (⟨S_, .i32⟩ : BufTy).Contents (Elt F) → (⟨S1440000, .i32⟩ : BufTy).Contents (Elt F)),
    StableHlo.binary main_v47 main_v49 main_v50 (cmpi .slt : (⟨S1440000, .i32⟩ : BufTy).Contents (Elt F) → (⟨S1440000, .i32⟩ : BufTy).Contents (Elt F) → (⟨S1440000, .i1⟩ : BufTy).Contents (Elt F)),
    StableHlo.nullary main_c_11 (constantI S_ 32 640000#32),
    StableHlo.unary main_c_11 main_v51 (broadcastInDim S1440000 ![] bcast_S_S1440000 : (⟨S_, .i32⟩ : BufTy).Contents (Elt F) → (⟨S1440000, .i32⟩ : BufTy).Contents (Elt F)),
    StableHlo.binary main_v47 main_v51 main_v52 (addi : (⟨S1440000, .i32⟩ : BufTy).Contents (Elt F) → (⟨S1440000, .i32⟩ : BufTy).Contents (Elt F) → (⟨S1440000, .i32⟩ : BufTy).Contents (Elt F)),
    StableHlo.ternary main_v50 main_v52 main_v47 main_v53 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v53 main_v54 (broadcastInDim S1440000x1 ![0] bcast_S1440000_S1440000x1_0 : (⟨S1440000, .i32⟩ : BufTy).Contents (Elt F) → (⟨S1440000x1, .i32⟩ : BufTy).Contents (Elt F)),
    StableHlo.ternary main_v46 main_v54 main_v48 main_v55 ((fun x i u => Host.scatterAdd scatter_S640000x32_S1440000x1_S1440000x32_1_0_0_1 x i u) : (⟨S640000x32, .f32⟩ : BufTy).Contents (Elt F) → (⟨S1440000x1, .i32⟩ : BufTy).Contents (Elt F) → (⟨S1440000x32, .f32⟩ : BufTy).Contents (Elt F) → (⟨S640000x32, .f32⟩ : BufTy).Contents (Elt F)),
    StableHlo.nullary main_cst_12 (constant S_ .f32 0x00000000#32),
    StableHlo.binary main_v55 main_cst_12 main_v56 ((fun x v => Host.reduceAdd x v reducesTo_S640000x32_S32_d0 h_S_) : (⟨S640000x32, .f32⟩ : BufTy).Contents (Elt F) → (⟨S_, .f32⟩ : BufTy).Contents (Elt F) → (⟨S32, .f32⟩ : BufTy).Contents (Elt F)),
    StableHlo.nullary main_cst_13 (constant S_ .f32 0x491C4000#32),
    StableHlo.unary main_cst_13 main_v57 (broadcastInDim S32 ![] bcast_S_S32 : (⟨S_, .f32⟩ : BufTy).Contents (Elt F) → (⟨S32, .f32⟩ : BufTy).Contents (Elt F)),
    StableHlo.binary main_v56 main_v57 main_v58 (Host.divf : (⟨S32, .f32⟩ : BufTy).Contents (Elt F) → (⟨S32, .f32⟩ : BufTy).Contents (Elt F) → (⟨S32, .f32⟩ : BufTy).Contents (Elt F)),
    StableHlo.nullary main_c_14 (constantI S_ 32 0#32),
    StableHlo.TRef.nullary main_call1.cst (constant S_ .f32 0x00000000#32),
    StableHlo.TRef.binary (TRef.of main_v55 : TRef sig ⟨S640000x32, .f32⟩) main_call1.cst main_call1.v0 (fun x v => Host.reduceAdd x v reducesTo_S640000x32_S32_d0 h_S_),
    StableHlo.TRef.unary main_call1.v0 main_call1.v1 (broadcastInDim S1x32 ![1] bcast_S32_S1x32_1),
    StableHlo.TRef.nullary main_call1.cst_0 (constant S_ .f32 0x491C4000#32),
    StableHlo.TRef.unary main_call1.cst_0 main_call1.v2 (broadcastInDim S1x32 ![] bcast_S_S1x32),
    StableHlo.TRef.binary main_call1.v1 main_call1.v2 main_call1.v3 Host.divf,
    StableHlo.TRef.unary main_call1.v3 main_call1.v4 (broadcastInDim S640000x32 ![0, 1] bcast_S1x32_S640000x32_0_1),
    StableHlo.TRef.binary (TRef.of main_v55 : TRef sig ⟨S640000x32, .f32⟩) main_call1.v4 main_call1.v5 subf,
    StableHlo.TRef.binary main_call1.v5 main_call1.v5 main_call1.v6 mulf,
    StableHlo.TRef.unary (TRef.of main_c_14 : TRef sig ⟨S_, .i32⟩) main_call1.v7 (sitofp .f32),
    StableHlo.TRef.nullary main_call1.cst_1 (constant S_ .f32 0x491C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S640000x32_S32_d0 h_S_),
    StableHlo.TRef.unary main_call1.v8 main_call1.v10 (broadcastInDim S32 ![] bcast_S_S32),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32 ![] bcast_S_S32),
    StableHlo.TRef.ternary main_call1.v12 main_call1.v11 main_call1.call0.v1 main_call1.call0.v2 (fun p a b => select (broadcastInDim S32 ![] bcast_S_S32 p) a b),
    StableHlo.unary main_v58 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S640000x32 ![0, 1] bcast_S1x32_S640000x32_0_1 : (⟨S1x32, .f32⟩ : BufTy).Contents (Elt F) → (⟨S640000x32, .f32⟩ : BufTy).Contents (Elt F)),
    StableHlo.binary main_v55 main_v61 main_v62 (subf : (⟨S640000x32, .f32⟩ : BufTy).Contents (Elt F) → (⟨S640000x32, .f32⟩ : BufTy).Contents (Elt F) → (⟨S640000x32, .f32⟩ : BufTy).Contents (Elt F)),
    StableHlo.nullary main_cst_15 (constant S_ .f32 0x3727C5AC#32),
    StableHlo.unary main_cst_15 main_v63 (broadcastInDim S32 ![] bcast_S_S32 : (⟨S_, .f32⟩ : BufTy).Contents (Elt F) → (⟨S32, .f32⟩ : BufTy).Contents (Elt F)),
    StableHlo.binary main_v59 main_v63 main_v64 (addf : (⟨S32, .f32⟩ : BufTy).Contents (Elt F) → (⟨S32, .f32⟩ : BufTy).Contents (Elt F) → (⟨S32, .f32⟩ : BufTy).Contents (Elt F)),
    StableHlo.unary main_v64 main_v65 (Host.rsqrt : (⟨S32, .f32⟩ : BufTy).Contents (Elt F) → (⟨S32, .f32⟩ : BufTy).Contents (Elt F)),
    StableHlo.unary main_v65 main_v66 (broadcastInDim S1x32 ![1] bcast_S32_S1x32_1 : (⟨S32, .f32⟩ : BufTy).Contents (Elt F) → (⟨S1x32, .f32⟩ : BufTy).Contents (Elt F)),
    StableHlo.unary main_v66 main_v67 (broadcastInDim S640000x32 ![0, 1] bcast_S1x32_S640000x32_0_1 : (⟨S1x32, .f32⟩ : BufTy).Contents (Elt F) → (⟨S640000x32, .f32⟩ : BufTy).Contents (Elt F)),
    StableHlo.binary main_v62 main_v67 main_v68 (mulf : (⟨S640000x32, .f32⟩ : BufTy).Contents (Elt F) → (⟨S640000x32, .f32⟩ : BufTy).Contents (Elt F) → (⟨S640000x32, .f32⟩ : BufTy).Contents (Elt F)),
    StableHlo.unary main_arg9 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S640000x32 ![0, 1] bcast_S1x32_S640000x32_0_1 : (⟨S1x32, .f32⟩ : BufTy).Contents (Elt F) → (⟨S640000x32, .f32⟩ : BufTy).Contents (Elt F)),
    StableHlo.binary main_v68 main_v70 main_v71 (mulf : (⟨S640000x32, .f32⟩ : BufTy).Contents (Elt F) → (⟨S640000x32, .f32⟩ : BufTy).Contents (Elt F) → (⟨S640000x32, .f32⟩ : BufTy).Contents (Elt F)),
    StableHlo.unary main_arg10 main_v72 (broadcastInDim S1x32 ![1] bcast_S32_S1x32_1 : (⟨S32, .f32⟩ : BufTy).Contents (Elt F) → (⟨S1x32, .f32⟩ : BufTy).Contents (Elt F)),
    StableHlo.unary main_v72 main_v73 (broadcastInDim S640000x32 ![0, 1] bcast_S1x32_S640000x32_0_1 : (⟨S1x32, .f32⟩ : BufTy).Contents (Elt F) → (⟨S640000x32, .f32⟩ : BufTy).Contents (Elt F)),
    StableHlo.binary main_v71 main_v73 main_v74 (addf : (⟨S640000x32, .f32⟩ : BufTy).Contents (Elt F) → (⟨S640000x32, .f32⟩ : BufTy).Contents (Elt F) → (⟨S640000x32, .f32⟩ : BufTy).Contents (Elt F)),
    StableHlo.binary main_v74 main_arg2 main_v75 (addf : (⟨S640000x32, .f32⟩ : BufTy).Contents (Elt F) → (⟨S640000x32, .f32⟩ : BufTy).Contents (Elt F) → (⟨S640000x32, .f32⟩ : BufTy).Contents (Elt F)),
    StableHlo.nullary main_c_16 (constantI S_ 32 0#32),
    StableHlo.unary main_c_16 main_v76 (broadcastInDim S9x640000 ![] bcast_S_S9x640000 : (⟨S_, .i32⟩ : BufTy).Contents (Elt F) → (⟨S9x640000, .i32⟩ : BufTy).Contents (Elt F)),
    StableHlo.binary main_arg17 main_v76 main_v77 (cmpi .slt : (⟨S9x640000, .i32⟩ : BufTy).Contents (Elt F) → (⟨S9x640000, .i32⟩ : BufTy).Contents (Elt F) → (⟨S9x640000, .i1⟩ : BufTy).Contents (Elt F)),
    StableHlo.nullary main_c_17 (constantI S_ 32 640000#32),
    StableHlo.unary main_c_17 main_v78 (broadcastInDim S9x640000 ![] bcast_S_S9x640000 : (⟨S_, .i32⟩ : BufTy).Contents (Elt F) → (⟨S9x640000, .i32⟩ : BufTy).Contents (Elt F)),
    StableHlo.binary main_arg17 main_v78 main_v79 (addi : (⟨S9x640000, .i32⟩ : BufTy).Contents (Elt F) → (⟨S9x640000, .i32⟩ : BufTy).Contents (Elt F) → (⟨S9x640000, .i32⟩ : BufTy).Contents (Elt F)),
    StableHlo.ternary main_v77 main_v79 main_arg17 main_v80 (select : (⟨S9x640000, .i1⟩ : BufTy).Contents (Elt F) → (⟨S9x640000, .i32⟩ : BufTy).Contents (Elt F) → (⟨S9x640000, .i32⟩ : BufTy).Contents (Elt F) → (⟨S9x640000, .i32⟩ : BufTy).Contents (Elt F)),
    StableHlo.unary main_v80 main_v81 (broadcastInDim S9x640000x1 ![0, 1] bcast_S9x640000_S9x640000x1_0_1 : (⟨S9x640000, .i32⟩ : BufTy).Contents (Elt F) → (⟨S9x640000x1, .i32⟩ : BufTy).Contents (Elt F)),
    StableHlo.binary main_v75 main_v81 main_v82 ((fun x i => Host.gather gather_S640000x32_S9x640000x1_S9x640000x32_2_0_n_n_0_2_132 x i) : (⟨S640000x32, .f32⟩ : BufTy).Contents (Elt F) → (⟨S9x640000x1, .i32⟩ : BufTy).Contents (Elt F) → (⟨S9x640000x32, .f32⟩ : BufTy).Contents (Elt F)),
    StableHlo.binary main_v82 main_arg6 main_v83 ((fun l r => Host.dotGeneral dot_S9x640000x32_S9x32x32_S9x640000x32_2_1_1_2_0_0 none l r) : (⟨S9x640000x32, .f32⟩ : BufTy).Contents (Elt F) → (⟨S9x32x32, .f32⟩ : BufTy).Contents (Elt F) → (⟨S9x640000x32, .f32⟩ : BufTy).Contents (Elt F)),
    StableHlo.nullary main_cst_18 (constant S_ .f32 0x00000000#32),
    StableHlo.unary main_cst_18 main_v84 (broadcastInDim S2560000x32 ![] bcast_S_S2560000x32 : (⟨S_, .f32⟩ : BufTy).Contents (Elt F) → (⟨S2560000x32, .f32⟩ : BufTy).Contents (Elt F)),
    StableHlo.reshape main_arg18 main_v85 rfl shapeCasts_S9x640000_S5760000,
    StableHlo.reshape main_v83 main_v86 rfl shapeCasts_S9x640000x32_S5760000x32,
    StableHlo.nullary main_c_19 (constantI S_ 32 0#32),
    StableHlo.unary main_c_19 main_v87 (broadcastInDim S5760000 ![] bcast_S_S5760000 : (⟨S_, .i32⟩ : BufTy).Contents (Elt F) → (⟨S5760000, .i32⟩ : BufTy).Contents (Elt F)),
    StableHlo.binary main_v85 main_v87 main_v88 (cmpi .slt : (⟨S5760000, .i32⟩ : BufTy).Contents (Elt F) → (⟨S5760000, .i32⟩ : BufTy).Contents (Elt F) → (⟨S5760000, .i1⟩ : BufTy).Contents (Elt F)),
    StableHlo.nullary main_c_20 (constantI S_ 32 2560000#32),
    StableHlo.unary main_c_20 main_v89 (broadcastInDim S5760000 ![] bcast_S_S5760000 : (⟨S_, .i32⟩ : BufTy).Contents (Elt F) → (⟨S5760000, .i32⟩ : BufTy).Contents (Elt F)),
    StableHlo.binary main_v85 main_v89 main_v90 (addi : (⟨S5760000, .i32⟩ : BufTy).Contents (Elt F) → (⟨S5760000, .i32⟩ : BufTy).Contents (Elt F) → (⟨S5760000, .i32⟩ : BufTy).Contents (Elt F)),
    StableHlo.ternary main_v88 main_v90 main_v85 main_v91 (select : (⟨S5760000, .i1⟩ : BufTy).Contents (Elt F) → (⟨S5760000, .i32⟩ : BufTy).Contents (Elt F) → (⟨S5760000, .i32⟩ : BufTy).Contents (Elt F) → (⟨S5760000, .i32⟩ : BufTy).Contents (Elt F)),
    StableHlo.unary main_v91 main_v92 (broadcastInDim S5760000x1 ![0] bcast_S5760000_S5760000x1_0 : (⟨S5760000, .i32⟩ : BufTy).Contents (Elt F) → (⟨S5760000x1, .i32⟩ : BufTy).Contents (Elt F)),
    StableHlo.ternary main_v84 main_v92 main_v86 main_v93 ((fun x i u => Host.scatterAdd scatter_S2560000x32_S5760000x1_S5760000x32_1_0_0_1 x i u) : (⟨S2560000x32, .f32⟩ : BufTy).Contents (Elt F) → (⟨S5760000x1, .i32⟩ : BufTy).Contents (Elt F) → (⟨S5760000x32, .f32⟩ : BufTy).Contents (Elt F) → (⟨S2560000x32, .f32⟩ : BufTy).Contents (Elt F)),
    StableHlo.nullary main_cst_21 (constant S_ .f32 0x00000000#32),
    StableHlo.binary main_v93 main_cst_21 main_v94 ((fun x v => Host.reduceAdd x v reducesTo_S2560000x32_S32_d0 h_S_) : (⟨S2560000x32, .f32⟩ : BufTy).Contents (Elt F) → (⟨S_, .f32⟩ : BufTy).Contents (Elt F) → (⟨S32, .f32⟩ : BufTy).Contents (Elt F)),
    StableHlo.nullary main_cst_22 (constant S_ .f32 0x4A1C4000#32) ]

/-- The third window's 42 operations, in order. -/
def ops2 : List (HloOp τ sig (Elt F)) :=
  [ StableHlo.unary main_cst_22 main_v95 (broadcastInDim S32 ![] bcast_S_S32 : (⟨S_, .f32⟩ : BufTy).Contents (Elt F) → (⟨S32, .f32⟩ : BufTy).Contents (Elt F)),
    StableHlo.binary main_v94 main_v95 main_v96 (Host.divf : (⟨S32, .f32⟩ : BufTy).Contents (Elt F) → (⟨S32, .f32⟩ : BufTy).Contents (Elt F) → (⟨S32, .f32⟩ : BufTy).Contents (Elt F)),
    StableHlo.nullary main_c_23 (constantI S_ 32 0#32),
    StableHlo.TRef.nullary main_call2.cst (constant S_ .f32 0x00000000#32),
    StableHlo.TRef.binary (TRef.of main_v93 : TRef sig ⟨S2560000x32, .f32⟩) main_call2.cst main_call2.v0 (fun x v => Host.reduceAdd x v reducesTo_S2560000x32_S32_d0 h_S_),
    StableHlo.TRef.unary main_call2.v0 main_call2.v1 (broadcastInDim S1x32 ![1] bcast_S32_S1x32_1),
    StableHlo.TRef.nullary main_call2.cst_0 (constant S_ .f32 0x4A1C4000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S2560000x32 ![0, 1] bcast_S1x32_S2560000x32_0_1),
    StableHlo.TRef.binary (TRef.of main_v93 : TRef sig ⟨S2560000x32, .f32⟩) main_call2.v4 main_call2.v5 subf,
    StableHlo.TRef.binary main_call2.v5 main_call2.v5 main_call2.v6 mulf,
    StableHlo.TRef.unary (TRef.of main_c_23 : TRef sig ⟨S_, .i32⟩) main_call2.v7 (sitofp .f32),
    StableHlo.TRef.nullary main_call2.cst_1 (constant S_ .f32 0x4A1C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2560000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v96 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S2560000x32 ![0, 1] bcast_S1x32_S2560000x32_0_1 : (⟨S1x32, .f32⟩ : BufTy).Contents (Elt F) → (⟨S2560000x32, .f32⟩ : BufTy).Contents (Elt F)),
    StableHlo.binary main_v93 main_v99 main_v100 (subf : (⟨S2560000x32, .f32⟩ : BufTy).Contents (Elt F) → (⟨S2560000x32, .f32⟩ : BufTy).Contents (Elt F) → (⟨S2560000x32, .f32⟩ : BufTy).Contents (Elt F)),
    StableHlo.nullary main_cst_24 (constant S_ .f32 0x3727C5AC#32),
    StableHlo.unary main_cst_24 main_v101 (broadcastInDim S32 ![] bcast_S_S32 : (⟨S_, .f32⟩ : BufTy).Contents (Elt F) → (⟨S32, .f32⟩ : BufTy).Contents (Elt F)),
    StableHlo.binary main_v97 main_v101 main_v102 (addf : (⟨S32, .f32⟩ : BufTy).Contents (Elt F) → (⟨S32, .f32⟩ : BufTy).Contents (Elt F) → (⟨S32, .f32⟩ : BufTy).Contents (Elt F)),
    StableHlo.unary main_v102 main_v103 (Host.rsqrt : (⟨S32, .f32⟩ : BufTy).Contents (Elt F) → (⟨S32, .f32⟩ : BufTy).Contents (Elt F)),
    StableHlo.unary main_v103 main_v104 (broadcastInDim S1x32 ![1] bcast_S32_S1x32_1 : (⟨S32, .f32⟩ : BufTy).Contents (Elt F) → (⟨S1x32, .f32⟩ : BufTy).Contents (Elt F)),
    StableHlo.unary main_v104 main_v105 (broadcastInDim S2560000x32 ![0, 1] bcast_S1x32_S2560000x32_0_1 : (⟨S1x32, .f32⟩ : BufTy).Contents (Elt F) → (⟨S2560000x32, .f32⟩ : BufTy).Contents (Elt F)),
    StableHlo.binary main_v100 main_v105 main_v106 (mulf : (⟨S2560000x32, .f32⟩ : BufTy).Contents (Elt F) → (⟨S2560000x32, .f32⟩ : BufTy).Contents (Elt F) → (⟨S2560000x32, .f32⟩ : BufTy).Contents (Elt F)),
    StableHlo.unary main_arg11 main_v107 (broadcastInDim S1x32 ![1] bcast_S32_S1x32_1 : (⟨S32, .f32⟩ : BufTy).Contents (Elt F) → (⟨S1x32, .f32⟩ : BufTy).Contents (Elt F)),
    StableHlo.unary main_v107 main_v108 (broadcastInDim S2560000x32 ![0, 1] bcast_S1x32_S2560000x32_0_1 : (⟨S1x32, .f32⟩ : BufTy).Contents (Elt F) → (⟨S2560000x32, .f32⟩ : BufTy).Contents (Elt F)),
    StableHlo.binary main_v106 main_v108 main_v109 (mulf : (⟨S2560000x32, .f32⟩ : BufTy).Contents (Elt F) → (⟨S2560000x32, .f32⟩ : BufTy).Contents (Elt F) → (⟨S2560000x32, .f32⟩ : BufTy).Contents (Elt F)),
    StableHlo.unary main_arg12 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S2560000x32 ![0, 1] bcast_S1x32_S2560000x32_0_1 : (⟨S1x32, .f32⟩ : BufTy).Contents (Elt F) → (⟨S2560000x32, .f32⟩ : BufTy).Contents (Elt F)),
    StableHlo.binary main_v109 main_v111 main_v112 (addf : (⟨S2560000x32, .f32⟩ : BufTy).Contents (Elt F) → (⟨S2560000x32, .f32⟩ : BufTy).Contents (Elt F) → (⟨S2560000x32, .f32⟩ : BufTy).Contents (Elt F)),
    StableHlo.binary main_v112 main_arg3 main_v113 (addf : (⟨S2560000x32, .f32⟩ : BufTy).Contents (Elt F) → (⟨S2560000x32, .f32⟩ : BufTy).Contents (Elt F) → (⟨S2560000x32, .f32⟩ : BufTy).Contents (Elt F)) ]

-- the sequencing of the eighty-one operations is re-associated
set_option maxRecDepth 4096 in
/-- The first window is its line: the functions' definitions unfolded at the call, both sides are one chain of steps once
    the sequencing is re-associated. -/
theorem part0_eq (c : Dev nD) : main_part0 (F := F) c = seq ops0 := by
  simp only [main_part0, ops0, fn_var.body, fn_where.body, seq, bind_assoc, pure_bind]
  rfl

set_option maxRecDepth 4096 in
/-- The second window is its line. -/
theorem part1_eq (c : Dev nD) : main_part1 (F := F) c = seq ops1 := by
  simp only [main_part1, ops1, fn_var_0.body, fn_where_1.body, seq, bind_assoc, pure_bind]
  rfl

set_option maxRecDepth 4096 in
/-- The third window is its line. -/
theorem part2_eq (c : Dev nD) : main_part2 (F := F) c = seq ops2 := by
  simp only [main_part2, ops2, fn_var_2.body, fn_where_1.body, seq, bind_assoc, pure_bind]

/-- @main runs the three windows in order: it is the line of the three lists in a row. -/
theorem main_eq_parts (c : Dev nD) : main (F := F) c = seq (ops0 ++ (ops1 ++ ops2)) := by
  rw [seq_append, seq_append, ← part0_eq c, ← part1_eq c, ← part2_eq c]
  rfl

end Cert.ReferenceIdeal.RefRun

end
-- ==== Proof.RefStage3.lean ====
/-
  Stage 3 of the reference program as a line of operations, and what the line leaves in the buffers.

  `opsS3` lists the 68 operations of the stage in the program's order: the 46 the program writes itself and, at the
  place of its call of the outlined variance function, that function's 19 operations followed by the 3 of the selection
  it calls in turn, each over the buffers the call names. Read from ANY contents `V` of the buffers, the line leaves in
  its result buffer the term `stage3` of `V` at the seven buffers it reads (each operation's result substituted into
  its consumers, in order; the typed references of the outlined functions carry a transport along an equation between
  two spellings of one type, which is the identity), and leaves every argument buffer of the program as it was: no
  operation of the line writes one.
-/
import proofs.«146613_j41781441855727_2_alg».proof.ReferenceIdeal
import proofs.«146613_j41781441855727_2_alg».proof.Proof.Gen.ReferenceIdeal
import Idealize.ShloMosaic.Lib.StableHlo.Run
import proofs.«146613_j41781441855727_2_alg».proof.Proof.RefDefs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The stage's 68 operations, in order. -/
def opsS3 : List (HloOp τ sig (Elt F)) :=
  [ StableHlo.nullary main_c (constantI S_ 32 0#32),
    StableHlo.unary main_c main_v0 (broadcastInDim S9x40000 ![] bcast_S_S9x40000 : (⟨S_, .i32⟩ : BufTy).Contents (Elt F) → (⟨S9x40000, .i32⟩ : BufTy).Contents (Elt F)),
    StableHlo.binary main_arg13 main_v0 main_v1 (cmpi .slt : (⟨S9x40000, .i32⟩ : BufTy).Contents (Elt F) → (⟨S9x40000, .i32⟩ : BufTy).Contents (Elt F) → (⟨S9x40000, .i1⟩ : BufTy).Contents (Elt F)),
    StableHlo.nullary main_c_0 (constantI S_ 32 40000#32),
    StableHlo.unary main_c_0 main_v2 (broadcastInDim S9x40000 ![] bcast_S_S9x40000 : (⟨S_, .i32⟩ : BufTy).Contents (Elt F) → (⟨S9x40000, .i32⟩ : BufTy).Contents (Elt F)),
    StableHlo.binary main_arg13 main_v2 main_v3 (addi : (⟨S9x40000, .i32⟩ : BufTy).Contents (Elt F) → (⟨S9x40000, .i32⟩ : BufTy).Contents (Elt F) → (⟨S9x40000, .i32⟩ : BufTy).Contents (Elt F)),
    StableHlo.ternary main_v1 main_v3 main_arg13 main_v4 (select : (⟨S9x40000, .i1⟩ : BufTy).Contents (Elt F) → (⟨S9x40000, .i32⟩ : BufTy).Contents (Elt F) → (⟨S9x40000, .i32⟩ : BufTy).Contents (Elt F) → (⟨S9x40000, .i32⟩ : BufTy).Contents (Elt F)),
    StableHlo.unary main_v4 main_v5 (broadcastInDim S9x40000x1 ![0, 1] bcast_S9x40000_S9x40000x1_0_1 : (⟨S9x40000, .i32⟩ : BufTy).Contents (Elt F) → (⟨S9x40000x1, .i32⟩ : BufTy).Contents (Elt F)),
    StableHlo.binary main_arg0 main_v5 main_v6 ((fun x i => Host.gather gather_S40000x128_S9x40000x1_S9x40000x128_2_0_n_n_0_2_1128 x i) : (⟨S40000x128, .f32⟩ : BufTy).Contents (Elt F) → (⟨S9x40000x1, .i32⟩ : BufTy).Contents (Elt F) → (⟨S9x40000x128, .f32⟩ : BufTy).Contents (Elt F)),
    StableHlo.binary main_v6 main_arg4 main_v7 ((fun l r => Host.dotGeneral dot_S9x40000x128_S9x128x64_S9x40000x64_2_1_1_2_0_0 none l r) : (⟨S9x40000x128, .f32⟩ : BufTy).Contents (Elt F) → (⟨S9x128x64, .f32⟩ : BufTy).Contents (Elt F) → (⟨S9x40000x64, .f32⟩ : BufTy).Contents (Elt F)),
    StableHlo.nullary main_cst (constant S_ .f32 0x00000000#32),
    StableHlo.unary main_cst main_v8 (broadcastInDim S160000x64 ![] bcast_S_S160000x64 : (⟨S_, .f32⟩ : BufTy).Contents (Elt F) → (⟨S160000x64, .f32⟩ : BufTy).Contents (Elt F)),
    StableHlo.reshape main_arg14 main_v9 rfl shapeCasts_S9x40000_S360000,
    StableHlo.reshape main_v7 main_v10 rfl shapeCasts_S9x40000x64_S360000x64,
    StableHlo.nullary main_c_1 (constantI S_ 32 0#32),
    StableHlo.unary main_c_1 main_v11 (broadcastInDim S360000 ![] bcast_S_S360000 : (⟨S_, .i32⟩ : BufTy).Contents (Elt F) → (⟨S360000, .i32⟩ : BufTy).Contents (Elt F)),
    StableHlo.binary main_v9 main_v11 main_v12 (cmpi .slt : (⟨S360000, .i32⟩ : BufTy).Contents (Elt F) → (⟨S360000, .i32⟩ : BufTy).Contents (Elt F) → (⟨S360000, .i1⟩ : BufTy).Contents (Elt F)),
    StableHlo.nullary main_c_2 (constantI S_ 32 160000#32),
    StableHlo.unary main_c_2 main_v13 (broadcastInDim S360000 ![] bcast_S_S360000 : (⟨S_, .i32⟩ : BufTy).Contents (Elt F) → (⟨S360000, .i32⟩ : BufTy).Contents (Elt F)),
    StableHlo.binary main_v9 main_v13 main_v14 (addi : (⟨S360000, .i32⟩ : BufTy).Contents (Elt F) → (⟨S360000, .i32⟩ : BufTy).Contents (Elt F) → (⟨S360000, .i32⟩ : BufTy).Contents (Elt F)),
    StableHlo.ternary main_v12 main_v14 main_v9 main_v15 (select : (⟨S360000, .i1⟩ : BufTy).Contents (Elt F) → (⟨S360000, .i32⟩ : BufTy).Contents (Elt F) → (⟨S360000, .i32⟩ : BufTy).Contents (Elt F) → (⟨S360000, .i32⟩ : BufTy).Contents (Elt F)),
    StableHlo.unary main_v15 main_v16 (broadcastInDim S360000x1 ![0] bcast_S360000_S360000x1_0 : (⟨S360000, .i32⟩ : BufTy).Contents (Elt F) → (⟨S360000x1, .i32⟩ : BufTy).Contents (Elt F)),
    StableHlo.ternary main_v8 main_v16 main_v10 main_v17 ((fun x i u => Host.scatterAdd scatter_S160000x64_S360000x1_S360000x64_1_0_0_1 x i u) : (⟨S160000x64, .f32⟩ : BufTy).Contents (Elt F) → (⟨S360000x1, .i32⟩ : BufTy).Contents (Elt F) → (⟨S360000x64, .f32⟩ : BufTy).Contents (Elt F) → (⟨S160000x64, .f32⟩ : BufTy).Contents (Elt F)),
    StableHlo.nullary main_cst_3 (constant S_ .f32 0x00000000#32),
    StableHlo.binary main_v17 main_cst_3 main_v18 ((fun x v => Host.reduceAdd x v reducesTo_S160000x64_S64_d0 h_S_) : (⟨S160000x64, .f32⟩ : BufTy).Contents (Elt F) → (⟨S_, .f32⟩ : BufTy).Contents (Elt F) → (⟨S64, .f32⟩ : BufTy).Contents (Elt F)),
    StableHlo.nullary main_cst_4 (constant S_ .f32 0x481C4000#32),
    StableHlo.unary main_cst_4 main_v19 (broadcastInDim S64 ![] bcast_S_S64 : (⟨S_, .f32⟩ : BufTy).Contents (Elt F) → (⟨S64, .f32⟩ : BufTy).Contents (Elt F)),
    StableHlo.binary main_v18 main_v19 main_v20 (Host.divf : (⟨S64, .f32⟩ : BufTy).Contents (Elt F) → (⟨S64, .f32⟩ : BufTy).Contents (Elt F) → (⟨S64, .f32⟩ : BufTy).Contents (Elt F)),
    StableHlo.nullary main_c_5 (constantI S_ 32 0#32),
    StableHlo.TRef.nullary main_call0.cst (constant S_ .f32 0x00000000#32),
    StableHlo.TRef.binary (TRef.of main_v17 : TRef sig ⟨S160000x64, .f32⟩) main_call0.cst main_call0.v0 (fun x v => Host.reduceAdd x v reducesTo_S160000x64_S64_d0 h_S_),
    StableHlo.TRef.unary main_call0.v0 main_call0.v1 (broadcastInDim S1x64 ![1] bcast_S64_S1x64_1),
    StableHlo.TRef.nullary main_call0.cst_0 (constant S_ .f32 0x481C4000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S160000x64 ![0, 1] bcast_S1x64_S160000x64_0_1),
    StableHlo.TRef.binary (TRef.of main_v17 : TRef sig ⟨S160000x64, .f32⟩) main_call0.v4 main_call0.v5 subf,
    StableHlo.TRef.binary main_call0.v5 main_call0.v5 main_call0.v6 mulf,
    StableHlo.TRef.unary (TRef.of main_c_5 : TRef sig ⟨S_, .i32⟩) main_call0.v7 (sitofp .f32),
    StableHlo.TRef.nullary main_call0.cst_1 (constant S_ .f32 0x481C4000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S160000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v20 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S160000x64 ![0, 1] bcast_S1x64_S160000x64_0_1 : (⟨S1x64, .f32⟩ : BufTy).Contents (Elt F) → (⟨S160000x64, .f32⟩ : BufTy).Contents (Elt F)),
    StableHlo.binary main_v17 main_v23 main_v24 (subf : (⟨S160000x64, .f32⟩ : BufTy).Contents (Elt F) → (⟨S160000x64, .f32⟩ : BufTy).Contents (Elt F) → (⟨S160000x64, .f32⟩ : BufTy).Contents (Elt F)),
    StableHlo.nullary main_cst_6 (constant S_ .f32 0x3727C5AC#32),
    StableHlo.unary main_cst_6 main_v25 (broadcastInDim S64 ![] bcast_S_S64 : (⟨S_, .f32⟩ : BufTy).Contents (Elt F) → (⟨S64, .f32⟩ : BufTy).Contents (Elt F)),
    StableHlo.binary main_v21 main_v25 main_v26 (addf : (⟨S64, .f32⟩ : BufTy).Contents (Elt F) → (⟨S64, .f32⟩ : BufTy).Contents (Elt F) → (⟨S64, .f32⟩ : BufTy).Contents (Elt F)),
    StableHlo.unary main_v26 main_v27 (Host.rsqrt : (⟨S64, .f32⟩ : BufTy).Contents (Elt F) → (⟨S64, .f32⟩ : BufTy).Contents (Elt F)),
    StableHlo.unary main_v27 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S160000x64 ![0, 1] bcast_S1x64_S160000x64_0_1 : (⟨S1x64, .f32⟩ : BufTy).Contents (Elt F) → (⟨S160000x64, .f32⟩ : BufTy).Contents (Elt F)),
    StableHlo.binary main_v24 main_v29 main_v30 (mulf : (⟨S160000x64, .f32⟩ : BufTy).Contents (Elt F) → (⟨S160000x64, .f32⟩ : BufTy).Contents (Elt F) → (⟨S160000x64, .f32⟩ : BufTy).Contents (Elt F)),
    StableHlo.unary main_arg7 main_v31 (broadcastInDim S1x64 ![1] bcast_S64_S1x64_1 : (⟨S64, .f32⟩ : BufTy).Contents (Elt F) → (⟨S1x64, .f32⟩ : BufTy).Contents (Elt F)),
    StableHlo.unary main_v31 main_v32 (broadcastInDim S160000x64 ![0, 1] bcast_S1x64_S160000x64_0_1 : (⟨S1x64, .f32⟩ : BufTy).Contents (Elt F) → (⟨S160000x64, .f32⟩ : BufTy).Contents (Elt F)),
    StableHlo.binary main_v30 main_v32 main_v33 (mulf : (⟨S160000x64, .f32⟩ : BufTy).Contents (Elt F) → (⟨S160000x64, .f32⟩ : BufTy).Contents (Elt F) → (⟨S160000x64, .f32⟩ : BufTy).Contents (Elt F)),
    StableHlo.unary main_arg8 main_v34 (broadcastInDim S1x64 ![1] bcast_S64_S1x64_1 : (⟨S64, .f32⟩ : BufTy).Contents (Elt F) → (⟨S1x64, .f32⟩ : BufTy).Contents (Elt F)),
    StableHlo.unary main_v34 main_v35 (broadcastInDim S160000x64 ![0, 1] bcast_S1x64_S160000x64_0_1 : (⟨S1x64, .f32⟩ : BufTy).Contents (Elt F) → (⟨S160000x64, .f32⟩ : BufTy).Contents (Elt F)),
    StableHlo.binary main_v33 main_v35 main_v36 (addf : (⟨S160000x64, .f32⟩ : BufTy).Contents (Elt F) → (⟨S160000x64, .f32⟩ : BufTy).Contents (Elt F) → (⟨S160000x64, .f32⟩ : BufTy).Contents (Elt F)),
    StableHlo.binary main_v36 main_arg1 main_v37 (addf : (⟨S160000x64, .f32⟩ : BufTy).Contents (Elt F) → (⟨S160000x64, .f32⟩ : BufTy).Contents (Elt F) → (⟨S160000x64, .f32⟩ : BufTy).Contents (Elt F)) ]

/-- Every operation of the line touches buffers of the core only. -/
theorem opsS3_sub : (opsS3 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the line determines all it writes. -/
theorem opsS3_fresh : ∀ op ∈ (opsS3 : List (HloOp τ sig (Elt F))), op.fresh = ∅ := by
  intro _ h
  unfold opsS3 at h
  repeat (cases h with | head => rfl | tail _ h => ?_)
  exact nomatch h

/-- What the line leaves in its result buffer: `stage3` of the contents it started from. -/
theorem read3 (V : Valuation τ sig (Elt F)) :
    after (opsS3 (F := F)) V (main_v37 : DevRef τ sig)
      = stage3 (V (main_arg0 : DevRef τ sig)) (V (main_arg4 : DevRef τ sig)) (V (main_arg13 : DevRef τ sig)) (V (main_arg14 : DevRef τ sig)) (V (main_arg7 : DevRef τ sig)) (V (main_arg8 : DevRef τ sig)) (V (main_arg1 : DevRef τ sig)) := by
  unfold opsS3
  after_results_simp
  simp only [TRef.toBuf, TRef.ofBuf, cast_eq]
  rfl

/-! The line writes no argument buffer. -/

theorem keep3_arg0 (V : Valuation τ sig (Elt F)) :
    after (opsS3 (F := F)) V (main_arg0 : DevRef τ sig) = (V (main_arg0 : DevRef τ sig)) := by
  unfold opsS3
  after_results_simp

theorem keep3_arg1 (V : Valuation τ sig (Elt F)) :
    after (opsS3 (F := F)) V (main_arg1 : DevRef τ sig) = (V (main_arg1 : DevRef τ sig)) := by
  unfold opsS3
  after_results_simp

theorem keep3_arg2 (V : Valuation τ sig (Elt F)) :
    after (opsS3 (F := F)) V (main_arg2 : DevRef τ sig) = (V (main_arg2 : DevRef τ sig)) := by
  unfold opsS3
  after_results_simp

theorem keep3_arg3 (V : Valuation τ sig (Elt F)) :
    after (opsS3 (F := F)) V (main_arg3 : DevRef τ sig) = (V (main_arg3 : DevRef τ sig)) := by
  unfold opsS3
  after_results_simp

theorem keep3_arg4 (V : Valuation τ sig (Elt F)) :
    after (opsS3 (F := F)) V (main_arg4 : DevRef τ sig) = (V (main_arg4 : DevRef τ sig)) := by
  unfold opsS3
  after_results_simp

theorem keep3_arg5 (V : Valuation τ sig (Elt F)) :
    after (opsS3 (F := F)) V (main_arg5 : DevRef τ sig) = (V (main_arg5 : DevRef τ sig)) := by
  unfold opsS3
  after_results_simp

theorem keep3_arg6 (V : Valuation τ sig (Elt F)) :
    after (opsS3 (F := F)) V (main_arg6 : DevRef τ sig) = (V (main_arg6 : DevRef τ sig)) := by
  unfold opsS3
  after_results_simp

theorem keep3_arg7 (V : Valuation τ sig (Elt F)) :
    after (opsS3 (F := F)) V (main_arg7 : DevRef τ sig) = (V (main_arg7 : DevRef τ sig)) := by
  unfold opsS3
  after_results_simp

theorem keep3_arg8 (V : Valuation τ sig (Elt F)) :
    after (opsS3 (F := F)) V (main_arg8 : DevRef τ sig) = (V (main_arg8 : DevRef τ sig)) := by
  unfold opsS3
  after_results_simp

theorem keep3_arg9 (V : Valuation τ sig (Elt F)) :
    after (opsS3 (F := F)) V (main_arg9 : DevRef τ sig) = (V (main_arg9 : DevRef τ sig)) := by
  unfold opsS3
  after_results_simp

theorem keep3_arg10 (V : Valuation τ sig (Elt F)) :
    after (opsS3 (F := F)) V (main_arg10 : DevRef τ sig) = (V (main_arg10 : DevRef τ sig)) := by
  unfold opsS3
  after_results_simp

theorem keep3_arg11 (V : Valuation τ sig (Elt F)) :
    after (opsS3 (F := F)) V (main_arg11 : DevRef τ sig) = (V (main_arg11 : DevRef τ sig)) := by
  unfold opsS3
  after_results_simp

theorem keep3_arg12 (V : Valuation τ sig (Elt F)) :
    after (opsS3 (F := F)) V (main_arg12 : DevRef τ sig) = (V (main_arg12 : DevRef τ sig)) := by
  unfold opsS3
  after_results_simp

theorem keep3_arg13 (V : Valuation τ sig (Elt F)) :
    after (opsS3 (F := F)) V (main_arg13 : DevRef τ sig) = (V (main_arg13 : DevRef τ sig)) := by
  unfold opsS3
  after_results_simp

theorem keep3_arg14 (V : Valuation τ sig (Elt F)) :
    after (opsS3 (F := F)) V (main_arg14 : DevRef τ sig) = (V (main_arg14 : DevRef τ sig)) := by
  unfold opsS3
  after_results_simp

theorem keep3_arg15 (V : Valuation τ sig (Elt F)) :
    after (opsS3 (F := F)) V (main_arg15 : DevRef τ sig) = (V (main_arg15 : DevRef τ sig)) := by
  unfold opsS3
  after_results_simp

theorem keep3_arg16 (V : Valuation τ sig (Elt F)) :
    after (opsS3 (F := F)) V (main_arg16 : DevRef τ sig) = (V (main_arg16 : DevRef τ sig)) := by
  unfold opsS3
  after_results_simp

theorem keep3_arg17 (V : Valuation τ sig (Elt F)) :
    after (opsS3 (F := F)) V (main_arg17 : DevRef τ sig) = (V (main_arg17 : DevRef τ sig)) := by
  unfold opsS3
  after_results_simp

theorem keep3_arg18 (V : Valuation τ sig (Elt F)) :
    after (opsS3 (F := F)) V (main_arg18 : DevRef τ sig) = (V (main_arg18 : DevRef τ sig)) := by
  unfold opsS3
  after_results_simp

end Cert.ReferenceIdeal.RefRun

end
-- ==== Proof.RefStage2.lean ====
/-
  Stage 2 of the reference program as a line of operations, and what the line leaves in the buffers.

  `opsS2` lists the 68 operations of the stage in the program's order: the 46 the program writes itself and, at the
  place of its call of the outlined variance function, that function's 19 operations followed by the 3 of the selection
  it calls in turn, each over the buffers the call names. Read from ANY contents `V` of the buffers, the line leaves in
  its result buffer the term `stage2` of `V` at the seven buffers it reads (each operation's result substituted into
  its consumers, in order; the typed references of the outlined functions carry a transport along an equation between
  two spellings of one type, which is the identity), and leaves every argument buffer of the program as it was: no
  operation of the line writes one.
-/
import proofs.«146613_j41781441855727_2_alg».proof.ReferenceIdeal
import proofs.«146613_j41781441855727_2_alg».proof.Proof.Gen.ReferenceIdeal
import Idealize.ShloMosaic.Lib.StableHlo.Run
import proofs.«146613_j41781441855727_2_alg».proof.Proof.RefDefs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The stage's 68 operations, in order. -/
def opsS2 : List (HloOp τ sig (Elt F)) :=
  [ StableHlo.nullary main_c_7 (constantI S_ 32 0#32),
    StableHlo.unary main_c_7 main_v38 (broadcastInDim S9x160000 ![] bcast_S_S9x160000 : (⟨S_, .i32⟩ : BufTy).Contents (Elt F) → (⟨S9x160000, .i32⟩ : BufTy).Contents (Elt F)),
    StableHlo.binary main_arg15 main_v38 main_v39 (cmpi .slt : (⟨S9x160000, .i32⟩ : BufTy).Contents (Elt F) → (⟨S9x160000, .i32⟩ : BufTy).Contents (Elt F) → (⟨S9x160000, .i1⟩ : BufTy).Contents (Elt F)),
    StableHlo.nullary main_c_8 (constantI S_ 32 160000#32),
    StableHlo.unary main_c_8 main_v40 (broadcastInDim S9x160000 ![] bcast_S_S9x160000 : (⟨S_, .i32⟩ : BufTy).Contents (Elt F) → (⟨S9x160000, .i32⟩ : BufTy).Contents (Elt F)),
    StableHlo.binary main_arg15 main_v40 main_v41 (addi : (⟨S9x160000, .i32⟩ : BufTy).Contents (Elt F) → (⟨S9x160000, .i32⟩ : BufTy).Contents (Elt F) → (⟨S9x160000, .i32⟩ : BufTy).Contents (Elt F)),
    StableHlo.ternary main_v39 main_v41 main_arg15 main_v42 (select : (⟨S9x160000, .i1⟩ : BufTy).Contents (Elt F) → (⟨S9x160000, .i32⟩ : BufTy).Contents (Elt F) → (⟨S9x160000, .i32⟩ : BufTy).Contents (Elt F) → (⟨S9x160000, .i32⟩ : BufTy).Contents (Elt F)),
    StableHlo.unary main_v42 main_v43 (broadcastInDim S9x160000x1 ![0, 1] bcast_S9x160000_S9x160000x1_0_1 : (⟨S9x160000, .i32⟩ : BufTy).Contents (Elt F) → (⟨S9x160000x1, .i32⟩ : BufTy).Contents (Elt F)),
    StableHlo.binary main_v37 main_v43 main_v44 ((fun x i => Host.gather gather_S160000x64_S9x160000x1_S9x160000x64_2_0_n_n_0_2_164 x i) : (⟨S160000x64, .f32⟩ : BufTy).Contents (Elt F) → (⟨S9x160000x1, .i32⟩ : BufTy).Contents (Elt F) → (⟨S9x160000x64, .f32⟩ : BufTy).Contents (Elt F)),
    StableHlo.binary main_v44 main_arg5 main_v45 ((fun l r => Host.dotGeneral dot_S9x160000x64_S9x64x32_S9x160000x32_2_1_1_2_0_0 none l r) : (⟨S9x160000x64, .f32⟩ : BufTy).Contents (Elt F) → (⟨S9x64x32, .f32⟩ : BufTy).Contents (Elt F) → (⟨S9x160000x32, .f32⟩ : BufTy).Contents (Elt F)),
    StableHlo.nullary main_cst_9 (constant S_ .f32 0x00000000#32),
    StableHlo.unary main_cst_9 main_v46 (broadcastInDim S640000x32 ![] bcast_S_S640000x32 : (⟨S_, .f32⟩ : BufTy).Contents (Elt F) → (⟨S640000x32, .f32⟩ : BufTy).Contents (Elt F)),
    StableHlo.reshape main_arg16 main_v47 rfl shapeCasts_S9x160000_S1440000,
    StableHlo.reshape main_v45 main_v48 rfl shapeCasts_S9x160000x32_S1440000x32,
    StableHlo.nullary main_c_10 (constantI S_ 32 0#32),
    StableHlo.unary main_c_10 main_v49 (broadcastInDim S1440000 ![] bcast_S_S1440000 : (⟨S_, .i32⟩ : BufTy).Contents (Elt F) → (⟨S1440000, .i32⟩ : BufTy).Contents (Elt F)),
    StableHlo.binary main_v47 main_v49 main_v50 (cmpi .slt : (⟨S1440000, .i32⟩ : BufTy).Contents (Elt F) → (⟨S1440000, .i32⟩ : BufTy).Contents (Elt F) → (⟨S1440000, .i1⟩ : BufTy).Contents (Elt F)),
    StableHlo.nullary main_c_11 (constantI S_ 32 640000#32),
    StableHlo.unary main_c_11 main_v51 (broadcastInDim S1440000 ![] bcast_S_S1440000 : (⟨S_, .i32⟩ : BufTy).Contents (Elt F) → (⟨S1440000, .i32⟩ : BufTy).Contents (Elt F)),
    StableHlo.binary main_v47 main_v51 main_v52 (addi : (⟨S1440000, .i32⟩ : BufTy).Contents (Elt F) → (⟨S1440000, .i32⟩ : BufTy).Contents (Elt F) → (⟨S1440000, .i32⟩ : BufTy).Contents (Elt F)),
    StableHlo.ternary main_v50 main_v52 main_v47 main_v53 (select : (⟨S1440000, .i1⟩ : BufTy).Contents (Elt F) → (⟨S1440000, .i32⟩ : BufTy).Contents (Elt F) → (⟨S1440000, .i32⟩ : BufTy).Contents (Elt F) → (⟨S1440000, .i32⟩ : BufTy).Contents (Elt F)),
    StableHlo.unary main_v53 main_v54 (broadcastInDim S1440000x1 ![0] bcast_S1440000_S1440000x1_0 : (⟨S1440000, .i32⟩ : BufTy).Contents (Elt F) → (⟨S1440000x1, .i32⟩ : BufTy).Contents (Elt F)),
    StableHlo.ternary main_v46 main_v54 main_v48 main_v55 ((fun x i u => Host.scatterAdd scatter_S640000x32_S1440000x1_S1440000x32_1_0_0_1 x i u) : (⟨S640000x32, .f32⟩ : BufTy).Contents (Elt F) → (⟨S1440000x1, .i32⟩ : BufTy).Contents (Elt F) → (⟨S1440000x32, .f32⟩ : BufTy).Contents (Elt F) → (⟨S640000x32, .f32⟩ : BufTy).Contents (Elt F)),
    StableHlo.nullary main_cst_12 (constant S_ .f32 0x00000000#32),
    StableHlo.binary main_v55 main_cst_12 main_v56 ((fun x v => Host.reduceAdd x v reducesTo_S640000x32_S32_d0 h_S_) : (⟨S640000x32, .f32⟩ : BufTy).Contents (Elt F) → (⟨S_, .f32⟩ : BufTy).Contents (Elt F) → (⟨S32, .f32⟩ : BufTy).Contents (Elt F)),
    StableHlo.nullary main_cst_13 (constant S_ .f32 0x491C4000#32),
    StableHlo.unary main_cst_13 main_v57 (broadcastInDim S32 ![] bcast_S_S32 : (⟨S_, .f32⟩ : BufTy).Contents (Elt F) → (⟨S32, .f32⟩ : BufTy).Contents (Elt F)),
    StableHlo.binary main_v56 main_v57 main_v58 (Host.divf : (⟨S32, .f32⟩ : BufTy).Contents (Elt F) → (⟨S32, .f32⟩ : BufTy).Contents (Elt F) → (⟨S32, .f32⟩ : BufTy).Contents (Elt F)),
    StableHlo.nullary main_c_14 (constantI S_ 32 0#32),
    StableHlo.TRef.nullary main_call1.cst (constant S_ .f32 0x00000000#32),
    StableHlo.TRef.binary (TRef.of main_v55 : TRef sig ⟨S640000x32, .f32⟩) main_call1.cst main_call1.v0 (fun x v => Host.reduceAdd x v reducesTo_S640000x32_S32_d0 h_S_),
    StableHlo.TRef.unary main_call1.v0 main_call1.v1 (broadcastInDim S1x32 ![1] bcast_S32_S1x32_1),
    StableHlo.TRef.nullary main_call1.cst_0 (constant S_ .f32 0x491C4000#32),
    StableHlo.TRef.unary main_call1.cst_0 main_call1.v2 (broadcastInDim S1x32 ![] bcast_S_S1x32),
    StableHlo.TRef.binary main_call1.v1 main_call1.v2 main_call1.v3 Host.divf,
    StableHlo.TRef.unary main_call1.v3 main_call1.v4 (broadcastInDim S640000x32 ![0, 1] bcast_S1x32_S640000x32_0_1),
    StableHlo.TRef.binary (TRef.of main_v55 : TRef sig ⟨S640000x32, .f32⟩) main_call1.v4 main_call1.v5 subf,
    StableHlo.TRef.binary main_call1.v5 main_call1.v5 main_call1.v6 mulf,
    StableHlo.TRef.unary (TRef.of main_c_14 : TRef sig ⟨S_, .i32⟩) main_call1.v7 (sitofp .f32),
    StableHlo.TRef.nullary main_call1.cst_1 (constant S_ .f32 0x491C4000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S640000x32_S32_d0 h_S_),
    StableHlo.TRef.unary main_call1.v8 main_call1.v10 (broadcastInDim S32 ![] bcast_S_S32),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S32 ![] bcast_S_S32),
    StableHlo.TRef.ternary main_call1.v12 main_call1.v11 main_call1.call0.v1 main_call1.call0.v2 (fun p a b => select (broadcastInDim S32 ![] bcast_S_S32 p) a b),
    StableHlo.unary main_v58 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S640000x32 ![0, 1] bcast_S1x32_S640000x32_0_1 : (⟨S1x32, .f32⟩ : BufTy).Contents (Elt F) → (⟨S640000x32, .f32⟩ : BufTy).Contents (Elt F)),
    StableHlo.binary main_v55 main_v61 main_v62 (subf : (⟨S640000x32, .f32⟩ : BufTy).Contents (Elt F) → (⟨S640000x32, .f32⟩ : BufTy).Contents (Elt F) → (⟨S640000x32, .f32⟩ : BufTy).Contents (Elt F)),
    StableHlo.nullary main_cst_15 (constant S_ .f32 0x3727C5AC#32),
    StableHlo.unary main_cst_15 main_v63 (broadcastInDim S32 ![] bcast_S_S32 : (⟨S_, .f32⟩ : BufTy).Contents (Elt F) → (⟨S32, .f32⟩ : BufTy).Contents (Elt F)),
    StableHlo.binary main_v59 main_v63 main_v64 (addf : (⟨S32, .f32⟩ : BufTy).Contents (Elt F) → (⟨S32, .f32⟩ : BufTy).Contents (Elt F) → (⟨S32, .f32⟩ : BufTy).Contents (Elt F)),
    StableHlo.unary main_v64 main_v65 (Host.rsqrt : (⟨S32, .f32⟩ : BufTy).Contents (Elt F) → (⟨S32, .f32⟩ : BufTy).Contents (Elt F)),
    StableHlo.unary main_v65 main_v66 (broadcastInDim S1x32 ![1] bcast_S32_S1x32_1 : (⟨S32, .f32⟩ : BufTy).Contents (Elt F) → (⟨S1x32, .f32⟩ : BufTy).Contents (Elt F)),
    StableHlo.unary main_v66 main_v67 (broadcastInDim S640000x32 ![0, 1] bcast_S1x32_S640000x32_0_1 : (⟨S1x32, .f32⟩ : BufTy).Contents (Elt F) → (⟨S640000x32, .f32⟩ : BufTy).Contents (Elt F)),
    StableHlo.binary main_v62 main_v67 main_v68 (mulf : (⟨S640000x32, .f32⟩ : BufTy).Contents (Elt F) → (⟨S640000x32, .f32⟩ : BufTy).Contents (Elt F) → (⟨S640000x32, .f32⟩ : BufTy).Contents (Elt F)),
    StableHlo.unary main_arg9 main_v69 (broadcastInDim S1x32 ![1] bcast_S32_S1x32_1 : (⟨S32, .f32⟩ : BufTy).Contents (Elt F) → (⟨S1x32, .f32⟩ : BufTy).Contents (Elt F)),
    StableHlo.unary main_v69 main_v70 (broadcastInDim S640000x32 ![0, 1] bcast_S1x32_S640000x32_0_1 : (⟨S1x32, .f32⟩ : BufTy).Contents (Elt F) → (⟨S640000x32, .f32⟩ : BufTy).Contents (Elt F)),
    StableHlo.binary main_v68 main_v70 main_v71 (mulf : (⟨S640000x32, .f32⟩ : BufTy).Contents (Elt F) → (⟨S640000x32, .f32⟩ : BufTy).Contents (Elt F) → (⟨S640000x32, .f32⟩ : BufTy).Contents (Elt F)),
    StableHlo.unary main_arg10 main_v72 (broadcastInDim S1x32 ![1] bcast_S32_S1x32_1 : (⟨S32, .f32⟩ : BufTy).Contents (Elt F) → (⟨S1x32, .f32⟩ : BufTy).Contents (Elt F)),
    StableHlo.unary main_v72 main_v73 (broadcastInDim S640000x32 ![0, 1] bcast_S1x32_S640000x32_0_1 : (⟨S1x32, .f32⟩ : BufTy).Contents (Elt F) → (⟨S640000x32, .f32⟩ : BufTy).Contents (Elt F)),
    StableHlo.binary main_v71 main_v73 main_v74 (addf : (⟨S640000x32, .f32⟩ : BufTy).Contents (Elt F) → (⟨S640000x32, .f32⟩ : BufTy).Contents (Elt F) → (⟨S640000x32, .f32⟩ : BufTy).Contents (Elt F)),
    StableHlo.binary main_v74 main_arg2 main_v75 (addf : (⟨S640000x32, .f32⟩ : BufTy).Contents (Elt F) → (⟨S640000x32, .f32⟩ : BufTy).Contents (Elt F) → (⟨S640000x32, .f32⟩ : BufTy).Contents (Elt F)) ]

/-- Every operation of the line touches buffers of the core only. -/
theorem opsS2_sub : (opsS2 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the line determines all it writes. -/
theorem opsS2_fresh : ∀ op ∈ (opsS2 : List (HloOp τ sig (Elt F))), op.fresh = ∅ := by
  intro _ h
  unfold opsS2 at h
  repeat (cases h with | head => rfl | tail _ h => ?_)
  exact nomatch h

/-- What the line leaves in its result buffer: `stage2` of the contents it started from. -/
theorem read2 (V : Valuation τ sig (Elt F)) :
    after (opsS2 (F := F)) V (main_v75 : DevRef τ sig)
      = stage2 (V (main_v37 : DevRef τ sig)) (V (main_arg5 : DevRef τ sig)) (V (main_arg15 : DevRef τ sig)) (V (main_arg16 : DevRef τ sig)) (V (main_arg9 : DevRef τ sig)) (V (main_arg10 : DevRef τ sig)) (V (main_arg2 : DevRef τ sig)) := by
  unfold opsS2
  after_results_simp
  simp only [TRef.toBuf, TRef.ofBuf, cast_eq]
  rfl

/-! The line writes no argument buffer. -/

theorem keep2_arg0 (V : Valuation τ sig (Elt F)) :
    after (opsS2 (F := F)) V (main_arg0 : DevRef τ sig) = (V (main_arg0 : DevRef τ sig)) := by
  unfold opsS2
  after_results_simp

theorem keep2_arg1 (V : Valuation τ sig (Elt F)) :
    after (opsS2 (F := F)) V (main_arg1 : DevRef τ sig) = (V (main_arg1 : DevRef τ sig)) := by
  unfold opsS2
  after_results_simp

theorem keep2_arg2 (V : Valuation τ sig (Elt F)) :
    after (opsS2 (F := F)) V (main_arg2 : DevRef τ sig) = (V (main_arg2 : DevRef τ sig)) := by
  unfold opsS2
  after_results_simp

theorem keep2_arg3 (V : Valuation τ sig (Elt F)) :
    after (opsS2 (F := F)) V (main_arg3 : DevRef τ sig) = (V (main_arg3 : DevRef τ sig)) := by
  unfold opsS2
  after_results_simp

theorem keep2_arg4 (V : Valuation τ sig (Elt F)) :
    after (opsS2 (F := F)) V (main_arg4 : DevRef τ sig) = (V (main_arg4 : DevRef τ sig)) := by
  unfold opsS2
  after_results_simp

theorem keep2_arg5 (V : Valuation τ sig (Elt F)) :
    after (opsS2 (F := F)) V (main_arg5 : DevRef τ sig) = (V (main_arg5 : DevRef τ sig)) := by
  unfold opsS2
  after_results_simp

theorem keep2_arg6 (V : Valuation τ sig (Elt F)) :
    after (opsS2 (F := F)) V (main_arg6 : DevRef τ sig) = (V (main_arg6 : DevRef τ sig)) := by
  unfold opsS2
  after_results_simp

theorem keep2_arg7 (V : Valuation τ sig (Elt F)) :
    after (opsS2 (F := F)) V (main_arg7 : DevRef τ sig) = (V (main_arg7 : DevRef τ sig)) := by
  unfold opsS2
  after_results_simp

theorem keep2_arg8 (V : Valuation τ sig (Elt F)) :
    after (opsS2 (F := F)) V (main_arg8 : DevRef τ sig) = (V (main_arg8 : DevRef τ sig)) := by
  unfold opsS2
  after_results_simp

theorem keep2_arg9 (V : Valuation τ sig (Elt F)) :
    after (opsS2 (F := F)) V (main_arg9 : DevRef τ sig) = (V (main_arg9 : DevRef τ sig)) := by
  unfold opsS2
  after_results_simp

theorem keep2_arg10 (V : Valuation τ sig (Elt F)) :
    after (opsS2 (F := F)) V (main_arg10 : DevRef τ sig) = (V (main_arg10 : DevRef τ sig)) := by
  unfold opsS2
  after_results_simp

theorem keep2_arg11 (V : Valuation τ sig (Elt F)) :
    after (opsS2 (F := F)) V (main_arg11 : DevRef τ sig) = (V (main_arg11 : DevRef τ sig)) := by
  unfold opsS2
  after_results_simp

theorem keep2_arg12 (V : Valuation τ sig (Elt F)) :
    after (opsS2 (F := F)) V (main_arg12 : DevRef τ sig) = (V (main_arg12 : DevRef τ sig)) := by
  unfold opsS2
  after_results_simp

theorem keep2_arg13 (V : Valuation τ sig (Elt F)) :
    after (opsS2 (F := F)) V (main_arg13 : DevRef τ sig) = (V (main_arg13 : DevRef τ sig)) := by
  unfold opsS2
  after_results_simp

theorem keep2_arg14 (V : Valuation τ sig (Elt F)) :
    after (opsS2 (F := F)) V (main_arg14 : DevRef τ sig) = (V (main_arg14 : DevRef τ sig)) := by
  unfold opsS2
  after_results_simp

theorem keep2_arg15 (V : Valuation τ sig (Elt F)) :
    after (opsS2 (F := F)) V (main_arg15 : DevRef τ sig) = (V (main_arg15 : DevRef τ sig)) := by
  unfold opsS2
  after_results_simp

theorem keep2_arg16 (V : Valuation τ sig (Elt F)) :
    after (opsS2 (F := F)) V (main_arg16 : DevRef τ sig) = (V (main_arg16 : DevRef τ sig)) := by
  unfold opsS2
  after_results_simp

theorem keep2_arg17 (V : Valuation τ sig (Elt F)) :
    after (opsS2 (F := F)) V (main_arg17 : DevRef τ sig) = (V (main_arg17 : DevRef τ sig)) := by
  unfold opsS2
  after_results_simp

theorem keep2_arg18 (V : Valuation τ sig (Elt F)) :
    after (opsS2 (F := F)) V (main_arg18 : DevRef τ sig) = (V (main_arg18 : DevRef τ sig)) := by
  unfold opsS2
  after_results_simp

end Cert.ReferenceIdeal.RefRun

end
-- ==== Proof.RefStage1.lean ====
/-
  Stage 1 of the reference program as a line of operations, and what the line leaves in the buffers.

  `opsS1` lists the 68 operations of the stage in the program's order: the 46 the program writes itself and, at the
  place of its call of the outlined variance function, that function's 19 operations followed by the 3 of the selection
  it calls in turn, each over the buffers the call names. Read from ANY contents `V` of the buffers, the line leaves in
  its result buffer the term `stage1` of `V` at the seven buffers it reads (each operation's result substituted into
  its consumers, in order; the typed references of the outlined functions carry a transport along an equation between
  two spellings of one type, which is the identity), and leaves every argument buffer of the program as it was: no
  operation of the line writes one.
-/
import proofs.«146613_j41781441855727_2_alg».proof.ReferenceIdeal
import proofs.«146613_j41781441855727_2_alg».proof.Proof.Gen.ReferenceIdeal
import Idealize.ShloMosaic.Lib.StableHlo.Run
import proofs.«146613_j41781441855727_2_alg».proof.Proof.RefDefs

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The stage's 68 operations, in order. -/
def opsS1 : List (HloOp τ sig (Elt F)) :=
  [ StableHlo.nullary main_c_16 (constantI S_ 32 0#32),
    StableHlo.unary main_c_16 main_v76 (broadcastInDim S9x640000 ![] bcast_S_S9x640000 : (⟨S_, .i32⟩ : BufTy).Contents (Elt F) → (⟨S9x640000, .i32⟩ : BufTy).Contents (Elt F)),
    StableHlo.binary main_arg17 main_v76 main_v77 (cmpi .slt : (⟨S9x640000, .i32⟩ : BufTy).Contents (Elt F) → (⟨S9x640000, .i32⟩ : BufTy).Contents (Elt F) → (⟨S9x640000, .i1⟩ : BufTy).Contents (Elt F)),
    StableHlo.nullary main_c_17 (constantI S_ 32 640000#32),
    StableHlo.unary main_c_17 main_v78 (broadcastInDim S9x640000 ![] bcast_S_S9x640000 : (⟨S_, .i32⟩ : BufTy).Contents (Elt F) → (⟨S9x640000, .i32⟩ : BufTy).Contents (Elt F)),
    StableHlo.binary main_arg17 main_v78 main_v79 (addi : (⟨S9x640000, .i32⟩ : BufTy).Contents (Elt F) → (⟨S9x640000, .i32⟩ : BufTy).Contents (Elt F) → (⟨S9x640000, .i32⟩ : BufTy).Contents (Elt F)),
    StableHlo.ternary main_v77 main_v79 main_arg17 main_v80 (select : (⟨S9x640000, .i1⟩ : BufTy).Contents (Elt F) → (⟨S9x640000, .i32⟩ : BufTy).Contents (Elt F) → (⟨S9x640000, .i32⟩ : BufTy).Contents (Elt F) → (⟨S9x640000, .i32⟩ : BufTy).Contents (Elt F)),
    StableHlo.unary main_v80 main_v81 (broadcastInDim S9x640000x1 ![0, 1] bcast_S9x640000_S9x640000x1_0_1 : (⟨S9x640000, .i32⟩ : BufTy).Contents (Elt F) → (⟨S9x640000x1, .i32⟩ : BufTy).Contents (Elt F)),
    StableHlo.binary main_v75 main_v81 main_v82 ((fun x i => Host.gather gather_S640000x32_S9x640000x1_S9x640000x32_2_0_n_n_0_2_132 x i) : (⟨S640000x32, .f32⟩ : BufTy).Contents (Elt F) → (⟨S9x640000x1, .i32⟩ : BufTy).Contents (Elt F) → (⟨S9x640000x32, .f32⟩ : BufTy).Contents (Elt F)),
    StableHlo.binary main_v82 main_arg6 main_v83 ((fun l r => Host.dotGeneral dot_S9x640000x32_S9x32x32_S9x640000x32_2_1_1_2_0_0 none l r) : (⟨S9x640000x32, .f32⟩ : BufTy).Contents (Elt F) → (⟨S9x32x32, .f32⟩ : BufTy).Contents (Elt F) → (⟨S9x640000x32, .f32⟩ : BufTy).Contents (Elt F)),
    StableHlo.nullary main_cst_18 (constant S_ .f32 0x00000000#32),
    StableHlo.unary main_cst_18 main_v84 (broadcastInDim S2560000x32 ![] bcast_S_S2560000x32 : (⟨S_, .f32⟩ : BufTy).Contents (Elt F) → (⟨S2560000x32, .f32⟩ : BufTy).Contents (Elt F)),
    StableHlo.reshape main_arg18 main_v85 rfl shapeCasts_S9x640000_S5760000,
    StableHlo.reshape main_v83 main_v86 rfl shapeCasts_S9x640000x32_S5760000x32,
    StableHlo.nullary main_c_19 (constantI S_ 32 0#32),
    StableHlo.unary main_c_19 main_v87 (broadcastInDim S5760000 ![] bcast_S_S5760000 : (⟨S_, .i32⟩ : BufTy).Contents (Elt F) → (⟨S5760000, .i32⟩ : BufTy).Contents (Elt F)),
    StableHlo.binary main_v85 main_v87 main_v88 (cmpi .slt : (⟨S5760000, .i32⟩ : BufTy).Contents (Elt F) → (⟨S5760000, .i32⟩ : BufTy).Contents (Elt F) → (⟨S5760000, .i1⟩ : BufTy).Contents (Elt F)),
    StableHlo.nullary main_c_20 (constantI S_ 32 2560000#32),
    StableHlo.unary main_c_20 main_v89 (broadcastInDim S5760000 ![] bcast_S_S5760000 : (⟨S_, .i32⟩ : BufTy).Contents (Elt F) → (⟨S5760000, .i32⟩ : BufTy).Contents (Elt F)),
    StableHlo.binary main_v85 main_v89 main_v90 (addi : (⟨S5760000, .i32⟩ : BufTy).Contents (Elt F) → (⟨S5760000, .i32⟩ : BufTy).Contents (Elt F) → (⟨S5760000, .i32⟩ : BufTy).Contents (Elt F)),
    StableHlo.ternary main_v88 main_v90 main_v85 main_v91 (select : (⟨S5760000, .i1⟩ : BufTy).Contents (Elt F) → (⟨S5760000, .i32⟩ : BufTy).Contents (Elt F) → (⟨S5760000, .i32⟩ : BufTy).Contents (Elt F) → (⟨S5760000, .i32⟩ : BufTy).Contents (Elt F)),
    StableHlo.unary main_v91 main_v92 (broadcastInDim S5760000x1 ![0] bcast_S5760000_S5760000x1_0 : (⟨S5760000, .i32⟩ : BufTy).Contents (Elt F) → (⟨S5760000x1, .i32⟩ : BufTy).Contents (Elt F)),
    StableHlo.ternary main_v84 main_v92 main_v86 main_v93 ((fun x i u => Host.scatterAdd scatter_S2560000x32_S5760000x1_S5760000x32_1_0_0_1 x i u) : (⟨S2560000x32, .f32⟩ : BufTy).Contents (Elt F) → (⟨S5760000x1, .i32⟩ : BufTy).Contents (Elt F) → (⟨S5760000x32, .f32⟩ : BufTy).Contents (Elt F) → (⟨S2560000x32, .f32⟩ : BufTy).Contents (Elt F)),
    StableHlo.nullary main_cst_21 (constant S_ .f32 0x00000000#32),
    StableHlo.binary main_v93 main_cst_21 main_v94 ((fun x v => Host.reduceAdd x v reducesTo_S2560000x32_S32_d0 h_S_) : (⟨S2560000x32, .f32⟩ : BufTy).Contents (Elt F) → (⟨S_, .f32⟩ : BufTy).Contents (Elt F) → (⟨S32, .f32⟩ : BufTy).Contents (Elt F)),
    StableHlo.nullary main_cst_22 (constant S_ .f32 0x4A1C4000#32),
    StableHlo.unary main_cst_22 main_v95 (broadcastInDim S32 ![] bcast_S_S32 : (⟨S_, .f32⟩ : BufTy).Contents (Elt F) → (⟨S32, .f32⟩ : BufTy).Contents (Elt F)),
    StableHlo.binary main_v94 main_v95 main_v96 (Host.divf : (⟨S32, .f32⟩ : BufTy).Contents (Elt F) → (⟨S32, .f32⟩ : BufTy).Contents (Elt F) → (⟨S32, .f32⟩ : BufTy).Contents (Elt F)),
    StableHlo.nullary main_c_23 (constantI S_ 32 0#32),
    StableHlo.TRef.nullary main_call2.cst (constant S_ .f32 0x00000000#32),
    StableHlo.TRef.binary (TRef.of main_v93 : TRef sig ⟨S2560000x32, .f32⟩) main_call2.cst main_call2.v0 (fun x v => Host.reduceAdd x v reducesTo_S2560000x32_S32_d0 h_S_),
    StableHlo.TRef.unary main_call2.v0 main_call2.v1 (broadcastInDim S1x32 ![1] bcast_S32_S1x32_1),
    StableHlo.TRef.nullary main_call2.cst_0 (constant S_ .f32 0x4A1C4000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S2560000x32 ![0, 1] bcast_S1x32_S2560000x32_0_1),
    StableHlo.TRef.binary (TRef.of main_v93 : TRef sig ⟨S2560000x32, .f32⟩) main_call2.v4 main_call2.v5 subf,
    StableHlo.TRef.binary main_call2.v5 main_call2.v5 main_call2.v6 mulf,
    StableHlo.TRef.unary (TRef.of main_c_23 : TRef sig ⟨S_, .i32⟩) main_call2.v7 (sitofp .f32),
    StableHlo.TRef.nullary main_call2.cst_1 (constant S_ .f32 0x4A1C4000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S2560000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v96 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S2560000x32 ![0, 1] bcast_S1x32_S2560000x32_0_1 : (⟨S1x32, .f32⟩ : BufTy).Contents (Elt F) → (⟨S2560000x32, .f32⟩ : BufTy).Contents (Elt F)),
    StableHlo.binary main_v93 main_v99 main_v100 (subf : (⟨S2560000x32, .f32⟩ : BufTy).Contents (Elt F) → (⟨S2560000x32, .f32⟩ : BufTy).Contents (Elt F) → (⟨S2560000x32, .f32⟩ : BufTy).Contents (Elt F)),
    StableHlo.nullary main_cst_24 (constant S_ .f32 0x3727C5AC#32),
    StableHlo.unary main_cst_24 main_v101 (broadcastInDim S32 ![] bcast_S_S32 : (⟨S_, .f32⟩ : BufTy).Contents (Elt F) → (⟨S32, .f32⟩ : BufTy).Contents (Elt F)),
    StableHlo.binary main_v97 main_v101 main_v102 (addf : (⟨S32, .f32⟩ : BufTy).Contents (Elt F) → (⟨S32, .f32⟩ : BufTy).Contents (Elt F) → (⟨S32, .f32⟩ : BufTy).Contents (Elt F)),
    StableHlo.unary main_v102 main_v103 (Host.rsqrt : (⟨S32, .f32⟩ : BufTy).Contents (Elt F) → (⟨S32, .f32⟩ : BufTy).Contents (Elt F)),
    StableHlo.unary main_v103 main_v104 (broadcastInDim S1x32 ![1] bcast_S32_S1x32_1 : (⟨S32, .f32⟩ : BufTy).Contents (Elt F) → (⟨S1x32, .f32⟩ : BufTy).Contents (Elt F)),
    StableHlo.unary main_v104 main_v105 (broadcastInDim S2560000x32 ![0, 1] bcast_S1x32_S2560000x32_0_1 : (⟨S1x32, .f32⟩ : BufTy).Contents (Elt F) → (⟨S2560000x32, .f32⟩ : BufTy).Contents (Elt F)),
    StableHlo.binary main_v100 main_v105 main_v106 (mulf : (⟨S2560000x32, .f32⟩ : BufTy).Contents (Elt F) → (⟨S2560000x32, .f32⟩ : BufTy).Contents (Elt F) → (⟨S2560000x32, .f32⟩ : BufTy).Contents (Elt F)),
    StableHlo.unary main_arg11 main_v107 (broadcastInDim S1x32 ![1] bcast_S32_S1x32_1 : (⟨S32, .f32⟩ : BufTy).Contents (Elt F) → (⟨S1x32, .f32⟩ : BufTy).Contents (Elt F)),
    StableHlo.unary main_v107 main_v108 (broadcastInDim S2560000x32 ![0, 1] bcast_S1x32_S2560000x32_0_1 : (⟨S1x32, .f32⟩ : BufTy).Contents (Elt F) → (⟨S2560000x32, .f32⟩ : BufTy).Contents (Elt F)),
    StableHlo.binary main_v106 main_v108 main_v109 (mulf : (⟨S2560000x32, .f32⟩ : BufTy).Contents (Elt F) → (⟨S2560000x32, .f32⟩ : BufTy).Contents (Elt F) → (⟨S2560000x32, .f32⟩ : BufTy).Contents (Elt F)),
    StableHlo.unary main_arg12 main_v110 (broadcastInDim S1x32 ![1] bcast_S32_S1x32_1 : (⟨S32, .f32⟩ : BufTy).Contents (Elt F) → (⟨S1x32, .f32⟩ : BufTy).Contents (Elt F)),
    StableHlo.unary main_v110 main_v111 (broadcastInDim S2560000x32 ![0, 1] bcast_S1x32_S2560000x32_0_1 : (⟨S1x32, .f32⟩ : BufTy).Contents (Elt F) → (⟨S2560000x32, .f32⟩ : BufTy).Contents (Elt F)),
    StableHlo.binary main_v109 main_v111 main_v112 (addf : (⟨S2560000x32, .f32⟩ : BufTy).Contents (Elt F) → (⟨S2560000x32, .f32⟩ : BufTy).Contents (Elt F) → (⟨S2560000x32, .f32⟩ : BufTy).Contents (Elt F)),
    StableHlo.binary main_v112 main_arg3 main_v113 (addf : (⟨S2560000x32, .f32⟩ : BufTy).Contents (Elt F) → (⟨S2560000x32, .f32⟩ : BufTy).Contents (Elt F) → (⟨S2560000x32, .f32⟩ : BufTy).Contents (Elt F)) ]

/-- Every operation of the line touches buffers of the core only. -/
theorem opsS1_sub : (opsS1 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    reshape_bufs_sub .., reshape_bufs_sub .., nullary_bufs_sub .., unary_bufs_sub .., binary_bufs_sub .., nullary_bufs_sub ..,
    unary_bufs_sub .., binary_bufs_sub .., ternary_bufs_sub .., unary_bufs_sub .., ternary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the line determines all it writes. -/
theorem opsS1_fresh : ∀ op ∈ (opsS1 : List (HloOp τ sig (Elt F))), op.fresh = ∅ := by
  intro _ h
  unfold opsS1 at h
  repeat (cases h with | head => rfl | tail _ h => ?_)
  exact nomatch h

/-- What the line leaves in its result buffer: `stage1` of the contents it started from. -/
theorem read1 (V : Valuation τ sig (Elt F)) :
    after (opsS1 (F := F)) V (main_v113 : DevRef τ sig)
      = stage1 (V (main_v75 : DevRef τ sig)) (V (main_arg6 : DevRef τ sig)) (V (main_arg17 : DevRef τ sig)) (V (main_arg18 : DevRef τ sig)) (V (main_arg11 : DevRef τ sig)) (V (main_arg12 : DevRef τ sig)) (V (main_arg3 : DevRef τ sig)) := by
  unfold opsS1
  after_results_simp
  simp only [TRef.toBuf, TRef.ofBuf, cast_eq]
  rfl

/-! The line writes no argument buffer. -/

theorem keep1_arg0 (V : Valuation τ sig (Elt F)) :
    after (opsS1 (F := F)) V (main_arg0 : DevRef τ sig) = (V (main_arg0 : DevRef τ sig)) := by
  unfold opsS1
  after_results_simp

theorem keep1_arg1 (V : Valuation τ sig (Elt F)) :
    after (opsS1 (F := F)) V (main_arg1 : DevRef τ sig) = (V (main_arg1 : DevRef τ sig)) := by
  unfold opsS1
  after_results_simp

theorem keep1_arg2 (V : Valuation τ sig (Elt F)) :
    after (opsS1 (F := F)) V (main_arg2 : DevRef τ sig) = (V (main_arg2 : DevRef τ sig)) := by
  unfold opsS1
  after_results_simp

theorem keep1_arg3 (V : Valuation τ sig (Elt F)) :
    after (opsS1 (F := F)) V (main_arg3 : DevRef τ sig) = (V (main_arg3 : DevRef τ sig)) := by
  unfold opsS1
  after_results_simp

theorem keep1_arg4 (V : Valuation τ sig (Elt F)) :
    after (opsS1 (F := F)) V (main_arg4 : DevRef τ sig) = (V (main_arg4 : DevRef τ sig)) := by
  unfold opsS1
  after_results_simp

theorem keep1_arg5 (V : Valuation τ sig (Elt F)) :
    after (opsS1 (F := F)) V (main_arg5 : DevRef τ sig) = (V (main_arg5 : DevRef τ sig)) := by
  unfold opsS1
  after_results_simp

theorem keep1_arg6 (V : Valuation τ sig (Elt F)) :
    after (opsS1 (F := F)) V (main_arg6 : DevRef τ sig) = (V (main_arg6 : DevRef τ sig)) := by
  unfold opsS1
  after_results_simp

theorem keep1_arg7 (V : Valuation τ sig (Elt F)) :
    after (opsS1 (F := F)) V (main_arg7 : DevRef τ sig) = (V (main_arg7 : DevRef τ sig)) := by
  unfold opsS1
  after_results_simp

theorem keep1_arg8 (V : Valuation τ sig (Elt F)) :
    after (opsS1 (F := F)) V (main_arg8 : DevRef τ sig) = (V (main_arg8 : DevRef τ sig)) := by
  unfold opsS1
  after_results_simp

theorem keep1_arg9 (V : Valuation τ sig (Elt F)) :
    after (opsS1 (F := F)) V (main_arg9 : DevRef τ sig) = (V (main_arg9 : DevRef τ sig)) := by
  unfold opsS1
  after_results_simp

theorem keep1_arg10 (V : Valuation τ sig (Elt F)) :
    after (opsS1 (F := F)) V (main_arg10 : DevRef τ sig) = (V (main_arg10 : DevRef τ sig)) := by
  unfold opsS1
  after_results_simp

theorem keep1_arg11 (V : Valuation τ sig (Elt F)) :
    after (opsS1 (F := F)) V (main_arg11 : DevRef τ sig) = (V (main_arg11 : DevRef τ sig)) := by
  unfold opsS1
  after_results_simp

theorem keep1_arg12 (V : Valuation τ sig (Elt F)) :
    after (opsS1 (F := F)) V (main_arg12 : DevRef τ sig) = (V (main_arg12 : DevRef τ sig)) := by
  unfold opsS1
  after_results_simp

theorem keep1_arg13 (V : Valuation τ sig (Elt F)) :
    after (opsS1 (F := F)) V (main_arg13 : DevRef τ sig) = (V (main_arg13 : DevRef τ sig)) := by
  unfold opsS1
  after_results_simp

theorem keep1_arg14 (V : Valuation τ sig (Elt F)) :
    after (opsS1 (F := F)) V (main_arg14 : DevRef τ sig) = (V (main_arg14 : DevRef τ sig)) := by
  unfold opsS1
  after_results_simp

theorem keep1_arg15 (V : Valuation τ sig (Elt F)) :
    after (opsS1 (F := F)) V (main_arg15 : DevRef τ sig) = (V (main_arg15 : DevRef τ sig)) := by
  unfold opsS1
  after_results_simp

theorem keep1_arg16 (V : Valuation τ sig (Elt F)) :
    after (opsS1 (F := F)) V (main_arg16 : DevRef τ sig) = (V (main_arg16 : DevRef τ sig)) := by
  unfold opsS1
  after_results_simp

theorem keep1_arg17 (V : Valuation τ sig (Elt F)) :
    after (opsS1 (F := F)) V (main_arg17 : DevRef τ sig) = (V (main_arg17 : DevRef τ sig)) := by
  unfold opsS1
  after_results_simp

theorem keep1_arg18 (V : Valuation τ sig (Elt F)) :
    after (opsS1 (F := F)) V (main_arg18 : DevRef τ sig) = (V (main_arg18 : DevRef τ sig)) := by
  unfold opsS1
  after_results_simp

end Cert.ReferenceIdeal.RefRun

end
-- ==== Proof.RefRun.lean ====
/-
  The run of the reference program: every weakly fair execution of its @main terminates with the result buffer at the
  three stages composed, `stage1 (stage2 (stage3 …) …) …` of the arguments' contents at launch, and the arguments unchanged.

  The 204 operations of @main, listed window by window, are the three stages' lines in a row (the same list cut at other
  places). A straight line's run ends with every buffer at the fold of the operations' results over the launch contents;
  the fold over lines in a row is the fold of each over the fold of the one before; and each stage's fold, from any
  contents, puts `stageK` of what it reads into its result buffer and keeps the arguments. Chaining the three readings
  gives the composed term.
-/
import proofs.«146613_j41781441855727_2_alg».proof.ReferenceIdeal
import proofs.«146613_j41781441855727_2_alg».proof.Proof.Gen.ReferenceIdeal
import Idealize.ShloMosaic.Lib.StableHlo.Run
import Idealize.ShloMosaic.Lib.Pipeline.Frame
import proofs.«146613_j41781441855727_2_alg».proof.Proof.RefDefs
import proofs.«146613_j41781441855727_2_alg».proof.Proof.RefParts
import proofs.«146613_j41781441855727_2_alg».proof.Proof.RefStage3
import proofs.«146613_j41781441855727_2_alg».proof.Proof.RefStage2
import proofs.«146613_j41781441855727_2_alg».proof.Proof.RefStage1

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The three windows' lists in a row are the three stages' lists in a row: the same 204 operations in the same order. -/
theorem regroup : (ops0 ++ (ops1 ++ ops2) : List (HloOp τ sig (Elt F))) = opsS3 ++ (opsS2 ++ opsS1) := rfl

/-- @main is the line of the three stages' operations. -/
theorem main_eq (c : Dev nD) : main (F := F) c = seq (opsS3 ++ (opsS2 ++ opsS1)) :=
  (main_eq_parts c).trans (congrArg seq regroup)

theorem scopedRefs_eq : (Finset.univ.filter fun b : Ref sig .tc => b.isScoped) = ∅ := by decide
theorem scopedSems_eq : (Finset.univ.filter fun sm : SemLoc sig => sm.isScoped .tc) = ∅ := by decide

theorem ops_sub : (opsS3 ++ (opsS2 ++ opsS1) : List (HloOp τ sig (Elt F))).Forall fun op => op.bufs ⊆ tcRefs τ sig := by
  rw [List.forall_iff_forall_mem]
  intro op h
  rcases List.mem_append.mp h with h | h
  · exact List.forall_iff_forall_mem.mp opsS3_sub op h
  rcases List.mem_append.mp h with h | h
  · exact List.forall_iff_forall_mem.mp opsS2_sub op h
  · exact List.forall_iff_forall_mem.mp opsS1_sub op h

theorem ops_fresh : ∀ op ∈ (opsS3 ++ (opsS2 ++ opsS1) : List (HloOp τ sig (Elt F))), op.fresh = ∅ := by
  intro op h
  rcases List.mem_append.mp h with h | h
  · exact opsS3_fresh op h
  rcases List.mem_append.mp h with h | h
  · exact opsS2_fresh op h
  · exact opsS1_fresh op h

/-- The whole line's result: the three readings chained, each later stage reading the earlier one's result buffer and
    arguments no earlier stage wrote. -/
theorem result_eq (V : Valuation τ sig (Elt F)) :
    after (opsS3 ++ (opsS2 ++ opsS1) : List (HloOp τ sig (Elt F))) V (main_v113 : DevRef τ sig)
      = stage1 (stage2 (stage3 (V (main_arg0 : DevRef τ sig)) (V (main_arg4 : DevRef τ sig)) (V (main_arg13 : DevRef τ sig)) (V (main_arg14 : DevRef τ sig)) (V (main_arg7 : DevRef τ sig)) (V (main_arg8 : DevRef τ sig)) (V (main_arg1 : DevRef τ sig))) (V (main_arg5 : DevRef τ sig)) (V (main_arg15 : DevRef τ sig)) (V (main_arg16 : DevRef τ sig)) (V (main_arg9 : DevRef τ sig)) (V (main_arg10 : DevRef τ sig)) (V (main_arg2 : DevRef τ sig))) (V (main_arg6 : DevRef τ sig)) (V (main_arg17 : DevRef τ sig)) (V (main_arg18 : DevRef τ sig)) (V (main_arg11 : DevRef τ sig)) (V (main_arg12 : DevRef τ sig)) (V (main_arg3 : DevRef τ sig)) := by
  rw [after_append, after_append, read1, read2, read3,
    keep2_arg6, keep2_arg17, keep2_arg18, keep2_arg11, keep2_arg12, keep2_arg3,
    keep3_arg6, keep3_arg17, keep3_arg18, keep3_arg11, keep3_arg12, keep3_arg3, keep3_arg5, keep3_arg15, keep3_arg16, keep3_arg9, keep3_arg10, keep3_arg2]

/-! No stage writes an argument buffer, so the whole line keeps each. -/

theorem arg0_eq (V : Valuation τ sig (Elt F)) :
    after (opsS3 ++ (opsS2 ++ opsS1) : List (HloOp τ sig (Elt F))) V (main_arg0 : DevRef τ sig) = (V (main_arg0 : DevRef τ sig)) := by
  rw [after_append, after_append, keep1_arg0, keep2_arg0, keep3_arg0]

theorem arg1_eq (V : Valuation τ sig (Elt F)) :
    after (opsS3 ++ (opsS2 ++ opsS1) : List (HloOp τ sig (Elt F))) V (main_arg1 : DevRef τ sig) = (V (main_arg1 : DevRef τ sig)) := by
  rw [after_append, after_append, keep1_arg1, keep2_arg1, keep3_arg1]

theorem arg2_eq (V : Valuation τ sig (Elt F)) :
    after (opsS3 ++ (opsS2 ++ opsS1) : List (HloOp τ sig (Elt F))) V (main_arg2 : DevRef τ sig) = (V (main_arg2 : DevRef τ sig)) := by
  rw [after_append, after_append, keep1_arg2, keep2_arg2, keep3_arg2]

theorem arg3_eq (V : Valuation τ sig (Elt F)) :
    after (opsS3 ++ (opsS2 ++ opsS1) : List (HloOp τ sig (Elt F))) V (main_arg3 : DevRef τ sig) = (V (main_arg3 : DevRef τ sig)) := by
  rw [after_append, after_append, keep1_arg3, keep2_arg3, keep3_arg3]

theorem arg4_eq (V : Valuation τ sig (Elt F)) :
    after (opsS3 ++ (opsS2 ++ opsS1) : List (HloOp τ sig (Elt F))) V (main_arg4 : DevRef τ sig) = (V (main_arg4 : DevRef τ sig)) := by
  rw [after_append, after_append, keep1_arg4, keep2_arg4, keep3_arg4]

theorem arg5_eq (V : Valuation τ sig (Elt F)) :
    after (opsS3 ++ (opsS2 ++ opsS1) : List (HloOp τ sig (Elt F))) V (main_arg5 : DevRef τ sig) = (V (main_arg5 : DevRef τ sig)) := by
  rw [after_append, after_append, keep1_arg5, keep2_arg5, keep3_arg5]

theorem arg6_eq (V : Valuation τ sig (Elt F)) :
    after (opsS3 ++ (opsS2 ++ opsS1) : List (HloOp τ sig (Elt F))) V (main_arg6 : DevRef τ sig) = (V (main_arg6 : DevRef τ sig)) := by
  rw [after_append, after_append, keep1_arg6, keep2_arg6, keep3_arg6]

theorem arg7_eq (V : Valuation τ sig (Elt F)) :
    after (opsS3 ++ (opsS2 ++ opsS1) : List (HloOp τ sig (Elt F))) V (main_arg7 : DevRef τ sig) = (V (main_arg7 : DevRef τ sig)) := by
  rw [after_append, after_append, keep1_arg7, keep2_arg7, keep3_arg7]

theorem arg8_eq (V : Valuation τ sig (Elt F)) :
    after (opsS3 ++ (opsS2 ++ opsS1) : List (HloOp τ sig (Elt F))) V (main_arg8 : DevRef τ sig) = (V (main_arg8 : DevRef τ sig)) := by
  rw [after_append, after_append, keep1_arg8, keep2_arg8, keep3_arg8]

theorem arg9_eq (V : Valuation τ sig (Elt F)) :
    after (opsS3 ++ (opsS2 ++ opsS1) : List (HloOp τ sig (Elt F))) V (main_arg9 : DevRef τ sig) = (V (main_arg9 : DevRef τ sig)) := by
  rw [after_append, after_append, keep1_arg9, keep2_arg9, keep3_arg9]

theorem arg10_eq (V : Valuation τ sig (Elt F)) :
    after (opsS3 ++ (opsS2 ++ opsS1) : List (HloOp τ sig (Elt F))) V (main_arg10 : DevRef τ sig) = (V (main_arg10 : DevRef τ sig)) := by
  rw [after_append, after_append, keep1_arg10, keep2_arg10, keep3_arg10]

theorem arg11_eq (V : Valuation τ sig (Elt F)) :
    after (opsS3 ++ (opsS2 ++ opsS1) : List (HloOp τ sig (Elt F))) V (main_arg11 : DevRef τ sig) = (V (main_arg11 : DevRef τ sig)) := by
  rw [after_append, after_append, keep1_arg11, keep2_arg11, keep3_arg11]

theorem arg12_eq (V : Valuation τ sig (Elt F)) :
    after (opsS3 ++ (opsS2 ++ opsS1) : List (HloOp τ sig (Elt F))) V (main_arg12 : DevRef τ sig) = (V (main_arg12 : DevRef τ sig)) := by
  rw [after_append, after_append, keep1_arg12, keep2_arg12, keep3_arg12]

theorem arg13_eq (V : Valuation τ sig (Elt F)) :
    after (opsS3 ++ (opsS2 ++ opsS1) : List (HloOp τ sig (Elt F))) V (main_arg13 : DevRef τ sig) = (V (main_arg13 : DevRef τ sig)) := by
  rw [after_append, after_append, keep1_arg13, keep2_arg13, keep3_arg13]

theorem arg14_eq (V : Valuation τ sig (Elt F)) :
    after (opsS3 ++ (opsS2 ++ opsS1) : List (HloOp τ sig (Elt F))) V (main_arg14 : DevRef τ sig) = (V (main_arg14 : DevRef τ sig)) := by
  rw [after_append, after_append, keep1_arg14, keep2_arg14, keep3_arg14]

theorem arg15_eq (V : Valuation τ sig (Elt F)) :
    after (opsS3 ++ (opsS2 ++ opsS1) : List (HloOp τ sig (Elt F))) V (main_arg15 : DevRef τ sig) = (V (main_arg15 : DevRef τ sig)) := by
  rw [after_append, after_append, keep1_arg15, keep2_arg15, keep3_arg15]

theorem arg16_eq (V : Valuation τ sig (Elt F)) :
    after (opsS3 ++ (opsS2 ++ opsS1) : List (HloOp τ sig (Elt F))) V (main_arg16 : DevRef τ sig) = (V (main_arg16 : DevRef τ sig)) := by
  rw [after_append, after_append, keep1_arg16, keep2_arg16, keep3_arg16]

theorem arg17_eq (V : Valuation τ sig (Elt F)) :
    after (opsS3 ++ (opsS2 ++ opsS1) : List (HloOp τ sig (Elt F))) V (main_arg17 : DevRef τ sig) = (V (main_arg17 : DevRef τ sig)) := by
  rw [after_append, after_append, keep1_arg17, keep2_arg17, keep3_arg17]

theorem arg18_eq (V : Valuation τ sig (Elt F)) :
    after (opsS3 ++ (opsS2 ++ opsS1) : List (HloOp τ sig (Elt F))) V (main_arg18 : DevRef τ sig) = (V (main_arg18 : DevRef τ sig)) := by
  rw [after_append, after_append, keep1_arg18, keep2_arg18, keep3_arg18]

/-- On every device, for any float values, from any memory with zero counters: every weakly fair execution of @main
    terminates with the result buffer at the three stages composed over the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v113)
        = stage1 (stage2 (stage3 (m ((c.tc : Thread nD τ).loc main_arg0)) (m ((c.tc : Thread nD τ).loc main_arg4)) (m ((c.tc : Thread nD τ).loc main_arg13)) (m ((c.tc : Thread nD τ).loc main_arg14)) (m ((c.tc : Thread nD τ).loc main_arg7)) (m ((c.tc : Thread nD τ).loc main_arg8)) (m ((c.tc : Thread nD τ).loc main_arg1))) (m ((c.tc : Thread nD τ).loc main_arg5)) (m ((c.tc : Thread nD τ).loc main_arg15)) (m ((c.tc : Thread nD τ).loc main_arg16)) (m ((c.tc : Thread nD τ).loc main_arg9)) (m ((c.tc : Thread nD τ).loc main_arg10)) (m ((c.tc : Thread nD τ).loc main_arg2))) (m ((c.tc : Thread nD τ).loc main_arg6)) (m ((c.tc : Thread nD τ).loc main_arg17)) (m ((c.tc : Thread nD τ).loc main_arg18)) (m ((c.tc : Thread nD τ).loc main_arg11)) (m ((c.tc : Thread nD τ).loc main_arg12)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_v113).trans (result_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c)),
      (h c main_arg6).trans (arg6_eq (launchContents m c)), (h c main_arg7).trans (arg7_eq (launchContents m c)),
      (h c main_arg8).trans (arg8_eq (launchContents m c)), (h c main_arg9).trans (arg9_eq (launchContents m c)),
      (h c main_arg10).trans (arg10_eq (launchContents m c)), (h c main_arg11).trans (arg11_eq (launchContents m c)),
      (h c main_arg12).trans (arg12_eq (launchContents m c)), (h c main_arg13).trans (arg13_eq (launchContents m c)),
      (h c main_arg14).trans (arg14_eq (launchContents m c)), (h c main_arg15).trans (arg15_eq (launchContents m c)),
      (h c main_arg16).trans (arg16_eq (launchContents m c)), (h c main_arg17).trans (arg17_eq (launchContents m c)),
      (h c main_arg18).trans (arg18_eq (launchContents m c))⟩)
    (run_seq scopedRefs_eq scopedSems_eq defs main (fun _ => opsS3 ++ (opsS2 ++ opsS1)) main_eq (fun _ => ops_sub) m ρ
      (fun _ => ops_fresh))

end Cert.ReferenceIdeal.RefRun

end
-- ==== Proof.PreReal.lean ====
/-
  The precondition decoded: under it every entry of the thirteen float arguments is a real number.

  The precondition is the conjunction, argument by argument, of "every entry's absolute value is below the word
  0x7F800000", each read as an `and`-reduction over the whole array that comes out 1. A reduction by `and` into a single
  result that is 1 had a 1 at every entry; the word is +∞; and an extended real whose absolute value `max x (-x)` is below +∞
  is neither infinity, hence a real.
-/
import proofs.«146613_j41781441855727_2_alg».proof.Defs
import proofs.«146613_j41781441855727_2_alg».proof.Proof.Gen.Pre_finite_inputs
import proofs.«146613_j41781441855727_2_alg».proof.Proof.BridgeReal
import Idealize.ShloMosaic.Lib.ReduceAll
import Idealize.ShloMosaic.Lib.ValueIdx

noncomputable section

namespace Cert.Bridge

open Idealize.ShloMosaic Idealize.SL.Sem

/-- The scalar shape has one index. -/
instance subsingleton_scalarIdx : Subsingleton (Cert.Pre_finite_inputs.S_.Idx) := ⟨fun a b => funext fun d => d.elim0⟩

/-- The word 0x7F800000 is +∞. -/
theorem ofBits_inf : Ideal.ofBits .f32 0x7F800000#32 = ⊤ := by simp [Ideal.ofBits, Ideal.ieee]

/-- An extended real whose absolute value compares below +∞ is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  change Ideal.cmp .olt (max x (-x)) ⊤ = 1#1 at h
  induction x using EReal.rec with
  | bot => simp [Ideal.cmp] at h
  | coe r => exact ⟨r, rfl⟩
  | top => simp [Ideal.cmp] at h

/-- An array whose "all entries' absolute values are below the word" reduction is 1 is an array of reals. -/
theorem isReal_of_all {s : Shape} {axes : List (Fin s.rank)} (x : FVec Ideal s .f32)
    (hb : Cert.Pre_finite_inputs.S_.BroadcastsInDim s (![] : Fin 0 → Fin s.rank)) (hr : s.ReducesTo axes Cert.Pre_finite_inputs.S_)
    (hu : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ValueIdx.ix0 = 1#1) :
    IsReal x :=
  fun i => real_of_abs_lt (x i) (Host.reduce_andi_all _ _ hr hu ValueIdx.ix0 e i)

/-- Under the precondition the thirteen float arguments are arrays of reals. -/
theorem real_of_pre [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3))
    ∧ IsReal (m ((c.tc : Thread Cert.KernelIdeal.nD Cert.KernelIdeal.τ).loc Cert.KernelIdeal.main_arg4))
    ∧ IsReal (m ((c.tc : Thread Cert.KernelIdeal.nD Cert.KernelIdeal.τ).loc Cert.KernelIdeal.main_arg5))
    ∧ IsReal (m ((c.tc : Thread Cert.KernelIdeal.nD Cert.KernelIdeal.τ).loc Cert.KernelIdeal.main_arg6))
    ∧ IsReal (m ((c.tc : Thread Cert.KernelIdeal.nD Cert.KernelIdeal.τ).loc Cert.KernelIdeal.main_arg7))
    ∧ IsReal (m ((c.tc : Thread Cert.KernelIdeal.nD Cert.KernelIdeal.τ).loc Cert.KernelIdeal.main_arg8))
    ∧ IsReal (m ((c.tc : Thread Cert.KernelIdeal.nD Cert.KernelIdeal.τ).loc Cert.KernelIdeal.main_arg9))
    ∧ IsReal (m ((c.tc : Thread Cert.KernelIdeal.nD Cert.KernelIdeal.τ).loc Cert.KernelIdeal.main_arg10))
    ∧ IsReal (m ((c.tc : Thread Cert.KernelIdeal.nD Cert.KernelIdeal.τ).loc Cert.KernelIdeal.main_arg11))
    ∧ IsReal (m ((c.tc : Thread Cert.KernelIdeal.nD Cert.KernelIdeal.τ).loc Cert.KernelIdeal.main_arg12)) := by
  have h0 := congrFun (h c) ValueIdx.ix0
  dsimp only [Cert.Pre_finite_inputs.fn, Cert.Pre_finite_inputs.fn_part1, Cert.Pre_finite_inputs.fn_part2,
    Cert.Pre_finite_inputs.fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ _ e0, isReal_of_all _ _ _ _ e1, isReal_of_all _ _ _ _ e2, isReal_of_all _ _ _ _ e3, isReal_of_all _ _ _ _ e4, isReal_of_all _ _ _ _ e5, isReal_of_all _ _ _ _ e6, isReal_of_all _ _ _ _ e7, isReal_of_all _ _ _ _ e8, isReal_of_all _ _ _ _ e9, isReal_of_all _ _ _ _ e10, isReal_of_all _ _ _ _ e11, isReal_of_all _ _ _ _ e12⟩

end Cert.Bridge

end
-- ==== Proof.lean ====
/-
  The proof of `Cert.Claim`: a sparse decoder of three stages — gather rows by an index table, multiply by a weight per offset,
  scatter-add into the finer level, normalise every column by its batch statistics, add the residual — as three tiled kernels
  per stage (the batched product tiled over the rows, the column statistics accumulated over row tiles in two scratch rows, the
  normalisation tiled over the rows) against the plain reference program.

  Frames. Each program's @main is a list of segments, host stretches alternating with kernel regions; every region's body runs
  at every grid point (the products and the normalisation store their whole output block; the statistics kernel zeroes its two
  accumulators at the first point, adds the block's column sums and column sums of squares at every point and emits mean and
  variance at the last), the launch over the segments gives termination without a fault, and no segment writes an argument array.
  The reference's @main is host operations only; its run is read operation by operation.

  Values, on the extended reals. A change of float format is the identity, so the gathered rows and the weights are the
  reference's; a slab-wise matrix product per offset is the reference's batched contraction, sum by sum; the scatter-add is the
  same operation of equal operands; the running column sums over the row tiles regroup to the whole column sums (addition is
  commutative and associative on the extended reals), so the means agree; the variances — mean of squares minus squared mean
  against mean of squared deviations — agree because the scattered sums are finite reals (finite inputs: the precondition), and
  are nonnegative reals, so the reciprocal square root of variance plus epsilon is a real and each stage hands finite reals to
  the next; the normalisation is the same formula entry by entry.
-/
import proofs.«146613_j41781441855727_2_alg».proof.Defs
import proofs.«146613_j41781441855727_2_alg».proof.Proof.Gen.Kernel
import proofs.«146613_j41781441855727_2_alg».proof.Proof.Gen.KernelIdeal
import proofs.«146613_j41781441855727_2_alg».proof.Proof.Gen.ReferenceIdeal
import proofs.«146613_j41781441855727_2_alg».proof.Proof.Gen.Pre_finite_inputs
import proofs.«146613_j41781441855727_2_alg».proof.Proof.KKernelFrame
import proofs.«146613_j41781441855727_2_alg».proof.Proof.KernelFrame
import proofs.«146613_j41781441855727_2_alg».proof.Proof.KValue
import proofs.«146613_j41781441855727_2_alg».proof.Proof.RefRun
import proofs.«146613_j41781441855727_2_alg».proof.Proof.PreReal
import Idealize.ShloMosaic.Adequacy
import Idealize.ShloMosaic.Init

set_option maxRecDepth 16384
set_option maxHeartbeats 4000000

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- Both idealised programs end with the same result array: the kernel program's last boundary holds, at the result's
    buffer, the reference's three stages of the argument arrays (finite reals by the precondition). -/
theorem algebraic : @Cert.algebraic_KernelIdeal_ReferenceIdeal Cert.KernelIdeal.Gen.facts Cert.ReferenceIdeal.Gen.facts Cert.Pre_finite_inputs.Gen.facts := by
  intro m g m' g' hpre hagree
  refine ⟨fun c => Cert.KernelIdeal.Hand.W18 m c (Proc.devRef .tc Cert.KernelIdeal.main_v71), ?_, ?_⟩
  · refine (θ_run Cert.KernelIdeal.defs _ _).mono (fun r h c => ?_) (Cert.KernelIdeal.Hand.run_main m g)
    exact ⟨h c _ (Cert.KernelIdeal.Hand.mem_uc Cert.KernelIdeal.main_v71 (by decide)),
      (h c _ (Cert.KernelIdeal.Hand.mem_uc Cert.KernelIdeal.main_arg0 (by decide))).trans (Cert.KernelIdeal.Hand.W18_main_arg0 m c),
      (h c _ (Cert.KernelIdeal.Hand.mem_uc Cert.KernelIdeal.main_arg1 (by decide))).trans (Cert.KernelIdeal.Hand.W18_main_arg1 m c),
      (h c _ (Cert.KernelIdeal.Hand.mem_uc Cert.KernelIdeal.main_arg2 (by decide))).trans (Cert.KernelIdeal.Hand.W18_main_arg2 m c),
      (h c _ (Cert.KernelIdeal.Hand.mem_uc Cert.KernelIdeal.main_arg3 (by decide))).trans (Cert.KernelIdeal.Hand.W18_main_arg3 m c),
      (h c _ (Cert.KernelIdeal.Hand.mem_uc Cert.KernelIdeal.main_arg4 (by decide))).trans (Cert.KernelIdeal.Hand.W18_main_arg4 m c),
      (h c _ (Cert.KernelIdeal.Hand.mem_uc Cert.KernelIdeal.main_arg5 (by decide))).trans (Cert.KernelIdeal.Hand.W18_main_arg5 m c),
      (h c _ (Cert.KernelIdeal.Hand.mem_uc Cert.KernelIdeal.main_arg6 (by decide))).trans (Cert.KernelIdeal.Hand.W18_main_arg6 m c),
      (h c _ (Cert.KernelIdeal.Hand.mem_uc Cert.KernelIdeal.main_arg7 (by decide))).trans (Cert.KernelIdeal.Hand.W18_main_arg7 m c),
      (h c _ (Cert.KernelIdeal.Hand.mem_uc Cert.KernelIdeal.main_arg8 (by decide))).trans (Cert.KernelIdeal.Hand.W18_main_arg8 m c),
      (h c _ (Cert.KernelIdeal.Hand.mem_uc Cert.KernelIdeal.main_arg9 (by decide))).trans (Cert.KernelIdeal.Hand.W18_main_arg9 m c),
      (h c _ (Cert.KernelIdeal.Hand.mem_uc Cert.KernelIdeal.main_arg10 (by decide))).trans (Cert.KernelIdeal.Hand.W18_main_arg10 m c),
      (h c _ (Cert.KernelIdeal.Hand.mem_uc Cert.KernelIdeal.main_arg11 (by decide))).trans (Cert.KernelIdeal.Hand.W18_main_arg11 m c),
      (h c _ (Cert.KernelIdeal.Hand.mem_uc Cert.KernelIdeal.main_arg12 (by decide))).trans (Cert.KernelIdeal.Hand.W18_main_arg12 m c),
      (h c _ (Cert.KernelIdeal.Hand.mem_uc Cert.KernelIdeal.main_arg13 (by decide))).trans (Cert.KernelIdeal.Hand.W18_main_arg13 m c),
      (h c _ (Cert.KernelIdeal.Hand.mem_uc Cert.KernelIdeal.main_arg14 (by decide))).trans (Cert.KernelIdeal.Hand.W18_main_arg14 m c),
      (h c _ (Cert.KernelIdeal.Hand.mem_uc Cert.KernelIdeal.main_arg15 (by decide))).trans (Cert.KernelIdeal.Hand.W18_main_arg15 m c),
      (h c _ (Cert.KernelIdeal.Hand.mem_uc Cert.KernelIdeal.main_arg16 (by decide))).trans (Cert.KernelIdeal.Hand.W18_main_arg16 m c),
      (h c _ (Cert.KernelIdeal.Hand.mem_uc Cert.KernelIdeal.main_arg17 (by decide))).trans (Cert.KernelIdeal.Hand.W18_main_arg17 m c),
      (h c _ (Cert.KernelIdeal.Hand.mem_uc Cert.KernelIdeal.main_arg18 (by decide))).trans (Cert.KernelIdeal.Hand.W18_main_arg18 m c)⟩
  · refine (θ_run Cert.ReferenceIdeal.defs _ _).mono (fun r h c => ⟨(h c).1.trans ?_, (h c).2⟩) (Cert.ReferenceIdeal.RefRun.run (F := Ideal) m' g')
    obtain ⟨a0, a1, a2, a3, a4, a5, a6, a7, a8, a9, a10, a11, a12, a13, a14, a15, a16, a17, a18⟩ := hagree c
    obtain ⟨r0, r1, r2, r3, r4, r5, r6, r7, r8, r9, r10, r11, r12⟩ := Cert.Bridge.real_of_pre m hpre c
    rw [a0, a1, a2, a3, a4, a5, a6, a7, a8, a9, a10, a11, a12, a13, a14, a15, a16, a17, a18]
    exact (Cert.KernelIdeal.HandValue.kernel_value m c r0 r1 r2 r3 r4 r5 r6 r7 r8 r9 r10 r11 r12).symm

theorem claim : Cert.Claim :=
  ⟨Cert.Kernel.Gen.facts, Cert.KernelIdeal.Gen.facts, Cert.ReferenceIdeal.Gen.facts, Cert.Pre_finite_inputs.Gen.facts, frame_k, frame_ki, frame_ri, trivial, algebraic⟩

end Cert.Proof

end
